-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x100 : Shape := ⟨2, ![100000, 100]⟩
abbrev S1000000x100 : Shape := ⟨2, ![1000000, 100]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1000000x100 : S_.BroadcastsInDim S1000000x100 (![] : Fin 0 → Fin S1000000x100.rank)
  reducesTo_S1000000x100_S_d0_1 : S1000000x100.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg1 : IVec S4096x200 32) (main_v15 : IVec S_ 1) (main_c_5 : IVec S_ 32) : IVec S_ 1 :=
  let main_v16 : IVec S4096x200 32 := broadcastInDim S4096x200 ![] bcast_S_S4096x200 main_c_5
  let main_v17 : IVec S4096x200 1 := cmpi .sge main_arg1 main_v16
  let main_c_6 : IVec S_ 32 := constantI S_ 32 999999#32
  let main_v18 : IVec S4096x200 32 := broadcastInDim S4096x200 ![] bcast_S_S4096x200 main_c_6
  let main_v19 : IVec S4096x200 1 := cmpi .sle main_arg1 main_v18
  let main_v20 : IVec S4096x200 1 := andi main_v17 main_v19
  let main_c_7 : IVec S_ 1 := constantI S_ 1 1#1
  let main_v21 : IVec S_ 1 := (fun x v => Host.reduce IntOp.andi x v reducesTo_S4096x200_S_d0_1 h_S_) main_v20 main_c_7
  let main_v22 : IVec S_ 1 := andi main_v15 main_v21
  main_v22

def fn {F : FTy → Type} [FloatOps F] (main_arg0 : IVec S4096x200 32) (main_arg1 : IVec S4096x200 32) (main_arg2 : FVec F S100000x100 .f32) (main_arg3 : FVec F S1000000x100 .f32) : IVec S_ 1 :=
  let main_v0 : FVec F S100000x100 .f32 := Host.absf main_arg2
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1000000x100 .f32 := Host.absf main_arg3
  let main_cst_0 : FVec F S_ .f32 := constant S_ .f32 0x7F800000#32
  let main_v5 : FVec F S1000000x100 .f32 := broadcastInDim S1000000x100 ![] bcast_S_S1000000x100 main_cst_0
  let main_v6 : IVec S1000000x100 1 := cmpf .olt main_v4 main_v5
  let main_c_1 : IVec S_ 1 := constantI S_ 1 1#1
  let main_v7 : IVec S_ 1 := (fun x v => Host.reduce IntOp.andi x v reducesTo_S1000000x100_S_d0_1 h_S_) main_v6 main_c_1
  let main_v8 : IVec S_ 1 := andi main_v3 main_v7
  let main_c_2 : IVec S_ 32 := constantI S_ 32 0#32
  let main_v9 : IVec S4096x200 32 := broadcastInDim S4096x200 ![] bcast_S_S4096x200 main_c_2
  let main_v10 : IVec S4096x200 1 := cmpi .sge main_arg0 main_v9
  let main_c_3 : IVec S_ 32 := constantI S_ 32 99999#32
  let main_v11 : IVec S4096x200 32 := broadcastInDim S4096x200 ![] bcast_S_S4096x200 main_c_3
  let main_v12 : IVec S4096x200 1 := cmpi .sle main_arg0 main_v11
  let main_v13 : IVec S4096x200 1 := andi main_v10 main_v12
  let main_c_4 : IVec S_ 1 := constantI S_ 1 1#1
  let main_v14 : IVec S_ 1 := (fun x v => Host.reduce IntOp.andi x v reducesTo_S4096x200_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S4096x200 : Shape := ⟨2, ![4096, 200]⟩
abbrev S100000x100 : Shape := ⟨2, ![100000, 100]⟩
abbrev S1000000x100 : Shape := ⟨2, ![1000000, 100]⟩
abbrev S100000x128 : Shape := ⟨2, ![100000, 128]⟩
abbrev S20000x100 : Shape := ⟨2, ![20000, 100]⟩
abbrev S20000x128 : Shape := ⟨2, ![20000, 128]⟩
abbrev S20000x28 : Shape := ⟨2, ![20000, 28]⟩
abbrev S1000000x128 : Shape := ⟨2, ![1000000, 128]⟩
abbrev S819200x100 : Shape := ⟨2, ![819200, 100]⟩
abbrev S8x200 : Shape := ⟨2, ![8, 200]⟩
abbrev S128x128 : Shape := ⟨2, ![128, 128]⟩
abbrev S72x128 : Shape := ⟨2, ![72, 128]⟩
abbrev S128x100 : Shape := ⟨2, ![128, 100]⟩
abbrev S72x100 : Shape := ⟨2, ![72, 100]⟩
abbrev S_ : Shape := ⟨0, ![]⟩
abbrev S1x128 : Shape := ⟨2, ![1, 128]⟩
abbrev S128 : Shape := ⟨1, ![128]⟩
abbrev S1x72 : Shape := ⟨2, ![1, 72]⟩
abbrev S72 : Shape := ⟨1, ![72]⟩
abbrev S1x16 : Shape := ⟨2, ![1, 16]⟩
abbrev S16 : Shape := ⟨1, ![16]⟩
abbrev S4096x200x100 : Shape := ⟨3, ![4096, 200, 100]⟩

abbrev nBuf : Table → Nat
  | .hbm => 8
  | .local .tc .vmem => 8
  | .local .scVector .vmem => 10
  | _ => 0

abbrev bufTy : (tb : Table) → Fin (nBuf tb) → BufTy
  | .hbm, ⟨0, _⟩ => ⟨S4096x200, .i32⟩
  | .hbm, ⟨1, _⟩ => ⟨S4096x200, .i32⟩
  | .hbm, ⟨2, _⟩ => ⟨S100000x100, .f32⟩
  | .hbm, ⟨3, _⟩ => ⟨S1000000x100, .f32⟩
  | .hbm, ⟨4, _⟩ => ⟨S100000x128, .f32⟩
  | .hbm, ⟨5, _⟩ => ⟨S1000000x128, .f32⟩
  | .hbm, ⟨6, _⟩ => ⟨S819200x100, .f32⟩
  | .hbm, ⟨7, _⟩ => ⟨S4096x200x100, .f32⟩
  | .local .tc .vmem, ⟨0, _⟩ => ⟨S20000x100, .f32⟩
  | .local .tc .vmem, ⟨1, _⟩ => ⟨S20000x100, .f32⟩
  | .local .tc .vmem, ⟨2, _⟩ => ⟨S20000x128, .f32⟩
  | .local .tc .vmem, ⟨3, _⟩ => ⟨S20000x128, .f32⟩
  | .local .tc .vmem, ⟨4, _⟩ => ⟨S20000x100, .f32⟩
  | .local .tc .vmem, ⟨5, _⟩ => ⟨S20000x100, .f32⟩
  | .local .tc .vmem, ⟨6, _⟩ => ⟨S20000x128, .f32⟩
  | .local .tc .vmem, ⟨7, _⟩ => ⟨S20000x128, .f32⟩
  | .local .scVector .vmem, ⟨0, _⟩ => ⟨S8x200, .i32⟩
  | .local .scVector .vmem, ⟨1, _⟩ => ⟨S8x200, .i32⟩
  | .local .scVector .vmem, ⟨2, _⟩ => ⟨S8x200, .i32⟩
  | .local .scVector .vmem, ⟨3, _⟩ => ⟨S8x200, .i32⟩
  | .local .scVector .vmem, ⟨4, _⟩ => ⟨S128x128, .f32⟩
  | .local .scVector .vmem, ⟨5, _⟩ => ⟨S128x128, .f32⟩
  | .local .scVector .vmem, ⟨6, _⟩ => ⟨S72x128, .f32⟩
  | .local .scVector .vmem, ⟨7, _⟩ => ⟨S72x128, .f32⟩
  | .local .scVector .vmem, ⟨8, _⟩ => ⟨S128x100, .f32⟩
  | .local .scVector .vmem, ⟨9, _⟩ => ⟨S72x100, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc2_scratch8 : Ref sig .scVector := ⟨.vmem, 8, rfl⟩
abbrev cc2_scratch9 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_28_r0 : BitVec 32 := 0#32
  ![v2.toNat, 0]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_1 : BitVec 32 := 8#32
  let v5 : BitVec 32 := Scalar.addi v2 c8_i32_1
  let c0_i32 : BitVec 32 := 0#32
  ![v5.toNat, 0]
@[reducible] def k2_t1_loop : Scf.Loop 32 :=
  let c0_i32_13 : BitVec 32 := 0#32
  let c8_i32_14 : BitVec 32 := 8#32
  let v16 : BitVec 32 := Scalar.addi c0_i32_13 c8_i32_14
  let c1_i32 : BitVec 32 := 1#32
  ⟨c0_i32_13, v16, c1_i32⟩
@[reducible] def k2_t2_loop : Scf.Loop 32 :=
  let c0_i32_45 : BitVec 32 := 0#32
  let c128_i32_46 : BitVec 32 := 128#32
  let v43 : BitVec 32 := Scalar.addi c0_i32_45 c128_i32_46
  let c1_i32_47 : BitVec 32 := 1#32
  ⟨c0_i32_45, v43, c1_i32_47⟩
def k2_off3 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v548 : Index := Scalar.indexCast arg24
  let c0 : Index := 0#32
  ![v548.toNat, 0]
def k2_off4 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v555 : Index := Scalar.indexCast arg24
  let c16 : Index := 16#32
  ![v555.toNat, 16]
def k2_off5 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v562 : Index := Scalar.indexCast arg24
  let c32 : Index := 32#32
  ![v562.toNat, 32]
def k2_off6 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v569 : Index := Scalar.indexCast arg24
  let c48 : Index := 48#32
  ![v569.toNat, 48]
def k2_off7 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v576 : Index := Scalar.indexCast arg24
  let c64 : Index := 64#32
  ![v576.toNat, 64]
def k2_off8 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v583 : Index := Scalar.indexCast arg24
  let c80 : Index := 80#32
  ![v583.toNat, 80]
def k2_off9 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v590 : Index := Scalar.indexCast arg24
  let c84 : Index := 84#32
  ![v590.toNat, 84]
def k2_off10 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v597 : Index := Scalar.indexCast arg24
  let c0_745 : Index := 0#32
  ![v597.toNat, 0]
def k2_off11 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v601 : Index := Scalar.indexCast arg24
  let c16_746 : Index := 16#32
  ![v601.toNat, 16]
def k2_off12 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v605 : Index := Scalar.indexCast arg24
  let c32_747 : Index := 32#32
  ![v605.toNat, 32]
def k2_off13 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v609 : Index := Scalar.indexCast arg24
  let c48_748 : Index := 48#32
  ![v609.toNat, 48]
def k2_off14 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v613 : Index := Scalar.indexCast arg24
  let c64_749 : Index := 64#32
  ![v613.toNat, 64]
def k2_off15 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v617 : Index := Scalar.indexCast arg24
  let c80_750 : Index := 80#32
  ![v617.toNat, 80]
def k2_off16 (k2_t2 : Fin k2_t2_loop.trips) : Fin 2 → Nat :=
  let c0_i32_45 : BitVec 32 := 0#32
  let c1_i32_47 : BitVec 32 := 1#32
  let arg24 : BitVec 32 := Scf.iv c0_i32_45 c1_i32_47 k2_t2
  let v621 : Index := Scalar.indexCast arg24
  let c84_751 : Index := 84#32
  ![v621.toNat, 84]
def k2_off17 (i : grid2.Coords) (k2_t1 : Fin k2_t1_loop.trips) (c0_i32_28 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32 : BitVec 32 := 16#32
  let c0_i32_13 : BitVec 32 := 0#32
  let c1_i32 : BitVec 32 := 1#32
  let arg23 : BitVec 32 := Scf.iv c0_i32_13 c1_i32 k2_t1
  let v27 : BitVec 32 := Scalar.muli c16_i32 arg23
  let v28 : BitVec 32 := Scalar.addi v27 c0_i32_28
  let v29 : BitVec 32 := Scalar.addi v2 v28
  let c200_i32 : BitVec 32 := 200#32
  let v30 : BitVec 32 := Scalar.muli v29 c200_i32
  let c0_i32_738_r2 : BitVec 32 := 0#32
  ![v30.toNat, 0]
@[reducible] def k2_t3_loop : Scf.Loop 32 :=
  let c0_i32_65 : BitVec 32 := 0#32
  let c72_i32 : BitVec 32 := 72#32
  let v56 : BitVec 32 := Scalar.addi c0_i32_65 c72_i32
  let c1_i32_66 : BitVec 32 := 1#32
  ⟨c0_i32_65, v56, c1_i32_66⟩
def k2_off18 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v548 : Index := Scalar.indexCast arg24
  let c0 : Index := 0#32
  ![v548.toNat, 0]
def k2_off19 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v555 : Index := Scalar.indexCast arg24
  let c16 : Index := 16#32
  ![v555.toNat, 16]
def k2_off20 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v562 : Index := Scalar.indexCast arg24
  let c32 : Index := 32#32
  ![v562.toNat, 32]
def k2_off21 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v569 : Index := Scalar.indexCast arg24
  let c48 : Index := 48#32
  ![v569.toNat, 48]
def k2_off22 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v576 : Index := Scalar.indexCast arg24
  let c64 : Index := 64#32
  ![v576.toNat, 64]
def k2_off23 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v583 : Index := Scalar.indexCast arg24
  let c80 : Index := 80#32
  ![v583.toNat, 80]
def k2_off24 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v590 : Index := Scalar.indexCast arg24
  let c84 : Index := 84#32
  ![v590.toNat, 84]
def k2_off25 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v597 : Index := Scalar.indexCast arg24
  let c0_745 : Index := 0#32
  ![v597.toNat, 0]
def k2_off26 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v601 : Index := Scalar.indexCast arg24
  let c16_746 : Index := 16#32
  ![v601.toNat, 16]
def k2_off27 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v605 : Index := Scalar.indexCast arg24
  let c32_747 : Index := 32#32
  ![v605.toNat, 32]
def k2_off28 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v609 : Index := Scalar.indexCast arg24
  let c48_748 : Index := 48#32
  ![v609.toNat, 48]
def k2_off29 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v613 : Index := Scalar.indexCast arg24
  let c64_749 : Index := 64#32
  ![v613.toNat, 64]
def k2_off30 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v617 : Index := Scalar.indexCast arg24
  let c80_750 : Index := 80#32
  ![v617.toNat, 80]
def k2_off31 (k2_t3 : Fin k2_t3_loop.trips) : Fin 2 → Nat :=
  let c0_i32_65 : BitVec 32 := 0#32
  let c1_i32_66 : BitVec 32 := 1#32
  let arg24 : BitVec 32 := Scf.iv c0_i32_65 c1_i32_66 k2_t3
  let v621 : Index := Scalar.indexCast arg24
  let c84_751 : Index := 84#32
  ![v621.toNat, 84]
def k2_off32 (i : grid2.Coords) (k2_t1 : Fin k2_t1_loop.trips) (c0_i32_28 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32 : BitVec 32 := 16#32
  let c0_i32_13 : BitVec 32 := 0#32
  let c1_i32 : BitVec 32 := 1#32
  let arg23 : BitVec 32 := Scf.iv c0_i32_13 c1_i32 k2_t1
  let v27 : BitVec 32 := Scalar.muli c16_i32 arg23
  let v28 : BitVec 32 := Scalar.addi v27 c0_i32_28
  let v29 : BitVec 32 := Scalar.addi v2 v28
  let c200_i32 : BitVec 32 := 200#32
  let v30 : BitVec 32 := Scalar.muli v29 c200_i32
  let c128_i32_68 : BitVec 32 := 128#32
  let v57 : BitVec 32 := Scalar.addi v30 c128_i32_68
  let c0_i32_738_r3 : BitVec 32 := 0#32
  ![v57.toNat, 0]
@[reducible] def k2_t4_loop : Scf.Loop 32 :=
  let c0_i32_88 : BitVec 32 := 0#32
  let c128_i32_89 : BitVec 32 := 128#32
  let v74 : BitVec 32 := Scalar.addi c0_i32_88 c128_i32_89
  let c1_i32_90 : BitVec 32 := 1#32
  ⟨c0_i32_88, v74, c1_i32_90⟩
def k2_off33 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v548 : Index := Scalar.indexCast arg24
  let c0 : Index := 0#32
  ![v548.toNat, 0]
def k2_off34 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v555 : Index := Scalar.indexCast arg24
  let c16 : Index := 16#32
  ![v555.toNat, 16]
def k2_off35 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v562 : Index := Scalar.indexCast arg24
  let c32 : Index := 32#32
  ![v562.toNat, 32]
def k2_off36 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v569 : Index := Scalar.indexCast arg24
  let c48 : Index := 48#32
  ![v569.toNat, 48]
def k2_off37 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v576 : Index := Scalar.indexCast arg24
  let c64 : Index := 64#32
  ![v576.toNat, 64]
def k2_off38 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v583 : Index := Scalar.indexCast arg24
  let c80 : Index := 80#32
  ![v583.toNat, 80]
def k2_off39 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v590 : Index := Scalar.indexCast arg24
  let c84 : Index := 84#32
  ![v590.toNat, 84]
def k2_off40 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v597 : Index := Scalar.indexCast arg24
  let c0_745 : Index := 0#32
  ![v597.toNat, 0]
def k2_off41 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v601 : Index := Scalar.indexCast arg24
  let c16_746 : Index := 16#32
  ![v601.toNat, 16]
def k2_off42 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v605 : Index := Scalar.indexCast arg24
  let c32_747 : Index := 32#32
  ![v605.toNat, 32]
def k2_off43 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v609 : Index := Scalar.indexCast arg24
  let c48_748 : Index := 48#32
  ![v609.toNat, 48]
def k2_off44 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v613 : Index := Scalar.indexCast arg24
  let c64_749 : Index := 64#32
  ![v613.toNat, 64]
def k2_off45 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v617 : Index := Scalar.indexCast arg24
  let c80_750 : Index := 80#32
  ![v617.toNat, 80]
def k2_off46 (k2_t4 : Fin k2_t4_loop.trips) : Fin 2 → Nat :=
  let c0_i32_88 : BitVec 32 := 0#32
  let c1_i32_90 : BitVec 32 := 1#32
  let arg24 : BitVec 32 := Scf.iv c0_i32_88 c1_i32_90 k2_t4
  let v621 : Index := Scalar.indexCast arg24
  let c84_751 : Index := 84#32
  ![v621.toNat, 84]
@[reducible] def k2_t5_loop : Scf.Loop 32 :=
  let c0_i32_108 : BitVec 32 := 0#32
  let c72_i32_109 : BitVec 32 := 72#32
  let v87 : BitVec 32 := Scalar.addi c0_i32_108 c72_i32_109
  let c1_i32_110 : BitVec 32 := 1#32
  ⟨c0_i32_108, v87, c1_i32_110⟩
def k2_off47 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v548 : Index := Scalar.indexCast arg24
  let c0 : Index := 0#32
  ![v548.toNat, 0]
def k2_off48 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v555 : Index := Scalar.indexCast arg24
  let c16 : Index := 16#32
  ![v555.toNat, 16]
def k2_off49 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v562 : Index := Scalar.indexCast arg24
  let c32 : Index := 32#32
  ![v562.toNat, 32]
def k2_off50 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v569 : Index := Scalar.indexCast arg24
  let c48 : Index := 48#32
  ![v569.toNat, 48]
def k2_off51 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v576 : Index := Scalar.indexCast arg24
  let c64 : Index := 64#32
  ![v576.toNat, 64]
def k2_off52 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v583 : Index := Scalar.indexCast arg24
  let c80 : Index := 80#32
  ![v583.toNat, 80]
def k2_off53 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v590 : Index := Scalar.indexCast arg24
  let c84 : Index := 84#32
  ![v590.toNat, 84]
def k2_off54 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v597 : Index := Scalar.indexCast arg24
  let c0_745 : Index := 0#32
  ![v597.toNat, 0]
def k2_off55 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v601 : Index := Scalar.indexCast arg24
  let c16_746 : Index := 16#32
  ![v601.toNat, 16]
def k2_off56 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v605 : Index := Scalar.indexCast arg24
  let c32_747 : Index := 32#32
  ![v605.toNat, 32]
def k2_off57 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v609 : Index := Scalar.indexCast arg24
  let c48_748 : Index := 48#32
  ![v609.toNat, 48]
def k2_off58 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v613 : Index := Scalar.indexCast arg24
  let c64_749 : Index := 64#32
  ![v613.toNat, 64]
def k2_off59 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v617 : Index := Scalar.indexCast arg24
  let c80_750 : Index := 80#32
  ![v617.toNat, 80]
def k2_off60 (k2_t5 : Fin k2_t5_loop.trips) : Fin 2 → Nat :=
  let c0_i32_108 : BitVec 32 := 0#32
  let c1_i32_110 : BitVec 32 := 1#32
  let arg24 : BitVec 32 := Scf.iv c0_i32_108 c1_i32_110 k2_t5
  let v621 : Index := Scalar.indexCast arg24
  let c84_751 : Index := 84#32
  ![v621.toNat, 84]
@[reducible] def k2_t6_loop : Scf.Loop 32 :=
  let c0_i32_132 : BitVec 32 := 0#32
  let c128_i32_133 : BitVec 32 := 128#32
  let v105 : BitVec 32 := Scalar.addi c0_i32_132 c128_i32_133
  let c1_i32_134 : BitVec 32 := 1#32
  ⟨c0_i32_132, v105, c1_i32_134⟩
def k2_off61 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v548 : Index := Scalar.indexCast arg24
  let c0 : Index := 0#32
  ![v548.toNat, 0]
def k2_off62 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v555 : Index := Scalar.indexCast arg24
  let c16 : Index := 16#32
  ![v555.toNat, 16]
def k2_off63 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v562 : Index := Scalar.indexCast arg24
  let c32 : Index := 32#32
  ![v562.toNat, 32]
def k2_off64 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v569 : Index := Scalar.indexCast arg24
  let c48 : Index := 48#32
  ![v569.toNat, 48]
def k2_off65 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v576 : Index := Scalar.indexCast arg24
  let c64 : Index := 64#32
  ![v576.toNat, 64]
def k2_off66 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v583 : Index := Scalar.indexCast arg24
  let c80 : Index := 80#32
  ![v583.toNat, 80]
def k2_off67 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v590 : Index := Scalar.indexCast arg24
  let c84 : Index := 84#32
  ![v590.toNat, 84]
def k2_off68 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v597 : Index := Scalar.indexCast arg24
  let c0_745 : Index := 0#32
  ![v597.toNat, 0]
def k2_off69 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v601 : Index := Scalar.indexCast arg24
  let c16_746 : Index := 16#32
  ![v601.toNat, 16]
def k2_off70 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v605 : Index := Scalar.indexCast arg24
  let c32_747 : Index := 32#32
  ![v605.toNat, 32]
def k2_off71 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v609 : Index := Scalar.indexCast arg24
  let c48_748 : Index := 48#32
  ![v609.toNat, 48]
def k2_off72 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v613 : Index := Scalar.indexCast arg24
  let c64_749 : Index := 64#32
  ![v613.toNat, 64]
def k2_off73 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v617 : Index := Scalar.indexCast arg24
  let c80_750 : Index := 80#32
  ![v617.toNat, 80]
def k2_off74 (k2_t6 : Fin k2_t6_loop.trips) : Fin 2 → Nat :=
  let c0_i32_132 : BitVec 32 := 0#32
  let c1_i32_134 : BitVec 32 := 1#32
  let arg24 : BitVec 32 := Scf.iv c0_i32_132 c1_i32_134 k2_t6
  let v621 : Index := Scalar.indexCast arg24
  let c84_751 : Index := 84#32
  ![v621.toNat, 84]
@[reducible] def k2_t7_loop : Scf.Loop 32 :=
  let c0_i32_151 : BitVec 32 := 0#32
  let c72_i32_152 : BitVec 32 := 72#32
  let v118 : BitVec 32 := Scalar.addi c0_i32_151 c72_i32_152
  let c1_i32_153 : BitVec 32 := 1#32
  ⟨c0_i32_151, v118, c1_i32_153⟩
def k2_off75 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v548 : Index := Scalar.indexCast arg24
  let c0 : Index := 0#32
  ![v548.toNat, 0]
def k2_off76 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v555 : Index := Scalar.indexCast arg24
  let c16 : Index := 16#32
  ![v555.toNat, 16]
def k2_off77 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v562 : Index := Scalar.indexCast arg24
  let c32 : Index := 32#32
  ![v562.toNat, 32]
def k2_off78 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v569 : Index := Scalar.indexCast arg24
  let c48 : Index := 48#32
  ![v569.toNat, 48]
def k2_off79 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v576 : Index := Scalar.indexCast arg24
  let c64 : Index := 64#32
  ![v576.toNat, 64]
def k2_off80 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v583 : Index := Scalar.indexCast arg24
  let c80 : Index := 80#32
  ![v583.toNat, 80]
def k2_off81 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v590 : Index := Scalar.indexCast arg24
  let c84 : Index := 84#32
  ![v590.toNat, 84]
def k2_off82 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v597 : Index := Scalar.indexCast arg24
  let c0_745 : Index := 0#32
  ![v597.toNat, 0]
def k2_off83 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v601 : Index := Scalar.indexCast arg24
  let c16_746 : Index := 16#32
  ![v601.toNat, 16]
def k2_off84 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v605 : Index := Scalar.indexCast arg24
  let c32_747 : Index := 32#32
  ![v605.toNat, 32]
def k2_off85 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v609 : Index := Scalar.indexCast arg24
  let c48_748 : Index := 48#32
  ![v609.toNat, 48]
def k2_off86 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v613 : Index := Scalar.indexCast arg24
  let c64_749 : Index := 64#32
  ![v613.toNat, 64]
def k2_off87 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v617 : Index := Scalar.indexCast arg24
  let c80_750 : Index := 80#32
  ![v617.toNat, 80]
def k2_off88 (k2_t7 : Fin k2_t7_loop.trips) : Fin 2 → Nat :=
  let c0_i32_151 : BitVec 32 := 0#32
  let c1_i32_153 : BitVec 32 := 1#32
  let arg24 : BitVec 32 := Scf.iv c0_i32_151 c1_i32_153 k2_t7
  let v621 : Index := Scalar.indexCast arg24
  let c84_751 : Index := 84#32
  ![v621.toNat, 84]
@[reducible] def k2_t8_loop : Scf.Loop 32 :=
  let c0_i32_175 : BitVec 32 := 0#32
  let c128_i32_176 : BitVec 32 := 128#32
  let v136 : BitVec 32 := Scalar.addi c0_i32_175 c128_i32_176
  let c1_i32_177 : BitVec 32 := 1#32
  ⟨c0_i32_175, v136, c1_i32_177⟩
def k2_off89 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v548 : Index := Scalar.indexCast arg24
  let c0 : Index := 0#32
  ![v548.toNat, 0]
def k2_off90 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v555 : Index := Scalar.indexCast arg24
  let c16 : Index := 16#32
  ![v555.toNat, 16]
def k2_off91 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v562 : Index := Scalar.indexCast arg24
  let c32 : Index := 32#32
  ![v562.toNat, 32]
def k2_off92 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v569 : Index := Scalar.indexCast arg24
  let c48 : Index := 48#32
  ![v569.toNat, 48]
def k2_off93 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v576 : Index := Scalar.indexCast arg24
  let c64 : Index := 64#32
  ![v576.toNat, 64]
def k2_off94 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v583 : Index := Scalar.indexCast arg24
  let c80 : Index := 80#32
  ![v583.toNat, 80]
def k2_off95 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v590 : Index := Scalar.indexCast arg24
  let c84 : Index := 84#32
  ![v590.toNat, 84]
def k2_off96 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v597 : Index := Scalar.indexCast arg24
  let c0_745 : Index := 0#32
  ![v597.toNat, 0]
def k2_off97 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v601 : Index := Scalar.indexCast arg24
  let c16_746 : Index := 16#32
  ![v601.toNat, 16]
def k2_off98 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v605 : Index := Scalar.indexCast arg24
  let c32_747 : Index := 32#32
  ![v605.toNat, 32]
def k2_off99 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v609 : Index := Scalar.indexCast arg24
  let c48_748 : Index := 48#32
  ![v609.toNat, 48]
def k2_off100 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v613 : Index := Scalar.indexCast arg24
  let c64_749 : Index := 64#32
  ![v613.toNat, 64]
def k2_off101 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v617 : Index := Scalar.indexCast arg24
  let c80_750 : Index := 80#32
  ![v617.toNat, 80]
def k2_off102 (k2_t8 : Fin k2_t8_loop.trips) : Fin 2 → Nat :=
  let c0_i32_175 : BitVec 32 := 0#32
  let c1_i32_177 : BitVec 32 := 1#32
  let arg24 : BitVec 32 := Scf.iv c0_i32_175 c1_i32_177 k2_t8
  let v621 : Index := Scalar.indexCast arg24
  let c84_751 : Index := 84#32
  ![v621.toNat, 84]
@[reducible] def k2_t9_loop : Scf.Loop 32 :=
  let c0_i32_194 : BitVec 32 := 0#32
  let c72_i32_195 : BitVec 32 := 72#32
  let v149 : BitVec 32 := Scalar.addi c0_i32_194 c72_i32_195
  let c1_i32_196 : BitVec 32 := 1#32
  ⟨c0_i32_194, v149, c1_i32_196⟩
def k2_off103 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v548 : Index := Scalar.indexCast arg24
  let c0 : Index := 0#32
  ![v548.toNat, 0]
def k2_off104 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v555 : Index := Scalar.indexCast arg24
  let c16 : Index := 16#32
  ![v555.toNat, 16]
def k2_off105 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v562 : Index := Scalar.indexCast arg24
  let c32 : Index := 32#32
  ![v562.toNat, 32]
def k2_off106 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v569 : Index := Scalar.indexCast arg24
  let c48 : Index := 48#32
  ![v569.toNat, 48]
def k2_off107 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v576 : Index := Scalar.indexCast arg24
  let c64 : Index := 64#32
  ![v576.toNat, 64]
def k2_off108 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v583 : Index := Scalar.indexCast arg24
  let c80 : Index := 80#32
  ![v583.toNat, 80]
def k2_off109 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v590 : Index := Scalar.indexCast arg24
  let c84 : Index := 84#32
  ![v590.toNat, 84]
def k2_off110 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v597 : Index := Scalar.indexCast arg24
  let c0_745 : Index := 0#32
  ![v597.toNat, 0]
def k2_off111 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v601 : Index := Scalar.indexCast arg24
  let c16_746 : Index := 16#32
  ![v601.toNat, 16]
def k2_off112 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v605 : Index := Scalar.indexCast arg24
  let c32_747 : Index := 32#32
  ![v605.toNat, 32]
def k2_off113 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v609 : Index := Scalar.indexCast arg24
  let c48_748 : Index := 48#32
  ![v609.toNat, 48]
def k2_off114 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v613 : Index := Scalar.indexCast arg24
  let c64_749 : Index := 64#32
  ![v613.toNat, 64]
def k2_off115 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v617 : Index := Scalar.indexCast arg24
  let c80_750 : Index := 80#32
  ![v617.toNat, 80]
def k2_off116 (k2_t9 : Fin k2_t9_loop.trips) : Fin 2 → Nat :=
  let c0_i32_194 : BitVec 32 := 0#32
  let c1_i32_196 : BitVec 32 := 1#32
  let arg24 : BitVec 32 := Scf.iv c0_i32_194 c1_i32_196 k2_t9
  let v621 : Index := Scalar.indexCast arg24
  let c84_751 : Index := 84#32
  ![v621.toNat, 84]
@[reducible] def k2_t10_loop : Scf.Loop 32 :=
  let c0_i32_218 : BitVec 32 := 0#32
  let c128_i32_219 : BitVec 32 := 128#32
  let v167 : BitVec 32 := Scalar.addi c0_i32_218 c128_i32_219
  let c1_i32_220 : BitVec 32 := 1#32
  ⟨c0_i32_218, v167, c1_i32_220⟩
def k2_off117 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v548 : Index := Scalar.indexCast arg24
  let c0 : Index := 0#32
  ![v548.toNat, 0]
def k2_off118 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v555 : Index := Scalar.indexCast arg24
  let c16 : Index := 16#32
  ![v555.toNat, 16]
def k2_off119 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v562 : Index := Scalar.indexCast arg24
  let c32 : Index := 32#32
  ![v562.toNat, 32]
def k2_off120 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v569 : Index := Scalar.indexCast arg24
  let c48 : Index := 48#32
  ![v569.toNat, 48]
def k2_off121 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v576 : Index := Scalar.indexCast arg24
  let c64 : Index := 64#32
  ![v576.toNat, 64]
def k2_off122 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v583 : Index := Scalar.indexCast arg24
  let c80 : Index := 80#32
  ![v583.toNat, 80]
def k2_off123 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v590 : Index := Scalar.indexCast arg24
  let c84 : Index := 84#32
  ![v590.toNat, 84]
def k2_off124 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v597 : Index := Scalar.indexCast arg24
  let c0_745 : Index := 0#32
  ![v597.toNat, 0]
def k2_off125 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v601 : Index := Scalar.indexCast arg24
  let c16_746 : Index := 16#32
  ![v601.toNat, 16]
def k2_off126 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v605 : Index := Scalar.indexCast arg24
  let c32_747 : Index := 32#32
  ![v605.toNat, 32]
def k2_off127 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v609 : Index := Scalar.indexCast arg24
  let c48_748 : Index := 48#32
  ![v609.toNat, 48]
def k2_off128 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v613 : Index := Scalar.indexCast arg24
  let c64_749 : Index := 64#32
  ![v613.toNat, 64]
def k2_off129 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v617 : Index := Scalar.indexCast arg24
  let c80_750 : Index := 80#32
  ![v617.toNat, 80]
def k2_off130 (k2_t10 : Fin k2_t10_loop.trips) : Fin 2 → Nat :=
  let c0_i32_218 : BitVec 32 := 0#32
  let c1_i32_220 : BitVec 32 := 1#32
  let arg24 : BitVec 32 := Scf.iv c0_i32_218 c1_i32_220 k2_t10
  let v621 : Index := Scalar.indexCast arg24
  let c84_751 : Index := 84#32
  ![v621.toNat, 84]
@[reducible] def k2_t11_loop : Scf.Loop 32 :=
  let c0_i32_237 : BitVec 32 := 0#32
  let c72_i32_238 : BitVec 32 := 72#32
  let v180 : BitVec 32 := Scalar.addi c0_i32_237 c72_i32_238
  let c1_i32_239 : BitVec 32 := 1#32
  ⟨c0_i32_237, v180, c1_i32_239⟩
def k2_off131 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v548 : Index := Scalar.indexCast arg24
  let c0 : Index := 0#32
  ![v548.toNat, 0]
def k2_off132 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v555 : Index := Scalar.indexCast arg24
  let c16 : Index := 16#32
  ![v555.toNat, 16]
def k2_off133 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v562 : Index := Scalar.indexCast arg24
  let c32 : Index := 32#32
  ![v562.toNat, 32]
def k2_off134 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v569 : Index := Scalar.indexCast arg24
  let c48 : Index := 48#32
  ![v569.toNat, 48]
def k2_off135 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v576 : Index := Scalar.indexCast arg24
  let c64 : Index := 64#32
  ![v576.toNat, 64]
def k2_off136 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v583 : Index := Scalar.indexCast arg24
  let c80 : Index := 80#32
  ![v583.toNat, 80]
def k2_off137 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v590 : Index := Scalar.indexCast arg24
  let c84 : Index := 84#32
  ![v590.toNat, 84]
def k2_off138 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v597 : Index := Scalar.indexCast arg24
  let c0_745 : Index := 0#32
  ![v597.toNat, 0]
def k2_off139 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v601 : Index := Scalar.indexCast arg24
  let c16_746 : Index := 16#32
  ![v601.toNat, 16]
def k2_off140 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v605 : Index := Scalar.indexCast arg24
  let c32_747 : Index := 32#32
  ![v605.toNat, 32]
def k2_off141 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v609 : Index := Scalar.indexCast arg24
  let c48_748 : Index := 48#32
  ![v609.toNat, 48]
def k2_off142 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v613 : Index := Scalar.indexCast arg24
  let c64_749 : Index := 64#32
  ![v613.toNat, 64]
def k2_off143 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v617 : Index := Scalar.indexCast arg24
  let c80_750 : Index := 80#32
  ![v617.toNat, 80]
def k2_off144 (k2_t11 : Fin k2_t11_loop.trips) : Fin 2 → Nat :=
  let c0_i32_237 : BitVec 32 := 0#32
  let c1_i32_239 : BitVec 32 := 1#32
  let arg24 : BitVec 32 := Scf.iv c0_i32_237 c1_i32_239 k2_t11
  let v621 : Index := Scalar.indexCast arg24
  let c84_751 : Index := 84#32
  ![v621.toNat, 84]
@[reducible] def k2_t12_loop : Scf.Loop 32 :=
  let c0_i32_261 : BitVec 32 := 0#32
  let c128_i32_262 : BitVec 32 := 128#32
  let v198 : BitVec 32 := Scalar.addi c0_i32_261 c128_i32_262
  let c1_i32_263 : BitVec 32 := 1#32
  ⟨c0_i32_261, v198, c1_i32_263⟩
def k2_off145 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v548 : Index := Scalar.indexCast arg24
  let c0 : Index := 0#32
  ![v548.toNat, 0]
def k2_off146 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v555 : Index := Scalar.indexCast arg24
  let c16 : Index := 16#32
  ![v555.toNat, 16]
def k2_off147 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v562 : Index := Scalar.indexCast arg24
  let c32 : Index := 32#32
  ![v562.toNat, 32]
def k2_off148 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v569 : Index := Scalar.indexCast arg24
  let c48 : Index := 48#32
  ![v569.toNat, 48]
def k2_off149 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v576 : Index := Scalar.indexCast arg24
  let c64 : Index := 64#32
  ![v576.toNat, 64]
def k2_off150 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v583 : Index := Scalar.indexCast arg24
  let c80 : Index := 80#32
  ![v583.toNat, 80]
def k2_off151 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v590 : Index := Scalar.indexCast arg24
  let c84 : Index := 84#32
  ![v590.toNat, 84]
def k2_off152 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v597 : Index := Scalar.indexCast arg24
  let c0_745 : Index := 0#32
  ![v597.toNat, 0]
def k2_off153 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v601 : Index := Scalar.indexCast arg24
  let c16_746 : Index := 16#32
  ![v601.toNat, 16]
def k2_off154 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v605 : Index := Scalar.indexCast arg24
  let c32_747 : Index := 32#32
  ![v605.toNat, 32]
def k2_off155 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v609 : Index := Scalar.indexCast arg24
  let c48_748 : Index := 48#32
  ![v609.toNat, 48]
def k2_off156 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v613 : Index := Scalar.indexCast arg24
  let c64_749 : Index := 64#32
  ![v613.toNat, 64]
def k2_off157 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v617 : Index := Scalar.indexCast arg24
  let c80_750 : Index := 80#32
  ![v617.toNat, 80]
def k2_off158 (k2_t12 : Fin k2_t12_loop.trips) : Fin 2 → Nat :=
  let c0_i32_261 : BitVec 32 := 0#32
  let c1_i32_263 : BitVec 32 := 1#32
  let arg24 : BitVec 32 := Scf.iv c0_i32_261 c1_i32_263 k2_t12
  let v621 : Index := Scalar.indexCast arg24
  let c84_751 : Index := 84#32
  ![v621.toNat, 84]
@[reducible] def k2_t13_loop : Scf.Loop 32 :=
  let c0_i32_280 : BitVec 32 := 0#32
  let c72_i32_281 : BitVec 32 := 72#32
  let v211 : BitVec 32 := Scalar.addi c0_i32_280 c72_i32_281
  let c1_i32_282 : BitVec 32 := 1#32
  ⟨c0_i32_280, v211, c1_i32_282⟩
def k2_off159 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v548 : Index := Scalar.indexCast arg24
  let c0 : Index := 0#32
  ![v548.toNat, 0]
def k2_off160 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v555 : Index := Scalar.indexCast arg24
  let c16 : Index := 16#32
  ![v555.toNat, 16]
def k2_off161 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v562 : Index := Scalar.indexCast arg24
  let c32 : Index := 32#32
  ![v562.toNat, 32]
def k2_off162 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v569 : Index := Scalar.indexCast arg24
  let c48 : Index := 48#32
  ![v569.toNat, 48]
def k2_off163 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v576 : Index := Scalar.indexCast arg24
  let c64 : Index := 64#32
  ![v576.toNat, 64]
def k2_off164 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v583 : Index := Scalar.indexCast arg24
  let c80 : Index := 80#32
  ![v583.toNat, 80]
def k2_off165 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v590 : Index := Scalar.indexCast arg24
  let c84 : Index := 84#32
  ![v590.toNat, 84]
def k2_off166 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v597 : Index := Scalar.indexCast arg24
  let c0_745 : Index := 0#32
  ![v597.toNat, 0]
def k2_off167 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v601 : Index := Scalar.indexCast arg24
  let c16_746 : Index := 16#32
  ![v601.toNat, 16]
def k2_off168 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v605 : Index := Scalar.indexCast arg24
  let c32_747 : Index := 32#32
  ![v605.toNat, 32]
def k2_off169 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v609 : Index := Scalar.indexCast arg24
  let c48_748 : Index := 48#32
  ![v609.toNat, 48]
def k2_off170 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v613 : Index := Scalar.indexCast arg24
  let c64_749 : Index := 64#32
  ![v613.toNat, 64]
def k2_off171 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v617 : Index := Scalar.indexCast arg24
  let c80_750 : Index := 80#32
  ![v617.toNat, 80]
def k2_off172 (k2_t13 : Fin k2_t13_loop.trips) : Fin 2 → Nat :=
  let c0_i32_280 : BitVec 32 := 0#32
  let c1_i32_282 : BitVec 32 := 1#32
  let arg24 : BitVec 32 := Scf.iv c0_i32_280 c1_i32_282 k2_t13
  let v621 : Index := Scalar.indexCast arg24
  let c84_751 : Index := 84#32
  ![v621.toNat, 84]
@[reducible] def k2_t14_loop : Scf.Loop 32 :=
  let c0_i32_304 : BitVec 32 := 0#32
  let c128_i32_305 : BitVec 32 := 128#32
  let v229 : BitVec 32 := Scalar.addi c0_i32_304 c128_i32_305
  let c1_i32_306 : BitVec 32 := 1#32
  ⟨c0_i32_304, v229, c1_i32_306⟩
def k2_off173 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v548 : Index := Scalar.indexCast arg24
  let c0 : Index := 0#32
  ![v548.toNat, 0]
def k2_off174 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v555 : Index := Scalar.indexCast arg24
  let c16 : Index := 16#32
  ![v555.toNat, 16]
def k2_off175 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v562 : Index := Scalar.indexCast arg24
  let c32 : Index := 32#32
  ![v562.toNat, 32]
def k2_off176 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v569 : Index := Scalar.indexCast arg24
  let c48 : Index := 48#32
  ![v569.toNat, 48]
def k2_off177 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v576 : Index := Scalar.indexCast arg24
  let c64 : Index := 64#32
  ![v576.toNat, 64]
def k2_off178 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v583 : Index := Scalar.indexCast arg24
  let c80 : Index := 80#32
  ![v583.toNat, 80]
def k2_off179 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v590 : Index := Scalar.indexCast arg24
  let c84 : Index := 84#32
  ![v590.toNat, 84]
def k2_off180 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v597 : Index := Scalar.indexCast arg24
  let c0_745 : Index := 0#32
  ![v597.toNat, 0]
def k2_off181 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v601 : Index := Scalar.indexCast arg24
  let c16_746 : Index := 16#32
  ![v601.toNat, 16]
def k2_off182 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v605 : Index := Scalar.indexCast arg24
  let c32_747 : Index := 32#32
  ![v605.toNat, 32]
def k2_off183 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v609 : Index := Scalar.indexCast arg24
  let c48_748 : Index := 48#32
  ![v609.toNat, 48]
def k2_off184 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v613 : Index := Scalar.indexCast arg24
  let c64_749 : Index := 64#32
  ![v613.toNat, 64]
def k2_off185 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v617 : Index := Scalar.indexCast arg24
  let c80_750 : Index := 80#32
  ![v617.toNat, 80]
def k2_off186 (k2_t14 : Fin k2_t14_loop.trips) : Fin 2 → Nat :=
  let c0_i32_304 : BitVec 32 := 0#32
  let c1_i32_306 : BitVec 32 := 1#32
  let arg24 : BitVec 32 := Scf.iv c0_i32_304 c1_i32_306 k2_t14
  let v621 : Index := Scalar.indexCast arg24
  let c84_751 : Index := 84#32
  ![v621.toNat, 84]
@[reducible] def k2_t15_loop : Scf.Loop 32 :=
  let c0_i32_323 : BitVec 32 := 0#32
  let c72_i32_324 : BitVec 32 := 72#32
  let v242 : BitVec 32 := Scalar.addi c0_i32_323 c72_i32_324
  let c1_i32_325 : BitVec 32 := 1#32
  ⟨c0_i32_323, v242, c1_i32_325⟩
def k2_off187 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v548 : Index := Scalar.indexCast arg24
  let c0 : Index := 0#32
  ![v548.toNat, 0]
def k2_off188 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v555 : Index := Scalar.indexCast arg24
  let c16 : Index := 16#32
  ![v555.toNat, 16]
def k2_off189 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v562 : Index := Scalar.indexCast arg24
  let c32 : Index := 32#32
  ![v562.toNat, 32]
def k2_off190 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v569 : Index := Scalar.indexCast arg24
  let c48 : Index := 48#32
  ![v569.toNat, 48]
def k2_off191 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v576 : Index := Scalar.indexCast arg24
  let c64 : Index := 64#32
  ![v576.toNat, 64]
def k2_off192 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v583 : Index := Scalar.indexCast arg24
  let c80 : Index := 80#32
  ![v583.toNat, 80]
def k2_off193 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v590 : Index := Scalar.indexCast arg24
  let c84 : Index := 84#32
  ![v590.toNat, 84]
def k2_off194 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v597 : Index := Scalar.indexCast arg24
  let c0_745 : Index := 0#32
  ![v597.toNat, 0]
def k2_off195 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v601 : Index := Scalar.indexCast arg24
  let c16_746 : Index := 16#32
  ![v601.toNat, 16]
def k2_off196 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v605 : Index := Scalar.indexCast arg24
  let c32_747 : Index := 32#32
  ![v605.toNat, 32]
def k2_off197 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v609 : Index := Scalar.indexCast arg24
  let c48_748 : Index := 48#32
  ![v609.toNat, 48]
def k2_off198 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v613 : Index := Scalar.indexCast arg24
  let c64_749 : Index := 64#32
  ![v613.toNat, 64]
def k2_off199 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v617 : Index := Scalar.indexCast arg24
  let c80_750 : Index := 80#32
  ![v617.toNat, 80]
def k2_off200 (k2_t15 : Fin k2_t15_loop.trips) : Fin 2 → Nat :=
  let c0_i32_323 : BitVec 32 := 0#32
  let c1_i32_325 : BitVec 32 := 1#32
  let arg24 : BitVec 32 := Scf.iv c0_i32_323 c1_i32_325 k2_t15
  let v621 : Index := Scalar.indexCast arg24
  let c84_751 : Index := 84#32
  ![v621.toNat, 84]
@[reducible] def k2_t16_loop : Scf.Loop 32 :=
  let c0_i32_347 : BitVec 32 := 0#32
  let c128_i32_348 : BitVec 32 := 128#32
  let v260 : BitVec 32 := Scalar.addi c0_i32_347 c128_i32_348
  let c1_i32_349 : BitVec 32 := 1#32
  ⟨c0_i32_347, v260, c1_i32_349⟩
def k2_off201 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v548 : Index := Scalar.indexCast arg24
  let c0 : Index := 0#32
  ![v548.toNat, 0]
def k2_off202 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v555 : Index := Scalar.indexCast arg24
  let c16 : Index := 16#32
  ![v555.toNat, 16]
def k2_off203 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v562 : Index := Scalar.indexCast arg24
  let c32 : Index := 32#32
  ![v562.toNat, 32]
def k2_off204 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v569 : Index := Scalar.indexCast arg24
  let c48 : Index := 48#32
  ![v569.toNat, 48]
def k2_off205 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v576 : Index := Scalar.indexCast arg24
  let c64 : Index := 64#32
  ![v576.toNat, 64]
def k2_off206 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v583 : Index := Scalar.indexCast arg24
  let c80 : Index := 80#32
  ![v583.toNat, 80]
def k2_off207 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v590 : Index := Scalar.indexCast arg24
  let c84 : Index := 84#32
  ![v590.toNat, 84]
def k2_off208 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v597 : Index := Scalar.indexCast arg24
  let c0_745 : Index := 0#32
  ![v597.toNat, 0]
def k2_off209 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v601 : Index := Scalar.indexCast arg24
  let c16_746 : Index := 16#32
  ![v601.toNat, 16]
def k2_off210 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v605 : Index := Scalar.indexCast arg24
  let c32_747 : Index := 32#32
  ![v605.toNat, 32]
def k2_off211 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v609 : Index := Scalar.indexCast arg24
  let c48_748 : Index := 48#32
  ![v609.toNat, 48]
def k2_off212 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v613 : Index := Scalar.indexCast arg24
  let c64_749 : Index := 64#32
  ![v613.toNat, 64]
def k2_off213 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v617 : Index := Scalar.indexCast arg24
  let c80_750 : Index := 80#32
  ![v617.toNat, 80]
def k2_off214 (k2_t16 : Fin k2_t16_loop.trips) : Fin 2 → Nat :=
  let c0_i32_347 : BitVec 32 := 0#32
  let c1_i32_349 : BitVec 32 := 1#32
  let arg24 : BitVec 32 := Scf.iv c0_i32_347 c1_i32_349 k2_t16
  let v621 : Index := Scalar.indexCast arg24
  let c84_751 : Index := 84#32
  ![v621.toNat, 84]
def k2_off215 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_351 : BitVec 32 := 0#32
  ![v2.toNat, 0]
@[reducible] def k2_t17_loop : Scf.Loop 32 :=
  let c0_i32_371 : BitVec 32 := 0#32
  let c72_i32_372 : BitVec 32 := 72#32
  let v277 : BitVec 32 := Scalar.addi c0_i32_371 c72_i32_372
  let c1_i32_373 : BitVec 32 := 1#32
  ⟨c0_i32_371, v277, c1_i32_373⟩
def k2_off216 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v548 : Index := Scalar.indexCast arg24
  let c0 : Index := 0#32
  ![v548.toNat, 0]
def k2_off217 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v555 : Index := Scalar.indexCast arg24
  let c16 : Index := 16#32
  ![v555.toNat, 16]
def k2_off218 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v562 : Index := Scalar.indexCast arg24
  let c32 : Index := 32#32
  ![v562.toNat, 32]
def k2_off219 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v569 : Index := Scalar.indexCast arg24
  let c48 : Index := 48#32
  ![v569.toNat, 48]
def k2_off220 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v576 : Index := Scalar.indexCast arg24
  let c64 : Index := 64#32
  ![v576.toNat, 64]
def k2_off221 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v583 : Index := Scalar.indexCast arg24
  let c80 : Index := 80#32
  ![v583.toNat, 80]
def k2_off222 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v590 : Index := Scalar.indexCast arg24
  let c84 : Index := 84#32
  ![v590.toNat, 84]
def k2_off223 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v597 : Index := Scalar.indexCast arg24
  let c0_745 : Index := 0#32
  ![v597.toNat, 0]
def k2_off224 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v601 : Index := Scalar.indexCast arg24
  let c16_746 : Index := 16#32
  ![v601.toNat, 16]
def k2_off225 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v605 : Index := Scalar.indexCast arg24
  let c32_747 : Index := 32#32
  ![v605.toNat, 32]
def k2_off226 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v609 : Index := Scalar.indexCast arg24
  let c48_748 : Index := 48#32
  ![v609.toNat, 48]
def k2_off227 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v613 : Index := Scalar.indexCast arg24
  let c64_749 : Index := 64#32
  ![v613.toNat, 64]
def k2_off228 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v617 : Index := Scalar.indexCast arg24
  let c80_750 : Index := 80#32
  ![v617.toNat, 80]
def k2_off229 (k2_t17 : Fin k2_t17_loop.trips) : Fin 2 → Nat :=
  let c0_i32_371 : BitVec 32 := 0#32
  let c1_i32_373 : BitVec 32 := 1#32
  let arg24 : BitVec 32 := Scf.iv c0_i32_371 c1_i32_373 k2_t17
  let v621 : Index := Scalar.indexCast arg24
  let c84_751 : Index := 84#32
  ![v621.toNat, 84]
def k2_off230 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_377 : BitVec 32 := 16#32
  let c0_i32_13 : BitVec 32 := 0#32
  let c1_i32 : BitVec 32 := 1#32
  let arg23 : BitVec 32 := Scf.iv c0_i32_13 c1_i32 k2_t1
  let c1_i32_376 : BitVec 32 := 1#32
  let v279 : BitVec 32 := Scalar.addi arg23 c1_i32_376
  let v280 : BitVec 32 := Scalar.muli c16_i32_377 v279
  let v281 : BitVec 32 := Scalar.addi v2 v280
  let c128_i32_0 : BitVec 32 := 128#32
  let v3 : BitVec 32 := Scalar.addi v2 c128_i32_0
  let c8_i32 : BitVec 32 := 8#32
  let v4 : BitVec 32 := Scalar.subi v3 c8_i32
  let v282 : BitVec 32 := Scalar.minsi v281 v4
  let c0_i32_378 : BitVec 32 := 0#32
  ![v282.toNat, 0]
@[reducible] def k2_t18_loop : Scf.Loop 32 :=
  let c0_i32_401 : BitVec 32 := 0#32
  let c128_i32_402 : BitVec 32 := 128#32
  let v303 : BitVec 32 := Scalar.addi c0_i32_401 c128_i32_402
  let c1_i32_403 : BitVec 32 := 1#32
  ⟨c0_i32_401, v303, c1_i32_403⟩
def k2_off231 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v548 : Index := Scalar.indexCast arg24
  let c0 : Index := 0#32
  ![v548.toNat, 0]
def k2_off232 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v555 : Index := Scalar.indexCast arg24
  let c16 : Index := 16#32
  ![v555.toNat, 16]
def k2_off233 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v562 : Index := Scalar.indexCast arg24
  let c32 : Index := 32#32
  ![v562.toNat, 32]
def k2_off234 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v569 : Index := Scalar.indexCast arg24
  let c48 : Index := 48#32
  ![v569.toNat, 48]
def k2_off235 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v576 : Index := Scalar.indexCast arg24
  let c64 : Index := 64#32
  ![v576.toNat, 64]
def k2_off236 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v583 : Index := Scalar.indexCast arg24
  let c80 : Index := 80#32
  ![v583.toNat, 80]
def k2_off237 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v590 : Index := Scalar.indexCast arg24
  let c84 : Index := 84#32
  ![v590.toNat, 84]
def k2_off238 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v597 : Index := Scalar.indexCast arg24
  let c0_745 : Index := 0#32
  ![v597.toNat, 0]
def k2_off239 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v601 : Index := Scalar.indexCast arg24
  let c16_746 : Index := 16#32
  ![v601.toNat, 16]
def k2_off240 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v605 : Index := Scalar.indexCast arg24
  let c32_747 : Index := 32#32
  ![v605.toNat, 32]
def k2_off241 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v609 : Index := Scalar.indexCast arg24
  let c48_748 : Index := 48#32
  ![v609.toNat, 48]
def k2_off242 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v613 : Index := Scalar.indexCast arg24
  let c64_749 : Index := 64#32
  ![v613.toNat, 64]
def k2_off243 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v617 : Index := Scalar.indexCast arg24
  let c80_750 : Index := 80#32
  ![v617.toNat, 80]
def k2_off244 (k2_t18 : Fin k2_t18_loop.trips) : Fin 2 → Nat :=
  let c0_i32_401 : BitVec 32 := 0#32
  let c1_i32_403 : BitVec 32 := 1#32
  let arg24 : BitVec 32 := Scf.iv c0_i32_401 c1_i32_403 k2_t18
  let v621 : Index := Scalar.indexCast arg24
  let c84_751 : Index := 84#32
  ![v621.toNat, 84]
@[reducible] def k2_t19_loop : Scf.Loop 32 :=
  let c0_i32_421 : BitVec 32 := 0#32
  let c72_i32_422 : BitVec 32 := 72#32
  let v316 : BitVec 32 := Scalar.addi c0_i32_421 c72_i32_422
  let c1_i32_423 : BitVec 32 := 1#32
  ⟨c0_i32_421, v316, c1_i32_423⟩
def k2_off245 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v548 : Index := Scalar.indexCast arg24
  let c0 : Index := 0#32
  ![v548.toNat, 0]
def k2_off246 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v555 : Index := Scalar.indexCast arg24
  let c16 : Index := 16#32
  ![v555.toNat, 16]
def k2_off247 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v562 : Index := Scalar.indexCast arg24
  let c32 : Index := 32#32
  ![v562.toNat, 32]
def k2_off248 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v569 : Index := Scalar.indexCast arg24
  let c48 : Index := 48#32
  ![v569.toNat, 48]
def k2_off249 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v576 : Index := Scalar.indexCast arg24
  let c64 : Index := 64#32
  ![v576.toNat, 64]
def k2_off250 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v583 : Index := Scalar.indexCast arg24
  let c80 : Index := 80#32
  ![v583.toNat, 80]
def k2_off251 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v590 : Index := Scalar.indexCast arg24
  let c84 : Index := 84#32
  ![v590.toNat, 84]
def k2_off252 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v597 : Index := Scalar.indexCast arg24
  let c0_745 : Index := 0#32
  ![v597.toNat, 0]
def k2_off253 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v601 : Index := Scalar.indexCast arg24
  let c16_746 : Index := 16#32
  ![v601.toNat, 16]
def k2_off254 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v605 : Index := Scalar.indexCast arg24
  let c32_747 : Index := 32#32
  ![v605.toNat, 32]
def k2_off255 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v609 : Index := Scalar.indexCast arg24
  let c48_748 : Index := 48#32
  ![v609.toNat, 48]
def k2_off256 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v613 : Index := Scalar.indexCast arg24
  let c64_749 : Index := 64#32
  ![v613.toNat, 64]
def k2_off257 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v617 : Index := Scalar.indexCast arg24
  let c80_750 : Index := 80#32
  ![v617.toNat, 80]
def k2_off258 (k2_t19 : Fin k2_t19_loop.trips) : Fin 2 → Nat :=
  let c0_i32_421 : BitVec 32 := 0#32
  let c1_i32_423 : BitVec 32 := 1#32
  let arg24 : BitVec 32 := Scf.iv c0_i32_421 c1_i32_423 k2_t19
  let v621 : Index := Scalar.indexCast arg24
  let c84_751 : Index := 84#32
  ![v621.toNat, 84]
@[reducible] def k2_t20_loop : Scf.Loop 32 :=
  let c0_i32_444 : BitVec 32 := 0#32
  let c128_i32_445 : BitVec 32 := 128#32
  let v334 : BitVec 32 := Scalar.addi c0_i32_444 c128_i32_445
  let c1_i32_446 : BitVec 32 := 1#32
  ⟨c0_i32_444, v334, c1_i32_446⟩
def k2_off259 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v548 : Index := Scalar.indexCast arg24
  let c0 : Index := 0#32
  ![v548.toNat, 0]
def k2_off260 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v555 : Index := Scalar.indexCast arg24
  let c16 : Index := 16#32
  ![v555.toNat, 16]
def k2_off261 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v562 : Index := Scalar.indexCast arg24
  let c32 : Index := 32#32
  ![v562.toNat, 32]
def k2_off262 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v569 : Index := Scalar.indexCast arg24
  let c48 : Index := 48#32
  ![v569.toNat, 48]
def k2_off263 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v576 : Index := Scalar.indexCast arg24
  let c64 : Index := 64#32
  ![v576.toNat, 64]
def k2_off264 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v583 : Index := Scalar.indexCast arg24
  let c80 : Index := 80#32
  ![v583.toNat, 80]
def k2_off265 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v590 : Index := Scalar.indexCast arg24
  let c84 : Index := 84#32
  ![v590.toNat, 84]
def k2_off266 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v597 : Index := Scalar.indexCast arg24
  let c0_745 : Index := 0#32
  ![v597.toNat, 0]
def k2_off267 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v601 : Index := Scalar.indexCast arg24
  let c16_746 : Index := 16#32
  ![v601.toNat, 16]
def k2_off268 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v605 : Index := Scalar.indexCast arg24
  let c32_747 : Index := 32#32
  ![v605.toNat, 32]
def k2_off269 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v609 : Index := Scalar.indexCast arg24
  let c48_748 : Index := 48#32
  ![v609.toNat, 48]
def k2_off270 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v613 : Index := Scalar.indexCast arg24
  let c64_749 : Index := 64#32
  ![v613.toNat, 64]
def k2_off271 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v617 : Index := Scalar.indexCast arg24
  let c80_750 : Index := 80#32
  ![v617.toNat, 80]
def k2_off272 (k2_t20 : Fin k2_t20_loop.trips) : Fin 2 → Nat :=
  let c0_i32_444 : BitVec 32 := 0#32
  let c1_i32_446 : BitVec 32 := 1#32
  let arg24 : BitVec 32 := Scf.iv c0_i32_444 c1_i32_446 k2_t20
  let v621 : Index := Scalar.indexCast arg24
  let c84_751 : Index := 84#32
  ![v621.toNat, 84]
@[reducible] def k2_t21_loop : Scf.Loop 32 :=
  let c0_i32_464 : BitVec 32 := 0#32
  let c72_i32_465 : BitVec 32 := 72#32
  let v347 : BitVec 32 := Scalar.addi c0_i32_464 c72_i32_465
  let c1_i32_466 : BitVec 32 := 1#32
  ⟨c0_i32_464, v347, c1_i32_466⟩
def k2_off273 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v548 : Index := Scalar.indexCast arg24
  let c0 : Index := 0#32
  ![v548.toNat, 0]
def k2_off274 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v555 : Index := Scalar.indexCast arg24
  let c16 : Index := 16#32
  ![v555.toNat, 16]
def k2_off275 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v562 : Index := Scalar.indexCast arg24
  let c32 : Index := 32#32
  ![v562.toNat, 32]
def k2_off276 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v569 : Index := Scalar.indexCast arg24
  let c48 : Index := 48#32
  ![v569.toNat, 48]
def k2_off277 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v576 : Index := Scalar.indexCast arg24
  let c64 : Index := 64#32
  ![v576.toNat, 64]
def k2_off278 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v583 : Index := Scalar.indexCast arg24
  let c80 : Index := 80#32
  ![v583.toNat, 80]
def k2_off279 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v590 : Index := Scalar.indexCast arg24
  let c84 : Index := 84#32
  ![v590.toNat, 84]
def k2_off280 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v597 : Index := Scalar.indexCast arg24
  let c0_745 : Index := 0#32
  ![v597.toNat, 0]
def k2_off281 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v601 : Index := Scalar.indexCast arg24
  let c16_746 : Index := 16#32
  ![v601.toNat, 16]
def k2_off282 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v605 : Index := Scalar.indexCast arg24
  let c32_747 : Index := 32#32
  ![v605.toNat, 32]
def k2_off283 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v609 : Index := Scalar.indexCast arg24
  let c48_748 : Index := 48#32
  ![v609.toNat, 48]
def k2_off284 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v613 : Index := Scalar.indexCast arg24
  let c64_749 : Index := 64#32
  ![v613.toNat, 64]
def k2_off285 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v617 : Index := Scalar.indexCast arg24
  let c80_750 : Index := 80#32
  ![v617.toNat, 80]
def k2_off286 (k2_t21 : Fin k2_t21_loop.trips) : Fin 2 → Nat :=
  let c0_i32_464 : BitVec 32 := 0#32
  let c1_i32_466 : BitVec 32 := 1#32
  let arg24 : BitVec 32 := Scf.iv c0_i32_464 c1_i32_466 k2_t21
  let v621 : Index := Scalar.indexCast arg24
  let c84_751 : Index := 84#32
  ![v621.toNat, 84]
@[reducible] def k2_t22_loop : Scf.Loop 32 :=
  let c0_i32_487 : BitVec 32 := 0#32
  let c128_i32_488 : BitVec 32 := 128#32
  let v365 : BitVec 32 := Scalar.addi c0_i32_487 c128_i32_488
  let c1_i32_489 : BitVec 32 := 1#32
  ⟨c0_i32_487, v365, c1_i32_489⟩
def k2_off287 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v548 : Index := Scalar.indexCast arg24
  let c0 : Index := 0#32
  ![v548.toNat, 0]
def k2_off288 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v555 : Index := Scalar.indexCast arg24
  let c16 : Index := 16#32
  ![v555.toNat, 16]
def k2_off289 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v562 : Index := Scalar.indexCast arg24
  let c32 : Index := 32#32
  ![v562.toNat, 32]
def k2_off290 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v569 : Index := Scalar.indexCast arg24
  let c48 : Index := 48#32
  ![v569.toNat, 48]
def k2_off291 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v576 : Index := Scalar.indexCast arg24
  let c64 : Index := 64#32
  ![v576.toNat, 64]
def k2_off292 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v583 : Index := Scalar.indexCast arg24
  let c80 : Index := 80#32
  ![v583.toNat, 80]
def k2_off293 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v590 : Index := Scalar.indexCast arg24
  let c84 : Index := 84#32
  ![v590.toNat, 84]
def k2_off294 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v597 : Index := Scalar.indexCast arg24
  let c0_745 : Index := 0#32
  ![v597.toNat, 0]
def k2_off295 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v601 : Index := Scalar.indexCast arg24
  let c16_746 : Index := 16#32
  ![v601.toNat, 16]
def k2_off296 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v605 : Index := Scalar.indexCast arg24
  let c32_747 : Index := 32#32
  ![v605.toNat, 32]
def k2_off297 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v609 : Index := Scalar.indexCast arg24
  let c48_748 : Index := 48#32
  ![v609.toNat, 48]
def k2_off298 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v613 : Index := Scalar.indexCast arg24
  let c64_749 : Index := 64#32
  ![v613.toNat, 64]
def k2_off299 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v617 : Index := Scalar.indexCast arg24
  let c80_750 : Index := 80#32
  ![v617.toNat, 80]
def k2_off300 (k2_t22 : Fin k2_t22_loop.trips) : Fin 2 → Nat :=
  let c0_i32_487 : BitVec 32 := 0#32
  let c1_i32_489 : BitVec 32 := 1#32
  let arg24 : BitVec 32 := Scf.iv c0_i32_487 c1_i32_489 k2_t22
  let v621 : Index := Scalar.indexCast arg24
  let c84_751 : Index := 84#32
  ![v621.toNat, 84]
@[reducible] def k2_t23_loop : Scf.Loop 32 :=
  let c0_i32_507 : BitVec 32 := 0#32
  let c72_i32_508 : BitVec 32 := 72#32
  let v378 : BitVec 32 := Scalar.addi c0_i32_507 c72_i32_508
  let c1_i32_509 : BitVec 32 := 1#32
  ⟨c0_i32_507, v378, c1_i32_509⟩
def k2_off301 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v548 : Index := Scalar.indexCast arg24
  let c0 : Index := 0#32
  ![v548.toNat, 0]
def k2_off302 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v555 : Index := Scalar.indexCast arg24
  let c16 : Index := 16#32
  ![v555.toNat, 16]
def k2_off303 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v562 : Index := Scalar.indexCast arg24
  let c32 : Index := 32#32
  ![v562.toNat, 32]
def k2_off304 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v569 : Index := Scalar.indexCast arg24
  let c48 : Index := 48#32
  ![v569.toNat, 48]
def k2_off305 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v576 : Index := Scalar.indexCast arg24
  let c64 : Index := 64#32
  ![v576.toNat, 64]
def k2_off306 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v583 : Index := Scalar.indexCast arg24
  let c80 : Index := 80#32
  ![v583.toNat, 80]
def k2_off307 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v590 : Index := Scalar.indexCast arg24
  let c84 : Index := 84#32
  ![v590.toNat, 84]
def k2_off308 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v597 : Index := Scalar.indexCast arg24
  let c0_745 : Index := 0#32
  ![v597.toNat, 0]
def k2_off309 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v601 : Index := Scalar.indexCast arg24
  let c16_746 : Index := 16#32
  ![v601.toNat, 16]
def k2_off310 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v605 : Index := Scalar.indexCast arg24
  let c32_747 : Index := 32#32
  ![v605.toNat, 32]
def k2_off311 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v609 : Index := Scalar.indexCast arg24
  let c48_748 : Index := 48#32
  ![v609.toNat, 48]
def k2_off312 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v613 : Index := Scalar.indexCast arg24
  let c64_749 : Index := 64#32
  ![v613.toNat, 64]
def k2_off313 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v617 : Index := Scalar.indexCast arg24
  let c80_750 : Index := 80#32
  ![v617.toNat, 80]
def k2_off314 (k2_t23 : Fin k2_t23_loop.trips) : Fin 2 → Nat :=
  let c0_i32_507 : BitVec 32 := 0#32
  let c1_i32_509 : BitVec 32 := 1#32
  let arg24 : BitVec 32 := Scf.iv c0_i32_507 c1_i32_509 k2_t23
  let v621 : Index := Scalar.indexCast arg24
  let c84_751 : Index := 84#32
  ![v621.toNat, 84]
@[reducible] def k2_t24_loop : Scf.Loop 32 :=
  let c0_i32_530 : BitVec 32 := 0#32
  let c128_i32_531 : BitVec 32 := 128#32
  let v396 : BitVec 32 := Scalar.addi c0_i32_530 c128_i32_531
  let c1_i32_532 : BitVec 32 := 1#32
  ⟨c0_i32_530, v396, c1_i32_532⟩
def k2_off315 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v548 : Index := Scalar.indexCast arg24
  let c0 : Index := 0#32
  ![v548.toNat, 0]
def k2_off316 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v555 : Index := Scalar.indexCast arg24
  let c16 : Index := 16#32
  ![v555.toNat, 16]
def k2_off317 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v562 : Index := Scalar.indexCast arg24
  let c32 : Index := 32#32
  ![v562.toNat, 32]
def k2_off318 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v569 : Index := Scalar.indexCast arg24
  let c48 : Index := 48#32
  ![v569.toNat, 48]
def k2_off319 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v576 : Index := Scalar.indexCast arg24
  let c64 : Index := 64#32
  ![v576.toNat, 64]
def k2_off320 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v583 : Index := Scalar.indexCast arg24
  let c80 : Index := 80#32
  ![v583.toNat, 80]
def k2_off321 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v590 : Index := Scalar.indexCast arg24
  let c84 : Index := 84#32
  ![v590.toNat, 84]
def k2_off322 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v597 : Index := Scalar.indexCast arg24
  let c0_745 : Index := 0#32
  ![v597.toNat, 0]
def k2_off323 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v601 : Index := Scalar.indexCast arg24
  let c16_746 : Index := 16#32
  ![v601.toNat, 16]
def k2_off324 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v605 : Index := Scalar.indexCast arg24
  let c32_747 : Index := 32#32
  ![v605.toNat, 32]
def k2_off325 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v609 : Index := Scalar.indexCast arg24
  let c48_748 : Index := 48#32
  ![v609.toNat, 48]
def k2_off326 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v613 : Index := Scalar.indexCast arg24
  let c64_749 : Index := 64#32
  ![v613.toNat, 64]
def k2_off327 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v617 : Index := Scalar.indexCast arg24
  let c80_750 : Index := 80#32
  ![v617.toNat, 80]
def k2_off328 (k2_t24 : Fin k2_t24_loop.trips) : Fin 2 → Nat :=
  let c0_i32_530 : BitVec 32 := 0#32
  let c1_i32_532 : BitVec 32 := 1#32
  let arg24 : BitVec 32 := Scf.iv c0_i32_530 c1_i32_532 k2_t24
  let v621 : Index := Scalar.indexCast arg24
  let c84_751 : Index := 84#32
  ![v621.toNat, 84]
@[reducible] def k2_t25_loop : Scf.Loop 32 :=
  let c0_i32_550 : BitVec 32 := 0#32
  let c72_i32_551 : BitVec 32 := 72#32
  let v409 : BitVec 32 := Scalar.addi c0_i32_550 c72_i32_551
  let c1_i32_552 : BitVec 32 := 1#32
  ⟨c0_i32_550, v409, c1_i32_552⟩
def k2_off329 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v548 : Index := Scalar.indexCast arg24
  let c0 : Index := 0#32
  ![v548.toNat, 0]
def k2_off330 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v555 : Index := Scalar.indexCast arg24
  let c16 : Index := 16#32
  ![v555.toNat, 16]
def k2_off331 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v562 : Index := Scalar.indexCast arg24
  let c32 : Index := 32#32
  ![v562.toNat, 32]
def k2_off332 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v569 : Index := Scalar.indexCast arg24
  let c48 : Index := 48#32
  ![v569.toNat, 48]
def k2_off333 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v576 : Index := Scalar.indexCast arg24
  let c64 : Index := 64#32
  ![v576.toNat, 64]
def k2_off334 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v583 : Index := Scalar.indexCast arg24
  let c80 : Index := 80#32
  ![v583.toNat, 80]
def k2_off335 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v590 : Index := Scalar.indexCast arg24
  let c84 : Index := 84#32
  ![v590.toNat, 84]
def k2_off336 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v597 : Index := Scalar.indexCast arg24
  let c0_745 : Index := 0#32
  ![v597.toNat, 0]
def k2_off337 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v601 : Index := Scalar.indexCast arg24
  let c16_746 : Index := 16#32
  ![v601.toNat, 16]
def k2_off338 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v605 : Index := Scalar.indexCast arg24
  let c32_747 : Index := 32#32
  ![v605.toNat, 32]
def k2_off339 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v609 : Index := Scalar.indexCast arg24
  let c48_748 : Index := 48#32
  ![v609.toNat, 48]
def k2_off340 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v613 : Index := Scalar.indexCast arg24
  let c64_749 : Index := 64#32
  ![v613.toNat, 64]
def k2_off341 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v617 : Index := Scalar.indexCast arg24
  let c80_750 : Index := 80#32
  ![v617.toNat, 80]
def k2_off342 (k2_t25 : Fin k2_t25_loop.trips) : Fin 2 → Nat :=
  let c0_i32_550 : BitVec 32 := 0#32
  let c1_i32_552 : BitVec 32 := 1#32
  let arg24 : BitVec 32 := Scf.iv c0_i32_550 c1_i32_552 k2_t25
  let v621 : Index := Scalar.indexCast arg24
  let c84_751 : Index := 84#32
  ![v621.toNat, 84]
@[reducible] def k2_t26_loop : Scf.Loop 32 :=
  let c0_i32_573 : BitVec 32 := 0#32
  let c128_i32_574 : BitVec 32 := 128#32
  let v427 : BitVec 32 := Scalar.addi c0_i32_573 c128_i32_574
  let c1_i32_575 : BitVec 32 := 1#32
  ⟨c0_i32_573, v427, c1_i32_575⟩
def k2_off343 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v548 : Index := Scalar.indexCast arg24
  let c0 : Index := 0#32
  ![v548.toNat, 0]
def k2_off344 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v555 : Index := Scalar.indexCast arg24
  let c16 : Index := 16#32
  ![v555.toNat, 16]
def k2_off345 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v562 : Index := Scalar.indexCast arg24
  let c32 : Index := 32#32
  ![v562.toNat, 32]
def k2_off346 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v569 : Index := Scalar.indexCast arg24
  let c48 : Index := 48#32
  ![v569.toNat, 48]
def k2_off347 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v576 : Index := Scalar.indexCast arg24
  let c64 : Index := 64#32
  ![v576.toNat, 64]
def k2_off348 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v583 : Index := Scalar.indexCast arg24
  let c80 : Index := 80#32
  ![v583.toNat, 80]
def k2_off349 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v590 : Index := Scalar.indexCast arg24
  let c84 : Index := 84#32
  ![v590.toNat, 84]
def k2_off350 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v597 : Index := Scalar.indexCast arg24
  let c0_745 : Index := 0#32
  ![v597.toNat, 0]
def k2_off351 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v601 : Index := Scalar.indexCast arg24
  let c16_746 : Index := 16#32
  ![v601.toNat, 16]
def k2_off352 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v605 : Index := Scalar.indexCast arg24
  let c32_747 : Index := 32#32
  ![v605.toNat, 32]
def k2_off353 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v609 : Index := Scalar.indexCast arg24
  let c48_748 : Index := 48#32
  ![v609.toNat, 48]
def k2_off354 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v613 : Index := Scalar.indexCast arg24
  let c64_749 : Index := 64#32
  ![v613.toNat, 64]
def k2_off355 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v617 : Index := Scalar.indexCast arg24
  let c80_750 : Index := 80#32
  ![v617.toNat, 80]
def k2_off356 (k2_t26 : Fin k2_t26_loop.trips) : Fin 2 → Nat :=
  let c0_i32_573 : BitVec 32 := 0#32
  let c1_i32_575 : BitVec 32 := 1#32
  let arg24 : BitVec 32 := Scf.iv c0_i32_573 c1_i32_575 k2_t26
  let v621 : Index := Scalar.indexCast arg24
  let c84_751 : Index := 84#32
  ![v621.toNat, 84]
@[reducible] def k2_t27_loop : Scf.Loop 32 :=
  let c0_i32_593 : BitVec 32 := 0#32
  let c72_i32_594 : BitVec 32 := 72#32
  let v440 : BitVec 32 := Scalar.addi c0_i32_593 c72_i32_594
  let c1_i32_595 : BitVec 32 := 1#32
  ⟨c0_i32_593, v440, c1_i32_595⟩
def k2_off357 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v548 : Index := Scalar.indexCast arg24
  let c0 : Index := 0#32
  ![v548.toNat, 0]
def k2_off358 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v555 : Index := Scalar.indexCast arg24
  let c16 : Index := 16#32
  ![v555.toNat, 16]
def k2_off359 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v562 : Index := Scalar.indexCast arg24
  let c32 : Index := 32#32
  ![v562.toNat, 32]
def k2_off360 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v569 : Index := Scalar.indexCast arg24
  let c48 : Index := 48#32
  ![v569.toNat, 48]
def k2_off361 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v576 : Index := Scalar.indexCast arg24
  let c64 : Index := 64#32
  ![v576.toNat, 64]
def k2_off362 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v583 : Index := Scalar.indexCast arg24
  let c80 : Index := 80#32
  ![v583.toNat, 80]
def k2_off363 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v590 : Index := Scalar.indexCast arg24
  let c84 : Index := 84#32
  ![v590.toNat, 84]
def k2_off364 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v597 : Index := Scalar.indexCast arg24
  let c0_745 : Index := 0#32
  ![v597.toNat, 0]
def k2_off365 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v601 : Index := Scalar.indexCast arg24
  let c16_746 : Index := 16#32
  ![v601.toNat, 16]
def k2_off366 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v605 : Index := Scalar.indexCast arg24
  let c32_747 : Index := 32#32
  ![v605.toNat, 32]
def k2_off367 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v609 : Index := Scalar.indexCast arg24
  let c48_748 : Index := 48#32
  ![v609.toNat, 48]
def k2_off368 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v613 : Index := Scalar.indexCast arg24
  let c64_749 : Index := 64#32
  ![v613.toNat, 64]
def k2_off369 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v617 : Index := Scalar.indexCast arg24
  let c80_750 : Index := 80#32
  ![v617.toNat, 80]
def k2_off370 (k2_t27 : Fin k2_t27_loop.trips) : Fin 2 → Nat :=
  let c0_i32_593 : BitVec 32 := 0#32
  let c1_i32_595 : BitVec 32 := 1#32
  let arg24 : BitVec 32 := Scf.iv c0_i32_593 c1_i32_595 k2_t27
  let v621 : Index := Scalar.indexCast arg24
  let c84_751 : Index := 84#32
  ![v621.toNat, 84]
@[reducible] def k2_t28_loop : Scf.Loop 32 :=
  let c0_i32_616 : BitVec 32 := 0#32
  let c128_i32_617 : BitVec 32 := 128#32
  let v458 : BitVec 32 := Scalar.addi c0_i32_616 c128_i32_617
  let c1_i32_618 : BitVec 32 := 1#32
  ⟨c0_i32_616, v458, c1_i32_618⟩
def k2_off371 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v548 : Index := Scalar.indexCast arg24
  let c0 : Index := 0#32
  ![v548.toNat, 0]
def k2_off372 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v555 : Index := Scalar.indexCast arg24
  let c16 : Index := 16#32
  ![v555.toNat, 16]
def k2_off373 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v562 : Index := Scalar.indexCast arg24
  let c32 : Index := 32#32
  ![v562.toNat, 32]
def k2_off374 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v569 : Index := Scalar.indexCast arg24
  let c48 : Index := 48#32
  ![v569.toNat, 48]
def k2_off375 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v576 : Index := Scalar.indexCast arg24
  let c64 : Index := 64#32
  ![v576.toNat, 64]
def k2_off376 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v583 : Index := Scalar.indexCast arg24
  let c80 : Index := 80#32
  ![v583.toNat, 80]
def k2_off377 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v590 : Index := Scalar.indexCast arg24
  let c84 : Index := 84#32
  ![v590.toNat, 84]
def k2_off378 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v597 : Index := Scalar.indexCast arg24
  let c0_745 : Index := 0#32
  ![v597.toNat, 0]
def k2_off379 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v601 : Index := Scalar.indexCast arg24
  let c16_746 : Index := 16#32
  ![v601.toNat, 16]
def k2_off380 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v605 : Index := Scalar.indexCast arg24
  let c32_747 : Index := 32#32
  ![v605.toNat, 32]
def k2_off381 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v609 : Index := Scalar.indexCast arg24
  let c48_748 : Index := 48#32
  ![v609.toNat, 48]
def k2_off382 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v613 : Index := Scalar.indexCast arg24
  let c64_749 : Index := 64#32
  ![v613.toNat, 64]
def k2_off383 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v617 : Index := Scalar.indexCast arg24
  let c80_750 : Index := 80#32
  ![v617.toNat, 80]
def k2_off384 (k2_t28 : Fin k2_t28_loop.trips) : Fin 2 → Nat :=
  let c0_i32_616 : BitVec 32 := 0#32
  let c1_i32_618 : BitVec 32 := 1#32
  let arg24 : BitVec 32 := Scf.iv c0_i32_616 c1_i32_618 k2_t28
  let v621 : Index := Scalar.indexCast arg24
  let c84_751 : Index := 84#32
  ![v621.toNat, 84]
@[reducible] def k2_t29_loop : Scf.Loop 32 :=
  let c0_i32_636 : BitVec 32 := 0#32
  let c72_i32_637 : BitVec 32 := 72#32
  let v471 : BitVec 32 := Scalar.addi c0_i32_636 c72_i32_637
  let c1_i32_638 : BitVec 32 := 1#32
  ⟨c0_i32_636, v471, c1_i32_638⟩
def k2_off385 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v548 : Index := Scalar.indexCast arg24
  let c0 : Index := 0#32
  ![v548.toNat, 0]
def k2_off386 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v555 : Index := Scalar.indexCast arg24
  let c16 : Index := 16#32
  ![v555.toNat, 16]
def k2_off387 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v562 : Index := Scalar.indexCast arg24
  let c32 : Index := 32#32
  ![v562.toNat, 32]
def k2_off388 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v569 : Index := Scalar.indexCast arg24
  let c48 : Index := 48#32
  ![v569.toNat, 48]
def k2_off389 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v576 : Index := Scalar.indexCast arg24
  let c64 : Index := 64#32
  ![v576.toNat, 64]
def k2_off390 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v583 : Index := Scalar.indexCast arg24
  let c80 : Index := 80#32
  ![v583.toNat, 80]
def k2_off391 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v590 : Index := Scalar.indexCast arg24
  let c84 : Index := 84#32
  ![v590.toNat, 84]
def k2_off392 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v597 : Index := Scalar.indexCast arg24
  let c0_745 : Index := 0#32
  ![v597.toNat, 0]
def k2_off393 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v601 : Index := Scalar.indexCast arg24
  let c16_746 : Index := 16#32
  ![v601.toNat, 16]
def k2_off394 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v605 : Index := Scalar.indexCast arg24
  let c32_747 : Index := 32#32
  ![v605.toNat, 32]
def k2_off395 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v609 : Index := Scalar.indexCast arg24
  let c48_748 : Index := 48#32
  ![v609.toNat, 48]
def k2_off396 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v613 : Index := Scalar.indexCast arg24
  let c64_749 : Index := 64#32
  ![v613.toNat, 64]
def k2_off397 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v617 : Index := Scalar.indexCast arg24
  let c80_750 : Index := 80#32
  ![v617.toNat, 80]
def k2_off398 (k2_t29 : Fin k2_t29_loop.trips) : Fin 2 → Nat :=
  let c0_i32_636 : BitVec 32 := 0#32
  let c1_i32_638 : BitVec 32 := 1#32
  let arg24 : BitVec 32 := Scf.iv c0_i32_636 c1_i32_638 k2_t29
  let v621 : Index := Scalar.indexCast arg24
  let c84_751 : Index := 84#32
  ![v621.toNat, 84]
@[reducible] def k2_t30_loop : Scf.Loop 32 :=
  let c0_i32_659 : BitVec 32 := 0#32
  let c128_i32_660 : BitVec 32 := 128#32
  let v489 : BitVec 32 := Scalar.addi c0_i32_659 c128_i32_660
  let c1_i32_661 : BitVec 32 := 1#32
  ⟨c0_i32_659, v489, c1_i32_661⟩
def k2_off399 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v548 : Index := Scalar.indexCast arg24
  let c0 : Index := 0#32
  ![v548.toNat, 0]
def k2_off400 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v555 : Index := Scalar.indexCast arg24
  let c16 : Index := 16#32
  ![v555.toNat, 16]
def k2_off401 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v562 : Index := Scalar.indexCast arg24
  let c32 : Index := 32#32
  ![v562.toNat, 32]
def k2_off402 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v569 : Index := Scalar.indexCast arg24
  let c48 : Index := 48#32
  ![v569.toNat, 48]
def k2_off403 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v576 : Index := Scalar.indexCast arg24
  let c64 : Index := 64#32
  ![v576.toNat, 64]
def k2_off404 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v583 : Index := Scalar.indexCast arg24
  let c80 : Index := 80#32
  ![v583.toNat, 80]
def k2_off405 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v590 : Index := Scalar.indexCast arg24
  let c84 : Index := 84#32
  ![v590.toNat, 84]
def k2_off406 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v597 : Index := Scalar.indexCast arg24
  let c0_745 : Index := 0#32
  ![v597.toNat, 0]
def k2_off407 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v601 : Index := Scalar.indexCast arg24
  let c16_746 : Index := 16#32
  ![v601.toNat, 16]
def k2_off408 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v605 : Index := Scalar.indexCast arg24
  let c32_747 : Index := 32#32
  ![v605.toNat, 32]
def k2_off409 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v609 : Index := Scalar.indexCast arg24
  let c48_748 : Index := 48#32
  ![v609.toNat, 48]
def k2_off410 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v613 : Index := Scalar.indexCast arg24
  let c64_749 : Index := 64#32
  ![v613.toNat, 64]
def k2_off411 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v617 : Index := Scalar.indexCast arg24
  let c80_750 : Index := 80#32
  ![v617.toNat, 80]
def k2_off412 (k2_t30 : Fin k2_t30_loop.trips) : Fin 2 → Nat :=
  let c0_i32_659 : BitVec 32 := 0#32
  let c1_i32_661 : BitVec 32 := 1#32
  let arg24 : BitVec 32 := Scf.iv c0_i32_659 c1_i32_661 k2_t30
  let v621 : Index := Scalar.indexCast arg24
  let c84_751 : Index := 84#32
  ![v621.toNat, 84]
@[reducible] def k2_t31_loop : Scf.Loop 32 :=
  let c0_i32_679 : BitVec 32 := 0#32
  let c72_i32_680 : BitVec 32 := 72#32
  let v502 : BitVec 32 := Scalar.addi c0_i32_679 c72_i32_680
  let c1_i32_681 : BitVec 32 := 1#32
  ⟨c0_i32_679, v502, c1_i32_681⟩
def k2_off413 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v548 : Index := Scalar.indexCast arg24
  let c0 : Index := 0#32
  ![v548.toNat, 0]
def k2_off414 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v555 : Index := Scalar.indexCast arg24
  let c16 : Index := 16#32
  ![v555.toNat, 16]
def k2_off415 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v562 : Index := Scalar.indexCast arg24
  let c32 : Index := 32#32
  ![v562.toNat, 32]
def k2_off416 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v569 : Index := Scalar.indexCast arg24
  let c48 : Index := 48#32
  ![v569.toNat, 48]
def k2_off417 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v576 : Index := Scalar.indexCast arg24
  let c64 : Index := 64#32
  ![v576.toNat, 64]
def k2_off418 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v583 : Index := Scalar.indexCast arg24
  let c80 : Index := 80#32
  ![v583.toNat, 80]
def k2_off419 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v590 : Index := Scalar.indexCast arg24
  let c84 : Index := 84#32
  ![v590.toNat, 84]
def k2_off420 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v597 : Index := Scalar.indexCast arg24
  let c0_745 : Index := 0#32
  ![v597.toNat, 0]
def k2_off421 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v601 : Index := Scalar.indexCast arg24
  let c16_746 : Index := 16#32
  ![v601.toNat, 16]
def k2_off422 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v605 : Index := Scalar.indexCast arg24
  let c32_747 : Index := 32#32
  ![v605.toNat, 32]
def k2_off423 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v609 : Index := Scalar.indexCast arg24
  let c48_748 : Index := 48#32
  ![v609.toNat, 48]
def k2_off424 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v613 : Index := Scalar.indexCast arg24
  let c64_749 : Index := 64#32
  ![v613.toNat, 64]
def k2_off425 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v617 : Index := Scalar.indexCast arg24
  let c80_750 : Index := 80#32
  ![v617.toNat, 80]
def k2_off426 (k2_t31 : Fin k2_t31_loop.trips) : Fin 2 → Nat :=
  let c0_i32_679 : BitVec 32 := 0#32
  let c1_i32_681 : BitVec 32 := 1#32
  let arg24 : BitVec 32 := Scf.iv c0_i32_679 c1_i32_681 k2_t31
  let v621 : Index := Scalar.indexCast arg24
  let c84_751 : Index := 84#32
  ![v621.toNat, 84]
@[reducible] def k2_t32_loop : Scf.Loop 32 :=
  let c0_i32_702 : BitVec 32 := 0#32
  let c128_i32_703 : BitVec 32 := 128#32
  let v520 : BitVec 32 := Scalar.addi c0_i32_702 c128_i32_703
  let c1_i32_704 : BitVec 32 := 1#32
  ⟨c0_i32_702, v520, c1_i32_704⟩
def k2_off427 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v548 : Index := Scalar.indexCast arg24
  let c0 : Index := 0#32
  ![v548.toNat, 0]
def k2_off428 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v555 : Index := Scalar.indexCast arg24
  let c16 : Index := 16#32
  ![v555.toNat, 16]
def k2_off429 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v562 : Index := Scalar.indexCast arg24
  let c32 : Index := 32#32
  ![v562.toNat, 32]
def k2_off430 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v569 : Index := Scalar.indexCast arg24
  let c48 : Index := 48#32
  ![v569.toNat, 48]
def k2_off431 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v576 : Index := Scalar.indexCast arg24
  let c64 : Index := 64#32
  ![v576.toNat, 64]
def k2_off432 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v583 : Index := Scalar.indexCast arg24
  let c80 : Index := 80#32
  ![v583.toNat, 80]
def k2_off433 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v590 : Index := Scalar.indexCast arg24
  let c84 : Index := 84#32
  ![v590.toNat, 84]
def k2_off434 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v597 : Index := Scalar.indexCast arg24
  let c0_745 : Index := 0#32
  ![v597.toNat, 0]
def k2_off435 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v601 : Index := Scalar.indexCast arg24
  let c16_746 : Index := 16#32
  ![v601.toNat, 16]
def k2_off436 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v605 : Index := Scalar.indexCast arg24
  let c32_747 : Index := 32#32
  ![v605.toNat, 32]
def k2_off437 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v609 : Index := Scalar.indexCast arg24
  let c48_748 : Index := 48#32
  ![v609.toNat, 48]
def k2_off438 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v613 : Index := Scalar.indexCast arg24
  let c64_749 : Index := 64#32
  ![v613.toNat, 64]
def k2_off439 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v617 : Index := Scalar.indexCast arg24
  let c80_750 : Index := 80#32
  ![v617.toNat, 80]
def k2_off440 (k2_t32 : Fin k2_t32_loop.trips) : Fin 2 → Nat :=
  let c0_i32_702 : BitVec 32 := 0#32
  let c1_i32_704 : BitVec 32 := 1#32
  let arg24 : BitVec 32 := Scf.iv c0_i32_702 c1_i32_704 k2_t32
  let v621 : Index := Scalar.indexCast arg24
  let c84_751 : Index := 84#32
  ![v621.toNat, 84]
@[reducible] def k2_t33_loop : Scf.Loop 32 :=
  let c0_i32_726 : BitVec 32 := 0#32
  let c72_i32_727 : BitVec 32 := 72#32
  let v537 : BitVec 32 := Scalar.addi c0_i32_726 c72_i32_727
  let c1_i32_728 : BitVec 32 := 1#32
  ⟨c0_i32_726, v537, c1_i32_728⟩
def k2_off441 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v548 : Index := Scalar.indexCast arg24
  let c0 : Index := 0#32
  ![v548.toNat, 0]
def k2_off442 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v555 : Index := Scalar.indexCast arg24
  let c16 : Index := 16#32
  ![v555.toNat, 16]
def k2_off443 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v562 : Index := Scalar.indexCast arg24
  let c32 : Index := 32#32
  ![v562.toNat, 32]
def k2_off444 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v569 : Index := Scalar.indexCast arg24
  let c48 : Index := 48#32
  ![v569.toNat, 48]
def k2_off445 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v576 : Index := Scalar.indexCast arg24
  let c64 : Index := 64#32
  ![v576.toNat, 64]
def k2_off446 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v583 : Index := Scalar.indexCast arg24
  let c80 : Index := 80#32
  ![v583.toNat, 80]
def k2_off447 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v590 : Index := Scalar.indexCast arg24
  let c84 : Index := 84#32
  ![v590.toNat, 84]
def k2_off448 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v597 : Index := Scalar.indexCast arg24
  let c0_745 : Index := 0#32
  ![v597.toNat, 0]
def k2_off449 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v601 : Index := Scalar.indexCast arg24
  let c16_746 : Index := 16#32
  ![v601.toNat, 16]
def k2_off450 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v605 : Index := Scalar.indexCast arg24
  let c32_747 : Index := 32#32
  ![v605.toNat, 32]
def k2_off451 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v609 : Index := Scalar.indexCast arg24
  let c48_748 : Index := 48#32
  ![v609.toNat, 48]
def k2_off452 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v613 : Index := Scalar.indexCast arg24
  let c64_749 : Index := 64#32
  ![v613.toNat, 64]
def k2_off453 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v617 : Index := Scalar.indexCast arg24
  let c80_750 : Index := 80#32
  ![v617.toNat, 80]
def k2_off454 (k2_t33 : Fin k2_t33_loop.trips) : Fin 2 → Nat :=
  let c0_i32_726 : BitVec 32 := 0#32
  let c1_i32_728 : BitVec 32 := 1#32
  let arg24 : BitVec 32 := Scf.iv c0_i32_726 c1_i32_728 k2_t33
  let v621 : Index := Scalar.indexCast arg24
  let c84_751 : Index := 84#32
  ![v621.toNat, 84]
def k2_off455 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_732 : BitVec 32 := 16#32
  let c0_i32_13 : BitVec 32 := 0#32
  let c1_i32 : BitVec 32 := 1#32
  let arg23 : BitVec 32 := Scf.iv c0_i32_13 c1_i32 k2_t1
  let c1_i32_731 : BitVec 32 := 1#32
  let v539 : BitVec 32 := Scalar.addi arg23 c1_i32_731
  let v540 : BitVec 32 := Scalar.muli c16_i32_732 v539
  let v541 : BitVec 32 := Scalar.addi v2 v540
  let c8_i32_733 : BitVec 32 := 8#32
  let v542 : BitVec 32 := Scalar.addi v541 c8_i32_733
  let c128_i32_0 : BitVec 32 := 128#32
  let v3 : BitVec 32 := Scalar.addi v2 c128_i32_0
  let c8_i32 : BitVec 32 := 8#32
  let v4 : BitVec 32 := Scalar.subi v3 c8_i32
  let v543 : BitVec 32 := Scalar.minsi v542 v4
  let c0_i32_734 : BitVec 32 := 0#32
  ![v543.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S20000x100_S20000x100_0_0 : ∀ a, (![0, 0] : Fin 2 → Nat) a + S20000x100.size a ≤ S20000x100.size a
  h_S20000x100 : 0 < S20000x100.numel
  concatenates_S20000x100_S20000x28_S20000x128_d1 : Shape.Concatenates [S20000x100, S20000x28] S20000x128 1
  inb_S20000x128_S20000x128_0_0 : ∀ a, (![0, 0] : Fin 2 → Nat) a + S20000x128.size a ≤ S20000x128.size a
  h_S20000x128 : 0 < S20000x128.numel
  inb_S8x200_S1x128_0_0 : ∀ a, (![0, 0] : Fin 2 → Nat) a + S1x128.size a ≤ S8x200.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S1000000x128_S1000000x128_0_0 : ∀ a, (![0, 0] : Fin 2 → Nat) a + S1000000x128.size a ≤ S1000000x128.size a
  gathers_S1000000x128_S128x128 : S1000000x128.Gathers 0 S128x128
  inb_S8x200_S1x72_0_128 : ∀ a, (![0, 128] : Fin 2 → Nat) a + S1x72.size a ≤ S8x200.size a
  squeezes_S1x72_S72 : S1x72.Squeezes S72
  gathers_S100000x128_S72x128 : S100000x128.Gathers 0 S72x128
  gathers_S1000000x128_S72x128 : S1000000x128.Gathers 0 S72x128
  h_S1x16 : 0 < S1x16.numel
  shapeCasts_S1x16_S16 : S1x16.ShapeCasts S16
  shapeCasts_S16_S1x16 : S16.ShapeCasts S1x16
  inb_S8x200_S1x128_1_0 : ∀ a, (![1, 0] : Fin 2 → Nat) a + S1x128.size a ≤ S8x200.size a
  inb_S8x200_S1x72_1_128 : ∀ a, (![1, 128] : Fin 2 → Nat) a + S1x72.size a ≤ S8x200.size a
  inb_S8x200_S1x128_2_0 : ∀ a, (![2, 0] : Fin 2 → Nat) a + S1x128.size a ≤ S8x200.size a
  inb_S8x200_S1x72_2_128 : ∀ a, (![2, 128] : Fin 2 → Nat) a + S1x72.size a ≤ S8x200.size a
  inb_S8x200_S1x128_3_0 : ∀ a, (![3, 0] : Fin 2 → Nat) a + S1x128.size a ≤ S8x200.size a
  inb_S8x200_S1x72_3_128 : ∀ a, (![3, 128] : Fin 2 → Nat) a + S1x72.size a ≤ S8x200.size a
  inb_S8x200_S1x128_4_0 : ∀ a, (![4, 0] : Fin 2 → Nat) a + S1x128.size a ≤ S8x200.size a
  inb_S8x200_S1x72_4_128 : ∀ a, (![4, 128] : Fin 2 → Nat) a + S1x72.size a ≤ S8x200.size a
  inb_S8x200_S1x128_5_0 : ∀ a, (![5, 0] : Fin 2 → Nat) a + S1x128.size a ≤ S8x200.size a
  inb_S8x200_S1x72_5_128 : ∀ a, (![5, 128] : Fin 2 → Nat) a + S1x72.size a ≤ S8x200.size a
  inb_S8x200_S1x128_6_0 : ∀ a, (![6, 0] : Fin 2 → Nat) a + S1x128.size a ≤ S8x200.size a
  inb_S8x200_S1x72_6_128 : ∀ a, (![6, 128] : Fin 2 → Nat) a + S1x72.size a ≤ S8x200.size a
  inb_S8x200_S1x128_7_0 : ∀ a, (![7, 0] : Fin 2 → Nat) a + S1x128.size a ≤ S8x200.size a
  inb_S8x200_S1x72_7_128 : ∀ a, (![7, 128] : Fin 2 → Nat) a + S1x72.size a ≤ S8x200.size a
  shapeCasts_S819200x100_S4096x200x100 : S819200x100.ShapeCasts S4096x200x100
  hcc2_scratch10 : 8 + S_.numel ≤ 48
  hcc2_scratch11 : 9 + S_.numel ≤ 48
  hcc2_scratch12 : 10 + S_.numel ≤ 48
  hcc2_scratch13 : 11 + S_.numel ≤ 48
  hcc2_scratch14 : 12 + S_.numel ≤ 48
  hcc2_scratch15 : 13 + S_.numel ≤ 48
  hcc2_scoped0 : 14 + S_.numel ≤ 48
  hcc2_scoped1 : 15 + S_.numel ≤ 48
  hcc2_scoped2 : 16 + S_.numel ≤ 48
  hcc2_scoped3 : 17 + S_.numel ≤ 48
  hcc2_scoped4 : 18 + S_.numel ≤ 48
  hcc2_scoped5 : 19 + S_.numel ≤ 48
  hcc2_scoped6 : 20 + S_.numel ≤ 48
  hcc2_scoped7 : 21 + S_.numel ≤ 48
  hcc2_scoped8 : 22 + S_.numel ≤ 48
  hcc2_scoped9 : 23 + S_.numel ≤ 48
  hcc2_scoped10 : 24 + S_.numel ≤ 48
  hcc2_scoped11 : 25 + S_.numel ≤ 48
  hcc2_scoped12 : 26 + S_.numel ≤ 48
  hcc2_scoped13 : 27 + S_.numel ≤ 48
  hcc2_scoped14 : 28 + S_.numel ≤ 48
  hcc2_scoped15 : 29 + S_.numel ≤ 48
  hcc2_scoped16 : 30 + S_.numel ≤ 48
  hcc2_scoped17 : 31 + S_.numel ≤ 48
  hcc2_scoped18 : 32 + S_.numel ≤ 48
  hcc2_scoped19 : 33 + S_.numel ≤ 48
  hcc2_scoped20 : 34 + S_.numel ≤ 48
  hcc2_scoped21 : 35 + S_.numel ≤ 48
  hcc2_scoped22 : 36 + S_.numel ≤ 48
  hcc2_scoped23 : 37 + S_.numel ≤ 48
  hcc2_scoped24 : 38 + S_.numel ≤ 48
  hcc2_scoped25 : 39 + S_.numel ≤ 48
  hcc2_scoped26 : 40 + S_.numel ≤ 48
  hcc2_scoped27 : 41 + S_.numel ≤ 48
  hcc2_scoped28 : 42 + S_.numel ≤ 48
  hcc2_scoped29 : 43 + S_.numel ≤ 48
  hcc2_scoped30 : 44 + S_.numel ≤ 48
  hcc2_scoped31 : 45 + S_.numel ≤ 48
  hcc2_scoped32 : 46 + S_.numel ≤ 48
  hcc2_scoped33 : 47 + S_.numel ≤ 48
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x100.size a ≤ S100000x100.size a
  hwx0_0 : ∀ i : grid0.Coords, EltTy.bits .f32 = 32 ∨ (Rect.block (s := S100000x100) S20000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x128.size a ≤ S100000x128.size a
  hwx0_1 : ∀ i : grid0.Coords, EltTy.bits .f32 = 32 ∨ (Rect.block (s := S100000x128) S20000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x100.size a ≤ S1000000x100.size a
  hwx1_0 : ∀ i : grid1.Coords, EltTy.bits .f32 = 32 ∨ (Rect.block (s := S1000000x100) S20000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x128.size a ≤ S1000000x128.size a
  hwx1_1 : ∀ i : grid1.Coords, EltTy.bits .f32 = 32 ∨ (Rect.block (s := S1000000x128) S20000x128.size (cc1_transform_1 i) (hinb1_1 i)).WholeWords (EltTy.packing .f32)
  hcore2 : grid2.bound 0 ≤ τ.nSC
  hsub2 : grid2.bound 1 ≤ τ.nSub
  k2_off1_inb : ∀ i : grid2.Coords, ∀ a, (k2_off1 i) a + S8x200.size a ≤ S4096x200.size a
  k2_off2_inb : ∀ i : grid2.Coords, ∀ a, (k2_off2 i) a + S8x200.size a ≤ S4096x200.size a
  k2_t1_ok : k2_t1_loop.OK
  k2_t2_ok : k2_t2_loop.OK
  k2_off3_inb : ∀ k2_t2 : Fin k2_t2_loop.trips, ∀ a, (k2_off3 k2_t2) a + S1x16.size a ≤ S128x128.size a
  k2_off4_inb : ∀ k2_t2 : Fin k2_t2_loop.trips, ∀ a, (k2_off4 k2_t2) a + S1x16.size a ≤ S128x128.size a
  k2_off5_inb : ∀ k2_t2 : Fin k2_t2_loop.trips, ∀ a, (k2_off5 k2_t2) a + S1x16.size a ≤ S128x128.size a
  k2_off6_inb : ∀ k2_t2 : Fin k2_t2_loop.trips, ∀ a, (k2_off6 k2_t2) a + S1x16.size a ≤ S128x128.size a
  k2_off7_inb : ∀ k2_t2 : Fin k2_t2_loop.trips, ∀ a, (k2_off7 k2_t2) a + S1x16.size a ≤ S128x128.size a
  k2_off8_inb : ∀ k2_t2 : Fin k2_t2_loop.trips, ∀ a, (k2_off8 k2_t2) a + S1x16.size a ≤ S128x128.size a
  k2_off9_inb : ∀ k2_t2 : Fin k2_t2_loop.trips, ∀ a, (k2_off9 k2_t2) a + S1x16.size a ≤ S128x128.size a
  k2_off10_inb : ∀ k2_t2 : Fin k2_t2_loop.trips, ∀ a, (k2_off10 k2_t2) a + S1x16.size a ≤ S128x100.size a
  k2_off11_inb : ∀ k2_t2 : Fin k2_t2_loop.trips, ∀ a, (k2_off11 k2_t2) a + S1x16.size a ≤ S128x100.size a
  k2_off12_inb : ∀ k2_t2 : Fin k2_t2_loop.trips, ∀ a, (k2_off12 k2_t2) a + S1x16.size a ≤ S128x100.size a
  k2_off13_inb : ∀ k2_t2 : Fin k2_t2_loop.trips, ∀ a, (k2_off13 k2_t2) a + S1x16.size a ≤ S128x100.size a
  k2_off14_inb : ∀ k2_t2 : Fin k2_t2_loop.trips, ∀ a, (k2_off14 k2_t2) a + S1x16.size a ≤ S128x100.size a
  k2_off15_inb : ∀ k2_t2 : Fin k2_t2_loop.trips, ∀ a, (k2_off15 k2_t2) a + S1x16.size a ≤ S128x100.size a
  k2_off16_inb : ∀ k2_t2 : Fin k2_t2_loop.trips, ∀ a, (k2_off16 k2_t2) a + S1x16.size a ≤ S128x100.size a
  k2_off17_inb : ∀ (i : grid2.Coords) (k2_t1 : Fin k2_t1_loop.trips), ∀ (r : Fin 16), ∀ a, (k2_off17 i k2_t1 (BitVec.ofNat 32 r.val)) a + S128x100.size a ≤ S819200x100.size a
  k2_t3_ok : k2_t3_loop.OK
  k2_off18_inb : ∀ k2_t3 : Fin k2_t3_loop.trips, ∀ a, (k2_off18 k2_t3) a + S1x16.size a ≤ S72x128.size a
  k2_off19_inb : ∀ k2_t3 : Fin k2_t3_loop.trips, ∀ a, (k2_off19 k2_t3) a + S1x16.size a ≤ S72x128.size a
  k2_off20_inb : ∀ k2_t3 : Fin k2_t3_loop.trips, ∀ a, (k2_off20 k2_t3) a + S1x16.size a ≤ S72x128.size a
  k2_off21_inb : ∀ k2_t3 : Fin k2_t3_loop.trips, ∀ a, (k2_off21 k2_t3) a + S1x16.size a ≤ S72x128.size a
  k2_off22_inb : ∀ k2_t3 : Fin k2_t3_loop.trips, ∀ a, (k2_off22 k2_t3) a + S1x16.size a ≤ S72x128.size a
  k2_off23_inb : ∀ k2_t3 : Fin k2_t3_loop.trips, ∀ a, (k2_off23 k2_t3) a + S1x16.size a ≤ S72x128.size a
  k2_off24_inb : ∀ k2_t3 : Fin k2_t3_loop.trips, ∀ a, (k2_off24 k2_t3) a + S1x16.size a ≤ S72x128.size a
  k2_off25_inb : ∀ k2_t3 : Fin k2_t3_loop.trips, ∀ a, (k2_off25 k2_t3) a + S1x16.size a ≤ S72x100.size a
  k2_off26_inb : ∀ k2_t3 : Fin k2_t3_loop.trips, ∀ a, (k2_off26 k2_t3) a + S1x16.size a ≤ S72x100.size a
  k2_off27_inb : ∀ k2_t3 : Fin k2_t3_loop.trips, ∀ a, (k2_off27 k2_t3) a + S1x16.size a ≤ S72x100.size a
  k2_off28_inb : ∀ k2_t3 : Fin k2_t3_loop.trips, ∀ a, (k2_off28 k2_t3) a + S1x16.size a ≤ S72x100.size a
  k2_off29_inb : ∀ k2_t3 : Fin k2_t3_loop.trips, ∀ a, (k2_off29 k2_t3) a + S1x16.size a ≤ S72x100.size a
  k2_off30_inb : ∀ k2_t3 : Fin k2_t3_loop.trips, ∀ a, (k2_off30 k2_t3) a + S1x16.size a ≤ S72x100.size a
  k2_off31_inb : ∀ k2_t3 : Fin k2_t3_loop.trips, ∀ a, (k2_off31 k2_t3) a + S1x16.size a ≤ S72x100.size a
  k2_off32_inb : ∀ (i : grid2.Coords) (k2_t1 : Fin k2_t1_loop.trips), ∀ (r : Fin 16), ∀ a, (k2_off32 i k2_t1 (BitVec.ofNat 32 r.val)) a + S72x100.size a ≤ S819200x100.size a
  k2_t4_ok : k2_t4_loop.OK
  k2_off33_inb : ∀ k2_t4 : Fin k2_t4_loop.trips, ∀ a, (k2_off33 k2_t4) a + S1x16.size a ≤ S128x128.size a
  k2_off34_inb : ∀ k2_t4 : Fin k2_t4_loop.trips, ∀ a, (k2_off34 k2_t4) a + S1x16.size a ≤ S128x128.size a
  k2_off35_inb : ∀ k2_t4 : Fin k2_t4_loop.trips, ∀ a, (k2_off35 k2_t4) a + S1x16.size a ≤ S128x128.size a
  k2_off36_inb : ∀ k2_t4 : Fin k2_t4_loop.trips, ∀ a, (k2_off36 k2_t4) a + S1x16.size a ≤ S128x128.size a
  k2_off37_inb : ∀ k2_t4 : Fin k2_t4_loop.trips, ∀ a, (k2_off37 k2_t4) a + S1x16.size a ≤ S128x128.size a
  k2_off38_inb : ∀ k2_t4 : Fin k2_t4_loop.trips, ∀ a, (k2_off38 k2_t4) a + S1x16.size a ≤ S128x128.size a
  k2_off39_inb : ∀ k2_t4 : Fin k2_t4_loop.trips, ∀ a, (k2_off39 k2_t4) a + S1x16.size a ≤ S128x128.size a
  k2_off40_inb : ∀ k2_t4 : Fin k2_t4_loop.trips, ∀ a, (k2_off40 k2_t4) a + S1x16.size a ≤ S128x100.size a
  k2_off41_inb : ∀ k2_t4 : Fin k2_t4_loop.trips, ∀ a, (k2_off41 k2_t4) a + S1x16.size a ≤ S128x100.size a
  k2_off42_inb : ∀ k2_t4 : Fin k2_t4_loop.trips, ∀ a, (k2_off42 k2_t4) a + S1x16.size a ≤ S128x100.size a
  k2_off43_inb : ∀ k2_t4 : Fin k2_t4_loop.trips, ∀ a, (k2_off43 k2_t4) a + S1x16.size a ≤ S128x100.size a
  k2_off44_inb : ∀ k2_t4 : Fin k2_t4_loop.trips, ∀ a, (k2_off44 k2_t4) a + S1x16.size a ≤ S128x100.size a
  k2_off45_inb : ∀ k2_t4 : Fin k2_t4_loop.trips, ∀ a, (k2_off45 k2_t4) a + S1x16.size a ≤ S128x100.size a
  k2_off46_inb : ∀ k2_t4 : Fin k2_t4_loop.trips, ∀ a, (k2_off46 k2_t4) a + S1x16.size a ≤ S128x100.size a
  k2_t5_ok : k2_t5_loop.OK
  k2_off47_inb : ∀ k2_t5 : Fin k2_t5_loop.trips, ∀ a, (k2_off47 k2_t5) a + S1x16.size a ≤ S72x128.size a
  k2_off48_inb : ∀ k2_t5 : Fin k2_t5_loop.trips, ∀ a, (k2_off48 k2_t5) a + S1x16.size a ≤ S72x128.size a
  k2_off49_inb : ∀ k2_t5 : Fin k2_t5_loop.trips, ∀ a, (k2_off49 k2_t5) a + S1x16.size a ≤ S72x128.size a
  k2_off50_inb : ∀ k2_t5 : Fin k2_t5_loop.trips, ∀ a, (k2_off50 k2_t5) a + S1x16.size a ≤ S72x128.size a
  k2_off51_inb : ∀ k2_t5 : Fin k2_t5_loop.trips, ∀ a, (k2_off51 k2_t5) a + S1x16.size a ≤ S72x128.size a
  k2_off52_inb : ∀ k2_t5 : Fin k2_t5_loop.trips, ∀ a, (k2_off52 k2_t5) a + S1x16.size a ≤ S72x128.size a
  k2_off53_inb : ∀ k2_t5 : Fin k2_t5_loop.trips, ∀ a, (k2_off53 k2_t5) a + S1x16.size a ≤ S72x128.size a
  k2_off54_inb : ∀ k2_t5 : Fin k2_t5_loop.trips, ∀ a, (k2_off54 k2_t5) a + S1x16.size a ≤ S72x100.size a
  k2_off55_inb : ∀ k2_t5 : Fin k2_t5_loop.trips, ∀ a, (k2_off55 k2_t5) a + S1x16.size a ≤ S72x100.size a
  k2_off56_inb : ∀ k2_t5 : Fin k2_t5_loop.trips, ∀ a, (k2_off56 k2_t5) a + S1x16.size a ≤ S72x100.size a
  k2_off57_inb : ∀ k2_t5 : Fin k2_t5_loop.trips, ∀ a, (k2_off57 k2_t5) a + S1x16.size a ≤ S72x100.size a
  k2_off58_inb : ∀ k2_t5 : Fin k2_t5_loop.trips, ∀ a, (k2_off58 k2_t5) a + S1x16.size a ≤ S72x100.size a
  k2_off59_inb : ∀ k2_t5 : Fin k2_t5_loop.trips, ∀ a, (k2_off59 k2_t5) a + S1x16.size a ≤ S72x100.size a
  k2_off60_inb : ∀ k2_t5 : Fin k2_t5_loop.trips, ∀ a, (k2_off60 k2_t5) a + S1x16.size a ≤ S72x100.size a
  k2_t6_ok : k2_t6_loop.OK
  k2_off61_inb : ∀ k2_t6 : Fin k2_t6_loop.trips, ∀ a, (k2_off61 k2_t6) a + S1x16.size a ≤ S128x128.size a
  k2_off62_inb : ∀ k2_t6 : Fin k2_t6_loop.trips, ∀ a, (k2_off62 k2_t6) a + S1x16.size a ≤ S128x128.size a
  k2_off63_inb : ∀ k2_t6 : Fin k2_t6_loop.trips, ∀ a, (k2_off63 k2_t6) a + S1x16.size a ≤ S128x128.size a
  k2_off64_inb : ∀ k2_t6 : Fin k2_t6_loop.trips, ∀ a, (k2_off64 k2_t6) a + S1x16.size a ≤ S128x128.size a
  k2_off65_inb : ∀ k2_t6 : Fin k2_t6_loop.trips, ∀ a, (k2_off65 k2_t6) a + S1x16.size a ≤ S128x128.size a
  k2_off66_inb : ∀ k2_t6 : Fin k2_t6_loop.trips, ∀ a, (k2_off66 k2_t6) a + S1x16.size a ≤ S128x128.size a
  k2_off67_inb : ∀ k2_t6 : Fin k2_t6_loop.trips, ∀ a, (k2_off67 k2_t6) a + S1x16.size a ≤ S128x128.size a
  k2_off68_inb : ∀ k2_t6 : Fin k2_t6_loop.trips, ∀ a, (k2_off68 k2_t6) a + S1x16.size a ≤ S128x100.size a
  k2_off69_inb : ∀ k2_t6 : Fin k2_t6_loop.trips, ∀ a, (k2_off69 k2_t6) a + S1x16.size a ≤ S128x100.size a
  k2_off70_inb : ∀ k2_t6 : Fin k2_t6_loop.trips, ∀ a, (k2_off70 k2_t6) a + S1x16.size a ≤ S128x100.size a
  k2_off71_inb : ∀ k2_t6 : Fin k2_t6_loop.trips, ∀ a, (k2_off71 k2_t6) a + S1x16.size a ≤ S128x100.size a
  k2_off72_inb : ∀ k2_t6 : Fin k2_t6_loop.trips, ∀ a, (k2_off72 k2_t6) a + S1x16.size a ≤ S128x100.size a
  k2_off73_inb : ∀ k2_t6 : Fin k2_t6_loop.trips, ∀ a, (k2_off73 k2_t6) a + S1x16.size a ≤ S128x100.size a
  k2_off74_inb : ∀ k2_t6 : Fin k2_t6_loop.trips, ∀ a, (k2_off74 k2_t6) a + S1x16.size a ≤ S128x100.size a
  k2_t7_ok : k2_t7_loop.OK
  k2_off75_inb : ∀ k2_t7 : Fin k2_t7_loop.trips, ∀ a, (k2_off75 k2_t7) a + S1x16.size a ≤ S72x128.size a
  k2_off76_inb : ∀ k2_t7 : Fin k2_t7_loop.trips, ∀ a, (k2_off76 k2_t7) a + S1x16.size a ≤ S72x128.size a
  k2_off77_inb : ∀ k2_t7 : Fin k2_t7_loop.trips, ∀ a, (k2_off77 k2_t7) a + S1x16.size a ≤ S72x128.size a
  k2_off78_inb : ∀ k2_t7 : Fin k2_t7_loop.trips, ∀ a, (k2_off78 k2_t7) a + S1x16.size a ≤ S72x128.size a
  k2_off79_inb : ∀ k2_t7 : Fin k2_t7_loop.trips, ∀ a, (k2_off79 k2_t7) a + S1x16.size a ≤ S72x128.size a
  k2_off80_inb : ∀ k2_t7 : Fin k2_t7_loop.trips, ∀ a, (k2_off80 k2_t7) a + S1x16.size a ≤ S72x128.size a
  k2_off81_inb : ∀ k2_t7 : Fin k2_t7_loop.trips, ∀ a, (k2_off81 k2_t7) a + S1x16.size a ≤ S72x128.size a
  k2_off82_inb : ∀ k2_t7 : Fin k2_t7_loop.trips, ∀ a, (k2_off82 k2_t7) a + S1x16.size a ≤ S72x100.size a
  k2_off83_inb : ∀ k2_t7 : Fin k2_t7_loop.trips, ∀ a, (k2_off83 k2_t7) a + S1x16.size a ≤ S72x100.size a
  k2_off84_inb : ∀ k2_t7 : Fin k2_t7_loop.trips, ∀ a, (k2_off84 k2_t7) a + S1x16.size a ≤ S72x100.size a
  k2_off85_inb : ∀ k2_t7 : Fin k2_t7_loop.trips, ∀ a, (k2_off85 k2_t7) a + S1x16.size a ≤ S72x100.size a
  k2_off86_inb : ∀ k2_t7 : Fin k2_t7_loop.trips, ∀ a, (k2_off86 k2_t7) a + S1x16.size a ≤ S72x100.size a
  k2_off87_inb : ∀ k2_t7 : Fin k2_t7_loop.trips, ∀ a, (k2_off87 k2_t7) a + S1x16.size a ≤ S72x100.size a
  k2_off88_inb : ∀ k2_t7 : Fin k2_t7_loop.trips, ∀ a, (k2_off88 k2_t7) a + S1x16.size a ≤ S72x100.size a
  k2_t8_ok : k2_t8_loop.OK
  k2_off89_inb : ∀ k2_t8 : Fin k2_t8_loop.trips, ∀ a, (k2_off89 k2_t8) a + S1x16.size a ≤ S128x128.size a
  k2_off90_inb : ∀ k2_t8 : Fin k2_t8_loop.trips, ∀ a, (k2_off90 k2_t8) a + S1x16.size a ≤ S128x128.size a
  k2_off91_inb : ∀ k2_t8 : Fin k2_t8_loop.trips, ∀ a, (k2_off91 k2_t8) a + S1x16.size a ≤ S128x128.size a
  k2_off92_inb : ∀ k2_t8 : Fin k2_t8_loop.trips, ∀ a, (k2_off92 k2_t8) a + S1x16.size a ≤ S128x128.size a
  k2_off93_inb : ∀ k2_t8 : Fin k2_t8_loop.trips, ∀ a, (k2_off93 k2_t8) a + S1x16.size a ≤ S128x128.size a
  k2_off94_inb : ∀ k2_t8 : Fin k2_t8_loop.trips, ∀ a, (k2_off94 k2_t8) a + S1x16.size a ≤ S128x128.size a
  k2_off95_inb : ∀ k2_t8 : Fin k2_t8_loop.trips, ∀ a, (k2_off95 k2_t8) a + S1x16.size a ≤ S128x128.size a
  k2_off96_inb : ∀ k2_t8 : Fin k2_t8_loop.trips, ∀ a, (k2_off96 k2_t8) a + S1x16.size a ≤ S128x100.size a
  k2_off97_inb : ∀ k2_t8 : Fin k2_t8_loop.trips, ∀ a, (k2_off97 k2_t8) a + S1x16.size a ≤ S128x100.size a
  k2_off98_inb : ∀ k2_t8 : Fin k2_t8_loop.trips, ∀ a, (k2_off98 k2_t8) a + S1x16.size a ≤ S128x100.size a
  k2_off99_inb : ∀ k2_t8 : Fin k2_t8_loop.trips, ∀ a, (k2_off99 k2_t8) a + S1x16.size a ≤ S128x100.size a
  k2_off100_inb : ∀ k2_t8 : Fin k2_t8_loop.trips, ∀ a, (k2_off100 k2_t8) a + S1x16.size a ≤ S128x100.size a
  k2_off101_inb : ∀ k2_t8 : Fin k2_t8_loop.trips, ∀ a, (k2_off101 k2_t8) a + S1x16.size a ≤ S128x100.size a
  k2_off102_inb : ∀ k2_t8 : Fin k2_t8_loop.trips, ∀ a, (k2_off102 k2_t8) a + S1x16.size a ≤ S128x100.size a
  k2_t9_ok : k2_t9_loop.OK
  k2_off103_inb : ∀ k2_t9 : Fin k2_t9_loop.trips, ∀ a, (k2_off103 k2_t9) a + S1x16.size a ≤ S72x128.size a
  k2_off104_inb : ∀ k2_t9 : Fin k2_t9_loop.trips, ∀ a, (k2_off104 k2_t9) a + S1x16.size a ≤ S72x128.size a
  k2_off105_inb : ∀ k2_t9 : Fin k2_t9_loop.trips, ∀ a, (k2_off105 k2_t9) a + S1x16.size a ≤ S72x128.size a
  k2_off106_inb : ∀ k2_t9 : Fin k2_t9_loop.trips, ∀ a, (k2_off106 k2_t9) a + S1x16.size a ≤ S72x128.size a
  k2_off107_inb : ∀ k2_t9 : Fin k2_t9_loop.trips, ∀ a, (k2_off107 k2_t9) a + S1x16.size a ≤ S72x128.size a
  k2_off108_inb : ∀ k2_t9 : Fin k2_t9_loop.trips, ∀ a, (k2_off108 k2_t9) a + S1x16.size a ≤ S72x128.size a
  k2_off109_inb : ∀ k2_t9 : Fin k2_t9_loop.trips, ∀ a, (k2_off109 k2_t9) a + S1x16.size a ≤ S72x128.size a
  k2_off110_inb : ∀ k2_t9 : Fin k2_t9_loop.trips, ∀ a, (k2_off110 k2_t9) a + S1x16.size a ≤ S72x100.size a
  k2_off111_inb : ∀ k2_t9 : Fin k2_t9_loop.trips, ∀ a, (k2_off111 k2_t9) a + S1x16.size a ≤ S72x100.size a
  k2_off112_inb : ∀ k2_t9 : Fin k2_t9_loop.trips, ∀ a, (k2_off112 k2_t9) a + S1x16.size a ≤ S72x100.size a
  k2_off113_inb : ∀ k2_t9 : Fin k2_t9_loop.trips, ∀ a, (k2_off113 k2_t9) a + S1x16.size a ≤ S72x100.size a
  k2_off114_inb : ∀ k2_t9 : Fin k2_t9_loop.trips, ∀ a, (k2_off114 k2_t9) a + S1x16.size a ≤ S72x100.size a
  k2_off115_inb : ∀ k2_t9 : Fin k2_t9_loop.trips, ∀ a, (k2_off115 k2_t9) a + S1x16.size a ≤ S72x100.size a
  k2_off116_inb : ∀ k2_t9 : Fin k2_t9_loop.trips, ∀ a, (k2_off116 k2_t9) a + S1x16.size a ≤ S72x100.size a
  k2_t10_ok : k2_t10_loop.OK
  k2_off117_inb : ∀ k2_t10 : Fin k2_t10_loop.trips, ∀ a, (k2_off117 k2_t10) a + S1x16.size a ≤ S128x128.size a
  k2_off118_inb : ∀ k2_t10 : Fin k2_t10_loop.trips, ∀ a, (k2_off118 k2_t10) a + S1x16.size a ≤ S128x128.size a
  k2_off119_inb : ∀ k2_t10 : Fin k2_t10_loop.trips, ∀ a, (k2_off119 k2_t10) a + S1x16.size a ≤ S128x128.size a
  k2_off120_inb : ∀ k2_t10 : Fin k2_t10_loop.trips, ∀ a, (k2_off120 k2_t10) a + S1x16.size a ≤ S128x128.size a
  k2_off121_inb : ∀ k2_t10 : Fin k2_t10_loop.trips, ∀ a, (k2_off121 k2_t10) a + S1x16.size a ≤ S128x128.size a
  k2_off122_inb : ∀ k2_t10 : Fin k2_t10_loop.trips, ∀ a, (k2_off122 k2_t10) a + S1x16.size a ≤ S128x128.size a
  k2_off123_inb : ∀ k2_t10 : Fin k2_t10_loop.trips, ∀ a, (k2_off123 k2_t10) a + S1x16.size a ≤ S128x128.size a
  k2_off124_inb : ∀ k2_t10 : Fin k2_t10_loop.trips, ∀ a, (k2_off124 k2_t10) a + S1x16.size a ≤ S128x100.size a
  k2_off125_inb : ∀ k2_t10 : Fin k2_t10_loop.trips, ∀ a, (k2_off125 k2_t10) a + S1x16.size a ≤ S128x100.size a
  k2_off126_inb : ∀ k2_t10 : Fin k2_t10_loop.trips, ∀ a, (k2_off126 k2_t10) a + S1x16.size a ≤ S128x100.size a
  k2_off127_inb : ∀ k2_t10 : Fin k2_t10_loop.trips, ∀ a, (k2_off127 k2_t10) a + S1x16.size a ≤ S128x100.size a
  k2_off128_inb : ∀ k2_t10 : Fin k2_t10_loop.trips, ∀ a, (k2_off128 k2_t10) a + S1x16.size a ≤ S128x100.size a
  k2_off129_inb : ∀ k2_t10 : Fin k2_t10_loop.trips, ∀ a, (k2_off129 k2_t10) a + S1x16.size a ≤ S128x100.size a
  k2_off130_inb : ∀ k2_t10 : Fin k2_t10_loop.trips, ∀ a, (k2_off130 k2_t10) a + S1x16.size a ≤ S128x100.size a
  k2_t11_ok : k2_t11_loop.OK
  k2_off131_inb : ∀ k2_t11 : Fin k2_t11_loop.trips, ∀ a, (k2_off131 k2_t11) a + S1x16.size a ≤ S72x128.size a
  k2_off132_inb : ∀ k2_t11 : Fin k2_t11_loop.trips, ∀ a, (k2_off132 k2_t11) a + S1x16.size a ≤ S72x128.size a
  k2_off133_inb : ∀ k2_t11 : Fin k2_t11_loop.trips, ∀ a, (k2_off133 k2_t11) a + S1x16.size a ≤ S72x128.size a
  k2_off134_inb : ∀ k2_t11 : Fin k2_t11_loop.trips, ∀ a, (k2_off134 k2_t11) a + S1x16.size a ≤ S72x128.size a
  k2_off135_inb : ∀ k2_t11 : Fin k2_t11_loop.trips, ∀ a, (k2_off135 k2_t11) a + S1x16.size a ≤ S72x128.size a
  k2_off136_inb : ∀ k2_t11 : Fin k2_t11_loop.trips, ∀ a, (k2_off136 k2_t11) a + S1x16.size a ≤ S72x128.size a
  k2_off137_inb : ∀ k2_t11 : Fin k2_t11_loop.trips, ∀ a, (k2_off137 k2_t11) a + S1x16.size a ≤ S72x128.size a
  k2_off138_inb : ∀ k2_t11 : Fin k2_t11_loop.trips, ∀ a, (k2_off138 k2_t11) a + S1x16.size a ≤ S72x100.size a
  k2_off139_inb : ∀ k2_t11 : Fin k2_t11_loop.trips, ∀ a, (k2_off139 k2_t11) a + S1x16.size a ≤ S72x100.size a
  k2_off140_inb : ∀ k2_t11 : Fin k2_t11_loop.trips, ∀ a, (k2_off140 k2_t11) a + S1x16.size a ≤ S72x100.size a
  k2_off141_inb : ∀ k2_t11 : Fin k2_t11_loop.trips, ∀ a, (k2_off141 k2_t11) a + S1x16.size a ≤ S72x100.size a
  k2_off142_inb : ∀ k2_t11 : Fin k2_t11_loop.trips, ∀ a, (k2_off142 k2_t11) a + S1x16.size a ≤ S72x100.size a
  k2_off143_inb : ∀ k2_t11 : Fin k2_t11_loop.trips, ∀ a, (k2_off143 k2_t11) a + S1x16.size a ≤ S72x100.size a
  k2_off144_inb : ∀ k2_t11 : Fin k2_t11_loop.trips, ∀ a, (k2_off144 k2_t11) a + S1x16.size a ≤ S72x100.size a
  k2_t12_ok : k2_t12_loop.OK
  k2_off145_inb : ∀ k2_t12 : Fin k2_t12_loop.trips, ∀ a, (k2_off145 k2_t12) a + S1x16.size a ≤ S128x128.size a
  k2_off146_inb : ∀ k2_t12 : Fin k2_t12_loop.trips, ∀ a, (k2_off146 k2_t12) a + S1x16.size a ≤ S128x128.size a
  k2_off147_inb : ∀ k2_t12 : Fin k2_t12_loop.trips, ∀ a, (k2_off147 k2_t12) a + S1x16.size a ≤ S128x128.size a
  k2_off148_inb : ∀ k2_t12 : Fin k2_t12_loop.trips, ∀ a, (k2_off148 k2_t12) a + S1x16.size a ≤ S128x128.size a
  k2_off149_inb : ∀ k2_t12 : Fin k2_t12_loop.trips, ∀ a, (k2_off149 k2_t12) a + S1x16.size a ≤ S128x128.size a
  k2_off150_inb : ∀ k2_t12 : Fin k2_t12_loop.trips, ∀ a, (k2_off150 k2_t12) a + S1x16.size a ≤ S128x128.size a
  k2_off151_inb : ∀ k2_t12 : Fin k2_t12_loop.trips, ∀ a, (k2_off151 k2_t12) a + S1x16.size a ≤ S128x128.size a
  k2_off152_inb : ∀ k2_t12 : Fin k2_t12_loop.trips, ∀ a, (k2_off152 k2_t12) a + S1x16.size a ≤ S128x100.size a
  k2_off153_inb : ∀ k2_t12 : Fin k2_t12_loop.trips, ∀ a, (k2_off153 k2_t12) a + S1x16.size a ≤ S128x100.size a
  k2_off154_inb : ∀ k2_t12 : Fin k2_t12_loop.trips, ∀ a, (k2_off154 k2_t12) a + S1x16.size a ≤ S128x100.size a
  k2_off155_inb : ∀ k2_t12 : Fin k2_t12_loop.trips, ∀ a, (k2_off155 k2_t12) a + S1x16.size a ≤ S128x100.size a
  k2_off156_inb : ∀ k2_t12 : Fin k2_t12_loop.trips, ∀ a, (k2_off156 k2_t12) a + S1x16.size a ≤ S128x100.size a
  k2_off157_inb : ∀ k2_t12 : Fin k2_t12_loop.trips, ∀ a, (k2_off157 k2_t12) a + S1x16.size a ≤ S128x100.size a
  k2_off158_inb : ∀ k2_t12 : Fin k2_t12_loop.trips, ∀ a, (k2_off158 k2_t12) a + S1x16.size a ≤ S128x100.size a
  k2_t13_ok : k2_t13_loop.OK
  k2_off159_inb : ∀ k2_t13 : Fin k2_t13_loop.trips, ∀ a, (k2_off159 k2_t13) a + S1x16.size a ≤ S72x128.size a
  k2_off160_inb : ∀ k2_t13 : Fin k2_t13_loop.trips, ∀ a, (k2_off160 k2_t13) a + S1x16.size a ≤ S72x128.size a
  k2_off161_inb : ∀ k2_t13 : Fin k2_t13_loop.trips, ∀ a, (k2_off161 k2_t13) a + S1x16.size a ≤ S72x128.size a
  k2_off162_inb : ∀ k2_t13 : Fin k2_t13_loop.trips, ∀ a, (k2_off162 k2_t13) a + S1x16.size a ≤ S72x128.size a
  k2_off163_inb : ∀ k2_t13 : Fin k2_t13_loop.trips, ∀ a, (k2_off163 k2_t13) a + S1x16.size a ≤ S72x128.size a
  k2_off164_inb : ∀ k2_t13 : Fin k2_t13_loop.trips, ∀ a, (k2_off164 k2_t13) a + S1x16.size a ≤ S72x128.size a
  k2_off165_inb : ∀ k2_t13 : Fin k2_t13_loop.trips, ∀ a, (k2_off165 k2_t13) a + S1x16.size a ≤ S72x128.size a
  k2_off166_inb : ∀ k2_t13 : Fin k2_t13_loop.trips, ∀ a, (k2_off166 k2_t13) a + S1x16.size a ≤ S72x100.size a
  k2_off167_inb : ∀ k2_t13 : Fin k2_t13_loop.trips, ∀ a, (k2_off167 k2_t13) a + S1x16.size a ≤ S72x100.size a
  k2_off168_inb : ∀ k2_t13 : Fin k2_t13_loop.trips, ∀ a, (k2_off168 k2_t13) a + S1x16.size a ≤ S72x100.size a
  k2_off169_inb : ∀ k2_t13 : Fin k2_t13_loop.trips, ∀ a, (k2_off169 k2_t13) a + S1x16.size a ≤ S72x100.size a
  k2_off170_inb : ∀ k2_t13 : Fin k2_t13_loop.trips, ∀ a, (k2_off170 k2_t13) a + S1x16.size a ≤ S72x100.size a
  k2_off171_inb : ∀ k2_t13 : Fin k2_t13_loop.trips, ∀ a, (k2_off171 k2_t13) a + S1x16.size a ≤ S72x100.size a
  k2_off172_inb : ∀ k2_t13 : Fin k2_t13_loop.trips, ∀ a, (k2_off172 k2_t13) a + S1x16.size a ≤ S72x100.size a
  k2_t14_ok : k2_t14_loop.OK
  k2_off173_inb : ∀ k2_t14 : Fin k2_t14_loop.trips, ∀ a, (k2_off173 k2_t14) a + S1x16.size a ≤ S128x128.size a
  k2_off174_inb : ∀ k2_t14 : Fin k2_t14_loop.trips, ∀ a, (k2_off174 k2_t14) a + S1x16.size a ≤ S128x128.size a
  k2_off175_inb : ∀ k2_t14 : Fin k2_t14_loop.trips, ∀ a, (k2_off175 k2_t14) a + S1x16.size a ≤ S128x128.size a
  k2_off176_inb : ∀ k2_t14 : Fin k2_t14_loop.trips, ∀ a, (k2_off176 k2_t14) a + S1x16.size a ≤ S128x128.size a
  k2_off177_inb : ∀ k2_t14 : Fin k2_t14_loop.trips, ∀ a, (k2_off177 k2_t14) a + S1x16.size a ≤ S128x128.size a
  k2_off178_inb : ∀ k2_t14 : Fin k2_t14_loop.trips, ∀ a, (k2_off178 k2_t14) a + S1x16.size a ≤ S128x128.size a
  k2_off179_inb : ∀ k2_t14 : Fin k2_t14_loop.trips, ∀ a, (k2_off179 k2_t14) a + S1x16.size a ≤ S128x128.size a
  k2_off180_inb : ∀ k2_t14 : Fin k2_t14_loop.trips, ∀ a, (k2_off180 k2_t14) a + S1x16.size a ≤ S128x100.size a
  k2_off181_inb : ∀ k2_t14 : Fin k2_t14_loop.trips, ∀ a, (k2_off181 k2_t14) a + S1x16.size a ≤ S128x100.size a
  k2_off182_inb : ∀ k2_t14 : Fin k2_t14_loop.trips, ∀ a, (k2_off182 k2_t14) a + S1x16.size a ≤ S128x100.size a
  k2_off183_inb : ∀ k2_t14 : Fin k2_t14_loop.trips, ∀ a, (k2_off183 k2_t14) a + S1x16.size a ≤ S128x100.size a
  k2_off184_inb : ∀ k2_t14 : Fin k2_t14_loop.trips, ∀ a, (k2_off184 k2_t14) a + S1x16.size a ≤ S128x100.size a
  k2_off185_inb : ∀ k2_t14 : Fin k2_t14_loop.trips, ∀ a, (k2_off185 k2_t14) a + S1x16.size a ≤ S128x100.size a
  k2_off186_inb : ∀ k2_t14 : Fin k2_t14_loop.trips, ∀ a, (k2_off186 k2_t14) a + S1x16.size a ≤ S128x100.size a
  k2_t15_ok : k2_t15_loop.OK
  k2_off187_inb : ∀ k2_t15 : Fin k2_t15_loop.trips, ∀ a, (k2_off187 k2_t15) a + S1x16.size a ≤ S72x128.size a
  k2_off188_inb : ∀ k2_t15 : Fin k2_t15_loop.trips, ∀ a, (k2_off188 k2_t15) a + S1x16.size a ≤ S72x128.size a
  k2_off189_inb : ∀ k2_t15 : Fin k2_t15_loop.trips, ∀ a, (k2_off189 k2_t15) a + S1x16.size a ≤ S72x128.size a
  k2_off190_inb : ∀ k2_t15 : Fin k2_t15_loop.trips, ∀ a, (k2_off190 k2_t15) a + S1x16.size a ≤ S72x128.size a
  k2_off191_inb : ∀ k2_t15 : Fin k2_t15_loop.trips, ∀ a, (k2_off191 k2_t15) a + S1x16.size a ≤ S72x128.size a
  k2_off192_inb : ∀ k2_t15 : Fin k2_t15_loop.trips, ∀ a, (k2_off192 k2_t15) a + S1x16.size a ≤ S72x128.size a
  k2_off193_inb : ∀ k2_t15 : Fin k2_t15_loop.trips, ∀ a, (k2_off193 k2_t15) a + S1x16.size a ≤ S72x128.size a
  k2_off194_inb : ∀ k2_t15 : Fin k2_t15_loop.trips, ∀ a, (k2_off194 k2_t15) a + S1x16.size a ≤ S72x100.size a
  k2_off195_inb : ∀ k2_t15 : Fin k2_t15_loop.trips, ∀ a, (k2_off195 k2_t15) a + S1x16.size a ≤ S72x100.size a
  k2_off196_inb : ∀ k2_t15 : Fin k2_t15_loop.trips, ∀ a, (k2_off196 k2_t15) a + S1x16.size a ≤ S72x100.size a
  k2_off197_inb : ∀ k2_t15 : Fin k2_t15_loop.trips, ∀ a, (k2_off197 k2_t15) a + S1x16.size a ≤ S72x100.size a
  k2_off198_inb : ∀ k2_t15 : Fin k2_t15_loop.trips, ∀ a, (k2_off198 k2_t15) a + S1x16.size a ≤ S72x100.size a
  k2_off199_inb : ∀ k2_t15 : Fin k2_t15_loop.trips, ∀ a, (k2_off199 k2_t15) a + S1x16.size a ≤ S72x100.size a
  k2_off200_inb : ∀ k2_t15 : Fin k2_t15_loop.trips, ∀ a, (k2_off200 k2_t15) a + S1x16.size a ≤ S72x100.size a
  k2_t16_ok : k2_t16_loop.OK
  k2_off201_inb : ∀ k2_t16 : Fin k2_t16_loop.trips, ∀ a, (k2_off201 k2_t16) a + S1x16.size a ≤ S128x128.size a
  k2_off202_inb : ∀ k2_t16 : Fin k2_t16_loop.trips, ∀ a, (k2_off202 k2_t16) a + S1x16.size a ≤ S128x128.size a
  k2_off203_inb : ∀ k2_t16 : Fin k2_t16_loop.trips, ∀ a, (k2_off203 k2_t16) a + S1x16.size a ≤ S128x128.size a
  k2_off204_inb : ∀ k2_t16 : Fin k2_t16_loop.trips, ∀ a, (k2_off204 k2_t16) a + S1x16.size a ≤ S128x128.size a
  k2_off205_inb : ∀ k2_t16 : Fin k2_t16_loop.trips, ∀ a, (k2_off205 k2_t16) a + S1x16.size a ≤ S128x128.size a
  k2_off206_inb : ∀ k2_t16 : Fin k2_t16_loop.trips, ∀ a, (k2_off206 k2_t16) a + S1x16.size a ≤ S128x128.size a
  k2_off207_inb : ∀ k2_t16 : Fin k2_t16_loop.trips, ∀ a, (k2_off207 k2_t16) a + S1x16.size a ≤ S128x128.size a
  k2_off208_inb : ∀ k2_t16 : Fin k2_t16_loop.trips, ∀ a, (k2_off208 k2_t16) a + S1x16.size a ≤ S128x100.size a
  k2_off209_inb : ∀ k2_t16 : Fin k2_t16_loop.trips, ∀ a, (k2_off209 k2_t16) a + S1x16.size a ≤ S128x100.size a
  k2_off210_inb : ∀ k2_t16 : Fin k2_t16_loop.trips, ∀ a, (k2_off210 k2_t16) a + S1x16.size a ≤ S128x100.size a
  k2_off211_inb : ∀ k2_t16 : Fin k2_t16_loop.trips, ∀ a, (k2_off211 k2_t16) a + S1x16.size a ≤ S128x100.size a
  k2_off212_inb : ∀ k2_t16 : Fin k2_t16_loop.trips, ∀ a, (k2_off212 k2_t16) a + S1x16.size a ≤ S128x100.size a
  k2_off213_inb : ∀ k2_t16 : Fin k2_t16_loop.trips, ∀ a, (k2_off213 k2_t16) a + S1x16.size a ≤ S128x100.size a
  k2_off214_inb : ∀ k2_t16 : Fin k2_t16_loop.trips, ∀ a, (k2_off214 k2_t16) a + S1x16.size a ≤ S128x100.size a
  k2_off215_inb : ∀ i : grid2.Coords, ∀ a, (k2_off215 i) a + S8x200.size a ≤ S4096x200.size a
  k2_t17_ok : k2_t17_loop.OK
  k2_off216_inb : ∀ k2_t17 : Fin k2_t17_loop.trips, ∀ a, (k2_off216 k2_t17) a + S1x16.size a ≤ S72x128.size a
  k2_off217_inb : ∀ k2_t17 : Fin k2_t17_loop.trips, ∀ a, (k2_off217 k2_t17) a + S1x16.size a ≤ S72x128.size a
  k2_off218_inb : ∀ k2_t17 : Fin k2_t17_loop.trips, ∀ a, (k2_off218 k2_t17) a + S1x16.size a ≤ S72x128.size a
  k2_off219_inb : ∀ k2_t17 : Fin k2_t17_loop.trips, ∀ a, (k2_off219 k2_t17) a + S1x16.size a ≤ S72x128.size a
  k2_off220_inb : ∀ k2_t17 : Fin k2_t17_loop.trips, ∀ a, (k2_off220 k2_t17) a + S1x16.size a ≤ S72x128.size a
  k2_off221_inb : ∀ k2_t17 : Fin k2_t17_loop.trips, ∀ a, (k2_off221 k2_t17) a + S1x16.size a ≤ S72x128.size a
  k2_off222_inb : ∀ k2_t17 : Fin k2_t17_loop.trips, ∀ a, (k2_off222 k2_t17) a + S1x16.size a ≤ S72x128.size a
  k2_off223_inb : ∀ k2_t17 : Fin k2_t17_loop.trips, ∀ a, (k2_off223 k2_t17) a + S1x16.size a ≤ S72x100.size a
  k2_off224_inb : ∀ k2_t17 : Fin k2_t17_loop.trips, ∀ a, (k2_off224 k2_t17) a + S1x16.size a ≤ S72x100.size a
  k2_off225_inb : ∀ k2_t17 : Fin k2_t17_loop.trips, ∀ a, (k2_off225 k2_t17) a + S1x16.size a ≤ S72x100.size a
  k2_off226_inb : ∀ k2_t17 : Fin k2_t17_loop.trips, ∀ a, (k2_off226 k2_t17) a + S1x16.size a ≤ S72x100.size a
  k2_off227_inb : ∀ k2_t17 : Fin k2_t17_loop.trips, ∀ a, (k2_off227 k2_t17) a + S1x16.size a ≤ S72x100.size a
  k2_off228_inb : ∀ k2_t17 : Fin k2_t17_loop.trips, ∀ a, (k2_off228 k2_t17) a + S1x16.size a ≤ S72x100.size a
  k2_off229_inb : ∀ k2_t17 : Fin k2_t17_loop.trips, ∀ a, (k2_off229 k2_t17) a + S1x16.size a ≤ S72x100.size a
  k2_off230_inb : ∀ (i : grid2.Coords) (k2_t1 : Fin k2_t1_loop.trips), ∀ a, (k2_off230 i k2_t1) a + S8x200.size a ≤ S4096x200.size a
  k2_t18_ok : k2_t18_loop.OK
  k2_off231_inb : ∀ k2_t18 : Fin k2_t18_loop.trips, ∀ a, (k2_off231 k2_t18) a + S1x16.size a ≤ S128x128.size a
  k2_off232_inb : ∀ k2_t18 : Fin k2_t18_loop.trips, ∀ a, (k2_off232 k2_t18) a + S1x16.size a ≤ S128x128.size a
  k2_off233_inb : ∀ k2_t18 : Fin k2_t18_loop.trips, ∀ a, (k2_off233 k2_t18) a + S1x16.size a ≤ S128x128.size a
  k2_off234_inb : ∀ k2_t18 : Fin k2_t18_loop.trips, ∀ a, (k2_off234 k2_t18) a + S1x16.size a ≤ S128x128.size a
  k2_off235_inb : ∀ k2_t18 : Fin k2_t18_loop.trips, ∀ a, (k2_off235 k2_t18) a + S1x16.size a ≤ S128x128.size a
  k2_off236_inb : ∀ k2_t18 : Fin k2_t18_loop.trips, ∀ a, (k2_off236 k2_t18) a + S1x16.size a ≤ S128x128.size a
  k2_off237_inb : ∀ k2_t18 : Fin k2_t18_loop.trips, ∀ a, (k2_off237 k2_t18) a + S1x16.size a ≤ S128x128.size a
  k2_off238_inb : ∀ k2_t18 : Fin k2_t18_loop.trips, ∀ a, (k2_off238 k2_t18) a + S1x16.size a ≤ S128x100.size a
  k2_off239_inb : ∀ k2_t18 : Fin k2_t18_loop.trips, ∀ a, (k2_off239 k2_t18) a + S1x16.size a ≤ S128x100.size a
  k2_off240_inb : ∀ k2_t18 : Fin k2_t18_loop.trips, ∀ a, (k2_off240 k2_t18) a + S1x16.size a ≤ S128x100.size a
  k2_off241_inb : ∀ k2_t18 : Fin k2_t18_loop.trips, ∀ a, (k2_off241 k2_t18) a + S1x16.size a ≤ S128x100.size a
  k2_off242_inb : ∀ k2_t18 : Fin k2_t18_loop.trips, ∀ a, (k2_off242 k2_t18) a + S1x16.size a ≤ S128x100.size a
  k2_off243_inb : ∀ k2_t18 : Fin k2_t18_loop.trips, ∀ a, (k2_off243 k2_t18) a + S1x16.size a ≤ S128x100.size a
  k2_off244_inb : ∀ k2_t18 : Fin k2_t18_loop.trips, ∀ a, (k2_off244 k2_t18) a + S1x16.size a ≤ S128x100.size a
  k2_t19_ok : k2_t19_loop.OK
  k2_off245_inb : ∀ k2_t19 : Fin k2_t19_loop.trips, ∀ a, (k2_off245 k2_t19) a + S1x16.size a ≤ S72x128.size a
  k2_off246_inb : ∀ k2_t19 : Fin k2_t19_loop.trips, ∀ a, (k2_off246 k2_t19) a + S1x16.size a ≤ S72x128.size a
  k2_off247_inb : ∀ k2_t19 : Fin k2_t19_loop.trips, ∀ a, (k2_off247 k2_t19) a + S1x16.size a ≤ S72x128.size a
  k2_off248_inb : ∀ k2_t19 : Fin k2_t19_loop.trips, ∀ a, (k2_off248 k2_t19) a + S1x16.size a ≤ S72x128.size a
  k2_off249_inb : ∀ k2_t19 : Fin k2_t19_loop.trips, ∀ a, (k2_off249 k2_t19) a + S1x16.size a ≤ S72x128.size a
  k2_off250_inb : ∀ k2_t19 : Fin k2_t19_loop.trips, ∀ a, (k2_off250 k2_t19) a + S1x16.size a ≤ S72x128.size a
  k2_off251_inb : ∀ k2_t19 : Fin k2_t19_loop.trips, ∀ a, (k2_off251 k2_t19) a + S1x16.size a ≤ S72x128.size a
  k2_off252_inb : ∀ k2_t19 : Fin k2_t19_loop.trips, ∀ a, (k2_off252 k2_t19) a + S1x16.size a ≤ S72x100.size a
  k2_off253_inb : ∀ k2_t19 : Fin k2_t19_loop.trips, ∀ a, (k2_off253 k2_t19) a + S1x16.size a ≤ S72x100.size a
  k2_off254_inb : ∀ k2_t19 : Fin k2_t19_loop.trips, ∀ a, (k2_off254 k2_t19) a + S1x16.size a ≤ S72x100.size a
  k2_off255_inb : ∀ k2_t19 : Fin k2_t19_loop.trips, ∀ a, (k2_off255 k2_t19) a + S1x16.size a ≤ S72x100.size a
  k2_off256_inb : ∀ k2_t19 : Fin k2_t19_loop.trips, ∀ a, (k2_off256 k2_t19) a + S1x16.size a ≤ S72x100.size a
  k2_off257_inb : ∀ k2_t19 : Fin k2_t19_loop.trips, ∀ a, (k2_off257 k2_t19) a + S1x16.size a ≤ S72x100.size a
  k2_off258_inb : ∀ k2_t19 : Fin k2_t19_loop.trips, ∀ a, (k2_off258 k2_t19) a + S1x16.size a ≤ S72x100.size a
  k2_t20_ok : k2_t20_loop.OK
  k2_off259_inb : ∀ k2_t20 : Fin k2_t20_loop.trips, ∀ a, (k2_off259 k2_t20) a + S1x16.size a ≤ S128x128.size a
  k2_off260_inb : ∀ k2_t20 : Fin k2_t20_loop.trips, ∀ a, (k2_off260 k2_t20) a + S1x16.size a ≤ S128x128.size a
  k2_off261_inb : ∀ k2_t20 : Fin k2_t20_loop.trips, ∀ a, (k2_off261 k2_t20) a + S1x16.size a ≤ S128x128.size a
  k2_off262_inb : ∀ k2_t20 : Fin k2_t20_loop.trips, ∀ a, (k2_off262 k2_t20) a + S1x16.size a ≤ S128x128.size a
  k2_off263_inb : ∀ k2_t20 : Fin k2_t20_loop.trips, ∀ a, (k2_off263 k2_t20) a + S1x16.size a ≤ S128x128.size a
  k2_off264_inb : ∀ k2_t20 : Fin k2_t20_loop.trips, ∀ a, (k2_off264 k2_t20) a + S1x16.size a ≤ S128x128.size a
  k2_off265_inb : ∀ k2_t20 : Fin k2_t20_loop.trips, ∀ a, (k2_off265 k2_t20) a + S1x16.size a ≤ S128x128.size a
  k2_off266_inb : ∀ k2_t20 : Fin k2_t20_loop.trips, ∀ a, (k2_off266 k2_t20) a + S1x16.size a ≤ S128x100.size a
  k2_off267_inb : ∀ k2_t20 : Fin k2_t20_loop.trips, ∀ a, (k2_off267 k2_t20) a + S1x16.size a ≤ S128x100.size a
  k2_off268_inb : ∀ k2_t20 : Fin k2_t20_loop.trips, ∀ a, (k2_off268 k2_t20) a + S1x16.size a ≤ S128x100.size a
  k2_off269_inb : ∀ k2_t20 : Fin k2_t20_loop.trips, ∀ a, (k2_off269 k2_t20) a + S1x16.size a ≤ S128x100.size a
  k2_off270_inb : ∀ k2_t20 : Fin k2_t20_loop.trips, ∀ a, (k2_off270 k2_t20) a + S1x16.size a ≤ S128x100.size a
  k2_off271_inb : ∀ k2_t20 : Fin k2_t20_loop.trips, ∀ a, (k2_off271 k2_t20) a + S1x16.size a ≤ S128x100.size a
  k2_off272_inb : ∀ k2_t20 : Fin k2_t20_loop.trips, ∀ a, (k2_off272 k2_t20) a + S1x16.size a ≤ S128x100.size a
  k2_t21_ok : k2_t21_loop.OK
  k2_off273_inb : ∀ k2_t21 : Fin k2_t21_loop.trips, ∀ a, (k2_off273 k2_t21) a + S1x16.size a ≤ S72x128.size a
  k2_off274_inb : ∀ k2_t21 : Fin k2_t21_loop.trips, ∀ a, (k2_off274 k2_t21) a + S1x16.size a ≤ S72x128.size a
  k2_off275_inb : ∀ k2_t21 : Fin k2_t21_loop.trips, ∀ a, (k2_off275 k2_t21) a + S1x16.size a ≤ S72x128.size a
  k2_off276_inb : ∀ k2_t21 : Fin k2_t21_loop.trips, ∀ a, (k2_off276 k2_t21) a + S1x16.size a ≤ S72x128.size a
  k2_off277_inb : ∀ k2_t21 : Fin k2_t21_loop.trips, ∀ a, (k2_off277 k2_t21) a + S1x16.size a ≤ S72x128.size a
  k2_off278_inb : ∀ k2_t21 : Fin k2_t21_loop.trips, ∀ a, (k2_off278 k2_t21) a + S1x16.size a ≤ S72x128.size a
  k2_off279_inb : ∀ k2_t21 : Fin k2_t21_loop.trips, ∀ a, (k2_off279 k2_t21) a + S1x16.size a ≤ S72x128.size a
  k2_off280_inb : ∀ k2_t21 : Fin k2_t21_loop.trips, ∀ a, (k2_off280 k2_t21) a + S1x16.size a ≤ S72x100.size a
  k2_off281_inb : ∀ k2_t21 : Fin k2_t21_loop.trips, ∀ a, (k2_off281 k2_t21) a + S1x16.size a ≤ S72x100.size a
  k2_off282_inb : ∀ k2_t21 : Fin k2_t21_loop.trips, ∀ a, (k2_off282 k2_t21) a + S1x16.size a ≤ S72x100.size a
  k2_off283_inb : ∀ k2_t21 : Fin k2_t21_loop.trips, ∀ a, (k2_off283 k2_t21) a + S1x16.size a ≤ S72x100.size a
  k2_off284_inb : ∀ k2_t21 : Fin k2_t21_loop.trips, ∀ a, (k2_off284 k2_t21) a + S1x16.size a ≤ S72x100.size a
  k2_off285_inb : ∀ k2_t21 : Fin k2_t21_loop.trips, ∀ a, (k2_off285 k2_t21) a + S1x16.size a ≤ S72x100.size a
  k2_off286_inb : ∀ k2_t21 : Fin k2_t21_loop.trips, ∀ a, (k2_off286 k2_t21) a + S1x16.size a ≤ S72x100.size a
  k2_t22_ok : k2_t22_loop.OK
  k2_off287_inb : ∀ k2_t22 : Fin k2_t22_loop.trips, ∀ a, (k2_off287 k2_t22) a + S1x16.size a ≤ S128x128.size a
  k2_off288_inb : ∀ k2_t22 : Fin k2_t22_loop.trips, ∀ a, (k2_off288 k2_t22) a + S1x16.size a ≤ S128x128.size a
  k2_off289_inb : ∀ k2_t22 : Fin k2_t22_loop.trips, ∀ a, (k2_off289 k2_t22) a + S1x16.size a ≤ S128x128.size a
  k2_off290_inb : ∀ k2_t22 : Fin k2_t22_loop.trips, ∀ a, (k2_off290 k2_t22) a + S1x16.size a ≤ S128x128.size a
  k2_off291_inb : ∀ k2_t22 : Fin k2_t22_loop.trips, ∀ a, (k2_off291 k2_t22) a + S1x16.size a ≤ S128x128.size a
  k2_off292_inb : ∀ k2_t22 : Fin k2_t22_loop.trips, ∀ a, (k2_off292 k2_t22) a + S1x16.size a ≤ S128x128.size a
  k2_off293_inb : ∀ k2_t22 : Fin k2_t22_loop.trips, ∀ a, (k2_off293 k2_t22) a + S1x16.size a ≤ S128x128.size a
  k2_off294_inb : ∀ k2_t22 : Fin k2_t22_loop.trips, ∀ a, (k2_off294 k2_t22) a + S1x16.size a ≤ S128x100.size a
  k2_off295_inb : ∀ k2_t22 : Fin k2_t22_loop.trips, ∀ a, (k2_off295 k2_t22) a + S1x16.size a ≤ S128x100.size a
  k2_off296_inb : ∀ k2_t22 : Fin k2_t22_loop.trips, ∀ a, (k2_off296 k2_t22) a + S1x16.size a ≤ S128x100.size a
  k2_off297_inb : ∀ k2_t22 : Fin k2_t22_loop.trips, ∀ a, (k2_off297 k2_t22) a + S1x16.size a ≤ S128x100.size a
  k2_off298_inb : ∀ k2_t22 : Fin k2_t22_loop.trips, ∀ a, (k2_off298 k2_t22) a + S1x16.size a ≤ S128x100.size a
  k2_off299_inb : ∀ k2_t22 : Fin k2_t22_loop.trips, ∀ a, (k2_off299 k2_t22) a + S1x16.size a ≤ S128x100.size a
  k2_off300_inb : ∀ k2_t22 : Fin k2_t22_loop.trips, ∀ a, (k2_off300 k2_t22) a + S1x16.size a ≤ S128x100.size a
  k2_t23_ok : k2_t23_loop.OK
  k2_off301_inb : ∀ k2_t23 : Fin k2_t23_loop.trips, ∀ a, (k2_off301 k2_t23) a + S1x16.size a ≤ S72x128.size a
  k2_off302_inb : ∀ k2_t23 : Fin k2_t23_loop.trips, ∀ a, (k2_off302 k2_t23) a + S1x16.size a ≤ S72x128.size a
  k2_off303_inb : ∀ k2_t23 : Fin k2_t23_loop.trips, ∀ a, (k2_off303 k2_t23) a + S1x16.size a ≤ S72x128.size a
  k2_off304_inb : ∀ k2_t23 : Fin k2_t23_loop.trips, ∀ a, (k2_off304 k2_t23) a + S1x16.size a ≤ S72x128.size a
  k2_off305_inb : ∀ k2_t23 : Fin k2_t23_loop.trips, ∀ a, (k2_off305 k2_t23) a + S1x16.size a ≤ S72x128.size a
  k2_off306_inb : ∀ k2_t23 : Fin k2_t23_loop.trips, ∀ a, (k2_off306 k2_t23) a + S1x16.size a ≤ S72x128.size a
  k2_off307_inb : ∀ k2_t23 : Fin k2_t23_loop.trips, ∀ a, (k2_off307 k2_t23) a + S1x16.size a ≤ S72x128.size a
  k2_off308_inb : ∀ k2_t23 : Fin k2_t23_loop.trips, ∀ a, (k2_off308 k2_t23) a + S1x16.size a ≤ S72x100.size a
  k2_off309_inb : ∀ k2_t23 : Fin k2_t23_loop.trips, ∀ a, (k2_off309 k2_t23) a + S1x16.size a ≤ S72x100.size a
  k2_off310_inb : ∀ k2_t23 : Fin k2_t23_loop.trips, ∀ a, (k2_off310 k2_t23) a + S1x16.size a ≤ S72x100.size a
  k2_off311_inb : ∀ k2_t23 : Fin k2_t23_loop.trips, ∀ a, (k2_off311 k2_t23) a + S1x16.size a ≤ S72x100.size a
  k2_off312_inb : ∀ k2_t23 : Fin k2_t23_loop.trips, ∀ a, (k2_off312 k2_t23) a + S1x16.size a ≤ S72x100.size a
  k2_off313_inb : ∀ k2_t23 : Fin k2_t23_loop.trips, ∀ a, (k2_off313 k2_t23) a + S1x16.size a ≤ S72x100.size a
  k2_off314_inb : ∀ k2_t23 : Fin k2_t23_loop.trips, ∀ a, (k2_off314 k2_t23) a + S1x16.size a ≤ S72x100.size a
  k2_t24_ok : k2_t24_loop.OK
  k2_off315_inb : ∀ k2_t24 : Fin k2_t24_loop.trips, ∀ a, (k2_off315 k2_t24) a + S1x16.size a ≤ S128x128.size a
  k2_off316_inb : ∀ k2_t24 : Fin k2_t24_loop.trips, ∀ a, (k2_off316 k2_t24) a + S1x16.size a ≤ S128x128.size a
  k2_off317_inb : ∀ k2_t24 : Fin k2_t24_loop.trips, ∀ a, (k2_off317 k2_t24) a + S1x16.size a ≤ S128x128.size a
  k2_off318_inb : ∀ k2_t24 : Fin k2_t24_loop.trips, ∀ a, (k2_off318 k2_t24) a + S1x16.size a ≤ S128x128.size a
  k2_off319_inb : ∀ k2_t24 : Fin k2_t24_loop.trips, ∀ a, (k2_off319 k2_t24) a + S1x16.size a ≤ S128x128.size a
  k2_off320_inb : ∀ k2_t24 : Fin k2_t24_loop.trips, ∀ a, (k2_off320 k2_t24) a + S1x16.size a ≤ S128x128.size a
  k2_off321_inb : ∀ k2_t24 : Fin k2_t24_loop.trips, ∀ a, (k2_off321 k2_t24) a + S1x16.size a ≤ S128x128.size a
  k2_off322_inb : ∀ k2_t24 : Fin k2_t24_loop.trips, ∀ a, (k2_off322 k2_t24) a + S1x16.size a ≤ S128x100.size a
  k2_off323_inb : ∀ k2_t24 : Fin k2_t24_loop.trips, ∀ a, (k2_off323 k2_t24) a + S1x16.size a ≤ S128x100.size a
  k2_off324_inb : ∀ k2_t24 : Fin k2_t24_loop.trips, ∀ a, (k2_off324 k2_t24) a + S1x16.size a ≤ S128x100.size a
  k2_off325_inb : ∀ k2_t24 : Fin k2_t24_loop.trips, ∀ a, (k2_off325 k2_t24) a + S1x16.size a ≤ S128x100.size a
  k2_off326_inb : ∀ k2_t24 : Fin k2_t24_loop.trips, ∀ a, (k2_off326 k2_t24) a + S1x16.size a ≤ S128x100.size a
  k2_off327_inb : ∀ k2_t24 : Fin k2_t24_loop.trips, ∀ a, (k2_off327 k2_t24) a + S1x16.size a ≤ S128x100.size a
  k2_off328_inb : ∀ k2_t24 : Fin k2_t24_loop.trips, ∀ a, (k2_off328 k2_t24) a + S1x16.size a ≤ S128x100.size a
  k2_t25_ok : k2_t25_loop.OK
  k2_off329_inb : ∀ k2_t25 : Fin k2_t25_loop.trips, ∀ a, (k2_off329 k2_t25) a + S1x16.size a ≤ S72x128.size a
  k2_off330_inb : ∀ k2_t25 : Fin k2_t25_loop.trips, ∀ a, (k2_off330 k2_t25) a + S1x16.size a ≤ S72x128.size a
  k2_off331_inb : ∀ k2_t25 : Fin k2_t25_loop.trips, ∀ a, (k2_off331 k2_t25) a + S1x16.size a ≤ S72x128.size a
  k2_off332_inb : ∀ k2_t25 : Fin k2_t25_loop.trips, ∀ a, (k2_off332 k2_t25) a + S1x16.size a ≤ S72x128.size a
  k2_off333_inb : ∀ k2_t25 : Fin k2_t25_loop.trips, ∀ a, (k2_off333 k2_t25) a + S1x16.size a ≤ S72x128.size a
  k2_off334_inb : ∀ k2_t25 : Fin k2_t25_loop.trips, ∀ a, (k2_off334 k2_t25) a + S1x16.size a ≤ S72x128.size a
  k2_off335_inb : ∀ k2_t25 : Fin k2_t25_loop.trips, ∀ a, (k2_off335 k2_t25) a + S1x16.size a ≤ S72x128.size a
  k2_off336_inb : ∀ k2_t25 : Fin k2_t25_loop.trips, ∀ a, (k2_off336 k2_t25) a + S1x16.size a ≤ S72x100.size a
  k2_off337_inb : ∀ k2_t25 : Fin k2_t25_loop.trips, ∀ a, (k2_off337 k2_t25) a + S1x16.size a ≤ S72x100.size a
  k2_off338_inb : ∀ k2_t25 : Fin k2_t25_loop.trips, ∀ a, (k2_off338 k2_t25) a + S1x16.size a ≤ S72x100.size a
  k2_off339_inb : ∀ k2_t25 : Fin k2_t25_loop.trips, ∀ a, (k2_off339 k2_t25) a + S1x16.size a ≤ S72x100.size a
  k2_off340_inb : ∀ k2_t25 : Fin k2_t25_loop.trips, ∀ a, (k2_off340 k2_t25) a + S1x16.size a ≤ S72x100.size a
  k2_off341_inb : ∀ k2_t25 : Fin k2_t25_loop.trips, ∀ a, (k2_off341 k2_t25) a + S1x16.size a ≤ S72x100.size a
  k2_off342_inb : ∀ k2_t25 : Fin k2_t25_loop.trips, ∀ a, (k2_off342 k2_t25) a + S1x16.size a ≤ S72x100.size a
  k2_t26_ok : k2_t26_loop.OK
  k2_off343_inb : ∀ k2_t26 : Fin k2_t26_loop.trips, ∀ a, (k2_off343 k2_t26) a + S1x16.size a ≤ S128x128.size a
  k2_off344_inb : ∀ k2_t26 : Fin k2_t26_loop.trips, ∀ a, (k2_off344 k2_t26) a + S1x16.size a ≤ S128x128.size a
  k2_off345_inb : ∀ k2_t26 : Fin k2_t26_loop.trips, ∀ a, (k2_off345 k2_t26) a + S1x16.size a ≤ S128x128.size a
  k2_off346_inb : ∀ k2_t26 : Fin k2_t26_loop.trips, ∀ a, (k2_off346 k2_t26) a + S1x16.size a ≤ S128x128.size a
  k2_off347_inb : ∀ k2_t26 : Fin k2_t26_loop.trips, ∀ a, (k2_off347 k2_t26) a + S1x16.size a ≤ S128x128.size a
  k2_off348_inb : ∀ k2_t26 : Fin k2_t26_loop.trips, ∀ a, (k2_off348 k2_t26) a + S1x16.size a ≤ S128x128.size a
  k2_off349_inb : ∀ k2_t26 : Fin k2_t26_loop.trips, ∀ a, (k2_off349 k2_t26) a + S1x16.size a ≤ S128x128.size a
  k2_off350_inb : ∀ k2_t26 : Fin k2_t26_loop.trips, ∀ a, (k2_off350 k2_t26) a + S1x16.size a ≤ S128x100.size a
  k2_off351_inb : ∀ k2_t26 : Fin k2_t26_loop.trips, ∀ a, (k2_off351 k2_t26) a + S1x16.size a ≤ S128x100.size a
  k2_off352_inb : ∀ k2_t26 : Fin k2_t26_loop.trips, ∀ a, (k2_off352 k2_t26) a + S1x16.size a ≤ S128x100.size a
  k2_off353_inb : ∀ k2_t26 : Fin k2_t26_loop.trips, ∀ a, (k2_off353 k2_t26) a + S1x16.size a ≤ S128x100.size a
  k2_off354_inb : ∀ k2_t26 : Fin k2_t26_loop.trips, ∀ a, (k2_off354 k2_t26) a + S1x16.size a ≤ S128x100.size a
  k2_off355_inb : ∀ k2_t26 : Fin k2_t26_loop.trips, ∀ a, (k2_off355 k2_t26) a + S1x16.size a ≤ S128x100.size a
  k2_off356_inb : ∀ k2_t26 : Fin k2_t26_loop.trips, ∀ a, (k2_off356 k2_t26) a + S1x16.size a ≤ S128x100.size a
  k2_t27_ok : k2_t27_loop.OK
  k2_off357_inb : ∀ k2_t27 : Fin k2_t27_loop.trips, ∀ a, (k2_off357 k2_t27) a + S1x16.size a ≤ S72x128.size a
  k2_off358_inb : ∀ k2_t27 : Fin k2_t27_loop.trips, ∀ a, (k2_off358 k2_t27) a + S1x16.size a ≤ S72x128.size a
  k2_off359_inb : ∀ k2_t27 : Fin k2_t27_loop.trips, ∀ a, (k2_off359 k2_t27) a + S1x16.size a ≤ S72x128.size a
  k2_off360_inb : ∀ k2_t27 : Fin k2_t27_loop.trips, ∀ a, (k2_off360 k2_t27) a + S1x16.size a ≤ S72x128.size a
  k2_off361_inb : ∀ k2_t27 : Fin k2_t27_loop.trips, ∀ a, (k2_off361 k2_t27) a + S1x16.size a ≤ S72x128.size a
  k2_off362_inb : ∀ k2_t27 : Fin k2_t27_loop.trips, ∀ a, (k2_off362 k2_t27) a + S1x16.size a ≤ S72x128.size a
  k2_off363_inb : ∀ k2_t27 : Fin k2_t27_loop.trips, ∀ a, (k2_off363 k2_t27) a + S1x16.size a ≤ S72x128.size a
  k2_off364_inb : ∀ k2_t27 : Fin k2_t27_loop.trips, ∀ a, (k2_off364 k2_t27) a + S1x16.size a ≤ S72x100.size a
  k2_off365_inb : ∀ k2_t27 : Fin k2_t27_loop.trips, ∀ a, (k2_off365 k2_t27) a + S1x16.size a ≤ S72x100.size a
  k2_off366_inb : ∀ k2_t27 : Fin k2_t27_loop.trips, ∀ a, (k2_off366 k2_t27) a + S1x16.size a ≤ S72x100.size a
  k2_off367_inb : ∀ k2_t27 : Fin k2_t27_loop.trips, ∀ a, (k2_off367 k2_t27) a + S1x16.size a ≤ S72x100.size a
  k2_off368_inb : ∀ k2_t27 : Fin k2_t27_loop.trips, ∀ a, (k2_off368 k2_t27) a + S1x16.size a ≤ S72x100.size a
  k2_off369_inb : ∀ k2_t27 : Fin k2_t27_loop.trips, ∀ a, (k2_off369 k2_t27) a + S1x16.size a ≤ S72x100.size a
  k2_off370_inb : ∀ k2_t27 : Fin k2_t27_loop.trips, ∀ a, (k2_off370 k2_t27) a + S1x16.size a ≤ S72x100.size a
  k2_t28_ok : k2_t28_loop.OK
  k2_off371_inb : ∀ k2_t28 : Fin k2_t28_loop.trips, ∀ a, (k2_off371 k2_t28) a + S1x16.size a ≤ S128x128.size a
  k2_off372_inb : ∀ k2_t28 : Fin k2_t28_loop.trips, ∀ a, (k2_off372 k2_t28) a + S1x16.size a ≤ S128x128.size a
  k2_off373_inb : ∀ k2_t28 : Fin k2_t28_loop.trips, ∀ a, (k2_off373 k2_t28) a + S1x16.size a ≤ S128x128.size a
  k2_off374_inb : ∀ k2_t28 : Fin k2_t28_loop.trips, ∀ a, (k2_off374 k2_t28) a + S1x16.size a ≤ S128x128.size a
  k2_off375_inb : ∀ k2_t28 : Fin k2_t28_loop.trips, ∀ a, (k2_off375 k2_t28) a + S1x16.size a ≤ S128x128.size a
  k2_off376_inb : ∀ k2_t28 : Fin k2_t28_loop.trips, ∀ a, (k2_off376 k2_t28) a + S1x16.size a ≤ S128x128.size a
  k2_off377_inb : ∀ k2_t28 : Fin k2_t28_loop.trips, ∀ a, (k2_off377 k2_t28) a + S1x16.size a ≤ S128x128.size a
  k2_off378_inb : ∀ k2_t28 : Fin k2_t28_loop.trips, ∀ a, (k2_off378 k2_t28) a + S1x16.size a ≤ S128x100.size a
  k2_off379_inb : ∀ k2_t28 : Fin k2_t28_loop.trips, ∀ a, (k2_off379 k2_t28) a + S1x16.size a ≤ S128x100.size a
  k2_off380_inb : ∀ k2_t28 : Fin k2_t28_loop.trips, ∀ a, (k2_off380 k2_t28) a + S1x16.size a ≤ S128x100.size a
  k2_off381_inb : ∀ k2_t28 : Fin k2_t28_loop.trips, ∀ a, (k2_off381 k2_t28) a + S1x16.size a ≤ S128x100.size a
  k2_off382_inb : ∀ k2_t28 : Fin k2_t28_loop.trips, ∀ a, (k2_off382 k2_t28) a + S1x16.size a ≤ S128x100.size a
  k2_off383_inb : ∀ k2_t28 : Fin k2_t28_loop.trips, ∀ a, (k2_off383 k2_t28) a + S1x16.size a ≤ S128x100.size a
  k2_off384_inb : ∀ k2_t28 : Fin k2_t28_loop.trips, ∀ a, (k2_off384 k2_t28) a + S1x16.size a ≤ S128x100.size a
  k2_t29_ok : k2_t29_loop.OK
  k2_off385_inb : ∀ k2_t29 : Fin k2_t29_loop.trips, ∀ a, (k2_off385 k2_t29) a + S1x16.size a ≤ S72x128.size a
  k2_off386_inb : ∀ k2_t29 : Fin k2_t29_loop.trips, ∀ a, (k2_off386 k2_t29) a + S1x16.size a ≤ S72x128.size a
  k2_off387_inb : ∀ k2_t29 : Fin k2_t29_loop.trips, ∀ a, (k2_off387 k2_t29) a + S1x16.size a ≤ S72x128.size a
  k2_off388_inb : ∀ k2_t29 : Fin k2_t29_loop.trips, ∀ a, (k2_off388 k2_t29) a + S1x16.size a ≤ S72x128.size a
  k2_off389_inb : ∀ k2_t29 : Fin k2_t29_loop.trips, ∀ a, (k2_off389 k2_t29) a + S1x16.size a ≤ S72x128.size a
  k2_off390_inb : ∀ k2_t29 : Fin k2_t29_loop.trips, ∀ a, (k2_off390 k2_t29) a + S1x16.size a ≤ S72x128.size a
  k2_off391_inb : ∀ k2_t29 : Fin k2_t29_loop.trips, ∀ a, (k2_off391 k2_t29) a + S1x16.size a ≤ S72x128.size a
  k2_off392_inb : ∀ k2_t29 : Fin k2_t29_loop.trips, ∀ a, (k2_off392 k2_t29) a + S1x16.size a ≤ S72x100.size a
  k2_off393_inb : ∀ k2_t29 : Fin k2_t29_loop.trips, ∀ a, (k2_off393 k2_t29) a + S1x16.size a ≤ S72x100.size a
  k2_off394_inb : ∀ k2_t29 : Fin k2_t29_loop.trips, ∀ a, (k2_off394 k2_t29) a + S1x16.size a ≤ S72x100.size a
  k2_off395_inb : ∀ k2_t29 : Fin k2_t29_loop.trips, ∀ a, (k2_off395 k2_t29) a + S1x16.size a ≤ S72x100.size a
  k2_off396_inb : ∀ k2_t29 : Fin k2_t29_loop.trips, ∀ a, (k2_off396 k2_t29) a + S1x16.size a ≤ S72x100.size a
  k2_off397_inb : ∀ k2_t29 : Fin k2_t29_loop.trips, ∀ a, (k2_off397 k2_t29) a + S1x16.size a ≤ S72x100.size a
  k2_off398_inb : ∀ k2_t29 : Fin k2_t29_loop.trips, ∀ a, (k2_off398 k2_t29) a + S1x16.size a ≤ S72x100.size a
  k2_t30_ok : k2_t30_loop.OK
  k2_off399_inb : ∀ k2_t30 : Fin k2_t30_loop.trips, ∀ a, (k2_off399 k2_t30) a + S1x16.size a ≤ S128x128.size a
  k2_off400_inb : ∀ k2_t30 : Fin k2_t30_loop.trips, ∀ a, (k2_off400 k2_t30) a + S1x16.size a ≤ S128x128.size a
  k2_off401_inb : ∀ k2_t30 : Fin k2_t30_loop.trips, ∀ a, (k2_off401 k2_t30) a + S1x16.size a ≤ S128x128.size a
  k2_off402_inb : ∀ k2_t30 : Fin k2_t30_loop.trips, ∀ a, (k2_off402 k2_t30) a + S1x16.size a ≤ S128x128.size a
  k2_off403_inb : ∀ k2_t30 : Fin k2_t30_loop.trips, ∀ a, (k2_off403 k2_t30) a + S1x16.size a ≤ S128x128.size a
  k2_off404_inb : ∀ k2_t30 : Fin k2_t30_loop.trips, ∀ a, (k2_off404 k2_t30) a + S1x16.size a ≤ S128x128.size a
  k2_off405_inb : ∀ k2_t30 : Fin k2_t30_loop.trips, ∀ a, (k2_off405 k2_t30) a + S1x16.size a ≤ S128x128.size a
  k2_off406_inb : ∀ k2_t30 : Fin k2_t30_loop.trips, ∀ a, (k2_off406 k2_t30) a + S1x16.size a ≤ S128x100.size a
  k2_off407_inb : ∀ k2_t30 : Fin k2_t30_loop.trips, ∀ a, (k2_off407 k2_t30) a + S1x16.size a ≤ S128x100.size a
  k2_off408_inb : ∀ k2_t30 : Fin k2_t30_loop.trips, ∀ a, (k2_off408 k2_t30) a + S1x16.size a ≤ S128x100.size a
  k2_off409_inb : ∀ k2_t30 : Fin k2_t30_loop.trips, ∀ a, (k2_off409 k2_t30) a + S1x16.size a ≤ S128x100.size a
  k2_off410_inb : ∀ k2_t30 : Fin k2_t30_loop.trips, ∀ a, (k2_off410 k2_t30) a + S1x16.size a ≤ S128x100.size a
  k2_off411_inb : ∀ k2_t30 : Fin k2_t30_loop.trips, ∀ a, (k2_off411 k2_t30) a + S1x16.size a ≤ S128x100.size a
  k2_off412_inb : ∀ k2_t30 : Fin k2_t30_loop.trips, ∀ a, (k2_off412 k2_t30) a + S1x16.size a ≤ S128x100.size a
  k2_t31_ok : k2_t31_loop.OK
  k2_off413_inb : ∀ k2_t31 : Fin k2_t31_loop.trips, ∀ a, (k2_off413 k2_t31) a + S1x16.size a ≤ S72x128.size a
  k2_off414_inb : ∀ k2_t31 : Fin k2_t31_loop.trips, ∀ a, (k2_off414 k2_t31) a + S1x16.size a ≤ S72x128.size a
  k2_off415_inb : ∀ k2_t31 : Fin k2_t31_loop.trips, ∀ a, (k2_off415 k2_t31) a + S1x16.size a ≤ S72x128.size a
  k2_off416_inb : ∀ k2_t31 : Fin k2_t31_loop.trips, ∀ a, (k2_off416 k2_t31) a + S1x16.size a ≤ S72x128.size a
  k2_off417_inb : ∀ k2_t31 : Fin k2_t31_loop.trips, ∀ a, (k2_off417 k2_t31) a + S1x16.size a ≤ S72x128.size a
  k2_off418_inb : ∀ k2_t31 : Fin k2_t31_loop.trips, ∀ a, (k2_off418 k2_t31) a + S1x16.size a ≤ S72x128.size a
  k2_off419_inb : ∀ k2_t31 : Fin k2_t31_loop.trips, ∀ a, (k2_off419 k2_t31) a + S1x16.size a ≤ S72x128.size a
  k2_off420_inb : ∀ k2_t31 : Fin k2_t31_loop.trips, ∀ a, (k2_off420 k2_t31) a + S1x16.size a ≤ S72x100.size a
  k2_off421_inb : ∀ k2_t31 : Fin k2_t31_loop.trips, ∀ a, (k2_off421 k2_t31) a + S1x16.size a ≤ S72x100.size a
  k2_off422_inb : ∀ k2_t31 : Fin k2_t31_loop.trips, ∀ a, (k2_off422 k2_t31) a + S1x16.size a ≤ S72x100.size a
  k2_off423_inb : ∀ k2_t31 : Fin k2_t31_loop.trips, ∀ a, (k2_off423 k2_t31) a + S1x16.size a ≤ S72x100.size a
  k2_off424_inb : ∀ k2_t31 : Fin k2_t31_loop.trips, ∀ a, (k2_off424 k2_t31) a + S1x16.size a ≤ S72x100.size a
  k2_off425_inb : ∀ k2_t31 : Fin k2_t31_loop.trips, ∀ a, (k2_off425 k2_t31) a + S1x16.size a ≤ S72x100.size a
  k2_off426_inb : ∀ k2_t31 : Fin k2_t31_loop.trips, ∀ a, (k2_off426 k2_t31) a + S1x16.size a ≤ S72x100.size a
  k2_t32_ok : k2_t32_loop.OK
  k2_off427_inb : ∀ k2_t32 : Fin k2_t32_loop.trips, ∀ a, (k2_off427 k2_t32) a + S1x16.size a ≤ S128x128.size a
  k2_off428_inb : ∀ k2_t32 : Fin k2_t32_loop.trips, ∀ a, (k2_off428 k2_t32) a + S1x16.size a ≤ S128x128.size a
  k2_off429_inb : ∀ k2_t32 : Fin k2_t32_loop.trips, ∀ a, (k2_off429 k2_t32) a + S1x16.size a ≤ S128x128.size a
  k2_off430_inb : ∀ k2_t32 : Fin k2_t32_loop.trips, ∀ a, (k2_off430 k2_t32) a + S1x16.size a ≤ S128x128.size a
  k2_off431_inb : ∀ k2_t32 : Fin k2_t32_loop.trips, ∀ a, (k2_off431 k2_t32) a + S1x16.size a ≤ S128x128.size a
  k2_off432_inb : ∀ k2_t32 : Fin k2_t32_loop.trips, ∀ a, (k2_off432 k2_t32) a + S1x16.size a ≤ S128x128.size a
  k2_off433_inb : ∀ k2_t32 : Fin k2_t32_loop.trips, ∀ a, (k2_off433 k2_t32) a + S1x16.size a ≤ S128x128.size a
  k2_off434_inb : ∀ k2_t32 : Fin k2_t32_loop.trips, ∀ a, (k2_off434 k2_t32) a + S1x16.size a ≤ S128x100.size a
  k2_off435_inb : ∀ k2_t32 : Fin k2_t32_loop.trips, ∀ a, (k2_off435 k2_t32) a + S1x16.size a ≤ S128x100.size a
  k2_off436_inb : ∀ k2_t32 : Fin k2_t32_loop.trips, ∀ a, (k2_off436 k2_t32) a + S1x16.size a ≤ S128x100.size a
  k2_off437_inb : ∀ k2_t32 : Fin k2_t32_loop.trips, ∀ a, (k2_off437 k2_t32) a + S1x16.size a ≤ S128x100.size a
  k2_off438_inb : ∀ k2_t32 : Fin k2_t32_loop.trips, ∀ a, (k2_off438 k2_t32) a + S1x16.size a ≤ S128x100.size a
  k2_off439_inb : ∀ k2_t32 : Fin k2_t32_loop.trips, ∀ a, (k2_off439 k2_t32) a + S1x16.size a ≤ S128x100.size a
  k2_off440_inb : ∀ k2_t32 : Fin k2_t32_loop.trips, ∀ a, (k2_off440 k2_t32) a + S1x16.size a ≤ S128x100.size a
  k2_t33_ok : k2_t33_loop.OK
  k2_off441_inb : ∀ k2_t33 : Fin k2_t33_loop.trips, ∀ a, (k2_off441 k2_t33) a + S1x16.size a ≤ S72x128.size a
  k2_off442_inb : ∀ k2_t33 : Fin k2_t33_loop.trips, ∀ a, (k2_off442 k2_t33) a + S1x16.size a ≤ S72x128.size a
  k2_off443_inb : ∀ k2_t33 : Fin k2_t33_loop.trips, ∀ a, (k2_off443 k2_t33) a + S1x16.size a ≤ S72x128.size a
  k2_off444_inb : ∀ k2_t33 : Fin k2_t33_loop.trips, ∀ a, (k2_off444 k2_t33) a + S1x16.size a ≤ S72x128.size a
  k2_off445_inb : ∀ k2_t33 : Fin k2_t33_loop.trips, ∀ a, (k2_off445 k2_t33) a + S1x16.size a ≤ S72x128.size a
  k2_off446_inb : ∀ k2_t33 : Fin k2_t33_loop.trips, ∀ a, (k2_off446 k2_t33) a + S1x16.size a ≤ S72x128.size a
  k2_off447_inb : ∀ k2_t33 : Fin k2_t33_loop.trips, ∀ a, (k2_off447 k2_t33) a + S1x16.size a ≤ S72x128.size a
  k2_off448_inb : ∀ k2_t33 : Fin k2_t33_loop.trips, ∀ a, (k2_off448 k2_t33) a + S1x16.size a ≤ S72x100.size a
  k2_off449_inb : ∀ k2_t33 : Fin k2_t33_loop.trips, ∀ a, (k2_off449 k2_t33) a + S1x16.size a ≤ S72x100.size a
  k2_off450_inb : ∀ k2_t33 : Fin k2_t33_loop.trips, ∀ a, (k2_off450 k2_t33) a + S1x16.size a ≤ S72x100.size a
  k2_off451_inb : ∀ k2_t33 : Fin k2_t33_loop.trips, ∀ a, (k2_off451 k2_t33) a + S1x16.size a ≤ S72x100.size a
  k2_off452_inb : ∀ k2_t33 : Fin k2_t33_loop.trips, ∀ a, (k2_off452 k2_t33) a + S1x16.size a ≤ S72x100.size a
  k2_off453_inb : ∀ k2_t33 : Fin k2_t33_loop.trips, ∀ a, (k2_off453 k2_t33) a + S1x16.size a ≤ S72x100.size a
  k2_off454_inb : ∀ k2_t33 : Fin k2_t33_loop.trips, ∀ a, (k2_off454 k2_t33) a + S1x16.size a ≤ S72x100.size a
  k2_off455_inb : ∀ (i : grid2.Coords) (k2_t1 : Fin k2_t1_loop.trips), ∀ a, (k2_off455 i k2_t1) a + S8x200.size a ≤ S4096x200.size a

variable [Facts₀]

abbrev cc2_scratch10 : DmaSems sig S_ := SemArray.consecutive 8 S_ hcc2_scratch10
abbrev cc2_scratch11 : DmaSems sig S_ := SemArray.consecutive 9 S_ hcc2_scratch11
abbrev cc2_scratch12 : DmaSems sig S_ := SemArray.consecutive 10 S_ hcc2_scratch12
abbrev cc2_scratch13 : DmaSems sig S_ := SemArray.consecutive 11 S_ hcc2_scratch13
abbrev cc2_scratch14 : DmaSems sig S_ := SemArray.consecutive 12 S_ hcc2_scratch14
abbrev cc2_scratch15 : DmaSems sig S_ := SemArray.consecutive 13 S_ hcc2_scratch15
abbrev cc2_scoped0 : DmaSems sig S_ := SemArray.consecutive 14 S_ hcc2_scoped0
abbrev cc2_scoped1 : DmaSems sig S_ := SemArray.consecutive 15 S_ hcc2_scoped1
abbrev cc2_scoped2 : DmaSems sig S_ := SemArray.consecutive 16 S_ hcc2_scoped2
abbrev cc2_scoped3 : DmaSems sig S_ := SemArray.consecutive 17 S_ hcc2_scoped3
abbrev cc2_scoped4 : DmaSems sig S_ := SemArray.consecutive 18 S_ hcc2_scoped4
abbrev cc2_scoped5 : DmaSems sig S_ := SemArray.consecutive 19 S_ hcc2_scoped5
abbrev cc2_scoped6 : DmaSems sig S_ := SemArray.consecutive 20 S_ hcc2_scoped6
abbrev cc2_scoped7 : DmaSems sig S_ := SemArray.consecutive 21 S_ hcc2_scoped7
abbrev cc2_scoped8 : DmaSems sig S_ := SemArray.consecutive 22 S_ hcc2_scoped8
abbrev cc2_scoped9 : DmaSems sig S_ := SemArray.consecutive 23 S_ hcc2_scoped9
abbrev cc2_scoped10 : DmaSems sig S_ := SemArray.consecutive 24 S_ hcc2_scoped10
abbrev cc2_scoped11 : DmaSems sig S_ := SemArray.consecutive 25 S_ hcc2_scoped11
abbrev cc2_scoped12 : DmaSems sig S_ := SemArray.consecutive 26 S_ hcc2_scoped12
abbrev cc2_scoped13 : DmaSems sig S_ := SemArray.consecutive 27 S_ hcc2_scoped13
abbrev cc2_scoped14 : DmaSems sig S_ := SemArray.consecutive 28 S_ hcc2_scoped14
abbrev cc2_scoped15 : DmaSems sig S_ := SemArray.consecutive 29 S_ hcc2_scoped15
abbrev cc2_scoped16 : DmaSems sig S_ := SemArray.consecutive 30 S_ hcc2_scoped16
abbrev cc2_scoped17 : DmaSems sig S_ := SemArray.consecutive 31 S_ hcc2_scoped17
abbrev cc2_scoped18 : DmaSems sig S_ := SemArray.consecutive 32 S_ hcc2_scoped18
abbrev cc2_scoped19 : DmaSems sig S_ := SemArray.consecutive 33 S_ hcc2_scoped19
abbrev cc2_scoped20 : DmaSems sig S_ := SemArray.consecutive 34 S_ hcc2_scoped20
abbrev cc2_scoped21 : DmaSems sig S_ := SemArray.consecutive 35 S_ hcc2_scoped21
abbrev cc2_scoped22 : DmaSems sig S_ := SemArray.consecutive 36 S_ hcc2_scoped22
abbrev cc2_scoped23 : DmaSems sig S_ := SemArray.consecutive 37 S_ hcc2_scoped23
abbrev cc2_scoped24 : DmaSems sig S_ := SemArray.consecutive 38 S_ hcc2_scoped24
abbrev cc2_scoped25 : DmaSems sig S_ := SemArray.consecutive 39 S_ hcc2_scoped25
abbrev cc2_scoped26 : DmaSems sig S_ := SemArray.consecutive 40 S_ hcc2_scoped26
abbrev cc2_scoped27 : DmaSems sig S_ := SemArray.consecutive 41 S_ hcc2_scoped27
abbrev cc2_scoped28 : DmaSems sig S_ := SemArray.consecutive 42 S_ hcc2_scoped28
abbrev cc2_scoped29 : DmaSems sig S_ := SemArray.consecutive 43 S_ hcc2_scoped29
abbrev cc2_scoped30 : DmaSems sig S_ := SemArray.consecutive 44 S_ hcc2_scoped30
abbrev cc2_scoped31 : DmaSems sig S_ := SemArray.consecutive 45 S_ hcc2_scoped31
abbrev cc2_scoped32 : DmaSems sig S_ := SemArray.consecutive 46 S_ hcc2_scoped32
abbrev cc2_scoped33 : DmaSems sig S_ := SemArray.consecutive 47 S_ hcc2_scoped33

abbrev win0_0 : Pipeline.Window sig grid0 :=
  Pipeline.Window.ofSpec (Memref.whole main_arg2) S20000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S20000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg3) S20000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S20000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4096x200 : Shape := ⟨2, ![4096, 200]⟩
abbrev S100000x100 : Shape := ⟨2, ![100000, 100]⟩
abbrev S1000000x100 : Shape := ⟨2, ![1000000, 100]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x100 : Shape := ⟨3, ![4096, 200, 100]⟩

abbrev nBuf : Space → Nat
  | .hbm => 51
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S100000x100, .f32⟩
  | .hbm, ⟨3, _⟩ => ⟨S1000000x100, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x100, .f32⟩
  | .hbm, ⟨23, _⟩ => ⟨S4096x200x100, .i1⟩
  | .hbm, ⟨24, _⟩ => ⟨S_, .f32⟩
  | .hbm, ⟨25, _⟩ => ⟨S4096x200x100, .f32⟩
  | .hbm, ⟨26, _⟩ => ⟨S4096x200x100, .f32⟩
  | .hbm, ⟨27, _⟩ => ⟨S_, .i32⟩
  | .hbm, ⟨28, _⟩ => ⟨S4096x200, .i32⟩
  | .hbm, ⟨29, _⟩ => ⟨S4096x200, .i1⟩
  | .hbm, ⟨30, _⟩ => ⟨S_, .i32⟩
  | .hbm, ⟨31, _⟩ => ⟨S4096x200, .i32⟩
  | .hbm, ⟨32, _⟩ => ⟨S4096x200, .i32⟩
  | .hbm, ⟨33, _⟩ => ⟨S4096x200, .i32⟩
  | .hbm, ⟨34, _⟩ => ⟨S4096x200x1, .i32⟩
  | .hbm, ⟨35, _⟩ => ⟨S1, .i32⟩
  | .hbm, ⟨36, _⟩ => ⟨S_, .i32⟩
  | .hbm, ⟨37, _⟩ => ⟨S4096x200x1, .i32⟩
  | .hbm, ⟨38, _⟩ => ⟨S4096x200x1, .i1⟩
  | .hbm, ⟨39, _⟩ => ⟨S1x1x1, .i32⟩
  | .hbm, ⟨40, _⟩ => ⟨S4096x200x1, .i32⟩
  | .hbm, ⟨41, _⟩ => ⟨S4096x200x1, .i1⟩
  | .hbm, ⟨42, _⟩ => ⟨S4096x200x1, .i1⟩
  | .hbm, ⟨43, _⟩ => ⟨S_, .i1⟩
  | .hbm, ⟨44, _⟩ => ⟨S4096x200, .i1⟩
  | .hbm, ⟨45, _⟩ => ⟨S4096x200x100, .f32⟩
  | .hbm, ⟨46, _⟩ => ⟨S4096x200x100, .i1⟩
  | .hbm, ⟨47, _⟩ => ⟨S_, .f32⟩
  | .hbm, ⟨48, _⟩ => ⟨S4096x200x100, .f32⟩
  | .hbm, ⟨49, _⟩ => ⟨S4096x200x100, .f32⟩
  | .hbm, ⟨50, _⟩ => ⟨S4096x200x100, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x100_0_1 : S4096x200.BroadcastsInDim S4096x200x100 (![0, 1] : Fin 2 → Fin S4096x200x100.rank)
  bcast_S_S4096x200x100 : S_.BroadcastsInDim S4096x200x100 (![] : Fin 0 → Fin S4096x200x100.rank)
  gather_S100000x100_S4096x200x1_S4096x200x100_2_0_n_n_0_2_1100_wf : GatherDims.WF S100000x100 S4096x200x1 S4096x200x100 [2] [0] [] [0] [] 2 ![1, 100]
  gather_S1000000x100_S4096x200x1_S4096x200x100_2_0_n_n_0_2_1100_wf : GatherDims.WF S1000000x100 S4096x200x1 S4096x200x100 [2] [0] [] [0] [] 2 ![1, 100]

variable [Facts₀]

def gather_S100000x100_S4096x200x1_S4096x200x100_2_0_n_n_0_2_1100 : GatherDims S100000x100 S4096x200x1 S4096x200x100 where
  offsetDims := [2]
  collapsedSliceDims := [0]
  operandBatchingDims := []
  startIndicesBatchingDims := []
  startIndexMap := [0]
  indexVectorDim := 2
  sliceSizes := ![1, 100]
  wf := gather_S100000x100_S4096x200x1_S4096x200x100_2_0_n_n_0_2_1100_wf
def gather_S1000000x100_S4096x200x1_S4096x200x100_2_0_n_n_0_2_1100 : GatherDims S1000000x100 S4096x200x1 S4096x200x100 where
  offsetDims := [2]
  collapsedSliceDims := [0]
  operandBatchingDims := []
  startIndicesBatchingDims := []
  startIndexMap := [0]
  indexVectorDim := 2
  sliceSizes := ![1, 100]
  wf := gather_S1000000x100_S4096x200x1_S4096x200x100_2_0_n_n_0_2_1100_wf

class Facts : Prop extends Facts₀ where

variable [Facts]
-- ==== Proof.EmbSpec.lean ====
/-
  What the program computes, stated once and over no program: the sum of two embedding look-ups.
  For a batch of 4096 sentences of 200 positions, position (b, s) carries a word number `widx (b, s)` into a table of
  100000 rows and an extended-word number `eidx (b, s)` into a table of 1000000 rows, every row 100 numbers wide; the
  result at (b, s, d) is entry d of the one row plus entry d of the other. A word is read as an unsigned number and,
  so that the function is total, capped at the table's last row; on numbers that name a row the cap does nothing.
  Also the two arrangements the kernel passes through: a table widened from 100 to 128 columns by zeros on the right,
  and the result as a matrix of 819200 rows, row 200·b + s the row of position (b, s).
-/
import Idealize.ShloMosaic.PureOps
import Idealize.ShloMosaic.Lib.ValueIdx

noncomputable section

namespace Cert.EmbSpec

open Idealize.ShloMosaic Idealize.ShloMosaic.ValueIdx

abbrev SPos : Shape := ⟨2, ![4096, 200]⟩
abbrev SWord : Shape := ⟨2, ![100000, 100]⟩
abbrev SExt : Shape := ⟨2, ![1000000, 100]⟩
abbrev SWordP : Shape := ⟨2, ![100000, 128]⟩
abbrev SExtP : Shape := ⟨2, ![1000000, 128]⟩
abbrev SFlat : Shape := ⟨2, ![819200, 100]⟩
abbrev SOut : Shape := ⟨3, ![4096, 200, 100]⟩

/-- The row of an `N`-row table a 32-bit word names: the word as an unsigned number, capped at the last row. -/
def rowOf (N : Nat) (hN : 0 < N) (w : BitVec 32) : Fin N := ⟨min w.toNat (N - 1), by omega⟩

theorem rowOf_val_of_lt {N : Nat} (hN : 0 < N) {w : BitVec 32} (h : w.toNat < N) : (rowOf N hN w).val = w.toNat := by
  show min w.toNat (N - 1) = w.toNat; omega

variable {F : FTy → Type} [FloatOps F]

/-- The looked-up row of the word table at every position and column. -/
def wordRows (widx : IVec SPos 32) (wemb : FVec F SWord .f32) : FVec F SOut .f32 :=
  fun i => wemb (ix2 (rowOf 100000 (by decide) (widx (ix2 (n0 := 4096) (n1 := 200) (i 0) (i 1)))) (i 2))

/-- The looked-up row of the extended-word table at every position and column. -/
def extRows (eidx : IVec SPos 32) (eemb : FVec F SExt .f32) : FVec F SOut .f32 :=
  fun i => eemb (ix2 (rowOf 1000000 (by decide) (eidx (ix2 (n0 := 4096) (n1 := 200) (i 0) (i 1)))) (i 2))

/-- The result: the two looked-up rows added entry by entry. -/
def lookupSum (widx eidx : IVec SPos 32) (wemb : FVec F SWord .f32) (eemb : FVec F SExt .f32) : FVec F SOut .f32 :=
  addf (wordRows widx wemb) (extRows eidx eemb)

end Cert.EmbSpec

end
-- ==== Proof.EmbFlat.lean ====
/-
  The same sum of two look-ups in the arrangement the kernel works in: the tables widened to 128 columns, the result
  a matrix of 819200 rows, row r the position (r / 200, r % 200). Only the first 100 columns of a widened table are
  ever read, so what the widening puts to their right does not matter to the sum; it is zeros.
-/
import proofs.«206319_g15771119910948_cont_week2b_672_19_alg».proof.Proof.EmbSpec

noncomputable section

namespace Cert.EmbSpec

open Idealize.ShloMosaic Idealize.ShloMosaic.ValueIdx

variable {F : FTy → Type} [FloatOps F]

/-- The position a row of the flat result stands for. -/
def posOf (r : Fin 819200) : SPos.Idx :=
  ix2 (n0 := 4096) (n1 := 200) ⟨r.val / 200, by have := r.isLt; omega⟩ ⟨r.val % 200, Nat.mod_lt _ (by decide)⟩

/-- A column of a 100-wide row, as a column of the widened row. -/
def col128 (c : Fin 100) : Fin 128 := ⟨c.val, by have := c.isLt; omega⟩

/-- A table of 100 columns widened to 128 by zeros on the right. -/
def padCols {N : Nat} (x : FVec F ⟨2, ![N, 100]⟩ .f32) : FVec F ⟨2, ![N, 128]⟩ .f32 :=
  fun j => if h : (j 1).val < 100 then x (ix2 (n0 := N) (n1 := 100) (j 0) ⟨(j 1).val, h⟩) else Scalar.sitofp .f32 0#32

theorem padCols_col128 {N : Nat} (x : FVec F ⟨2, ![N, 100]⟩ .f32) (r : Fin N) (c : Fin 100) :
    padCols x (ix2 (n0 := N) (n1 := 128) r (col128 c)) = x (ix2 (n0 := N) (n1 := 100) r c) := by
  unfold padCols
  have h : ((ix2 (n0 := N) (n1 := 128) r (col128 c)) 1).val < 100 := c.isLt
  rw [dif_pos h]
  exact congrArg x (funext fun a => by match a with | ⟨0, _⟩ => rfl | ⟨1, _⟩ => rfl)

/-- The flat result over widened tables: at row r and column d, entry d of the word row plus entry d of the
    extended-word row named at position `posOf r`. -/
def flatSum (widx eidx : IVec SPos 32) (wt : FVec F SWordP .f32) (et : FVec F SExtP .f32) : FVec F SFlat .f32 :=
  fun j => FloatOps.addf
    (wt (ix2 (n0 := 100000) (n1 := 128) (rowOf 100000 (by decide) (widx (posOf (j 0)))) (col128 (j 1))))
    (et (ix2 (n0 := 1000000) (n1 := 128) (rowOf 1000000 (by decide) (eidx (posOf (j 0)))) (col128 (j 1))))

end Cert.EmbSpec

end
-- ==== Proof.KI.Pay.lean ====
/-
  What the one SparseCore call carries. The call reads four arrays — the two index matrices and the two widened tables — and writes
  the flat result, 819200 rows of 100. Thirty-two workers share it: worker n = 2·(subcore) + (core) owns rows
  [25600·n, 25600·(n+1)) of the result, i.e. sentences [128·n, 128·(n+1)); every worker reads all four inputs, so
  each input goes out as thirty-two read shares (share n to worker n) while the TensorCore keeps the remainder.
  A worker returns its block of the result at the flat sum of the two look-ups.
-/
import proofs.«206319_g15771119910948_cont_week2b_672_19_alg».proof.Proof.Gen.KernelIdeal
import proofs.«206319_g15771119910948_cont_week2b_672_19_alg».proof.Proof.EmbFlat
import Idealize.ShloMosaic.Lib.SparseCore.Launch
import Idealize.ShloMosaic.Lib.Pipeline.Kit
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the TensorCore pipelines' staging rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
def ER : Emb UR (MT nD τ sig (HIx 1) (Elt F) ℕ UU ℕ) := (Emb.inl : Emb UR (UR × Counters)).trans embR

/-! ## The arrays -/

abbrev widxLoc (d : Dev nD) : Loc nD τ sig := (SparseCore.T d).loc main_arg0
abbrev eidxLoc (d : Dev nD) : Loc nD τ sig := (SparseCore.T d).loc main_arg1
abbrev wtabLoc (d : Dev nD) : Loc nD τ sig := (SparseCore.T d).loc main_v0
abbrev etabLoc (d : Dev nD) : Loc nD τ sig := (SparseCore.T d).loc main_v1
abbrev outLoc (d : Dev nD) : Loc nD τ sig := (SparseCore.T d).loc main_v2

/-- The contents of the five arrays when the call is made: the index matrices, the widened tables, and whatever the
    result array holds. -/
structure Arrays (F : FTy → Type) where
  wi : (d : Dev nD) → Buf (Elt F) (widxLoc d)
  ei : (d : Dev nD) → Buf (Elt F) (eidxLoc d)
  wt : (d : Dev nD) → Buf (Elt F) (wtabLoc d)
  et : (d : Dev nD) → Buf (Elt F) (etabLoc d)
  o0 : (d : Dev nD) → Buf (Elt F) (outLoc d)

variable [FloatOps F] (X : Arrays F)

/-- What the call leaves in the result array: the flat sum of the two look-ups. -/
def OUT (d : Dev nD) : Buf (Elt F) (outLoc d) := Cert.EmbSpec.flatSum (F := F) (X.wi d) (X.ei d) (X.wt d) (X.et d)

/-- Every index names a row of its table. -/
def InRange : Prop := ∀ d, (∀ j, (X.wi d j : BitVec 32).toNat < 100000) ∧ (∀ j, (X.ei d j : BitVec 32).toNat < 1000000)

/-! ## Workers and their blocks of the result -/

theorem hdiv32 : 32 ∣ S819200x100.size 0 := ⟨25600, rfl⟩
/-- Worker n's rows of the flat result. -/
abbrev blk (n : Fin 32) : Rect S819200x100 := Rect.part (s := S819200x100) (a₀ := 0) hdiv32 n
abbrev blkSet (n : Fin 32) : Finset S819200x100.Idx := (blk n).set
/-- The worker number of subcore i of core c. -/
def wid (c : Fin 2) (i : Fin 16) : Fin 32 := ⟨2 * i.val + c.val, by have := c.isLt; have := i.isLt; omega⟩

/-- Read share n of a whole array. -/
abbrev tok (n : ℕ) : PosShare TreeShare := Transfers.shareTokN fullShare n

/-- The four inputs' read shares of worker n. -/
def inToks (d : Dev nD) (n : ℕ) : sProp 𝕄 :=
  iprop((widxLoc d ↦{tok n} X.wi d) ∗ (eidxLoc d ↦{tok n} X.ei d) ∗ (wtabLoc d ↦{tok n} X.wt d) ∗ (etabLoc d ↦{tok n} X.et d))

/-- What worker n is handed: its read shares and its block of the result as the call found it. -/
def goOf (d : Dev nD) (n : Fin 32) : sProp 𝕄 := iprop(inToks X d n.val ∗ outLoc d ↦[blkSet n]{fullShare} X.o0 d)
/-- What it hands back: the read shares and its block at the flat sum. -/
def tdOf (d : Dev nD) (n : Fin 32) : sProp 𝕄 := iprop(inToks X d n.val ∗ outLoc d ↦[blkSet n]{fullShare} OUT X d)

/-- The one call: core c takes its sixteen workers' shares and blocks, each worker its own, and back. -/
def P : (K (F := F)).Pay (nD := nD) (Val := Elt F) (Name := ℕ) (U := UU) where
  st := fun q d c => match q with
    | 0 => bigSep Finset.univ fun i : Fin 16 => goOf X d (wid (Fin.cast nCore_zero c) i)
  dn := fun q d c => match q with
    | 0 => bigSep Finset.univ fun i : Fin 16 => tdOf X d (wid (Fin.cast nCore_zero c) i)
  go := fun q d c i => match q with
    | 0 => goOf X d (wid (Fin.cast nCore_zero c) (Fin.cast nSub_zero i))
  td := fun q d c i => match q with
    | 0 => tdOf X d (wid (Fin.cast nCore_zero c) (Fin.cast nSub_zero i))
  x := fun _ _ => iprop(emp)

instance inToks_storable (d : Dev nD) (n : ℕ) : BI.Storable (upEmb : UEmb _ 𝕄) (inToks X d n) := by unfold inToks; infer_instance
instance goOf_storable (d : Dev nD) (n : Fin 32) : BI.Storable (upEmb : UEmb _ 𝕄) (goOf X d n) := by unfold goOf; infer_instance
instance tdOf_storable (d : Dev nD) (n : Fin 32) : BI.Storable (upEmb : UEmb _ 𝕄) (tdOf X d n) := by unfold tdOf; infer_instance

instance P_storable : (P (F := F) X).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands are its workers' and its results gather from theirs: the same sixteen-fold conjunction. -/
theorem vecSplit : (K (F := F)).VecSplit' (P X) 0 := by
  intro d c
  show (bigSep Finset.univ fun i : Fin 16 => goOf X d (wid (Fin.cast nCore_zero c) i)) ⊢ |={Set.univ}=> iprop(
      (bigSep Finset.univ fun i : Fin ((K (F := F)).nSub 0) => goOf X d (wid (Fin.cast nCore_zero c) (Fin.cast nSub_zero i)))
      ∗ ((bigSep Finset.univ fun i : Fin ((K (F := F)).nSub 0) => tdOf X d (wid (Fin.cast nCore_zero c) (Fin.cast nSub_zero i)))
          -∗ bigSep Finset.univ fun i : Fin 16 => tdOf X d (wid (Fin.cast nCore_zero c) i)))
  have e1 (Φ : Fin 16 → sProp 𝕄) : (bigSep Finset.univ fun i : Fin ((K (F := F)).nSub 0) => Φ (Fin.cast nSub_zero i)) = bigSep Finset.univ Φ :=
    bigSep_congr fun _ _ => congrArg Φ (Fin.ext rfl)
  rw [e1 (fun i => goOf X d (wid (Fin.cast nCore_zero c) i)), e1 (fun i => tdOf X d (wid (Fin.cast nCore_zero c) i))]
  iintro H; imodintro
  isplitl [H]; · iexact H
  iintro H; iexact H

end Cert.Proof.KI

end
-- ==== Proof.KI.Pad.lean ====
/-
  The two TensorCore pallas_calls that widen the tables from 100 to 128 columns, each as the pipeline library sees it:
  a grid of row blocks (20000 rows each), at every point the block of the narrow table fetched, the body run, the block
  of the wide table written back. The body loads the fetched block, loads the output buffer (and ignores it) and stores
  the block with 28 zero columns joined on the right over the whole output buffer. Stated at any contents the region
  may be entered with, and at any constant dues the TensorCore carries through the region.
-/
import proofs.«206319_g15771119910948_cont_week2b_672_19_alg».proof.Proof.KI.Pay
import proofs.«206319_g15771119910948_cont_week2b_672_19_alg».proof.Proof.Gen.KernelIdeal.Launch
import proofs.«206319_g15771119910948_cont_week2b_672_19_alg».proof.Proof.Gen.KernelIdeal.Skeleton
import proofs.«206319_g15771119910948_cont_week2b_672_19_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What a widening region's invariant holds and never touches: the TensorCore's scoped buffers that are no staging buffer
    of the region, and the generator register. -/
def ΦP {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

/-- The body's two accesses: the whole input buffer, the whole output buffer. -/
abbrev rIn : Rect S20000x100 := Rect.unit (s := S20000x100) ![0, 0] S20000x100.size inb_S20000x100_S20000x100_0_0
abbrev rOut : Rect S20000x128 := Rect.unit (s := S20000x128) ![0, 0] S20000x128.size inb_S20000x128_S20000x128_0_0

/-- The one store tiles the output buffer, so it covers it. -/
theorem coverOut (p0 : Vec F S20000x128 .f32) (y : S20000x128.Idx) :
    ∃ pc ∈ ([⟨rOut, p0⟩] : List (View.Piece (Elt F) S20000x128 .f32)), y ∈ pc.1.set :=
  View.cover_of_tiled [⟨rOut, p0⟩] S20000x128.size (by rfl) y

section Regions
variable (Vv : (c : Dev nD) → (b : Ref sig .tc) → Buf (Elt F) ((c : Thread nD τ).loc b))

/-! # The pallas_call that widens table 0 (pipeline 0), at the contents `Vv` its region is entered with -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- The input window's current staging buffer holds its block at every point, for any proof data whose array is `Vv`'s and
    whose body leaves the block in place: the window is uncut, never idle and fetched at every point. -/
theorem before0_0_of {c : Dev nD} (dat : Dat τ (Elt F) (HIx 1) ℕ UU ℕ cfg0 c) (hA : dat.A 0 = Vv c (Pipeline.arrRef spec0 0))
    (hafter : ∀ t, dat.after 0 t = iblk0 Vv c 0 t) (t : Fin cfg0.N) (d) : dat.before 0 t d = iblk0 Vv c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer, from the input block: its one store as a piece. -/
def out0_1 (x0 : Vec F S20000x100 .f32) : Vec F S20000x128 .f32 :=
  View.canon [⟨rOut, k0_pay1 (View.ld x0 rIn)⟩]

set_option maxHeartbeats 1000000 in
/-- The body on whole staging memrefs, the input's at read contents `x0` and the output's at anything, runs to the
    continuation holding the input's as it was and the output's at `out0_1 x0`: two loads and a store that covers the buffer. -/
theorem sound_kernel0 (c : Dev nD) (E : Set ℕ) (i : grid0.Coords) (arg1 : Memref sig .tc .vmem S20000x100 .f32) (harg1 : arg1.IsWhole) (arg2 : Memref sig .tc .vmem S20000x128 .f32) (harg2 : arg2.IsWhole)
    (x0 : Vec F S20000x100 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ Kk ⟨⟩))
      ⊢ wp frame (wpE (defs₀ (F := F)) Variants.none c none) E (cc0__pad_block i arg1 harg1 arg2 harg2) Kk := by
  simp only [cc0__pad_block_eq_skeleton]; unfold cc0__pad_block_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverOut _)

/-- The proof data of pipeline 0 on core `c`: the arrays as the region finds them; after the body at point `t` the input's
    buffer at its block and the output's at `out0_1` of it; the invariant the scoped rest and the generator register,
    untouched; the core owing `O` throughout, its recorded waits within `R`; full shares. -/
def dat0 (O : CellTallies nD τ sig (HIx 1)) (R : Set (SemLoc sig × HIx 1)) (c : Dev nD) : Dat τ (Elt F) (HIx 1) ℕ UU ℕ cfg0 c where
  A w := Vv c (Pipeline.arrRef spec0 w)
  after w t := match w with
    | ⟨0, _⟩ => iblk0 Vv c 0 t
    | ⟨1, _⟩ => out0_1 (iblk0 Vv c 0 t)
  Φ _ := ΦP spec0 c
  q _ := fullShare
  owed _ := O
  recorded _ := R

variable (O : CellTallies nD τ sig (HIx 1)) (R : Set (SemLoc sig × HIx 1))

theorem A_eq0 (c : Dev nD) (w : Fin cfg0.W) : (dat0 Vv O R c).A w = Vv c (Pipeline.arrRef spec0 w) := by
  dsimp only [dat0]
theorem after0_0 (c : Dev nD) (t : Fin cfg0.N) : (dat0 Vv O R c).after 0 t = iblk0 Vv c 0 t := by dsimp only [dat0]
theorem after0_1 (c : Dev nD) (t : Fin cfg0.N) : (dat0 Vv O R c).after 1 t = out0_1 (iblk0 Vv c 0 t) := by dsimp only [dat0]
theorem before0_0 (c : Dev nD) (t : Fin cfg0.N) (d) : (dat0 Vv O R c).before 0 t d = iblk0 Vv c 0 t :=
  before0_0_of Vv (dat0 Vv O R c) (A_eq0 Vv O R c 0) (after0_0 Vv O R c) t d

/-- What the body is called with at point `t`, the windows one by one, -/
def bodyPre0 (c : Dev nD) (t : Fin cfg0.N) : sProp 𝕄 :=
  iprop((dat0 Vv O R c).Φ t.castSucc ∗ (dat0 Vv O R c).owesAt none t.castSucc
    ∗ (∃ d, owns (c : Thread nD τ) (st0_0 t) fullShare ((dat0 Vv O R c).before 0 t d))
    ∗ (∃ d, owns (c : Thread nD τ) (st0_1 t) fullShare ((dat0 Vv O R c).before 1 t d)))

/-- and what it returns. -/
def bodyPost0 (c : Dev nD) (t : Fin cfg0.N) : sProp 𝕄 :=
  iprop((dat0 Vv O R c).Φ t.succ ∗ (dat0 Vv O R c).owesAt none t.succ
    ∗ owns (c : Thread nD τ) (st0_0 t) fullShare ((dat0 Vv O R c).after 0 t)
    ∗ owns (c : Thread nD τ) (st0_1 t) fullShare ((dat0 Vv O R c).after 1 t))

/-- The body at any point: the input's memref holds its block, so `sound_kernel0` applies; the invariant and the core's
    dues pass through unread. -/
theorem sound_body0 (c : Dev nD) (t : Fin cfg0.N) :
    bodyPre0 Vv O R c t ⊢ wp frame (wpE (defs₀ (F := F)) Variants.none c none) Set.univ (bodyAt0 t) (fun _ => bodyPost0 Vv O R c t) := by
  unfold bodyPre0 bodyPost0 bodyAt0
  simp only [before0_0]
  rw [show (dat0 Vv O R c).Φ t.succ = (dat0 Vv O R c).Φ t.castSucc from rfl,
    show (dat0 Vv O R c).owesAt none t.succ = (dat0 Vv O R c).owesAt none t.castSucc from rfl,
    after0_0, after0_1]
  iintro ⟨HΦ, Ho, ⟨%d0, H0⟩, ⟨%d1, H1⟩⟩
  iapply (sound_kernel0 c Set.univ (grid0.coords t) _ _ _ _ (iblk0 Vv c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) Vv O R c) (defs₀ (F := F)) Variants.none none Set.univ := fun t => by
  rw [bigSep_W0, bigSep_W0]
  exact sound_body0 Vv O R c t

end Regions

section Regions1
variable (Vv : (c : Dev nD) → (b : Ref sig .tc) → Buf (Elt F) ((c : Thread nD τ).loc b))

/-! # The pallas_call that widens table 1 (pipeline 1), at the contents `Vv` its region is entered with -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- The input window's current staging buffer holds its block at every point, for any proof data whose array is `Vv`'s and
    whose body leaves the block in place: the window is uncut, never idle and fetched at every point. -/
theorem before1_0_of {c : Dev nD} (dat : Dat τ (Elt F) (HIx 1) ℕ UU ℕ cfg1 c) (hA : dat.A 0 = Vv c (Pipeline.arrRef spec1 0))
    (hafter : ∀ t, dat.after 0 t = iblk1 Vv c 0 t) (t : Fin cfg1.N) (d) : dat.before 0 t d = iblk1 Vv c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer, from the input block: its one store as a piece. -/
def out1_1 (x0 : Vec F S20000x100 .f32) : Vec F S20000x128 .f32 :=
  View.canon [⟨rOut, k1_pay1 (View.ld x0 rIn)⟩]

set_option maxHeartbeats 1000000 in
/-- The body on whole staging memrefs, the input's at read contents `x0` and the output's at anything, runs to the
    continuation holding the input's as it was and the output's at `out1_1 x0`: two loads and a store that covers the buffer. -/
theorem sound_kernel1 (c : Dev nD) (E : Set ℕ) (i : grid1.Coords) (arg1 : Memref sig .tc .vmem S20000x100 .f32) (harg1 : arg1.IsWhole) (arg2 : Memref sig .tc .vmem S20000x128 .f32) (harg2 : arg2.IsWhole)
    (x0 : Vec F S20000x100 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ Kk ⟨⟩))
      ⊢ wp frame (wpE (defs₀ (F := F)) Variants.none c none) E (cc1__pad_block i arg1 harg1 arg2 harg2) Kk := by
  simp only [cc1__pad_block_eq_skeleton]; unfold cc1__pad_block_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverOut _)

/-- The proof data of pipeline 1 on core `c`: the arrays as the region finds them; after the body at point `t` the input's
    buffer at its block and the output's at `out1_1` of it; the invariant the scoped rest and the generator register,
    untouched; the core owing `O` throughout, its recorded waits within `R`; full shares. -/
def dat1 (O : CellTallies nD τ sig (HIx 1)) (R : Set (SemLoc sig × HIx 1)) (c : Dev nD) : Dat τ (Elt F) (HIx 1) ℕ UU ℕ cfg1 c where
  A w := Vv c (Pipeline.arrRef spec1 w)
  after w t := match w with
    | ⟨0, _⟩ => iblk1 Vv c 0 t
    | ⟨1, _⟩ => out1_1 (iblk1 Vv c 0 t)
  Φ _ := ΦP spec1 c
  q _ := fullShare
  owed _ := O
  recorded _ := R

variable (O : CellTallies nD τ sig (HIx 1)) (R : Set (SemLoc sig × HIx 1))

theorem A_eq1 (c : Dev nD) (w : Fin cfg1.W) : (dat1 Vv O R c).A w = Vv c (Pipeline.arrRef spec1 w) := by
  dsimp only [dat1]
theorem after1_0 (c : Dev nD) (t : Fin cfg1.N) : (dat1 Vv O R c).after 0 t = iblk1 Vv c 0 t := by dsimp only [dat1]
theorem after1_1 (c : Dev nD) (t : Fin cfg1.N) : (dat1 Vv O R c).after 1 t = out1_1 (iblk1 Vv c 0 t) := by dsimp only [dat1]
theorem before1_0 (c : Dev nD) (t : Fin cfg1.N) (d) : (dat1 Vv O R c).before 0 t d = iblk1 Vv c 0 t :=
  before1_0_of Vv (dat1 Vv O R c) (A_eq1 Vv O R c 0) (after1_0 Vv O R c) t d

/-- What the body is called with at point `t`, the windows one by one, -/
def bodyPre1 (c : Dev nD) (t : Fin cfg1.N) : sProp 𝕄 :=
  iprop((dat1 Vv O R c).Φ t.castSucc ∗ (dat1 Vv O R c).owesAt none t.castSucc
    ∗ (∃ d, owns (c : Thread nD τ) (st1_0 t) fullShare ((dat1 Vv O R c).before 0 t d))
    ∗ (∃ d, owns (c : Thread nD τ) (st1_1 t) fullShare ((dat1 Vv O R c).before 1 t d)))

/-- and what it returns. -/
def bodyPost1 (c : Dev nD) (t : Fin cfg1.N) : sProp 𝕄 :=
  iprop((dat1 Vv O R c).Φ t.succ ∗ (dat1 Vv O R c).owesAt none t.succ
    ∗ owns (c : Thread nD τ) (st1_0 t) fullShare ((dat1 Vv O R c).after 0 t)
    ∗ owns (c : Thread nD τ) (st1_1 t) fullShare ((dat1 Vv O R c).after 1 t))

/-- The body at any point: the input's memref holds its block, so `sound_kernel1` applies; the invariant and the core's
    dues pass through unread. -/
theorem sound_body1 (c : Dev nD) (t : Fin cfg1.N) :
    bodyPre1 Vv O R c t ⊢ wp frame (wpE (defs₀ (F := F)) Variants.none c none) Set.univ (bodyAt1 t) (fun _ => bodyPost1 Vv O R c t) := by
  unfold bodyPre1 bodyPost1 bodyAt1
  simp only [before1_0]
  rw [show (dat1 Vv O R c).Φ t.succ = (dat1 Vv O R c).Φ t.castSucc from rfl,
    show (dat1 Vv O R c).owesAt none t.succ = (dat1 Vv O R c).owesAt none t.castSucc from rfl,
    after1_0, after1_1]
  iintro ⟨HΦ, Ho, ⟨%d0, H0⟩, ⟨%d1, H1⟩⟩
  iapply (sound_kernel1 c Set.univ (grid1.coords t) _ _ _ _ (iblk1 Vv c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) Vv O R c) (defs₀ (F := F)) Variants.none none Set.univ := fun t => by
  rw [bigSep_W1, bigSep_W1]
  exact sound_body1 Vv O R c t

end Regions1

end Cert.Proof.KI

end
-- ==== Proof.KI.PadValue.lean ====
/-
  What the two widening regions leave in the wide tables: the narrow table with 28 zero columns joined on the right of
  every row. A point's body stores its block of the narrow table with the zeros joined on; the blocks are the row blocks
  of 20000 rows, one per grid point, and together they cover the table.
-/
import proofs.«206319_g15771119910948_cont_week2b_672_19_alg».proof.Proof.KI.Pad
import proofs.«206319_g15771119910948_cont_week2b_672_19_alg».proof.Proof.EmbFlat
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]

theorem hz2 : (![0, 0] : Fin 2 → Nat) = fun _ => 0 := funext fun a => by fin_cases a <;> rfl

/-- A block of 20000 rows with 28 zero columns joined on the right of every row. -/
def padBlock (x0 : Vec F S20000x100 .f32) : FVec F S20000x128 .f32 :=
  concatenate S20000x128 1 [⟨S20000x100, x0⟩, ⟨S20000x28, broadcast S20000x28 (Scalar.sitofp (F := F) .f32 0#32)⟩] concatenates_S20000x100_S20000x28_S20000x128_d1

/-- The widened block at an index: the block's entry in the first 100 columns, zero in the last 28. -/
theorem padBlock_apply (x0 : Vec F S20000x100 .f32) (j : S20000x128.Idx) :
    padBlock x0 j = if h : (j 1).val < 100 then x0 (ix2 (n0 := 20000) (n1 := 100) (j 0) ⟨(j 1).val, h⟩) else Scalar.sitofp .f32 0#32 := by
  unfold padBlock
  have hj1 : (j 1).val < 128 := (j 1).isLt
  by_cases h : (j 1).val < 100
  · rw [dif_pos h]
    exact concatenate_pair_apply_left (t := S20000x128) (s₁ := S20000x100) (s₂ := S20000x28) (1 : Fin 2) x0 (broadcast S20000x28 (Scalar.sitofp (F := F) .f32 0#32))
      concatenates_S20000x100_S20000x28_S20000x128_d1 j rfl (ix2 (n0 := 20000) (n1 := 100) (j 0) ⟨(j 1).val, h⟩) (fun b => by match b with | ⟨0, _⟩ => rfl | ⟨1, _⟩ => rfl)
  · rw [dif_neg h]
    exact concatenate_pair_apply_right (t := S20000x128) (s₁ := S20000x100) (s₂ := S20000x28) (1 : Fin 2) x0 (broadcast S20000x28 (Scalar.sitofp (F := F) .f32 0#32))
      concatenates_S20000x100_S20000x28_S20000x128_d1 j rfl rfl (ix2 (n0 := 20000) (n1 := 28) (j 0) ⟨(j 1).val - 100, by omega⟩)
      (fun b hb => by match b with | ⟨0, _⟩ => rfl | ⟨1, _⟩ => exact absurd rfl hb)
      (by show (j 1).val - 100 + 100 = (j 1).val; omega)

section V
variable (Vv : (c : Dev nD) → (b : Ref sig .tc) → Buf (Elt F) ((c : Thread nD τ).loc b))
variable (O : CellTallies nD τ sig (HIx 1)) (R : Set (SemLoc sig × HIx 1))

/-! ## Pipeline 0: the table of 100000 rows, 5 blocks -/

/-- The printed index maps, decided over the grid: the input block moves with the output block down the rows, both stay at
    column block 0, and the row block is the grid point. -/
theorem idx_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 4 :=
  (by decide +kernel : ∀ t : Fin grid0.N, _)

/-- Every row block is some point's. -/
theorem idx_onto0 : ∀ q0 : Fin 5, ∃ t : Fin cfg0.N, win0_1.index t = ![q0.val, 0] :=
  (by decide +kernel : ∀ q0 : Fin 5, ∃ t : Fin grid0.N, win0_1.index t = ![q0.val, 0])

/-- What point `t` writes back is block `t` of the widened table. -/
theorem flushed0_eq (c : Dev nD) (t : Fin cfg0.N) :
    (dat0 Vv O R c).flushed 1 t = ((cfg0.win 1).blk t).view.read (Elt F) (Cert.EmbSpec.padCols (N := 100000) (Vv c main_arg2)) := by
  show (cfg0.win 1).cut (grid0.coords t) ((dat0 Vv O R c).after 1 t) = _
  rw [after0_1]
  unfold out0_1
  rw [View.canon_unit_zero hz2]
  simp only [View.ld_unit_zero (S := S20000x100) hz2]
  obtain ⟨e0, e1, e2, e3⟩ := idx_facts0 t
  funext j
  show k0_pay1 (iblk0 Vv c 0 t) j = Cert.EmbSpec.padCols (N := 100000) (Vv c main_arg2) (((cfg0.win 1).blk t).view.emb j)
  rw [show k0_pay1 (iblk0 Vv c 0 t) = padBlock (iblk0 Vv c 0 t) from rfl, padBlock_apply]
  unfold Cert.EmbSpec.padCols
  have hj0 : (j 0).val < 20000 := (j 0).isLt
  have hj1 : (j 1).val < 128 := (j 1).isLt
  have hc : ((((cfg0.win 1).blk t).view.emb j) 1).val = (j 1).val := by
    show win0_1.index t (1 : Fin 2) * 128 + 1 * (j 1).val = (j 1).val; omega
  by_cases h : (j 1).val < 100
  · rw [dif_pos h, dif_pos (hc ▸ h)]
    show Vv c main_arg2 (((cfg0.win 0).blk t).view.emb (ix2 (n0 := 20000) (n1 := 100) (j 0) ⟨(j 1).val, h⟩)) = _
    refine congrArg (Vv c main_arg2) (funext fun a => Fin.ext ?_)
    match a with
    | ⟨0, _⟩ => show win0_0.index t (0 : Fin 2) * 20000 + 1 * (j 0).val = win0_1.index t (0 : Fin 2) * 20000 + 1 * (j 0).val; omega
    | ⟨1, _⟩ => show win0_0.index t (1 : Fin 2) * 100 + 1 * (j 1).val = win0_1.index t (1 : Fin 2) * 128 + 1 * (j 1).val; omega
  · rw [dif_neg h, dif_neg (hc ▸ h)]

/-- An index of the widened table is in point `t`'s block iff each coordinate is in the block's range on its axis. -/
theorem mem_blk0 (t : Fin cfg0.N) (i : S100000x128.Idx) :
    i ∈ ((cfg0.win 1).blk t).view.set ↔ ∀ a : Fin 2, win0_1.index t a * S20000x128.size a ≤ (i a).val ∧ (i a).val < win0_1.index t a * S20000x128.size a + S20000x128.size a := by
  show i ∈ ((View.whole main_v0).slice (win0_1.rect t)).set ↔ _
  rw [View.set_slice_whole, Rect.mem_set_unit]
  exact Iff.rfl

/-- Every index of the widened table is in some point's block: the point of its row block. -/
theorem covered0 (i : S100000x128.Idx) : ∃ t : Fin cfg0.N, (cfg0.win 1).flush t = true ∧ i ∈ ((cfg0.win 1).blk t).view.set := by
  have hi0 : (i 0).val < 100000 := (i 0).isLt
  have hi1 : (i 1).val < 128 := (i 1).isLt
  obtain ⟨t, ht⟩ := idx_onto0 ⟨(i 0).val / 20000, by omega⟩
  have q0 : win0_1.index t (0 : Fin 2) = (i 0).val / 20000 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 20000 ≤ (i 0).val ∧ (i 0).val < win0_1.index t (0 : Fin 2) * 20000 + 20000; omega
  | ⟨1, _⟩ => show win0_1.index t (1 : Fin 2) * 128 ≤ (i 1).val ∧ (i 1).val < win0_1.index t (1 : Fin 2) * 128 + 128; omega

/-- The wide table after the region: the narrow table widened by zero columns. -/
theorem final0 (c : Dev nD) : (dat0 Vv O R c).arrAt 1 cfg0.N = Cert.EmbSpec.padCols (N := 100000) (Vv c main_arg2) := by
  funext i
  rw [(dat0 Vv O R c).arrAt_eq_piecewise 1 _ (fun t _ => flushed0_eq Vv O R c t) i]
  exact if_pos (covered0 i)

/-! ## Pipeline 1: the table of 1000000 rows, 50 blocks -/

/-- The printed index maps, decided over the grid: the input block moves with the output block down the rows, both stay at
    column block 0, and the row block is the grid point. -/
theorem idx_facts1 : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) ≤ 49 :=
  (by decide +kernel : ∀ t : Fin grid1.N, _)

/-- Every row block is some point's. -/
theorem idx_onto1 : ∀ q0 : Fin 50, ∃ t : Fin cfg1.N, win1_1.index t = ![q0.val, 0] :=
  (by decide +kernel : ∀ q0 : Fin 50, ∃ t : Fin grid1.N, win1_1.index t = ![q0.val, 0])

/-- What point `t` writes back is block `t` of the widened table. -/
theorem flushed1_eq (c : Dev nD) (t : Fin cfg1.N) :
    (dat1 Vv O R c).flushed 1 t = ((cfg1.win 1).blk t).view.read (Elt F) (Cert.EmbSpec.padCols (N := 1000000) (Vv c main_arg3)) := by
  show (cfg1.win 1).cut (grid1.coords t) ((dat1 Vv O R c).after 1 t) = _
  rw [after1_1]
  unfold out1_1
  rw [View.canon_unit_zero hz2]
  simp only [View.ld_unit_zero (S := S20000x100) hz2]
  obtain ⟨e0, e1, e2, e3⟩ := idx_facts1 t
  funext j
  show k1_pay1 (iblk1 Vv c 0 t) j = Cert.EmbSpec.padCols (N := 1000000) (Vv c main_arg3) (((cfg1.win 1).blk t).view.emb j)
  rw [show k1_pay1 (iblk1 Vv c 0 t) = padBlock (iblk1 Vv c 0 t) from rfl, padBlock_apply]
  unfold Cert.EmbSpec.padCols
  have hj0 : (j 0).val < 20000 := (j 0).isLt
  have hj1 : (j 1).val < 128 := (j 1).isLt
  have hc : ((((cfg1.win 1).blk t).view.emb j) 1).val = (j 1).val := by
    show win1_1.index t (1 : Fin 2) * 128 + 1 * (j 1).val = (j 1).val; omega
  by_cases h : (j 1).val < 100
  · rw [dif_pos h, dif_pos (hc ▸ h)]
    show Vv c main_arg3 (((cfg1.win 0).blk t).view.emb (ix2 (n0 := 20000) (n1 := 100) (j 0) ⟨(j 1).val, h⟩)) = _
    refine congrArg (Vv c main_arg3) (funext fun a => Fin.ext ?_)
    match a with
    | ⟨0, _⟩ => show win1_0.index t (0 : Fin 2) * 20000 + 1 * (j 0).val = win1_1.index t (0 : Fin 2) * 20000 + 1 * (j 0).val; omega
    | ⟨1, _⟩ => show win1_0.index t (1 : Fin 2) * 100 + 1 * (j 1).val = win1_1.index t (1 : Fin 2) * 128 + 1 * (j 1).val; omega
  · rw [dif_neg h, dif_neg (hc ▸ h)]

/-- An index of the widened table is in point `t`'s block iff each coordinate is in the block's range on its axis. -/
theorem mem_blk1 (t : Fin cfg1.N) (i : S1000000x128.Idx) :
    i ∈ ((cfg1.win 1).blk t).view.set ↔ ∀ a : Fin 2, win1_1.index t a * S20000x128.size a ≤ (i a).val ∧ (i a).val < win1_1.index t a * S20000x128.size a + S20000x128.size a := by
  show i ∈ ((View.whole main_v1).slice (win1_1.rect t)).set ↔ _
  rw [View.set_slice_whole, Rect.mem_set_unit]
  exact Iff.rfl

/-- Every index of the widened table is in some point's block: the point of its row block. -/
theorem covered1 (i : S1000000x128.Idx) : ∃ t : Fin cfg1.N, (cfg1.win 1).flush t = true ∧ i ∈ ((cfg1.win 1).blk t).view.set := by
  have hi0 : (i 0).val < 1000000 := (i 0).isLt
  have hi1 : (i 1).val < 128 := (i 1).isLt
  obtain ⟨t, ht⟩ := idx_onto1 ⟨(i 0).val / 20000, by omega⟩
  have q0 : win1_1.index t (0 : Fin 2) = (i 0).val / 20000 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 20000 ≤ (i 0).val ∧ (i 0).val < win1_1.index t (0 : Fin 2) * 20000 + 20000; omega
  | ⟨1, _⟩ => show win1_1.index t (1 : Fin 2) * 128 ≤ (i 1).val ∧ (i 1).val < win1_1.index t (1 : Fin 2) * 128 + 128; omega

/-- The wide table after the region: the narrow table widened by zero columns. -/
theorem final1 (c : Dev nD) : (dat1 Vv O R c).arrAt 1 cfg1.N = Cert.EmbSpec.padCols (N := 1000000) (Vv c main_arg3) := by
  funext i
  rw [(dat1 Vv O R c).arrAt_eq_piecewise 1 _ (fun t _ => flushed1_eq Vv O R c t) i]
  exact if_pos (covered1 i)

end V

end Cert.Proof.KI

end
-- ==== Proof.KI.LaunchGhost.lean ====
/-
  What the launch deals before any thread moves: the seven decided facts about the launch semaphores, the element of the
  resource algebra the run starts from — the handshakes' rounds, the two TensorCore pipelines' staging rounds, no
  counter — and how that element pays for the handshake cells and for each device's staging cells and duty tokens.
-/
import proofs.«206319_g15771119910948_cont_week2b_672_19_alg».proof.Proof.KI.Pay
import proofs.«206319_g15771119910948_cont_week2b_672_19_alg».proof.Proof.Gen.KernelIdeal.Launch
import Idealize.ShloMosaic.Lib.SparseCore.Launch
import Idealize.ShloMosaic.Lib.Pipeline.Kit
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

instance ER_landsIn : (ER : Emb UR 𝕄).LandsIn (upEmb : UEmb _ 𝕄) := by unfold ER; infer_instance

/-- The launch element: the handshakes' rounds, the staging cells' rounds, the unit counter. -/
def u₀ : UU := (initOf (K (F := F)).hsCells (K (F := F)).hsToks, (initOf (Pipeline.cells cfgs cellOf_inj) (Pipeline.launchToks cfgs cellOf_inj), 1))

/-- What @main's proof on device d starts from beyond its arrays: both pipelines' staging cells' launch state and duty tokens. -/
def G₀ (d : Dev nD) : sProp 𝕄 :=
  iprop((bigSep Finset.univ fun p : Fin 2 => Pipeline.cellsGhost cfgs (ER (F := F)) p d) ∗ (bigSep Finset.univ fun p : Fin 2 => Pipeline.toksInit cfgs (ER (F := F)) p d))

/-- The staging rounds beside the unit counter, owned through the right factor, are the staging rounds owned through their own embedding. -/
theorem own_ER (b : UR) : (BI.own ((embR : Emb (UR × Counters) 𝕄) (b, 1)) : sProp 𝕄) = BI.own ((ER : Emb UR 𝕄) b) := rfl

theorem bigSep_emp' {I : Type} (s : Finset I) : (bigSep s fun _ => iprop(emp)) = (iprop(emp) : sProp 𝕄) := bigSep_emp_const s

variable [FloatOps F] (X : Arrays F)

theorem hu₀ : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => (P X).x q thr) := by
  unfold u₀
  iintro Hu
  ihave H := (ownU_pair _ _) $$ Hu
  icases H with ⟨HH, HR⟩
  ihave HR' := (Entails.of_eq (own_ER (F := F) _)) $$ HR
  imod (Pipeline.fund_ghost cfgs (ER (F := F)) cellOf_inj) $$ HR' with ⟨Hg, Ht⟩
  imodintro
  isplitl [HH]; · iexact HH
  isplitl [Hg Ht]
  · unfold G₀; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KI.LaunchRegions.lean ====
/-
  The two widening regions as segments of @main on the TensorCore: the contents of the TensorCore's unscoped buffers at the
  three boundaries (the launch; after table 0 is widened; after table 1 is widened), each region's proof data at its entry
  contents, and the region records the pipeline library's region rule takes. The TensorCore owes its start signals to the
  SparseCores all through both regions; the regions' own waits sit at the kernels' index, below every such due.
-/
import proofs.«206319_g15771119910948_cont_week2b_672_19_alg».proof.Proof.KI.PadValue
import proofs.«206319_g15771119910948_cont_week2b_672_19_alg».proof.Proof.KI.LaunchGhost
import Idealize.ShloMosaic.Lib.Pipeline.RegionsLoop
import Idealize.ShloMosaic.Lib.Pipeline.FrameSuffix

noncomputable section

namespace Cert.Proof.KI

open Cert.KernelIdeal Cert.KernelIdeal.Gen

open Idealize.ShloMosaic Idealize.ShloMosaic.TcCoe
open Idealize.ShloMosaic.Pipeline (Dat)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

local notation "𝕄" => MT nD τ sig (HIx 1) (Elt F) ℕ UU ℕ

/-- What the TensorCore of `c` owes all through the regions: the start signals of the SparseCore call to come. -/
abbrev Ow (c : Dev nD) : CellTallies nD τ sig (HIx 1) := (K (F := F)).Otc c 0
/-- The recorded waits' bound: every one at the kernels' own index. -/
abbrev Rw : Set (SemLoc sig × HIx 1) := {p | p.2 = none}

/-- Nothing is owed at the kernels' own index: every due of the launch protocol sits at a call's. -/
theorem Otc_none (c : Dev nD) (g : GSem nD τ sig) : (K (F := F)).Otc c 0 g none = 0 := by
  by_contra h
  have h1 := SparseCore.Cfg.lev_of_Otc_pos (K := K (F := F)) (d := c) (n := 0) (g := g) (ι := none) (Nat.pos_of_ne_zero h)
  rw [SparseCore.Cfg.lev_none] at h1
  omega

variable (m : (ℓ : Loc nD τ sig) → Buf (Elt F) ℓ)

/-! ## The buffers' contents at the three boundaries -/

/-- At the launch. -/
abbrev W0 : Dev nD → Valuation τ sig (Elt F) := fun c b => m (c, b)
abbrev V0 : (c : Dev nD) → (b : Ref sig .tc) → Buf (Elt F) ((c : Thread nD τ).loc b) := fun c b => W0 m c b
/-- After the region that widens table 0: its arrays at what the write-backs leave, the rest as entered. -/
def W1 (c : Dev nD) : Valuation τ sig (Elt F) :=
  Pipeline.withArrays spec0 c (W0 m c) fun w => (dat0 (V0 m) (Ow (F := F) c) Rw c).arrAt w cfg0.N
theorem W1_arr (c : Dev nD) (w : Fin cfg0.W) :
    W1 m c (Proc.devRef .tc (Pipeline.arrRef spec0 w)) = (dat0 (V0 m) (Ow (F := F) c) Rw c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) (Ow (F := F) c) Rw c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the region that widens table 1. -/
def W2 (c : Dev nD) : Valuation τ sig (Elt F) :=
  Pipeline.withArrays spec1 c (W1 m c) fun w => (dat1 (V1 m) (Ow (F := F) c) Rw c).arrAt w cfg1.N
theorem W2_arr (c : Dev nD) (w : Fin cfg1.W) :
    W2 m c (Proc.devRef .tc (Pipeline.arrRef spec1 w)) = (dat1 (V1 m) (Ow (F := F) c) Rw c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) (Ow (F := F) c) Rw c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## What the last boundary holds: the arguments and the result arrays as launched, the tables widened -/

theorem V1_arg3 (c : Dev nD) : V1 m c main_arg3 = m ((c : Thread nD τ).loc main_arg3) := W1_of_ne m c main_arg3 (by decide)
theorem V2_arg0 (c : Dev nD) : V2 m c main_arg0 = m ((c : Thread nD τ).loc main_arg0) :=
  (W2_of_ne m c main_arg0 (by decide)).trans (W1_of_ne m c main_arg0 (by decide))
theorem V2_arg1 (c : Dev nD) : V2 m c main_arg1 = m ((c : Thread nD τ).loc main_arg1) :=
  (W2_of_ne m c main_arg1 (by decide)).trans (W1_of_ne m c main_arg1 (by decide))
theorem V2_arg2 (c : Dev nD) : V2 m c main_arg2 = m ((c : Thread nD τ).loc main_arg2) :=
  (W2_of_ne m c main_arg2 (by decide)).trans ((W1_arr m c 0).trans (((dat0 (V0 m) (Ow (F := F) c) Rw c).arrAt_in 0 rfl _).trans (A_eq0 (V0 m) (Ow c) Rw c 0)))
theorem V2_arg3 (c : Dev nD) : V2 m c main_arg3 = m ((c : Thread nD τ).loc main_arg3) :=
  (W2_arr m c 0).trans ((((dat1 (V1 m) (Ow (F := F) c) Rw c).arrAt_in 0 rfl _).trans (A_eq1 (V1 m) (Ow c) Rw c 0)).trans (V1_arg3 m c))
theorem V2_v0 (c : Dev nD) : V2 m c main_v0 = Cert.EmbSpec.padCols (N := 100000) (m ((c : Thread nD τ).loc main_arg2)) :=
  (W2_of_ne m c main_v0 (by decide)).trans ((W1_arr m c 1).trans (final0 (V0 m) (Ow c) Rw c))
theorem V2_v1 (c : Dev nD) : V2 m c main_v1 = Cert.EmbSpec.padCols (N := 1000000) (m ((c : Thread nD τ).loc main_arg3)) :=
  (W2_arr m c 1).trans ((final1 (V1 m) (Ow c) Rw c).trans (congrArg _ (V1_arg3 m c)))
theorem V2_v2 (c : Dev nD) : V2 m c main_v2 = m ((c : Thread nD τ).loc main_v2) :=
  (W2_of_ne m c main_v2 (by decide)).trans (W1_of_ne m c main_v2 (by decide))
theorem V2_v3 (c : Dev nD) : V2 m c main_v3 = m ((c : Thread nD τ).loc main_v3) :=
  (W2_of_ne m c main_v3 (by decide)).trans (W1_of_ne m c main_v3 (by decide))

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) (HIx 1) ℕ UU ℕ (Pipeline.pin (pcfgs (F := F)) adm p) c
  | ⟨0, _⟩ => fun c => dat0 (V0 m) (Ow (F := F) c) Rw c
  | ⟨1, _⟩ => fun c => dat1 (V1 m) (Ow (F := F) c) Rw c
/-- What rides beside the buffers through both regions: the generator register at some state and the TensorCore's dues. -/
abbrev Rr (c : Dev nD) : sProp 𝕄 := iprop((∃ r, prngReg c r) ∗ Pipeline.owesWithin c (Ow (F := F) c) Rw)

set_option backward.isDefEq.respectTransparency.types false in
/-- The region that widens table 0, over the thread state "every unscoped buffer at the boundary's contents, the generator
    register at some state, the TensorCore owing its start signals with every recorded wait at the kernels' own index":
    its arrays split out of the unscoped buffers and put back at what the write-backs leave; the register into the
    invariant and out; the dues carried through unread; no semaphore of the kernel's own. -/
def reg0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V0 m) (Ow c) Rw c).loose
  hwaits c := Pipeline.cellsWaits_intro (Pipeline.pin (pcfgs (F := F)) adm) (pdats m) none 0 c fun w s t =>
    (K (F := F)).mayWait_none (thr := (c : Thread nD τ)) (.dma (((Pipeline.pin (pcfgs (F := F)) adm 0).win w).sem s)) (Otc_none c)
  pre c := iprop(unscopedBufs c (V0 m c) ∗ Rr c)
  post c := iprop(unscopedBufs c (V1 m c) ∗ Rr c)
  X c := iprop(∃ r, prngReg c r)
  Y c := iprop(∃ r, prngReg c r)
  Z c := Pipeline.unscopedRest (Ix := HIx 1) (Name := ℕ) (U := UU) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats m 0 c).Φ 0 = ΦP spec0 c from rfl]; unfold ΦP
    iintro ⟨Hp, -, Hr⟩
    isplitl [Hr]; · iexact Hr
    iexact Hp
  hout c := by
    rw [Pipeline.ownSems0_none, show (pdats m 0 c).Φ (Fin.last _) = ΦP spec0 c from rfl]; unfold ΦP
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V0 m c) (V1 m c) ((pdats m 0 c).arrAt · cfg0.N) (hF0 m c) (hrest0 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun p hp => (hW hp).elim id (fun ⟨_, _, e⟩ => e ▸ rfl)
    iexact HO

set_option backward.isDefEq.respectTransparency.types false in
/-- The region that widens table 1, over the thread state "every unscoped buffer at the boundary's contents, the generator
    register at some state, the TensorCore owing its start signals with every recorded wait at the kernels' own index":
    its arrays split out of the unscoped buffers and put back at what the write-backs leave; the register into the
    invariant and out; the dues carried through unread; no semaphore of the kernel's own. -/
def reg1 : Pipeline.RegionSeg (pcfgs (F := F)) adm (pdats m) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation1 (V1 m) (Ow c) Rw c).loose
  hwaits c := Pipeline.cellsWaits_intro (Pipeline.pin (pcfgs (F := F)) adm) (pdats m) none 1 c fun w s t =>
    (K (F := F)).mayWait_none (thr := (c : Thread nD τ)) (.dma (((Pipeline.pin (pcfgs (F := F)) adm 1).win w).sem s)) (Otc_none c)
  pre c := iprop(unscopedBufs c (V1 m c) ∗ Rr c)
  post c := iprop(unscopedBufs c (V2 m c) ∗ Rr c)
  X c := iprop(∃ r, prngReg c r)
  Y c := iprop(∃ r, prngReg c r)
  Z c := Pipeline.unscopedRest (Ix := HIx 1) (Name := ℕ) (U := UU) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats m 1 c).Φ 0 = ΦP spec1 c from rfl]; unfold ΦP
    iintro ⟨Hp, -, Hr⟩
    isplitl [Hr]; · iexact Hr
    iexact Hp
  hout c := by
    rw [Pipeline.ownSems0_none, show (pdats m 1 c).Φ (Fin.last _) = ΦP spec1 c from rfl]; unfold ΦP
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats m) ((pdats m 1 c).share_full fun _ => rfl)
      (V1 m c) (V2 m c) ((pdats m 1 c).arrAt · cfg1.N) (hF1 m c) (hrest1 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun p hp => (hW hp).elim id (fun ⟨_, _, e⟩ => e ▸ rfl)
    iexact HO

end Cert.Proof.KI

end
-- ==== Proof.LibCoreSubcoreSplit.lean ====
/-
  A regrouping of an iterated separating conjunction, for a kernel whose work is dealt to 2 cores × 16 subcores by
  the number `2 i + c`: if `Ψ n` is empty for every `n ≥ 16`, then conjoining `Ψ (2 i + c)` over the cores `c < 2`
  and the subcores `i < 16` is conjoining `Ψ n` over `n < 16`. The map `(c, i) ↦ 2 i + c` is a bijection of
  `Fin 2 × Fin 16` onto `{0, …, 31}`, and the upper half of that range contributes nothing.
-/
import Idealize.ShloMosaic.Lib.SparseCore.Launch

noncomputable section

namespace Cert.LibCoreSubcoreSplit

open Idealize.SL Idealize.SL.RA Idealize.SL.BI Idealize.ShloMosaic
open scoped Idealize.SL.BI
open Idealize.SL.BI.BIBase Idealize.SL.BI.Laws

variable {M : Type} [URA M]

/-- Over `n < 16`, as a conjunction over `Fin 16` or over `Finset.range 16`. -/
theorem bigSep_fin16 (Ψ : ℕ → sProp M) : (bigSep Finset.univ fun g : Fin 16 => Ψ g.val) = bigSep (Finset.range 16) Ψ := by
  rw [← SparseCore.bigSep_image_of_injOn (f := fun g : Fin 16 => g.val) (s := Finset.univ) (fun a _ b _ h => Fin.ext h) Ψ]
  congr 1

/-- The conjunction over cores and subcores is the conjunction over the numbers `2 i + c`, which fill `{0, …, 31}`. -/
theorem bigSep_pairs (Ψ : ℕ → sProp M) :
    (bigSep Finset.univ fun c : Fin 2 => bigSep Finset.univ fun i : Fin 16 => Ψ (2 * i.val + c.val)) = bigSep (Finset.range 32) Ψ := by
  rw [← SparseCore.bigSep_product Finset.univ Finset.univ (fun p : Fin 2 × Fin 16 => Ψ (2 * p.2.val + p.1.val)),
    ← SparseCore.bigSep_image_of_injOn (f := fun p : Fin 2 × Fin 16 => 2 * p.2.val + p.1.val) (s := Finset.univ ×ˢ Finset.univ)
      (fun a _ b _ h => by
        obtain ⟨⟨c, hc⟩, ⟨i, hi⟩⟩ := a; obtain ⟨⟨c', hc'⟩, ⟨i', hi'⟩⟩ := b
        simp only at h
        have h1 : c = c' := by omega
        have h2 : i = i' := by omega
        subst h1; subst h2; rfl) Ψ]
  congr 1
  decide

/-- If `Ψ` is empty from 16 on, the cores' and subcores' conjunction is the conjunction over `n < 16`. -/
theorem bigSep_cores_subcores (Ψ : ℕ → sProp M) (hΨ : ∀ n, 16 ≤ n → Ψ n = iprop(emp)) :
    (bigSep Finset.univ fun c : Fin 2 => bigSep Finset.univ fun i : Fin 16 => Ψ (2 * i.val + c.val))
      = bigSep Finset.univ fun g : Fin 16 => Ψ g.val := by
  rw [bigSep_pairs, bigSep_fin16,
    show Finset.range 32 = Finset.range 16 ∪ (Finset.range 32 \ Finset.range 16) from by decide,
    bigSep_union Finset.disjoint_sdiff,
    bigSep_congr (s := Finset.range 32 \ Finset.range 16) (fun n hn => hΨ n (by
      have := Finset.mem_sdiff.mp hn; simp only [Finset.mem_range] at this; omega)),
    show (bigSep (Finset.range 32 \ Finset.range 16) fun _ : ℕ => (iprop(emp) : sProp M)) = iprop(emp) from bigSep_emp_const _]
  exact Entails.antisymm sep_emp_elim sep_emp_intro

end Cert.LibCoreSubcoreSplit

end
-- ==== Proof.KI.Split.lean ====
/-
  Around the one SparseCore call: how the five arrays the TensorCore holds whole become the two SparseCores'
  operands, and how their results become the five arrays whole again.
  Each of the four inputs is read by all thirty-two workers, so it goes out as thirty-two read shares and the
  TensorCore keeps what is left of it; the shares come back unchanged and rejoin the remainder. The result array
  is cut into the workers' thirty-two blocks of rows, which are pairwise disjoint and cover it; every block is held
  at the one whole-array function (what the call found, then the flat sum), so the blocks join back to the whole
  array at that function. Worker n is subcore i of core c for n = 2·i + c, a bijection between the pairs (c, i)
  and the numbers below 32, so a conjunction over workers is the conjunction over cores of the conjunction over
  subcores.
-/
import proofs.«206319_g15771119910948_cont_week2b_672_19_alg».proof.Proof.KI.Pay
import proofs.«206319_g15771119910948_cont_week2b_672_19_alg».proof.Proof.LibCoreSubcoreSplit

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Workers by number, and by core and subcore -/

/-- A conjunction over the numbers below 32 is the conjunction over the thirty-two workers. -/
theorem bigSep_range32 (Φ : Fin 32 → sProp 𝕄) (Ψ : ℕ → sProp 𝕄) (h : ∀ n : Fin 32, Ψ n.val = Φ n) :
    bigSep (Finset.range 32) Ψ = bigSep Finset.univ Φ := by
  rw [← Nat.Iio_eq_range, ← Fin.map_valEmbedding_univ, BI.bigSep_map]
  exact bigSep_congr fun n _ => h n

/-- Over the cores and, within each, the subcores, every worker is met once: worker 2·i + c at (c, i). -/
theorem bigSep_workers (Φ : Fin 32 → sProp 𝕄) :
    (bigSep Finset.univ fun c : Fin 2 => bigSep Finset.univ fun i : Fin 16 => Φ (wid c i)) = bigSep Finset.univ Φ := by
  have hΨ : ∀ n : Fin 32, (fun n : ℕ => if h : n < 32 then Φ ⟨n, h⟩ else (iprop(emp) : sProp 𝕄)) n.val = Φ n :=
    fun n => dif_pos n.isLt
  rw [← bigSep_range32 Φ (fun n : ℕ => if h : n < 32 then Φ ⟨n, h⟩ else (iprop(emp) : sProp 𝕄)) hΨ,
    ← Cert.LibCoreSubcoreSplit.bigSep_pairs]
  exact bigSep_congr fun c _ => bigSep_congr fun i _ => (hΨ (wid c i)).symm

/-- The launch theorem counts the cores by the configuration's own number of them, which is two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The two SparseCores' operands are the thirty-two workers'. -/
theorem st0_workers (X : Arrays F) (d : Dev nD) :
    (bigSep Finset.univ fun c : Fin ((K (F := F)).nCore 0) => (P X).st 0 d c) = bigSep Finset.univ fun n : Fin 32 => goOf X d n :=
  (show (bigSep Finset.univ fun c : Fin ((K (F := F)).nCore 0) => (P X).st 0 d c)
      = bigSep Finset.univ fun c : Fin ((K (F := F)).nCore 0) =>
          (fun c' : Fin 2 => bigSep Finset.univ fun i : Fin 16 => goOf X d (wid c' i)) (Fin.cast nCore_zero c) from rfl).trans
    ((bigSep_cores fun c' : Fin 2 => bigSep Finset.univ fun i : Fin 16 => goOf X d (wid c' i)).trans (bigSep_workers fun n => goOf X d n))

/-- The two SparseCores' results are the thirty-two workers'. -/
theorem dn0_workers (X : Arrays F) (d : Dev nD) :
    (bigSep Finset.univ fun c : Fin ((K (F := F)).nCore 0) => (P X).dn 0 d c) = bigSep Finset.univ fun n : Fin 32 => tdOf X d n :=
  (show (bigSep Finset.univ fun c : Fin ((K (F := F)).nCore 0) => (P X).dn 0 d c)
      = bigSep Finset.univ fun c : Fin ((K (F := F)).nCore 0) =>
          (fun c' : Fin 2 => bigSep Finset.univ fun i : Fin 16 => tdOf X d (wid c' i)) (Fin.cast nCore_zero c) from rfl).trans
    ((bigSep_cores fun c' : Fin 2 => bigSep Finset.univ fun i : Fin 16 => tdOf X d (wid c' i)).trans (bigSep_workers fun n => tdOf X d n))

/-! ## The result array in the workers' blocks -/

theorem blk_disjoint : ∀ i ∈ (Finset.univ : Finset (Fin 32)), ∀ j ∈ (Finset.univ : Finset (Fin 32)), i ≠ j → Disjoint (blkSet i) (blkSet j) :=
  fun _ _ _ _ h => Rect.part_disjoint hdiv32 h

theorem blk_cover : (Finset.univ : Finset (Fin 32)).biUnion blkSet = Finset.univ := Rect.biUnion_part hdiv32

/-- The whole result array at one function is its thirty-two blocks at that function. -/
theorem out_blocks (d : Dev nD) (g : Buf (Elt F) (outLoc d)) :
    (outLoc d ↦{fullShare} g : sProp 𝕄) = bigSep Finset.univ fun n : Fin 32 => outLoc d ↦[blkSet n]{fullShare} g := by
  rw [← pointsTo_biUnion Finset.univ (ℓ := outLoc d) blkSet blk_disjoint, blk_cover]; try rfl

/-! ## An input in thirty-two read shares and a remainder -/

/-- A whole array is what is left after thirty-two read shares, and the thirty-two shares. -/
theorem toks32 {ℓ : Loc nD τ sig} (f : Buf (Elt F) ℓ) :
    (ℓ ↦{fullShare} f : sProp 𝕄)
      = iprop((ℓ ↦{Transfers.shareDrop fullShare 32} f) ∗ bigSep Finset.univ fun n : Fin 32 => ℓ ↦{tok n.val} f) :=
  BI.equiv_iff.mp ⟨(Transfers.pointsTo_toks fullShare 32).1, (Transfers.pointsTo_toks fullShare 32).2⟩

/-- What the TensorCore keeps of the four inputs while the call runs: what is left of each after thirty-two read shares. -/
def REM (X : Arrays F) (d : Dev nD) : sProp 𝕄 :=
  iprop((widxLoc d ↦{Transfers.shareDrop fullShare 32} X.wi d) ∗ (eidxLoc d ↦{Transfers.shareDrop fullShare 32} X.ei d)
    ∗ (wtabLoc d ↦{Transfers.shareDrop fullShare 32} X.wt d) ∗ (etabLoc d ↦{Transfers.shareDrop fullShare 32} X.et d))

/-- The workers' read shares with their blocks all at one function: the four inputs' shares, and the result array whole. -/
theorem workers_eq (X : Arrays F) (d : Dev nD) (g : Buf (Elt F) (outLoc d)) :
    (bigSep Finset.univ fun n : Fin 32 => iprop(inToks X d n.val ∗ outLoc d ↦[blkSet n]{fullShare} g))
      = iprop(((bigSep Finset.univ fun n : Fin 32 => widxLoc d ↦{tok n.val} X.wi d)
          ∗ (bigSep Finset.univ fun n : Fin 32 => eidxLoc d ↦{tok n.val} X.ei d)
          ∗ (bigSep Finset.univ fun n : Fin 32 => wtabLoc d ↦{tok n.val} X.wt d)
          ∗ (bigSep Finset.univ fun n : Fin 32 => etabLoc d ↦{tok n.val} X.et d))
          ∗ (outLoc d ↦{fullShare} g)) := by
  unfold inToks
  rw [bigSep_sep', bigSep_sep', bigSep_sep', bigSep_sep', ← out_blocks]

/-- Regrouping nine conjuncts: four (remainder, shares) pairs and the result, as the shares with the result, and the remainders. -/
theorem regroup (a₁ a₂ b₁ b₂ c₁ c₂ e₁ e₂ o : sProp 𝕄) :
    iprop((a₁ ∗ a₂) ∗ (b₁ ∗ b₂) ∗ (c₁ ∗ c₂) ∗ (e₁ ∗ e₂) ∗ o) ⊢ iprop(((a₂ ∗ b₂ ∗ c₂ ∗ e₂) ∗ o) ∗ (a₁ ∗ b₁ ∗ c₁ ∗ e₁)) := by
  iintro ⟨⟨A₁, A₂⟩, ⟨B₁, B₂⟩, ⟨C₁, C₂⟩, ⟨E₁, E₂⟩, O⟩
  isplitr [A₁ B₁ C₁ E₁]
  · isplitr [O]
    · isplitl [A₂]; · iexact A₂
      isplitl [B₂]; · iexact B₂
      isplitl [C₂]; · iexact C₂
      iexact E₂
    · iexact O
  · isplitl [A₁]; · iexact A₁
    isplitl [B₁]; · iexact B₁
    isplitl [C₁]; · iexact C₁
    iexact E₁

/-- And back. -/
theorem regroup' (a₁ a₂ b₁ b₂ c₁ c₂ e₁ e₂ o : sProp 𝕄) :
    iprop(((a₂ ∗ b₂ ∗ c₂ ∗ e₂) ∗ o) ∗ (a₁ ∗ b₁ ∗ c₁ ∗ e₁)) ⊢ iprop((a₁ ∗ a₂) ∗ (b₁ ∗ b₂) ∗ (c₁ ∗ c₂) ∗ (e₁ ∗ e₂) ∗ o) := by
  iintro ⟨⟨⟨A₂, B₂, C₂, E₂⟩, O⟩, A₁, B₁, C₁, E₁⟩
  isplitl [A₁ A₂]; · isplitl [A₁]; · iexact A₁
                     iexact A₂
  isplitl [B₁ B₂]; · isplitl [B₁]; · iexact B₁
                     iexact B₂
  isplitl [C₁ C₂]; · isplitl [C₁]; · iexact C₁
                     iexact C₂
  isplitl [E₁ E₂]; · isplitl [E₁]; · iexact E₁
                     iexact E₂
  iexact O

/-! ## Into the call and out of it -/

/-- The five arrays held whole are the two SparseCores' operands and what the TensorCore keeps. -/
theorem st0_split (X : Arrays F) (d : Dev nD) :
    iprop((widxLoc d ↦{fullShare} X.wi d) ∗ (eidxLoc d ↦{fullShare} X.ei d) ∗ (wtabLoc d ↦{fullShare} X.wt d) ∗ (etabLoc d ↦{fullShare} X.et d) ∗ (outLoc d ↦{fullShare} X.o0 d))
      ⊢ iprop((bigSep Finset.univ fun c : Fin ((K (F := F)).nCore 0) => (P X).st 0 d c) ∗ REM X d) := by
  rw [st0_workers]
  unfold goOf REM
  rw [workers_eq, toks32 (X.wi d), toks32 (X.ei d), toks32 (X.wt d), toks32 (X.et d)]
  exact regroup _ _ _ _ _ _ _ _ _

/-- The two SparseCores' results and what the TensorCore kept are the five arrays whole, the result at the flat sum. -/
theorem dn0_join (X : Arrays F) (d : Dev nD) :
    iprop((bigSep Finset.univ fun c : Fin ((K (F := F)).nCore 0) => (P X).dn 0 d c) ∗ REM X d)
      ⊢ iprop((widxLoc d ↦{fullShare} X.wi d) ∗ (eidxLoc d ↦{fullShare} X.ei d) ∗ (wtabLoc d ↦{fullShare} X.wt d) ∗ (etabLoc d ↦{fullShare} X.et d) ∗ (outLoc d ↦{fullShare} OUT X d)) := by
  rw [dn0_workers]
  unfold tdOf REM
  rw [workers_eq, toks32 (X.wi d), toks32 (X.ei d), toks32 (X.wt d), toks32 (X.et d)]
  exact regroup' _ _ _ _ _ _ _ _ _

end Cert.Proof.KI

end
-- ==== Proof.KI.LaunchMain.lean ====
/-
  @main on the TensorCore, and the run of the whole program. @main widens the two tables (two pallas_calls on the
  TensorCore), makes the one SparseCore call, and reshapes the flat result; the thirty-five threads' run then follows
  from the vector subcores' task by the SparseCore launch theorem. The final memory holds the reshaped flat sum of the two
  look-ups over the widened tables, and the four arguments as launched.
-/
import proofs.«206319_g15771119910948_cont_week2b_672_19_alg».proof.Proof.KI.LaunchRegions
import proofs.«206319_g15771119910948_cont_week2b_672_19_alg».proof.Proof.KI.Split
import Idealize.ShloMosaic.Lib.StableHlo.Run

noncomputable section

namespace Cert.Proof.KI

open Cert.KernelIdeal Cert.KernelIdeal.Gen

open Idealize.ShloMosaic Idealize.ShloMosaic.TcCoe
open Idealize.ShloMosaic.Pipeline (Dat)
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

local notation "𝕄" => MT nD τ sig (HIx 1) (Elt F) ℕ UU ℕ

variable (m : (ℓ : Loc nD τ sig) → Buf (Elt F) ℓ) (ρ : Dev nD → PrngReg)

/-- The arrays as the SparseCore call finds them, read off the launch memory: the index matrices as they are, the tables widened. -/
def arraysOf (m : (ℓ : Loc nD τ sig) → Buf (Elt F) ℓ) : Arrays F where
  wi d := m (widxLoc d)
  ei d := m (eidxLoc d)
  wt d := Cert.EmbSpec.padCols (m ((SparseCore.T d).loc main_arg2))
  et d := Cert.EmbSpec.padCols (m ((SparseCore.T d).loc main_arg3))
  o0 d := m (outLoc d)

/-! ## The TensorCore's state before a call: its dues apart from the rest -/

theorem tcSt_owes (d : Dev nD) (n : ℕ) :
    (K (F := F)).tcSt EH d n ⊢ (iprop((∃ W, ⌜(K (F := F)).WBelow (SparseCore.T d) W (8 * n)⌝ ∗ owes (SparseCore.T d) ((K (F := F)).Otc d n) W)
      ∗ ((∃ W, ⌜(K (F := F)).WBelow (SparseCore.T d) W (8 * n)⌝ ∗ owes (SparseCore.T d) ((K (F := F)).Otc d n) W) -∗ (K (F := F)).tcSt EH d n)) : sProp 𝕄) := by
  unfold SparseCore.Cfg.tcSt
  iintro ⟨HO, Hr⟩
  isplitl [HO]; · iexact HO
  iintro HO
  isplitl [HO]; · iexact HO
  iexact Hr

/-- Recorded waits all at the kernels' own index sit at level 0, and conversely. -/
theorem wbelow_iff (d : Dev nD) (W : Waits sig (HIx 1)) : (K (F := F)).WBelow (SparseCore.T d) W (8 * 0) ↔ (↑W : Set (SemLoc sig × HIx 1)) ⊆ Rw := by
  constructor
  · intro h p hp
    have h1 := h p hp
    show p.2 = none
    match hq : p.2 with
    | none => rfl
    | some q => rw [hq] at h1; have := (K (F := F)).lev_some_pos (SparseCore.T d, p.1) q; omega
  · intro h p hp
    have h1 : p.2 = none := h hp
    rw [h1, SparseCore.Cfg.lev_none]

/-! ## The unscoped buffers, one by one -/

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [∀ e, Nonempty (Elt F e)]

theorem reg0_pre (d : Dev nD) : (reg0 m).pre d = iprop(unscopedBufs d (V0 m d) ∗ Rr (F := F) d) := rfl
theorem reg0_post (d : Dev nD) : (reg0 m).post d = iprop(unscopedBufs d (V1 m d) ∗ Rr (F := F) d) := rfl

set_option maxHeartbeats 2000000 in
set_option backward.isDefEq.respectTransparency.types false in
/-- The region that widens table 0, as a step of @main on the TensorCore of `d`: entered through the lifted program, run by the
    pipeline library's region rule on the region's record. -/
theorem wp_region0 (d : Dev nD) (Φ : PUnit → sProp 𝕄) :
    iprop(boundary (SparseCore.T d) ∗ iprop(unscopedBufs d (V0 m d) ∗ Rr (F := F) d) ∗ levAts (K (F := F)).L (K (F := F)).lev
        ∗ Pipeline.cellsGhost cfgs (ER (F := F)) 0 d ∗ Pipeline.toksInit cfgs (ER (F := F)) 0 d
        ∗ (iprop(boundary (SparseCore.T d) ∗ iprop(unscopedBufs d (V1 m d) ∗ Rr (F := F) d)) -∗ Φ ⟨⟩))
      ⊢ wp frame (wpE ((K (F := F)).defs (D (F := F))) 𝒱 (SparseCore.T d) none) Set.univ
          (Prog.lift (.customCall (SparseCore.inner (Pipeline.entry 0)) ())) Φ := by
  have hwp := Pipeline.RegionSeg.wp (pcfgs (F := F)) adm (pdats m) none cellOf_inj (ER (F := F)) defs₀ 𝒱₀ (K (F := F)).L (K (F := F)).lev
    (reg0 m) d none (fun _ h => nomatch h) (fun u => .ret u) Φ
  rw [reg0_pre, reg0_post] at hwp
  have hlift := (K (F := F)).wp_liftProg (D (F := F)) 𝒱 (SparseCore.T d) Set.univ none
    (Prog.op (.customCall (Pipeline.entry (0 : Fin 2)) ()) (fun u => .ret u) : Prog (TpuEff nD τ sig (Elt F) (ΛP (F := F)) .tc) PUnit) Φ
  refine BIBase.Entails.trans ?_ hlift
  refine BIBase.Entails.trans ?_ hwp
  iintro ⟨Hb, Hpre, Hla, Hg, Ht, Hk⟩
  isplitl [Hk]
  · iintro H; rw [wp_ret]; imodintro; iapply Hk; iexact H
  isplitl [Hb]; · iexact Hb
  isplitl [Hpre]; · iexact Hpre
  isplitl [Hla]; · iexact Hla
  isplitl [Hg] <;> iassumption

theorem reg1_pre (d : Dev nD) : (reg1 m).pre d = iprop(unscopedBufs d (V1 m d) ∗ Rr (F := F) d) := rfl
theorem reg1_post (d : Dev nD) : (reg1 m).post d = iprop(unscopedBufs d (V2 m d) ∗ Rr (F := F) d) := rfl

set_option maxHeartbeats 2000000 in
set_option backward.isDefEq.respectTransparency.types false in
/-- The region that widens table 1, as a step of @main on the TensorCore of `d`: entered through the lifted program, run by the
    pipeline library's region rule on the region's record. -/
theorem wp_region1 (d : Dev nD) (Φ : PUnit → sProp 𝕄) :
    iprop(boundary (SparseCore.T d) ∗ iprop(unscopedBufs d (V1 m d) ∗ Rr (F := F) d) ∗ levAts (K (F := F)).L (K (F := F)).lev
        ∗ Pipeline.cellsGhost cfgs (ER (F := F)) 1 d ∗ Pipeline.toksInit cfgs (ER (F := F)) 1 d
        ∗ (iprop(boundary (SparseCore.T d) ∗ iprop(unscopedBufs d (V2 m d) ∗ Rr (F := F) d)) -∗ Φ ⟨⟩))
      ⊢ wp frame (wpE ((K (F := F)).defs (D (F := F))) 𝒱 (SparseCore.T d) none) Set.univ
          (Prog.lift (.customCall (SparseCore.inner (Pipeline.entry 1)) ())) Φ := by
  have hwp := Pipeline.RegionSeg.wp (pcfgs (F := F)) adm (pdats m) none cellOf_inj (ER (F := F)) defs₀ 𝒱₀ (K (F := F)).L (K (F := F)).lev
    (reg1 m) d none (fun _ h => nomatch h) (fun u => .ret u) Φ
  rw [reg1_pre, reg1_post] at hwp
  have hlift := (K (F := F)).wp_liftProg (D (F := F)) 𝒱 (SparseCore.T d) Set.univ none
    (Prog.op (.customCall (Pipeline.entry (1 : Fin 2)) ()) (fun u => .ret u) : Prog (TpuEff nD τ sig (Elt F) (ΛP (F := F)) .tc) PUnit) Φ
  refine BIBase.Entails.trans ?_ hlift
  refine BIBase.Entails.trans ?_ hwp
  iintro ⟨Hb, Hpre, Hla, Hg, Ht, Hk⟩
  isplitl [Hk]
  · iintro H; rw [wp_ret]; imodintro; iapply Hk; iexact H
  isplitl [Hb]; · iexact Hb
  isplitl [Hpre]; · iexact Hpre
  isplitl [Hla]; · iexact Hla
  isplitl [Hg] <;> iassumption

/-! ## The reshape -/

abbrev v2' : DevRef τ sig := Proc.devRef .tc (main_v2 : Ref sig .tc)
abbrev v3' : DevRef τ sig := Proc.devRef .tc (main_v3 : Ref sig .tc)
abbrev opR : HloOp τ sig (Elt F) := StableHlo.reshape main_v2 main_v3 rfl shapeCasts_S819200x100_S4096x200x100
abbrev S2 : Finset (DevRef τ sig) := {v2', v3'}
theorem hR : (opR (F := F)).bufs ⊆ S2 := show ({v2', v3'} : Finset (DevRef τ sig)) ⊆ S2 from Finset.Subset.refl _

theorem held_S2 (d : Dev nD) (W : Valuation τ sig (Elt F)) :
    (held (SparseCore.T d) S2 W : sProp 𝕄) = iprop(((SparseCore.T d).loc main_v2 ↦{fullShare} W v2') ∗ (SparseCore.T d).loc main_v3 ↦{fullShare} W v3') := by
  unfold held S2
  rw [SparseCore.bigSep_insert' (by decide), bigSep_singleton]

/-- The valuation the reshape runs at: the flat result at the flat sum, the reshaped result as launched. -/
def VR (d : Dev nD) : Valuation τ sig (Elt F) := Function.update (fun b => m (d, b)) v2' (OUT (arraysOf m) d)
theorem VR_v2 (d : Dev nD) : VR m d v2' = OUT (arraysOf m) d := Function.update_self _ _ _
theorem VR_v3 (d : Dev nD) : VR m d v3' = m ((SparseCore.T d).loc main_v3) := Function.update_of_ne (show v3' ≠ v2' by decide) _ _

/-- What @main leaves in the reshaped result: the flat sum's rows as positions. -/
def RES (d : Dev nD) : Buf (Elt F) ((SparseCore.T d : Thread nD τ).loc main_v3) :=
  shapeCast S4096x200x100 (OUT (arraysOf m) d) shapeCasts_S819200x100_S4096x200x100

theorem res_v3 (d : Dev nD) : (opR (F := F)).result (VR m d) v3' = RES m d :=
  (StableHlo.reshape_result' (τ := τ) (Val := Elt F) (x := main_v2) (y := main_v3) rfl shapeCasts_S819200x100_S4096x200x100 ⟨by decide, rfl⟩ ⟨by decide, rfl⟩ (VR m d)).trans
    (by rw [VR_v2]; rfl)

/-! ## @main on the TensorCore -/

/-- What @main leaves the claim: the four arguments at their launch contents, the reshaped result at `RES`. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v3 ↦{fullShare} RES m d))

set_option maxHeartbeats 1000000 in
/-- @main on device `d`'s TensorCore: the two widening regions, the call, the reshape. -/
theorem hmain (κ : GSem nD τ sig → ℕ) (d : Dev nD) :
    iprop((K (F := F)).ctx EH (P (arraysOf m)) κ ∗ (K (F := F)).tcSt EH d 0 ∗ (K (F := F)).tcRes m ρ d ∗ G₀ (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G₀
  rw [bigSep_W0 (fun p : Fin 2 => Pipeline.cellsGhost cfgs (ER (F := F)) p d), bigSep_W0 (fun p : Fin 2 => Pipeline.toksInit cfgs (ER (F := F)) p d)]
  simp only [main, wp_bind, wp_pure]
  iintro ⟨#Hctx, Hst, ⟨Hb, Hub, -, Hpr⟩, ⟨Hg0, Hg1⟩, ⟨Ht0, Ht1⟩⟩
  ihave #Hla := (SparseCore.Cfg.ctx_levAts κ) $$ Hctx
  ihave Hst' := (tcSt_owes (F := F) d 0) $$ Hst
  icases Hst' with ⟨⟨%W, %hW, HO⟩, Hback⟩
  -- table 0 widened
  iapply (wp_region0 m d) $$ [Hb Hub Hpr HO Hg0 Ht0 Hg1 Ht1 Hback]
  isplitl [Hb]; · iexact Hb
  isplitl [Hub Hpr HO]
  · isplitl [Hub]; · iexact Hub
    isplitl [Hpr]; · iexists _; iexact Hpr
    iexists W; isplitr; · ipureintro; exact (wbelow_iff (F := F) d W).mp hW
    iexact HO
  isplitr; · iexact Hla
  isplitl [Hg0]; · iexact Hg0
  isplitl [Ht0]; · iexact Ht0
  iintro ⟨Hb, Hub, Hrr⟩
  -- table 1 widened
  iapply (wp_region1 m d) $$ [Hb Hub Hrr Hg1 Ht1 Hback]
  isplitl [Hb]; · iexact Hb
  isplitl [Hub Hrr]
  · isplitl [Hub]; · iexact Hub
    iexact Hrr
  isplitr; · iexact Hla
  isplitl [Hg1]; · iexact Hg1
  isplitl [Ht1]; · iexact Ht1
  iintro ⟨Hb, Hub, -, %W', %hW', HO⟩
  ihave Hst := Hback $$ [HO]
  · iexists W'; isplitr; · ipureintro; exact (wbelow_iff (F := F) d W').mpr hW'
    iexact HO
  ihave Hu := (Entails.of_eq (unscopedBufs_eq (F := F) d _)) $$ Hub
  rw [V2_arg0, V2_arg1, V2_arg2, V2_arg3, V2_v0, V2_v1, V2_v2, V2_v3]
  icases Hu with ⟨Ha0, Ha1, Ha2, Ha3, Hv0, Hv1, Hv2, Hv3⟩
  -- the call
  ihave Hs := (st0_split (arraysOf m) d) $$ [Ha0 Ha1 Hv0 Hv1 Hv2]
  · isplitl [Ha0]; · iexact Ha0
    isplitl [Ha1]; · iexact Ha1
    isplitl [Hv0]; · iexact Hv0
    isplitl [Hv1]; · iexact Hv1
    iexact Hv2
  icases Hs with ⟨Hs, Hrem⟩
  iapply ((K (F := F)).wp_run (D (F := F)) 𝒱 (EH := EH) (P := P (arraysOf m)) κ d 0) $$ [Hst Hs Hb Ha2 Ha3 Hv3 Hrem]
  isplitr; · iexact Hctx
  isplitl [Hst]; · iexact Hst
  isplitl [Hs]; · iexact Hs
  iintro ⟨Hst, Hdn⟩
  ihave Hj := (dn0_join (arraysOf m) d) $$ [Hdn Hrem]
  · isplitl [Hdn] <;> iassumption
  icases Hj with ⟨Ha0, Ha1, -, -, Hv2⟩
  -- the reshape
  iapply (wp_hlo_within 𝒱 (SparseCore.T d) none Set.univ (op := opR) (S := S2) hR (V := VR m d)) $$ [Hb Hv2 Hv3]
  · isplitl [Hb]; · iexact Hb
    rw [held_S2, VR_v2, VR_v3]
    isplitl [Hv2]; · iexact Hv2
    iexact Hv3
  iintro ⟨Hb, Hheld⟩
  ihave Hh := (Entails.of_eq (held_S2 (F := F) d _)) $$ Hheld
  rw [res_v3]
  icases Hh with ⟨-, Hv3⟩
  rw [wp_ret]; imodintro; imodintro
  isplitl [Hst]; · iexact Hst
  unfold FIN
  isplitl [Ha0]; · iexact Ha0
  isplitl [Ha1]; · iexact Ha1
  isplitl [Ha2]; · iexact Ha2
  isplitl [Ha3]; · iexact Ha3
  iexact Hv3

/-! ## The final memory, and the program's run -/

def fq (d : Dev nD) (s' : Phys nD τ sig (Elt F)) : Prop :=
  s'.mem.mem ((SparseCore.T d).loc main_v3) = RES m d
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

theorem hfin (d : Dev nD) (s' : Phys nD τ sig (Elt F)) : iprop(FIN m d ∗ SI s') ⊢ (⌜fq m d s'⌝ : sProp 𝕄) := by
  unfold FIN
  iintro ⟨⟨H0, H1, H2, H3, Hv⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (SI_pointsTo_agree (st := s') (ℓ := (SparseCore.T d).loc main_v3) (I := Finset.univ) (q := fullShare) (f := RES m d)) $$ [HSI Hv]
  · isplitl [HSI] <;> iassumption
  icases H with %hv
  ipureintro
  exact ⟨funext fun i => hv i (Finset.mem_univ i), funext fun i => h0 i (Finset.mem_univ i), funext fun i => h1 i (Finset.mem_univ i),
    funext fun i => h2 i (Finset.mem_univ i), funext fun i => h3 i (Finset.mem_univ i)⟩

/-- The whole program's run from the vector subcores' task: every weakly fair execution of the thirty-five threads ends, the
    reshaped result at the flat sum of the two look-ups over the widened tables, the four arguments unchanged. -/
theorem run_main (m : (ℓ : Loc nD τ sig) → Buf (Elt F) ℓ) (ρ : Dev nD → PrngReg)
    (hobl : (K (F := F)).TileObl (D (F := F)) 𝒱 (P (arraysOf m)) v₀ 0) :
    θ_run (Cert.KernelIdeal.defs (F := F)) (Cert.KernelIdeal.threads (F := F)) ⟨m, fun _ => 0, ρ⟩
      (fun r => ∀ c : Dev nD,
        r.2.mem ((c.tc : Thread nD τ).loc main_v3) = shapeCast S4096x200x100 (OUT (arraysOf m) c) shapeCasts_S819200x100_S4096x200x100
        ∧ r.2.mem ((c.tc : Thread nD τ).loc main_arg0) = m ((c.tc : Thread nD τ).loc main_arg0) ∧ r.2.mem ((c.tc : Thread nD τ).loc main_arg1) = m ((c.tc : Thread nD τ).loc main_arg1)
        ∧ r.2.mem ((c.tc : Thread nD τ).loc main_arg2) = m ((c.tc : Thread nD τ).loc main_arg2) ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P (arraysOf m)) facts v₀
    (fun q hq => match q with | 0 => nomatch hq)
    (fun q _ => match q with | 0 => hobl)
    (fun q _ => match q with | 0 => SparseCore.Cfg.VecSplit.of_plain (vecSplit _))
    m ρ main (G₀ (F := F)) (FIN m) (u₀ (F := F)) (sep_elim_left.trans (hu₀ (arraysOf m))) (hmain m ρ) (fq m) (hfin m) _ (fun _ h => h)

end Cert.Proof.KI

end
-- ==== Proof.KI.TileDefs.lean ====
/-
  One worker's task, stated about its thread: the thread, what it holds when its body starts, and what it must hold
  when the body ends. A worker holds each of the four inputs as two halves of its read share (at most two transfers
  read any one of them at a time), its own block of the flat result, its ten scratch buffers and its forty DMA
  semaphores at zero.
-/
import proofs.«206319_g15771119910948_cont_week2b_672_19_alg».proof.Proof.KI.Pay
import proofs.«206319_g15771119910948_cont_week2b_672_19_alg».proof.Proof.Gen.KernelIdeal.Skeleton

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev cV (L : grid2.Coords) : Fin τ.nSC := (L 0).castLE hcore2
abbrev jV (L : grid2.Coords) : Fin τ.nSub := (L 1).castLE hsub2
/-- The worker's thread. -/
abbrev thr (d : Dev nD) (L : grid2.Coords) : Thread nD τ := V d (cV L) (jV L)
/-- The worker's number, 2·(subcore) + (core). -/
def widL (L : grid2.Coords) : Fin 32 := wid (Fin.cast (show grid2.bound 0 = 2 from rfl) (L 0)) (Fin.cast (show grid2.bound 1 = 16 from rfl) (L 1))

variable (d : Dev nD) (L : grid2.Coords)

/-- Every scoped DMA semaphore of the worker at zero. -/
def sems0 : sProp 𝕄 := iprop(semVal (thr d L, SemLoc.dma cc2_scratch10.sem) 0 ∗ semVal (thr d L, SemLoc.dma cc2_scratch11.sem) 0 ∗ semVal (thr d L, SemLoc.dma cc2_scratch12.sem) 0 ∗ semVal (thr d L, SemLoc.dma cc2_scratch13.sem) 0 ∗ semVal (thr d L, SemLoc.dma cc2_scratch14.sem) 0 ∗ semVal (thr d L, SemLoc.dma cc2_scratch15.sem) 0 ∗ semVal (thr d L, SemLoc.dma cc2_scoped0.sem) 0 ∗ semVal (thr d L, SemLoc.dma cc2_scoped1.sem) 0 ∗ semVal (thr d L, SemLoc.dma cc2_scoped2.sem) 0 ∗ semVal (thr d L, SemLoc.dma cc2_scoped3.sem) 0 ∗ semVal (thr d L, SemLoc.dma cc2_scoped4.sem) 0 ∗ semVal (thr d L, SemLoc.dma cc2_scoped5.sem) 0 ∗ semVal (thr d L, SemLoc.dma cc2_scoped6.sem) 0 ∗ semVal (thr d L, SemLoc.dma cc2_scoped7.sem) 0 ∗ semVal (thr d L, SemLoc.dma cc2_scoped8.sem) 0 ∗ semVal (thr d L, SemLoc.dma cc2_scoped9.sem) 0 ∗ semVal (thr d L, SemLoc.dma cc2_scoped10.sem) 0 ∗ semVal (thr d L, SemLoc.dma cc2_scoped11.sem) 0 ∗ semVal (thr d L, SemLoc.dma cc2_scoped12.sem) 0 ∗ semVal (thr d L, SemLoc.dma cc2_scoped13.sem) 0 ∗ semVal (thr d L, SemLoc.dma cc2_scoped14.sem) 0 ∗ semVal (thr d L, SemLoc.dma cc2_scoped15.sem) 0 ∗ semVal (thr d L, SemLoc.dma cc2_scoped16.sem) 0 ∗ semVal (thr d L, SemLoc.dma cc2_scoped17.sem) 0 ∗ semVal (thr d L, SemLoc.dma cc2_scoped18.sem) 0 ∗ semVal (thr d L, SemLoc.dma cc2_scoped19.sem) 0 ∗ semVal (thr d L, SemLoc.dma cc2_scoped20.sem) 0 ∗ semVal (thr d L, SemLoc.dma cc2_scoped21.sem) 0 ∗ semVal (thr d L, SemLoc.dma cc2_scoped22.sem) 0 ∗ semVal (thr d L, SemLoc.dma cc2_scoped23.sem) 0 ∗ semVal (thr d L, SemLoc.dma cc2_scoped24.sem) 0 ∗ semVal (thr d L, SemLoc.dma cc2_scoped25.sem) 0 ∗ semVal (thr d L, SemLoc.dma cc2_scoped26.sem) 0 ∗ semVal (thr d L, SemLoc.dma cc2_scoped27.sem) 0 ∗ semVal (thr d L, SemLoc.dma cc2_scoped28.sem) 0 ∗ semVal (thr d L, SemLoc.dma cc2_scoped29.sem) 0 ∗ semVal (thr d L, SemLoc.dma cc2_scoped30.sem) 0 ∗ semVal (thr d L, SemLoc.dma cc2_scoped31.sem) 0 ∗ semVal (thr d L, SemLoc.dma cc2_scoped32.sem) 0 ∗ semVal (thr d L, SemLoc.dma cc2_scoped33.sem) 0)

/-- The ten scratch buffers at given contents. -/
def scr (f0 : Buf (Elt F) ((Memref.whole cc2_scratch0).view.loc (thr d L))) (f1 : Buf (Elt F) ((Memref.whole cc2_scratch1).view.loc (thr d L))) (f2 : Buf (Elt F) ((Memref.whole cc2_scratch2).view.loc (thr d L))) (f3 : Buf (Elt F) ((Memref.whole cc2_scratch3).view.loc (thr d L))) (f4 : Buf (Elt F) ((Memref.whole cc2_scratch4).view.loc (thr d L))) (f5 : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L))) : sProp 𝕄 :=
  iprop(((Memref.whole cc2_scratch0).view.loc (thr d L) ↦{fullShare} f0) ∗ ((Memref.whole cc2_scratch1).view.loc (thr d L) ↦{fullShare} f1) ∗ ((Memref.whole cc2_scratch2).view.loc (thr d L) ↦{fullShare} f2) ∗ ((Memref.whole cc2_scratch3).view.loc (thr d L) ↦{fullShare} f3) ∗ ((Memref.whole cc2_scratch4).view.loc (thr d L) ↦{fullShare} f4) ∗ ((Memref.whole cc2_scratch5).view.loc (thr d L) ↦{fullShare} f5) ∗ ((Memref.whole cc2_scratch6).view.loc (thr d L) ↦{fullShare} f6) ∗ ((Memref.whole cc2_scratch7).view.loc (thr d L) ↦{fullShare} f7) ∗ ((Memref.whole cc2_scratch8).view.loc (thr d L) ↦{fullShare} f8) ∗ ((Memref.whole cc2_scratch9).view.loc (thr d L) ↦{fullShare} f9))

variable (X : Arrays F)

/-- The worker's read share of an input, and its two halves. -/
abbrev qW : PosShare TreeShare := tok (widL L).val
/-- The four inputs, each as the two halves of the worker's read share, as the worker's memrefs address them. -/
def inHalves : sProp 𝕄 :=
  iprop(((Memref.whole main_arg0_scv).view.loc (thr d L) ↦{(qW L).left} X.wi d) ∗ ((Memref.whole main_arg0_scv).view.loc (thr d L) ↦{(qW L).right} X.wi d)
    ∗ ((Memref.whole main_arg1_scv).view.loc (thr d L) ↦{(qW L).left} X.ei d) ∗ ((Memref.whole main_arg1_scv).view.loc (thr d L) ↦{(qW L).right} X.ei d)
    ∗ ((Memref.whole main_v0_scv).view.loc (thr d L) ↦{(qW L).left} X.wt d) ∗ ((Memref.whole main_v0_scv).view.loc (thr d L) ↦{(qW L).right} X.wt d)
    ∗ ((Memref.whole main_v1_scv).view.loc (thr d L) ↦{(qW L).left} X.et d) ∗ ((Memref.whole main_v1_scv).view.loc (thr d L) ↦{(qW L).right} X.et d))

omit [FloatOps F] in
theorem hblk (L : grid2.Coords) : ∀ a, (![51200 * (L 1).val + 25600 * (L 0).val, 0] : Fin 2 → Nat) a + (![25600, 100] : Fin 2 → Nat) a ≤ S819200x100.size a := by
  have h0 : (L 0).val < 2 := (L 0).isLt
  have h1 : (L 1).val < 16 := (L 1).isLt
  intro a; match a with
  | ⟨0, _⟩ => show 51200 * (L 1).val + 25600 * (L 0).val + 25600 ≤ 819200; omega
  | ⟨1, _⟩ => show 0 + 100 ≤ 100; omega

/-- The worker's block of the flat result as a rectangle whose first row is linear in the worker's coordinates:
    rows [25600·(2·subcore + core), +25600), all 100 columns. -/
abbrev blkR (L : grid2.Coords) : Rect S819200x100 :=
  Rect.unit (s := S819200x100) ![51200 * (L 1).val + 25600 * (L 0).val, 0] ![25600, 100] (hblk L)

/-- The worker's block of the flat result at contents `f`, held by the elements under the block's rectangle. -/
def outBlk (f : Buf (Elt F) (outLoc d)) : sProp 𝕄 :=
  (Memref.whole main_v2_scv).view.loc (thr d L) ↦[(Memref.whole main_v2_scv).view.setOn (blkR L).set]{fullShare} f

/-- What the body starts from. -/
def tilePre (O : CellTallies nD τ sig (HIx 1)) (W : Waits sig (HIx 1))
    (f0 : Buf (Elt F) ((Memref.whole cc2_scratch0).view.loc (thr d L))) (f1 : Buf (Elt F) ((Memref.whole cc2_scratch1).view.loc (thr d L))) (f2 : Buf (Elt F) ((Memref.whole cc2_scratch2).view.loc (thr d L))) (f3 : Buf (Elt F) ((Memref.whole cc2_scratch3).view.loc (thr d L))) (f4 : Buf (Elt F) ((Memref.whole cc2_scratch4).view.loc (thr d L))) (f5 : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L))) : sProp 𝕄 :=
  iprop(Transfers.MayWaits (thr d L) (none : HIx 1) O ∗ inHalves d L X ∗ outBlk d L (X.o0 d)
    ∗ scr d L f0 f1 f2 f3 f4 f5 f6 f7 f8 f9 ∗ sems0 d L ∗ owes (thr d L) O W)

/-- What it ends with: the inputs back, the block at the flat sum, the scratch at some contents, the semaphores at zero. -/
def tilePost (O : CellTallies nD τ sig (HIx 1)) (W : Waits sig (HIx 1)) : sProp 𝕄 :=
  iprop(inHalves d L X ∗ outBlk d L (OUT X d)
    ∗ (∃ f0 f1 f2 f3 f4 f5 f6 f7 f8 f9, scr d L f0 f1 f2 f3 f4 f5 f6 f7 f8 f9) ∗ sems0 d L
    ∗ ∃ W', ⌜∀ p ∈ W', p ∈ W ∨ p.2 = none⌝ ∗ owes (thr d L) O W')

/-- The body as the table passes it to a worker. -/
abbrev bodyAt : Prog (TpuEff nD τ sig (Elt F) Λ₀ (.scVector (cV L) (jV L))) PUnit :=
  cc2__emb_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33

/-- The body's specification: under in-range indices, from `tilePre` to `tilePost`, whatever the thread owes the launch. -/
def TileBodySpec : Prop :=
  ∀ (d : Dev nD) (L : grid2.Coords) (O : CellTallies nD τ sig (HIx 1)) (W : Waits sig (HIx 1)), (∀ g, O g none = 0) →
    ∀ (f0 : Buf (Elt F) ((Memref.whole cc2_scratch0).view.loc (thr d L))) (f1 : Buf (Elt F) ((Memref.whole cc2_scratch1).view.loc (thr d L))) (f2 : Buf (Elt F) ((Memref.whole cc2_scratch2).view.loc (thr d L))) (f3 : Buf (Elt F) ((Memref.whole cc2_scratch3).view.loc (thr d L))) (f4 : Buf (Elt F) ((Memref.whole cc2_scratch4).view.loc (thr d L))) (f5 : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L))),
    tilePre d L X O W f0 f1 f2 f3 f4 f5 f6 f7 f8 f9
      ⊢ wp frame (wpE (defs₀ (F := F)) 𝒱₀ (thr d L) none) Set.univ (bodyAt (F := F) L) fun _ => tilePost d L X O W

end Cert.Proof.KI

end
-- ==== Proof.KI.TileCtx.lean ====
/-
  Between the launch and one worker's body. The launch hands a worker its task's operands (its read shares of the four
  inputs and its block of the result), everything scoped that is its own (buffers at some contents, semaphores at zero),
  the wait levels and what it owes; the body's specification is stated over the pieces of that which the body touches.
  Opening: the wait evidence from the levels; each read share split into its two halves; the block of the result under
  the whole-array view; the ten scratch buffers and the forty DMA semaphores taken out of the worker's own, the rest of
  either kept unopened. Closing is the same steps backwards. With the two, a proof of the body is the launch theorem's
  obligation for the kernel.
-/
import proofs.«206319_g15771119910948_cont_week2b_672_19_alg».proof.Proof.KI.Pay
import proofs.«206319_g15771119910948_cont_week2b_672_19_alg».proof.Proof.KI.TileDefs

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The worker's own scoped storage -/

/-- The ten scratch buffers. -/
abbrev scrRefs : List (Ref sig .scVector) :=
  [cc2_scratch0, cc2_scratch1, cc2_scratch2, cc2_scratch3, cc2_scratch4, cc2_scratch5, cc2_scratch6, cc2_scratch7, cc2_scratch8, cc2_scratch9]
/-- The forty DMA semaphores the body names. -/
abbrev semL : List (SemLoc sig) := [SemLoc.dma cc2_scratch10.sem, SemLoc.dma cc2_scratch11.sem, SemLoc.dma cc2_scratch12.sem, SemLoc.dma cc2_scratch13.sem, SemLoc.dma cc2_scratch14.sem, SemLoc.dma cc2_scratch15.sem, SemLoc.dma cc2_scoped0.sem, SemLoc.dma cc2_scoped1.sem, SemLoc.dma cc2_scoped2.sem, SemLoc.dma cc2_scoped3.sem, SemLoc.dma cc2_scoped4.sem, SemLoc.dma cc2_scoped5.sem, SemLoc.dma cc2_scoped6.sem, SemLoc.dma cc2_scoped7.sem, SemLoc.dma cc2_scoped8.sem, SemLoc.dma cc2_scoped9.sem, SemLoc.dma cc2_scoped10.sem, SemLoc.dma cc2_scoped11.sem, SemLoc.dma cc2_scoped12.sem, SemLoc.dma cc2_scoped13.sem, SemLoc.dma cc2_scoped14.sem, SemLoc.dma cc2_scoped15.sem, SemLoc.dma cc2_scoped16.sem, SemLoc.dma cc2_scoped17.sem, SemLoc.dma cc2_scoped18.sem, SemLoc.dma cc2_scoped19.sem, SemLoc.dma cc2_scoped20.sem, SemLoc.dma cc2_scoped21.sem, SemLoc.dma cc2_scoped22.sem, SemLoc.dma cc2_scoped23.sem, SemLoc.dma cc2_scoped24.sem, SemLoc.dma cc2_scoped25.sem, SemLoc.dma cc2_scoped26.sem, SemLoc.dma cc2_scoped27.sem, SemLoc.dma cc2_scoped28.sem, SemLoc.dma cc2_scoped29.sem, SemLoc.dma cc2_scoped30.sem, SemLoc.dma cc2_scoped31.sem, SemLoc.dma cc2_scoped32.sem, SemLoc.dma cc2_scoped33.sem]

theorem scrRefs_nodup : scrRefs.Nodup := by decide
theorem semL_nodup : semL.Nodup := by decide
theorem semL_scoped : ∀ sm ∈ semL, (sm : SemLoc sig).isScoped .scVector = true := by decide

variable (d : Dev nD) (L : grid2.Coords)

/-- The worker's own buffers other than the ten scratch buffers, each at some contents. -/
def restBufs : sProp 𝕄 :=
  bigSep (SparseCore.Cfg.ownRefs (τ := τ) (sig := sig) (.scVector (cV L) (jV L)) \ (scrRefs.map (Proc.scVector (cV L) (jV L)).devRef).toFinset)
    fun b => iprop(∃ f, ((d, b) : Loc nD τ sig) ↦{fullShare} f)
/-- The worker's scoped semaphores other than the forty, at zero. -/
def restSems : sProp 𝕄 :=
  bigSep ((Finset.univ.filter fun sm : SemLoc sig => sm.isScoped .scVector) \ semL.toFinset) fun sm => semVal (thr d L, sm) 0

omit [FloatOps F] in
/-- The worker's scoped semaphores at zero are the forty and the rest. -/
theorem ownSems0_V : (SparseCore.Cfg.ownSems0 (thr d L) : sProp 𝕄) = iprop(sems0 d L ∗ restSems d L) := by
  rw [SparseCore.Cfg.ownSems0_eq]
  have hsub : semL.toFinset ⊆ (Finset.univ.filter fun sm : SemLoc sig => sm.isScoped (thr d L).2.kind) := fun sm h =>
    Finset.mem_filter.mpr ⟨Finset.mem_univ _, semL_scoped sm (List.mem_toFinset.mp h)⟩
  rw [SparseCore.bigSep_sdiff_split' hsub, bigSep_eq_bigSepL semL semL_nodup]
  rfl

omit [FloatOps F] in
/-- The worker's own buffers are the ten scratch buffers, each at some contents, and the rest. -/
theorem ownBufs_V :
    (SparseCore.Cfg.ownBufs (thr d L) : sProp 𝕄)
      = iprop(((∃ f : Buf (Elt F) ((Memref.whole cc2_scratch0).view.loc (thr d L)), (Memref.whole cc2_scratch0).view.loc (thr d L) ↦{fullShare} f)
          ∗ (∃ f : Buf (Elt F) ((Memref.whole cc2_scratch1).view.loc (thr d L)), (Memref.whole cc2_scratch1).view.loc (thr d L) ↦{fullShare} f)
          ∗ (∃ f : Buf (Elt F) ((Memref.whole cc2_scratch2).view.loc (thr d L)), (Memref.whole cc2_scratch2).view.loc (thr d L) ↦{fullShare} f)
          ∗ (∃ f : Buf (Elt F) ((Memref.whole cc2_scratch3).view.loc (thr d L)), (Memref.whole cc2_scratch3).view.loc (thr d L) ↦{fullShare} f)
          ∗ (∃ f : Buf (Elt F) ((Memref.whole cc2_scratch4).view.loc (thr d L)), (Memref.whole cc2_scratch4).view.loc (thr d L) ↦{fullShare} f)
          ∗ (∃ f : Buf (Elt F) ((Memref.whole cc2_scratch5).view.loc (thr d L)), (Memref.whole cc2_scratch5).view.loc (thr d L) ↦{fullShare} f)
          ∗ (∃ f : Buf (Elt F) ((Memref.whole cc2_scratch6).view.loc (thr d L)), (Memref.whole cc2_scratch6).view.loc (thr d L) ↦{fullShare} f)
          ∗ (∃ f : Buf (Elt F) ((Memref.whole cc2_scratch7).view.loc (thr d L)), (Memref.whole cc2_scratch7).view.loc (thr d L) ↦{fullShare} f)
          ∗ (∃ f : Buf (Elt F) ((Memref.whole cc2_scratch8).view.loc (thr d L)), (Memref.whole cc2_scratch8).view.loc (thr d L) ↦{fullShare} f)
          ∗ (∃ f : Buf (Elt F) ((Memref.whole cc2_scratch9).view.loc (thr d L)), (Memref.whole cc2_scratch9).view.loc (thr d L) ↦{fullShare} f))
          ∗ restBufs d L) := by
  unfold SparseCore.Cfg.ownBufs
  have hsub : (scrRefs.map (Proc.scVector (cV L) (jV L)).devRef).toFinset ⊆ SparseCore.Cfg.ownRefs (τ := τ) (sig := sig) (thr d L).2 := by
    intro b hb
    obtain ⟨r, hr, rfl⟩ := List.mem_map.mp (List.mem_toFinset.mp hb)
    fin_cases hr <;> exact SparseCore.Cfg.mem_ownRefs_of_owner rfl
  rw [SparseCore.bigSep_sdiff_split' hsub,
    bigSep_eq_bigSepL _ (scrRefs_nodup.map (Proc.devRef_injective _))]
  rfl

/-! ## The task's operands -/

omit [FloatOps F] in
/-- A points-to at a share is the two halves of the share. -/
theorem pts_halves {ℓ : Loc nD τ sig} (q : PosShare TreeShare) (f : Buf (Elt F) ℓ) :
    (ℓ ↦{q} f : sProp 𝕄) ⊣⊢ iprop((ℓ ↦{q.left} f) ∗ ℓ ↦{q.right} f) :=
  pointsTo_share (PosShare.mem_left_op_right q)

omit [FloatOps F] in
/-- Under the whole-array view a set of indices is itself. -/
theorem setOn_out (M : Finset S819200x100.Idx) : (Memref.whole main_v2_scv).view.setOn M = M := by
  show M.map _ = M
  exact Finset.map_refl

omit [FloatOps F] in
/-- The worker's block as the rectangle at row 25600·(2·subcore + core) is its part of the thirty-two-fold cut of the
    rows: the same first row, the same 25600 rows, all 100 columns. -/
theorem blkR_set : (blkR L).set = blkSet (widL L) := by
  have h0 : (L 0).val < 2 := (L 0).isLt
  have h1 : (L 1).val < 16 := (L 1).isLt
  have hw : (widL L).val = 2 * (L 1).val + (L 0).val := rfl
  ext i
  rw [Rect.mem_set_unit, Rect.mem_set_unit]
  refine forall_congr' fun a => ?_
  match a with
  | ⟨0, _⟩ =>
    show (51200 * (L 1).val + 25600 * (L 0).val ≤ (i 0).val ∧ (i 0).val < 51200 * (L 1).val + 25600 * (L 0).val + 25600)
      ↔ ((widL L).val * (819200 / 32) ≤ (i 0).val ∧ (i 0).val < (widL L).val * (819200 / 32) + 819200 / 32)
    rw [hw]; omega
  | ⟨1, _⟩ =>
    show (0 ≤ (i 1).val ∧ (i 1).val < 0 + 100) ↔ (0 * 100 ≤ (i 1).val ∧ (i 1).val < 0 * 100 + 100)
    omega

omit [FloatOps F] in
/-- The worker's block of the result, in the launch's spelling. -/
theorem outBlk_eq (f : Buf (Elt F) (outLoc d)) : (outBlk d L f : sProp 𝕄) = (outLoc d ↦[blkSet (widL L)]{fullShare} f) := by
  unfold outBlk
  rw [setOn_out, blkR_set]

variable (X : Arrays F)

/-! ## Opening and closing -/

/-- From what the launch hands the worker to what the body starts from, the rest of its scoped storage beside it. -/
theorem tile_open (O : CellTallies nD τ sig (HIx 1)) (W : Waits sig (HIx 1)) (hO : ∀ g, O g none = 0) :
    (iprop(levAts (K (F := F)).L (K (F := F)).lev ∗ goOf X d (widL L) ∗ SparseCore.Cfg.ownBufs (thr d L) ∗ SparseCore.Cfg.ownSems0 (thr d L)
        ∗ owes (thr d L) O W) : sProp 𝕄)
      ⊢ iprop(∃ f0 f1 f2 f3 f4 f5 f6 f7 f8 f9, tilePre d L X O W f0 f1 f2 f3 f4 f5 f6 f7 f8 f9 ∗ restBufs d L ∗ restSems d L) := by
  rw [ownBufs_V, ownSems0_V]
  unfold goOf inToks
  iintro ⟨Hlev, ⟨⟨Hwi, Hei, Hwt, Het⟩, Hout⟩, ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, HrB⟩, ⟨Hsem, HrS⟩, HO⟩
  ihave Hmw := ((K (F := F)).mayWaits_none (thr := thr d L) hO) $$ Hlev
  ihave Hwi := (pts_halves _ _).1 $$ Hwi
  icases Hwi with ⟨Hwil, Hwir⟩
  ihave Hei := (pts_halves _ _).1 $$ Hei
  icases Hei with ⟨Heil, Heir⟩
  ihave Hwt := (pts_halves _ _).1 $$ Hwt
  icases Hwt with ⟨Hwtl, Hwtr⟩
  ihave Het := (pts_halves _ _).1 $$ Het
  icases Het with ⟨Hetl, Hetr⟩
  iexists f0
  iexists f1
  iexists f2
  iexists f3
  iexists f4
  iexists f5
  iexists f6
  iexists f7
  iexists f8
  iexists f9
  unfold tilePre inHalves scr
  rw [outBlk_eq]
  isplitr [HrB HrS]
  · isplitl [Hmw]; · iexact Hmw
    isplitl [Hwil Hwir Heil Heir Hwtl Hwtr Hetl Hetr]
    · isplitl [Hwil]; · iexact Hwil
      isplitl [Hwir]; · iexact Hwir
      isplitl [Heil]; · iexact Heil
      isplitl [Heir]; · iexact Heir
      isplitl [Hwtl]; · iexact Hwtl
      isplitl [Hwtr]; · iexact Hwtr
      isplitl [Hetl]; · iexact Hetl
      iexact Hetr
    isplitl [Hout]; · iexact Hout
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [Hsem]; · iexact Hsem
    iexact HO
  · isplitl [HrB]; · iexact HrB
    iexact HrS

/-- From what the body ends with, and the rest of the worker's scoped storage, to what the launch takes back. -/
theorem tile_close (O : CellTallies nD τ sig (HIx 1)) (W : Waits sig (HIx 1)) :
    (iprop(tilePost d L X O W ∗ restBufs d L ∗ restSems d L) : sProp 𝕄)
      ⊢ iprop(tdOf X d (widL L) ∗ SparseCore.Cfg.ownBufs (thr d L) ∗ SparseCore.Cfg.ownSems0 (thr d L)
          ∗ ∃ W', ⌜∀ p ∈ W', p ∈ W ∨ p.2 = none ∨ p.2 = some (0 : Fin 1)⌝ ∗ owes (thr d L) O W') := by
  rw [ownBufs_V, ownSems0_V]
  unfold tilePost tdOf inToks inHalves scr
  rw [outBlk_eq]
  iintro ⟨⟨⟨Hwil, Hwir, Heil, Heir, Hwtl, Hwtr, Hetl, Hetr⟩, Hout, ⟨%f0, %f1, %f2, %f3, %f4, %f5, %f6, %f7, %f8, %f9, H0, H1, H2, H3, H4, H5, H6, H7, H8, H9⟩, Hsem, %W', %hW', HO⟩, HrB, HrS⟩
  ihave Hwi := (pts_halves _ _).2 $$ [Hwil Hwir]
  · isplitl [Hwil] <;> iassumption
  ihave Hei := (pts_halves _ _).2 $$ [Heil Heir]
  · isplitl [Heil] <;> iassumption
  ihave Hwt := (pts_halves _ _).2 $$ [Hwtl Hwtr]
  · isplitl [Hwtl] <;> iassumption
  ihave Het := (pts_halves _ _).2 $$ [Hetl Hetr]
  · isplitl [Hetl] <;> iassumption
  isplitl [Hwi Hei Hwt Het Hout]
  · isplitl [Hwi Hei Hwt Het]
    · isplitl [Hwi]; · iexact Hwi
      isplitl [Hei]; · iexact Hei
      isplitl [Hwt]; · iexact Hwt
      iexact Het
    · iexact Hout
  isplitl [H0 H1 H2 H3 H4 H5 H6 H7 H8 H9 HrB]
  · isplitl [H0 H1 H2 H3 H4 H5 H6 H7 H8 H9]
    · isplitl [H0]; · iexists f0; iexact H0
      isplitl [H1]; · iexists f1; iexact H1
      isplitl [H2]; · iexists f2; iexact H2
      isplitl [H3]; · iexists f3; iexact H3
      isplitl [H4]; · iexists f4; iexact H4
      isplitl [H5]; · iexists f5; iexact H5
      isplitl [H6]; · iexists f6; iexact H6
      isplitl [H7]; · iexists f7; iexact H7
      isplitl [H8]; · iexists f8; iexact H8
      iexists f9; iexact H9
    · iexact HrB
  isplitl [Hsem HrS]
  · isplitl [Hsem]; · iexact Hsem
    iexact HrS
  iexists W'; isplitr
  · ipureintro; exact fun p hp => (hW' p hp).imp_right Or.inl
  · iexact HO

/-! ## The body's specification as the launch theorem's obligation -/

/-- A worker's task from the launch's hand to the launch's hand: open, run the body, close. -/
theorem tile_spec (hb : TileBodySpec X) (O : CellTallies nD τ sig (HIx 1)) (W : Waits sig (HIx 1)) (hO : ∀ g, O g none = 0) :
    (iprop(levAts (K (F := F)).L (K (F := F)).lev ∗ goOf X d (widL L) ∗ SparseCore.Cfg.ownBufs (thr d L) ∗ SparseCore.Cfg.ownSems0 (thr d L)
        ∗ owes (thr d L) O W) : sProp 𝕄)
      ⊢ wp frame (wpE (defs₀ (F := F)) 𝒱₀ (thr d L) none) Set.univ (bodyAt (F := F) L) fun _ =>
          iprop(tdOf X d (widL L) ∗ SparseCore.Cfg.ownBufs (thr d L) ∗ SparseCore.Cfg.ownSems0 (thr d L)
          ∗ ∃ W', ⌜∀ p ∈ W', p ∈ W ∨ p.2 = none ∨ p.2 = some (0 : Fin 1)⌝ ∗ owes (thr d L) O W') := by
  refine (tile_open d L X O W hO).trans ?_
  iintro ⟨%f0, %f1, %f2, %f3, %f4, %f5, %f6, %f7, %f8, %f9, Hpre, Hrest⟩
  iapply ((sep_mono_left (hb d L O W hO f0 f1 f2 f3 f4 f5 f6 f7 f8 f9)).trans
    ((wp_frame_r _ _ _).trans (wp_mono _ _ _ fun _ => tile_close d L X O W))) $$ [Hpre Hrest]
  isplitl [Hpre]; · iexact Hpre
  iexact Hrest

omit [FloatOps F] in
/-- The kernel's own assertion beside the operands is empty: drop it. -/
theorem drop_emp {A G B C E : sProp 𝕄} : iprop(A ∗ emp ∗ G ∗ B ∗ C ∗ E) ⊢ iprop(A ∗ G ∗ B ∗ C ∗ E) := by
  iintro ⟨HA, -, HG, HB, HC, HE⟩
  isplitl [HA]; · iexact HA
  isplitl [HG]; · iexact HG
  isplitl [HB]; · iexact HB
  isplitl [HC]; · iexact HC
  iexact HE

/-- The grid coordinates of core c's subcore s. -/
def coordsV (c : Fin (grid2.bound 0)) (s : Fin (grid2.bound 1)) : grid2.Coords :=
  fun | 0 => c | 1 => s | ⟨_ + 2, h⟩ => absurd h (Nat.not_lt.2 (Nat.le_add_left _ _))

/-- The body table at the kernel's label on a vector subcore: the body at that subcore's coordinates. -/
theorem defs₀_vector (c : Fin τ.nSC) (s : Fin τ.nSub) :
    defs₀ (F := F) (.scVector c s) 2 ()
      = SparseCore.onTile hcore2 hsub2 (fun c s => bodyAt (F := F) (coordsV c s)) ⟨⟩ c s := rfl

/-- THE OBLIGATION: a proof of the body's specification is the launch theorem's obligation for the kernel. -/
theorem tileObl_of_body (hF : (K (F := F)).Facts) (X : Arrays F) (hb : TileBodySpec X) :
    (K (F := F)).TileObl (D (F := F)) 𝒱 (P X) v₀ 0 := by
  intro d c i O W hO _ _
  -- the kernel owes nothing for a protocol of its own
  simp only [show (P X).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  rw [(K (F := F)).scopedBufs_V hF, SparseCore.Cfg.scopedSems0_V]
  exact drop_emp.trans (tile_spec d (coordsV ⟨_, hc.1⟩ ⟨_, hc.2⟩) X hb O W hO)

end Cert.Proof.KI

end
-- ==== Proof.KK.Pay.lean ====
/-
  What the one SparseCore call carries. The call reads four arrays — the two index matrices and the two widened tables — and writes
  the flat result, 819200 rows of 100. Thirty-two workers share it: worker n = 2·(subcore) + (core) owns rows
  [25600·n, 25600·(n+1)) of the result, i.e. sentences [128·n, 128·(n+1)); every worker reads all four inputs, so
  each input goes out as thirty-two read shares (share n to worker n) while the TensorCore keeps the remainder.
  A worker returns its block of the result at the flat sum of the two look-ups.
-/
import proofs.«206319_g15771119910948_cont_week2b_672_19_alg».proof.Proof.Gen.Kernel
import proofs.«206319_g15771119910948_cont_week2b_672_19_alg».proof.Proof.EmbFlat
import Idealize.ShloMosaic.Lib.SparseCore.Launch
import Idealize.ShloMosaic.Lib.Pipeline.Kit
import Idealize.ShloMosaic.Lib.Transfers

noncomputable section

namespace Cert.Proof.KK

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the TensorCore pipelines' staging rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
def ER : Emb UR (MT nD τ sig (HIx 1) (Elt F) ℕ UU ℕ) := (Emb.inl : Emb UR (UR × Counters)).trans embR

/-! ## The arrays -/

abbrev widxLoc (d : Dev nD) : Loc nD τ sig := (SparseCore.T d).loc main_arg0
abbrev eidxLoc (d : Dev nD) : Loc nD τ sig := (SparseCore.T d).loc main_arg1
abbrev wtabLoc (d : Dev nD) : Loc nD τ sig := (SparseCore.T d).loc main_v0
abbrev etabLoc (d : Dev nD) : Loc nD τ sig := (SparseCore.T d).loc main_v1
abbrev outLoc (d : Dev nD) : Loc nD τ sig := (SparseCore.T d).loc main_v2

/-- The contents of the five arrays when the call is made: the index matrices, the widened tables, and whatever the
    result array holds. -/
structure Arrays (F : FTy → Type) where
  wi : (d : Dev nD) → Buf (Elt F) (widxLoc d)
  ei : (d : Dev nD) → Buf (Elt F) (eidxLoc d)
  wt : (d : Dev nD) → Buf (Elt F) (wtabLoc d)
  et : (d : Dev nD) → Buf (Elt F) (etabLoc d)
  o0 : (d : Dev nD) → Buf (Elt F) (outLoc d)

variable [FloatOps F] (X : Arrays F)

/-- What the call leaves in the result array: the flat sum of the two look-ups. -/
def OUT (d : Dev nD) : Buf (Elt F) (outLoc d) := Cert.EmbSpec.flatSum (F := F) (X.wi d) (X.ei d) (X.wt d) (X.et d)

/-- Every index names a row of its table. -/
def InRange : Prop := ∀ d, (∀ j, (X.wi d j : BitVec 32).toNat < 100000) ∧ (∀ j, (X.ei d j : BitVec 32).toNat < 1000000)

/-! ## Workers and their blocks of the result -/

theorem hdiv32 : 32 ∣ S819200x100.size 0 := ⟨25600, rfl⟩
/-- Worker n's rows of the flat result. -/
abbrev blk (n : Fin 32) : Rect S819200x100 := Rect.part (s := S819200x100) (a₀ := 0) hdiv32 n
abbrev blkSet (n : Fin 32) : Finset S819200x100.Idx := (blk n).set
/-- The worker number of subcore i of core c. -/
def wid (c : Fin 2) (i : Fin 16) : Fin 32 := ⟨2 * i.val + c.val, by have := c.isLt; have := i.isLt; omega⟩

/-- Read share n of a whole array. -/
abbrev tok (n : ℕ) : PosShare TreeShare := Transfers.shareTokN fullShare n

/-- The four inputs' read shares of worker n. -/
def inToks (d : Dev nD) (n : ℕ) : sProp 𝕄 :=
  iprop((widxLoc d ↦{tok n} X.wi d) ∗ (eidxLoc d ↦{tok n} X.ei d) ∗ (wtabLoc d ↦{tok n} X.wt d) ∗ (etabLoc d ↦{tok n} X.et d))

/-- What worker n is handed: its read shares and its block of the result as the call found it. -/
def goOf (d : Dev nD) (n : Fin 32) : sProp 𝕄 := iprop(inToks X d n.val ∗ outLoc d ↦[blkSet n]{fullShare} X.o0 d)
/-- What it hands back: the read shares and its block at the flat sum. -/
def tdOf (d : Dev nD) (n : Fin 32) : sProp 𝕄 := iprop(inToks X d n.val ∗ outLoc d ↦[blkSet n]{fullShare} OUT X d)

/-- The one call: core c takes its sixteen workers' shares and blocks, each worker its own, and back. -/
def P : (K (F := F)).Pay (nD := nD) (Val := Elt F) (Name := ℕ) (U := UU) where
  st := fun q d c => match q with
    | 0 => bigSep Finset.univ fun i : Fin 16 => goOf X d (wid (Fin.cast nCore_zero c) i)
  dn := fun q d c => match q with
    | 0 => bigSep Finset.univ fun i : Fin 16 => tdOf X d (wid (Fin.cast nCore_zero c) i)
  go := fun q d c i => match q with
    | 0 => goOf X d (wid (Fin.cast nCore_zero c) (Fin.cast nSub_zero i))
  td := fun q d c i => match q with
    | 0 => tdOf X d (wid (Fin.cast nCore_zero c) (Fin.cast nSub_zero i))
  x := fun _ _ => iprop(emp)

instance inToks_storable (d : Dev nD) (n : ℕ) : BI.Storable (upEmb : UEmb _ 𝕄) (inToks X d n) := by unfold inToks; infer_instance
instance goOf_storable (d : Dev nD) (n : Fin 32) : BI.Storable (upEmb : UEmb _ 𝕄) (goOf X d n) := by unfold goOf; infer_instance
instance tdOf_storable (d : Dev nD) (n : Fin 32) : BI.Storable (upEmb : UEmb _ 𝕄) (tdOf X d n) := by unfold tdOf; infer_instance

instance P_storable : (P (F := F) X).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands are its workers' and its results gather from theirs: the same sixteen-fold conjunction. -/
theorem vecSplit : (K (F := F)).VecSplit' (P X) 0 := by
  intro d c
  show (bigSep Finset.univ fun i : Fin 16 => goOf X d (wid (Fin.cast nCore_zero c) i)) ⊢ |={Set.univ}=> iprop(
      (bigSep Finset.univ fun i : Fin ((K (F := F)).nSub 0) => goOf X d (wid (Fin.cast nCore_zero c) (Fin.cast nSub_zero i)))
      ∗ ((bigSep Finset.univ fun i : Fin ((K (F := F)).nSub 0) => tdOf X d (wid (Fin.cast nCore_zero c) (Fin.cast nSub_zero i)))
          -∗ bigSep Finset.univ fun i : Fin 16 => tdOf X d (wid (Fin.cast nCore_zero c) i)))
  have e1 (Φ : Fin 16 → sProp 𝕄) : (bigSep Finset.univ fun i : Fin ((K (F := F)).nSub 0) => Φ (Fin.cast nSub_zero i)) = bigSep Finset.univ Φ :=
    bigSep_congr fun _ _ => congrArg Φ (Fin.ext rfl)
  rw [e1 (fun i => goOf X d (wid (Fin.cast nCore_zero c) i)), e1 (fun i => tdOf X d (wid (Fin.cast nCore_zero c) i))]
  iintro H; imodintro
  isplitl [H]; · iexact H
  iintro H; iexact H

end Cert.Proof.KK

end
-- ==== Proof.KK.Pad.lean ====
/-
  The two TensorCore pallas_calls that widen the tables from 100 to 128 columns, each as the pipeline library sees it:
  a grid of row blocks (20000 rows each), at every point the block of the narrow table fetched, the body run, the block
  of the wide table written back. The body loads the fetched block, loads the output buffer (and ignores it) and stores
  the block with 28 zero columns joined on the right over the whole output buffer. Stated at any contents the region
  may be entered with, and at any constant dues the TensorCore carries through the region.
-/
import proofs.«206319_g15771119910948_cont_week2b_672_19_alg».proof.Proof.KK.Pay
import proofs.«206319_g15771119910948_cont_week2b_672_19_alg».proof.Proof.Gen.Kernel.Launch
import proofs.«206319_g15771119910948_cont_week2b_672_19_alg».proof.Proof.Gen.Kernel.Skeleton
import proofs.«206319_g15771119910948_cont_week2b_672_19_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.KK

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What a widening region's invariant holds and never touches: the TensorCore's scoped buffers that are no staging buffer
    of the region, and the generator register. -/
def ΦP {gr : Nat} {W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

/-- The body's two accesses: the whole input buffer, the whole output buffer. -/
abbrev rIn : Rect S20000x100 := Rect.unit (s := S20000x100) ![0, 0] S20000x100.size inb_S20000x100_S20000x100_0_0
abbrev rOut : Rect S20000x128 := Rect.unit (s := S20000x128) ![0, 0] S20000x128.size inb_S20000x128_S20000x128_0_0

/-- The one store tiles the output buffer, so it covers it. -/
theorem coverOut (p0 : Vec F S20000x128 .f32) (y : S20000x128.Idx) :
    ∃ pc ∈ ([⟨rOut, p0⟩] : List (View.Piece (Elt F) S20000x128 .f32)), y ∈ pc.1.set :=
  View.cover_of_tiled [⟨rOut, p0⟩] S20000x128.size (by rfl) y

section Regions
variable (Vv : (c : Dev nD) → (b : Ref sig .tc) → Buf (Elt F) ((c : Thread nD τ).loc b))

/-! # The pallas_call that widens table 0 (pipeline 0), at the contents `Vv` its region is entered with -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vv c (Pipeline.arrRef spec0 w))

/-- The input window's current staging buffer holds its block at every point, for any proof data whose array is `Vv`'s and
    whose body leaves the block in place: the window is uncut, never idle and fetched at every point. -/
theorem before0_0_of {c : Dev nD} (dat : Dat τ (Elt F) (HIx 1) ℕ UU ℕ cfg0 c) (hA : dat.A 0 = Vv c (Pipeline.arrRef spec0 0))
    (hafter : ∀ t, dat.after 0 t = iblk0 Vv c 0 t) (t : Fin cfg0.N) (d) : dat.before 0 t d = iblk0 Vv c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output window's buffer, from the input block: its one store as a piece. -/
def out0_1 (x0 : Vec F S20000x100 .f32) : Vec F S20000x128 .f32 :=
  View.canon [⟨rOut, k0_pay1 (View.ld x0 rIn)⟩]

set_option maxHeartbeats 1000000 in
/-- The body on whole staging memrefs, the input's at read contents `x0` and the output's at anything, runs to the
    continuation holding the input's as it was and the output's at `out0_1 x0`: two loads and a store that covers the buffer. -/
theorem sound_kernel0 (c : Dev nD) (E : Set ℕ) (i : grid0.Coords) (arg1 : Memref sig .tc .vmem S20000x100 .f32) (harg1 : arg1.IsWhole) (arg2 : Memref sig .tc .vmem S20000x128 .f32) (harg2 : arg2.IsWhole)
    (x0 : Vec F S20000x100 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ Kk ⟨⟩))
      ⊢ wp frame (wpE (defs₀ (F := F)) Variants.none c none) E (cc0__pad_block i arg1 harg1 arg2 harg2) Kk := by
  simp only [cc0__pad_block_eq_skeleton]; unfold cc0__pad_block_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverOut _)

/-- The proof data of pipeline 0 on core `c`: the arrays as the region finds them; after the body at point `t` the input's
    buffer at its block and the output's at `out0_1` of it; the invariant the scoped rest and the generator register,
    untouched; the core owing `O` throughout, its recorded waits within `R`; full shares. -/
def dat0 (O : CellTallies nD τ sig (HIx 1)) (R : Set (SemLoc sig × HIx 1)) (c : Dev nD) : Dat τ (Elt F) (HIx 1) ℕ UU ℕ cfg0 c where
  A w := Vv c (Pipeline.arrRef spec0 w)
  after w t := match w with
    | ⟨0, _⟩ => iblk0 Vv c 0 t
    | ⟨1, _⟩ => out0_1 (iblk0 Vv c 0 t)
  Φ _ := ΦP spec0 c
  q _ := fullShare
  owed _ := O
  recorded _ := R

variable (O : CellTallies nD τ sig (HIx 1)) (R : Set (SemLoc sig × HIx 1))

theorem A_eq0 (c : Dev nD) (w : Fin cfg0.W) : (dat0 Vv O R c).A w = Vv c (Pipeline.arrRef spec0 w) := by
  dsimp only [dat0]
theorem after0_0 (c : Dev nD) (t : Fin cfg0.N) : (dat0 Vv O R c).after 0 t = iblk0 Vv c 0 t := by dsimp only [dat0]
theorem after0_1 (c : Dev nD) (t : Fin cfg0.N) : (dat0 Vv O R c).after 1 t = out0_1 (iblk0 Vv c 0 t) := by dsimp only [dat0]
theorem before0_0 (c : Dev nD) (t : Fin cfg0.N) (d) : (dat0 Vv O R c).before 0 t d = iblk0 Vv c 0 t :=
  before0_0_of Vv (dat0 Vv O R c) (A_eq0 Vv O R c 0) (after0_0 Vv O R c) t d

/-- What the body is called with at point `t`, the windows one by one, -/
def bodyPre0 (c : Dev nD) (t : Fin cfg0.N) : sProp 𝕄 :=
  iprop((dat0 Vv O R c).Φ t.castSucc ∗ (dat0 Vv O R c).owesAt none t.castSucc
    ∗ (∃ d, owns (c : Thread nD τ) (st0_0 t) fullShare ((dat0 Vv O R c).before 0 t d))
    ∗ (∃ d, owns (c : Thread nD τ) (st0_1 t) fullShare ((dat0 Vv O R c).before 1 t d)))

/-- and what it returns. -/
def bodyPost0 (c : Dev nD) (t : Fin cfg0.N) : sProp 𝕄 :=
  iprop((dat0 Vv O R c).Φ t.succ ∗ (dat0 Vv O R c).owesAt none t.succ
    ∗ owns (c : Thread nD τ) (st0_0 t) fullShare ((dat0 Vv O R c).after 0 t)
    ∗ owns (c : Thread nD τ) (st0_1 t) fullShare ((dat0 Vv O R c).after 1 t))

/-- The body at any point: the input's memref holds its block, so `sound_kernel0` applies; the invariant and the core's
    dues pass through unread. -/
theorem sound_body0 (c : Dev nD) (t : Fin cfg0.N) :
    bodyPre0 Vv O R c t ⊢ wp frame (wpE (defs₀ (F := F)) Variants.none c none) Set.univ (bodyAt0 t) (fun _ => bodyPost0 Vv O R c t) := by
  unfold bodyPre0 bodyPost0 bodyAt0
  simp only [before0_0]
  rw [show (dat0 Vv O R c).Φ t.succ = (dat0 Vv O R c).Φ t.castSucc from rfl,
    show (dat0 Vv O R c).owesAt none t.succ = (dat0 Vv O R c).owesAt none t.castSucc from rfl,
    after0_0, after0_1]
  iintro ⟨HΦ, Ho, ⟨%d0, H0⟩, ⟨%d1, H1⟩⟩
  iapply (sound_kernel0 c Set.univ (grid0.coords t) _ _ _ _ (iblk0 Vv c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) Vv O R c) (defs₀ (F := F)) Variants.none none Set.univ := fun t => by
  rw [bigSep_W0, bigSep_W0]
  exact sound_body0 Vv O R c t

end Regions

section Regions1
variable (Vv : (c : Dev nD) → (b : Ref sig .tc) → Buf (Elt F) ((c : Thread nD τ).loc b))

/-! # The pallas_call that widens table 1 (pipeline 1), at the contents `Vv` its region is entered with -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vv c (Pipeline.arrRef spec1 w))

/-- The input window's current staging buffer holds its block at every point, for any proof data whose array is `Vv`'s and
    whose body leaves the block in place: the window is uncut, never idle and fetched at every point. -/
theorem before1_0_of {c : Dev nD} (dat : Dat τ (Elt F) (HIx 1) ℕ UU ℕ cfg1 c) (hA : dat.A 0 = Vv c (Pipeline.arrRef spec1 0))
    (hafter : ∀ t, dat.after 0 t = iblk1 Vv c 0 t) (t : Fin cfg1.N) (d) : dat.before 0 t d = iblk1 Vv c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer, from the input block: its one store as a piece. -/
def out1_1 (x0 : Vec F S20000x100 .f32) : Vec F S20000x128 .f32 :=
  View.canon [⟨rOut, k1_pay1 (View.ld x0 rIn)⟩]

set_option maxHeartbeats 1000000 in
/-- The body on whole staging memrefs, the input's at read contents `x0` and the output's at anything, runs to the
    continuation holding the input's as it was and the output's at `out1_1 x0`: two loads and a store that covers the buffer. -/
theorem sound_kernel1 (c : Dev nD) (E : Set ℕ) (i : grid1.Coords) (arg1 : Memref sig .tc .vmem S20000x100 .f32) (harg1 : arg1.IsWhole) (arg2 : Memref sig .tc .vmem S20000x128 .f32) (harg2 : arg2.IsWhole)
    (x0 : Vec F S20000x100 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ Kk ⟨⟩))
      ⊢ wp frame (wpE (defs₀ (F := F)) Variants.none c none) E (cc1__pad_block i arg1 harg1 arg2 harg2) Kk := by
  simp only [cc1__pad_block_eq_skeleton]; unfold cc1__pad_block_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverOut _)

/-- The proof data of pipeline 1 on core `c`: the arrays as the region finds them; after the body at point `t` the input's
    buffer at its block and the output's at `out1_1` of it; the invariant the scoped rest and the generator register,
    untouched; the core owing `O` throughout, its recorded waits within `R`; full shares. -/
def dat1 (O : CellTallies nD τ sig (HIx 1)) (R : Set (SemLoc sig × HIx 1)) (c : Dev nD) : Dat τ (Elt F) (HIx 1) ℕ UU ℕ cfg1 c where
  A w := Vv c (Pipeline.arrRef spec1 w)
  after w t := match w with
    | ⟨0, _⟩ => iblk1 Vv c 0 t
    | ⟨1, _⟩ => out1_1 (iblk1 Vv c 0 t)
  Φ _ := ΦP spec1 c
  q _ := fullShare
  owed _ := O
  recorded _ := R

variable (O : CellTallies nD τ sig (HIx 1)) (R : Set (SemLoc sig × HIx 1))

theorem A_eq1 (c : Dev nD) (w : Fin cfg1.W) : (dat1 Vv O R c).A w = Vv c (Pipeline.arrRef spec1 w) := by
  dsimp only [dat1]
theorem after1_0 (c : Dev nD) (t : Fin cfg1.N) : (dat1 Vv O R c).after 0 t = iblk1 Vv c 0 t := by dsimp only [dat1]
theorem after1_1 (c : Dev nD) (t : Fin cfg1.N) : (dat1 Vv O R c).after 1 t = out1_1 (iblk1 Vv c 0 t) := by dsimp only [dat1]
theorem before1_0 (c : Dev nD) (t : Fin cfg1.N) (d) : (dat1 Vv O R c).before 0 t d = iblk1 Vv c 0 t :=
  before1_0_of Vv (dat1 Vv O R c) (A_eq1 Vv O R c 0) (after1_0 Vv O R c) t d

/-- What the body is called with at point `t`, the windows one by one, -/
def bodyPre1 (c : Dev nD) (t : Fin cfg1.N) : sProp 𝕄 :=
  iprop((dat1 Vv O R c).Φ t.castSucc ∗ (dat1 Vv O R c).owesAt none t.castSucc
    ∗ (∃ d, owns (c : Thread nD τ) (st1_0 t) fullShare ((dat1 Vv O R c).before 0 t d))
    ∗ (∃ d, owns (c : Thread nD τ) (st1_1 t) fullShare ((dat1 Vv O R c).before 1 t d)))

/-- and what it returns. -/
def bodyPost1 (c : Dev nD) (t : Fin cfg1.N) : sProp 𝕄 :=
  iprop((dat1 Vv O R c).Φ t.succ ∗ (dat1 Vv O R c).owesAt none t.succ
    ∗ owns (c : Thread nD τ) (st1_0 t) fullShare ((dat1 Vv O R c).after 0 t)
    ∗ owns (c : Thread nD τ) (st1_1 t) fullShare ((dat1 Vv O R c).after 1 t))

/-- The body at any point: the input's memref holds its block, so `sound_kernel1` applies; the invariant and the core's
    dues pass through unread. -/
theorem sound_body1 (c : Dev nD) (t : Fin cfg1.N) :
    bodyPre1 Vv O R c t ⊢ wp frame (wpE (defs₀ (F := F)) Variants.none c none) Set.univ (bodyAt1 t) (fun _ => bodyPost1 Vv O R c t) := by
  unfold bodyPre1 bodyPost1 bodyAt1
  simp only [before1_0]
  rw [show (dat1 Vv O R c).Φ t.succ = (dat1 Vv O R c).Φ t.castSucc from rfl,
    show (dat1 Vv O R c).owesAt none t.succ = (dat1 Vv O R c).owesAt none t.castSucc from rfl,
    after1_0, after1_1]
  iintro ⟨HΦ, Ho, ⟨%d0, H0⟩, ⟨%d1, H1⟩⟩
  iapply (sound_kernel1 c Set.univ (grid1.coords t) _ _ _ _ (iblk1 Vv c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) Vv O R c) (defs₀ (F := F)) Variants.none none Set.univ := fun t => by
  rw [bigSep_W1, bigSep_W1]
  exact sound_body1 Vv O R c t

end Regions1

end Cert.Proof.KK

end
-- ==== Proof.KK.PadValue.lean ====
/-
  What the two widening regions leave in the wide tables: the narrow table with 28 zero columns joined on the right of
  every row. A point's body stores its block of the narrow table with the zeros joined on; the blocks are the row blocks
  of 20000 rows, one per grid point, and together they cover the table.
-/
import proofs.«206319_g15771119910948_cont_week2b_672_19_alg».proof.Proof.KK.Pad
import proofs.«206319_g15771119910948_cont_week2b_672_19_alg».proof.Proof.EmbFlat
import Idealize.ShloMosaic.Lib.Pipeline.Value

set_option maxRecDepth 16384

noncomputable section

namespace Cert.Proof.KK

open Cert.Kernel Cert.Kernel.Gen

open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]

theorem hz2 : (![0, 0] : Fin 2 → Nat) = fun _ => 0 := funext fun a => by fin_cases a <;> rfl

/-- A block of 20000 rows with 28 zero columns joined on the right of every row. -/
def padBlock (x0 : Vec F S20000x100 .f32) : FVec F S20000x128 .f32 :=
  concatenate S20000x128 1 [⟨S20000x100, x0⟩, ⟨S20000x28, broadcast S20000x28 (Scalar.sitofp (F := F) .f32 0#32)⟩] concatenates_S20000x100_S20000x28_S20000x128_d1

/-- The widened block at an index: the block's entry in the first 100 columns, zero in the last 28. -/
theorem padBlock_apply (x0 : Vec F S20000x100 .f32) (j : S20000x128.Idx) :
    padBlock x0 j = if h : (j 1).val < 100 then x0 (ix2 (n0 := 20000) (n1 := 100) (j 0) ⟨(j 1).val, h⟩) else Scalar.sitofp .f32 0#32 := by
  unfold padBlock
  have hj1 : (j 1).val < 128 := (j 1).isLt
  by_cases h : (j 1).val < 100
  · rw [dif_pos h]
    exact concatenate_pair_apply_left (t := S20000x128) (s₁ := S20000x100) (s₂ := S20000x28) (1 : Fin 2) x0 (broadcast S20000x28 (Scalar.sitofp (F := F) .f32 0#32))
      concatenates_S20000x100_S20000x28_S20000x128_d1 j rfl (ix2 (n0 := 20000) (n1 := 100) (j 0) ⟨(j 1).val, h⟩) (fun b => by match b with | ⟨0, _⟩ => rfl | ⟨1, _⟩ => rfl)
  · rw [dif_neg h]
    exact concatenate_pair_apply_right (t := S20000x128) (s₁ := S20000x100) (s₂ := S20000x28) (1 : Fin 2) x0 (broadcast S20000x28 (Scalar.sitofp (F := F) .f32 0#32))
      concatenates_S20000x100_S20000x28_S20000x128_d1 j rfl rfl (ix2 (n0 := 20000) (n1 := 28) (j 0) ⟨(j 1).val - 100, by omega⟩)
      (fun b hb => by match b with | ⟨0, _⟩ => rfl | ⟨1, _⟩ => exact absurd rfl hb)
      (by show (j 1).val - 100 + 100 = (j 1).val; omega)

section V
variable (Vv : (c : Dev nD) → (b : Ref sig .tc) → Buf (Elt F) ((c : Thread nD τ).loc b))
variable (O : CellTallies nD τ sig (HIx 1)) (R : Set (SemLoc sig × HIx 1))

/-! ## Pipeline 0: the table of 100000 rows, 5 blocks -/

/-- The printed index maps, decided over the grid: the input block moves with the output block down the rows, both stay at
    column block 0, and the row block is the grid point. -/
theorem idx_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 4 :=
  (by decide +kernel : ∀ t : Fin grid0.N, _)

/-- Every row block is some point's. -/
theorem idx_onto0 : ∀ q0 : Fin 5, ∃ t : Fin cfg0.N, win0_1.index t = ![q0.val, 0] :=
  (by decide +kernel : ∀ q0 : Fin 5, ∃ t : Fin grid0.N, win0_1.index t = ![q0.val, 0])

/-- What point `t` writes back is block `t` of the widened table. -/
theorem flushed0_eq (c : Dev nD) (t : Fin cfg0.N) :
    (dat0 Vv O R c).flushed 1 t = ((cfg0.win 1).blk t).view.read (Elt F) (Cert.EmbSpec.padCols (N := 100000) (Vv c main_arg2)) := by
  show (cfg0.win 1).cut (grid0.coords t) ((dat0 Vv O R c).after 1 t) = _
  rw [after0_1]
  unfold out0_1
  rw [View.canon_unit_zero hz2]
  simp only [View.ld_unit_zero (S := S20000x100) hz2]
  obtain ⟨e0, e1, e2, e3⟩ := idx_facts0 t
  funext j
  show k0_pay1 (iblk0 Vv c 0 t) j = Cert.EmbSpec.padCols (N := 100000) (Vv c main_arg2) (((cfg0.win 1).blk t).view.emb j)
  rw [show k0_pay1 (iblk0 Vv c 0 t) = padBlock (iblk0 Vv c 0 t) from rfl, padBlock_apply]
  unfold Cert.EmbSpec.padCols
  have hj0 : (j 0).val < 20000 := (j 0).isLt
  have hj1 : (j 1).val < 128 := (j 1).isLt
  have hc : ((((cfg0.win 1).blk t).view.emb j) 1).val = (j 1).val := by
    show win0_1.index t (1 : Fin 2) * 128 + 1 * (j 1).val = (j 1).val; omega
  by_cases h : (j 1).val < 100
  · rw [dif_pos h, dif_pos (hc ▸ h)]
    show Vv c main_arg2 (((cfg0.win 0).blk t).view.emb (ix2 (n0 := 20000) (n1 := 100) (j 0) ⟨(j 1).val, h⟩)) = _
    refine congrArg (Vv c main_arg2) (funext fun a => Fin.ext ?_)
    match a with
    | ⟨0, _⟩ => show win0_0.index t (0 : Fin 2) * 20000 + 1 * (j 0).val = win0_1.index t (0 : Fin 2) * 20000 + 1 * (j 0).val; omega
    | ⟨1, _⟩ => show win0_0.index t (1 : Fin 2) * 100 + 1 * (j 1).val = win0_1.index t (1 : Fin 2) * 128 + 1 * (j 1).val; omega
  · rw [dif_neg h, dif_neg (hc ▸ h)]

/-- An index of the widened table is in point `t`'s block iff each coordinate is in the block's range on its axis. -/
theorem mem_blk0 (t : Fin cfg0.N) (i : S100000x128.Idx) :
    i ∈ ((cfg0.win 1).blk t).view.set ↔ ∀ a : Fin 2, win0_1.index t a * S20000x128.size a ≤ (i a).val ∧ (i a).val < win0_1.index t a * S20000x128.size a + S20000x128.size a := by
  show i ∈ ((View.whole main_v0).slice (win0_1.rect t)).set ↔ _
  rw [View.set_slice_whole, Rect.mem_set_unit]
  exact Iff.rfl

/-- Every index of the widened table is in some point's block: the point of its row block. -/
theorem covered0 (i : S100000x128.Idx) : ∃ t : Fin cfg0.N, (cfg0.win 1).flush t = true ∧ i ∈ ((cfg0.win 1).blk t).view.set := by
  have hi0 : (i 0).val < 100000 := (i 0).isLt
  have hi1 : (i 1).val < 128 := (i 1).isLt
  obtain ⟨t, ht⟩ := idx_onto0 ⟨(i 0).val / 20000, by omega⟩
  have q0 : win0_1.index t (0 : Fin 2) = (i 0).val / 20000 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 20000 ≤ (i 0).val ∧ (i 0).val < win0_1.index t (0 : Fin 2) * 20000 + 20000; omega
  | ⟨1, _⟩ => show win0_1.index t (1 : Fin 2) * 128 ≤ (i 1).val ∧ (i 1).val < win0_1.index t (1 : Fin 2) * 128 + 128; omega

/-- The wide table after the region: the narrow table widened by zero columns. -/
theorem final0 (c : Dev nD) : (dat0 Vv O R c).arrAt 1 cfg0.N = Cert.EmbSpec.padCols (N := 100000) (Vv c main_arg2) := by
  funext i
  rw [(dat0 Vv O R c).arrAt_eq_piecewise 1 _ (fun t _ => flushed0_eq Vv O R c t) i]
  exact if_pos (covered0 i)

/-! ## Pipeline 1: the table of 1000000 rows, 50 blocks -/

/-- The printed index maps, decided over the grid: the input block moves with the output block down the rows, both stay at
    column block 0, and the row block is the grid point. -/
theorem idx_facts1 : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) ≤ 49 :=
  (by decide +kernel : ∀ t : Fin grid1.N, _)

/-- Every row block is some point's. -/
theorem idx_onto1 : ∀ q0 : Fin 50, ∃ t : Fin cfg1.N, win1_1.index t = ![q0.val, 0] :=
  (by decide +kernel : ∀ q0 : Fin 50, ∃ t : Fin grid1.N, win1_1.index t = ![q0.val, 0])

/-- What point `t` writes back is block `t` of the widened table. -/
theorem flushed1_eq (c : Dev nD) (t : Fin cfg1.N) :
    (dat1 Vv O R c).flushed 1 t = ((cfg1.win 1).blk t).view.read (Elt F) (Cert.EmbSpec.padCols (N := 1000000) (Vv c main_arg3)) := by
  show (cfg1.win 1).cut (grid1.coords t) ((dat1 Vv O R c).after 1 t) = _
  rw [after1_1]
  unfold out1_1
  rw [View.canon_unit_zero hz2]
  simp only [View.ld_unit_zero (S := S20000x100) hz2]
  obtain ⟨e0, e1, e2, e3⟩ := idx_facts1 t
  funext j
  show k1_pay1 (iblk1 Vv c 0 t) j = Cert.EmbSpec.padCols (N := 1000000) (Vv c main_arg3) (((cfg1.win 1).blk t).view.emb j)
  rw [show k1_pay1 (iblk1 Vv c 0 t) = padBlock (iblk1 Vv c 0 t) from rfl, padBlock_apply]
  unfold Cert.EmbSpec.padCols
  have hj0 : (j 0).val < 20000 := (j 0).isLt
  have hj1 : (j 1).val < 128 := (j 1).isLt
  have hc : ((((cfg1.win 1).blk t).view.emb j) 1).val = (j 1).val := by
    show win1_1.index t (1 : Fin 2) * 128 + 1 * (j 1).val = (j 1).val; omega
  by_cases h : (j 1).val < 100
  · rw [dif_pos h, dif_pos (hc ▸ h)]
    show Vv c main_arg3 (((cfg1.win 0).blk t).view.emb (ix2 (n0 := 20000) (n1 := 100) (j 0) ⟨(j 1).val, h⟩)) = _
    refine congrArg (Vv c main_arg3) (funext fun a => Fin.ext ?_)
    match a with
    | ⟨0, _⟩ => show win1_0.index t (0 : Fin 2) * 20000 + 1 * (j 0).val = win1_1.index t (0 : Fin 2) * 20000 + 1 * (j 0).val; omega
    | ⟨1, _⟩ => show win1_0.index t (1 : Fin 2) * 100 + 1 * (j 1).val = win1_1.index t (1 : Fin 2) * 128 + 1 * (j 1).val; omega
  · rw [dif_neg h, dif_neg (hc ▸ h)]

/-- An index of the widened table is in point `t`'s block iff each coordinate is in the block's range on its axis. -/
theorem mem_blk1 (t : Fin cfg1.N) (i : S1000000x128.Idx) :
    i ∈ ((cfg1.win 1).blk t).view.set ↔ ∀ a : Fin 2, win1_1.index t a * S20000x128.size a ≤ (i a).val ∧ (i a).val < win1_1.index t a * S20000x128.size a + S20000x128.size a := by
  show i ∈ ((View.whole main_v1).slice (win1_1.rect t)).set ↔ _
  rw [View.set_slice_whole, Rect.mem_set_unit]
  exact Iff.rfl

/-- Every index of the widened table is in some point's block: the point of its row block. -/
theorem covered1 (i : S1000000x128.Idx) : ∃ t : Fin cfg1.N, (cfg1.win 1).flush t = true ∧ i ∈ ((cfg1.win 1).blk t).view.set := by
  have hi0 : (i 0).val < 1000000 := (i 0).isLt
  have hi1 : (i 1).val < 128 := (i 1).isLt
  obtain ⟨t, ht⟩ := idx_onto1 ⟨(i 0).val / 20000, by omega⟩
  have q0 : win1_1.index t (0 : Fin 2) = (i 0).val / 20000 := congrFun ht 0
  have q1 : win1_1.index t (1 : Fin 2) = 0 := congrFun ht 1
  refine ⟨t, flush1_1 t, ?_⟩
  rw [mem_blk1]
  intro a
  match a with
  | ⟨0, _⟩ => show win1_1.index t (0 : Fin 2) * 20000 ≤ (i 0).val ∧ (i 0).val < win1_1.index t (0 : Fin 2) * 20000 + 20000; omega
  | ⟨1, _⟩ => show win1_1.index t (1 : Fin 2) * 128 ≤ (i 1).val ∧ (i 1).val < win1_1.index t (1 : Fin 2) * 128 + 128; omega

/-- The wide table after the region: the narrow table widened by zero columns. -/
theorem final1 (c : Dev nD) : (dat1 Vv O R c).arrAt 1 cfg1.N = Cert.EmbSpec.padCols (N := 1000000) (Vv c main_arg3) := by
  funext i
  rw [(dat1 Vv O R c).arrAt_eq_piecewise 1 _ (fun t _ => flushed1_eq Vv O R c t) i]
  exact if_pos (covered1 i)

end V

end Cert.Proof.KK

end
-- ==== Proof.KK.LaunchGhost.lean ====
/-
  What the launch deals before any thread moves: the seven decided facts about the launch semaphores, the element of the
  resource algebra the run starts from — the handshakes' rounds, the two TensorCore pipelines' staging rounds, no
  counter — and how that element pays for the handshake cells and for each device's staging cells and duty tokens.
-/
import proofs.«206319_g15771119910948_cont_week2b_672_19_alg».proof.Proof.KK.Pay
import proofs.«206319_g15771119910948_cont_week2b_672_19_alg».proof.Proof.Gen.Kernel.Launch
import Idealize.ShloMosaic.Lib.SparseCore.Launch
import Idealize.ShloMosaic.Lib.Pipeline.Kit
import Idealize.ShloMosaic.Lib.Pipeline.Regions

noncomputable section

namespace Cert.Proof.KK

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

instance ER_landsIn : (ER : Emb UR 𝕄).LandsIn (upEmb : UEmb _ 𝕄) := by unfold ER; infer_instance

/-- The launch element: the handshakes' rounds, the staging cells' rounds, the unit counter. -/
def u₀ : UU := (initOf (K (F := F)).hsCells (K (F := F)).hsToks, (initOf (Pipeline.cells cfgs cellOf_inj) (Pipeline.launchToks cfgs cellOf_inj), 1))

/-- What @main's proof on device d starts from beyond its arrays: both pipelines' staging cells' launch state and duty tokens. -/
def G₀ (d : Dev nD) : sProp 𝕄 :=
  iprop((bigSep Finset.univ fun p : Fin 2 => Pipeline.cellsGhost cfgs (ER (F := F)) p d) ∗ (bigSep Finset.univ fun p : Fin 2 => Pipeline.toksInit cfgs (ER (F := F)) p d))

/-- The staging rounds beside the unit counter, owned through the right factor, are the staging rounds owned through their own embedding. -/
theorem own_ER (b : UR) : (BI.own ((embR : Emb (UR × Counters) 𝕄) (b, 1)) : sProp 𝕄) = BI.own ((ER : Emb UR 𝕄) b) := rfl

theorem bigSep_emp' {I : Type} (s : Finset I) : (bigSep s fun _ => iprop(emp)) = (iprop(emp) : sProp 𝕄) := bigSep_emp_const s

variable [FloatOps F] (X : Arrays F)

theorem hu₀ : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => (P X).x q thr) := by
  unfold u₀
  iintro Hu
  ihave H := (ownU_pair _ _) $$ Hu
  icases H with ⟨HH, HR⟩
  ihave HR' := (Entails.of_eq (own_ER (F := F) _)) $$ HR
  imod (Pipeline.fund_ghost cfgs (ER (F := F)) cellOf_inj) $$ HR' with ⟨Hg, Ht⟩
  imodintro
  isplitl [HH]; · iexact HH
  isplitl [Hg Ht]
  · unfold G₀; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KK

end
-- ==== Proof.KK.LaunchRegions.lean ====
/-
  The two widening regions as segments of @main on the TensorCore: the contents of the TensorCore's unscoped buffers at the
  three boundaries (the launch; after table 0 is widened; after table 1 is widened), each region's proof data at its entry
  contents, and the region records the pipeline library's region rule takes. The TensorCore owes its start signals to the
  SparseCores all through both regions; the regions' own waits sit at the kernels' index, below every such due.
-/
import proofs.«206319_g15771119910948_cont_week2b_672_19_alg».proof.Proof.KK.PadValue
import proofs.«206319_g15771119910948_cont_week2b_672_19_alg».proof.Proof.KK.LaunchGhost
import Idealize.ShloMosaic.Lib.Pipeline.RegionsLoop
import Idealize.ShloMosaic.Lib.Pipeline.FrameSuffix

noncomputable section

namespace Cert.Proof.KK

open Cert.Kernel Cert.Kernel.Gen

open Idealize.ShloMosaic Idealize.ShloMosaic.TcCoe
open Idealize.ShloMosaic.Pipeline (Dat)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

local notation "𝕄" => MT nD τ sig (HIx 1) (Elt F) ℕ UU ℕ

/-- What the TensorCore of `c` owes all through the regions: the start signals of the SparseCore call to come. -/
abbrev Ow (c : Dev nD) : CellTallies nD τ sig (HIx 1) := (K (F := F)).Otc c 0
/-- The recorded waits' bound: every one at the kernels' own index. -/
abbrev Rw : Set (SemLoc sig × HIx 1) := {p | p.2 = none}

/-- Nothing is owed at the kernels' own index: every due of the launch protocol sits at a call's. -/
theorem Otc_none (c : Dev nD) (g : GSem nD τ sig) : (K (F := F)).Otc c 0 g none = 0 := by
  by_contra h
  have h1 := SparseCore.Cfg.lev_of_Otc_pos (K := K (F := F)) (d := c) (n := 0) (g := g) (ι := none) (Nat.pos_of_ne_zero h)
  rw [SparseCore.Cfg.lev_none] at h1
  omega

variable (m : (ℓ : Loc nD τ sig) → Buf (Elt F) ℓ)

/-! ## The buffers' contents at the three boundaries -/

/-- At the launch. -/
abbrev W0 : Dev nD → Valuation τ sig (Elt F) := fun c b => m (c, b)
abbrev V0 : (c : Dev nD) → (b : Ref sig .tc) → Buf (Elt F) ((c : Thread nD τ).loc b) := fun c b => W0 m c b
/-- After the region that widens table 0: its arrays at what the write-backs leave, the rest as entered. -/
def W1 (c : Dev nD) : Valuation τ sig (Elt F) :=
  Pipeline.withArrays spec0 c (W0 m c) fun w => (dat0 (V0 m) (Ow (F := F) c) Rw c).arrAt w cfg0.N
theorem W1_arr (c : Dev nD) (w : Fin cfg0.W) :
    W1 m c (Proc.devRef .tc (Pipeline.arrRef spec0 w)) = (dat0 (V0 m) (Ow (F := F) c) Rw c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) (Ow (F := F) c) Rw c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the region that widens table 1. -/
def W2 (c : Dev nD) : Valuation τ sig (Elt F) :=
  Pipeline.withArrays spec1 c (W1 m c) fun w => (dat1 (V1 m) (Ow (F := F) c) Rw c).arrAt w cfg1.N
theorem W2_arr (c : Dev nD) (w : Fin cfg1.W) :
    W2 m c (Proc.devRef .tc (Pipeline.arrRef spec1 w)) = (dat1 (V1 m) (Ow (F := F) c) Rw c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) (Ow (F := F) c) Rw c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## What the last boundary holds: the arguments and the result arrays as launched, the tables widened -/

theorem V1_arg3 (c : Dev nD) : V1 m c main_arg3 = m ((c : Thread nD τ).loc main_arg3) := W1_of_ne m c main_arg3 (by decide)
theorem V2_arg0 (c : Dev nD) : V2 m c main_arg0 = m ((c : Thread nD τ).loc main_arg0) :=
  (W2_of_ne m c main_arg0 (by decide)).trans (W1_of_ne m c main_arg0 (by decide))
theorem V2_arg1 (c : Dev nD) : V2 m c main_arg1 = m ((c : Thread nD τ).loc main_arg1) :=
  (W2_of_ne m c main_arg1 (by decide)).trans (W1_of_ne m c main_arg1 (by decide))
theorem V2_arg2 (c : Dev nD) : V2 m c main_arg2 = m ((c : Thread nD τ).loc main_arg2) :=
  (W2_of_ne m c main_arg2 (by decide)).trans ((W1_arr m c 0).trans (((dat0 (V0 m) (Ow (F := F) c) Rw c).arrAt_in 0 rfl _).trans (A_eq0 (V0 m) (Ow c) Rw c 0)))
theorem V2_arg3 (c : Dev nD) : V2 m c main_arg3 = m ((c : Thread nD τ).loc main_arg3) :=
  (W2_arr m c 0).trans ((((dat1 (V1 m) (Ow (F := F) c) Rw c).arrAt_in 0 rfl _).trans (A_eq1 (V1 m) (Ow c) Rw c 0)).trans (V1_arg3 m c))
theorem V2_v0 (c : Dev nD) : V2 m c main_v0 = Cert.EmbSpec.padCols (N := 100000) (m ((c : Thread nD τ).loc main_arg2)) :=
  (W2_of_ne m c main_v0 (by decide)).trans ((W1_arr m c 1).trans (final0 (V0 m) (Ow c) Rw c))
theorem V2_v1 (c : Dev nD) : V2 m c main_v1 = Cert.EmbSpec.padCols (N := 1000000) (m ((c : Thread nD τ).loc main_arg3)) :=
  (W2_arr m c 1).trans ((final1 (V1 m) (Ow c) Rw c).trans (congrArg _ (V1_arg3 m c)))
theorem V2_v2 (c : Dev nD) : V2 m c main_v2 = m ((c : Thread nD τ).loc main_v2) :=
  (W2_of_ne m c main_v2 (by decide)).trans (W1_of_ne m c main_v2 (by decide))
theorem V2_v3 (c : Dev nD) : V2 m c main_v3 = m ((c : Thread nD τ).loc main_v3) :=
  (W2_of_ne m c main_v3 (by decide)).trans (W1_of_ne m c main_v3 (by decide))

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) (HIx 1) ℕ UU ℕ (Pipeline.pin (pcfgs (F := F)) adm p) c
  | ⟨0, _⟩ => fun c => dat0 (V0 m) (Ow (F := F) c) Rw c
  | ⟨1, _⟩ => fun c => dat1 (V1 m) (Ow (F := F) c) Rw c
/-- What rides beside the buffers through both regions: the generator register at some state and the TensorCore's dues. -/
abbrev Rr (c : Dev nD) : sProp 𝕄 := iprop((∃ r, prngReg c r) ∗ Pipeline.owesWithin c (Ow (F := F) c) Rw)

set_option backward.isDefEq.respectTransparency.types false in
/-- The region that widens table 0, over the thread state "every unscoped buffer at the boundary's contents, the generator
    register at some state, the TensorCore owing its start signals with every recorded wait at the kernels' own index":
    its arrays split out of the unscoped buffers and put back at what the write-backs leave; the register into the
    invariant and out; the dues carried through unread; no semaphore of the kernel's own. -/
def reg0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V0 m) (Ow c) Rw c).loose
  hwaits c := Pipeline.cellsWaits_intro (Pipeline.pin (pcfgs (F := F)) adm) (pdats m) none 0 c fun w s t =>
    (K (F := F)).mayWait_none (thr := (c : Thread nD τ)) (.dma (((Pipeline.pin (pcfgs (F := F)) adm 0).win w).sem s)) (Otc_none c)
  pre c := iprop(unscopedBufs c (V0 m c) ∗ Rr c)
  post c := iprop(unscopedBufs c (V1 m c) ∗ Rr c)
  X c := iprop(∃ r, prngReg c r)
  Y c := iprop(∃ r, prngReg c r)
  Z c := Pipeline.unscopedRest (Ix := HIx 1) (Name := ℕ) (U := UU) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats m 0 c).Φ 0 = ΦP spec0 c from rfl]; unfold ΦP
    iintro ⟨Hp, -, Hr⟩
    isplitl [Hr]; · iexact Hr
    iexact Hp
  hout c := by
    rw [Pipeline.ownSems0_none, show (pdats m 0 c).Φ (Fin.last _) = ΦP spec0 c from rfl]; unfold ΦP
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V0 m c) (V1 m c) ((pdats m 0 c).arrAt · cfg0.N) (hF0 m c) (hrest0 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun p hp => (hW hp).elim id (fun ⟨_, _, e⟩ => e ▸ rfl)
    iexact HO

set_option backward.isDefEq.respectTransparency.types false in
/-- The region that widens table 1, over the thread state "every unscoped buffer at the boundary's contents, the generator
    register at some state, the TensorCore owing its start signals with every recorded wait at the kernels' own index":
    its arrays split out of the unscoped buffers and put back at what the write-backs leave; the register into the
    invariant and out; the dues carried through unread; no semaphore of the kernel's own. -/
def reg1 : Pipeline.RegionSeg (pcfgs (F := F)) adm (pdats m) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation1 (V1 m) (Ow c) Rw c).loose
  hwaits c := Pipeline.cellsWaits_intro (Pipeline.pin (pcfgs (F := F)) adm) (pdats m) none 1 c fun w s t =>
    (K (F := F)).mayWait_none (thr := (c : Thread nD τ)) (.dma (((Pipeline.pin (pcfgs (F := F)) adm 1).win w).sem s)) (Otc_none c)
  pre c := iprop(unscopedBufs c (V1 m c) ∗ Rr c)
  post c := iprop(unscopedBufs c (V2 m c) ∗ Rr c)
  X c := iprop(∃ r, prngReg c r)
  Y c := iprop(∃ r, prngReg c r)
  Z c := Pipeline.unscopedRest (Ix := HIx 1) (Name := ℕ) (U := UU) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats m 1 c).Φ 0 = ΦP spec1 c from rfl]; unfold ΦP
    iintro ⟨Hp, -, Hr⟩
    isplitl [Hr]; · iexact Hr
    iexact Hp
  hout c := by
    rw [Pipeline.ownSems0_none, show (pdats m 1 c).Φ (Fin.last _) = ΦP spec1 c from rfl]; unfold ΦP
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats m) ((pdats m 1 c).share_full fun _ => rfl)
      (V1 m c) (V2 m c) ((pdats m 1 c).arrAt · cfg1.N) (hF1 m c) (hrest1 m c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun p hp => (hW hp).elim id (fun ⟨_, _, e⟩ => e ▸ rfl)
    iexact HO

end Cert.Proof.KK

end
-- ==== Proof.KK.Split.lean ====
/-
  Around the one SparseCore call: how the five arrays the TensorCore holds whole become the two SparseCores'
  operands, and how their results become the five arrays whole again.
  Each of the four inputs is read by all thirty-two workers, so it goes out as thirty-two read shares and the
  TensorCore keeps what is left of it; the shares come back unchanged and rejoin the remainder. The result array
  is cut into the workers' thirty-two blocks of rows, which are pairwise disjoint and cover it; every block is held
  at the one whole-array function (what the call found, then the flat sum), so the blocks join back to the whole
  array at that function. Worker n is subcore i of core c for n = 2·i + c, a bijection between the pairs (c, i)
  and the numbers below 32, so a conjunction over workers is the conjunction over cores of the conjunction over
  subcores.
-/
import proofs.«206319_g15771119910948_cont_week2b_672_19_alg».proof.Proof.KK.Pay
import proofs.«206319_g15771119910948_cont_week2b_672_19_alg».proof.Proof.LibCoreSubcoreSplit

noncomputable section

namespace Cert.Proof.KK

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Workers by number, and by core and subcore -/

/-- A conjunction over the numbers below 32 is the conjunction over the thirty-two workers. -/
theorem bigSep_range32 (Φ : Fin 32 → sProp 𝕄) (Ψ : ℕ → sProp 𝕄) (h : ∀ n : Fin 32, Ψ n.val = Φ n) :
    bigSep (Finset.range 32) Ψ = bigSep Finset.univ Φ := by
  rw [← Nat.Iio_eq_range, ← Fin.map_valEmbedding_univ, BI.bigSep_map]
  exact bigSep_congr fun n _ => h n

/-- Over the cores and, within each, the subcores, every worker is met once: worker 2·i + c at (c, i). -/
theorem bigSep_workers (Φ : Fin 32 → sProp 𝕄) :
    (bigSep Finset.univ fun c : Fin 2 => bigSep Finset.univ fun i : Fin 16 => Φ (wid c i)) = bigSep Finset.univ Φ := by
  have hΨ : ∀ n : Fin 32, (fun n : ℕ => if h : n < 32 then Φ ⟨n, h⟩ else (iprop(emp) : sProp 𝕄)) n.val = Φ n :=
    fun n => dif_pos n.isLt
  rw [← bigSep_range32 Φ (fun n : ℕ => if h : n < 32 then Φ ⟨n, h⟩ else (iprop(emp) : sProp 𝕄)) hΨ,
    ← Cert.LibCoreSubcoreSplit.bigSep_pairs]
  exact bigSep_congr fun c _ => bigSep_congr fun i _ => (hΨ (wid c i)).symm

/-- The launch theorem counts the cores by the configuration's own number of them, which is two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The two SparseCores' operands are the thirty-two workers'. -/
theorem st0_workers (X : Arrays F) (d : Dev nD) :
    (bigSep Finset.univ fun c : Fin ((K (F := F)).nCore 0) => (P X).st 0 d c) = bigSep Finset.univ fun n : Fin 32 => goOf X d n :=
  (show (bigSep Finset.univ fun c : Fin ((K (F := F)).nCore 0) => (P X).st 0 d c)
      = bigSep Finset.univ fun c : Fin ((K (F := F)).nCore 0) =>
          (fun c' : Fin 2 => bigSep Finset.univ fun i : Fin 16 => goOf X d (wid c' i)) (Fin.cast nCore_zero c) from rfl).trans
    ((bigSep_cores fun c' : Fin 2 => bigSep Finset.univ fun i : Fin 16 => goOf X d (wid c' i)).trans (bigSep_workers fun n => goOf X d n))

/-- The two SparseCores' results are the thirty-two workers'. -/
theorem dn0_workers (X : Arrays F) (d : Dev nD) :
    (bigSep Finset.univ fun c : Fin ((K (F := F)).nCore 0) => (P X).dn 0 d c) = bigSep Finset.univ fun n : Fin 32 => tdOf X d n :=
  (show (bigSep Finset.univ fun c : Fin ((K (F := F)).nCore 0) => (P X).dn 0 d c)
      = bigSep Finset.univ fun c : Fin ((K (F := F)).nCore 0) =>
          (fun c' : Fin 2 => bigSep Finset.univ fun i : Fin 16 => tdOf X d (wid c' i)) (Fin.cast nCore_zero c) from rfl).trans
    ((bigSep_cores fun c' : Fin 2 => bigSep Finset.univ fun i : Fin 16 => tdOf X d (wid c' i)).trans (bigSep_workers fun n => tdOf X d n))

/-! ## The result array in the workers' blocks -/

theorem blk_disjoint : ∀ i ∈ (Finset.univ : Finset (Fin 32)), ∀ j ∈ (Finset.univ : Finset (Fin 32)), i ≠ j → Disjoint (blkSet i) (blkSet j) :=
  fun _ _ _ _ h => Rect.part_disjoint hdiv32 h

theorem blk_cover : (Finset.univ : Finset (Fin 32)).biUnion blkSet = Finset.univ := Rect.biUnion_part hdiv32

/-- The whole result array at one function is its thirty-two blocks at that function. -/
theorem out_blocks (d : Dev nD) (g : Buf (Elt F) (outLoc d)) :
    (outLoc d ↦{fullShare} g : sProp 𝕄) = bigSep Finset.univ fun n : Fin 32 => outLoc d ↦[blkSet n]{fullShare} g := by
  rw [← pointsTo_biUnion Finset.univ (ℓ := outLoc d) blkSet blk_disjoint, blk_cover]; try rfl

/-! ## An input in thirty-two read shares and a remainder -/

/-- A whole array is what is left after thirty-two read shares, and the thirty-two shares. -/
theorem toks32 {ℓ : Loc nD τ sig} (f : Buf (Elt F) ℓ) :
    (ℓ ↦{fullShare} f : sProp 𝕄)
      = iprop((ℓ ↦{Transfers.shareDrop fullShare 32} f) ∗ bigSep Finset.univ fun n : Fin 32 => ℓ ↦{tok n.val} f) :=
  BI.equiv_iff.mp ⟨(Transfers.pointsTo_toks fullShare 32).1, (Transfers.pointsTo_toks fullShare 32).2⟩

/-- What the TensorCore keeps of the four inputs while the call runs: what is left of each after thirty-two read shares. -/
def REM (X : Arrays F) (d : Dev nD) : sProp 𝕄 :=
  iprop((widxLoc d ↦{Transfers.shareDrop fullShare 32} X.wi d) ∗ (eidxLoc d ↦{Transfers.shareDrop fullShare 32} X.ei d)
    ∗ (wtabLoc d ↦{Transfers.shareDrop fullShare 32} X.wt d) ∗ (etabLoc d ↦{Transfers.shareDrop fullShare 32} X.et d))

/-- The workers' read shares with their blocks all at one function: the four inputs' shares, and the result array whole. -/
theorem workers_eq (X : Arrays F) (d : Dev nD) (g : Buf (Elt F) (outLoc d)) :
    (bigSep Finset.univ fun n : Fin 32 => iprop(inToks X d n.val ∗ outLoc d ↦[blkSet n]{fullShare} g))
      = iprop(((bigSep Finset.univ fun n : Fin 32 => widxLoc d ↦{tok n.val} X.wi d)
          ∗ (bigSep Finset.univ fun n : Fin 32 => eidxLoc d ↦{tok n.val} X.ei d)
          ∗ (bigSep Finset.univ fun n : Fin 32 => wtabLoc d ↦{tok n.val} X.wt d)
          ∗ (bigSep Finset.univ fun n : Fin 32 => etabLoc d ↦{tok n.val} X.et d))
          ∗ (outLoc d ↦{fullShare} g)) := by
  unfold inToks
  rw [bigSep_sep', bigSep_sep', bigSep_sep', bigSep_sep', ← out_blocks]

/-- Regrouping nine conjuncts: four (remainder, shares) pairs and the result, as the shares with the result, and the remainders. -/
theorem regroup (a₁ a₂ b₁ b₂ c₁ c₂ e₁ e₂ o : sProp 𝕄) :
    iprop((a₁ ∗ a₂) ∗ (b₁ ∗ b₂) ∗ (c₁ ∗ c₂) ∗ (e₁ ∗ e₂) ∗ o) ⊢ iprop(((a₂ ∗ b₂ ∗ c₂ ∗ e₂) ∗ o) ∗ (a₁ ∗ b₁ ∗ c₁ ∗ e₁)) := by
  iintro ⟨⟨A₁, A₂⟩, ⟨B₁, B₂⟩, ⟨C₁, C₂⟩, ⟨E₁, E₂⟩, O⟩
  isplitr [A₁ B₁ C₁ E₁]
  · isplitr [O]
    · isplitl [A₂]; · iexact A₂
      isplitl [B₂]; · iexact B₂
      isplitl [C₂]; · iexact C₂
      iexact E₂
    · iexact O
  · isplitl [A₁]; · iexact A₁
    isplitl [B₁]; · iexact B₁
    isplitl [C₁]; · iexact C₁
    iexact E₁

/-- And back. -/
theorem regroup' (a₁ a₂ b₁ b₂ c₁ c₂ e₁ e₂ o : sProp 𝕄) :
    iprop(((a₂ ∗ b₂ ∗ c₂ ∗ e₂) ∗ o) ∗ (a₁ ∗ b₁ ∗ c₁ ∗ e₁)) ⊢ iprop((a₁ ∗ a₂) ∗ (b₁ ∗ b₂) ∗ (c₁ ∗ c₂) ∗ (e₁ ∗ e₂) ∗ o) := by
  iintro ⟨⟨⟨A₂, B₂, C₂, E₂⟩, O⟩, A₁, B₁, C₁, E₁⟩
  isplitl [A₁ A₂]; · isplitl [A₁]; · iexact A₁
                     iexact A₂
  isplitl [B₁ B₂]; · isplitl [B₁]; · iexact B₁
                     iexact B₂
  isplitl [C₁ C₂]; · isplitl [C₁]; · iexact C₁
                     iexact C₂
  isplitl [E₁ E₂]; · isplitl [E₁]; · iexact E₁
                     iexact E₂
  iexact O

/-! ## Into the call and out of it -/

/-- The five arrays held whole are the two SparseCores' operands and what the TensorCore keeps. -/
theorem st0_split (X : Arrays F) (d : Dev nD) :
    iprop((widxLoc d ↦{fullShare} X.wi d) ∗ (eidxLoc d ↦{fullShare} X.ei d) ∗ (wtabLoc d ↦{fullShare} X.wt d) ∗ (etabLoc d ↦{fullShare} X.et d) ∗ (outLoc d ↦{fullShare} X.o0 d))
      ⊢ iprop((bigSep Finset.univ fun c : Fin ((K (F := F)).nCore 0) => (P X).st 0 d c) ∗ REM X d) := by
  rw [st0_workers]
  unfold goOf REM
  rw [workers_eq, toks32 (X.wi d), toks32 (X.ei d), toks32 (X.wt d), toks32 (X.et d)]
  exact regroup _ _ _ _ _ _ _ _ _

/-- The two SparseCores' results and what the TensorCore kept are the five arrays whole, the result at the flat sum. -/
theorem dn0_join (X : Arrays F) (d : Dev nD) :
    iprop((bigSep Finset.univ fun c : Fin ((K (F := F)).nCore 0) => (P X).dn 0 d c) ∗ REM X d)
      ⊢ iprop((widxLoc d ↦{fullShare} X.wi d) ∗ (eidxLoc d ↦{fullShare} X.ei d) ∗ (wtabLoc d ↦{fullShare} X.wt d) ∗ (etabLoc d ↦{fullShare} X.et d) ∗ (outLoc d ↦{fullShare} OUT X d)) := by
  rw [dn0_workers]
  unfold tdOf REM
  rw [workers_eq, toks32 (X.wi d), toks32 (X.ei d), toks32 (X.wt d), toks32 (X.et d)]
  exact regroup' _ _ _ _ _ _ _ _ _

end Cert.Proof.KK

end
-- ==== Proof.KK.LaunchMain.lean ====
/-
  @main on the TensorCore, and the run of the whole program. @main widens the two tables (two pallas_calls on the
  TensorCore), makes the one SparseCore call, and reshapes the flat result; the thirty-five threads' run then follows
  from the vector subcores' task by the SparseCore launch theorem. The final memory holds the reshaped flat sum of the two
  look-ups over the widened tables, and the four arguments as launched.
-/
import proofs.«206319_g15771119910948_cont_week2b_672_19_alg».proof.Proof.KK.LaunchRegions
import proofs.«206319_g15771119910948_cont_week2b_672_19_alg».proof.Proof.KK.Split
import Idealize.ShloMosaic.Lib.StableHlo.Run

noncomputable section

namespace Cert.Proof.KK

open Cert.Kernel Cert.Kernel.Gen

open Idealize.ShloMosaic Idealize.ShloMosaic.TcCoe
open Idealize.ShloMosaic.Pipeline (Dat)
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

local notation "𝕄" => MT nD τ sig (HIx 1) (Elt F) ℕ UU ℕ

variable (m : (ℓ : Loc nD τ sig) → Buf (Elt F) ℓ) (ρ : Dev nD → PrngReg)

/-- The arrays as the SparseCore call finds them, read off the launch memory: the index matrices as they are, the tables widened. -/
def arraysOf (m : (ℓ : Loc nD τ sig) → Buf (Elt F) ℓ) : Arrays F where
  wi d := m (widxLoc d)
  ei d := m (eidxLoc d)
  wt d := Cert.EmbSpec.padCols (m ((SparseCore.T d).loc main_arg2))
  et d := Cert.EmbSpec.padCols (m ((SparseCore.T d).loc main_arg3))
  o0 d := m (outLoc d)

/-! ## The TensorCore's state before a call: its dues apart from the rest -/

theorem tcSt_owes (d : Dev nD) (n : ℕ) :
    (K (F := F)).tcSt EH d n ⊢ (iprop((∃ W, ⌜(K (F := F)).WBelow (SparseCore.T d) W (8 * n)⌝ ∗ owes (SparseCore.T d) ((K (F := F)).Otc d n) W)
      ∗ ((∃ W, ⌜(K (F := F)).WBelow (SparseCore.T d) W (8 * n)⌝ ∗ owes (SparseCore.T d) ((K (F := F)).Otc d n) W) -∗ (K (F := F)).tcSt EH d n)) : sProp 𝕄) := by
  unfold SparseCore.Cfg.tcSt
  iintro ⟨HO, Hr⟩
  isplitl [HO]; · iexact HO
  iintro HO
  isplitl [HO]; · iexact HO
  iexact Hr

/-- Recorded waits all at the kernels' own index sit at level 0, and conversely. -/
theorem wbelow_iff (d : Dev nD) (W : Waits sig (HIx 1)) : (K (F := F)).WBelow (SparseCore.T d) W (8 * 0) ↔ (↑W : Set (SemLoc sig × HIx 1)) ⊆ Rw := by
  constructor
  · intro h p hp
    have h1 := h p hp
    show p.2 = none
    match hq : p.2 with
    | none => rfl
    | some q => rw [hq] at h1; have := (K (F := F)).lev_some_pos (SparseCore.T d, p.1) q; omega
  · intro h p hp
    have h1 : p.2 = none := h hp
    rw [h1, SparseCore.Cfg.lev_none]

/-! ## The unscoped buffers, one by one -/

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3)) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [∀ e, Nonempty (Elt F e)]

theorem reg0_pre (d : Dev nD) : (reg0 m).pre d = iprop(unscopedBufs d (V0 m d) ∗ Rr (F := F) d) := rfl
theorem reg0_post (d : Dev nD) : (reg0 m).post d = iprop(unscopedBufs d (V1 m d) ∗ Rr (F := F) d) := rfl

set_option maxHeartbeats 2000000 in
set_option backward.isDefEq.respectTransparency.types false in
/-- The region that widens table 0, as a step of @main on the TensorCore of `d`: entered through the lifted program, run by the
    pipeline library's region rule on the region's record. -/
theorem wp_region0 (d : Dev nD) (Φ : PUnit → sProp 𝕄) :
    iprop(boundary (SparseCore.T d) ∗ iprop(unscopedBufs d (V0 m d) ∗ Rr (F := F) d) ∗ levAts (K (F := F)).L (K (F := F)).lev
        ∗ Pipeline.cellsGhost cfgs (ER (F := F)) 0 d ∗ Pipeline.toksInit cfgs (ER (F := F)) 0 d
        ∗ (iprop(boundary (SparseCore.T d) ∗ iprop(unscopedBufs d (V1 m d) ∗ Rr (F := F) d)) -∗ Φ ⟨⟩))
      ⊢ wp frame (wpE ((K (F := F)).defs (D (F := F))) 𝒱 (SparseCore.T d) none) Set.univ
          (Prog.lift (.customCall (SparseCore.inner (Pipeline.entry 0)) ())) Φ := by
  have hwp := Pipeline.RegionSeg.wp (pcfgs (F := F)) adm (pdats m) none cellOf_inj (ER (F := F)) defs₀ 𝒱₀ (K (F := F)).L (K (F := F)).lev
    (reg0 m) d none (fun _ h => nomatch h) (fun u => .ret u) Φ
  rw [reg0_pre, reg0_post] at hwp
  have hlift := (K (F := F)).wp_liftProg (D (F := F)) 𝒱 (SparseCore.T d) Set.univ none
    (Prog.op (.customCall (Pipeline.entry (0 : Fin 2)) ()) (fun u => .ret u) : Prog (TpuEff nD τ sig (Elt F) (ΛP (F := F)) .tc) PUnit) Φ
  refine BIBase.Entails.trans ?_ hlift
  refine BIBase.Entails.trans ?_ hwp
  iintro ⟨Hb, Hpre, Hla, Hg, Ht, Hk⟩
  isplitl [Hk]
  · iintro H; rw [wp_ret]; imodintro; iapply Hk; iexact H
  isplitl [Hb]; · iexact Hb
  isplitl [Hpre]; · iexact Hpre
  isplitl [Hla]; · iexact Hla
  isplitl [Hg] <;> iassumption

theorem reg1_pre (d : Dev nD) : (reg1 m).pre d = iprop(unscopedBufs d (V1 m d) ∗ Rr (F := F) d) := rfl
theorem reg1_post (d : Dev nD) : (reg1 m).post d = iprop(unscopedBufs d (V2 m d) ∗ Rr (F := F) d) := rfl

set_option maxHeartbeats 2000000 in
set_option backward.isDefEq.respectTransparency.types false in
/-- The region that widens table 1, as a step of @main on the TensorCore of `d`: entered through the lifted program, run by the
    pipeline library's region rule on the region's record. -/
theorem wp_region1 (d : Dev nD) (Φ : PUnit → sProp 𝕄) :
    iprop(boundary (SparseCore.T d) ∗ iprop(unscopedBufs d (V1 m d) ∗ Rr (F := F) d) ∗ levAts (K (F := F)).L (K (F := F)).lev
        ∗ Pipeline.cellsGhost cfgs (ER (F := F)) 1 d ∗ Pipeline.toksInit cfgs (ER (F := F)) 1 d
        ∗ (iprop(boundary (SparseCore.T d) ∗ iprop(unscopedBufs d (V2 m d) ∗ Rr (F := F) d)) -∗ Φ ⟨⟩))
      ⊢ wp frame (wpE ((K (F := F)).defs (D (F := F))) 𝒱 (SparseCore.T d) none) Set.univ
          (Prog.lift (.customCall (SparseCore.inner (Pipeline.entry 1)) ())) Φ := by
  have hwp := Pipeline.RegionSeg.wp (pcfgs (F := F)) adm (pdats m) none cellOf_inj (ER (F := F)) defs₀ 𝒱₀ (K (F := F)).L (K (F := F)).lev
    (reg1 m) d none (fun _ h => nomatch h) (fun u => .ret u) Φ
  rw [reg1_pre, reg1_post] at hwp
  have hlift := (K (F := F)).wp_liftProg (D (F := F)) 𝒱 (SparseCore.T d) Set.univ none
    (Prog.op (.customCall (Pipeline.entry (1 : Fin 2)) ()) (fun u => .ret u) : Prog (TpuEff nD τ sig (Elt F) (ΛP (F := F)) .tc) PUnit) Φ
  refine BIBase.Entails.trans ?_ hlift
  refine BIBase.Entails.trans ?_ hwp
  iintro ⟨Hb, Hpre, Hla, Hg, Ht, Hk⟩
  isplitl [Hk]
  · iintro H; rw [wp_ret]; imodintro; iapply Hk; iexact H
  isplitl [Hb]; · iexact Hb
  isplitl [Hpre]; · iexact Hpre
  isplitl [Hla]; · iexact Hla
  isplitl [Hg] <;> iassumption

/-! ## The reshape -/

abbrev v2' : DevRef τ sig := Proc.devRef .tc (main_v2 : Ref sig .tc)
abbrev v3' : DevRef τ sig := Proc.devRef .tc (main_v3 : Ref sig .tc)
abbrev opR : HloOp τ sig (Elt F) := StableHlo.reshape main_v2 main_v3 rfl shapeCasts_S819200x100_S4096x200x100
abbrev S2 : Finset (DevRef τ sig) := {v2', v3'}
theorem hR : (opR (F := F)).bufs ⊆ S2 := show ({v2', v3'} : Finset (DevRef τ sig)) ⊆ S2 from Finset.Subset.refl _

theorem held_S2 (d : Dev nD) (W : Valuation τ sig (Elt F)) :
    (held (SparseCore.T d) S2 W : sProp 𝕄) = iprop(((SparseCore.T d).loc main_v2 ↦{fullShare} W v2') ∗ (SparseCore.T d).loc main_v3 ↦{fullShare} W v3') := by
  unfold held S2
  rw [SparseCore.bigSep_insert' (by decide), bigSep_singleton]

/-- The valuation the reshape runs at: the flat result at the flat sum, the reshaped result as launched. -/
def VR (d : Dev nD) : Valuation τ sig (Elt F) := Function.update (fun b => m (d, b)) v2' (OUT (arraysOf m) d)
theorem VR_v2 (d : Dev nD) : VR m d v2' = OUT (arraysOf m) d := Function.update_self _ _ _
theorem VR_v3 (d : Dev nD) : VR m d v3' = m ((SparseCore.T d).loc main_v3) := Function.update_of_ne (show v3' ≠ v2' by decide) _ _

/-- What @main leaves in the reshaped result: the flat sum's rows as positions. -/
def RES (d : Dev nD) : Buf (Elt F) ((SparseCore.T d : Thread nD τ).loc main_v3) :=
  shapeCast S4096x200x100 (OUT (arraysOf m) d) shapeCasts_S819200x100_S4096x200x100

theorem res_v3 (d : Dev nD) : (opR (F := F)).result (VR m d) v3' = RES m d :=
  (StableHlo.reshape_result' (τ := τ) (Val := Elt F) (x := main_v2) (y := main_v3) rfl shapeCasts_S819200x100_S4096x200x100 ⟨by decide, rfl⟩ ⟨by decide, rfl⟩ (VR m d)).trans
    (by rw [VR_v2]; rfl)

/-! ## @main on the TensorCore -/

/-- What @main leaves the claim: the four arguments at their launch contents, the reshaped result at `RES`. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v3 ↦{fullShare} RES m d))

set_option maxHeartbeats 1000000 in
/-- @main on device `d`'s TensorCore: the two widening regions, the call, the reshape. -/
theorem hmain (κ : GSem nD τ sig → ℕ) (d : Dev nD) :
    iprop((K (F := F)).ctx EH (P (arraysOf m)) κ ∗ (K (F := F)).tcSt EH d 0 ∗ (K (F := F)).tcRes m ρ d ∗ G₀ (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G₀
  rw [bigSep_W0 (fun p : Fin 2 => Pipeline.cellsGhost cfgs (ER (F := F)) p d), bigSep_W0 (fun p : Fin 2 => Pipeline.toksInit cfgs (ER (F := F)) p d)]
  simp only [main, wp_bind, wp_pure]
  iintro ⟨#Hctx, Hst, ⟨Hb, Hub, -, Hpr⟩, ⟨Hg0, Hg1⟩, ⟨Ht0, Ht1⟩⟩
  ihave #Hla := (SparseCore.Cfg.ctx_levAts κ) $$ Hctx
  ihave Hst' := (tcSt_owes (F := F) d 0) $$ Hst
  icases Hst' with ⟨⟨%W, %hW, HO⟩, Hback⟩
  -- table 0 widened
  iapply (wp_region0 m d) $$ [Hb Hub Hpr HO Hg0 Ht0 Hg1 Ht1 Hback]
  isplitl [Hb]; · iexact Hb
  isplitl [Hub Hpr HO]
  · isplitl [Hub]; · iexact Hub
    isplitl [Hpr]; · iexists _; iexact Hpr
    iexists W; isplitr; · ipureintro; exact (wbelow_iff (F := F) d W).mp hW
    iexact HO
  isplitr; · iexact Hla
  isplitl [Hg0]; · iexact Hg0
  isplitl [Ht0]; · iexact Ht0
  iintro ⟨Hb, Hub, Hrr⟩
  -- table 1 widened
  iapply (wp_region1 m d) $$ [Hb Hub Hrr Hg1 Ht1 Hback]
  isplitl [Hb]; · iexact Hb
  isplitl [Hub Hrr]
  · isplitl [Hub]; · iexact Hub
    iexact Hrr
  isplitr; · iexact Hla
  isplitl [Hg1]; · iexact Hg1
  isplitl [Ht1]; · iexact Ht1
  iintro ⟨Hb, Hub, -, %W', %hW', HO⟩
  ihave Hst := Hback $$ [HO]
  · iexists W'; isplitr; · ipureintro; exact (wbelow_iff (F := F) d W').mpr hW'
    iexact HO
  ihave Hu := (Entails.of_eq (unscopedBufs_eq (F := F) d _)) $$ Hub
  rw [V2_arg0, V2_arg1, V2_arg2, V2_arg3, V2_v0, V2_v1, V2_v2, V2_v3]
  icases Hu with ⟨Ha0, Ha1, Ha2, Ha3, Hv0, Hv1, Hv2, Hv3⟩
  -- the call
  ihave Hs := (st0_split (arraysOf m) d) $$ [Ha0 Ha1 Hv0 Hv1 Hv2]
  · isplitl [Ha0]; · iexact Ha0
    isplitl [Ha1]; · iexact Ha1
    isplitl [Hv0]; · iexact Hv0
    isplitl [Hv1]; · iexact Hv1
    iexact Hv2
  icases Hs with ⟨Hs, Hrem⟩
  iapply ((K (F := F)).wp_run (D (F := F)) 𝒱 (EH := EH) (P := P (arraysOf m)) κ d 0) $$ [Hst Hs Hb Ha2 Ha3 Hv3 Hrem]
  isplitr; · iexact Hctx
  isplitl [Hst]; · iexact Hst
  isplitl [Hs]; · iexact Hs
  iintro ⟨Hst, Hdn⟩
  ihave Hj := (dn0_join (arraysOf m) d) $$ [Hdn Hrem]
  · isplitl [Hdn] <;> iassumption
  icases Hj with ⟨Ha0, Ha1, -, -, Hv2⟩
  -- the reshape
  iapply (wp_hlo_within 𝒱 (SparseCore.T d) none Set.univ (op := opR) (S := S2) hR (V := VR m d)) $$ [Hb Hv2 Hv3]
  · isplitl [Hb]; · iexact Hb
    rw [held_S2, VR_v2, VR_v3]
    isplitl [Hv2]; · iexact Hv2
    iexact Hv3
  iintro ⟨Hb, Hheld⟩
  ihave Hh := (Entails.of_eq (held_S2 (F := F) d _)) $$ Hheld
  rw [res_v3]
  icases Hh with ⟨-, Hv3⟩
  rw [wp_ret]; imodintro; imodintro
  isplitl [Hst]; · iexact Hst
  unfold FIN
  isplitl [Ha0]; · iexact Ha0
  isplitl [Ha1]; · iexact Ha1
  isplitl [Ha2]; · iexact Ha2
  isplitl [Ha3]; · iexact Ha3
  iexact Hv3

/-! ## The final memory, and the program's run -/

def fq (d : Dev nD) (s' : Phys nD τ sig (Elt F)) : Prop :=
  s'.mem.mem ((SparseCore.T d).loc main_v3) = RES m d
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

theorem hfin (d : Dev nD) (s' : Phys nD τ sig (Elt F)) : iprop(FIN m d ∗ SI s') ⊢ (⌜fq m d s'⌝ : sProp 𝕄) := by
  unfold FIN
  iintro ⟨⟨H0, H1, H2, H3, Hv⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (SI_pointsTo_agree (st := s') (ℓ := (SparseCore.T d).loc main_v3) (I := Finset.univ) (q := fullShare) (f := RES m d)) $$ [HSI Hv]
  · isplitl [HSI] <;> iassumption
  icases H with %hv
  ipureintro
  exact ⟨funext fun i => hv i (Finset.mem_univ i), funext fun i => h0 i (Finset.mem_univ i), funext fun i => h1 i (Finset.mem_univ i),
    funext fun i => h2 i (Finset.mem_univ i), funext fun i => h3 i (Finset.mem_univ i)⟩

/-- The whole program's run from the vector subcores' task: every weakly fair execution of the thirty-five threads ends, the
    reshaped result at the flat sum of the two look-ups over the widened tables, the four arguments unchanged. -/
theorem run_main (m : (ℓ : Loc nD τ sig) → Buf (Elt F) ℓ) (ρ : Dev nD → PrngReg)
    (hobl : (K (F := F)).TileObl (D (F := F)) 𝒱 (P (arraysOf m)) v₀ 0) :
    θ_run (Cert.Kernel.defs (F := F)) (Cert.Kernel.threads (F := F)) ⟨m, fun _ => 0, ρ⟩
      (fun r => ∀ c : Dev nD,
        r.2.mem ((c.tc : Thread nD τ).loc main_v3) = shapeCast S4096x200x100 (OUT (arraysOf m) c) shapeCasts_S819200x100_S4096x200x100
        ∧ r.2.mem ((c.tc : Thread nD τ).loc main_arg0) = m ((c.tc : Thread nD τ).loc main_arg0) ∧ r.2.mem ((c.tc : Thread nD τ).loc main_arg1) = m ((c.tc : Thread nD τ).loc main_arg1)
        ∧ r.2.mem ((c.tc : Thread nD τ).loc main_arg2) = m ((c.tc : Thread nD τ).loc main_arg2) ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P (arraysOf m)) facts v₀
    (fun q hq => match q with | 0 => nomatch hq)
    (fun q _ => match q with | 0 => hobl)
    (fun q _ => match q with | 0 => SparseCore.Cfg.VecSplit.of_plain (vecSplit _))
    m ρ main (G₀ (F := F)) (FIN m) (u₀ (F := F)) (sep_elim_left.trans (hu₀ (arraysOf m))) (hmain m ρ) (fq m) (hfin m) _ (fun _ h => h)

end Cert.Proof.KK

end
-- ==== Proof.KK.TileDefs.lean ====
/-
  One worker's task, stated about its thread: the thread, what it holds when its body starts, and what it must hold
  when the body ends. A worker holds each of the four inputs as two halves of its read share (at most two transfers
  read any one of them at a time), its own block of the flat result, its ten scratch buffers and its forty DMA
  semaphores at zero.
-/
import proofs.«206319_g15771119910948_cont_week2b_672_19_alg».proof.Proof.KK.Pay
import proofs.«206319_g15771119910948_cont_week2b_672_19_alg».proof.Proof.Gen.Kernel.Skeleton

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev cV (L : grid2.Coords) : Fin τ.nSC := (L 0).castLE hcore2
abbrev jV (L : grid2.Coords) : Fin τ.nSub := (L 1).castLE hsub2
/-- The worker's thread. -/
abbrev thr (d : Dev nD) (L : grid2.Coords) : Thread nD τ := V d (cV L) (jV L)
/-- The worker's number, 2·(subcore) + (core). -/
def widL (L : grid2.Coords) : Fin 32 := wid (Fin.cast (show grid2.bound 0 = 2 from rfl) (L 0)) (Fin.cast (show grid2.bound 1 = 16 from rfl) (L 1))

variable (d : Dev nD) (L : grid2.Coords)

/-- Every scoped DMA semaphore of the worker at zero. -/
def sems0 : sProp 𝕄 := iprop(semVal (thr d L, SemLoc.dma cc2_scratch10.sem) 0 ∗ semVal (thr d L, SemLoc.dma cc2_scratch11.sem) 0 ∗ semVal (thr d L, SemLoc.dma cc2_scratch12.sem) 0 ∗ semVal (thr d L, SemLoc.dma cc2_scratch13.sem) 0 ∗ semVal (thr d L, SemLoc.dma cc2_scratch14.sem) 0 ∗ semVal (thr d L, SemLoc.dma cc2_scratch15.sem) 0 ∗ semVal (thr d L, SemLoc.dma cc2_scoped0.sem) 0 ∗ semVal (thr d L, SemLoc.dma cc2_scoped1.sem) 0 ∗ semVal (thr d L, SemLoc.dma cc2_scoped2.sem) 0 ∗ semVal (thr d L, SemLoc.dma cc2_scoped3.sem) 0 ∗ semVal (thr d L, SemLoc.dma cc2_scoped4.sem) 0 ∗ semVal (thr d L, SemLoc.dma cc2_scoped5.sem) 0 ∗ semVal (thr d L, SemLoc.dma cc2_scoped6.sem) 0 ∗ semVal (thr d L, SemLoc.dma cc2_scoped7.sem) 0 ∗ semVal (thr d L, SemLoc.dma cc2_scoped8.sem) 0 ∗ semVal (thr d L, SemLoc.dma cc2_scoped9.sem) 0 ∗ semVal (thr d L, SemLoc.dma cc2_scoped10.sem) 0 ∗ semVal (thr d L, SemLoc.dma cc2_scoped11.sem) 0 ∗ semVal (thr d L, SemLoc.dma cc2_scoped12.sem) 0 ∗ semVal (thr d L, SemLoc.dma cc2_scoped13.sem) 0 ∗ semVal (thr d L, SemLoc.dma cc2_scoped14.sem) 0 ∗ semVal (thr d L, SemLoc.dma cc2_scoped15.sem) 0 ∗ semVal (thr d L, SemLoc.dma cc2_scoped16.sem) 0 ∗ semVal (thr d L, SemLoc.dma cc2_scoped17.sem) 0 ∗ semVal (thr d L, SemLoc.dma cc2_scoped18.sem) 0 ∗ semVal (thr d L, SemLoc.dma cc2_scoped19.sem) 0 ∗ semVal (thr d L, SemLoc.dma cc2_scoped20.sem) 0 ∗ semVal (thr d L, SemLoc.dma cc2_scoped21.sem) 0 ∗ semVal (thr d L, SemLoc.dma cc2_scoped22.sem) 0 ∗ semVal (thr d L, SemLoc.dma cc2_scoped23.sem) 0 ∗ semVal (thr d L, SemLoc.dma cc2_scoped24.sem) 0 ∗ semVal (thr d L, SemLoc.dma cc2_scoped25.sem) 0 ∗ semVal (thr d L, SemLoc.dma cc2_scoped26.sem) 0 ∗ semVal (thr d L, SemLoc.dma cc2_scoped27.sem) 0 ∗ semVal (thr d L, SemLoc.dma cc2_scoped28.sem) 0 ∗ semVal (thr d L, SemLoc.dma cc2_scoped29.sem) 0 ∗ semVal (thr d L, SemLoc.dma cc2_scoped30.sem) 0 ∗ semVal (thr d L, SemLoc.dma cc2_scoped31.sem) 0 ∗ semVal (thr d L, SemLoc.dma cc2_scoped32.sem) 0 ∗ semVal (thr d L, SemLoc.dma cc2_scoped33.sem) 0)

/-- The ten scratch buffers at given contents. -/
def scr (f0 : Buf (Elt F) ((Memref.whole cc2_scratch0).view.loc (thr d L))) (f1 : Buf (Elt F) ((Memref.whole cc2_scratch1).view.loc (thr d L))) (f2 : Buf (Elt F) ((Memref.whole cc2_scratch2).view.loc (thr d L))) (f3 : Buf (Elt F) ((Memref.whole cc2_scratch3).view.loc (thr d L))) (f4 : Buf (Elt F) ((Memref.whole cc2_scratch4).view.loc (thr d L))) (f5 : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L))) : sProp 𝕄 :=
  iprop(((Memref.whole cc2_scratch0).view.loc (thr d L) ↦{fullShare} f0) ∗ ((Memref.whole cc2_scratch1).view.loc (thr d L) ↦{fullShare} f1) ∗ ((Memref.whole cc2_scratch2).view.loc (thr d L) ↦{fullShare} f2) ∗ ((Memref.whole cc2_scratch3).view.loc (thr d L) ↦{fullShare} f3) ∗ ((Memref.whole cc2_scratch4).view.loc (thr d L) ↦{fullShare} f4) ∗ ((Memref.whole cc2_scratch5).view.loc (thr d L) ↦{fullShare} f5) ∗ ((Memref.whole cc2_scratch6).view.loc (thr d L) ↦{fullShare} f6) ∗ ((Memref.whole cc2_scratch7).view.loc (thr d L) ↦{fullShare} f7) ∗ ((Memref.whole cc2_scratch8).view.loc (thr d L) ↦{fullShare} f8) ∗ ((Memref.whole cc2_scratch9).view.loc (thr d L) ↦{fullShare} f9))

variable (X : Arrays F)

/-- The worker's read share of an input, and its two halves. -/
abbrev qW : PosShare TreeShare := tok (widL L).val
/-- The four inputs, each as the two halves of the worker's read share, as the worker's memrefs address them. -/
def inHalves : sProp 𝕄 :=
  iprop(((Memref.whole main_arg0_scv).view.loc (thr d L) ↦{(qW L).left} X.wi d) ∗ ((Memref.whole main_arg0_scv).view.loc (thr d L) ↦{(qW L).right} X.wi d)
    ∗ ((Memref.whole main_arg1_scv).view.loc (thr d L) ↦{(qW L).left} X.ei d) ∗ ((Memref.whole main_arg1_scv).view.loc (thr d L) ↦{(qW L).right} X.ei d)
    ∗ ((Memref.whole main_v0_scv).view.loc (thr d L) ↦{(qW L).left} X.wt d) ∗ ((Memref.whole main_v0_scv).view.loc (thr d L) ↦{(qW L).right} X.wt d)
    ∗ ((Memref.whole main_v1_scv).view.loc (thr d L) ↦{(qW L).left} X.et d) ∗ ((Memref.whole main_v1_scv).view.loc (thr d L) ↦{(qW L).right} X.et d))

omit [FloatOps F] in
theorem hblk (L : grid2.Coords) : ∀ a, (![51200 * (L 1).val + 25600 * (L 0).val, 0] : Fin 2 → Nat) a + (![25600, 100] : Fin 2 → Nat) a ≤ S819200x100.size a := by
  have h0 : (L 0).val < 2 := (L 0).isLt
  have h1 : (L 1).val < 16 := (L 1).isLt
  intro a; match a with
  | ⟨0, _⟩ => show 51200 * (L 1).val + 25600 * (L 0).val + 25600 ≤ 819200; omega
  | ⟨1, _⟩ => show 0 + 100 ≤ 100; omega

/-- The worker's block of the flat result as a rectangle whose first row is linear in the worker's coordinates:
    rows [25600·(2·subcore + core), +25600), all 100 columns. -/
abbrev blkR (L : grid2.Coords) : Rect S819200x100 :=
  Rect.unit (s := S819200x100) ![51200 * (L 1).val + 25600 * (L 0).val, 0] ![25600, 100] (hblk L)

/-- The worker's block of the flat result at contents `f`, held by the elements under the block's rectangle. -/
def outBlk (f : Buf (Elt F) (outLoc d)) : sProp 𝕄 :=
  (Memref.whole main_v2_scv).view.loc (thr d L) ↦[(Memref.whole main_v2_scv).view.setOn (blkR L).set]{fullShare} f

/-- What the body starts from. -/
def tilePre (O : CellTallies nD τ sig (HIx 1)) (W : Waits sig (HIx 1))
    (f0 : Buf (Elt F) ((Memref.whole cc2_scratch0).view.loc (thr d L))) (f1 : Buf (Elt F) ((Memref.whole cc2_scratch1).view.loc (thr d L))) (f2 : Buf (Elt F) ((Memref.whole cc2_scratch2).view.loc (thr d L))) (f3 : Buf (Elt F) ((Memref.whole cc2_scratch3).view.loc (thr d L))) (f4 : Buf (Elt F) ((Memref.whole cc2_scratch4).view.loc (thr d L))) (f5 : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L))) : sProp 𝕄 :=
  iprop(Transfers.MayWaits (thr d L) (none : HIx 1) O ∗ inHalves d L X ∗ outBlk d L (X.o0 d)
    ∗ scr d L f0 f1 f2 f3 f4 f5 f6 f7 f8 f9 ∗ sems0 d L ∗ owes (thr d L) O W)

/-- What it ends with: the inputs back, the block at the flat sum, the scratch at some contents, the semaphores at zero. -/
def tilePost (O : CellTallies nD τ sig (HIx 1)) (W : Waits sig (HIx 1)) : sProp 𝕄 :=
  iprop(inHalves d L X ∗ outBlk d L (OUT X d)
    ∗ (∃ f0 f1 f2 f3 f4 f5 f6 f7 f8 f9, scr d L f0 f1 f2 f3 f4 f5 f6 f7 f8 f9) ∗ sems0 d L
    ∗ ∃ W', ⌜∀ p ∈ W', p ∈ W ∨ p.2 = none⌝ ∗ owes (thr d L) O W')

/-- The body as the table passes it to a worker. -/
abbrev bodyAt : Prog (TpuEff nD τ sig (Elt F) Λ₀ (.scVector (cV L) (jV L))) PUnit :=
  cc2__emb_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33

/-- The body's specification: under in-range indices, from `tilePre` to `tilePost`, whatever the thread owes the launch. -/
def TileBodySpec : Prop :=
  ∀ (d : Dev nD) (L : grid2.Coords) (O : CellTallies nD τ sig (HIx 1)) (W : Waits sig (HIx 1)), (∀ g, O g none = 0) →
    ∀ (f0 : Buf (Elt F) ((Memref.whole cc2_scratch0).view.loc (thr d L))) (f1 : Buf (Elt F) ((Memref.whole cc2_scratch1).view.loc (thr d L))) (f2 : Buf (Elt F) ((Memref.whole cc2_scratch2).view.loc (thr d L))) (f3 : Buf (Elt F) ((Memref.whole cc2_scratch3).view.loc (thr d L))) (f4 : Buf (Elt F) ((Memref.whole cc2_scratch4).view.loc (thr d L))) (f5 : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L))),
    tilePre d L X O W f0 f1 f2 f3 f4 f5 f6 f7 f8 f9
      ⊢ wp frame (wpE (defs₀ (F := F)) 𝒱₀ (thr d L) none) Set.univ (bodyAt (F := F) L) fun _ => tilePost d L X O W

end Cert.Proof.KK

end
-- ==== Proof.KK.TileCtx.lean ====
/-
  Between the launch and one worker's body. The launch hands a worker its task's operands (its read shares of the four
  inputs and its block of the result), everything scoped that is its own (buffers at some contents, semaphores at zero),
  the wait levels and what it owes; the body's specification is stated over the pieces of that which the body touches.
  Opening: the wait evidence from the levels; each read share split into its two halves; the block of the result under
  the whole-array view; the ten scratch buffers and the forty DMA semaphores taken out of the worker's own, the rest of
  either kept unopened. Closing is the same steps backwards. With the two, a proof of the body is the launch theorem's
  obligation for the kernel.
-/
import proofs.«206319_g15771119910948_cont_week2b_672_19_alg».proof.Proof.KK.Pay
import proofs.«206319_g15771119910948_cont_week2b_672_19_alg».proof.Proof.KK.TileDefs

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The worker's own scoped storage -/

/-- The ten scratch buffers. -/
abbrev scrRefs : List (Ref sig .scVector) :=
  [cc2_scratch0, cc2_scratch1, cc2_scratch2, cc2_scratch3, cc2_scratch4, cc2_scratch5, cc2_scratch6, cc2_scratch7, cc2_scratch8, cc2_scratch9]
/-- The forty DMA semaphores the body names. -/
abbrev semL : List (SemLoc sig) := [SemLoc.dma cc2_scratch10.sem, SemLoc.dma cc2_scratch11.sem, SemLoc.dma cc2_scratch12.sem, SemLoc.dma cc2_scratch13.sem, SemLoc.dma cc2_scratch14.sem, SemLoc.dma cc2_scratch15.sem, SemLoc.dma cc2_scoped0.sem, SemLoc.dma cc2_scoped1.sem, SemLoc.dma cc2_scoped2.sem, SemLoc.dma cc2_scoped3.sem, SemLoc.dma cc2_scoped4.sem, SemLoc.dma cc2_scoped5.sem, SemLoc.dma cc2_scoped6.sem, SemLoc.dma cc2_scoped7.sem, SemLoc.dma cc2_scoped8.sem, SemLoc.dma cc2_scoped9.sem, SemLoc.dma cc2_scoped10.sem, SemLoc.dma cc2_scoped11.sem, SemLoc.dma cc2_scoped12.sem, SemLoc.dma cc2_scoped13.sem, SemLoc.dma cc2_scoped14.sem, SemLoc.dma cc2_scoped15.sem, SemLoc.dma cc2_scoped16.sem, SemLoc.dma cc2_scoped17.sem, SemLoc.dma cc2_scoped18.sem, SemLoc.dma cc2_scoped19.sem, SemLoc.dma cc2_scoped20.sem, SemLoc.dma cc2_scoped21.sem, SemLoc.dma cc2_scoped22.sem, SemLoc.dma cc2_scoped23.sem, SemLoc.dma cc2_scoped24.sem, SemLoc.dma cc2_scoped25.sem, SemLoc.dma cc2_scoped26.sem, SemLoc.dma cc2_scoped27.sem, SemLoc.dma cc2_scoped28.sem, SemLoc.dma cc2_scoped29.sem, SemLoc.dma cc2_scoped30.sem, SemLoc.dma cc2_scoped31.sem, SemLoc.dma cc2_scoped32.sem, SemLoc.dma cc2_scoped33.sem]

theorem scrRefs_nodup : scrRefs.Nodup := by decide
theorem semL_nodup : semL.Nodup := by decide
theorem semL_scoped : ∀ sm ∈ semL, (sm : SemLoc sig).isScoped .scVector = true := by decide

variable (d : Dev nD) (L : grid2.Coords)

/-- The worker's own buffers other than the ten scratch buffers, each at some contents. -/
def restBufs : sProp 𝕄 :=
  bigSep (SparseCore.Cfg.ownRefs (τ := τ) (sig := sig) (.scVector (cV L) (jV L)) \ (scrRefs.map (Proc.scVector (cV L) (jV L)).devRef).toFinset)
    fun b => iprop(∃ f, ((d, b) : Loc nD τ sig) ↦{fullShare} f)
/-- The worker's scoped semaphores other than the forty, at zero. -/
def restSems : sProp 𝕄 :=
  bigSep ((Finset.univ.filter fun sm : SemLoc sig => sm.isScoped .scVector) \ semL.toFinset) fun sm => semVal (thr d L, sm) 0

omit [FloatOps F] in
/-- The worker's scoped semaphores at zero are the forty and the rest. -/
theorem ownSems0_V : (SparseCore.Cfg.ownSems0 (thr d L) : sProp 𝕄) = iprop(sems0 d L ∗ restSems d L) := by
  rw [SparseCore.Cfg.ownSems0_eq]
  have hsub : semL.toFinset ⊆ (Finset.univ.filter fun sm : SemLoc sig => sm.isScoped (thr d L).2.kind) := fun sm h =>
    Finset.mem_filter.mpr ⟨Finset.mem_univ _, semL_scoped sm (List.mem_toFinset.mp h)⟩
  rw [SparseCore.bigSep_sdiff_split' hsub, bigSep_eq_bigSepL semL semL_nodup]
  rfl

omit [FloatOps F] in
/-- The worker's own buffers are the ten scratch buffers, each at some contents, and the rest. -/
theorem ownBufs_V :
    (SparseCore.Cfg.ownBufs (thr d L) : sProp 𝕄)
      = iprop(((∃ f : Buf (Elt F) ((Memref.whole cc2_scratch0).view.loc (thr d L)), (Memref.whole cc2_scratch0).view.loc (thr d L) ↦{fullShare} f)
          ∗ (∃ f : Buf (Elt F) ((Memref.whole cc2_scratch1).view.loc (thr d L)), (Memref.whole cc2_scratch1).view.loc (thr d L) ↦{fullShare} f)
          ∗ (∃ f : Buf (Elt F) ((Memref.whole cc2_scratch2).view.loc (thr d L)), (Memref.whole cc2_scratch2).view.loc (thr d L) ↦{fullShare} f)
          ∗ (∃ f : Buf (Elt F) ((Memref.whole cc2_scratch3).view.loc (thr d L)), (Memref.whole cc2_scratch3).view.loc (thr d L) ↦{fullShare} f)
          ∗ (∃ f : Buf (Elt F) ((Memref.whole cc2_scratch4).view.loc (thr d L)), (Memref.whole cc2_scratch4).view.loc (thr d L) ↦{fullShare} f)
          ∗ (∃ f : Buf (Elt F) ((Memref.whole cc2_scratch5).view.loc (thr d L)), (Memref.whole cc2_scratch5).view.loc (thr d L) ↦{fullShare} f)
          ∗ (∃ f : Buf (Elt F) ((Memref.whole cc2_scratch6).view.loc (thr d L)), (Memref.whole cc2_scratch6).view.loc (thr d L) ↦{fullShare} f)
          ∗ (∃ f : Buf (Elt F) ((Memref.whole cc2_scratch7).view.loc (thr d L)), (Memref.whole cc2_scratch7).view.loc (thr d L) ↦{fullShare} f)
          ∗ (∃ f : Buf (Elt F) ((Memref.whole cc2_scratch8).view.loc (thr d L)), (Memref.whole cc2_scratch8).view.loc (thr d L) ↦{fullShare} f)
          ∗ (∃ f : Buf (Elt F) ((Memref.whole cc2_scratch9).view.loc (thr d L)), (Memref.whole cc2_scratch9).view.loc (thr d L) ↦{fullShare} f))
          ∗ restBufs d L) := by
  unfold SparseCore.Cfg.ownBufs
  have hsub : (scrRefs.map (Proc.scVector (cV L) (jV L)).devRef).toFinset ⊆ SparseCore.Cfg.ownRefs (τ := τ) (sig := sig) (thr d L).2 := by
    intro b hb
    obtain ⟨r, hr, rfl⟩ := List.mem_map.mp (List.mem_toFinset.mp hb)
    fin_cases hr <;> exact SparseCore.Cfg.mem_ownRefs_of_owner rfl
  rw [SparseCore.bigSep_sdiff_split' hsub,
    bigSep_eq_bigSepL _ (scrRefs_nodup.map (Proc.devRef_injective _))]
  rfl

/-! ## The task's operands -/

omit [FloatOps F] in
/-- A points-to at a share is the two halves of the share. -/
theorem pts_halves {ℓ : Loc nD τ sig} (q : PosShare TreeShare) (f : Buf (Elt F) ℓ) :
    (ℓ ↦{q} f : sProp 𝕄) ⊣⊢ iprop((ℓ ↦{q.left} f) ∗ ℓ ↦{q.right} f) :=
  pointsTo_share (PosShare.mem_left_op_right q)

omit [FloatOps F] in
/-- Under the whole-array view a set of indices is itself. -/
theorem setOn_out (M : Finset S819200x100.Idx) : (Memref.whole main_v2_scv).view.setOn M = M := by
  show M.map _ = M
  exact Finset.map_refl

omit [FloatOps F] in
/-- The worker's block as the rectangle at row 25600·(2·subcore + core) is its part of the thirty-two-fold cut of the
    rows: the same first row, the same 25600 rows, all 100 columns. -/
theorem blkR_set : (blkR L).set = blkSet (widL L) := by
  have h0 : (L 0).val < 2 := (L 0).isLt
  have h1 : (L 1).val < 16 := (L 1).isLt
  have hw : (widL L).val = 2 * (L 1).val + (L 0).val := rfl
  ext i
  rw [Rect.mem_set_unit, Rect.mem_set_unit]
  refine forall_congr' fun a => ?_
  match a with
  | ⟨0, _⟩ =>
    show (51200 * (L 1).val + 25600 * (L 0).val ≤ (i 0).val ∧ (i 0).val < 51200 * (L 1).val + 25600 * (L 0).val + 25600)
      ↔ ((widL L).val * (819200 / 32) ≤ (i 0).val ∧ (i 0).val < (widL L).val * (819200 / 32) + 819200 / 32)
    rw [hw]; omega
  | ⟨1, _⟩ =>
    show (0 ≤ (i 1).val ∧ (i 1).val < 0 + 100) ↔ (0 * 100 ≤ (i 1).val ∧ (i 1).val < 0 * 100 + 100)
    omega

omit [FloatOps F] in
/-- The worker's block of the result, in the launch's spelling. -/
theorem outBlk_eq (f : Buf (Elt F) (outLoc d)) : (outBlk d L f : sProp 𝕄) = (outLoc d ↦[blkSet (widL L)]{fullShare} f) := by
  unfold outBlk
  rw [setOn_out, blkR_set]

variable (X : Arrays F)

/-! ## Opening and closing -/

/-- From what the launch hands the worker to what the body starts from, the rest of its scoped storage beside it. -/
theorem tile_open (O : CellTallies nD τ sig (HIx 1)) (W : Waits sig (HIx 1)) (hO : ∀ g, O g none = 0) :
    (iprop(levAts (K (F := F)).L (K (F := F)).lev ∗ goOf X d (widL L) ∗ SparseCore.Cfg.ownBufs (thr d L) ∗ SparseCore.Cfg.ownSems0 (thr d L)
        ∗ owes (thr d L) O W) : sProp 𝕄)
      ⊢ iprop(∃ f0 f1 f2 f3 f4 f5 f6 f7 f8 f9, tilePre d L X O W f0 f1 f2 f3 f4 f5 f6 f7 f8 f9 ∗ restBufs d L ∗ restSems d L) := by
  rw [ownBufs_V, ownSems0_V]
  unfold goOf inToks
  iintro ⟨Hlev, ⟨⟨Hwi, Hei, Hwt, Het⟩, Hout⟩, ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, HrB⟩, ⟨Hsem, HrS⟩, HO⟩
  ihave Hmw := ((K (F := F)).mayWaits_none (thr := thr d L) hO) $$ Hlev
  ihave Hwi := (pts_halves _ _).1 $$ Hwi
  icases Hwi with ⟨Hwil, Hwir⟩
  ihave Hei := (pts_halves _ _).1 $$ Hei
  icases Hei with ⟨Heil, Heir⟩
  ihave Hwt := (pts_halves _ _).1 $$ Hwt
  icases Hwt with ⟨Hwtl, Hwtr⟩
  ihave Het := (pts_halves _ _).1 $$ Het
  icases Het with ⟨Hetl, Hetr⟩
  iexists f0
  iexists f1
  iexists f2
  iexists f3
  iexists f4
  iexists f5
  iexists f6
  iexists f7
  iexists f8
  iexists f9
  unfold tilePre inHalves scr
  rw [outBlk_eq]
  isplitr [HrB HrS]
  · isplitl [Hmw]; · iexact Hmw
    isplitl [Hwil Hwir Heil Heir Hwtl Hwtr Hetl Hetr]
    · isplitl [Hwil]; · iexact Hwil
      isplitl [Hwir]; · iexact Hwir
      isplitl [Heil]; · iexact Heil
      isplitl [Heir]; · iexact Heir
      isplitl [Hwtl]; · iexact Hwtl
      isplitl [Hwtr]; · iexact Hwtr
      isplitl [Hetl]; · iexact Hetl
      iexact Hetr
    isplitl [Hout]; · iexact Hout
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [Hsem]; · iexact Hsem
    iexact HO
  · isplitl [HrB]; · iexact HrB
    iexact HrS

/-- From what the body ends with, and the rest of the worker's scoped storage, to what the launch takes back. -/
theorem tile_close (O : CellTallies nD τ sig (HIx 1)) (W : Waits sig (HIx 1)) :
    (iprop(tilePost d L X O W ∗ restBufs d L ∗ restSems d L) : sProp 𝕄)
      ⊢ iprop(tdOf X d (widL L) ∗ SparseCore.Cfg.ownBufs (thr d L) ∗ SparseCore.Cfg.ownSems0 (thr d L)
          ∗ ∃ W', ⌜∀ p ∈ W', p ∈ W ∨ p.2 = none ∨ p.2 = some (0 : Fin 1)⌝ ∗ owes (thr d L) O W') := by
  rw [ownBufs_V, ownSems0_V]
  unfold tilePost tdOf inToks inHalves scr
  rw [outBlk_eq]
  iintro ⟨⟨⟨Hwil, Hwir, Heil, Heir, Hwtl, Hwtr, Hetl, Hetr⟩, Hout, ⟨%f0, %f1, %f2, %f3, %f4, %f5, %f6, %f7, %f8, %f9, H0, H1, H2, H3, H4, H5, H6, H7, H8, H9⟩, Hsem, %W', %hW', HO⟩, HrB, HrS⟩
  ihave Hwi := (pts_halves _ _).2 $$ [Hwil Hwir]
  · isplitl [Hwil] <;> iassumption
  ihave Hei := (pts_halves _ _).2 $$ [Heil Heir]
  · isplitl [Heil] <;> iassumption
  ihave Hwt := (pts_halves _ _).2 $$ [Hwtl Hwtr]
  · isplitl [Hwtl] <;> iassumption
  ihave Het := (pts_halves _ _).2 $$ [Hetl Hetr]
  · isplitl [Hetl] <;> iassumption
  isplitl [Hwi Hei Hwt Het Hout]
  · isplitl [Hwi Hei Hwt Het]
    · isplitl [Hwi]; · iexact Hwi
      isplitl [Hei]; · iexact Hei
      isplitl [Hwt]; · iexact Hwt
      iexact Het
    · iexact Hout
  isplitl [H0 H1 H2 H3 H4 H5 H6 H7 H8 H9 HrB]
  · isplitl [H0 H1 H2 H3 H4 H5 H6 H7 H8 H9]
    · isplitl [H0]; · iexists f0; iexact H0
      isplitl [H1]; · iexists f1; iexact H1
      isplitl [H2]; · iexists f2; iexact H2
      isplitl [H3]; · iexists f3; iexact H3
      isplitl [H4]; · iexists f4; iexact H4
      isplitl [H5]; · iexists f5; iexact H5
      isplitl [H6]; · iexists f6; iexact H6
      isplitl [H7]; · iexists f7; iexact H7
      isplitl [H8]; · iexists f8; iexact H8
      iexists f9; iexact H9
    · iexact HrB
  isplitl [Hsem HrS]
  · isplitl [Hsem]; · iexact Hsem
    iexact HrS
  iexists W'; isplitr
  · ipureintro; exact fun p hp => (hW' p hp).imp_right Or.inl
  · iexact HO

/-! ## The body's specification as the launch theorem's obligation -/

/-- A worker's task from the launch's hand to the launch's hand: open, run the body, close. -/
theorem tile_spec (hb : TileBodySpec X) (O : CellTallies nD τ sig (HIx 1)) (W : Waits sig (HIx 1)) (hO : ∀ g, O g none = 0) :
    (iprop(levAts (K (F := F)).L (K (F := F)).lev ∗ goOf X d (widL L) ∗ SparseCore.Cfg.ownBufs (thr d L) ∗ SparseCore.Cfg.ownSems0 (thr d L)
        ∗ owes (thr d L) O W) : sProp 𝕄)
      ⊢ wp frame (wpE (defs₀ (F := F)) 𝒱₀ (thr d L) none) Set.univ (bodyAt (F := F) L) fun _ =>
          iprop(tdOf X d (widL L) ∗ SparseCore.Cfg.ownBufs (thr d L) ∗ SparseCore.Cfg.ownSems0 (thr d L)
          ∗ ∃ W', ⌜∀ p ∈ W', p ∈ W ∨ p.2 = none ∨ p.2 = some (0 : Fin 1)⌝ ∗ owes (thr d L) O W') := by
  refine (tile_open d L X O W hO).trans ?_
  iintro ⟨%f0, %f1, %f2, %f3, %f4, %f5, %f6, %f7, %f8, %f9, Hpre, Hrest⟩
  iapply ((sep_mono_left (hb d L O W hO f0 f1 f2 f3 f4 f5 f6 f7 f8 f9)).trans
    ((wp_frame_r _ _ _).trans (wp_mono _ _ _ fun _ => tile_close d L X O W))) $$ [Hpre Hrest]
  isplitl [Hpre]; · iexact Hpre
  iexact Hrest

omit [FloatOps F] in
/-- The kernel's own assertion beside the operands is empty: drop it. -/
theorem drop_emp {A G B C E : sProp 𝕄} : iprop(A ∗ emp ∗ G ∗ B ∗ C ∗ E) ⊢ iprop(A ∗ G ∗ B ∗ C ∗ E) := by
  iintro ⟨HA, -, HG, HB, HC, HE⟩
  isplitl [HA]; · iexact HA
  isplitl [HG]; · iexact HG
  isplitl [HB]; · iexact HB
  isplitl [HC]; · iexact HC
  iexact HE

/-- The grid coordinates of core c's subcore s. -/
def coordsV (c : Fin (grid2.bound 0)) (s : Fin (grid2.bound 1)) : grid2.Coords :=
  fun | 0 => c | 1 => s | ⟨_ + 2, h⟩ => absurd h (Nat.not_lt.2 (Nat.le_add_left _ _))

/-- The body table at the kernel's label on a vector subcore: the body at that subcore's coordinates. -/
theorem defs₀_vector (c : Fin τ.nSC) (s : Fin τ.nSub) :
    defs₀ (F := F) (.scVector c s) 2 ()
      = SparseCore.onTile hcore2 hsub2 (fun c s => bodyAt (F := F) (coordsV c s)) ⟨⟩ c s := rfl

/-- THE OBLIGATION: a proof of the body's specification is the launch theorem's obligation for the kernel. -/
theorem tileObl_of_body (hF : (K (F := F)).Facts) (X : Arrays F) (hb : TileBodySpec X) :
    (K (F := F)).TileObl (D (F := F)) 𝒱 (P X) v₀ 0 := by
  intro d c i O W hO _ _
  -- the kernel owes nothing for a protocol of its own
  simp only [show (P X).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  rw [(K (F := F)).scopedBufs_V hF, SparseCore.Cfg.scopedSems0_V]
  exact drop_emp.trans (tile_spec d (coordsV ⟨_, hc.1⟩ ⟨_, hc.2⟩) X hb O W hO)

end Cert.Proof.KK

end
-- ==== Proof.PreRange.lean ====
/-
  The precondition read back. The input-domain predicate is a conjunction of four `all`s: the two tables finite, and
  every word number within 0 … 99999 and every extended-word number within 0 … 999999, the comparisons signed.
  An `all` that came out 1 had a 1 at every position, and a 32-bit word that is at least 0 and at most n < 2³¹ when
  read signed reads the same unsigned and signed, and is at most n. Only the two index ranges are kept.
-/
import proofs.«206319_g15771119910948_cont_week2b_672_19_alg».proof.Pre_input_domain
import proofs.«206319_g15771119910948_cont_week2b_672_19_alg».proof.Proof.Gen.Pre_input_domain
import Idealize.ShloMosaic.Lib.ReduceAll

noncomputable section

namespace Cert.PreRange

open Idealize.ShloMosaic

/-- A word that compares ≥ 0 and ≤ n signed, n below 2³¹, is at most n unsigned and reads the same both ways. -/
theorem word_range (w : BitVec 32) (n : Nat) (hn : n < 2 ^ 31)
    (h0 : IntOp.cmpi .sge w (0#32) = 1#1) (h1 : IntOp.cmpi .sle w (BitVec.ofNat 32 n) = 1#1) :
    w.toNat ≤ n ∧ w.toInt = (w.toNat : Int) := by
  rw [IntOp.cmpi_sge, show (0#32 : BitVec 32).toInt = 0 from by decide] at h0
  rw [IntOp.cmpi_sle, BitVec.toInt_ofNat', Int.bmod_eq_of_le (by omega) (by omega)] at h1
  have hc := BitVec.toInt_eq_toNat_cond w
  have hlt := w.isLt
  split at hc <;> constructor <;> omega

/-- The result shape of an `all` has one index. -/
instance : Subsingleton Cert.Pre_input_domain.S_.Idx := ⟨fun a b => funext fun i => i.elim0⟩

/-- Under the input-domain predicate every word number is within 0 … 99999 and every extended-word number within
    0 … 999999, and each reads the same signed and unsigned. -/
theorem idx_range {F : FTy → Type} [FloatOps F] [Cert.Pre_input_domain.Facts]
    (a0 a1 : IVec Cert.Pre_input_domain.S4096x200 32) (a2 : FVec F Cert.Pre_input_domain.S100000x100 .f32)
    (a3 : FVec F Cert.Pre_input_domain.S1000000x100 .f32)
    (h : Cert.Pre_input_domain.fn (F := F) a0 a1 a2 a3 = fun _ => 1#1) :
    (∀ i, (a0 i).toNat ≤ 99999 ∧ (a0 i).toInt = ((a0 i).toNat : Int))
      ∧ (∀ i, (a1 i).toNat ≤ 999999 ∧ (a1 i).toInt = ((a1 i).toNat : Int)) := by
  have e := congrFun h (fun a => a.elim0)
  unfold Cert.Pre_input_domain.fn Cert.Pre_input_domain.fn_part1 at e
  simp only [andi, IntOp.andi_eq_one] at e
  obtain ⟨⟨-, h0⟩, h1⟩ := e
  constructor
  · intro i
    have hi := Host.reduce_andi_all _ _ _ _ _ h0 i
    simp only [andi, cmpi, broadcastInDim, constantI, IntOp.andi_eq_one] at hi
    exact word_range _ 99999 (by decide) hi.1 hi.2
  · intro i
    have hi := Host.reduce_andi_all _ _ _ _ _ h1 i
    simp only [andi, cmpi, broadcastInDim, constantI, IntOp.andi_eq_one] at hi
    exact word_range _ 999999 (by decide) hi.1 hi.2

end Cert.PreRange

end
-- ==== Proof.RefOps.lean ====
/-
  The reference program run: its @main is a straight line of forty-seven host operations once the two look-up
  functions (and the `where` each calls) are unfolded at their calls, so every weakly fair execution ends, nothing
  faults, and each buffer holds the operations' composed value of the four arguments. That composed value is named
  here stage by stage: a look-up wraps a negative index by adding the row count, makes the indices a column, tests
  0 ≤ index ≤ last row, gathers the rows, and keeps a gathered row where the test holds (a fill value elsewhere);
  the result is the sum of the two look-ups.
-/
import proofs.«206319_g15771119910948_cont_week2b_672_19_alg».proof.ReferenceIdeal
import proofs.«206319_g15771119910948_cont_week2b_672_19_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of one look-up -/

/-- An index below zero has the row count `n` added; any other is kept. -/
def wrap (n : BitVec 32) (idx : IVec S4096x200 32) : IVec S4096x200 32 :=
  select (cmpi .slt idx (broadcastInDim S4096x200 ![] bcast_S_S4096x200 (constantI S_ 32 0#32)))
    (addi idx (broadcastInDim S4096x200 ![] bcast_S_S4096x200 (constantI S_ 32 n))) idx

/-- The indices as a column: one index vector of length one per position. -/
def col (w : IVec S4096x200 32) : IVec S4096x200x1 32 :=
  broadcastInDim S4096x200x1 ![0, 1] bcast_S4096x200_S4096x200x1_0_1 w

/-- Per position: is the index at least 0 and at most `last` (signed)? The `and` over the unit axis of the two tests. -/
def inRange (last : BitVec 32) (c : IVec S4096x200x1 32) : IVec S4096x200 1 :=
  Host.reduce IntOp.andi
    (andi (cmpi .sge c (broadcastInDim S4096x200x1 ![] bcast_S_S4096x200x1 (constantI S_ 32 0#32)))
      (cmpi .sle c (broadcastInDim S4096x200x1 ![0, 1, 2] bcast_S1x1x1_S4096x200x1_0_1_2
        (broadcastInDim S1x1x1 ![2] bcast_S1_S1x1x1_2 (constantI S1 32 last)))))
    (constantI S_ 1 1#1) reducesTo_S4096x200x1_S4096x200_d2 h_S_

/-- A gathered row where the position's test holds, the fill value (the bits 0x7FC00000) elsewhere. -/
def fill (ok : IVec S4096x200 1) (rows : FVec F S4096x200x100 .f32) : FVec F S4096x200x100 .f32 :=
  select (broadcastInDim S4096x200x100 ![0, 1] bcast_S4096x200_S4096x200x100_0_1 ok) rows
    (broadcastInDim S4096x200x100 ![] bcast_S_S4096x200x100 (constant S_ .f32 0x7FC00000#32))

/-- The look-up into the word table as the program computes it. -/
def takeW (idx : IVec S4096x200 32) (tbl : FVec F S100000x100 .f32) : FVec F S4096x200x100 .f32 :=
  fill (inRange 99999#32 (col (wrap 100000#32 idx))) (Host.gather gather_S100000x100_S4096x200x1_S4096x200x100_2_0_n_n_0_2_1100 tbl (col (wrap 100000#32 idx)))

/-- The look-up into the extended-word table as the program computes it. -/
def takeE (idx : IVec S4096x200 32) (tbl : FVec F S1000000x100 .f32) : FVec F S4096x200x100 .f32 :=
  fill (inRange 999999#32 (col (wrap 1000000#32 idx))) (Host.gather gather_S1000000x100_S4096x200x1_S4096x200x100_2_0_n_n_0_2_1100 tbl (col (wrap 1000000#32 idx)))

/-- The program's result as one function of its four arguments. -/
def refOut (a0 a1 : IVec S4096x200 32) (a2 : FVec F S100000x100 .f32) (a3 : FVec F S1000000x100 .f32) :
    FVec F S4096x200x100 .f32 :=
  addf (takeW a0 a2) (takeE a1 a3)

/-! ## The program as a list of operations -/

/-- @main's operations in order, the calls unfolded: each look-up is twenty-three (the `where` it calls is the one
    select, into that call's own buffer), then the sum. -/
abbrev ops : List (HloOp τ sig (Elt F)) :=
  [
    TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg2) main_call0.v5 main_call0.v13 (fun x i => Host.gather gather_S100000x100_S4096x200x1_S4096x200x100_2_0_n_n_0_2_1100 x i),
    TRef.unary main_call0.v12 main_call0.v14 (broadcastInDim S4096x200x100 ![0, 1] bcast_S4096x200_S4096x200x100_0_1),
    TRef.nullary main_call0.cst (constant S_ .f32 0x7FC00000#32),
    TRef.unary main_call0.cst main_call0.v15 (broadcastInDim S4096x200x100 ![] bcast_S_S4096x200x100),
    TRef.ternary main_call0.v14 main_call0.v13 main_call0.v15 main_call0.v16 select,
    TRef.nullary main_call1.c (constantI S_ 32 0#32),
    TRef.unary main_call1.c main_call1.v0 (broadcastInDim S4096x200 ![] bcast_S_S4096x200),
    TRef.binary (.of main_arg1) main_call1.v0 main_call1.v1 (cmpi .slt),
    TRef.nullary main_call1.c_0 (constantI S_ 32 1000000#32),
    TRef.unary main_call1.c_0 main_call1.v2 (broadcastInDim S4096x200 ![] bcast_S_S4096x200),
    TRef.binary (.of main_arg1) main_call1.v2 main_call1.v3 addi,
    TRef.ternary main_call1.v1 main_call1.v3 (.of main_arg1) main_call1.call0.v0 select,
    TRef.unary main_call1.call0.v0 main_call1.v5 (broadcastInDim S4096x200x1 ![0, 1] bcast_S4096x200_S4096x200x1_0_1),
    TRef.nullary main_call1.c_1 (constantI S1 32 999999#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_),
    TRef.binary (.of main_arg3) main_call1.v5 main_call1.v13 (fun x i => Host.gather gather_S1000000x100_S4096x200x1_S4096x200x100_2_0_n_n_0_2_1100 x i),
    TRef.unary main_call1.v12 main_call1.v14 (broadcastInDim S4096x200x100 ![0, 1] bcast_S4096x200_S4096x200x100_0_1),
    TRef.nullary main_call1.cst (constant S_ .f32 0x7FC00000#32),
    TRef.unary main_call1.cst main_call1.v15 (broadcastInDim S4096x200x100 ![] bcast_S_S4096x200x100),
    TRef.ternary main_call1.v14 main_call1.v13 main_call1.v15 main_call1.v16 select,
    binary main_v0 main_v1 main_v2 (addf : (⟨S4096x200x100, .f32⟩ : BufTy).Contents (Elt F) → (⟨S4096x200x100, .f32⟩ : BufTy).Contents (Elt F) → (⟨S4096x200x100, .f32⟩ : BufTy).Contents (Elt F)) ]

-- forty-seven binds re-associated
set_option maxRecDepth 2048 in
/-- @main is that straight line: the functions' definitions unfolded at their calls, both sides are one chain of
    steps once sequencing is re-associated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-- Every weakly fair execution of @main ends, nothing faulting, with every buffer at the fold of the operations'
    results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves at the result and at the arguments -/

attribute [local irreducible] Host.reduce Host.gather in
set_option maxRecDepth 8192 in
/-- The fold at the result buffer is `refOut` of the arguments' contents: each operation's result at its own buffer
    is its function of its operands' contents, at any other buffer what was there; the reduction and the gathers are
    kept folded meanwhile (the equation never looks inside them). -/
theorem out_eq (V : Valuation τ sig (Elt F)) :
    after ops V (main_v2 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- Every weakly fair execution of @main ends, nothing faulting, with the result buffer at `refOut` of the four
    argument arrays and the argument arrays unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v2).trans (out_eq _), (h c main_arg0).trans (arg0_eq _),
      (h c main_arg1).trans (arg1_eq _), (h c main_arg2).trans (arg2_eq _), (h c main_arg3).trans (arg3_eq _)⟩)
    (run_main m ρ)

end Cert.RefRun

end
-- ==== Proof.LibTakeRows.lean ====
/-
  ROWS OF A MATRIX TAKEN AT A TWO-DIMENSIONAL ARRAY OF INDICES, READ AT AN INDEX — general lemmas, no program imported.

  `x[idx]` along axis 0 of a matrix `x : [N, K]` at an integer array `idx : [B, S]` lowers to `stablehlo.gather`
  (PureOps/ShapeOps.lean `Host.gather`) over the indices made a column `[B, S, 1]`, with offset_dims `[2]`,
  collapsed_slice_dims `[0]`, start_index_map `[0]`, index_vector_dim 2 and slice sizes `[1, K]` (`rowsDims`). Result
  element `(b, s, k)` is the operand at row `idx[b, s, 0]` — read as a signed integer and clamped into `[0, N − 1]`, as
  StableHLO's gather clamps every start index: a negative start reads row 0, one past the end the last row — at column
  `k` (`gather_rows_apply`); no range hypothesis on the indices is needed.
  Beside it, the converse of Lib/ReduceAll.lean's reading of an `and`-reduction: a `stablehlo.reduce` by `and` from 1 over
  an operand that is 1 everywhere is 1 at every result index (`reduce_andi_of_forall`).
-/
import Idealize.ShloMosaic.Lib.ValueIdx
import Idealize.ShloMosaic.Lib.ReduceAll

noncomputable section

namespace TakeRows

open Idealize.ShloMosaic Idealize.ShloMosaic.ValueIdx

variable {α : Type}

/-! ## The row gather at a two-dimensional array of indices -/

/-- The dimension numbers of `x[idx]` along axis 0 of a matrix `[N, K]`, the indices `[B, S]` made a column `[B, S, 1]`. -/
abbrev rowsDims (N K B S : Nat)
    (wf : GatherDims.WF ⟨2, ![N, K]⟩ ⟨3, ![B, S, 1]⟩ ⟨3, ![B, S, K]⟩ [2] [0] [] [0] [] 2 ![1, K]) :
    GatherDims ⟨2, ![N, K]⟩ ⟨3, ![B, S, 1]⟩ ⟨3, ![B, S, K]⟩ where
  offsetDims := [2]
  collapsedSliceDims := [0]
  operandBatchingDims := []
  startIndicesBatchingDims := []
  startIndexMap := [0]
  indexVectorDim := 2
  sliceSizes := ![1, K]
  wf := wf

/-- THE ROW GATHER READ AT `(b, s, k)`: the operand's row at the start index `idx[b, s, 0]`, read signed and clamped into
    `[0, N − 1]`, at column `k`. -/
theorem gather_rows_apply {N K B S w : Nat} (hN : 0 < N)
    (wf : GatherDims.WF ⟨2, ![N, K]⟩ ⟨3, ![B, S, 1]⟩ ⟨3, ![B, S, K]⟩ [2] [0] [] [0] [] 2 ![1, K])
    (x : (⟨2, ![N, K]⟩ : Shape).Idx → α) (idx : IVec ⟨3, ![B, S, 1]⟩ w) (b : Fin B) (s : Fin S) (k : Fin K) :
    Host.gather (rowsDims N K B S wf) x idx (ix3 b s k)
      = x (ix2 ⟨min (idx (ix3 b s (0 : Fin 1))).toInt.toNat (N - 1), by omega⟩ k) := by
  unfold Host.gather
  congr 1
  funext a
  refine Fin.ext ?_
  have h10 : (1 : Fin 2) ∉ ([0] : List (Fin 2)) := by decide
  match a with
  | ⟨0, _⟩ =>
    show (rowsDims N K B S wf).start (ix3 b s k) idx 0 + (rowsDims N K B S wf).batchCoord (ix3 b s k) 0
      + (rowsDims N K B S wf).offCoord (ix3 b s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K B S wf).startIndexMap from List.mem_singleton.mpr rfl)]
    have hsi : (rowsDims N K B S wf).siIdx (ix3 b s k) ⟨List.idxOf (0 : Fin 2) (rowsDims N K B S wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show (rowsDims N K B S wf).start (ix3 b s k) idx 1 + (rowsDims N K B S wf).batchCoord (ix3 b s k) 1
      + (rowsDims N K B S wf).offCoord (ix3 b s k) 1 = k.val
    rw [GatherDims.batchCoord_eq_zero _ _ _ List.not_mem_nil]
    have hst : (rowsDims N K B S wf).start (ix3 b s k) idx 1 = 0 := by
      unfold GatherDims.start; rw [dif_neg h10]
    have hof : (rowsDims N K B S wf).offCoord (ix3 b s k) 1 = k.val := by
      unfold GatherDims.offCoord
      rw [dif_pos ((GatherDims.mem_sKept _ _).mpr ⟨h10, List.not_mem_nil⟩)]
      rfl
    rw [hst, hof]; omega

/-! ## An `and`-reduction of ones -/

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A `stablehlo.reduce` by `and`, from an initial value that is 1, of an operand that is 1 at every index is 1 at every
    result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun i _ => hx i

end TakeRows

end
-- ==== Proof.RefRead.lean ====
/-
  The reference's composed value is the specification, under the index ranges. With every index at least 0 (read signed)
  the wrap keeps it; with it at most the last row the range test is 1 at every position, so the fill is never taken;
  the gather reads the table's row at the index read signed and clamped into the table, and for an index that reads
  the same signed and unsigned that row is the specification's `rowOf` (whose cap is the same clamp). Each stage is
  read at one index; nothing full-size is compared.
-/
import proofs.«206319_g15771119910948_cont_week2b_672_19_alg».proof.Proof.RefOps
import proofs.«206319_g15771119910948_cont_week2b_672_19_alg».proof.Proof.EmbSpec
import proofs.«206319_g15771119910948_cont_week2b_672_19_alg».proof.Proof.LibTakeRows
import Idealize.ShloMosaic.Lib.Pipeline.Value

noncomputable section

namespace Cert.RefRun

open Cert.ReferenceIdeal Cert.ReferenceIdeal.Gen Idealize.ShloMosaic Idealize.ShloMosaic.ValueIdx

variable {F : FTy → Type} [FloatOps F]

/-- The wrap keeps an index that is not negative. -/
theorem wrap_apply (n : BitVec 32) (idx : IVec S4096x200 32) (j : S4096x200.Idx) (h : (idx j).toInt = ((idx j).toNat : Int)) :
    wrap n idx j = idx j := by
  have hc : IntOp.cmpi .slt (idx j) 0#32 = 0#1 := by
    refine eq_zero_of_ne_one fun hlt => ?_
    rw [IntOp.cmpi_slt, show (0#32 : BitVec 32).toInt = 0 from by decide] at hlt
    omega
  simp only [wrap, select, cmpi, broadcastInDim, constantI, hc]
  exact select_zero _ _

/-- The column of indices at `(b, s, ·)` is the index at `(b, s)`. -/
theorem col_apply (w : IVec S4096x200 32) (i : S4096x200x1.Idx) : col w i = w (ix2 (i 0) (i 1)) :=
  broadcastInDim_apply _ _ w i (ix2 (i 0) (i 1)) fun a => match a with | ⟨0, _⟩ => rfl | ⟨1, _⟩ => rfl

/-- The range test is 1 at every position when every index is within 0 … `last`. -/
theorem inRange_apply (last : Nat) (hl : last < 2 ^ 31) (w : IVec S4096x200 32)
    (hw : ∀ j, (w j).toNat ≤ last ∧ (w j).toInt = ((w j).toNat : Int)) (j : S4096x200.Idx) :
    inRange (BitVec.ofNat 32 last) (col w) j = 1#1 := by
  unfold inRange
  refine TakeRows.reduce_andi_of_forall _ _ _ _ rfl (fun i => ?_) j
  obtain ⟨h1, h2⟩ := hw (ix2 (i 0) (i 1))
  simp only [andi, cmpi, broadcastInDim, constantI, col_apply, IntOp.andi_eq_one, IntOp.cmpi_sge, IntOp.cmpi_sle]
  rw [show (0#32 : BitVec 32).toInt = 0 from by decide, BitVec.toInt_ofNat', Int.bmod_eq_of_le (by omega) (by omega), h2]
  constructor <;> omega

/-- A position whose test is 1 keeps its gathered row. -/
theorem fill_apply (ok : IVec S4096x200 1) (rows : FVec F S4096x200x100 .f32) (i : S4096x200x100.Idx)
    (h : ok (ix2 (i 0) (i 1)) = 1#1) : fill ok rows i = rows i := by
  have hb : broadcastInDim S4096x200x100 ![0, 1] bcast_S4096x200_S4096x200x100_0_1 ok i = ok (ix2 (i 0) (i 1)) :=
    broadcastInDim_apply _ _ ok i (ix2 (i 0) (i 1)) fun a => match a with | ⟨0, _⟩ => rfl | ⟨1, _⟩ => rfl
  unfold fill
  rw [select_apply, hb, h]
  exact select_one _ _

/-- The program's word look-up at `(b, s, k)`: the table's row the index names, at column `k`. -/
theorem takeW_apply (idx : IVec S4096x200 32) (tbl : FVec F S100000x100 .f32)
    (h : ∀ j, (idx j).toNat ≤ 99999 ∧ (idx j).toInt = ((idx j).toNat : Int)) (b : Fin 4096) (s : Fin 200) (k : Fin 100) :
    takeW idx tbl (ix3 b s k) = tbl (ix2 (Cert.EmbSpec.rowOf 100000 (by decide) (idx (ix2 b s))) k) := by
  have hwf : wrap 100000#32 idx = idx := funext fun j => wrap_apply _ idx j (h j).2
  unfold takeW
  rw [hwf, fill_apply _ _ _ (inRange_apply 99999 (by decide) idx h _)]
  have hg : gather_S100000x100_S4096x200x1_S4096x200x100_2_0_n_n_0_2_1100 = TakeRows.rowsDims 100000 100 4096 200 gather_S100000x100_S4096x200x1_S4096x200x100_2_0_n_n_0_2_1100_wf := rfl
  rw [hg, TakeRows.gather_rows_apply (by decide)]
  refine congrArg tbl (congrArg (fun r => ix2 r k) (Fin.ext ?_))
  show min (col idx (ix3 b s (0 : Fin 1))).toInt.toNat (100000 - 1) = min (idx (ix2 b s)).toNat (100000 - 1)
  rw [col_apply]
  show min (idx (ix2 b s)).toInt.toNat (100000 - 1) = min (idx (ix2 b s)).toNat (100000 - 1)
  rw [(h _).2, Int.toNat_natCast]

/-- The program's word look-up is the specification's, the indices within 0 … 99999. -/
theorem takeW_eq (idx : IVec S4096x200 32) (tbl : FVec F S100000x100 .f32)
    (h : ∀ j, (idx j).toNat ≤ 99999 ∧ (idx j).toInt = ((idx j).toNat : Int)) :
    takeW idx tbl = Cert.EmbSpec.wordRows idx tbl := by
  funext i
  have hi : i = ix3 (n0 := 4096) (n1 := 200) (n2 := 100) (i 0) (i 1) (i 2) := eq_ix3 i
  rw [hi]
  exact takeW_apply idx tbl h (i 0) (i 1) (i 2)

/-- The program's extended-word look-up at `(b, s, k)`: the table's row the index names, at column `k`. -/
theorem takeE_apply (idx : IVec S4096x200 32) (tbl : FVec F S1000000x100 .f32)
    (h : ∀ j, (idx j).toNat ≤ 999999 ∧ (idx j).toInt = ((idx j).toNat : Int)) (b : Fin 4096) (s : Fin 200) (k : Fin 100) :
    takeE idx tbl (ix3 b s k) = tbl (ix2 (Cert.EmbSpec.rowOf 1000000 (by decide) (idx (ix2 b s))) k) := by
  have hwf : wrap 1000000#32 idx = idx := funext fun j => wrap_apply _ idx j (h j).2
  unfold takeE
  rw [hwf, fill_apply _ _ _ (inRange_apply 999999 (by decide) idx h _)]
  have hg : gather_S1000000x100_S4096x200x1_S4096x200x100_2_0_n_n_0_2_1100 = TakeRows.rowsDims 1000000 100 4096 200 gather_S1000000x100_S4096x200x1_S4096x200x100_2_0_n_n_0_2_1100_wf := rfl
  rw [hg, TakeRows.gather_rows_apply (by decide)]
  refine congrArg tbl (congrArg (fun r => ix2 r k) (Fin.ext ?_))
  show min (col idx (ix3 b s (0 : Fin 1))).toInt.toNat (1000000 - 1) = min (idx (ix2 b s)).toNat (1000000 - 1)
  rw [col_apply]
  show min (idx (ix2 b s)).toInt.toNat (1000000 - 1) = min (idx (ix2 b s)).toNat (1000000 - 1)
  rw [(h _).2, Int.toNat_natCast]

/-- The program's extended-word look-up is the specification's, the indices within 0 … 999999. -/
theorem takeE_eq (idx : IVec S4096x200 32) (tbl : FVec F S1000000x100 .f32)
    (h : ∀ j, (idx j).toNat ≤ 999999 ∧ (idx j).toInt = ((idx j).toNat : Int)) :
    takeE idx tbl = Cert.EmbSpec.extRows idx tbl := by
  funext i
  have hi : i = ix3 (n0 := 4096) (n1 := 200) (n2 := 100) (i 0) (i 1) (i 2) := eq_ix3 i
  rw [hi]
  exact takeE_apply idx tbl h (i 0) (i 1) (i 2)

/-- The program's result is the specification function of its arguments, under the two index ranges. -/
theorem refOut_eq (a0 a1 : IVec S4096x200 32) (a2 : FVec F S100000x100 .f32) (a3 : FVec F S1000000x100 .f32)
    (h0 : ∀ j, (a0 j).toNat ≤ 99999 ∧ (a0 j).toInt = ((a0 j).toNat : Int))
    (h1 : ∀ j, (a1 j).toNat ≤ 999999 ∧ (a1 j).toInt = ((a1 j).toNat : Int)) :
    refOut a0 a1 a2 a3 = Cert.EmbSpec.lookupSum a0 a1 a2 a3 := by
  unfold refOut Cert.EmbSpec.lookupSum
  rw [takeW_eq a0 a2 h0, takeE_eq a1 a3 h1]

end Cert.RefRun

end
-- ==== Proof.RefRun.lean ====
/-
  The reference side of the certificate: under the input-domain precondition every weakly fair execution of the
  idealized reference ends, nothing faulting, with its result the specification function `lookupSum` of its four
  argument arrays — the sum of the two embedding look-ups — and the argument arrays unchanged. The run is the
  straight line of host operations (RefOps), its composed value is the specification under the index ranges
  (RefRead), and the precondition gives the index ranges (PreRange).
-/
import proofs.«206319_g15771119910948_cont_week2b_672_19_alg».proof.Defs
import proofs.«206319_g15771119910948_cont_week2b_672_19_alg».proof.Proof.Gen.ReferenceIdeal
import proofs.«206319_g15771119910948_cont_week2b_672_19_alg».proof.Proof.Gen.Pre_input_domain
import proofs.«206319_g15771119910948_cont_week2b_672_19_alg».proof.Proof.EmbSpec
import proofs.«206319_g15771119910948_cont_week2b_672_19_alg».proof.Proof.PreRange
import proofs.«206319_g15771119910948_cont_week2b_672_19_alg».proof.Proof.RefOps
import proofs.«206319_g15771119910948_cont_week2b_672_19_alg».proof.Proof.RefRead

noncomputable section

namespace Cert.RefRun

open Idealize.ShloMosaic Idealize.ShloMosaic.TcCoe Idealize.SL.Sem

/-- Under the precondition the idealized reference runs to the end, faults nowhere, leaves the specification function
    of its arguments in its result buffer and its arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
            = Cert.EmbSpec.lookupSum (F := Ideal)
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => by
      obtain ⟨hv, h0, h1, h2, h3⟩ := h c
      obtain ⟨r0, r1⟩ := Cert.PreRange.idx_range (F := Ideal) _ _ _ _ (hpre c)
      exact ⟨hv.trans (refOut_eq _ _ _ _ r0 r1), h0, h1, h2, h3⟩)
    (run_out (F := Ideal) m ρ)

end Cert.RefRun

end
-- ==== Proof.EmbGlue.lean ====
/-
  The kernel's arrangement against the specification's. The kernel leaves a matrix of 819200 rows of 100 and the
  program then reads it as 4096 sentences of 200 positions: entry (b, s, d) of the result is entry d of row
  200·b + s. That row stands for position (b, s), because s is below 200; and the widened tables are read only at
  columns below 100, where a widened table is the table itself. So the flat sum over the widened tables, read as
  sentences, is the sum of the two look-ups.
-/
import proofs.«206319_g15771119910948_cont_week2b_672_19_alg».proof.Proof.EmbFlat
import Idealize.ShloMosaic.Lib.Pipeline.Value

noncomputable section

namespace Cert.EmbSpec

open Idealize.ShloMosaic Idealize.ShloMosaic.ValueIdx

variable {F : FTy → Type} [FloatOps F]

/-- The row of the flat result that holds position (b, s). -/
def flatRow (b : Fin 4096) (s : Fin 200) : Fin 819200 :=
  ⟨200 * b.val + s.val, by have := b.isLt; have := s.isLt; omega⟩

theorem flatRow_val (b : Fin 4096) (s : Fin 200) : (flatRow b s).val = 200 * b.val + s.val := rfl

/-- The position a flat row stands for, at the row of position (b, s), is (b, s). -/
theorem posOf_flatRow (b : Fin 4096) (s : Fin 200) : posOf (flatRow b s) = ix2 (n0 := 4096) (n1 := 200) b s := by
  have hs := s.isLt
  funext a
  match a with
  | ⟨0, _⟩ => exact Fin.ext (show (200 * b.val + s.val) / 200 = b.val by omega)
  | ⟨1, _⟩ => exact Fin.ext (show (200 * b.val + s.val) % 200 = s.val by omega)

/-- Every flat row is the row of its own position. -/
theorem flatRow_posOf (r : Fin 819200) :
    flatRow ⟨r.val / 200, by have := r.isLt; omega⟩ ⟨r.val % 200, Nat.mod_lt _ (by decide)⟩ = r :=
  Fin.ext (show 200 * (r.val / 200) + r.val % 200 = r.val by omega)

/-- A matrix of 819200 rows of 100 read as 4096 sentences of 200 positions: entry (b, s, d) is entry d of row 200·b + s. -/
theorem shapeCast_flat_apply {α : Type} (x : SFlat.Idx → α) (h : SFlat.ShapeCasts SOut)
    (b : Fin 4096) (s : Fin 200) (d : Fin 100) :
    shapeCast SOut x h (ix3 (n0 := 4096) (n1 := 200) (n2 := 100) b s d)
      = x (ix2 (n0 := 819200) (n1 := 100) (flatRow b s) d) :=
  shapeCast_apply x h (ix3 (n0 := 4096) (n1 := 200) (n2 := 100) b s d) (ix2 (n0 := 819200) (n1 := 100) (flatRow b s) d) (by
    rw [Shape.rowMajor_val_two, Shape.rowMajor_val_three]
    show (200 * b.val + s.val) * 100 + d.val = (b.val * 200 + s.val) * 100 + d.val
    omega)

/-- The flat sum at the row of position (b, s) and column d, over any widened tables. -/
theorem flatSum_flatRow (widx eidx : IVec SPos 32) (wt : FVec F SWordP .f32) (et : FVec F SExtP .f32)
    (b : Fin 4096) (s : Fin 200) (d : Fin 100) :
    flatSum widx eidx wt et (ix2 (n0 := 819200) (n1 := 100) (flatRow b s) d)
      = FloatOps.addf
          (wt (ix2 (n0 := 100000) (n1 := 128) (rowOf 100000 (by decide) (widx (ix2 (n0 := 4096) (n1 := 200) b s))) (col128 d)))
          (et (ix2 (n0 := 1000000) (n1 := 128) (rowOf 1000000 (by decide) (eidx (ix2 (n0 := 4096) (n1 := 200) b s))) (col128 d))) := by
  show FloatOps.addf
      (wt (ix2 (n0 := 100000) (n1 := 128) (rowOf 100000 (by decide) (widx (posOf (flatRow b s)))) (col128 d)))
      (et (ix2 (n0 := 1000000) (n1 := 128) (rowOf 1000000 (by decide) (eidx (posOf (flatRow b s)))) (col128 d))) = _
  rw [posOf_flatRow]

/-- The sum of the two look-ups at (b, s, d). -/
theorem lookupSum_apply (widx eidx : IVec SPos 32) (w : FVec F SWord .f32) (e : FVec F SExt .f32)
    (b : Fin 4096) (s : Fin 200) (d : Fin 100) :
    lookupSum widx eidx w e (ix3 (n0 := 4096) (n1 := 200) (n2 := 100) b s d)
      = FloatOps.addf
          (w (ix2 (n0 := 100000) (n1 := 100) (rowOf 100000 (by decide) (widx (ix2 (n0 := 4096) (n1 := 200) b s))) d))
          (e (ix2 (n0 := 1000000) (n1 := 100) (rowOf 1000000 (by decide) (eidx (ix2 (n0 := 4096) (n1 := 200) b s))) d)) := rfl

/-- The flat sum over the widened tables, read as sentences of positions, is the sum of the two look-ups. -/
theorem reshape_flatSum (widx eidx : IVec SPos 32) (w : FVec F SWord .f32) (e : FVec F SExt .f32)
    (h : SFlat.ShapeCasts SOut) :
    shapeCast SOut (flatSum widx eidx (padCols w) (padCols e)) h = lookupSum widx eidx w e := by
  funext i
  obtain ⟨b, s, d, rfl⟩ : ∃ (b : Fin 4096) (s : Fin 200) (d : Fin 100), i = ix3 (n0 := 4096) (n1 := 200) (n2 := 100) b s d :=
    ⟨i 0, i 1, i 2, eq_ix3 i⟩
  rw [shapeCast_flat_apply, flatSum_flatRow, lookupSum_apply, padCols_col128, padCols_col128]

/-- The same, entry by entry of the flat result: row r, column d is the look-ups' sum at r's position. -/
theorem flatSum_padCols_apply (widx eidx : IVec SPos 32) (w : FVec F SWord .f32) (e : FVec F SExt .f32)
    (r : Fin 819200) (d : Fin 100) :
    flatSum widx eidx (padCols w) (padCols e) (ix2 (n0 := 819200) (n1 := 100) r d)
      = FloatOps.addf
          (w (ix2 (n0 := 100000) (n1 := 100) (rowOf 100000 (by decide) (widx (posOf r))) d))
          (e (ix2 (n0 := 1000000) (n1 := 100) (rowOf 1000000 (by decide) (eidx (posOf r))) d)) := by
  show FloatOps.addf
      (padCols w (ix2 (n0 := 100000) (n1 := 128) (rowOf 100000 (by decide) (widx (posOf r))) (col128 d)))
      (padCols e (ix2 (n0 := 1000000) (n1 := 128) (rowOf 1000000 (by decide) (eidx (posOf r))) (col128 d))) = _
  rw [padCols_col128, padCols_col128]

end Cert.EmbSpec

end
-- ==== Proof.Assemble.lean ====
/-
  The certificate assembled from the vector subcores' task. Given the task's specification for each of the two printed
  programs — under in-range indices a vector subcore turns its read shares of the four inputs and its block of the
  flat result into the same shares and the block at the flat sum of the two look-ups — the five claims follow.
  The input-domain precondition says every word number is below 100000 and every extended-word number below 1000000,
  which is what "in range" asks of the arrays the SparseCore call finds. Each program's run then ends with the
  reshaped flat sum over the widened tables in its result and its four arguments unchanged; dropping the result's
  value gives the two frames. Read as sentences of positions, the flat sum over the widened tables is the sum of the
  two look-ups of the tables themselves, which is also what the reference leaves; run from memories that agree on the
  four arguments, the two idealized programs therefore end with equal results. The idealization rewrote nothing.
-/
import proofs.«206319_g15771119910948_cont_week2b_672_19_alg».proof.Defs
import proofs.«206319_g15771119910948_cont_week2b_672_19_alg».proof.Proof.Gen.Kernel
import proofs.«206319_g15771119910948_cont_week2b_672_19_alg».proof.Proof.Gen.KernelIdeal
import proofs.«206319_g15771119910948_cont_week2b_672_19_alg».proof.Proof.Gen.ReferenceIdeal
import proofs.«206319_g15771119910948_cont_week2b_672_19_alg».proof.Proof.Gen.Pre_input_domain
import proofs.«206319_g15771119910948_cont_week2b_672_19_alg».proof.Proof.KI.LaunchMain
import proofs.«206319_g15771119910948_cont_week2b_672_19_alg».proof.Proof.KI.TileCtx
import proofs.«206319_g15771119910948_cont_week2b_672_19_alg».proof.Proof.KK.LaunchMain
import proofs.«206319_g15771119910948_cont_week2b_672_19_alg».proof.Proof.KK.TileCtx
import proofs.«206319_g15771119910948_cont_week2b_672_19_alg».proof.Proof.RefRun
import proofs.«206319_g15771119910948_cont_week2b_672_19_alg».proof.Proof.EmbGlue
import proofs.«206319_g15771119910948_cont_week2b_672_19_alg».proof.Proof.PreRange

noncomputable section

namespace Cert.Proof.Assemble

open Idealize.ShloMosaic Idealize.ShloMosaic.TcCoe Idealize.SL.Sem

/-! ## The precondition gives the index ranges the call needs -/

theorem inRange_KI (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    Cert.Proof.KI.InRange (Cert.Proof.KI.arraysOf m) := by
  intro d
  obtain ⟨r0, r1⟩ := Cert.PreRange.idx_range (F := Ideal) _ _ _ _ (hpre d)
  exact ⟨fun j => Nat.lt_succ_of_le (r0 j).1, fun j => Nat.lt_succ_of_le (r1 j).1⟩

theorem inRange_KK (m : (ℓ : Loc Cert.Kernel.nD Cert.Kernel.τ Cert.Kernel.sig) → Buf (Elt Bits) ℓ)
    (hpre : Cert.Pre_Kernel (hPre_input_domain := Cert.Pre_input_domain.Gen.facts) m) :
    Cert.Proof.KK.InRange (Cert.Proof.KK.arraysOf m) := by
  intro d
  obtain ⟨r0, r1⟩ := Cert.PreRange.idx_range (F := Bits) _ _ _ _ (hpre d)
  exact ⟨fun j => Nat.lt_succ_of_le (r0 j).1, fun j => Nat.lt_succ_of_le (r1 j).1⟩

/-! ## The two programs' runs -/

/-- The idealized kernel's run: the result at the sum of the two look-ups, the arguments unchanged. -/
theorem run_KI (hI : ∀ X : Cert.Proof.KI.Arrays Ideal, Cert.Proof.KI.InRange X → Cert.Proof.KI.TileBodySpec X)
    (m : (ℓ : Loc Cert.KernelIdeal.nD Cert.KernelIdeal.τ Cert.KernelIdeal.sig) → Buf (Elt Ideal) ℓ) (g : Dev Cert.KernelIdeal.nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v3)
          = Cert.EmbSpec.lookupSum (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono
    (fun _ h c => ⟨(h c).1.trans (Cert.EmbSpec.reshape_flatSum (F := Ideal) _ _ _ _ _), (h c).2⟩)
    (Cert.Proof.KI.run_main (F := Ideal) m g
      (Cert.Proof.KI.tileObl_of_body Cert.Proof.KI.facts (Cert.Proof.KI.arraysOf m) (hI _ (inRange_KI m hpre))))

theorem frame_KI (hI : ∀ X : Cert.Proof.KI.Arrays Ideal, Cert.Proof.KI.InRange X → Cert.Proof.KI.TileBodySpec X) :
    Cert.frame_KernelIdeal (hKernelIdeal := Cert.KernelIdeal.Gen.facts) (hPre_input_domain := Cert.Pre_input_domain.Gen.facts) :=
  fun m g hpre => (θ_run (Cert.KernelIdeal.defs (F := Ideal)) _ _).mono (fun _ h c => (h c).2) (run_KI hI m g hpre)

theorem frame_KK (hB : ∀ X : Cert.Proof.KK.Arrays Bits, Cert.Proof.KK.InRange X → Cert.Proof.KK.TileBodySpec X) :
    Cert.frame_Kernel (hKernel := Cert.Kernel.Gen.facts) (hPre_input_domain := Cert.Pre_input_domain.Gen.facts) :=
  fun m g hpre => (θ_run (Cert.Kernel.defs (F := Bits)) _ _).mono (fun _ h c => (h c).2)
    (Cert.Proof.KK.run_main (F := Bits) m g
      (Cert.Proof.KK.tileObl_of_body Cert.Proof.KK.facts (Cert.Proof.KK.arraysOf m) (hB _ (inRange_KK m hpre))))

theorem frame_Ref : Cert.frame_ReferenceIdeal (hReferenceIdeal := Cert.ReferenceIdeal.Gen.facts) (hPre_input_domain := Cert.Pre_input_domain.Gen.facts) :=
  fun m g hpre => (θ_run (Cert.ReferenceIdeal.defs (F := Ideal)) _ _).mono (fun _ h c => (h c).2) (Cert.RefRun.run m g hpre)

/-! ## The two idealized programs end with equal results -/

theorem algebraic (hI : ∀ X : Cert.Proof.KI.Arrays Ideal, Cert.Proof.KI.InRange X → Cert.Proof.KI.TileBodySpec X) :
    Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hag
  refine ⟨fun c => Cert.EmbSpec.lookupSum (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), run_KI hI m g hpre, ?_⟩
  have hpre' : Cert.Pre_ReferenceIdeal (hPre_input_domain := Cert.Pre_input_domain.Gen.facts) m' := fun c => by
    obtain ⟨e0, e1, e2, e3⟩ := hag c
    rw [e0, e1, e2, e3]; exact hpre c
  refine (θ_run (Cert.ReferenceIdeal.defs (F := Ideal)) _ _).mono (fun _ h c => ?_) (Cert.RefRun.run m' g' hpre')
  obtain ⟨hv, hrest⟩ := h c
  obtain ⟨e0, e1, e2, e3⟩ := hag c
  refine ⟨hv.trans ?_, hrest⟩
  rw [e0, e1, e2, e3]

/-! ## The claim -/

theorem claim_of_bodies (hI : ∀ X : Cert.Proof.KI.Arrays Ideal, Cert.Proof.KI.InRange X → Cert.Proof.KI.TileBodySpec X)
    (hB : ∀ X : Cert.Proof.KK.Arrays Bits, Cert.Proof.KK.InRange X → Cert.Proof.KK.TileBodySpec X) : Cert.Claim :=
  ⟨Cert.Kernel.Gen.facts, Cert.KernelIdeal.Gen.facts, Cert.ReferenceIdeal.Gen.facts, Cert.Pre_input_domain.Gen.facts,
    frame_KK hB, frame_KI hI, frame_Ref, trivial, algebraic hI⟩

end Cert.Proof.Assemble

end
-- ==== Proof.KI.BodyFacts.lean ====
/-
  The pure statements the worker's loop carries about the contents it moves. An index buffer of eight rows holds
  eight consecutive rows of an index matrix (`RowsAt`); a gathered buffer holds, row t, the table row named by entry
  t of a window of a list (`Gathered`); the add loop leaves the entrywise sum of two gathered buffers on the first
  hundred columns (`Summed`); and the flat result is right on the first n rows of the worker's block (`DoneUpTo`).
-/
import proofs.«206319_g15771119910948_cont_week2b_672_19_alg».proof.Proof.KI.TileDefs
import proofs.«206319_g15771119910948_cont_week2b_672_19_alg».proof.Proof.EmbFlat

noncomputable section

namespace Cert.Proof.KI

open Cert.KernelIdeal Cert.KernelIdeal.Gen
open Idealize.ShloMosaic Idealize.ShloMosaic.ValueIdx

variable {F : FTy → Type} [FloatOps F]

/-- The worker's first sentence. -/
def R0 (L : grid2.Coords) : ℕ := 256 * (L 1).val + 128 * (L 0).val

/-- A sentence number as a row of an index matrix. -/
def rowIx (k : ℕ) : Fin 4096 := ⟨k % 4096, Nat.mod_lt _ (by decide)⟩

/-- The eight rows of `g` are rows n … n+7 of `fw`. -/
def RowsAt (g : S8x200.Idx → BitVec 32) (fw : S4096x200.Idx → BitVec 32) (n : ℕ) : Prop :=
  ∀ (r : Fin 8) (c : Fin 200), g (ix2 r c) = fw (ix2 (rowIx (n + r.val)) c)

/-- Row t of `pay` is the row of `tab` that entry (k8, c0 + t) of the list `g` names. -/
def Gathered (N T : ℕ) (hN : 0 < N) (pay : (⟨2, ![T, 128]⟩ : Shape).Idx → F .f32) (tab : (⟨2, ![N, 128]⟩ : Shape).Idx → F .f32)
    (g : S8x200.Idx → BitVec 32) (k8 : Fin 8) (c0 : ℕ) (hc : c0 + T ≤ 200) : Prop :=
  ∀ (t : Fin T) (c : Fin 128), pay (ix2 t c) = tab (ix2 (Cert.EmbSpec.rowOf N hN (g (ix2 k8 ⟨c0 + t.val, by have := t.isLt; omega⟩))) c)

/-- `h` is the entrywise sum of `ga` and `gb` on the first hundred columns. -/
def Summed (T : ℕ) (h : (⟨2, ![T, 100]⟩ : Shape).Idx → F .f32) (ga gb : (⟨2, ![T, 128]⟩ : Shape).Idx → F .f32) : Prop :=
  ∀ (t : Fin T) (c : Fin 100), h (ix2 t c) = FloatOps.addf (ga (ix2 t (Cert.EmbSpec.col128 c))) (gb (ix2 t (Cert.EmbSpec.col128 c)))

/-- The flat result `fo` is the flat sum of the two look-ups on rows [200·R, 200·R + n). -/
def DoneUpTo (fwi fei : S4096x200.Idx → BitVec 32) (fwt : S100000x128.Idx → F .f32) (fet : S1000000x128.Idx → F .f32)
    (R : ℕ) (fo : S819200x100.Idx → F .f32) (n : ℕ) : Prop :=
  ∀ j : S819200x100.Idx, R * 200 ≤ (j 0).val → (j 0).val < R * 200 + n → fo j = Cert.EmbSpec.flatSum fwi fei fwt fet j

/-- The first sentence of the eight the first index buffers hold at trip w, and of the eight the second hold. -/
def sA (L : grid2.Coords) (w : ℕ) : ℕ := min (R0 L + 16 * w) (R0 L + 120)
def sB (L : grid2.Coords) (w : ℕ) : ℕ := min (R0 L + 16 * w + 8) (R0 L + 120)

end Cert.Proof.KI

end
-- ==== Proof.KI.BodyLemmas.lean ====
/-
  Small facts about the worker's four index buffers: a word read through any row window of a buffer is one of the
  buffer's words, and a buffer overwritten whole by a copy holds the copy. They make "every index names a row of its
  table" travel from the index matrices to the lists the gathers read.
-/
import proofs.«206319_g15771119910948_cont_week2b_672_19_alg».proof.Proof.KI.TileDefs

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (d : Dev nD) (L : grid2.Coords)

omit [FloatOps F] in
/-- Every word read through a row window of index buffer 0 is a word of the buffer. -/
theorem lt_win0 (N : ℕ) (g : Buf (Elt F) ((Memref.whole cc2_scratch0).view.loc (thr d L))) (hg : ∀ j, (g j : BitVec 32).toNat < N)
    (r : Rect S8x200) (hs : ∀ a, r.stride a = 1) (s' : Shape) (hq : r.shape.Squeezes s') :
    ∀ x, (View.read (Elt F) (((Memref.whole cc2_scratch0).slice r hs).squeeze s' hq).view g x : BitVec 32).toNat < N := by
  intro x; rw [View.read_apply]; exact hg _

omit [FloatOps F] in
/-- The same after the buffer was overwritten whole by a copy whose words are all in range. -/
theorem lt_winw0 (N : ℕ) (g0 : Buf (Elt F) ((Memref.whole cc2_scratch0).view.loc (thr d L))) (pay : S8x200.Idx → Elt F .i32) (hpay : ∀ j, (pay j : BitVec 32).toNat < N)
    (r : Rect S8x200) (hs : ∀ a, r.stride a = 1) (s' : Shape) (hq : r.shape.Squeezes s') :
    ∀ x, (View.read (Elt F) (((Memref.whole cc2_scratch0).slice r hs).squeeze s' hq).view
        (View.write (Elt F) (Memref.whole cc2_scratch0).view g0 pay Finset.univ) x : BitVec 32).toNat < N := by
  intro x
  have e : View.read (Elt F) (((Memref.whole cc2_scratch0).slice r hs).squeeze s' hq).view (View.write (Elt F) (Memref.whole cc2_scratch0).view g0 pay Finset.univ) x
      = View.read (Elt F) (Memref.whole cc2_scratch0).view (View.write (Elt F) (Memref.whole cc2_scratch0).view g0 pay Finset.univ)
          (r.emb ((Shape.reshapeEquiv hq.numel_eq) x)) := by
    rw [View.read_apply, View.read_apply]; rfl
  rw [e, View.read_write_univ]; exact hpay _

omit [FloatOps F] in
/-- A buffer overwritten whole holds what was written. -/
theorem write_univ0 (g0 : Buf (Elt F) ((Memref.whole cc2_scratch0).view.loc (thr d L))) (pay : S8x200.Idx → Elt F .i32) (j : S8x200.Idx) :
    (View.write (Elt F) (Memref.whole cc2_scratch0).view g0 pay Finset.univ : S8x200.Idx → Elt F .i32) j = pay j := by
  have e := congrFun (View.read_write_univ (v := (Memref.whole cc2_scratch0).view) g0 pay) j
  rw [View.read_apply] at e; exact e

omit [FloatOps F] in
/-- Every word read through a row window of index buffer 1 is a word of the buffer. -/
theorem lt_win1 (N : ℕ) (g : Buf (Elt F) ((Memref.whole cc2_scratch1).view.loc (thr d L))) (hg : ∀ j, (g j : BitVec 32).toNat < N)
    (r : Rect S8x200) (hs : ∀ a, r.stride a = 1) (s' : Shape) (hq : r.shape.Squeezes s') :
    ∀ x, (View.read (Elt F) (((Memref.whole cc2_scratch1).slice r hs).squeeze s' hq).view g x : BitVec 32).toNat < N := by
  intro x; rw [View.read_apply]; exact hg _

omit [FloatOps F] in
/-- The same after the buffer was overwritten whole by a copy whose words are all in range. -/
theorem lt_winw1 (N : ℕ) (g0 : Buf (Elt F) ((Memref.whole cc2_scratch1).view.loc (thr d L))) (pay : S8x200.Idx → Elt F .i32) (hpay : ∀ j, (pay j : BitVec 32).toNat < N)
    (r : Rect S8x200) (hs : ∀ a, r.stride a = 1) (s' : Shape) (hq : r.shape.Squeezes s') :
    ∀ x, (View.read (Elt F) (((Memref.whole cc2_scratch1).slice r hs).squeeze s' hq).view
        (View.write (Elt F) (Memref.whole cc2_scratch1).view g0 pay Finset.univ) x : BitVec 32).toNat < N := by
  intro x
  have e : View.read (Elt F) (((Memref.whole cc2_scratch1).slice r hs).squeeze s' hq).view (View.write (Elt F) (Memref.whole cc2_scratch1).view g0 pay Finset.univ) x
      = View.read (Elt F) (Memref.whole cc2_scratch1).view (View.write (Elt F) (Memref.whole cc2_scratch1).view g0 pay Finset.univ)
          (r.emb ((Shape.reshapeEquiv hq.numel_eq) x)) := by
    rw [View.read_apply, View.read_apply]; rfl
  rw [e, View.read_write_univ]; exact hpay _

omit [FloatOps F] in
/-- A buffer overwritten whole holds what was written. -/
theorem write_univ1 (g0 : Buf (Elt F) ((Memref.whole cc2_scratch1).view.loc (thr d L))) (pay : S8x200.Idx → Elt F .i32) (j : S8x200.Idx) :
    (View.write (Elt F) (Memref.whole cc2_scratch1).view g0 pay Finset.univ : S8x200.Idx → Elt F .i32) j = pay j := by
  have e := congrFun (View.read_write_univ (v := (Memref.whole cc2_scratch1).view) g0 pay) j
  rw [View.read_apply] at e; exact e

omit [FloatOps F] in
/-- Every word read through a row window of index buffer 2 is a word of the buffer. -/
theorem lt_win2 (N : ℕ) (g : Buf (Elt F) ((Memref.whole cc2_scratch2).view.loc (thr d L))) (hg : ∀ j, (g j : BitVec 32).toNat < N)
    (r : Rect S8x200) (hs : ∀ a, r.stride a = 1) (s' : Shape) (hq : r.shape.Squeezes s') :
    ∀ x, (View.read (Elt F) (((Memref.whole cc2_scratch2).slice r hs).squeeze s' hq).view g x : BitVec 32).toNat < N := by
  intro x; rw [View.read_apply]; exact hg _

omit [FloatOps F] in
/-- The same after the buffer was overwritten whole by a copy whose words are all in range. -/
theorem lt_winw2 (N : ℕ) (g0 : Buf (Elt F) ((Memref.whole cc2_scratch2).view.loc (thr d L))) (pay : S8x200.Idx → Elt F .i32) (hpay : ∀ j, (pay j : BitVec 32).toNat < N)
    (r : Rect S8x200) (hs : ∀ a, r.stride a = 1) (s' : Shape) (hq : r.shape.Squeezes s') :
    ∀ x, (View.read (Elt F) (((Memref.whole cc2_scratch2).slice r hs).squeeze s' hq).view
        (View.write (Elt F) (Memref.whole cc2_scratch2).view g0 pay Finset.univ) x : BitVec 32).toNat < N := by
  intro x
  have e : View.read (Elt F) (((Memref.whole cc2_scratch2).slice r hs).squeeze s' hq).view (View.write (Elt F) (Memref.whole cc2_scratch2).view g0 pay Finset.univ) x
      = View.read (Elt F) (Memref.whole cc2_scratch2).view (View.write (Elt F) (Memref.whole cc2_scratch2).view g0 pay Finset.univ)
          (r.emb ((Shape.reshapeEquiv hq.numel_eq) x)) := by
    rw [View.read_apply, View.read_apply]; rfl
  rw [e, View.read_write_univ]; exact hpay _

omit [FloatOps F] in
/-- A buffer overwritten whole holds what was written. -/
theorem write_univ2 (g0 : Buf (Elt F) ((Memref.whole cc2_scratch2).view.loc (thr d L))) (pay : S8x200.Idx → Elt F .i32) (j : S8x200.Idx) :
    (View.write (Elt F) (Memref.whole cc2_scratch2).view g0 pay Finset.univ : S8x200.Idx → Elt F .i32) j = pay j := by
  have e := congrFun (View.read_write_univ (v := (Memref.whole cc2_scratch2).view) g0 pay) j
  rw [View.read_apply] at e; exact e

omit [FloatOps F] in
/-- Every word read through a row window of index buffer 3 is a word of the buffer. -/
theorem lt_win3 (N : ℕ) (g : Buf (Elt F) ((Memref.whole cc2_scratch3).view.loc (thr d L))) (hg : ∀ j, (g j : BitVec 32).toNat < N)
    (r : Rect S8x200) (hs : ∀ a, r.stride a = 1) (s' : Shape) (hq : r.shape.Squeezes s') :
    ∀ x, (View.read (Elt F) (((Memref.whole cc2_scratch3).slice r hs).squeeze s' hq).view g x : BitVec 32).toNat < N := by
  intro x; rw [View.read_apply]; exact hg _

omit [FloatOps F] in
/-- The same after the buffer was overwritten whole by a copy whose words are all in range. -/
theorem lt_winw3 (N : ℕ) (g0 : Buf (Elt F) ((Memref.whole cc2_scratch3).view.loc (thr d L))) (pay : S8x200.Idx → Elt F .i32) (hpay : ∀ j, (pay j : BitVec 32).toNat < N)
    (r : Rect S8x200) (hs : ∀ a, r.stride a = 1) (s' : Shape) (hq : r.shape.Squeezes s') :
    ∀ x, (View.read (Elt F) (((Memref.whole cc2_scratch3).slice r hs).squeeze s' hq).view
        (View.write (Elt F) (Memref.whole cc2_scratch3).view g0 pay Finset.univ) x : BitVec 32).toNat < N := by
  intro x
  have e : View.read (Elt F) (((Memref.whole cc2_scratch3).slice r hs).squeeze s' hq).view (View.write (Elt F) (Memref.whole cc2_scratch3).view g0 pay Finset.univ) x
      = View.read (Elt F) (Memref.whole cc2_scratch3).view (View.write (Elt F) (Memref.whole cc2_scratch3).view g0 pay Finset.univ)
          (r.emb ((Shape.reshapeEquiv hq.numel_eq) x)) := by
    rw [View.read_apply, View.read_apply]; rfl
  rw [e, View.read_write_univ]; exact hpay _

omit [FloatOps F] in
/-- A buffer overwritten whole holds what was written. -/
theorem write_univ3 (g0 : Buf (Elt F) ((Memref.whole cc2_scratch3).view.loc (thr d L))) (pay : S8x200.Idx → Elt F .i32) (j : S8x200.Idx) :
    (View.write (Elt F) (Memref.whole cc2_scratch3).view g0 pay Finset.univ : S8x200.Idx → Elt F .i32) j = pay j := by
  have e := congrFun (View.read_write_univ (v := (Memref.whole cc2_scratch3).view) g0 pay) j
  rw [View.read_apply] at e; exact e

end Cert.Proof.KI

end
-- ==== Proof.KI.BodyInv.lean ====
/-
  What the worker holds each time its outer loop comes round (trip w of eight, sixteen sentences a trip). The first
  index buffers hold the eight rows of sentences starting at `sA L w`; the second are on their way, a batch of two
  copies on one semaphore, from the rows starting at `sB L w`; the first chunk of the trip's first sentence is being
  gathered from both tables (the two gathered buffers' contents are whatever the gathers deliver: row t the table row
  that entry t of the list's first row names); the other scratch holds anything; and the flat result is right on the 3200·w rows the
  earlier trips wrote. Each input is held as two read shares, one of which may have lent a window.
-/
import proofs.«206319_g15771119910948_cont_week2b_672_19_alg».proof.Proof.KI.BodyFacts
import proofs.«206319_g15771119910948_cont_week2b_672_19_alg».proof.Proof.KI.BodyLemmas
import Idealize.ShloMosaic.Lib.Batch

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid2.Coords)

/-- The pure half: the lists' words name rows, the lists are the rows they should be, the gathers in flight carry the
    rows their lists name, the result so far is right, and the waits recorded so far are the body's own. -/
def TripOK (W W' : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L)))
    (w : ℕ) (fo : Buf (Elt F) ((Memref.whole main_v2_scv).view.loc (thr d L))) (gA : Buf (Elt F) ((Memref.whole cc2_scratch0).view.loc (thr d L))) (gEA : Buf (Elt F) ((Memref.whole cc2_scratch1).view.loc (thr d L)))
    (payB payEB : S8x200.Idx → Elt F .i32)
    (cA : Buf (Elt F) ((Memref.whole cc2_scratch4).view.loc (thr d L))) (cB : Buf (Elt F) ((Memref.whole cc2_scratch5).view.loc (thr d L))) : Prop :=
  (∀ j, (gA j : BitVec 32).toNat < 100000) ∧ (∀ j, (gEA j : BitVec 32).toNat < 1000000)
  ∧ (∀ j, (payB j : BitVec 32).toNat < 100000) ∧ (∀ j, (payEB j : BitVec 32).toNat < 1000000)
  ∧ (∀ p ∈ W', p ∈ W ∨ p.2 = none)
  ∧ RowsAt gA fwi (sA L w) ∧ RowsAt gEA fei (sA L w) ∧ RowsAt payB fwi (sB L w) ∧ RowsAt payEB fei (sB L w)
  ∧ Gathered 100000 128 (by decide) cA fwt gA 0 0 (by decide) ∧ Gathered 1000000 128 (by decide) cB fet gEA 0 0 (by decide)
  ∧ DoneUpTo fwi fei fwt fet (R0 L) fo (3200 * w)

/-- The loop's invariant. -/
def invOuter (q q' : PosShare TreeShare) (O : CellTallies nD τ sig (HIx 1)) (W : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L)))
    (w : ℕ) (_ : Unit) : sProp 𝕄 :=
  iprop(∃ (fo : Buf (Elt F) ((Memref.whole main_v2_scv).view.loc (thr d L))) (gA : Buf (Elt F) ((Memref.whole cc2_scratch0).view.loc (thr d L))) (gEA : Buf (Elt F) ((Memref.whole cc2_scratch1).view.loc (thr d L)))
      (f2 : Buf (Elt F) ((Memref.whole cc2_scratch2).view.loc (thr d L))) (f3 : Buf (Elt F) ((Memref.whole cc2_scratch3).view.loc (thr d L))) (cA : Buf (Elt F) ((Memref.whole cc2_scratch4).view.loc (thr d L))) (cB : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L)))
      (payB payEB : S8x200.Idx → Elt F .i32)
      (ob : {off : Fin 2 → Nat // ∀ a, off a + S8x200.size a ≤ S4096x200.size a}) (W' : Waits sig (HIx 1)),
    Transfers.MayWaits (thr d L) (none : HIx 1) O
      ∗ ((Memref.whole main_v2_scv).view.loc (thr d L) ↦[(Memref.whole main_v2_scv).view.setOn (blkR L).set]{fullShare} fo)
      ∗ ((Memref.whole cc2_scratch6).view.loc (thr d L) ↦{fullShare} f6) ∗ ((Memref.whole cc2_scratch7).view.loc (thr d L) ↦{fullShare} f7) ∗ ((Memref.whole cc2_scratch8).view.loc (thr d L) ↦{fullShare} f8) ∗ ((Memref.whole cc2_scratch9).view.loc (thr d L) ↦{fullShare} f9)
      ∗ owes (thr d L) O W'
      ∗ ((Memref.whole main_arg0_scv).view.loc (thr d L) ↦{q} fwi) ∗ ((Memref.whole main_arg0_scv).view.loc (thr d L) ↦[Finset.univ \ ((Memref.whole main_arg0_scv).slice (Rect.unit (s := S4096x200) ob.1 S8x200.size ob.2) (fun _ => rfl)).view.set]{q'} fwi)
      ∗ Transfers.Batched countersEmb (thr d L) (SemLoc.dma cc2_scratch15.sem) (default : HIx 1) 51200 2
          [iprop(((Memref.whole cc2_scratch2).view.loc (thr d L) ↦{fullShare} View.write (Elt F) (Memref.whole cc2_scratch2).view f2 payB Finset.univ) ∗ ((Memref.whole main_arg0_scv).view.loc (thr d L) ↦[((Memref.whole main_arg0_scv).slice (Rect.unit (s := S4096x200) ob.1 S8x200.size ob.2) (fun _ => rfl)).view.set]{q'} fwi)),
           iprop(((Memref.whole cc2_scratch3).view.loc (thr d L) ↦{fullShare} View.write (Elt F) (Memref.whole cc2_scratch3).view f3 payEB Finset.univ) ∗ ((Memref.whole main_arg1_scv).view.loc (thr d L) ↦[((Memref.whole main_arg1_scv).slice (Rect.unit (s := S4096x200) ob.1 S8x200.size ob.2) (fun _ => rfl)).view.set]{q'} fei))] 0
      ∗ ((Memref.whole main_arg1_scv).view.loc (thr d L) ↦{q} fei) ∗ ((Memref.whole main_arg1_scv).view.loc (thr d L) ↦[Finset.univ \ ((Memref.whole main_arg1_scv).slice (Rect.unit (s := S4096x200) ob.1 S8x200.size ob.2) (fun _ => rfl)).view.set]{q'} fei)
      ∗ Transfers.Flight countersEmb (thr d L) (SemLoc.dma cc2_scratch10.sem) (default : HIx 1) 524288
          iprop((((Memref.whole cc2_scratch4).view.loc (thr d L) ↦[(Memref.whole cc2_scratch4).view.set]{fullShare} cA)
              ∗ ((Memref.whole cc2_scratch0).view.loc (thr d L) ↦[(((Memref.whole cc2_scratch0).slice (Rect.unit (s := S8x200) ![0, 0] S1x128.size inb_S8x200_S1x128_0_0) (fun _ => rfl)).squeeze S128 squeezes_S1x128_S128).view.set]{fullShare} gA))
            ∗ ((Memref.whole main_v0_scv).view.loc (thr d L) ↦[((Memref.whole main_v0_scv).slice (Rect.unit (s := S100000x128) ![0, 0] S100000x128.size inb_S100000x128_S100000x128_0_0) (fun _ => rfl)).view.set]{q} fwt))
      ∗ ((Memref.whole main_v0_scv).view.loc (thr d L) ↦[Finset.univ \ ((Memref.whole main_v0_scv).slice (Rect.unit (s := S100000x128) ![0, 0] S100000x128.size inb_S100000x128_S100000x128_0_0) (fun _ => rfl)).view.set]{q} fwt) ∗ ((Memref.whole main_v0_scv).view.loc (thr d L) ↦{q'} fwt)
      ∗ ((Memref.whole cc2_scratch4).view.loc (thr d L) ↦[Finset.univ \ (Memref.whole cc2_scratch4).view.set]{fullShare} cA)
      ∗ ((Memref.whole cc2_scratch0).view.loc (thr d L) ↦[Finset.univ \ (((Memref.whole cc2_scratch0).slice (Rect.unit (s := S8x200) ![0, 0] S1x128.size inb_S8x200_S1x128_0_0) (fun _ => rfl)).squeeze S128 squeezes_S1x128_S128).view.set]{fullShare} gA)
      ∗ Transfers.Flight countersEmb (thr d L) (SemLoc.dma cc2_scratch11.sem) (default : HIx 1) 524288
          iprop((((Memref.whole cc2_scratch5).view.loc (thr d L) ↦[(Memref.whole cc2_scratch5).view.set]{fullShare} cB)
              ∗ ((Memref.whole cc2_scratch1).view.loc (thr d L) ↦[(((Memref.whole cc2_scratch1).slice (Rect.unit (s := S8x200) ![0, 0] S1x128.size inb_S8x200_S1x128_0_0) (fun _ => rfl)).squeeze S128 squeezes_S1x128_S128).view.set]{fullShare} gEA))
            ∗ ((Memref.whole main_v1_scv).view.loc (thr d L) ↦[((Memref.whole main_v1_scv).slice (Rect.unit (s := S1000000x128) ![0, 0] S1000000x128.size inb_S1000000x128_S1000000x128_0_0) (fun _ => rfl)).view.set]{q} fet))
      ∗ ((Memref.whole main_v1_scv).view.loc (thr d L) ↦[Finset.univ \ ((Memref.whole main_v1_scv).slice (Rect.unit (s := S1000000x128) ![0, 0] S1000000x128.size inb_S1000000x128_S1000000x128_0_0) (fun _ => rfl)).view.set]{q} fet) ∗ ((Memref.whole main_v1_scv).view.loc (thr d L) ↦{q'} fet)
      ∗ ((Memref.whole cc2_scratch5).view.loc (thr d L) ↦[Finset.univ \ (Memref.whole cc2_scratch5).view.set]{fullShare} cB)
      ∗ ((Memref.whole cc2_scratch1).view.loc (thr d L) ↦[Finset.univ \ (((Memref.whole cc2_scratch1).slice (Rect.unit (s := S8x200) ![0, 0] S1x128.size inb_S8x200_S1x128_0_0) (fun _ => rfl)).squeeze S128 squeezes_S1x128_S128).view.set]{fullShare} gEA)
      ∗ semVal (thr d L, SemLoc.dma cc2_scratch12.sem) 0 ∗ semVal (thr d L, SemLoc.dma cc2_scratch13.sem) 0 ∗ semVal (thr d L, SemLoc.dma cc2_scratch14.sem) 0 ∗ semVal (thr d L, SemLoc.dma cc2_scoped0.sem) 0 ∗ semVal (thr d L, SemLoc.dma cc2_scoped1.sem) 0 ∗ semVal (thr d L, SemLoc.dma cc2_scoped2.sem) 0 ∗ semVal (thr d L, SemLoc.dma cc2_scoped3.sem) 0 ∗ semVal (thr d L, SemLoc.dma cc2_scoped4.sem) 0 ∗ semVal (thr d L, SemLoc.dma cc2_scoped5.sem) 0 ∗ semVal (thr d L, SemLoc.dma cc2_scoped6.sem) 0 ∗ semVal (thr d L, SemLoc.dma cc2_scoped7.sem) 0 ∗ semVal (thr d L, SemLoc.dma cc2_scoped8.sem) 0 ∗ semVal (thr d L, SemLoc.dma cc2_scoped9.sem) 0 ∗ semVal (thr d L, SemLoc.dma cc2_scoped10.sem) 0 ∗ semVal (thr d L, SemLoc.dma cc2_scoped11.sem) 0 ∗ semVal (thr d L, SemLoc.dma cc2_scoped12.sem) 0 ∗ semVal (thr d L, SemLoc.dma cc2_scoped13.sem) 0 ∗ semVal (thr d L, SemLoc.dma cc2_scoped14.sem) 0 ∗ semVal (thr d L, SemLoc.dma cc2_scoped15.sem) 0 ∗ semVal (thr d L, SemLoc.dma cc2_scoped16.sem) 0 ∗ semVal (thr d L, SemLoc.dma cc2_scoped17.sem) 0 ∗ semVal (thr d L, SemLoc.dma cc2_scoped18.sem) 0 ∗ semVal (thr d L, SemLoc.dma cc2_scoped19.sem) 0 ∗ semVal (thr d L, SemLoc.dma cc2_scoped20.sem) 0 ∗ semVal (thr d L, SemLoc.dma cc2_scoped21.sem) 0 ∗ semVal (thr d L, SemLoc.dma cc2_scoped22.sem) 0 ∗ semVal (thr d L, SemLoc.dma cc2_scoped23.sem) 0 ∗ semVal (thr d L, SemLoc.dma cc2_scoped24.sem) 0 ∗ semVal (thr d L, SemLoc.dma cc2_scoped25.sem) 0 ∗ semVal (thr d L, SemLoc.dma cc2_scoped26.sem) 0 ∗ semVal (thr d L, SemLoc.dma cc2_scoped27.sem) 0 ∗ semVal (thr d L, SemLoc.dma cc2_scoped28.sem) 0 ∗ semVal (thr d L, SemLoc.dma cc2_scoped29.sem) 0 ∗ semVal (thr d L, SemLoc.dma cc2_scoped30.sem) 0 ∗ semVal (thr d L, SemLoc.dma cc2_scoped31.sem) 0 ∗ semVal (thr d L, SemLoc.dma cc2_scoped32.sem) 0 ∗ semVal (thr d L, SemLoc.dma cc2_scoped33.sem) 0
      ∗ ⌜TripOK d L W W' fwi fei fwt fet w fo gA gEA payB payEB cA cB⌝)

end Cert.Proof.KI

end
-- ==== Proof.KI.BodyTripSpec.lean ====
/-
  What one trip of the worker's outer loop must do, as a statement about the loop's region: from the loop's invariant before
  trip w to the invariant before trip w + 1, whatever the two sentence bounds computed before the loop are.
-/
import proofs.«206319_g15771119910948_cont_week2b_672_19_alg».proof.Proof.KI.BodyInv

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One trip keeps the invariant. -/
def TripSpec (d : Dev nD) (L : grid2.Coords) (q q' : PosShare TreeShare) (O : CellTallies nD τ sig (HIx 1)) (W : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L))) : Prop :=
  ∀ (v2 v4 : BitVec 32) (w : Fin k2_t1_loop.trips) (acc : Unit),
    invOuter d L q q' O W fwi fei fwt fet w.val acc
      ⊢ wp frame (wpE (defs₀ (F := F)) 𝒱₀ (thr d L) none) Set.univ
          (k2_t1_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 v4 0#32 w acc)
          (invOuter d L q q' O W fwi fei fwt fet (w.val + 1))

end Cert.Proof.KI

end
-- ==== Proof.KI.BodyValue.lean ====
/-
  The worker's body, as equations between contents. Nothing here runs a program: these are the facts about the values
  the body moves. A gather from a widened table through a one-row window of an index buffer delivers, row t, the
  table row the window's entry t names (`gathered_payload_…`, from `gathered_of_reads`); a buffer written whole reads
  what was written (`read_whole_piece…`, `rowsAt_write…`); eight rows of an index matrix staged from row n are rows
  n … n+7 (`rows_of_stage…`); and a chunk of T summed entries copied over rows [200·R0 + n, +T) of the flat result
  extends "right on the first n rows of the block" to n + T (`chunk_done…`), because row 200·(Rs + k8) + c0 + t of
  the flat result stands for position (Rs + k8, c0 + t).
-/
import proofs.«206319_g15771119910948_cont_week2b_672_19_alg».proof.Proof.KI.TileDefs
import proofs.«206319_g15771119910948_cont_week2b_672_19_alg».proof.Proof.KI.BodyFacts
import proofs.«206319_g15771119910948_cont_week2b_672_19_alg».proof.Proof.KI.BodyLemmas
import proofs.«206319_g15771119910948_cont_week2b_672_19_alg».proof.Proof.EmbFlat
import proofs.«206319_g15771119910948_cont_week2b_672_19_alg».proof.Proof.EmbGlue
import Idealize.ShloMosaic.Lib.SparseCore.Stream
import Idealize.ShloMosaic.Lib.Writes

noncomputable section

namespace Cert.Proof.KI

open Cert.KernelIdeal Cert.KernelIdeal.Gen
open Idealize.ShloMosaic Idealize.ShloMosaic.ValueIdx

variable {F : FTy → Type} [FloatOps F]
variable (d : Dev nD) (L : grid2.Coords)

/-! ## A gather's payload, read at an index -/

omit [FloatOps F] in
/-- The payload of a row gather from a matrix of 128 columns, at row t and column c: the table at the row the list
    names for t, same column. -/
theorem gatherPayload_ix2 {N T : ℕ} (hg : (⟨2, ![N, 128]⟩ : Shape).Gathers 0 ⟨2, ![T, 128]⟩)
    (tab : (⟨2, ![N, 128]⟩ : Shape).Idx → Elt F .f32) (r : Fin T → Fin N) (t : Fin T) (c : Fin 128) :
    SparseCore.gatherPayload (F := F) hg tab r (ix2 t c) = tab (ix2 (r t) c) := by
  unfold SparseCore.gatherPayload
  refine congrArg tab (funext fun b => ?_)
  match b with
  | ⟨0, _⟩ => exact Shape.Gathers.idx_axis hg r (ix2 t c)
  | ⟨1, h1⟩ => exact Fin.ext (Shape.Gathers.idx_of_ne hg r (ix2 t c) ⟨1, h1⟩ Nat.one_ne_zero)

omit [FloatOps F] in
/-- Entry t of a one-row window of an eight-row list, the window made a vector: the list's entry (k8, c0 + t). -/
theorem window_emb {T : ℕ} (k8 : Fin 8) (c0 : ℕ) (hc : c0 + T ≤ 200)
    (hinb : ∀ a, (![k8.val, c0] : Fin 2 → ℕ) a + (![1, T] : Fin 2 → ℕ) a ≤ S8x200.size a)
    (hq : (⟨1, ![T]⟩ : Shape).numel = (Rect.unit (s := S8x200) ![k8.val, c0] ![1, T] hinb).shape.numel) (t : Fin T)
    (hn : (⟨1, ![T]⟩ : Shape).numel = T) :
    (Rect.unit (s := S8x200) ![k8.val, c0] ![1, T] hinb).emb
        (Shape.reshapeEquiv hq ((⟨1, ![T]⟩ : Shape).rowMajor.symm (t.cast hn.symm)))
      = ix2 (n0 := 8) (n1 := 200) k8 ⟨c0 + t.val, by have := t.isLt; omega⟩ := by
  have e : Shape.reshapeEquiv hq ((⟨1, ![T]⟩ : Shape).rowMajor.symm (t.cast hn.symm))
      = (ix2 (n0 := 1) (n1 := T) ⟨0, Nat.one_pos⟩ t : (⟨2, ![1, T]⟩ : Shape).Idx) :=
    Shape.reshapeEquiv_eq_of_rowMajor hq (by
      rw [Shape.rowMajor_val_two, Equiv.apply_symm_apply]
      show 0 * T + t.val = t.val
      omega)
  rw [e]
  funext a
  refine Fin.ext ?_
  match a with
  | ⟨0, _⟩ => show k8.val + 1 * 0 = k8.val; omega
  | ⟨1, _⟩ => show c0 + 1 * t.val = c0 + t.val; omega

/-- THE GATHER'S PAYLOAD, from what its two operands read: a table function that is the table, and a list function
    whose entry t is the list's entry (k8, c0 + t) — row t of the payload is the table row that entry names. -/
theorem gathered_of_reads {N T : ℕ} (hN : 0 < N) (hg : (⟨2, ![N, 128]⟩ : Shape).Gathers 0 ⟨2, ![T, 128]⟩)
    (tabf tab : (⟨2, ![N, 128]⟩ : Shape).Idx → F .f32) (htab : ∀ i, tabf i = tab i)
    (g : S8x200.Idx → BitVec 32) (k8 : Fin 8) (c0 : ℕ) (hc : c0 + T ≤ 200)
    (idxf : (⟨1, ![T]⟩ : Shape).Idx → Elt F .i32) (hn : (⟨1, ![T]⟩ : Shape).numel = T) (hin : ∀ x, (idxf x : BitVec 32).toNat < N)
    (hidx : ∀ t : Fin T, idxf ((⟨1, ![T]⟩ : Shape).rowMajor.symm (t.cast hn.symm)) = g (ix2 k8 ⟨c0 + t.val, by have := t.isLt; omega⟩)) :
    Gathered N T hN (SparseCore.gatherPayload (F := F) (e := .f32) hg tabf (SparseCore.rows (F := F) idxf hn hin)) tab g k8 c0 hc := by
  intro t c
  refine (gatherPayload_ix2 hg tabf (SparseCore.rows (F := F) idxf hn hin) t c).trans ?_
  rw [htab]
  refine congrArg tab (congrArg (fun r => ix2 r c) (Fin.ext ?_))
  have hlt : (g (ix2 k8 ⟨c0 + t.val, by have := t.isLt; omega⟩)).toNat < N := by rw [← hidx t]; exact hin _
  rw [Cert.EmbSpec.rowOf_val_of_lt hN hlt]
  show (idxf _ : BitVec 32).toNat = _
  rw [hidx t]

omit [FloatOps F] in
/-- What a one-row window of index buffer 0, made a vector, reads at entry t: the buffer's entry (k8, c0 + t). -/
theorem window_read0 {T : ℕ} (g : Buf (Elt F) ((Memref.whole cc2_scratch0).view.loc (thr d L))) (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T) (t : Fin T) :
    View.read (Elt F) (((Memref.whole cc2_scratch0).slice (Rect.unit (s := S8x200) row sz hinb) hs).squeeze ⟨1, ![T]⟩ hq).view g ((⟨1, ![T]⟩ : Shape).rowMajor.symm (t.cast hn.symm))
      = (g (ix2 k8 ⟨c0 + t.val, by have := t.isLt; omega⟩) : BitVec 32) := by
  subst hrow hsz
  rw [View.read_apply]
  show g _ = g _
  exact congrArg g (window_emb k8 c0 hc hinb hq.numel_eq t hn)

omit [FloatOps F] in
/-- What a one-row window of index buffer 1, made a vector, reads at entry t: the buffer's entry (k8, c0 + t). -/
theorem window_read1 {T : ℕ} (g : Buf (Elt F) ((Memref.whole cc2_scratch1).view.loc (thr d L))) (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T) (t : Fin T) :
    View.read (Elt F) (((Memref.whole cc2_scratch1).slice (Rect.unit (s := S8x200) row sz hinb) hs).squeeze ⟨1, ![T]⟩ hq).view g ((⟨1, ![T]⟩ : Shape).rowMajor.symm (t.cast hn.symm))
      = (g (ix2 k8 ⟨c0 + t.val, by have := t.isLt; omega⟩) : BitVec 32) := by
  subst hrow hsz
  rw [View.read_apply]
  show g _ = g _
  exact congrArg g (window_emb k8 c0 hc hinb hq.numel_eq t hn)

omit [FloatOps F] in
/-- What a one-row window of index buffer 2, made a vector, reads at entry t: the buffer's entry (k8, c0 + t). -/
theorem window_read2 {T : ℕ} (g : Buf (Elt F) ((Memref.whole cc2_scratch2).view.loc (thr d L))) (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T) (t : Fin T) :
    View.read (Elt F) (((Memref.whole cc2_scratch2).slice (Rect.unit (s := S8x200) row sz hinb) hs).squeeze ⟨1, ![T]⟩ hq).view g ((⟨1, ![T]⟩ : Shape).rowMajor.symm (t.cast hn.symm))
      = (g (ix2 k8 ⟨c0 + t.val, by have := t.isLt; omega⟩) : BitVec 32) := by
  subst hrow hsz
  rw [View.read_apply]
  show g _ = g _
  exact congrArg g (window_emb k8 c0 hc hinb hq.numel_eq t hn)

omit [FloatOps F] in
/-- What a one-row window of index buffer 3, made a vector, reads at entry t: the buffer's entry (k8, c0 + t). -/
theorem window_read3 {T : ℕ} (g : Buf (Elt F) ((Memref.whole cc2_scratch3).view.loc (thr d L))) (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T) (t : Fin T) :
    View.read (Elt F) (((Memref.whole cc2_scratch3).slice (Rect.unit (s := S8x200) row sz hinb) hs).squeeze ⟨1, ![T]⟩ hq).view g ((⟨1, ![T]⟩ : Shape).rowMajor.symm (t.cast hn.symm))
      = (g (ix2 k8 ⟨c0 + t.val, by have := t.isLt; omega⟩) : BitVec 32) := by
  subst hrow hsz
  rw [View.read_apply]
  show g _ = g _
  exact congrArg g (window_emb k8 c0 hc hinb hq.numel_eq t hn)

omit [FloatOps F] in
/-- The whole of the 100000-row table read through its full-size window at the origin is the table. -/
theorem table_read_v0 (tab : Buf (Elt F) ((Memref.whole main_v0_scv).view.loc (thr d L)))
    (inbT : ∀ a, (![0, 0] : Fin 2 → ℕ) a + S100000x128.size a ≤ S100000x128.size a)
    (hsT : ∀ a, (Rect.unit (s := S100000x128) ![0, 0] S100000x128.size inbT).stride a = 1) (i : S100000x128.Idx) :
    View.read (Elt F) ((Memref.whole main_v0_scv).slice (Rect.unit (s := S100000x128) ![0, 0] S100000x128.size inbT) hsT).view tab i = tab i := by
  rw [View.read_apply]
  show tab _ = tab _
  refine congrArg tab (funext fun a => Fin.ext ?_)
  match a with
  | ⟨0, _⟩ => show 0 + 1 * (i 0).val = (i 0).val; omega
  | ⟨1, _⟩ => show 0 + 1 * (i 1).val = (i 1).val; omega

/-- (G) the payload of a gather from the 100000-row table by a one-row window of index buffer 0. -/
theorem gathered_payload_v0_0 {T : ℕ} (tab : Buf (Elt F) ((Memref.whole main_v0_scv).view.loc (thr d L)))
    (g : Buf (Elt F) ((Memref.whole cc2_scratch0).view.loc (thr d L)))
    (hg : S100000x128.Gathers 0 ⟨2, ![T, 128]⟩)
    (inbT : ∀ a, (![0, 0] : Fin 2 → ℕ) a + S100000x128.size a ≤ S100000x128.size a)
    (hsT : ∀ a, (Rect.unit (s := S100000x128) ![0, 0] S100000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch0).slice (Rect.unit (s := S8x200) row sz hinb) hs).squeeze ⟨1, ![T]⟩ hq).view g x : BitVec 32).toNat < 100000) :
    Gathered 100000 T (by decide)
      (SparseCore.gatherPayload (F := F) hg
        (View.read (Elt F) ((Memref.whole main_v0_scv).slice (Rect.unit (s := S100000x128) ![0, 0] S100000x128.size inbT) hsT).view tab)
        (SparseCore.rows (F := F) (View.read (Elt F) (((Memref.whole cc2_scratch0).slice (Rect.unit (s := S8x200) row sz hinb) hs).squeeze ⟨1, ![T]⟩ hq).view g) hn hin))
      tab g k8 c0 hc :=
  gathered_of_reads (by decide) hg _ tab (table_read_v0 d L tab inbT hsT) g k8 c0 hc _ hn hin
    (fun t => window_read0 d L g k8 c0 hc row sz hrow hsz hinb hs hq hn t)

/-- (G) the payload of a gather from the 100000-row table by a one-row window of index buffer 1. -/
theorem gathered_payload_v0_1 {T : ℕ} (tab : Buf (Elt F) ((Memref.whole main_v0_scv).view.loc (thr d L)))
    (g : Buf (Elt F) ((Memref.whole cc2_scratch1).view.loc (thr d L)))
    (hg : S100000x128.Gathers 0 ⟨2, ![T, 128]⟩)
    (inbT : ∀ a, (![0, 0] : Fin 2 → ℕ) a + S100000x128.size a ≤ S100000x128.size a)
    (hsT : ∀ a, (Rect.unit (s := S100000x128) ![0, 0] S100000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch1).slice (Rect.unit (s := S8x200) row sz hinb) hs).squeeze ⟨1, ![T]⟩ hq).view g x : BitVec 32).toNat < 100000) :
    Gathered 100000 T (by decide)
      (SparseCore.gatherPayload (F := F) hg
        (View.read (Elt F) ((Memref.whole main_v0_scv).slice (Rect.unit (s := S100000x128) ![0, 0] S100000x128.size inbT) hsT).view tab)
        (SparseCore.rows (F := F) (View.read (Elt F) (((Memref.whole cc2_scratch1).slice (Rect.unit (s := S8x200) row sz hinb) hs).squeeze ⟨1, ![T]⟩ hq).view g) hn hin))
      tab g k8 c0 hc :=
  gathered_of_reads (by decide) hg _ tab (table_read_v0 d L tab inbT hsT) g k8 c0 hc _ hn hin
    (fun t => window_read1 d L g k8 c0 hc row sz hrow hsz hinb hs hq hn t)

/-- (G) the payload of a gather from the 100000-row table by a one-row window of index buffer 2. -/
theorem gathered_payload_v0_2 {T : ℕ} (tab : Buf (Elt F) ((Memref.whole main_v0_scv).view.loc (thr d L)))
    (g : Buf (Elt F) ((Memref.whole cc2_scratch2).view.loc (thr d L)))
    (hg : S100000x128.Gathers 0 ⟨2, ![T, 128]⟩)
    (inbT : ∀ a, (![0, 0] : Fin 2 → ℕ) a + S100000x128.size a ≤ S100000x128.size a)
    (hsT : ∀ a, (Rect.unit (s := S100000x128) ![0, 0] S100000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch2).slice (Rect.unit (s := S8x200) row sz hinb) hs).squeeze ⟨1, ![T]⟩ hq).view g x : BitVec 32).toNat < 100000) :
    Gathered 100000 T (by decide)
      (SparseCore.gatherPayload (F := F) hg
        (View.read (Elt F) ((Memref.whole main_v0_scv).slice (Rect.unit (s := S100000x128) ![0, 0] S100000x128.size inbT) hsT).view tab)
        (SparseCore.rows (F := F) (View.read (Elt F) (((Memref.whole cc2_scratch2).slice (Rect.unit (s := S8x200) row sz hinb) hs).squeeze ⟨1, ![T]⟩ hq).view g) hn hin))
      tab g k8 c0 hc :=
  gathered_of_reads (by decide) hg _ tab (table_read_v0 d L tab inbT hsT) g k8 c0 hc _ hn hin
    (fun t => window_read2 d L g k8 c0 hc row sz hrow hsz hinb hs hq hn t)

/-- (G) the payload of a gather from the 100000-row table by a one-row window of index buffer 3. -/
theorem gathered_payload_v0_3 {T : ℕ} (tab : Buf (Elt F) ((Memref.whole main_v0_scv).view.loc (thr d L)))
    (g : Buf (Elt F) ((Memref.whole cc2_scratch3).view.loc (thr d L)))
    (hg : S100000x128.Gathers 0 ⟨2, ![T, 128]⟩)
    (inbT : ∀ a, (![0, 0] : Fin 2 → ℕ) a + S100000x128.size a ≤ S100000x128.size a)
    (hsT : ∀ a, (Rect.unit (s := S100000x128) ![0, 0] S100000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch3).slice (Rect.unit (s := S8x200) row sz hinb) hs).squeeze ⟨1, ![T]⟩ hq).view g x : BitVec 32).toNat < 100000) :
    Gathered 100000 T (by decide)
      (SparseCore.gatherPayload (F := F) hg
        (View.read (Elt F) ((Memref.whole main_v0_scv).slice (Rect.unit (s := S100000x128) ![0, 0] S100000x128.size inbT) hsT).view tab)
        (SparseCore.rows (F := F) (View.read (Elt F) (((Memref.whole cc2_scratch3).slice (Rect.unit (s := S8x200) row sz hinb) hs).squeeze ⟨1, ![T]⟩ hq).view g) hn hin))
      tab g k8 c0 hc :=
  gathered_of_reads (by decide) hg _ tab (table_read_v0 d L tab inbT hsT) g k8 c0 hc _ hn hin
    (fun t => window_read3 d L g k8 c0 hc row sz hrow hsz hinb hs hq hn t)

omit [FloatOps F] in
/-- The whole of the 1000000-row table read through its full-size window at the origin is the table. -/
theorem table_read_v1 (tab : Buf (Elt F) ((Memref.whole main_v1_scv).view.loc (thr d L)))
    (inbT : ∀ a, (![0, 0] : Fin 2 → ℕ) a + S1000000x128.size a ≤ S1000000x128.size a)
    (hsT : ∀ a, (Rect.unit (s := S1000000x128) ![0, 0] S1000000x128.size inbT).stride a = 1) (i : S1000000x128.Idx) :
    View.read (Elt F) ((Memref.whole main_v1_scv).slice (Rect.unit (s := S1000000x128) ![0, 0] S1000000x128.size inbT) hsT).view tab i = tab i := by
  rw [View.read_apply]
  show tab _ = tab _
  refine congrArg tab (funext fun a => Fin.ext ?_)
  match a with
  | ⟨0, _⟩ => show 0 + 1 * (i 0).val = (i 0).val; omega
  | ⟨1, _⟩ => show 0 + 1 * (i 1).val = (i 1).val; omega

/-- (G) the payload of a gather from the 1000000-row table by a one-row window of index buffer 0. -/
theorem gathered_payload_v1_0 {T : ℕ} (tab : Buf (Elt F) ((Memref.whole main_v1_scv).view.loc (thr d L)))
    (g : Buf (Elt F) ((Memref.whole cc2_scratch0).view.loc (thr d L)))
    (hg : S1000000x128.Gathers 0 ⟨2, ![T, 128]⟩)
    (inbT : ∀ a, (![0, 0] : Fin 2 → ℕ) a + S1000000x128.size a ≤ S1000000x128.size a)
    (hsT : ∀ a, (Rect.unit (s := S1000000x128) ![0, 0] S1000000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch0).slice (Rect.unit (s := S8x200) row sz hinb) hs).squeeze ⟨1, ![T]⟩ hq).view g x : BitVec 32).toNat < 1000000) :
    Gathered 1000000 T (by decide)
      (SparseCore.gatherPayload (F := F) hg
        (View.read (Elt F) ((Memref.whole main_v1_scv).slice (Rect.unit (s := S1000000x128) ![0, 0] S1000000x128.size inbT) hsT).view tab)
        (SparseCore.rows (F := F) (View.read (Elt F) (((Memref.whole cc2_scratch0).slice (Rect.unit (s := S8x200) row sz hinb) hs).squeeze ⟨1, ![T]⟩ hq).view g) hn hin))
      tab g k8 c0 hc :=
  gathered_of_reads (by decide) hg _ tab (table_read_v1 d L tab inbT hsT) g k8 c0 hc _ hn hin
    (fun t => window_read0 d L g k8 c0 hc row sz hrow hsz hinb hs hq hn t)

/-- (G) the payload of a gather from the 1000000-row table by a one-row window of index buffer 1. -/
theorem gathered_payload_v1_1 {T : ℕ} (tab : Buf (Elt F) ((Memref.whole main_v1_scv).view.loc (thr d L)))
    (g : Buf (Elt F) ((Memref.whole cc2_scratch1).view.loc (thr d L)))
    (hg : S1000000x128.Gathers 0 ⟨2, ![T, 128]⟩)
    (inbT : ∀ a, (![0, 0] : Fin 2 → ℕ) a + S1000000x128.size a ≤ S1000000x128.size a)
    (hsT : ∀ a, (Rect.unit (s := S1000000x128) ![0, 0] S1000000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch1).slice (Rect.unit (s := S8x200) row sz hinb) hs).squeeze ⟨1, ![T]⟩ hq).view g x : BitVec 32).toNat < 1000000) :
    Gathered 1000000 T (by decide)
      (SparseCore.gatherPayload (F := F) hg
        (View.read (Elt F) ((Memref.whole main_v1_scv).slice (Rect.unit (s := S1000000x128) ![0, 0] S1000000x128.size inbT) hsT).view tab)
        (SparseCore.rows (F := F) (View.read (Elt F) (((Memref.whole cc2_scratch1).slice (Rect.unit (s := S8x200) row sz hinb) hs).squeeze ⟨1, ![T]⟩ hq).view g) hn hin))
      tab g k8 c0 hc :=
  gathered_of_reads (by decide) hg _ tab (table_read_v1 d L tab inbT hsT) g k8 c0 hc _ hn hin
    (fun t => window_read1 d L g k8 c0 hc row sz hrow hsz hinb hs hq hn t)

/-- (G) the payload of a gather from the 1000000-row table by a one-row window of index buffer 2. -/
theorem gathered_payload_v1_2 {T : ℕ} (tab : Buf (Elt F) ((Memref.whole main_v1_scv).view.loc (thr d L)))
    (g : Buf (Elt F) ((Memref.whole cc2_scratch2).view.loc (thr d L)))
    (hg : S1000000x128.Gathers 0 ⟨2, ![T, 128]⟩)
    (inbT : ∀ a, (![0, 0] : Fin 2 → ℕ) a + S1000000x128.size a ≤ S1000000x128.size a)
    (hsT : ∀ a, (Rect.unit (s := S1000000x128) ![0, 0] S1000000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch2).slice (Rect.unit (s := S8x200) row sz hinb) hs).squeeze ⟨1, ![T]⟩ hq).view g x : BitVec 32).toNat < 1000000) :
    Gathered 1000000 T (by decide)
      (SparseCore.gatherPayload (F := F) hg
        (View.read (Elt F) ((Memref.whole main_v1_scv).slice (Rect.unit (s := S1000000x128) ![0, 0] S1000000x128.size inbT) hsT).view tab)
        (SparseCore.rows (F := F) (View.read (Elt F) (((Memref.whole cc2_scratch2).slice (Rect.unit (s := S8x200) row sz hinb) hs).squeeze ⟨1, ![T]⟩ hq).view g) hn hin))
      tab g k8 c0 hc :=
  gathered_of_reads (by decide) hg _ tab (table_read_v1 d L tab inbT hsT) g k8 c0 hc _ hn hin
    (fun t => window_read2 d L g k8 c0 hc row sz hrow hsz hinb hs hq hn t)

/-- (G) the payload of a gather from the 1000000-row table by a one-row window of index buffer 3. -/
theorem gathered_payload_v1_3 {T : ℕ} (tab : Buf (Elt F) ((Memref.whole main_v1_scv).view.loc (thr d L)))
    (g : Buf (Elt F) ((Memref.whole cc2_scratch3).view.loc (thr d L)))
    (hg : S1000000x128.Gathers 0 ⟨2, ![T, 128]⟩)
    (inbT : ∀ a, (![0, 0] : Fin 2 → ℕ) a + S1000000x128.size a ≤ S1000000x128.size a)
    (hsT : ∀ a, (Rect.unit (s := S1000000x128) ![0, 0] S1000000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch3).slice (Rect.unit (s := S8x200) row sz hinb) hs).squeeze ⟨1, ![T]⟩ hq).view g x : BitVec 32).toNat < 1000000) :
    Gathered 1000000 T (by decide)
      (SparseCore.gatherPayload (F := F) hg
        (View.read (Elt F) ((Memref.whole main_v1_scv).slice (Rect.unit (s := S1000000x128) ![0, 0] S1000000x128.size inbT) hsT).view tab)
        (SparseCore.rows (F := F) (View.read (Elt F) (((Memref.whole cc2_scratch3).slice (Rect.unit (s := S8x200) row sz hinb) hs).squeeze ⟨1, ![T]⟩ hq).view g) hn hin))
      tab g k8 c0 hc :=
  gathered_of_reads (by decide) hg _ tab (table_read_v1 d L tab inbT hsT) g k8 c0 hc _ hn hin
    (fun t => window_read3 d L g k8 c0 hc row sz hrow hsz hinb hs hq hn t)

/-! ## Buffers written whole, and the staged index rows -/

omit [FloatOps F] in
/-- (S) gathered buffer 4 after its newest whole piece reads that piece. -/
theorem read_whole_piece4 (base : Buf (Elt F) ((Memref.whole cc2_scratch4).view.loc (thr d L)))
    (p : S128x128.Idx → Elt F .f32) (Ls : List (View.Piece (Elt F) S128x128 .f32)) (i : S128x128.Idx) :
    ((Memref.whole cc2_scratch4).view.writes (Elt F) base (⟨Rect.whole S128x128, p⟩ :: Ls) : S128x128.Idx → Elt F .f32) i = p i := by
  have hx : (Rect.whole S128x128).emb i = i := by
    funext a; refine Fin.ext ?_
    show 0 + 1 * (i a).val = (i a).val
    omega
  have e := View.read_writes_cons_emb (v := (Memref.whole cc2_scratch4).view) (f := base) (Rect.whole S128x128) p Ls i
  rw [hx, View.read_apply] at e
  exact e

omit [FloatOps F] in
/-- (S) gathered buffer 5 after its newest whole piece reads that piece. -/
theorem read_whole_piece5 (base : Buf (Elt F) ((Memref.whole cc2_scratch5).view.loc (thr d L)))
    (p : S128x128.Idx → Elt F .f32) (Ls : List (View.Piece (Elt F) S128x128 .f32)) (i : S128x128.Idx) :
    ((Memref.whole cc2_scratch5).view.writes (Elt F) base (⟨Rect.whole S128x128, p⟩ :: Ls) : S128x128.Idx → Elt F .f32) i = p i := by
  have hx : (Rect.whole S128x128).emb i = i := by
    funext a; refine Fin.ext ?_
    show 0 + 1 * (i a).val = (i a).val
    omega
  have e := View.read_writes_cons_emb (v := (Memref.whole cc2_scratch5).view) (f := base) (Rect.whole S128x128) p Ls i
  rw [hx, View.read_apply] at e
  exact e

omit [FloatOps F] in
/-- (S) gathered buffer 6 after its newest whole piece reads that piece. -/
theorem read_whole_piece6 (base : Buf (Elt F) ((Memref.whole cc2_scratch6).view.loc (thr d L)))
    (p : S72x128.Idx → Elt F .f32) (Ls : List (View.Piece (Elt F) S72x128 .f32)) (i : S72x128.Idx) :
    ((Memref.whole cc2_scratch6).view.writes (Elt F) base (⟨Rect.whole S72x128, p⟩ :: Ls) : S72x128.Idx → Elt F .f32) i = p i := by
  have hx : (Rect.whole S72x128).emb i = i := by
    funext a; refine Fin.ext ?_
    show 0 + 1 * (i a).val = (i a).val
    omega
  have e := View.read_writes_cons_emb (v := (Memref.whole cc2_scratch6).view) (f := base) (Rect.whole S72x128) p Ls i
  rw [hx, View.read_apply] at e
  exact e

omit [FloatOps F] in
/-- (S) gathered buffer 7 after its newest whole piece reads that piece. -/
theorem read_whole_piece7 (base : Buf (Elt F) ((Memref.whole cc2_scratch7).view.loc (thr d L)))
    (p : S72x128.Idx → Elt F .f32) (Ls : List (View.Piece (Elt F) S72x128 .f32)) (i : S72x128.Idx) :
    ((Memref.whole cc2_scratch7).view.writes (Elt F) base (⟨Rect.whole S72x128, p⟩ :: Ls) : S72x128.Idx → Elt F .f32) i = p i := by
  have hx : (Rect.whole S72x128).emb i = i := by
    funext a; refine Fin.ext ?_
    show 0 + 1 * (i a).val = (i a).val
    omega
  have e := View.read_writes_cons_emb (v := (Memref.whole cc2_scratch7).view) (f := base) (Rect.whole S72x128) p Ls i
  rw [hx, View.read_apply] at e
  exact e

omit [FloatOps F] in
/-- (R) eight rows of index matrix 0 staged from row n are rows n … n+7 of the matrix. -/
theorem rows_of_stage0 (fwi : Buf (Elt F) ((Memref.whole main_arg0_scv).view.loc (thr d L))) (n : ℕ) (hn : n + 8 ≤ 4096)
    (off : Fin 2 → ℕ) (hoff : off = ![n, 0]) (hb : ∀ a, off a + S8x200.size a ≤ S4096x200.size a)
    (hs : ∀ a, (Rect.unit (s := S4096x200) off S8x200.size hb).stride a = 1) :
    RowsAt (ReadAs.same.apply (View.read (Elt F) ((Memref.whole main_arg0_scv).slice (Rect.unit (s := S4096x200) off S8x200.size hb) hs).view fwi)) fwi n := by
  subst hoff
  intro r c
  have hr := r.isLt
  show fwi _ = fwi _
  refine congrArg fwi (funext fun a => Fin.ext ?_)
  match a with
  | ⟨0, _⟩ =>
    show n + 1 * r.val = (n + r.val) % 4096
    rw [Nat.mod_eq_of_lt (by omega)]; omega
  | ⟨1, _⟩ =>
    show 0 + 1 * c.val = c.val
    omega

omit [FloatOps F] in
/-- (R) eight rows of index matrix 1 staged from row n are rows n … n+7 of the matrix. -/
theorem rows_of_stage1 (fwi : Buf (Elt F) ((Memref.whole main_arg1_scv).view.loc (thr d L))) (n : ℕ) (hn : n + 8 ≤ 4096)
    (off : Fin 2 → ℕ) (hoff : off = ![n, 0]) (hb : ∀ a, off a + S8x200.size a ≤ S4096x200.size a)
    (hs : ∀ a, (Rect.unit (s := S4096x200) off S8x200.size hb).stride a = 1) :
    RowsAt (ReadAs.same.apply (View.read (Elt F) ((Memref.whole main_arg1_scv).slice (Rect.unit (s := S4096x200) off S8x200.size hb) hs).view fwi)) fwi n := by
  subst hoff
  intro r c
  have hr := r.isLt
  show fwi _ = fwi _
  refine congrArg fwi (funext fun a => Fin.ext ?_)
  match a with
  | ⟨0, _⟩ =>
    show n + 1 * r.val = (n + r.val) % 4096
    rw [Nat.mod_eq_of_lt (by omega)]; omega
  | ⟨1, _⟩ =>
    show 0 + 1 * c.val = c.val
    omega

omit [FloatOps F] in
/-- (S') index buffer 0 overwritten whole by rows n … n+7 of an index matrix holds those rows. -/
theorem rowsAt_write0 (g0 : Buf (Elt F) ((Memref.whole cc2_scratch0).view.loc (thr d L))) (pay : S8x200.Idx → Elt F .i32)
    (fw : S4096x200.Idx → BitVec 32) (n : ℕ) (h : RowsAt pay fw n) :
    RowsAt (View.write (Elt F) (Memref.whole cc2_scratch0).view g0 pay Finset.univ) fw n := by
  intro r c
  rw [write_univ0]; exact h r c

omit [FloatOps F] in
/-- (S') index buffer 1 overwritten whole by rows n … n+7 of an index matrix holds those rows. -/
theorem rowsAt_write1 (g0 : Buf (Elt F) ((Memref.whole cc2_scratch1).view.loc (thr d L))) (pay : S8x200.Idx → Elt F .i32)
    (fw : S4096x200.Idx → BitVec 32) (n : ℕ) (h : RowsAt pay fw n) :
    RowsAt (View.write (Elt F) (Memref.whole cc2_scratch1).view g0 pay Finset.univ) fw n := by
  intro r c
  rw [write_univ1]; exact h r c

omit [FloatOps F] in
/-- (S') index buffer 2 overwritten whole by rows n … n+7 of an index matrix holds those rows. -/
theorem rowsAt_write2 (g0 : Buf (Elt F) ((Memref.whole cc2_scratch2).view.loc (thr d L))) (pay : S8x200.Idx → Elt F .i32)
    (fw : S4096x200.Idx → BitVec 32) (n : ℕ) (h : RowsAt pay fw n) :
    RowsAt (View.write (Elt F) (Memref.whole cc2_scratch2).view g0 pay Finset.univ) fw n := by
  intro r c
  rw [write_univ2]; exact h r c

omit [FloatOps F] in
/-- (S') index buffer 3 overwritten whole by rows n … n+7 of an index matrix holds those rows. -/
theorem rowsAt_write3 (g0 : Buf (Elt F) ((Memref.whole cc2_scratch3).view.loc (thr d L))) (pay : S8x200.Idx → Elt F .i32)
    (fw : S4096x200.Idx → BitVec 32) (n : ℕ) (h : RowsAt pay fw n) :
    RowsAt (View.write (Elt F) (Memref.whole cc2_scratch3).view g0 pay Finset.univ) fw n := by
  intro r c
  rw [write_univ3]; exact h r c

/-! ## A chunk copied out -/

/-- THE STEP OF THE INVARIANT. The flat result is right on the first n rows of the worker's block, n the rows before
    entry (Rs + k8, c0) of the block; T entries from there are gathered from both tables through lists holding rows
    Rs … Rs+7 of the index matrices, summed on the first hundred columns into `w`, and `w` is written over rows
    [200·R0 + n, +T) of the result: then it is right on the first n + T rows. Row 200·(Rs + k8) + c0 + t of the flat
    result stands for position (Rs + k8, c0 + t). -/
theorem chunk_done_core {T : ℕ} (fwi fei : S4096x200.Idx → BitVec 32) (fwt : S100000x128.Idx → F .f32) (fet : S1000000x128.Idx → F .f32)
    (R0 : ℕ) (fo : Buf (Elt F) ((Memref.whole main_v2_scv).view.loc (thr d L))) (n : ℕ)
    (hdone : DoneUpTo fwi fei fwt fet R0 fo n)
    (gW gE : S8x200.Idx → BitVec 32) (Rs : ℕ) (hW : RowsAt gW fwi Rs) (hE : RowsAt gE fei Rs)
    (k8 : Fin 8) (c0 : ℕ) (hc : c0 + T ≤ 200)
    (pa pb : (⟨2, ![T, 128]⟩ : Shape).Idx → F .f32)
    (hpa : Gathered 100000 T (by decide) pa fwt gW k8 c0 hc) (hpb : Gathered 1000000 T (by decide) pb fet gE k8 c0 hc)
    (w : (⟨2, ![T, 100]⟩ : Shape).Idx → F .f32) (hsum : Summed T w pa pb)
    (hn : n = ((Rs + k8.val) - R0) * 200 + c0) (hR : R0 ≤ Rs + k8.val) (hlt : Rs + k8.val < 4096)
    (off : Fin 2 → ℕ) (hoff : off = ![R0 * 200 + n, 0])
    (hinb : ∀ a, off a + (![T, 100] : Fin 2 → ℕ) a ≤ S819200x100.size a)
    (hs : ∀ a, (Rect.unit (s := S819200x100) off ![T, 100] hinb).stride a = 1) :
    DoneUpTo fwi fei fwt fet R0
      (View.write (Elt F) ((Memref.whole main_v2_scv).slice (Rect.unit (s := S819200x100) off ![T, 100] hinb) hs).view fo w Finset.univ) (n + T) := by
  subst hoff
  intro j hlo hhi
  by_cases hj : (j 0).val < R0 * 200 + n
  · -- a row before the chunk: not written
    have hnot : j ∉ ((Memref.whole main_v2_scv).slice (Rect.unit (s := S819200x100) ![R0 * 200 + n, 0] ![T, 100] hinb) hs).view.setOn Finset.univ := by
      intro hmem
      rw [View.setOn_univ] at hmem
      have hmem' : j ∈ (Rect.unit (s := S819200x100) ![R0 * 200 + n, 0] ![T, 100] hinb).set := by
        rw [← View.set_slice_whole main_v2_scv]; exact hmem
      have h0 := (Rect.mem_set_unit.mp hmem') 0
      have : (![R0 * 200 + n, 0] : Fin 2 → ℕ) 0 = R0 * 200 + n := rfl
      omega
    rw [View.write_of_not_mem _ _ _ hnot]
    exact hdone j hlo hj
  · -- a row of the chunk: entry t = row − first row, column j 1
    have ht : (j 0).val - (R0 * 200 + n) < T := by omega
    have hjx : ((Memref.whole main_v2_scv).slice (Rect.unit (s := S819200x100) ![R0 * 200 + n, 0] ![T, 100] hinb) hs).view.emb
        (ix2 (n0 := T) (n1 := 100) ⟨(j 0).val - (R0 * 200 + n), ht⟩ (j 1)) = j := by
      funext a
      refine Fin.ext ?_
      match a with
      | ⟨0, _⟩ => show R0 * 200 + n + 1 * ((j 0).val - (R0 * 200 + n)) = (j 0).val; omega
      | ⟨1, _⟩ => show 0 + 1 * (j 1).val = (j 1).val; omega
    have key : View.write (Elt F) ((Memref.whole main_v2_scv).slice (Rect.unit (s := S819200x100) ![R0 * 200 + n, 0] ![T, 100] hinb) hs).view fo w Finset.univ j
        = w (ix2 (n0 := T) (n1 := 100) ⟨(j 0).val - (R0 * 200 + n), ht⟩ (j 1)) := by
      have e := View.write_emb_of_mem (v := ((Memref.whole main_v2_scv).slice (Rect.unit (s := S819200x100) ![R0 * 200 + n, 0] ![T, 100] hinb) hs).view)
        fo w (Finset.mem_univ (ix2 (n0 := T) (n1 := 100) ⟨(j 0).val - (R0 * 200 + n), ht⟩ (j 1)))
      rw [hjx] at e
      exact e
    have hpos : Cert.EmbSpec.posOf (j 0)
        = ix2 (n0 := 4096) (n1 := 200) (rowIx (Rs + k8.val)) ⟨c0 + ((j 0).val - (R0 * 200 + n)), by omega⟩ := by
      funext a
      refine Fin.ext ?_
      match a with
      | ⟨0, _⟩ => show (j 0).val / 200 = (Rs + k8.val) % 4096; omega
      | ⟨1, _⟩ => show (j 0).val % 200 = c0 + ((j 0).val - (R0 * 200 + n)); omega
    rw [key, hsum ⟨(j 0).val - (R0 * 200 + n), ht⟩ (j 1), hpa ⟨(j 0).val - (R0 * 200 + n), ht⟩ (Cert.EmbSpec.col128 (j 1)),
      hpb ⟨(j 0).val - (R0 * 200 + n), ht⟩ (Cert.EmbSpec.col128 (j 1)), hW k8 _, hE k8 _]
    show _ = FloatOps.addf
      (fwt (ix2 (n0 := 100000) (n1 := 128) (Cert.EmbSpec.rowOf 100000 (by decide) (fwi (Cert.EmbSpec.posOf (j 0)))) (Cert.EmbSpec.col128 (j 1))))
      (fet (ix2 (n0 := 1000000) (n1 := 128) (Cert.EmbSpec.rowOf 1000000 (by decide) (fei (Cert.EmbSpec.posOf (j 0)))) (Cert.EmbSpec.col128 (j 1))))
    rw [hpos]

/-- (W) the chunk of 128 entries copied out of sum buffer 8. -/
theorem chunk_done128 (fwi fei : S4096x200.Idx → BitVec 32) (fwt : S100000x128.Idx → F .f32) (fet : S1000000x128.Idx → F .f32)
    (R0 : ℕ) (fo : Buf (Elt F) ((Memref.whole main_v2_scv).view.loc (thr d L))) (n : ℕ)
    (hdone : DoneUpTo fwi fei fwt fet R0 fo n)
    (gW gE : S8x200.Idx → BitVec 32) (Rs : ℕ) (hW : RowsAt gW fwi Rs) (hE : RowsAt gE fei Rs)
    (k8 : Fin 8) (c0 : ℕ) (hc : c0 + 128 ≤ 200)
    (pa pb ga gb : (⟨2, ![128, 128]⟩ : Shape).Idx → F .f32)
    (hpa : Gathered 100000 128 (by decide) pa fwt gW k8 c0 hc) (hpb : Gathered 1000000 128 (by decide) pb fet gE k8 c0 hc)
    (hga : ∀ i, ga i = pa i) (hgb : ∀ i, gb i = pb i)
    (h : Buf (Elt F) ((Memref.whole cc2_scratch8).view.loc (thr d L))) (hsum : Summed 128 h ga gb)
    (hn : n = ((Rs + k8.val) - R0) * 200 + c0) (hR : R0 ≤ Rs + k8.val) (hlt : Rs + k8.val < 4096)
    (off : Fin 2 → ℕ) (hoff : off = ![R0 * 200 + n, 0])
    (hinb : ∀ a, off a + S128x100.size a ≤ S819200x100.size a)
    (hs : ∀ a, (Rect.unit (s := S819200x100) off S128x100.size hinb).stride a = 1) :
    DoneUpTo fwi fei fwt fet R0
      (View.write (Elt F) ((Memref.whole main_v2_scv).slice (Rect.unit (s := S819200x100) off S128x100.size hinb) hs).view fo
        (ReadAs.same.apply (View.read (Elt F) (Memref.whole cc2_scratch8).view h)) Finset.univ) (n + 128) :=
  chunk_done_core d L fwi fei fwt fet R0 fo n hdone gW gE Rs hW hE k8 c0 hc pa pb hpa hpb
    (ReadAs.same.apply (View.read (Elt F) (Memref.whole cc2_scratch8).view h))
    (fun t c => by rw [← hga, ← hgb]; exact hsum t c) hn hR hlt off hoff hinb hs

/-- (W) the chunk of 72 entries copied out of sum buffer 9. -/
theorem chunk_done72 (fwi fei : S4096x200.Idx → BitVec 32) (fwt : S100000x128.Idx → F .f32) (fet : S1000000x128.Idx → F .f32)
    (R0 : ℕ) (fo : Buf (Elt F) ((Memref.whole main_v2_scv).view.loc (thr d L))) (n : ℕ)
    (hdone : DoneUpTo fwi fei fwt fet R0 fo n)
    (gW gE : S8x200.Idx → BitVec 32) (Rs : ℕ) (hW : RowsAt gW fwi Rs) (hE : RowsAt gE fei Rs)
    (k8 : Fin 8) (c0 : ℕ) (hc : c0 + 72 ≤ 200)
    (pa pb ga gb : (⟨2, ![72, 128]⟩ : Shape).Idx → F .f32)
    (hpa : Gathered 100000 72 (by decide) pa fwt gW k8 c0 hc) (hpb : Gathered 1000000 72 (by decide) pb fet gE k8 c0 hc)
    (hga : ∀ i, ga i = pa i) (hgb : ∀ i, gb i = pb i)
    (h : Buf (Elt F) ((Memref.whole cc2_scratch9).view.loc (thr d L))) (hsum : Summed 72 h ga gb)
    (hn : n = ((Rs + k8.val) - R0) * 200 + c0) (hR : R0 ≤ Rs + k8.val) (hlt : Rs + k8.val < 4096)
    (off : Fin 2 → ℕ) (hoff : off = ![R0 * 200 + n, 0])
    (hinb : ∀ a, off a + S72x100.size a ≤ S819200x100.size a)
    (hs : ∀ a, (Rect.unit (s := S819200x100) off S72x100.size hinb).stride a = 1) :
    DoneUpTo fwi fei fwt fet R0
      (View.write (Elt F) ((Memref.whole main_v2_scv).slice (Rect.unit (s := S819200x100) off S72x100.size hinb) hs).view fo
        (ReadAs.same.apply (View.read (Elt F) (Memref.whole cc2_scratch9).view h)) Finset.univ) (n + 72) :=
  chunk_done_core d L fwi fei fwt fet R0 fo n hdone gW gE Rs hW hE k8 c0 hc pa pb hpa hpb
    (ReadAs.same.apply (View.read (Elt F) (Memref.whole cc2_scratch9).view h))
    (fun t c => by rw [← hga, ← hgb]; exact hsum t c) hn hR hlt off hoff hinb hs

end Cert.Proof.KI

end
-- ==== Proof.KI.Body.lean ====
/-
  The worker's task around its outer loop. Before the loop the worker copies the first sixteen sentences' row numbers
  in — eight rows into the first pair of index buffers, waited for at once; eight into the second pair, left in flight
  as a batch of two copies on one semaphore — and starts gathering the first chunk of its first sentence from both
  widened tables. That is the loop's invariant at trip 0. Each of the eight trips keeps the invariant (the trip's own
  theorem). After the last trip the two gathers and the batch still in flight are waited for; everything lent comes
  back, every semaphore is at zero again, and the flat result is right on all 25600 rows of the worker's block, so the
  block holds the flat sum of the two look-ups.
-/
import proofs.«206319_g15771119910948_cont_week2b_672_19_alg».proof.Proof.KI.BodyTripSpec
import proofs.«206319_g15771119910948_cont_week2b_672_19_alg».proof.Proof.KI.BodyValue
import proofs.«206319_g15771119910948_cont_week2b_672_19_alg».proof.Proof.Gen.KernelIdeal.Skeleton
import Idealize.ShloMosaic.Lib.Tactic
import Idealize.ShloMosaic.Lib.Batch

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

omit [FloatOps F] in
/-- Under the whole flat result's view a set of indices is itself. -/
theorem setOn_flat (M : Finset S819200x100.Idx) : (Memref.whole main_v2_scv).view.setOn M = M := by
  show M.map _ = M
  exact Finset.map_refl

omit [FloatOps F] in
/-- The loop has eight trips. -/
theorem trips_outer : Scf.trips k2_t1_loop.lb k2_t1_loop.ub k2_t1_loop.st = 8 := by decide

/-- A block that is right on all its 25600 rows holds the flat sum. -/
theorem block_done (fwi : Buf (Elt F) ((Memref.whole main_arg0_scv).view.loc (thr d L))) (fei : Buf (Elt F) ((Memref.whole main_arg1_scv).view.loc (thr d L))) (fwt : Buf (Elt F) ((Memref.whole main_v0_scv).view.loc (thr d L))) (fet : Buf (Elt F) ((Memref.whole main_v1_scv).view.loc (thr d L)))
    (fo : Buf (Elt F) ((Memref.whole main_v2_scv).view.loc (thr d L))) (h : DoneUpTo fwi fei fwt fet (R0 L) fo 25600) :
    ((Memref.whole main_v2_scv).view.loc (thr d L) ↦[(Memref.whole main_v2_scv).view.setOn (blkR L).set]{fullShare} fo : sProp 𝕄)
      = ((Memref.whole main_v2_scv).view.loc (thr d L) ↦[(Memref.whole main_v2_scv).view.setOn (blkR L).set]{fullShare} Cert.EmbSpec.flatSum (F := F) fwi fei fwt fet) := by
  rw [setOn_flat]
  refine pointsTo_congr fun i hi => ?_
  rw [Rect.mem_set_unit] at hi
  have h0 : 51200 * (L 1).val + 25600 * (L 0).val ≤ (i 0).val ∧ (i 0).val < 51200 * (L 1).val + 25600 * (L 0).val + 25600 := hi 0
  exact h i (by show (256 * (L 1).val + 128 * (L 0).val) * 200 ≤ (i 0).val; omega) (by show (i 0).val < (256 * (L 1).val + 128 * (L 0).val) * 200 + 25600; omega)

set_option maxHeartbeats 4000000 in
/-- The body, from what the worker is handed to what it hands back, given that a trip keeps the invariant. -/
theorem tile_run (q q' : PosShare TreeShare) (O : CellTallies nD τ sig (HIx 1)) (W : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L)))
    (fo : Buf (Elt F) ((Memref.whole main_v2_scv).view.loc (thr d L)))
    (f0 : Buf (Elt F) ((Memref.whole cc2_scratch0).view.loc (thr d L))) (f1 : Buf (Elt F) ((Memref.whole cc2_scratch1).view.loc (thr d L))) (f2 : Buf (Elt F) ((Memref.whole cc2_scratch2).view.loc (thr d L))) (f3 : Buf (Elt F) ((Memref.whole cc2_scratch3).view.loc (thr d L))) (f4 : Buf (Elt F) ((Memref.whole cc2_scratch4).view.loc (thr d L))) (f5 : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L)))
    (hwi : ∀ j, (fwi j : BitVec 32).toNat < 100000) (hei : ∀ j, (fei j : BitVec 32).toNat < 1000000)
    (htrip : TripSpec d L q q' O W fwi fei fwt fet)
    (_planB : Transfers.BatchOf (thr d L) (SemLoc.dma (sig := sig) cc2_scratch15.sem) 2)
    (_planA : Transfers.BatchOf (thr d L) (SemLoc.dma (sig := sig) cc2_scratch14.sem) 2) :
    iprop(Transfers.MayWaits (thr d L) (none : HIx 1) O
        ∗ (((Memref.whole main_arg0_scv).view.loc (thr d L) ↦{q} fwi) ∗ ((Memref.whole main_arg0_scv).view.loc (thr d L) ↦{q'} fwi)
          ∗ ((Memref.whole main_arg1_scv).view.loc (thr d L) ↦{q} fei) ∗ ((Memref.whole main_arg1_scv).view.loc (thr d L) ↦{q'} fei)
          ∗ ((Memref.whole main_v0_scv).view.loc (thr d L) ↦{q} fwt) ∗ ((Memref.whole main_v0_scv).view.loc (thr d L) ↦{q'} fwt)
          ∗ ((Memref.whole main_v1_scv).view.loc (thr d L) ↦{q} fet) ∗ ((Memref.whole main_v1_scv).view.loc (thr d L) ↦{q'} fet))
        ∗ ((Memref.whole main_v2_scv).view.loc (thr d L) ↦[(Memref.whole main_v2_scv).view.setOn (blkR L).set]{fullShare} fo)
        ∗ scr d L f0 f1 f2 f3 f4 f5 f6 f7 f8 f9
        ∗ sems0 d L ∗ owes (thr d L) O W)
      ⊢ wp frame (wpE (defs₀ (F := F)) 𝒱₀ (thr d L) none) Set.univ
          (cc2__emb_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33)
          fun _ => iprop((((Memref.whole main_arg0_scv).view.loc (thr d L) ↦{q} fwi) ∗ ((Memref.whole main_arg0_scv).view.loc (thr d L) ↦{q'} fwi)
              ∗ ((Memref.whole main_arg1_scv).view.loc (thr d L) ↦{q} fei) ∗ ((Memref.whole main_arg1_scv).view.loc (thr d L) ↦{q'} fei)
              ∗ ((Memref.whole main_v0_scv).view.loc (thr d L) ↦{q} fwt) ∗ ((Memref.whole main_v0_scv).view.loc (thr d L) ↦{q'} fwt)
              ∗ ((Memref.whole main_v1_scv).view.loc (thr d L) ↦{q} fet) ∗ ((Memref.whole main_v1_scv).view.loc (thr d L) ↦{q'} fet))
            ∗ ((Memref.whole main_v2_scv).view.loc (thr d L) ↦[(Memref.whole main_v2_scv).view.setOn (blkR L).set]{fullShare} Cert.EmbSpec.flatSum (F := F) fwi fei fwt fet)
            ∗ (∃ f0 f1 f2 f3 f4 f5 f6 f7 f8 f9, scr d L f0 f1 f2 f3 f4 f5 f6 f7 f8 f9) ∗ sems0 d L
            ∗ ∃ W', ⌜∀ p ∈ W', p ∈ W ∨ p.2 = none⌝ ∗ owes (thr d L) O W') := by
  rw [cc2__emb_body_eq_skeleton]; unfold cc2__emb_body_skel
  unfold sems0 scr
  iintro ⟨Hmw, ⟨Hwi, Hwi', Hei, Hei', Hwt, Hwt', Het, Het'⟩, Ho, ⟨Hs0, Hs1, Hs2, Hs3, Hs4, Hs5, Hs6, Hs7, Hs8, Hs9⟩, ⟨Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39⟩, HO⟩
  -- the first sixteen sentences' row numbers in, the first two gathers started
  sl_exec_parts
  have hp0 : ∀ j, (tile_run.sl.dma0 d L fwi j : BitVec 32).toNat < 100000 := fun j => by
    unfold tile_run.sl.dma0; exact hwi _
  have hp1 : ∀ j, (tile_run.sl.dma0_1 d L fei j : BitVec 32).toNat < 1000000 := fun j => by
    unfold tile_run.sl.dma0_1; exact hei _
  have hin0 := lt_winw0 d L 100000 f0 _ hp0
  have hin1 := lt_winw1 d L 1000000 f1 _ hp1
  sl_exec_parts
  -- what the invariant says of the contents at trip 0
  have hL0 : (L 0).val < 2 := (L 0).isLt
  have hL1 : (L 1).val < 16 := (L 1).isLt
  have hR : R0 L + 16 ≤ 4096 := by unfold R0; omega
  have hsA : sA L 0 = R0 L := by unfold sA; omega
  have hsB : sB L 0 = R0 L + 8 := by unfold sB; omega
  have hp2 : ∀ j, (tile_run.sl.dma2 d L fwi j : BitVec 32).toNat < 100000 := fun j => by
    unfold tile_run.sl.dma2; exact hwi _
  have hp3 : ∀ j, (tile_run.sl.dma3 d L fei j : BitVec 32).toNat < 1000000 := fun j => by
    unfold tile_run.sl.dma3; exact hei _
  have hrA : RowsAt (tile_run.sl.dma0 d L fwi) fwi (R0 L) := by
    unfold tile_run.sl.dma0; exact rows_of_stage0 d L fwi (R0 L) (by omega) (k2_off1 L) (k2_off1_eq L) _ _
  have hrEA : RowsAt (tile_run.sl.dma0_1 d L fei) fei (R0 L) := by
    unfold tile_run.sl.dma0_1; exact rows_of_stage1 d L fei (R0 L) (by omega) (k2_off1 L) (k2_off1_eq L) _ _
  have hrB : RowsAt (tile_run.sl.dma2 d L fwi) fwi (R0 L + 8) := by
    unfold tile_run.sl.dma2; exact rows_of_stage0 d L fwi (R0 L + 8) (by omega) (k2_off2 L) (k2_off2_eq L) _ _
  have hrEB : RowsAt (tile_run.sl.dma3 d L fei) fei (R0 L + 8) := by
    unfold tile_run.sl.dma3; exact rows_of_stage1 d L fei (R0 L + 8) (by omega) (k2_off2 L) (k2_off2_eq L) _ _
  have hG0 : Gathered 100000 128 (by decide) (tile_run.sl.gather0 d L fwi fwt f0 hin0) fwt
      (View.write (Elt F) (Memref.whole cc2_scratch0).view f0 (tile_run.sl.dma0 d L fwi) Finset.univ) 0 0 (by decide) := by
    unfold tile_run.sl.gather0
    exact gathered_payload_v0_0 (T := 128) d L fwt _ _ _ _ 0 0 (by decide) _ _ rfl rfl _ _ _ _ _
  have hG1 : Gathered 1000000 128 (by decide) (tile_run.sl.gather1 d L fei fet f1 hin1) fet
      (View.write (Elt F) (Memref.whole cc2_scratch1).view f1 (tile_run.sl.dma0_1 d L fei) Finset.univ) 0 0 (by decide) := by
    unfold tile_run.sl.gather1
    exact gathered_payload_v1_1 (T := 128) d L fet _ _ _ _ 0 0 (by decide) _ _ rfl rfl _ _ _ _ _
  -- the eight trips
  sl_for (invOuter d L q q' O W fwi fei fwt fet) $$ [Hmw Ho Hs6 Hs7 Hs8 Hs9 HO Hwi Hwi' Hm5 Hei Hei' Hm0 Hwt Hwt' Hs4 Hs0 Hm1 Het Het' Hs5 Hs1 Hm2 Hm3 Hm4 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39]
  case region => intro w acc; exact htrip _ _ w acc
  · unfold invOuter
    iexists fo
    iexists (View.write (Elt F) (Memref.whole cc2_scratch0).view f0 (tile_run.sl.dma0 d L fwi) Finset.univ)
    iexists (View.write (Elt F) (Memref.whole cc2_scratch1).view f1 (tile_run.sl.dma0_1 d L fei) Finset.univ)
    iexists f2; iexists f3
    iexists ((Memref.whole cc2_scratch4).view.writes (Elt F) f4 [⟨Rect.whole cc2_scratch4.ty.shape, tile_run.sl.gather0 d L fwi fwt f0 hin0⟩])
    iexists ((Memref.whole cc2_scratch5).view.writes (Elt F) f5 [⟨Rect.whole cc2_scratch5.ty.shape, tile_run.sl.gather1 d L fei fet f1 hin1⟩])
    iexists f6; iexists f7; iexists f8; iexists f9
    iexists (tile_run.sl.dma2 d L fwi)
    iexists (tile_run.sl.dma3 d L fei)
    iexists (⟨k2_off2 L, Cert.KernelIdeal.Gen.k2_off2_inb L⟩ : {off : Fin 2 → Nat // ∀ a, off a + S8x200.size a ≤ S4096x200.size a})
    iexists (insert (SemLoc.dma cc2_scoped1.sem, (default : HIx 1)) (insert (SemLoc.dma cc2_scoped0.sem, (default : HIx 1)) W))
    isplitl [Hmw]; · iexact Hmw
    isplitl [Ho]; · iexact Ho
    isplitl [Hs6]; · iexact Hs6
    isplitl [Hs7]; · iexact Hs7
    isplitl [Hs8]; · iexact Hs8
    isplitl [Hs9]; · iexact Hs9
    isplitl [HO]; · iexact HO
    isplitl [Hwi]; · iexact Hwi
    isplitl [Hwi']; · iexact Hwi'
    isplitl [Hm5]; · iexact Hm5
    isplitl [Hei]; · iexact Hei
    isplitl [Hei']; · iexact Hei'
    isplitl [Hm0]; · iexact Hm0
    isplitl [Hwt]; · iexact Hwt
    isplitl [Hwt']; · iexact Hwt'
    isplitl [Hs4]; · iexact Hs4
    isplitl [Hs0]; · iexact Hs0
    isplitl [Hm1]; · iexact Hm1
    isplitl [Het]; · iexact Het
    isplitl [Het']; · iexact Het'
    isplitl [Hs5]; · iexact Hs5
    isplitl [Hs1]; · iexact Hs1
    isplitl [Hm2]; · iexact Hm2
    isplitl [Hm3]; · iexact Hm3
    isplitl [Hm4]; · iexact Hm4
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    isplitl [Hm21]; · iexact Hm21
    isplitl [Hm22]; · iexact Hm22
    isplitl [Hm23]; · iexact Hm23
    isplitl [Hm24]; · iexact Hm24
    isplitl [Hm25]; · iexact Hm25
    isplitl [Hm26]; · iexact Hm26
    isplitl [Hm27]; · iexact Hm27
    isplitl [Hm28]; · iexact Hm28
    isplitl [Hm29]; · iexact Hm29
    isplitl [Hm30]; · iexact Hm30
    isplitl [Hm31]; · iexact Hm31
    isplitl [Hm32]; · iexact Hm32
    isplitl [Hm33]; · iexact Hm33
    isplitl [Hm34]; · iexact Hm34
    isplitl [Hm35]; · iexact Hm35
    isplitl [Hm36]; · iexact Hm36
    isplitl [Hm37]; · iexact Hm37
    isplitl [Hm38]; · iexact Hm38
    isplitl [Hm39]; · iexact Hm39
    ipureintro
    refine ⟨fun j => by rw [write_univ0]; exact hp0 j, fun j => by rw [write_univ1]; exact hp1 j, hp2, hp3, ?_, ?_, ?_, ?_, ?_,
      fun t c => (read_whole_piece4 d L _ _ _ _).trans (hG0 t c), fun t c => (read_whole_piece5 d L _ _ _ _).trans (hG1 t c), ?_⟩
    · intro p hp
      rcases Finset.mem_insert.mp hp with rfl | hp
      · exact .inr rfl
      rcases Finset.mem_insert.mp hp with rfl | hp
      · exact .inr rfl
      exact .inl hp
    · rw [hsA]; exact rowsAt_write0 d L f0 _ fwi _ hrA
    · rw [hsA]; exact rowsAt_write1 d L f1 _ fei _ hrEA
    · rw [hsB]; exact hrB
    · rw [hsB]; exact hrEB
    · intro j h1 h2; omega
  -- after the last trip: the gathers and the batch in flight waited for
  iintro %_ HI
  unfold invOuter
  icases HI with ⟨%fo', %gA, %gEA, %g2, %g3, %cA, %cB, %g6, %g7, %g8, %g9, %payB, %payEB, %ob, %W', Hmw, Ho, Hs6, Hs7, Hs8, Hs9, HO, Hwi, Hwi', Hm5, Hei, Hei', Hm0, Hwt, Hwt', Hs4, Hs0, Hm1, Het, Het', Hs5, Hs1, Hm2, Hm3, Hm4, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, %hok⟩
  sl_exec_parts
  sl_step
  obtain ⟨-, -, -, -, hW', -, -, -, -, -, -, hdone⟩ := hok
  rw [trips_outer] at hdone
  isplitl [Hwi Hwi' Hei Hei' Hwt Hwt' Het Het']
  · isplitl [Hwi]; · iexact Hwi
    isplitl [Hwi']; · iexact Hwi'
    isplitl [Hei]; · iexact Hei
    isplitl [Hei']; · iexact Hei'
    isplitl [Hwt]; · iexact Hwt
    isplitl [Hwt']; · iexact Hwt'
    isplitl [Het]; · iexact Het
    iexact Het'
  isplitl [Ho]
  · ihave Ho' := (Entails.of_eq (block_done d L fwi fei fwt fet fo' hdone)) $$ Ho
    iexact Ho'
  isplitl [Hs0 Hs1 Hm5_dst0 Hm5_dst1 Hs4 Hs5 Hs6 Hs7 Hs8 Hs9]
  · iexists _; iexists _; iexists _; iexists _; iexists _; iexists _; iexists _; iexists _; iexists _; iexists _
    isplitl [Hs0]; · iexact Hs0
    isplitl [Hs1]; · iexact Hs1
    isplitl [Hm5_dst0]; · iexact Hm5_dst0
    isplitl [Hm5_dst1]; · iexact Hm5_dst1
    isplitl [Hs4]; · iexact Hs4
    isplitl [Hs5]; · iexact Hs5
    isplitl [Hs6]; · iexact Hs6
    isplitl [Hs7]; · iexact Hs7
    isplitl [Hs8]; · iexact Hs8
    iexact Hs9
  isplitl [Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    isplitl [Hm21]; · iexact Hm21
    isplitl [Hm22]; · iexact Hm22
    isplitl [Hm23]; · iexact Hm23
    isplitl [Hm24]; · iexact Hm24
    isplitl [Hm25]; · iexact Hm25
    isplitl [Hm26]; · iexact Hm26
    isplitl [Hm27]; · iexact Hm27
    isplitl [Hm28]; · iexact Hm28
    isplitl [Hm29]; · iexact Hm29
    isplitl [Hm30]; · iexact Hm30
    isplitl [Hm31]; · iexact Hm31
    isplitl [Hm32]; · iexact Hm32
    isplitl [Hm33]; · iexact Hm33
    isplitl [Hm34]; · iexact Hm34
    isplitl [Hm35]; · iexact Hm35
    isplitl [Hm36]; · iexact Hm36
    isplitl [Hm37]; · iexact Hm37
    isplitl [Hm38]; · iexact Hm38
    iexact Hm39
  iexists _; isplitr
  swap; · iexact HO
  ipureintro
  intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW' p hp

/-- The worker's task meets its specification once a trip keeps the invariant. -/
theorem tile_body_of_trip (X : Arrays F) (hr : InRange X)
    (htrip : ∀ d L O W, (∀ g, O g none = 0) → TripSpec d L (qW L).left (qW L).right O W (X.wi d) (X.ei d) (X.wt d) (X.et d)) :
    TileBodySpec X := by
  intro d L O W hO f0 f1 f2 f3 f4 f5 f6 f7 f8 f9
  unfold tilePre tilePost inHalves outBlk
  exact tile_run d L (qW L).left (qW L).right O W (X.wi d) (X.ei d) (X.wt d) (X.et d) (X.o0 d) f0 f1 f2 f3 f4 f5 f6 f7 f8 f9
    (hr d).1 (hr d).2 (htrip d L O W hO) trivial trivial

end Cert.Proof.KI

end
-- ==== Proof.KI.BodyTripLemmas.lean ====
/-
  Arithmetic of one trip of the worker's loop: where the rows written for sentence k of trip w sit in the flat result,
  and which sentences the index buffers hold.
-/
import proofs.«206319_g15771119910948_cont_week2b_672_19_alg».proof.Proof.KI.BodyFacts

noncomputable section

namespace Cert.Proof.KI

open Cert.KernelIdeal Cert.KernelIdeal.Gen
open Idealize.ShloMosaic

variable {F : FTy → Type} [FloatOps F]

/-- The first chunk of sentence k of trip w starts at row 200·R0 + 3200·w + 200·k of the flat result; -/
theorem off17' (L : grid2.Coords) (w : Fin k2_t1_loop.trips) (k : Fin 16) :
    k2_off17 L w (BitVec.ofNat 32 k.val) = ![R0 L * 200 + (3200 * w.val + 200 * k.val), 0] :=
  (k2_off17_eq L w k).trans (by unfold R0; exact congrArg (fun a => ![a, 0]) (by omega))

/-- the second 128 rows further. -/
theorem off32' (L : grid2.Coords) (w : Fin k2_t1_loop.trips) (k : Fin 16) :
    k2_off32 L w (BitVec.ofNat 32 k.val) = ![R0 L * 200 + (3200 * w.val + 200 * k.val + 128), 0] :=
  (k2_off32_eq L w k).trans (by unfold R0; exact congrArg (fun a => ![a, 0]) (by omega))

/-- The same two with the sentence number a plain number below sixteen. -/
theorem off17n (L : grid2.Coords) (w : Fin k2_t1_loop.trips) (k : ℕ) (hk : k < 16) :
    k2_off17 L w (BitVec.ofNat 32 k) = ![R0 L * 200 + (3200 * w.val + 200 * k), 0] := off17' L w ⟨k, hk⟩
theorem off32n (L : grid2.Coords) (w : Fin k2_t1_loop.trips) (k : ℕ) (hk : k < 16) :
    k2_off32 L w (BitVec.ofNat 32 k) = ![R0 L * 200 + (3200 * w.val + 200 * k + 128), 0] := off32' L w ⟨k, hk⟩

/-- The rows staged into the first index buffers during trip w are those of the next trip's first sentences; -/
theorem off230' (L : grid2.Coords) (w : Fin k2_t1_loop.trips) : k2_off230 L w = ![sA L (w.val + 1), 0] :=
  (k2_off230_eq L w).trans (by unfold sA R0; exact congrArg (fun a => ![a, 0]) (by omega))

/-- into the second, of its later sentences. -/
theorem off455' (L : grid2.Coords) (w : Fin k2_t1_loop.trips) : k2_off455 L w = ![sB L (w.val + 1), 0] :=
  (k2_off455_eq L w).trans (by unfold sB R0; exact congrArg (fun a => ![a, 0]) (by omega))

theorem sA_lt (L : grid2.Coords) (w : ℕ) (hw : w < 8) : sA L w = R0 L + 16 * w := by unfold sA; omega
theorem sB_lt (L : grid2.Coords) (w : ℕ) (hw : w < 8) : sB L w = R0 L + 16 * w + 8 := by unfold sB; omega
theorem sA_le (L : grid2.Coords) (w : ℕ) : sA L w + 8 ≤ 4096 := by
  have h0 : (L 0).val < 2 := (L 0).isLt
  have h1 : (L 1).val < 16 := (L 1).isLt
  unfold sA R0; omega
theorem sB_le (L : grid2.Coords) (w : ℕ) : sB L w + 8 ≤ 4096 := by
  have h0 : (L 0).val < 2 := (L 0).isLt
  have h1 : (L 1).val < 16 := (L 1).isLt
  unfold sB R0; omega
theorem R0_lt (L : grid2.Coords) : R0 L + 128 ≤ 4096 := by
  have h0 : (L 0).val < 2 := (L 0).isLt
  have h1 : (L 1).val < 16 := (L 1).isLt
  unfold R0; omega

theorem DoneUpTo.cast {fwi fei : S4096x200.Idx → BitVec 32} {fwt : S100000x128.Idx → F .f32} {fet : S1000000x128.Idx → F .f32}
    {R : ℕ} {fo : S819200x100.Idx → F .f32} {n m : ℕ} (h : DoneUpTo fwi fei fwt fet R fo n) (e : n = m) : DoneUpTo fwi fei fwt fet R fo m := e ▸ h

end Cert.Proof.KI

end
-- ==== Proof.KI.AddInv.lean ====
/-
  What the row-by-row addition loops keep. Such a loop adds two gathered blocks of rows — rows of the widened word
  table and of the widened extended-word table — into a block of 100-column rows: trip t reads row t of each source
  and writes row t of the sum. Before trip t the two sources are as the loop found them and the first t rows of the
  destination hold, in every column below 100, the sum of the sources' entries in that row and column. The block
  is 128 rows for the first chunk of a sentence and 72 for the second.
-/
import proofs.«206319_g15771119910948_cont_week2b_672_19_alg».proof.Proof.KI.TileDefs

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The 128-row loops' invariant. -/
def addInvA (d : Dev nD) (L : grid2.Coords) (ga : Buf (Elt F) ((Memref.whole cc2_scratch4).view.loc (thr d L))) (gb : Buf (Elt F) ((Memref.whole cc2_scratch5).view.loc (thr d L))) (t : ℕ) (_ : Unit) : sProp 𝕄 :=
  iprop(((Memref.whole cc2_scratch4).view.loc (thr d L) ↦{fullShare} ga) ∗ ((Memref.whole cc2_scratch5).view.loc (thr d L) ↦{fullShare} gb)
    ∗ ∃ h, ((Memref.whole cc2_scratch8).view.loc (thr d L) ↦{fullShare} h) ∗ ⌜∀ (r : Fin 128) (c : Fin 100), r.val < t → h (ValueIdx.ix2 r c) = FloatOps.addf (ga (ValueIdx.ix2 r (Cert.EmbSpec.col128 c))) (gb (ValueIdx.ix2 r (Cert.EmbSpec.col128 c)))⌝)

/-- The 72-row loops' invariant. -/
def addInvB (d : Dev nD) (L : grid2.Coords) (ga : Buf (Elt F) ((Memref.whole cc2_scratch6).view.loc (thr d L))) (gb : Buf (Elt F) ((Memref.whole cc2_scratch7).view.loc (thr d L))) (t : ℕ) (_ : Unit) : sProp 𝕄 :=
  iprop(((Memref.whole cc2_scratch6).view.loc (thr d L) ↦{fullShare} ga) ∗ ((Memref.whole cc2_scratch7).view.loc (thr d L) ↦{fullShare} gb)
    ∗ ∃ h, ((Memref.whole cc2_scratch9).view.loc (thr d L) ↦{fullShare} h) ∗ ⌜∀ (r : Fin 72) (c : Fin 100), r.val < t → h (ValueIdx.ix2 r c) = FloatOps.addf (ga (ValueIdx.ix2 r (Cert.EmbSpec.col128 c))) (gb (ValueIdx.ix2 r (Cert.EmbSpec.col128 c)))⌝)

/-- The same without the values: the three buffers held, the destination at some contents. -/
def addInvA0 (d : Dev nD) (L : grid2.Coords) (ga : Buf (Elt F) ((Memref.whole cc2_scratch4).view.loc (thr d L))) (gb : Buf (Elt F) ((Memref.whole cc2_scratch5).view.loc (thr d L))) (t : ℕ) (_ : Unit) : sProp 𝕄 :=
  iprop(((Memref.whole cc2_scratch4).view.loc (thr d L) ↦{fullShare} ga) ∗ ((Memref.whole cc2_scratch5).view.loc (thr d L) ↦{fullShare} gb)
    ∗ ∃ h, ((Memref.whole cc2_scratch8).view.loc (thr d L) ↦{fullShare} h) ∗ ⌜True⌝)

def addInvB0 (d : Dev nD) (L : grid2.Coords) (ga : Buf (Elt F) ((Memref.whole cc2_scratch6).view.loc (thr d L))) (gb : Buf (Elt F) ((Memref.whole cc2_scratch7).view.loc (thr d L))) (t : ℕ) (_ : Unit) : sProp 𝕄 :=
  iprop(((Memref.whole cc2_scratch6).view.loc (thr d L) ↦{fullShare} ga) ∗ ((Memref.whole cc2_scratch7).view.loc (thr d L) ↦{fullShare} gb)
    ∗ ∃ h, ((Memref.whole cc2_scratch9).view.loc (thr d L) ↦{fullShare} h) ∗ ⌜True⌝)

end Cert.Proof.KI

end
-- ==== Proof.LibRowStores.lean ====
/-
  A matrix of 100-column rows filled one row at a time with the sum of two matrices of 128-column rows.
  Trip k of such a loop reads row k of both sources in seven pieces of sixteen columns, starting at columns 0, 16,
  32, 48, 64, 80 and 84, adds them piece by piece and stores the seven sums into row k of the destination at the
  same columns. The seven pieces lie in row k and cover its hundred columns (the last overlaps the sixth on columns
  84 to 95, where both carry the same sums), so after the trip row k of the destination is the sum of the sources'
  row k in every column below 100, and every other row is what it was. By induction the first k rows hold the sums
  before trip k. Nothing here mentions a program.
-/
import Idealize.ShloMosaic.Lib.Writes
import Idealize.ShloMosaic.Lib.Pipeline.Value
import Idealize.ShloMosaic.Lib.ValueIdx

noncomputable section

namespace Cert.LibRowStores

open Idealize.ShloMosaic Idealize.ShloMosaic.ValueIdx

/-! ## Writes that fill one row -/

section Writes

variable {sig : RefSig} {κ : Kind} {sp : Space} {dm : Fin 2 → ℕ} {e : EltTy} {Val : EltTy → Type}

/-- After writes that all lie in row k, that cover row k, and whose payloads all agree with one function G of the
    matrix's indices, an element of row k reads G and an element of another row reads what it read before. -/
theorem read_writes_row (v : View sig κ sp ⟨2, dm⟩ e) (f : v.ty.Contents Val) (G : (⟨2, dm⟩ : Shape).Idx → Val e) (k : ℕ)
    (L : List (View.Piece Val ⟨2, dm⟩ e))
    (hG : ∀ p ∈ L, ∀ x : p.1.shape.Idx, p.2 x = G (p.1.emb x))
    (hrow : ∀ p ∈ L, ∀ y ∈ p.1.set, (y 0).val = k)
    (hcov : ∀ y : (⟨2, dm⟩ : Shape).Idx, (y 0).val = k → ∃ p ∈ L, y ∈ p.1.set)
    (y : (⟨2, dm⟩ : Shape).Idx) :
    v.read Val (v.writes Val f L) y = if (y 0).val = k then G y else v.read Val f y := by
  by_cases hy : (y 0).val = k
  · rw [if_pos hy]; exact View.read_writes_apply_of_pieces v f G L hG y (hcov y hy)
  · rw [if_neg hy]; exact View.read_writes_apply_of_forall_not_mem v f y L fun p hp hm => hy (hrow p hp y hm)

/-- A piece of sixteen columns from column c₀ of row k lies in row k. -/
theorem unit_row {R C : ℕ} (k c₀ : ℕ) (o : Fin 2 → ℕ) (eo : o = ![k, c₀])
    (i : ∀ a, o a + (![1, 16] : Fin 2 → ℕ) a ≤ (⟨2, ![R, C]⟩ : Shape).size a) (y : (⟨2, ![R, C]⟩ : Shape).Idx)
    (hy : y ∈ (Rect.unit (s := ⟨2, ![R, C]⟩) o (![1, 16] : Fin 2 → ℕ) i).set) : (y 0).val = k := by
  subst eo
  have h := (Rect.mem_set_unit.mp hy) 0
  have h' : k ≤ (y 0).val ∧ (y 0).val < k + 1 := h
  omega

/-- An element of row k in columns c₀ to c₀ + 15 lies in the piece of sixteen columns from column c₀ of row k. -/
theorem mem_unit_row {R C : ℕ} (k c₀ : ℕ) (o : Fin 2 → ℕ) (eo : o = ![k, c₀])
    (i : ∀ a, o a + (![1, 16] : Fin 2 → ℕ) a ≤ (⟨2, ![R, C]⟩ : Shape).size a) (y : (⟨2, ![R, C]⟩ : Shape).Idx)
    (h0 : (y 0).val = k) (h1 : c₀ ≤ (y 1).val) (h2 : (y 1).val < c₀ + 16) : y ∈ (Rect.unit (s := ⟨2, ![R, C]⟩) o (![1, 16] : Fin 2 → ℕ) i).set := by
  subst eo
  refine Rect.mem_set_unit.mpr fun a => ?_
  match a with
  | ⟨0, _⟩ => exact ⟨show k ≤ (y 0).val by omega, show (y 0).val < k + 1 by omega⟩
  | ⟨1, _⟩ => exact ⟨show c₀ ≤ (y 1).val from h1, show (y 1).val < c₀ + 16 from h2⟩

/-- A property of each of seven things holds of every member of their list. -/
theorem forall_seven {α : Type} (P : α → Prop) (a₁ a₂ a₃ a₄ a₅ a₆ a₇ : α) (h₁ : P a₁) (h₂ : P a₂) (h₃ : P a₃) (h₄ : P a₄) (h₅ : P a₅)
    (h₆ : P a₆) (h₇ : P a₇) : ∀ p ∈ [a₇, a₆, a₅, a₄, a₃, a₂, a₁], P p := by
  intro p hp
  simp only [List.mem_cons, List.not_mem_nil, or_false] at hp
  rcases hp with rfl | rfl | rfl | rfl | rfl | rfl | rfl <;> assumption

/-- Seven stores of sixteen columns into row k of a matrix of 100-column rows, from columns 0, 16, 32, 48, 64, 80
    and 84, all agreeing with one function G: row k then reads G and the other rows are untouched. -/
theorem read_writes_seven {R : ℕ} (v : View sig κ sp (⟨2, ![R, 100]⟩ : Shape) e) (f : v.ty.Contents Val) (G : (⟨2, ![R, 100]⟩ : Shape).Idx → Val e) (k : ℕ)
    (o₁ : Fin 2 → ℕ) (o₂ : Fin 2 → ℕ) (o₃ : Fin 2 → ℕ) (o₄ : Fin 2 → ℕ) (o₅ : Fin 2 → ℕ) (o₆ : Fin 2 → ℕ) (o₇ : Fin 2 → ℕ)
    (e₁ : o₁ = ![k, 0]) (e₂ : o₂ = ![k, 16]) (e₃ : o₃ = ![k, 32]) (e₄ : o₄ = ![k, 48]) (e₅ : o₅ = ![k, 64]) (e₆ : o₆ = ![k, 80]) (e₇ : o₇ = ![k, 84])
    (i₁ : ∀ a, o₁ a + (![1, 16] : Fin 2 → ℕ) a ≤ (⟨2, ![R, 100]⟩ : Shape).size a)
    (i₂ : ∀ a, o₂ a + (![1, 16] : Fin 2 → ℕ) a ≤ (⟨2, ![R, 100]⟩ : Shape).size a)
    (i₃ : ∀ a, o₃ a + (![1, 16] : Fin 2 → ℕ) a ≤ (⟨2, ![R, 100]⟩ : Shape).size a)
    (i₄ : ∀ a, o₄ a + (![1, 16] : Fin 2 → ℕ) a ≤ (⟨2, ![R, 100]⟩ : Shape).size a)
    (i₅ : ∀ a, o₅ a + (![1, 16] : Fin 2 → ℕ) a ≤ (⟨2, ![R, 100]⟩ : Shape).size a)
    (i₆ : ∀ a, o₆ a + (![1, 16] : Fin 2 → ℕ) a ≤ (⟨2, ![R, 100]⟩ : Shape).size a)
    (i₇ : ∀ a, o₇ a + (![1, 16] : Fin 2 → ℕ) a ≤ (⟨2, ![R, 100]⟩ : Shape).size a)
    (w₁ : (Rect.unit (s := ⟨2, ![R, 100]⟩) o₁ (![1, 16] : Fin 2 → ℕ) i₁).shape.Idx → Val e)
    (w₂ : (Rect.unit (s := ⟨2, ![R, 100]⟩) o₂ (![1, 16] : Fin 2 → ℕ) i₂).shape.Idx → Val e)
    (w₃ : (Rect.unit (s := ⟨2, ![R, 100]⟩) o₃ (![1, 16] : Fin 2 → ℕ) i₃).shape.Idx → Val e)
    (w₄ : (Rect.unit (s := ⟨2, ![R, 100]⟩) o₄ (![1, 16] : Fin 2 → ℕ) i₄).shape.Idx → Val e)
    (w₅ : (Rect.unit (s := ⟨2, ![R, 100]⟩) o₅ (![1, 16] : Fin 2 → ℕ) i₅).shape.Idx → Val e)
    (w₆ : (Rect.unit (s := ⟨2, ![R, 100]⟩) o₆ (![1, 16] : Fin 2 → ℕ) i₆).shape.Idx → Val e)
    (w₇ : (Rect.unit (s := ⟨2, ![R, 100]⟩) o₇ (![1, 16] : Fin 2 → ℕ) i₇).shape.Idx → Val e)
    (h₁ : ∀ x, w₁ x = G ((Rect.unit (s := ⟨2, ![R, 100]⟩) o₁ (![1, 16] : Fin 2 → ℕ) i₁).emb x))
    (h₂ : ∀ x, w₂ x = G ((Rect.unit (s := ⟨2, ![R, 100]⟩) o₂ (![1, 16] : Fin 2 → ℕ) i₂).emb x))
    (h₃ : ∀ x, w₃ x = G ((Rect.unit (s := ⟨2, ![R, 100]⟩) o₃ (![1, 16] : Fin 2 → ℕ) i₃).emb x))
    (h₄ : ∀ x, w₄ x = G ((Rect.unit (s := ⟨2, ![R, 100]⟩) o₄ (![1, 16] : Fin 2 → ℕ) i₄).emb x))
    (h₅ : ∀ x, w₅ x = G ((Rect.unit (s := ⟨2, ![R, 100]⟩) o₅ (![1, 16] : Fin 2 → ℕ) i₅).emb x))
    (h₆ : ∀ x, w₆ x = G ((Rect.unit (s := ⟨2, ![R, 100]⟩) o₆ (![1, 16] : Fin 2 → ℕ) i₆).emb x))
    (h₇ : ∀ x, w₇ x = G ((Rect.unit (s := ⟨2, ![R, 100]⟩) o₇ (![1, 16] : Fin 2 → ℕ) i₇).emb x))
    (y : (⟨2, ![R, 100]⟩ : Shape).Idx) :
    v.read Val (v.writes Val f [⟨Rect.unit (s := ⟨2, ![R, 100]⟩) o₇ (![1, 16] : Fin 2 → ℕ) i₇, w₇⟩, ⟨Rect.unit (s := ⟨2, ![R, 100]⟩) o₆ (![1, 16] : Fin 2 → ℕ) i₆, w₆⟩, ⟨Rect.unit (s := ⟨2, ![R, 100]⟩) o₅ (![1, 16] : Fin 2 → ℕ) i₅, w₅⟩, ⟨Rect.unit (s := ⟨2, ![R, 100]⟩) o₄ (![1, 16] : Fin 2 → ℕ) i₄, w₄⟩, ⟨Rect.unit (s := ⟨2, ![R, 100]⟩) o₃ (![1, 16] : Fin 2 → ℕ) i₃, w₃⟩, ⟨Rect.unit (s := ⟨2, ![R, 100]⟩) o₂ (![1, 16] : Fin 2 → ℕ) i₂, w₂⟩, ⟨Rect.unit (s := ⟨2, ![R, 100]⟩) o₁ (![1, 16] : Fin 2 → ℕ) i₁, w₁⟩]) y = if (y 0).val = k then G y else v.read Val f y := by
  refine read_writes_row v f G k _ ?_ ?_ ?_ y
  · exact forall_seven (fun p : View.Piece Val ⟨2, ![R, 100]⟩ e => ∀ x : p.1.shape.Idx, p.2 x = G (p.1.emb x))
      (⟨Rect.unit (s := ⟨2, ![R, 100]⟩) o₁ (![1, 16] : Fin 2 → ℕ) i₁, w₁⟩ : View.Piece Val ⟨2, ![R, 100]⟩ e)
      (⟨Rect.unit (s := ⟨2, ![R, 100]⟩) o₂ (![1, 16] : Fin 2 → ℕ) i₂, w₂⟩ : View.Piece Val ⟨2, ![R, 100]⟩ e)
      (⟨Rect.unit (s := ⟨2, ![R, 100]⟩) o₃ (![1, 16] : Fin 2 → ℕ) i₃, w₃⟩ : View.Piece Val ⟨2, ![R, 100]⟩ e)
      (⟨Rect.unit (s := ⟨2, ![R, 100]⟩) o₄ (![1, 16] : Fin 2 → ℕ) i₄, w₄⟩ : View.Piece Val ⟨2, ![R, 100]⟩ e)
      (⟨Rect.unit (s := ⟨2, ![R, 100]⟩) o₅ (![1, 16] : Fin 2 → ℕ) i₅, w₅⟩ : View.Piece Val ⟨2, ![R, 100]⟩ e)
      (⟨Rect.unit (s := ⟨2, ![R, 100]⟩) o₆ (![1, 16] : Fin 2 → ℕ) i₆, w₆⟩ : View.Piece Val ⟨2, ![R, 100]⟩ e)
      (⟨Rect.unit (s := ⟨2, ![R, 100]⟩) o₇ (![1, 16] : Fin 2 → ℕ) i₇, w₇⟩ : View.Piece Val ⟨2, ![R, 100]⟩ e)
      h₁ h₂ h₃ h₄ h₅ h₆ h₇
  · exact forall_seven (fun p : View.Piece Val ⟨2, ![R, 100]⟩ e => ∀ y ∈ p.1.set, (y 0).val = k)
      (⟨Rect.unit (s := ⟨2, ![R, 100]⟩) o₁ (![1, 16] : Fin 2 → ℕ) i₁, w₁⟩ : View.Piece Val ⟨2, ![R, 100]⟩ e)
      (⟨Rect.unit (s := ⟨2, ![R, 100]⟩) o₂ (![1, 16] : Fin 2 → ℕ) i₂, w₂⟩ : View.Piece Val ⟨2, ![R, 100]⟩ e)
      (⟨Rect.unit (s := ⟨2, ![R, 100]⟩) o₃ (![1, 16] : Fin 2 → ℕ) i₃, w₃⟩ : View.Piece Val ⟨2, ![R, 100]⟩ e)
      (⟨Rect.unit (s := ⟨2, ![R, 100]⟩) o₄ (![1, 16] : Fin 2 → ℕ) i₄, w₄⟩ : View.Piece Val ⟨2, ![R, 100]⟩ e)
      (⟨Rect.unit (s := ⟨2, ![R, 100]⟩) o₅ (![1, 16] : Fin 2 → ℕ) i₅, w₅⟩ : View.Piece Val ⟨2, ![R, 100]⟩ e)
      (⟨Rect.unit (s := ⟨2, ![R, 100]⟩) o₆ (![1, 16] : Fin 2 → ℕ) i₆, w₆⟩ : View.Piece Val ⟨2, ![R, 100]⟩ e)
      (⟨Rect.unit (s := ⟨2, ![R, 100]⟩) o₇ (![1, 16] : Fin 2 → ℕ) i₇, w₇⟩ : View.Piece Val ⟨2, ![R, 100]⟩ e)
      (fun y hy => unit_row k 0 o₁ e₁ i₁ y hy)
      (fun y hy => unit_row k 16 o₂ e₂ i₂ y hy)
      (fun y hy => unit_row k 32 o₃ e₃ i₃ y hy)
      (fun y hy => unit_row k 48 o₄ e₄ i₄ y hy)
      (fun y hy => unit_row k 64 o₅ e₅ i₅ y hy)
      (fun y hy => unit_row k 80 o₆ e₆ i₆ y hy)
      (fun y hy => unit_row k 84 o₇ e₇ i₇ y hy)
  · intro y hy
    have hc : (y 1).val < 100 := (y 1).isLt
    by_cases c1 : (y 1).val < 16
    · exact ⟨(⟨Rect.unit (s := ⟨2, ![R, 100]⟩) o₁ (![1, 16] : Fin 2 → ℕ) i₁, w₁⟩ : View.Piece Val ⟨2, ![R, 100]⟩ e), (List.mem_cons_of_mem _ (List.mem_cons_of_mem _ (List.mem_cons_of_mem _ (List.mem_cons_of_mem _ (List.mem_cons_of_mem _ (List.mem_cons_of_mem _ List.mem_cons_self)))))), mem_unit_row k 0 o₁ e₁ i₁ y hy (by omega) (by omega)⟩
    by_cases c2 : (y 1).val < 32
    · exact ⟨(⟨Rect.unit (s := ⟨2, ![R, 100]⟩) o₂ (![1, 16] : Fin 2 → ℕ) i₂, w₂⟩ : View.Piece Val ⟨2, ![R, 100]⟩ e), (List.mem_cons_of_mem _ (List.mem_cons_of_mem _ (List.mem_cons_of_mem _ (List.mem_cons_of_mem _ (List.mem_cons_of_mem _ List.mem_cons_self))))), mem_unit_row k 16 o₂ e₂ i₂ y hy (by omega) (by omega)⟩
    by_cases c3 : (y 1).val < 48
    · exact ⟨(⟨Rect.unit (s := ⟨2, ![R, 100]⟩) o₃ (![1, 16] : Fin 2 → ℕ) i₃, w₃⟩ : View.Piece Val ⟨2, ![R, 100]⟩ e), (List.mem_cons_of_mem _ (List.mem_cons_of_mem _ (List.mem_cons_of_mem _ (List.mem_cons_of_mem _ List.mem_cons_self)))), mem_unit_row k 32 o₃ e₃ i₃ y hy (by omega) (by omega)⟩
    by_cases c4 : (y 1).val < 64
    · exact ⟨(⟨Rect.unit (s := ⟨2, ![R, 100]⟩) o₄ (![1, 16] : Fin 2 → ℕ) i₄, w₄⟩ : View.Piece Val ⟨2, ![R, 100]⟩ e), (List.mem_cons_of_mem _ (List.mem_cons_of_mem _ (List.mem_cons_of_mem _ List.mem_cons_self))), mem_unit_row k 48 o₄ e₄ i₄ y hy (by omega) (by omega)⟩
    by_cases c5 : (y 1).val < 80
    · exact ⟨(⟨Rect.unit (s := ⟨2, ![R, 100]⟩) o₅ (![1, 16] : Fin 2 → ℕ) i₅, w₅⟩ : View.Piece Val ⟨2, ![R, 100]⟩ e), (List.mem_cons_of_mem _ (List.mem_cons_of_mem _ List.mem_cons_self)), mem_unit_row k 64 o₅ e₅ i₅ y hy (by omega) (by omega)⟩
    by_cases c6 : (y 1).val < 96
    · exact ⟨(⟨Rect.unit (s := ⟨2, ![R, 100]⟩) o₆ (![1, 16] : Fin 2 → ℕ) i₆, w₆⟩ : View.Piece Val ⟨2, ![R, 100]⟩ e), (List.mem_cons_of_mem _ List.mem_cons_self), mem_unit_row k 80 o₆ e₆ i₆ y hy (by omega) (by omega)⟩
    · exact ⟨(⟨Rect.unit (s := ⟨2, ![R, 100]⟩) o₇ (![1, 16] : Fin 2 → ℕ) i₇, w₇⟩ : View.Piece Val ⟨2, ![R, 100]⟩ e), List.mem_cons_self, mem_unit_row k 84 o₇ e₇ i₇ y hy (by omega) (by omega)⟩

end Writes

/-! ## The sums -/

section Sums

variable {F : FTy → Type} [FloatOps F]

/-- A column of a 100-column row, as a column of a 128-column row. -/
def col (c : Fin 100) : Fin 128 := ⟨c.val, by have := c.isLt; omega⟩

/-- The sum of two matrices of 128-column rows, in the first hundred columns. -/
def rowSum {R : ℕ} (ga gb : (⟨2, ![R, 128]⟩ : Shape).Idx → F .f32) : (⟨2, ![R, 100]⟩ : Shape).Idx → F .f32 :=
  fun y => FloatOps.addf (ga (ix2 (n0 := R) (n1 := 128) (y 0) (col (y 1)))) (gb (ix2 (n0 := R) (n1 := 128) (y 0) (col (y 1))))

theorem rowSum_ix2 {R : ℕ} (ga gb : (⟨2, ![R, 128]⟩ : Shape).Idx → F .f32) (r : Fin R) (c : Fin 100) :
    rowSum ga gb (ix2 (n0 := R) (n1 := 100) r c)
      = FloatOps.addf (ga (ix2 (n0 := R) (n1 := 128) r (col c))) (gb (ix2 (n0 := R) (n1 := 128) r (col c))) := rfl

/-- Two vectors of sixteen read as a row of sixteen, added, and the sum read as a vector again: the sum of the two. -/
theorem cast_add_cast (A B : FVec F ⟨2, ![1, 16]⟩ .f32) (h₁ : (⟨2, ![1, 16]⟩ : Shape).ShapeCasts ⟨1, ![16]⟩)
    (h₂ : (⟨1, ![16]⟩ : Shape).ShapeCasts ⟨2, ![1, 16]⟩) :
    shapeCast ⟨2, ![1, 16]⟩ (addf (shapeCast ⟨1, ![16]⟩ A h₁) (shapeCast ⟨1, ![16]⟩ B h₁)) h₂ = addf A B := by
  have hA := shapeCast_shapeCast A h₁ h₂
  have hB := shapeCast_shapeCast B h₁ h₂
  funext x
  show FloatOps.addf (shapeCast ⟨2, ![1, 16]⟩ (shapeCast ⟨1, ![16]⟩ A h₁) h₂ x) (shapeCast ⟨2, ![1, 16]⟩ (shapeCast ⟨1, ![16]⟩ B h₁) h₂ x) = FloatOps.addf (A x) (B x)
  rw [hA, hB]

/-- The sixteen entries from column c₀ of row k of the two sources, added: the sum matrix at the same sixteen places. -/
theorem piece_sum {R : ℕ} (ga gb : (⟨2, ![R, 128]⟩ : Shape).Idx → F .f32) (k c₀ : ℕ) (hc : c₀ + 16 ≤ 100)
    (oa ob od : Fin 2 → ℕ) (ea : oa = ![k, c₀]) (eb : ob = ![k, c₀]) (ed : od = ![k, c₀])
    (ia : ∀ a, oa a + (![1, 16] : Fin 2 → ℕ) a ≤ (⟨2, ![R, 128]⟩ : Shape).size a) (ib : ∀ a, ob a + (![1, 16] : Fin 2 → ℕ) a ≤ (⟨2, ![R, 128]⟩ : Shape).size a)
    (id : ∀ a, od a + (![1, 16] : Fin 2 → ℕ) a ≤ (⟨2, ![R, 100]⟩ : Shape).size a) (x : (⟨2, ![1, 16]⟩ : Shape).Idx) :
    FloatOps.addf (ga ((Rect.unit (s := ⟨2, ![R, 128]⟩) oa (![1, 16] : Fin 2 → ℕ) ia).toLoadRect.idx x)) (gb ((Rect.unit (s := ⟨2, ![R, 128]⟩) ob (![1, 16] : Fin 2 → ℕ) ib).toLoadRect.idx x))
      = rowSum ga gb ((Rect.unit (s := ⟨2, ![R, 100]⟩) od (![1, 16] : Fin 2 → ℕ) id).emb x) := by
  subst ea eb ed
  have e : ∀ (i₁ : ∀ a, (![k, c₀] : Fin 2 → ℕ) a + (![1, 16] : Fin 2 → ℕ) a ≤ (⟨2, ![R, 128]⟩ : Shape).size a),
      (Rect.unit (s := ⟨2, ![R, 128]⟩) ![k, c₀] (![1, 16] : Fin 2 → ℕ) i₁).toLoadRect.idx x
        = ix2 (n0 := R) (n1 := 128) ((Rect.unit (s := ⟨2, ![R, 100]⟩) ![k, c₀] (![1, 16] : Fin 2 → ℕ) id).emb x 0)
            (col ((Rect.unit (s := ⟨2, ![R, 100]⟩) ![k, c₀] (![1, 16] : Fin 2 → ℕ) id).emb x 1)) := by
    intro i₁
    funext a
    match a with
    | ⟨0, _⟩ => exact Fin.ext rfl
    | ⟨1, _⟩ => exact Fin.ext rfl
  unfold rowSum
  rw [e ia]
  try rfl

/-- One trip: if the first k rows of the destination hold the sums and trip k stores the seven sums of row k, the
    first k + 1 rows hold the sums. -/
theorem addRow_step {sig : RefSig} {κ : Kind} {sp : Space} {R : ℕ} (v : View sig κ sp (⟨2, ![R, 100]⟩ : Shape) .f32) (h : v.ty.Contents (Elt F))
    (ga gb : (⟨2, ![R, 128]⟩ : Shape).Idx → F .f32) (k : ℕ)
    (o₁ : Fin 2 → ℕ) (o₂ : Fin 2 → ℕ) (o₃ : Fin 2 → ℕ) (o₄ : Fin 2 → ℕ) (o₅ : Fin 2 → ℕ) (o₆ : Fin 2 → ℕ) (o₇ : Fin 2 → ℕ)
    (e₁ : o₁ = ![k, 0]) (e₂ : o₂ = ![k, 16]) (e₃ : o₃ = ![k, 32]) (e₄ : o₄ = ![k, 48]) (e₅ : o₅ = ![k, 64]) (e₆ : o₆ = ![k, 80]) (e₇ : o₇ = ![k, 84])
    (i₁ : ∀ a, o₁ a + (![1, 16] : Fin 2 → ℕ) a ≤ (⟨2, ![R, 100]⟩ : Shape).size a)
    (i₂ : ∀ a, o₂ a + (![1, 16] : Fin 2 → ℕ) a ≤ (⟨2, ![R, 100]⟩ : Shape).size a)
    (i₃ : ∀ a, o₃ a + (![1, 16] : Fin 2 → ℕ) a ≤ (⟨2, ![R, 100]⟩ : Shape).size a)
    (i₄ : ∀ a, o₄ a + (![1, 16] : Fin 2 → ℕ) a ≤ (⟨2, ![R, 100]⟩ : Shape).size a)
    (i₅ : ∀ a, o₅ a + (![1, 16] : Fin 2 → ℕ) a ≤ (⟨2, ![R, 100]⟩ : Shape).size a)
    (i₆ : ∀ a, o₆ a + (![1, 16] : Fin 2 → ℕ) a ≤ (⟨2, ![R, 100]⟩ : Shape).size a)
    (i₇ : ∀ a, o₇ a + (![1, 16] : Fin 2 → ℕ) a ≤ (⟨2, ![R, 100]⟩ : Shape).size a)
    (w₁ : (Rect.unit (s := ⟨2, ![R, 100]⟩) o₁ (![1, 16] : Fin 2 → ℕ) i₁).shape.Idx → Elt F .f32)
    (w₂ : (Rect.unit (s := ⟨2, ![R, 100]⟩) o₂ (![1, 16] : Fin 2 → ℕ) i₂).shape.Idx → Elt F .f32)
    (w₃ : (Rect.unit (s := ⟨2, ![R, 100]⟩) o₃ (![1, 16] : Fin 2 → ℕ) i₃).shape.Idx → Elt F .f32)
    (w₄ : (Rect.unit (s := ⟨2, ![R, 100]⟩) o₄ (![1, 16] : Fin 2 → ℕ) i₄).shape.Idx → Elt F .f32)
    (w₅ : (Rect.unit (s := ⟨2, ![R, 100]⟩) o₅ (![1, 16] : Fin 2 → ℕ) i₅).shape.Idx → Elt F .f32)
    (w₆ : (Rect.unit (s := ⟨2, ![R, 100]⟩) o₆ (![1, 16] : Fin 2 → ℕ) i₆).shape.Idx → Elt F .f32)
    (w₇ : (Rect.unit (s := ⟨2, ![R, 100]⟩) o₇ (![1, 16] : Fin 2 → ℕ) i₇).shape.Idx → Elt F .f32)
    (h₁ : ∀ x, w₁ x = rowSum ga gb ((Rect.unit (s := ⟨2, ![R, 100]⟩) o₁ (![1, 16] : Fin 2 → ℕ) i₁).emb x))
    (h₂ : ∀ x, w₂ x = rowSum ga gb ((Rect.unit (s := ⟨2, ![R, 100]⟩) o₂ (![1, 16] : Fin 2 → ℕ) i₂).emb x))
    (h₃ : ∀ x, w₃ x = rowSum ga gb ((Rect.unit (s := ⟨2, ![R, 100]⟩) o₃ (![1, 16] : Fin 2 → ℕ) i₃).emb x))
    (h₄ : ∀ x, w₄ x = rowSum ga gb ((Rect.unit (s := ⟨2, ![R, 100]⟩) o₄ (![1, 16] : Fin 2 → ℕ) i₄).emb x))
    (h₅ : ∀ x, w₅ x = rowSum ga gb ((Rect.unit (s := ⟨2, ![R, 100]⟩) o₅ (![1, 16] : Fin 2 → ℕ) i₅).emb x))
    (h₆ : ∀ x, w₆ x = rowSum ga gb ((Rect.unit (s := ⟨2, ![R, 100]⟩) o₆ (![1, 16] : Fin 2 → ℕ) i₆).emb x))
    (h₇ : ∀ x, w₇ x = rowSum ga gb ((Rect.unit (s := ⟨2, ![R, 100]⟩) o₇ (![1, 16] : Fin 2 → ℕ) i₇).emb x))
    (hp : ∀ (r : Fin R) (c : Fin 100), r.val < k → v.read (Elt F) h (ix2 (n0 := R) (n1 := 100) r c) = rowSum ga gb (ix2 (n0 := R) (n1 := 100) r c)) :
    ∀ (r : Fin R) (c : Fin 100), r.val < k + 1 →
      v.read (Elt F) (v.writes (Elt F) h [⟨Rect.unit (s := ⟨2, ![R, 100]⟩) o₇ (![1, 16] : Fin 2 → ℕ) i₇, w₇⟩, ⟨Rect.unit (s := ⟨2, ![R, 100]⟩) o₆ (![1, 16] : Fin 2 → ℕ) i₆, w₆⟩, ⟨Rect.unit (s := ⟨2, ![R, 100]⟩) o₅ (![1, 16] : Fin 2 → ℕ) i₅, w₅⟩, ⟨Rect.unit (s := ⟨2, ![R, 100]⟩) o₄ (![1, 16] : Fin 2 → ℕ) i₄, w₄⟩, ⟨Rect.unit (s := ⟨2, ![R, 100]⟩) o₃ (![1, 16] : Fin 2 → ℕ) i₃, w₃⟩, ⟨Rect.unit (s := ⟨2, ![R, 100]⟩) o₂ (![1, 16] : Fin 2 → ℕ) i₂, w₂⟩, ⟨Rect.unit (s := ⟨2, ![R, 100]⟩) o₁ (![1, 16] : Fin 2 → ℕ) i₁, w₁⟩]) (ix2 (n0 := R) (n1 := 100) r c) = rowSum ga gb (ix2 (n0 := R) (n1 := 100) r c) := by
  intro r c hr
  rw [read_writes_seven v h (rowSum ga gb) k o₁ o₂ o₃ o₄ o₅ o₆ o₇ e₁ e₂ e₃ e₄ e₅ e₆ e₇ i₁ i₂ i₃ i₄ i₅ i₆ i₇ w₁ w₂ w₃ w₄ w₅ w₆ w₇ h₁ h₂ h₃ h₄ h₅ h₆ h₇]
  by_cases hk : r.val = k
  · rw [if_pos (show ((ix2 (n0 := R) (n1 := 100) r c) 0).val = k from hk)]
  · rw [if_neg (show ¬ ((ix2 (n0 := R) (n1 := 100) r c) 0).val = k from hk)]
    exact hp r c (by omega)

end Sums

end Cert.LibRowStores

end
-- ==== Proof.KI.AddLoops1.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 2 to 5 of the thirty-two.
-/
import proofs.«206319_g15771119910948_cont_week2b_672_19_alg».proof.Proof.KI.AddInv
import proofs.«206319_g15771119910948_cont_week2b_672_19_alg».proof.Proof.LibRowStores
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t2 (d : Dev nD) (L : grid2.Coords) (ga : Buf (Elt F) ((Memref.whole cc2_scratch4).view.loc (thr d L))) (gb : Buf (Elt F) ((Memref.whole cc2_scratch5).view.loc (thr d L)))
    (v2 : BitVec 32) (c0_i32_13 : BitVec 32) (c1_i32 : BitVec 32) (k2_t1 : Fin k2_t1_loop.trips) :
    ∀ (k : Fin k2_t2_loop.trips) (acc : Unit), addInvA d L ga gb k.val acc ⊢ wp frame (wpE (defs₀ (F := F)) 𝒱₀ (thr d L) none) Set.univ
      (k2_t2_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 c0_i32_13 c1_i32 k2_t1 k acc) (addInvA d L ga gb (k.val + 1)) := by
  intro k acc
  unfold addInvA k2_t2_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off10 k) (k2_off11 k) (k2_off12 k) (k2_off13 k) (k2_off14 k) (k2_off15 k) (k2_off16 k)
    (k2_off10_eq k) (k2_off11_eq k) (k2_off12_eq k) (k2_off13_eq k) (k2_off14_eq k) (k2_off15_eq k) (k2_off16_eq k)
    (k2_off10_inb k) (k2_off11_inb k) (k2_off12_inb k) (k2_off13_inb k) (k2_off14_inb k) (k2_off15_inb k) (k2_off16_inb k)
    _ _ _ _ _ _ _
    (fun x => (congrFun (Cert.LibRowStores.cast_add_cast (View.readAt (Elt F) (Memref.whole cc2_scratch4).view (Rect.unit (s := S128x128) (k2_off3 k) S1x16.size (k2_off3_inb k)).toLoadRect ga) (View.readAt (Elt F) (Memref.whole cc2_scratch5).view (Rect.unit (s := S128x128) (k2_off3 k) S1x16.size (k2_off3_inb k)).toLoadRect gb) shapeCasts_S1x16_S16 shapeCasts_S16_S1x16) x).trans
        (Cert.LibRowStores.piece_sum ga gb k.val 0 (by omega) (k2_off3 k) (k2_off3 k) (k2_off10 k) (k2_off3_eq k) (k2_off3_eq k) (k2_off10_eq k) (k2_off3_inb k) (k2_off3_inb k) (k2_off10_inb k) x))
    (fun x => (congrFun (Cert.LibRowStores.cast_add_cast (View.readAt (Elt F) (Memref.whole cc2_scratch4).view (Rect.unit (s := S128x128) (k2_off4 k) S1x16.size (k2_off4_inb k)).toLoadRect ga) (View.readAt (Elt F) (Memref.whole cc2_scratch5).view (Rect.unit (s := S128x128) (k2_off4 k) S1x16.size (k2_off4_inb k)).toLoadRect gb) shapeCasts_S1x16_S16 shapeCasts_S16_S1x16) x).trans
        (Cert.LibRowStores.piece_sum ga gb k.val 16 (by omega) (k2_off4 k) (k2_off4 k) (k2_off11 k) (k2_off4_eq k) (k2_off4_eq k) (k2_off11_eq k) (k2_off4_inb k) (k2_off4_inb k) (k2_off11_inb k) x))
    (fun x => (congrFun (Cert.LibRowStores.cast_add_cast (View.readAt (Elt F) (Memref.whole cc2_scratch4).view (Rect.unit (s := S128x128) (k2_off5 k) S1x16.size (k2_off5_inb k)).toLoadRect ga) (View.readAt (Elt F) (Memref.whole cc2_scratch5).view (Rect.unit (s := S128x128) (k2_off5 k) S1x16.size (k2_off5_inb k)).toLoadRect gb) shapeCasts_S1x16_S16 shapeCasts_S16_S1x16) x).trans
        (Cert.LibRowStores.piece_sum ga gb k.val 32 (by omega) (k2_off5 k) (k2_off5 k) (k2_off12 k) (k2_off5_eq k) (k2_off5_eq k) (k2_off12_eq k) (k2_off5_inb k) (k2_off5_inb k) (k2_off12_inb k) x))
    (fun x => (congrFun (Cert.LibRowStores.cast_add_cast (View.readAt (Elt F) (Memref.whole cc2_scratch4).view (Rect.unit (s := S128x128) (k2_off6 k) S1x16.size (k2_off6_inb k)).toLoadRect ga) (View.readAt (Elt F) (Memref.whole cc2_scratch5).view (Rect.unit (s := S128x128) (k2_off6 k) S1x16.size (k2_off6_inb k)).toLoadRect gb) shapeCasts_S1x16_S16 shapeCasts_S16_S1x16) x).trans
        (Cert.LibRowStores.piece_sum ga gb k.val 48 (by omega) (k2_off6 k) (k2_off6 k) (k2_off13 k) (k2_off6_eq k) (k2_off6_eq k) (k2_off13_eq k) (k2_off6_inb k) (k2_off6_inb k) (k2_off13_inb k) x))
    (fun x => (congrFun (Cert.LibRowStores.cast_add_cast (View.readAt (Elt F) (Memref.whole cc2_scratch4).view (Rect.unit (s := S128x128) (k2_off7 k) S1x16.size (k2_off7_inb k)).toLoadRect ga) (View.readAt (Elt F) (Memref.whole cc2_scratch5).view (Rect.unit (s := S128x128) (k2_off7 k) S1x16.size (k2_off7_inb k)).toLoadRect gb) shapeCasts_S1x16_S16 shapeCasts_S16_S1x16) x).trans
        (Cert.LibRowStores.piece_sum ga gb k.val 64 (by omega) (k2_off7 k) (k2_off7 k) (k2_off14 k) (k2_off7_eq k) (k2_off7_eq k) (k2_off14_eq k) (k2_off7_inb k) (k2_off7_inb k) (k2_off14_inb k) x))
    (fun x => (congrFun (Cert.LibRowStores.cast_add_cast (View.readAt (Elt F) (Memref.whole cc2_scratch4).view (Rect.unit (s := S128x128) (k2_off8 k) S1x16.size (k2_off8_inb k)).toLoadRect ga) (View.readAt (Elt F) (Memref.whole cc2_scratch5).view (Rect.unit (s := S128x128) (k2_off8 k) S1x16.size (k2_off8_inb k)).toLoadRect gb) shapeCasts_S1x16_S16 shapeCasts_S16_S1x16) x).trans
        (Cert.LibRowStores.piece_sum ga gb k.val 80 (by omega) (k2_off8 k) (k2_off8 k) (k2_off15 k) (k2_off8_eq k) (k2_off8_eq k) (k2_off15_eq k) (k2_off8_inb k) (k2_off8_inb k) (k2_off15_inb k) x))
    (fun x => (congrFun (Cert.LibRowStores.cast_add_cast (View.readAt (Elt F) (Memref.whole cc2_scratch4).view (Rect.unit (s := S128x128) (k2_off9 k) S1x16.size (k2_off9_inb k)).toLoadRect ga) (View.readAt (Elt F) (Memref.whole cc2_scratch5).view (Rect.unit (s := S128x128) (k2_off9 k) S1x16.size (k2_off9_inb k)).toLoadRect gb) shapeCasts_S1x16_S16 shapeCasts_S16_S1x16) x).trans
        (Cert.LibRowStores.piece_sum ga gb k.val 84 (by omega) (k2_off9 k) (k2_off9 k) (k2_off16 k) (k2_off9_eq k) (k2_off9_eq k) (k2_off16_eq k) (k2_off9_inb k) (k2_off9_inb k) (k2_off16_inb k) x))
    hp

set_option maxHeartbeats 1000000 in
theorem region_t3 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v30 : BitVec 32) :
    ∀ (k : Fin k2_t3_loop.trips) (acc : Unit), addInvB d L ga gb k.val acc ⊢ wp frame (wpE (defs₀ (F := F)) 𝒱₀ (thr d L) none) Set.univ
      (k2_t3_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v30 k acc) (addInvB d L ga gb (k.val + 1)) := by
  intro k acc
  unfold addInvB k2_t3_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off25 k) (k2_off26 k) (k2_off27 k) (k2_off28 k) (k2_off29 k) (k2_off30 k) (k2_off31 k)
    (k2_off25_eq k) (k2_off26_eq k) (k2_off27_eq k) (k2_off28_eq k) (k2_off29_eq k) (k2_off30_eq k) (k2_off31_eq k)
    (k2_off25_inb k) (k2_off26_inb k) (k2_off27_inb k) (k2_off28_inb k) (k2_off29_inb k) (k2_off30_inb k) (k2_off31_inb k)
    _ _ _ _ _ _ _
    (fun x => (congrFun (Cert.LibRowStores.cast_add_cast (View.readAt (Elt F) (Memref.whole cc2_scratch6).view (Rect.unit (s := S72x128) (k2_off18 k) S1x16.size (k2_off18_inb k)).toLoadRect ga) (View.readAt (Elt F) (Memref.whole cc2_scratch7).view (Rect.unit (s := S72x128) (k2_off18 k) S1x16.size (k2_off18_inb k)).toLoadRect gb) shapeCasts_S1x16_S16 shapeCasts_S16_S1x16) x).trans
        (Cert.LibRowStores.piece_sum ga gb k.val 0 (by omega) (k2_off18 k) (k2_off18 k) (k2_off25 k) (k2_off18_eq k) (k2_off18_eq k) (k2_off25_eq k) (k2_off18_inb k) (k2_off18_inb k) (k2_off25_inb k) x))
    (fun x => (congrFun (Cert.LibRowStores.cast_add_cast (View.readAt (Elt F) (Memref.whole cc2_scratch6).view (Rect.unit (s := S72x128) (k2_off19 k) S1x16.size (k2_off19_inb k)).toLoadRect ga) (View.readAt (Elt F) (Memref.whole cc2_scratch7).view (Rect.unit (s := S72x128) (k2_off19 k) S1x16.size (k2_off19_inb k)).toLoadRect gb) shapeCasts_S1x16_S16 shapeCasts_S16_S1x16) x).trans
        (Cert.LibRowStores.piece_sum ga gb k.val 16 (by omega) (k2_off19 k) (k2_off19 k) (k2_off26 k) (k2_off19_eq k) (k2_off19_eq k) (k2_off26_eq k) (k2_off19_inb k) (k2_off19_inb k) (k2_off26_inb k) x))
    (fun x => (congrFun (Cert.LibRowStores.cast_add_cast (View.readAt (Elt F) (Memref.whole cc2_scratch6).view (Rect.unit (s := S72x128) (k2_off20 k) S1x16.size (k2_off20_inb k)).toLoadRect ga) (View.readAt (Elt F) (Memref.whole cc2_scratch7).view (Rect.unit (s := S72x128) (k2_off20 k) S1x16.size (k2_off20_inb k)).toLoadRect gb) shapeCasts_S1x16_S16 shapeCasts_S16_S1x16) x).trans
        (Cert.LibRowStores.piece_sum ga gb k.val 32 (by omega) (k2_off20 k) (k2_off20 k) (k2_off27 k) (k2_off20_eq k) (k2_off20_eq k) (k2_off27_eq k) (k2_off20_inb k) (k2_off20_inb k) (k2_off27_inb k) x))
    (fun x => (congrFun (Cert.LibRowStores.cast_add_cast (View.readAt (Elt F) (Memref.whole cc2_scratch6).view (Rect.unit (s := S72x128) (k2_off21 k) S1x16.size (k2_off21_inb k)).toLoadRect ga) (View.readAt (Elt F) (Memref.whole cc2_scratch7).view (Rect.unit (s := S72x128) (k2_off21 k) S1x16.size (k2_off21_inb k)).toLoadRect gb) shapeCasts_S1x16_S16 shapeCasts_S16_S1x16) x).trans
        (Cert.LibRowStores.piece_sum ga gb k.val 48 (by omega) (k2_off21 k) (k2_off21 k) (k2_off28 k) (k2_off21_eq k) (k2_off21_eq k) (k2_off28_eq k) (k2_off21_inb k) (k2_off21_inb k) (k2_off28_inb k) x))
    (fun x => (congrFun (Cert.LibRowStores.cast_add_cast (View.readAt (Elt F) (Memref.whole cc2_scratch6).view (Rect.unit (s := S72x128) (k2_off22 k) S1x16.size (k2_off22_inb k)).toLoadRect ga) (View.readAt (Elt F) (Memref.whole cc2_scratch7).view (Rect.unit (s := S72x128) (k2_off22 k) S1x16.size (k2_off22_inb k)).toLoadRect gb) shapeCasts_S1x16_S16 shapeCasts_S16_S1x16) x).trans
        (Cert.LibRowStores.piece_sum ga gb k.val 64 (by omega) (k2_off22 k) (k2_off22 k) (k2_off29 k) (k2_off22_eq k) (k2_off22_eq k) (k2_off29_eq k) (k2_off22_inb k) (k2_off22_inb k) (k2_off29_inb k) x))
    (fun x => (congrFun (Cert.LibRowStores.cast_add_cast (View.readAt (Elt F) (Memref.whole cc2_scratch6).view (Rect.unit (s := S72x128) (k2_off23 k) S1x16.size (k2_off23_inb k)).toLoadRect ga) (View.readAt (Elt F) (Memref.whole cc2_scratch7).view (Rect.unit (s := S72x128) (k2_off23 k) S1x16.size (k2_off23_inb k)).toLoadRect gb) shapeCasts_S1x16_S16 shapeCasts_S16_S1x16) x).trans
        (Cert.LibRowStores.piece_sum ga gb k.val 80 (by omega) (k2_off23 k) (k2_off23 k) (k2_off30 k) (k2_off23_eq k) (k2_off23_eq k) (k2_off30_eq k) (k2_off23_inb k) (k2_off23_inb k) (k2_off30_inb k) x))
    (fun x => (congrFun (Cert.LibRowStores.cast_add_cast (View.readAt (Elt F) (Memref.whole cc2_scratch6).view (Rect.unit (s := S72x128) (k2_off24 k) S1x16.size (k2_off24_inb k)).toLoadRect ga) (View.readAt (Elt F) (Memref.whole cc2_scratch7).view (Rect.unit (s := S72x128) (k2_off24 k) S1x16.size (k2_off24_inb k)).toLoadRect gb) shapeCasts_S1x16_S16 shapeCasts_S16_S1x16) x).trans
        (Cert.LibRowStores.piece_sum ga gb k.val 84 (by omega) (k2_off24 k) (k2_off24 k) (k2_off31 k) (k2_off24_eq k) (k2_off24_eq k) (k2_off31_eq k) (k2_off24_inb k) (k2_off24_inb k) (k2_off31_inb k) x))
    hp

set_option maxHeartbeats 1000000 in
theorem region_t4 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t4_loop.trips) (acc : Unit), addInvA d L ga gb k.val acc ⊢ wp frame (wpE (defs₀ (F := F)) 𝒱₀ (thr d L) none) Set.univ
      (k2_t4_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t4_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off40 k) (k2_off41 k) (k2_off42 k) (k2_off43 k) (k2_off44 k) (k2_off45 k) (k2_off46 k)
    (k2_off40_eq k) (k2_off41_eq k) (k2_off42_eq k) (k2_off43_eq k) (k2_off44_eq k) (k2_off45_eq k) (k2_off46_eq k)
    (k2_off40_inb k) (k2_off41_inb k) (k2_off42_inb k) (k2_off43_inb k) (k2_off44_inb k) (k2_off45_inb k) (k2_off46_inb k)
    _ _ _ _ _ _ _
    (fun x => (congrFun (Cert.LibRowStores.cast_add_cast (View.readAt (Elt F) (Memref.whole cc2_scratch4).view (Rect.unit (s := S128x128) (k2_off33 k) S1x16.size (k2_off33_inb k)).toLoadRect ga) (View.readAt (Elt F) (Memref.whole cc2_scratch5).view (Rect.unit (s := S128x128) (k2_off33 k) S1x16.size (k2_off33_inb k)).toLoadRect gb) shapeCasts_S1x16_S16 shapeCasts_S16_S1x16) x).trans
        (Cert.LibRowStores.piece_sum ga gb k.val 0 (by omega) (k2_off33 k) (k2_off33 k) (k2_off40 k) (k2_off33_eq k) (k2_off33_eq k) (k2_off40_eq k) (k2_off33_inb k) (k2_off33_inb k) (k2_off40_inb k) x))
    (fun x => (congrFun (Cert.LibRowStores.cast_add_cast (View.readAt (Elt F) (Memref.whole cc2_scratch4).view (Rect.unit (s := S128x128) (k2_off34 k) S1x16.size (k2_off34_inb k)).toLoadRect ga) (View.readAt (Elt F) (Memref.whole cc2_scratch5).view (Rect.unit (s := S128x128) (k2_off34 k) S1x16.size (k2_off34_inb k)).toLoadRect gb) shapeCasts_S1x16_S16 shapeCasts_S16_S1x16) x).trans
        (Cert.LibRowStores.piece_sum ga gb k.val 16 (by omega) (k2_off34 k) (k2_off34 k) (k2_off41 k) (k2_off34_eq k) (k2_off34_eq k) (k2_off41_eq k) (k2_off34_inb k) (k2_off34_inb k) (k2_off41_inb k) x))
    (fun x => (congrFun (Cert.LibRowStores.cast_add_cast (View.readAt (Elt F) (Memref.whole cc2_scratch4).view (Rect.unit (s := S128x128) (k2_off35 k) S1x16.size (k2_off35_inb k)).toLoadRect ga) (View.readAt (Elt F) (Memref.whole cc2_scratch5).view (Rect.unit (s := S128x128) (k2_off35 k) S1x16.size (k2_off35_inb k)).toLoadRect gb) shapeCasts_S1x16_S16 shapeCasts_S16_S1x16) x).trans
        (Cert.LibRowStores.piece_sum ga gb k.val 32 (by omega) (k2_off35 k) (k2_off35 k) (k2_off42 k) (k2_off35_eq k) (k2_off35_eq k) (k2_off42_eq k) (k2_off35_inb k) (k2_off35_inb k) (k2_off42_inb k) x))
    (fun x => (congrFun (Cert.LibRowStores.cast_add_cast (View.readAt (Elt F) (Memref.whole cc2_scratch4).view (Rect.unit (s := S128x128) (k2_off36 k) S1x16.size (k2_off36_inb k)).toLoadRect ga) (View.readAt (Elt F) (Memref.whole cc2_scratch5).view (Rect.unit (s := S128x128) (k2_off36 k) S1x16.size (k2_off36_inb k)).toLoadRect gb) shapeCasts_S1x16_S16 shapeCasts_S16_S1x16) x).trans
        (Cert.LibRowStores.piece_sum ga gb k.val 48 (by omega) (k2_off36 k) (k2_off36 k) (k2_off43 k) (k2_off36_eq k) (k2_off36_eq k) (k2_off43_eq k) (k2_off36_inb k) (k2_off36_inb k) (k2_off43_inb k) x))
    (fun x => (congrFun (Cert.LibRowStores.cast_add_cast (View.readAt (Elt F) (Memref.whole cc2_scratch4).view (Rect.unit (s := S128x128) (k2_off37 k) S1x16.size (k2_off37_inb k)).toLoadRect ga) (View.readAt (Elt F) (Memref.whole cc2_scratch5).view (Rect.unit (s := S128x128) (k2_off37 k) S1x16.size (k2_off37_inb k)).toLoadRect gb) shapeCasts_S1x16_S16 shapeCasts_S16_S1x16) x).trans
        (Cert.LibRowStores.piece_sum ga gb k.val 64 (by omega) (k2_off37 k) (k2_off37 k) (k2_off44 k) (k2_off37_eq k) (k2_off37_eq k) (k2_off44_eq k) (k2_off37_inb k) (k2_off37_inb k) (k2_off44_inb k) x))
    (fun x => (congrFun (Cert.LibRowStores.cast_add_cast (View.readAt (Elt F) (Memref.whole cc2_scratch4).view (Rect.unit (s := S128x128) (k2_off38 k) S1x16.size (k2_off38_inb k)).toLoadRect ga) (View.readAt (Elt F) (Memref.whole cc2_scratch5).view (Rect.unit (s := S128x128) (k2_off38 k) S1x16.size (k2_off38_inb k)).toLoadRect gb) shapeCasts_S1x16_S16 shapeCasts_S16_S1x16) x).trans
        (Cert.LibRowStores.piece_sum ga gb k.val 80 (by omega) (k2_off38 k) (k2_off38 k) (k2_off45 k) (k2_off38_eq k) (k2_off38_eq k) (k2_off45_eq k) (k2_off38_inb k) (k2_off38_inb k) (k2_off45_inb k) x))
    (fun x => (congrFun (Cert.LibRowStores.cast_add_cast (View.readAt (Elt F) (Memref.whole cc2_scratch4).view (Rect.unit (s := S128x128) (k2_off39 k) S1x16.size (k2_off39_inb k)).toLoadRect ga) (View.readAt (Elt F) (Memref.whole cc2_scratch5).view (Rect.unit (s := S128x128) (k2_off39 k) S1x16.size (k2_off39_inb k)).toLoadRect gb) shapeCasts_S1x16_S16 shapeCasts_S16_S1x16) x).trans
        (Cert.LibRowStores.piece_sum ga gb k.val 84 (by omega) (k2_off39 k) (k2_off39 k) (k2_off46 k) (k2_off39_eq k) (k2_off39_eq k) (k2_off46_eq k) (k2_off39_inb k) (k2_off39_inb k) (k2_off46_inb k) x))
    hp

set_option maxHeartbeats 1000000 in
theorem region_t5 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v61 : BitVec 32) :
    ∀ (k : Fin k2_t5_loop.trips) (acc : Unit), addInvB d L ga gb k.val acc ⊢ wp frame (wpE (defs₀ (F := F)) 𝒱₀ (thr d L) none) Set.univ
      (k2_t5_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v61 k acc) (addInvB d L ga gb (k.val + 1)) := by
  intro k acc
  unfold addInvB k2_t5_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off54 k) (k2_off55 k) (k2_off56 k) (k2_off57 k) (k2_off58 k) (k2_off59 k) (k2_off60 k)
    (k2_off54_eq k) (k2_off55_eq k) (k2_off56_eq k) (k2_off57_eq k) (k2_off58_eq k) (k2_off59_eq k) (k2_off60_eq k)
    (k2_off54_inb k) (k2_off55_inb k) (k2_off56_inb k) (k2_off57_inb k) (k2_off58_inb k) (k2_off59_inb k) (k2_off60_inb k)
    _ _ _ _ _ _ _
    (fun x => (congrFun (Cert.LibRowStores.cast_add_cast (View.readAt (Elt F) (Memref.whole cc2_scratch6).view (Rect.unit (s := S72x128) (k2_off47 k) S1x16.size (k2_off47_inb k)).toLoadRect ga) (View.readAt (Elt F) (Memref.whole cc2_scratch7).view (Rect.unit (s := S72x128) (k2_off47 k) S1x16.size (k2_off47_inb k)).toLoadRect gb) shapeCasts_S1x16_S16 shapeCasts_S16_S1x16) x).trans
        (Cert.LibRowStores.piece_sum ga gb k.val 0 (by omega) (k2_off47 k) (k2_off47 k) (k2_off54 k) (k2_off47_eq k) (k2_off47_eq k) (k2_off54_eq k) (k2_off47_inb k) (k2_off47_inb k) (k2_off54_inb k) x))
    (fun x => (congrFun (Cert.LibRowStores.cast_add_cast (View.readAt (Elt F) (Memref.whole cc2_scratch6).view (Rect.unit (s := S72x128) (k2_off48 k) S1x16.size (k2_off48_inb k)).toLoadRect ga) (View.readAt (Elt F) (Memref.whole cc2_scratch7).view (Rect.unit (s := S72x128) (k2_off48 k) S1x16.size (k2_off48_inb k)).toLoadRect gb) shapeCasts_S1x16_S16 shapeCasts_S16_S1x16) x).trans
        (Cert.LibRowStores.piece_sum ga gb k.val 16 (by omega) (k2_off48 k) (k2_off48 k) (k2_off55 k) (k2_off48_eq k) (k2_off48_eq k) (k2_off55_eq k) (k2_off48_inb k) (k2_off48_inb k) (k2_off55_inb k) x))
    (fun x => (congrFun (Cert.LibRowStores.cast_add_cast (View.readAt (Elt F) (Memref.whole cc2_scratch6).view (Rect.unit (s := S72x128) (k2_off49 k) S1x16.size (k2_off49_inb k)).toLoadRect ga) (View.readAt (Elt F) (Memref.whole cc2_scratch7).view (Rect.unit (s := S72x128) (k2_off49 k) S1x16.size (k2_off49_inb k)).toLoadRect gb) shapeCasts_S1x16_S16 shapeCasts_S16_S1x16) x).trans
        (Cert.LibRowStores.piece_sum ga gb k.val 32 (by omega) (k2_off49 k) (k2_off49 k) (k2_off56 k) (k2_off49_eq k) (k2_off49_eq k) (k2_off56_eq k) (k2_off49_inb k) (k2_off49_inb k) (k2_off56_inb k) x))
    (fun x => (congrFun (Cert.LibRowStores.cast_add_cast (View.readAt (Elt F) (Memref.whole cc2_scratch6).view (Rect.unit (s := S72x128) (k2_off50 k) S1x16.size (k2_off50_inb k)).toLoadRect ga) (View.readAt (Elt F) (Memref.whole cc2_scratch7).view (Rect.unit (s := S72x128) (k2_off50 k) S1x16.size (k2_off50_inb k)).toLoadRect gb) shapeCasts_S1x16_S16 shapeCasts_S16_S1x16) x).trans
        (Cert.LibRowStores.piece_sum ga gb k.val 48 (by omega) (k2_off50 k) (k2_off50 k) (k2_off57 k) (k2_off50_eq k) (k2_off50_eq k) (k2_off57_eq k) (k2_off50_inb k) (k2_off50_inb k) (k2_off57_inb k) x))
    (fun x => (congrFun (Cert.LibRowStores.cast_add_cast (View.readAt (Elt F) (Memref.whole cc2_scratch6).view (Rect.unit (s := S72x128) (k2_off51 k) S1x16.size (k2_off51_inb k)).toLoadRect ga) (View.readAt (Elt F) (Memref.whole cc2_scratch7).view (Rect.unit (s := S72x128) (k2_off51 k) S1x16.size (k2_off51_inb k)).toLoadRect gb) shapeCasts_S1x16_S16 shapeCasts_S16_S1x16) x).trans
        (Cert.LibRowStores.piece_sum ga gb k.val 64 (by omega) (k2_off51 k) (k2_off51 k) (k2_off58 k) (k2_off51_eq k) (k2_off51_eq k) (k2_off58_eq k) (k2_off51_inb k) (k2_off51_inb k) (k2_off58_inb k) x))
    (fun x => (congrFun (Cert.LibRowStores.cast_add_cast (View.readAt (Elt F) (Memref.whole cc2_scratch6).view (Rect.unit (s := S72x128) (k2_off52 k) S1x16.size (k2_off52_inb k)).toLoadRect ga) (View.readAt (Elt F) (Memref.whole cc2_scratch7).view (Rect.unit (s := S72x128) (k2_off52 k) S1x16.size (k2_off52_inb k)).toLoadRect gb) shapeCasts_S1x16_S16 shapeCasts_S16_S1x16) x).trans
        (Cert.LibRowStores.piece_sum ga gb k.val 80 (by omega) (k2_off52 k) (k2_off52 k) (k2_off59 k) (k2_off52_eq k) (k2_off52_eq k) (k2_off59_eq k) (k2_off52_inb k) (k2_off52_inb k) (k2_off59_inb k) x))
    (fun x => (congrFun (Cert.LibRowStores.cast_add_cast (View.readAt (Elt F) (Memref.whole cc2_scratch6).view (Rect.unit (s := S72x128) (k2_off53 k) S1x16.size (k2_off53_inb k)).toLoadRect ga) (View.readAt (Elt F) (Memref.whole cc2_scratch7).view (Rect.unit (s := S72x128) (k2_off53 k) S1x16.size (k2_off53_inb k)).toLoadRect gb) shapeCasts_S1x16_S16 shapeCasts_S16_S1x16) x).trans
        (Cert.LibRowStores.piece_sum ga gb k.val 84 (by omega) (k2_off53 k) (k2_off53 k) (k2_off60 k) (k2_off53_eq k) (k2_off53_eq k) (k2_off60_eq k) (k2_off53_inb k) (k2_off53_inb k) (k2_off60_inb k) x))
    hp

end Cert.Proof.KI

end
-- ==== Proof.KI.AddLoops2.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 6 to 9 of the thirty-two.
-/
import proofs.«206319_g15771119910948_cont_week2b_672_19_alg».proof.Proof.KI.AddInv
import proofs.«206319_g15771119910948_cont_week2b_672_19_alg».proof.Proof.LibRowStores
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t6 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t6_loop.trips) (acc : Unit), addInvA d L ga gb k.val acc ⊢ wp frame (wpE (defs₀ (F := F)) 𝒱₀ (thr d L) none) Set.univ
      (k2_t6_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t6_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off68 k) (k2_off69 k) (k2_off70 k) (k2_off71 k) (k2_off72 k) (k2_off73 k) (k2_off74 k)
    (k2_off68_eq k) (k2_off69_eq k) (k2_off70_eq k) (k2_off71_eq k) (k2_off72_eq k) (k2_off73_eq k) (k2_off74_eq k)
    (k2_off68_inb k) (k2_off69_inb k) (k2_off70_inb k) (k2_off71_inb k) (k2_off72_inb k) (k2_off73_inb k) (k2_off74_inb k)
    _ _ _ _ _ _ _
    (fun x => (congrFun (Cert.LibRowStores.cast_add_cast (View.readAt (Elt F) (Memref.whole cc2_scratch4).view (Rect.unit (s := S128x128) (k2_off61 k) S1x16.size (k2_off61_inb k)).toLoadRect ga) (View.readAt (Elt F) (Memref.whole cc2_scratch5).view (Rect.unit (s := S128x128) (k2_off61 k) S1x16.size (k2_off61_inb k)).toLoadRect gb) shapeCasts_S1x16_S16 shapeCasts_S16_S1x16) x).trans
        (Cert.LibRowStores.piece_sum ga gb k.val 0 (by omega) (k2_off61 k) (k2_off61 k) (k2_off68 k) (k2_off61_eq k) (k2_off61_eq k) (k2_off68_eq k) (k2_off61_inb k) (k2_off61_inb k) (k2_off68_inb k) x))
    (fun x => (congrFun (Cert.LibRowStores.cast_add_cast (View.readAt (Elt F) (Memref.whole cc2_scratch4).view (Rect.unit (s := S128x128) (k2_off62 k) S1x16.size (k2_off62_inb k)).toLoadRect ga) (View.readAt (Elt F) (Memref.whole cc2_scratch5).view (Rect.unit (s := S128x128) (k2_off62 k) S1x16.size (k2_off62_inb k)).toLoadRect gb) shapeCasts_S1x16_S16 shapeCasts_S16_S1x16) x).trans
        (Cert.LibRowStores.piece_sum ga gb k.val 16 (by omega) (k2_off62 k) (k2_off62 k) (k2_off69 k) (k2_off62_eq k) (k2_off62_eq k) (k2_off69_eq k) (k2_off62_inb k) (k2_off62_inb k) (k2_off69_inb k) x))
    (fun x => (congrFun (Cert.LibRowStores.cast_add_cast (View.readAt (Elt F) (Memref.whole cc2_scratch4).view (Rect.unit (s := S128x128) (k2_off63 k) S1x16.size (k2_off63_inb k)).toLoadRect ga) (View.readAt (Elt F) (Memref.whole cc2_scratch5).view (Rect.unit (s := S128x128) (k2_off63 k) S1x16.size (k2_off63_inb k)).toLoadRect gb) shapeCasts_S1x16_S16 shapeCasts_S16_S1x16) x).trans
        (Cert.LibRowStores.piece_sum ga gb k.val 32 (by omega) (k2_off63 k) (k2_off63 k) (k2_off70 k) (k2_off63_eq k) (k2_off63_eq k) (k2_off70_eq k) (k2_off63_inb k) (k2_off63_inb k) (k2_off70_inb k) x))
    (fun x => (congrFun (Cert.LibRowStores.cast_add_cast (View.readAt (Elt F) (Memref.whole cc2_scratch4).view (Rect.unit (s := S128x128) (k2_off64 k) S1x16.size (k2_off64_inb k)).toLoadRect ga) (View.readAt (Elt F) (Memref.whole cc2_scratch5).view (Rect.unit (s := S128x128) (k2_off64 k) S1x16.size (k2_off64_inb k)).toLoadRect gb) shapeCasts_S1x16_S16 shapeCasts_S16_S1x16) x).trans
        (Cert.LibRowStores.piece_sum ga gb k.val 48 (by omega) (k2_off64 k) (k2_off64 k) (k2_off71 k) (k2_off64_eq k) (k2_off64_eq k) (k2_off71_eq k) (k2_off64_inb k) (k2_off64_inb k) (k2_off71_inb k) x))
    (fun x => (congrFun (Cert.LibRowStores.cast_add_cast (View.readAt (Elt F) (Memref.whole cc2_scratch4).view (Rect.unit (s := S128x128) (k2_off65 k) S1x16.size (k2_off65_inb k)).toLoadRect ga) (View.readAt (Elt F) (Memref.whole cc2_scratch5).view (Rect.unit (s := S128x128) (k2_off65 k) S1x16.size (k2_off65_inb k)).toLoadRect gb) shapeCasts_S1x16_S16 shapeCasts_S16_S1x16) x).trans
        (Cert.LibRowStores.piece_sum ga gb k.val 64 (by omega) (k2_off65 k) (k2_off65 k) (k2_off72 k) (k2_off65_eq k) (k2_off65_eq k) (k2_off72_eq k) (k2_off65_inb k) (k2_off65_inb k) (k2_off72_inb k) x))
    (fun x => (congrFun (Cert.LibRowStores.cast_add_cast (View.readAt (Elt F) (Memref.whole cc2_scratch4).view (Rect.unit (s := S128x128) (k2_off66 k) S1x16.size (k2_off66_inb k)).toLoadRect ga) (View.readAt (Elt F) (Memref.whole cc2_scratch5).view (Rect.unit (s := S128x128) (k2_off66 k) S1x16.size (k2_off66_inb k)).toLoadRect gb) shapeCasts_S1x16_S16 shapeCasts_S16_S1x16) x).trans
        (Cert.LibRowStores.piece_sum ga gb k.val 80 (by omega) (k2_off66 k) (k2_off66 k) (k2_off73 k) (k2_off66_eq k) (k2_off66_eq k) (k2_off73_eq k) (k2_off66_inb k) (k2_off66_inb k) (k2_off73_inb k) x))
    (fun x => (congrFun (Cert.LibRowStores.cast_add_cast (View.readAt (Elt F) (Memref.whole cc2_scratch4).view (Rect.unit (s := S128x128) (k2_off67 k) S1x16.size (k2_off67_inb k)).toLoadRect ga) (View.readAt (Elt F) (Memref.whole cc2_scratch5).view (Rect.unit (s := S128x128) (k2_off67 k) S1x16.size (k2_off67_inb k)).toLoadRect gb) shapeCasts_S1x16_S16 shapeCasts_S16_S1x16) x).trans
        (Cert.LibRowStores.piece_sum ga gb k.val 84 (by omega) (k2_off67 k) (k2_off67 k) (k2_off74 k) (k2_off67_eq k) (k2_off67_eq k) (k2_off74_eq k) (k2_off67_inb k) (k2_off67_inb k) (k2_off74_inb k) x))
    hp

set_option maxHeartbeats 1000000 in
theorem region_t7 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v92 : BitVec 32) (c0_i32_151 : BitVec 32) (c72_i32_152 : BitVec 32) :
    ∀ (k : Fin k2_t7_loop.trips) (acc : Unit), addInvB d L ga gb k.val acc ⊢ wp frame (wpE (defs₀ (F := F)) 𝒱₀ (thr d L) none) Set.univ
      (k2_t7_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v92 c0_i32_151 c72_i32_152 k acc) (addInvB d L ga gb (k.val + 1)) := by
  intro k acc
  unfold addInvB k2_t7_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off82 k) (k2_off83 k) (k2_off84 k) (k2_off85 k) (k2_off86 k) (k2_off87 k) (k2_off88 k)
    (k2_off82_eq k) (k2_off83_eq k) (k2_off84_eq k) (k2_off85_eq k) (k2_off86_eq k) (k2_off87_eq k) (k2_off88_eq k)
    (k2_off82_inb k) (k2_off83_inb k) (k2_off84_inb k) (k2_off85_inb k) (k2_off86_inb k) (k2_off87_inb k) (k2_off88_inb k)
    _ _ _ _ _ _ _
    (fun x => (congrFun (Cert.LibRowStores.cast_add_cast (View.readAt (Elt F) (Memref.whole cc2_scratch6).view (Rect.unit (s := S72x128) (k2_off75 k) S1x16.size (k2_off75_inb k)).toLoadRect ga) (View.readAt (Elt F) (Memref.whole cc2_scratch7).view (Rect.unit (s := S72x128) (k2_off75 k) S1x16.size (k2_off75_inb k)).toLoadRect gb) shapeCasts_S1x16_S16 shapeCasts_S16_S1x16) x).trans
        (Cert.LibRowStores.piece_sum ga gb k.val 0 (by omega) (k2_off75 k) (k2_off75 k) (k2_off82 k) (k2_off75_eq k) (k2_off75_eq k) (k2_off82_eq k) (k2_off75_inb k) (k2_off75_inb k) (k2_off82_inb k) x))
    (fun x => (congrFun (Cert.LibRowStores.cast_add_cast (View.readAt (Elt F) (Memref.whole cc2_scratch6).view (Rect.unit (s := S72x128) (k2_off76 k) S1x16.size (k2_off76_inb k)).toLoadRect ga) (View.readAt (Elt F) (Memref.whole cc2_scratch7).view (Rect.unit (s := S72x128) (k2_off76 k) S1x16.size (k2_off76_inb k)).toLoadRect gb) shapeCasts_S1x16_S16 shapeCasts_S16_S1x16) x).trans
        (Cert.LibRowStores.piece_sum ga gb k.val 16 (by omega) (k2_off76 k) (k2_off76 k) (k2_off83 k) (k2_off76_eq k) (k2_off76_eq k) (k2_off83_eq k) (k2_off76_inb k) (k2_off76_inb k) (k2_off83_inb k) x))
    (fun x => (congrFun (Cert.LibRowStores.cast_add_cast (View.readAt (Elt F) (Memref.whole cc2_scratch6).view (Rect.unit (s := S72x128) (k2_off77 k) S1x16.size (k2_off77_inb k)).toLoadRect ga) (View.readAt (Elt F) (Memref.whole cc2_scratch7).view (Rect.unit (s := S72x128) (k2_off77 k) S1x16.size (k2_off77_inb k)).toLoadRect gb) shapeCasts_S1x16_S16 shapeCasts_S16_S1x16) x).trans
        (Cert.LibRowStores.piece_sum ga gb k.val 32 (by omega) (k2_off77 k) (k2_off77 k) (k2_off84 k) (k2_off77_eq k) (k2_off77_eq k) (k2_off84_eq k) (k2_off77_inb k) (k2_off77_inb k) (k2_off84_inb k) x))
    (fun x => (congrFun (Cert.LibRowStores.cast_add_cast (View.readAt (Elt F) (Memref.whole cc2_scratch6).view (Rect.unit (s := S72x128) (k2_off78 k) S1x16.size (k2_off78_inb k)).toLoadRect ga) (View.readAt (Elt F) (Memref.whole cc2_scratch7).view (Rect.unit (s := S72x128) (k2_off78 k) S1x16.size (k2_off78_inb k)).toLoadRect gb) shapeCasts_S1x16_S16 shapeCasts_S16_S1x16) x).trans
        (Cert.LibRowStores.piece_sum ga gb k.val 48 (by omega) (k2_off78 k) (k2_off78 k) (k2_off85 k) (k2_off78_eq k) (k2_off78_eq k) (k2_off85_eq k) (k2_off78_inb k) (k2_off78_inb k) (k2_off85_inb k) x))
    (fun x => (congrFun (Cert.LibRowStores.cast_add_cast (View.readAt (Elt F) (Memref.whole cc2_scratch6).view (Rect.unit (s := S72x128) (k2_off79 k) S1x16.size (k2_off79_inb k)).toLoadRect ga) (View.readAt (Elt F) (Memref.whole cc2_scratch7).view (Rect.unit (s := S72x128) (k2_off79 k) S1x16.size (k2_off79_inb k)).toLoadRect gb) shapeCasts_S1x16_S16 shapeCasts_S16_S1x16) x).trans
        (Cert.LibRowStores.piece_sum ga gb k.val 64 (by omega) (k2_off79 k) (k2_off79 k) (k2_off86 k) (k2_off79_eq k) (k2_off79_eq k) (k2_off86_eq k) (k2_off79_inb k) (k2_off79_inb k) (k2_off86_inb k) x))
    (fun x => (congrFun (Cert.LibRowStores.cast_add_cast (View.readAt (Elt F) (Memref.whole cc2_scratch6).view (Rect.unit (s := S72x128) (k2_off80 k) S1x16.size (k2_off80_inb k)).toLoadRect ga) (View.readAt (Elt F) (Memref.whole cc2_scratch7).view (Rect.unit (s := S72x128) (k2_off80 k) S1x16.size (k2_off80_inb k)).toLoadRect gb) shapeCasts_S1x16_S16 shapeCasts_S16_S1x16) x).trans
        (Cert.LibRowStores.piece_sum ga gb k.val 80 (by omega) (k2_off80 k) (k2_off80 k) (k2_off87 k) (k2_off80_eq k) (k2_off80_eq k) (k2_off87_eq k) (k2_off80_inb k) (k2_off80_inb k) (k2_off87_inb k) x))
    (fun x => (congrFun (Cert.LibRowStores.cast_add_cast (View.readAt (Elt F) (Memref.whole cc2_scratch6).view (Rect.unit (s := S72x128) (k2_off81 k) S1x16.size (k2_off81_inb k)).toLoadRect ga) (View.readAt (Elt F) (Memref.whole cc2_scratch7).view (Rect.unit (s := S72x128) (k2_off81 k) S1x16.size (k2_off81_inb k)).toLoadRect gb) shapeCasts_S1x16_S16 shapeCasts_S16_S1x16) x).trans
        (Cert.LibRowStores.piece_sum ga gb k.val 84 (by omega) (k2_off81 k) (k2_off81 k) (k2_off88 k) (k2_off81_eq k) (k2_off81_eq k) (k2_off88_eq k) (k2_off81_inb k) (k2_off81_inb k) (k2_off88_inb k) x))
    hp

set_option maxHeartbeats 1000000 in
theorem region_t8 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) (v92 : BitVec 32) (c0_i32_151 : BitVec 32) (c72_i32_152 : BitVec 32) :
    ∀ (k : Fin k2_t8_loop.trips) (acc : Unit), addInvA d L ga gb k.val acc ⊢ wp frame (wpE (defs₀ (F := F)) 𝒱₀ (thr d L) none) Set.univ
      (k2_t8_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v92 c0_i32_151 c72_i32_152 k acc) (addInvA d L ga gb (k.val + 1)) := by
  intro k acc
  unfold addInvA k2_t8_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off96 k) (k2_off97 k) (k2_off98 k) (k2_off99 k) (k2_off100 k) (k2_off101 k) (k2_off102 k)
    (k2_off96_eq k) (k2_off97_eq k) (k2_off98_eq k) (k2_off99_eq k) (k2_off100_eq k) (k2_off101_eq k) (k2_off102_eq k)
    (k2_off96_inb k) (k2_off97_inb k) (k2_off98_inb k) (k2_off99_inb k) (k2_off100_inb k) (k2_off101_inb k) (k2_off102_inb k)
    _ _ _ _ _ _ _
    (fun x => (congrFun (Cert.LibRowStores.cast_add_cast (View.readAt (Elt F) (Memref.whole cc2_scratch4).view (Rect.unit (s := S128x128) (k2_off89 k) S1x16.size (k2_off89_inb k)).toLoadRect ga) (View.readAt (Elt F) (Memref.whole cc2_scratch5).view (Rect.unit (s := S128x128) (k2_off89 k) S1x16.size (k2_off89_inb k)).toLoadRect gb) shapeCasts_S1x16_S16 shapeCasts_S16_S1x16) x).trans
        (Cert.LibRowStores.piece_sum ga gb k.val 0 (by omega) (k2_off89 k) (k2_off89 k) (k2_off96 k) (k2_off89_eq k) (k2_off89_eq k) (k2_off96_eq k) (k2_off89_inb k) (k2_off89_inb k) (k2_off96_inb k) x))
    (fun x => (congrFun (Cert.LibRowStores.cast_add_cast (View.readAt (Elt F) (Memref.whole cc2_scratch4).view (Rect.unit (s := S128x128) (k2_off90 k) S1x16.size (k2_off90_inb k)).toLoadRect ga) (View.readAt (Elt F) (Memref.whole cc2_scratch5).view (Rect.unit (s := S128x128) (k2_off90 k) S1x16.size (k2_off90_inb k)).toLoadRect gb) shapeCasts_S1x16_S16 shapeCasts_S16_S1x16) x).trans
        (Cert.LibRowStores.piece_sum ga gb k.val 16 (by omega) (k2_off90 k) (k2_off90 k) (k2_off97 k) (k2_off90_eq k) (k2_off90_eq k) (k2_off97_eq k) (k2_off90_inb k) (k2_off90_inb k) (k2_off97_inb k) x))
    (fun x => (congrFun (Cert.LibRowStores.cast_add_cast (View.readAt (Elt F) (Memref.whole cc2_scratch4).view (Rect.unit (s := S128x128) (k2_off91 k) S1x16.size (k2_off91_inb k)).toLoadRect ga) (View.readAt (Elt F) (Memref.whole cc2_scratch5).view (Rect.unit (s := S128x128) (k2_off91 k) S1x16.size (k2_off91_inb k)).toLoadRect gb) shapeCasts_S1x16_S16 shapeCasts_S16_S1x16) x).trans
        (Cert.LibRowStores.piece_sum ga gb k.val 32 (by omega) (k2_off91 k) (k2_off91 k) (k2_off98 k) (k2_off91_eq k) (k2_off91_eq k) (k2_off98_eq k) (k2_off91_inb k) (k2_off91_inb k) (k2_off98_inb k) x))
    (fun x => (congrFun (Cert.LibRowStores.cast_add_cast (View.readAt (Elt F) (Memref.whole cc2_scratch4).view (Rect.unit (s := S128x128) (k2_off92 k) S1x16.size (k2_off92_inb k)).toLoadRect ga) (View.readAt (Elt F) (Memref.whole cc2_scratch5).view (Rect.unit (s := S128x128) (k2_off92 k) S1x16.size (k2_off92_inb k)).toLoadRect gb) shapeCasts_S1x16_S16 shapeCasts_S16_S1x16) x).trans
        (Cert.LibRowStores.piece_sum ga gb k.val 48 (by omega) (k2_off92 k) (k2_off92 k) (k2_off99 k) (k2_off92_eq k) (k2_off92_eq k) (k2_off99_eq k) (k2_off92_inb k) (k2_off92_inb k) (k2_off99_inb k) x))
    (fun x => (congrFun (Cert.LibRowStores.cast_add_cast (View.readAt (Elt F) (Memref.whole cc2_scratch4).view (Rect.unit (s := S128x128) (k2_off93 k) S1x16.size (k2_off93_inb k)).toLoadRect ga) (View.readAt (Elt F) (Memref.whole cc2_scratch5).view (Rect.unit (s := S128x128) (k2_off93 k) S1x16.size (k2_off93_inb k)).toLoadRect gb) shapeCasts_S1x16_S16 shapeCasts_S16_S1x16) x).trans
        (Cert.LibRowStores.piece_sum ga gb k.val 64 (by omega) (k2_off93 k) (k2_off93 k) (k2_off100 k) (k2_off93_eq k) (k2_off93_eq k) (k2_off100_eq k) (k2_off93_inb k) (k2_off93_inb k) (k2_off100_inb k) x))
    (fun x => (congrFun (Cert.LibRowStores.cast_add_cast (View.readAt (Elt F) (Memref.whole cc2_scratch4).view (Rect.unit (s := S128x128) (k2_off94 k) S1x16.size (k2_off94_inb k)).toLoadRect ga) (View.readAt (Elt F) (Memref.whole cc2_scratch5).view (Rect.unit (s := S128x128) (k2_off94 k) S1x16.size (k2_off94_inb k)).toLoadRect gb) shapeCasts_S1x16_S16 shapeCasts_S16_S1x16) x).trans
        (Cert.LibRowStores.piece_sum ga gb k.val 80 (by omega) (k2_off94 k) (k2_off94 k) (k2_off101 k) (k2_off94_eq k) (k2_off94_eq k) (k2_off101_eq k) (k2_off94_inb k) (k2_off94_inb k) (k2_off101_inb k) x))
    (fun x => (congrFun (Cert.LibRowStores.cast_add_cast (View.readAt (Elt F) (Memref.whole cc2_scratch4).view (Rect.unit (s := S128x128) (k2_off95 k) S1x16.size (k2_off95_inb k)).toLoadRect ga) (View.readAt (Elt F) (Memref.whole cc2_scratch5).view (Rect.unit (s := S128x128) (k2_off95 k) S1x16.size (k2_off95_inb k)).toLoadRect gb) shapeCasts_S1x16_S16 shapeCasts_S16_S1x16) x).trans
        (Cert.LibRowStores.piece_sum ga gb k.val 84 (by omega) (k2_off95 k) (k2_off95 k) (k2_off102 k) (k2_off95_eq k) (k2_off95_eq k) (k2_off102_eq k) (k2_off95_inb k) (k2_off95_inb k) (k2_off102_inb k) x))
    hp

set_option maxHeartbeats 1000000 in
theorem region_t9 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) (v123 : BitVec 32) :
    ∀ (k : Fin k2_t9_loop.trips) (acc : Unit), addInvB d L ga gb k.val acc ⊢ wp frame (wpE (defs₀ (F := F)) 𝒱₀ (thr d L) none) Set.univ
      (k2_t9_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 v123 k acc) (addInvB d L ga gb (k.val + 1)) := by
  intro k acc
  unfold addInvB k2_t9_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off110 k) (k2_off111 k) (k2_off112 k) (k2_off113 k) (k2_off114 k) (k2_off115 k) (k2_off116 k)
    (k2_off110_eq k) (k2_off111_eq k) (k2_off112_eq k) (k2_off113_eq k) (k2_off114_eq k) (k2_off115_eq k) (k2_off116_eq k)
    (k2_off110_inb k) (k2_off111_inb k) (k2_off112_inb k) (k2_off113_inb k) (k2_off114_inb k) (k2_off115_inb k) (k2_off116_inb k)
    _ _ _ _ _ _ _
    (fun x => (congrFun (Cert.LibRowStores.cast_add_cast (View.readAt (Elt F) (Memref.whole cc2_scratch6).view (Rect.unit (s := S72x128) (k2_off103 k) S1x16.size (k2_off103_inb k)).toLoadRect ga) (View.readAt (Elt F) (Memref.whole cc2_scratch7).view (Rect.unit (s := S72x128) (k2_off103 k) S1x16.size (k2_off103_inb k)).toLoadRect gb) shapeCasts_S1x16_S16 shapeCasts_S16_S1x16) x).trans
        (Cert.LibRowStores.piece_sum ga gb k.val 0 (by omega) (k2_off103 k) (k2_off103 k) (k2_off110 k) (k2_off103_eq k) (k2_off103_eq k) (k2_off110_eq k) (k2_off103_inb k) (k2_off103_inb k) (k2_off110_inb k) x))
    (fun x => (congrFun (Cert.LibRowStores.cast_add_cast (View.readAt (Elt F) (Memref.whole cc2_scratch6).view (Rect.unit (s := S72x128) (k2_off104 k) S1x16.size (k2_off104_inb k)).toLoadRect ga) (View.readAt (Elt F) (Memref.whole cc2_scratch7).view (Rect.unit (s := S72x128) (k2_off104 k) S1x16.size (k2_off104_inb k)).toLoadRect gb) shapeCasts_S1x16_S16 shapeCasts_S16_S1x16) x).trans
        (Cert.LibRowStores.piece_sum ga gb k.val 16 (by omega) (k2_off104 k) (k2_off104 k) (k2_off111 k) (k2_off104_eq k) (k2_off104_eq k) (k2_off111_eq k) (k2_off104_inb k) (k2_off104_inb k) (k2_off111_inb k) x))
    (fun x => (congrFun (Cert.LibRowStores.cast_add_cast (View.readAt (Elt F) (Memref.whole cc2_scratch6).view (Rect.unit (s := S72x128) (k2_off105 k) S1x16.size (k2_off105_inb k)).toLoadRect ga) (View.readAt (Elt F) (Memref.whole cc2_scratch7).view (Rect.unit (s := S72x128) (k2_off105 k) S1x16.size (k2_off105_inb k)).toLoadRect gb) shapeCasts_S1x16_S16 shapeCasts_S16_S1x16) x).trans
        (Cert.LibRowStores.piece_sum ga gb k.val 32 (by omega) (k2_off105 k) (k2_off105 k) (k2_off112 k) (k2_off105_eq k) (k2_off105_eq k) (k2_off112_eq k) (k2_off105_inb k) (k2_off105_inb k) (k2_off112_inb k) x))
    (fun x => (congrFun (Cert.LibRowStores.cast_add_cast (View.readAt (Elt F) (Memref.whole cc2_scratch6).view (Rect.unit (s := S72x128) (k2_off106 k) S1x16.size (k2_off106_inb k)).toLoadRect ga) (View.readAt (Elt F) (Memref.whole cc2_scratch7).view (Rect.unit (s := S72x128) (k2_off106 k) S1x16.size (k2_off106_inb k)).toLoadRect gb) shapeCasts_S1x16_S16 shapeCasts_S16_S1x16) x).trans
        (Cert.LibRowStores.piece_sum ga gb k.val 48 (by omega) (k2_off106 k) (k2_off106 k) (k2_off113 k) (k2_off106_eq k) (k2_off106_eq k) (k2_off113_eq k) (k2_off106_inb k) (k2_off106_inb k) (k2_off113_inb k) x))
    (fun x => (congrFun (Cert.LibRowStores.cast_add_cast (View.readAt (Elt F) (Memref.whole cc2_scratch6).view (Rect.unit (s := S72x128) (k2_off107 k) S1x16.size (k2_off107_inb k)).toLoadRect ga) (View.readAt (Elt F) (Memref.whole cc2_scratch7).view (Rect.unit (s := S72x128) (k2_off107 k) S1x16.size (k2_off107_inb k)).toLoadRect gb) shapeCasts_S1x16_S16 shapeCasts_S16_S1x16) x).trans
        (Cert.LibRowStores.piece_sum ga gb k.val 64 (by omega) (k2_off107 k) (k2_off107 k) (k2_off114 k) (k2_off107_eq k) (k2_off107_eq k) (k2_off114_eq k) (k2_off107_inb k) (k2_off107_inb k) (k2_off114_inb k) x))
    (fun x => (congrFun (Cert.LibRowStores.cast_add_cast (View.readAt (Elt F) (Memref.whole cc2_scratch6).view (Rect.unit (s := S72x128) (k2_off108 k) S1x16.size (k2_off108_inb k)).toLoadRect ga) (View.readAt (Elt F) (Memref.whole cc2_scratch7).view (Rect.unit (s := S72x128) (k2_off108 k) S1x16.size (k2_off108_inb k)).toLoadRect gb) shapeCasts_S1x16_S16 shapeCasts_S16_S1x16) x).trans
        (Cert.LibRowStores.piece_sum ga gb k.val 80 (by omega) (k2_off108 k) (k2_off108 k) (k2_off115 k) (k2_off108_eq k) (k2_off108_eq k) (k2_off115_eq k) (k2_off108_inb k) (k2_off108_inb k) (k2_off115_inb k) x))
    (fun x => (congrFun (Cert.LibRowStores.cast_add_cast (View.readAt (Elt F) (Memref.whole cc2_scratch6).view (Rect.unit (s := S72x128) (k2_off109 k) S1x16.size (k2_off109_inb k)).toLoadRect ga) (View.readAt (Elt F) (Memref.whole cc2_scratch7).view (Rect.unit (s := S72x128) (k2_off109 k) S1x16.size (k2_off109_inb k)).toLoadRect gb) shapeCasts_S1x16_S16 shapeCasts_S16_S1x16) x).trans
        (Cert.LibRowStores.piece_sum ga gb k.val 84 (by omega) (k2_off109 k) (k2_off109 k) (k2_off116 k) (k2_off109_eq k) (k2_off109_eq k) (k2_off116_eq k) (k2_off109_inb k) (k2_off109_inb k) (k2_off116_inb k) x))
    hp

end Cert.Proof.KI

end
-- ==== Proof.KI.AddLoops3.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 10 to 13 of the thirty-two.
-/
import proofs.«206319_g15771119910948_cont_week2b_672_19_alg».proof.Proof.KI.AddInv
import proofs.«206319_g15771119910948_cont_week2b_672_19_alg».proof.Proof.LibRowStores
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t10 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) :
    ∀ (k : Fin k2_t10_loop.trips) (acc : Unit), addInvA d L ga gb k.val acc ⊢ wp frame (wpE (defs₀ (F := F)) 𝒱₀ (thr d L) none) Set.univ
      (k2_t10_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 k acc) (addInvA d L ga gb (k.val + 1)) := by
  intro k acc
  unfold addInvA k2_t10_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off124 k) (k2_off125 k) (k2_off126 k) (k2_off127 k) (k2_off128 k) (k2_off129 k) (k2_off130 k)
    (k2_off124_eq k) (k2_off125_eq k) (k2_off126_eq k) (k2_off127_eq k) (k2_off128_eq k) (k2_off129_eq k) (k2_off130_eq k)
    (k2_off124_inb k) (k2_off125_inb k) (k2_off126_inb k) (k2_off127_inb k) (k2_off128_inb k) (k2_off129_inb k) (k2_off130_inb k)
    _ _ _ _ _ _ _
    (fun x => (congrFun (Cert.LibRowStores.cast_add_cast (View.readAt (Elt F) (Memref.whole cc2_scratch4).view (Rect.unit (s := S128x128) (k2_off117 k) S1x16.size (k2_off117_inb k)).toLoadRect ga) (View.readAt (Elt F) (Memref.whole cc2_scratch5).view (Rect.unit (s := S128x128) (k2_off117 k) S1x16.size (k2_off117_inb k)).toLoadRect gb) shapeCasts_S1x16_S16 shapeCasts_S16_S1x16) x).trans
        (Cert.LibRowStores.piece_sum ga gb k.val 0 (by omega) (k2_off117 k) (k2_off117 k) (k2_off124 k) (k2_off117_eq k) (k2_off117_eq k) (k2_off124_eq k) (k2_off117_inb k) (k2_off117_inb k) (k2_off124_inb k) x))
    (fun x => (congrFun (Cert.LibRowStores.cast_add_cast (View.readAt (Elt F) (Memref.whole cc2_scratch4).view (Rect.unit (s := S128x128) (k2_off118 k) S1x16.size (k2_off118_inb k)).toLoadRect ga) (View.readAt (Elt F) (Memref.whole cc2_scratch5).view (Rect.unit (s := S128x128) (k2_off118 k) S1x16.size (k2_off118_inb k)).toLoadRect gb) shapeCasts_S1x16_S16 shapeCasts_S16_S1x16) x).trans
        (Cert.LibRowStores.piece_sum ga gb k.val 16 (by omega) (k2_off118 k) (k2_off118 k) (k2_off125 k) (k2_off118_eq k) (k2_off118_eq k) (k2_off125_eq k) (k2_off118_inb k) (k2_off118_inb k) (k2_off125_inb k) x))
    (fun x => (congrFun (Cert.LibRowStores.cast_add_cast (View.readAt (Elt F) (Memref.whole cc2_scratch4).view (Rect.unit (s := S128x128) (k2_off119 k) S1x16.size (k2_off119_inb k)).toLoadRect ga) (View.readAt (Elt F) (Memref.whole cc2_scratch5).view (Rect.unit (s := S128x128) (k2_off119 k) S1x16.size (k2_off119_inb k)).toLoadRect gb) shapeCasts_S1x16_S16 shapeCasts_S16_S1x16) x).trans
        (Cert.LibRowStores.piece_sum ga gb k.val 32 (by omega) (k2_off119 k) (k2_off119 k) (k2_off126 k) (k2_off119_eq k) (k2_off119_eq k) (k2_off126_eq k) (k2_off119_inb k) (k2_off119_inb k) (k2_off126_inb k) x))
    (fun x => (congrFun (Cert.LibRowStores.cast_add_cast (View.readAt (Elt F) (Memref.whole cc2_scratch4).view (Rect.unit (s := S128x128) (k2_off120 k) S1x16.size (k2_off120_inb k)).toLoadRect ga) (View.readAt (Elt F) (Memref.whole cc2_scratch5).view (Rect.unit (s := S128x128) (k2_off120 k) S1x16.size (k2_off120_inb k)).toLoadRect gb) shapeCasts_S1x16_S16 shapeCasts_S16_S1x16) x).trans
        (Cert.LibRowStores.piece_sum ga gb k.val 48 (by omega) (k2_off120 k) (k2_off120 k) (k2_off127 k) (k2_off120_eq k) (k2_off120_eq k) (k2_off127_eq k) (k2_off120_inb k) (k2_off120_inb k) (k2_off127_inb k) x))
    (fun x => (congrFun (Cert.LibRowStores.cast_add_cast (View.readAt (Elt F) (Memref.whole cc2_scratch4).view (Rect.unit (s := S128x128) (k2_off121 k) S1x16.size (k2_off121_inb k)).toLoadRect ga) (View.readAt (Elt F) (Memref.whole cc2_scratch5).view (Rect.unit (s := S128x128) (k2_off121 k) S1x16.size (k2_off121_inb k)).toLoadRect gb) shapeCasts_S1x16_S16 shapeCasts_S16_S1x16) x).trans
        (Cert.LibRowStores.piece_sum ga gb k.val 64 (by omega) (k2_off121 k) (k2_off121 k) (k2_off128 k) (k2_off121_eq k) (k2_off121_eq k) (k2_off128_eq k) (k2_off121_inb k) (k2_off121_inb k) (k2_off128_inb k) x))
    (fun x => (congrFun (Cert.LibRowStores.cast_add_cast (View.readAt (Elt F) (Memref.whole cc2_scratch4).view (Rect.unit (s := S128x128) (k2_off122 k) S1x16.size (k2_off122_inb k)).toLoadRect ga) (View.readAt (Elt F) (Memref.whole cc2_scratch5).view (Rect.unit (s := S128x128) (k2_off122 k) S1x16.size (k2_off122_inb k)).toLoadRect gb) shapeCasts_S1x16_S16 shapeCasts_S16_S1x16) x).trans
        (Cert.LibRowStores.piece_sum ga gb k.val 80 (by omega) (k2_off122 k) (k2_off122 k) (k2_off129 k) (k2_off122_eq k) (k2_off122_eq k) (k2_off129_eq k) (k2_off122_inb k) (k2_off122_inb k) (k2_off129_inb k) x))
    (fun x => (congrFun (Cert.LibRowStores.cast_add_cast (View.readAt (Elt F) (Memref.whole cc2_scratch4).view (Rect.unit (s := S128x128) (k2_off123 k) S1x16.size (k2_off123_inb k)).toLoadRect ga) (View.readAt (Elt F) (Memref.whole cc2_scratch5).view (Rect.unit (s := S128x128) (k2_off123 k) S1x16.size (k2_off123_inb k)).toLoadRect gb) shapeCasts_S1x16_S16 shapeCasts_S16_S1x16) x).trans
        (Cert.LibRowStores.piece_sum ga gb k.val 84 (by omega) (k2_off123 k) (k2_off123 k) (k2_off130 k) (k2_off123_eq k) (k2_off123_eq k) (k2_off130_eq k) (k2_off123_inb k) (k2_off123_inb k) (k2_off130_inb k) x))
    hp

set_option maxHeartbeats 1000000 in
theorem region_t11 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v154 : BitVec 32) :
    ∀ (k : Fin k2_t11_loop.trips) (acc : Unit), addInvB d L ga gb k.val acc ⊢ wp frame (wpE (defs₀ (F := F)) 𝒱₀ (thr d L) none) Set.univ
      (k2_t11_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v154 k acc) (addInvB d L ga gb (k.val + 1)) := by
  intro k acc
  unfold addInvB k2_t11_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off138 k) (k2_off139 k) (k2_off140 k) (k2_off141 k) (k2_off142 k) (k2_off143 k) (k2_off144 k)
    (k2_off138_eq k) (k2_off139_eq k) (k2_off140_eq k) (k2_off141_eq k) (k2_off142_eq k) (k2_off143_eq k) (k2_off144_eq k)
    (k2_off138_inb k) (k2_off139_inb k) (k2_off140_inb k) (k2_off141_inb k) (k2_off142_inb k) (k2_off143_inb k) (k2_off144_inb k)
    _ _ _ _ _ _ _
    (fun x => (congrFun (Cert.LibRowStores.cast_add_cast (View.readAt (Elt F) (Memref.whole cc2_scratch6).view (Rect.unit (s := S72x128) (k2_off131 k) S1x16.size (k2_off131_inb k)).toLoadRect ga) (View.readAt (Elt F) (Memref.whole cc2_scratch7).view (Rect.unit (s := S72x128) (k2_off131 k) S1x16.size (k2_off131_inb k)).toLoadRect gb) shapeCasts_S1x16_S16 shapeCasts_S16_S1x16) x).trans
        (Cert.LibRowStores.piece_sum ga gb k.val 0 (by omega) (k2_off131 k) (k2_off131 k) (k2_off138 k) (k2_off131_eq k) (k2_off131_eq k) (k2_off138_eq k) (k2_off131_inb k) (k2_off131_inb k) (k2_off138_inb k) x))
    (fun x => (congrFun (Cert.LibRowStores.cast_add_cast (View.readAt (Elt F) (Memref.whole cc2_scratch6).view (Rect.unit (s := S72x128) (k2_off132 k) S1x16.size (k2_off132_inb k)).toLoadRect ga) (View.readAt (Elt F) (Memref.whole cc2_scratch7).view (Rect.unit (s := S72x128) (k2_off132 k) S1x16.size (k2_off132_inb k)).toLoadRect gb) shapeCasts_S1x16_S16 shapeCasts_S16_S1x16) x).trans
        (Cert.LibRowStores.piece_sum ga gb k.val 16 (by omega) (k2_off132 k) (k2_off132 k) (k2_off139 k) (k2_off132_eq k) (k2_off132_eq k) (k2_off139_eq k) (k2_off132_inb k) (k2_off132_inb k) (k2_off139_inb k) x))
    (fun x => (congrFun (Cert.LibRowStores.cast_add_cast (View.readAt (Elt F) (Memref.whole cc2_scratch6).view (Rect.unit (s := S72x128) (k2_off133 k) S1x16.size (k2_off133_inb k)).toLoadRect ga) (View.readAt (Elt F) (Memref.whole cc2_scratch7).view (Rect.unit (s := S72x128) (k2_off133 k) S1x16.size (k2_off133_inb k)).toLoadRect gb) shapeCasts_S1x16_S16 shapeCasts_S16_S1x16) x).trans
        (Cert.LibRowStores.piece_sum ga gb k.val 32 (by omega) (k2_off133 k) (k2_off133 k) (k2_off140 k) (k2_off133_eq k) (k2_off133_eq k) (k2_off140_eq k) (k2_off133_inb k) (k2_off133_inb k) (k2_off140_inb k) x))
    (fun x => (congrFun (Cert.LibRowStores.cast_add_cast (View.readAt (Elt F) (Memref.whole cc2_scratch6).view (Rect.unit (s := S72x128) (k2_off134 k) S1x16.size (k2_off134_inb k)).toLoadRect ga) (View.readAt (Elt F) (Memref.whole cc2_scratch7).view (Rect.unit (s := S72x128) (k2_off134 k) S1x16.size (k2_off134_inb k)).toLoadRect gb) shapeCasts_S1x16_S16 shapeCasts_S16_S1x16) x).trans
        (Cert.LibRowStores.piece_sum ga gb k.val 48 (by omega) (k2_off134 k) (k2_off134 k) (k2_off141 k) (k2_off134_eq k) (k2_off134_eq k) (k2_off141_eq k) (k2_off134_inb k) (k2_off134_inb k) (k2_off141_inb k) x))
    (fun x => (congrFun (Cert.LibRowStores.cast_add_cast (View.readAt (Elt F) (Memref.whole cc2_scratch6).view (Rect.unit (s := S72x128) (k2_off135 k) S1x16.size (k2_off135_inb k)).toLoadRect ga) (View.readAt (Elt F) (Memref.whole cc2_scratch7).view (Rect.unit (s := S72x128) (k2_off135 k) S1x16.size (k2_off135_inb k)).toLoadRect gb) shapeCasts_S1x16_S16 shapeCasts_S16_S1x16) x).trans
        (Cert.LibRowStores.piece_sum ga gb k.val 64 (by omega) (k2_off135 k) (k2_off135 k) (k2_off142 k) (k2_off135_eq k) (k2_off135_eq k) (k2_off142_eq k) (k2_off135_inb k) (k2_off135_inb k) (k2_off142_inb k) x))
    (fun x => (congrFun (Cert.LibRowStores.cast_add_cast (View.readAt (Elt F) (Memref.whole cc2_scratch6).view (Rect.unit (s := S72x128) (k2_off136 k) S1x16.size (k2_off136_inb k)).toLoadRect ga) (View.readAt (Elt F) (Memref.whole cc2_scratch7).view (Rect.unit (s := S72x128) (k2_off136 k) S1x16.size (k2_off136_inb k)).toLoadRect gb) shapeCasts_S1x16_S16 shapeCasts_S16_S1x16) x).trans
        (Cert.LibRowStores.piece_sum ga gb k.val 80 (by omega) (k2_off136 k) (k2_off136 k) (k2_off143 k) (k2_off136_eq k) (k2_off136_eq k) (k2_off143_eq k) (k2_off136_inb k) (k2_off136_inb k) (k2_off143_inb k) x))
    (fun x => (congrFun (Cert.LibRowStores.cast_add_cast (View.readAt (Elt F) (Memref.whole cc2_scratch6).view (Rect.unit (s := S72x128) (k2_off137 k) S1x16.size (k2_off137_inb k)).toLoadRect ga) (View.readAt (Elt F) (Memref.whole cc2_scratch7).view (Rect.unit (s := S72x128) (k2_off137 k) S1x16.size (k2_off137_inb k)).toLoadRect gb) shapeCasts_S1x16_S16 shapeCasts_S16_S1x16) x).trans
        (Cert.LibRowStores.piece_sum ga gb k.val 84 (by omega) (k2_off137 k) (k2_off137 k) (k2_off144 k) (k2_off137_eq k) (k2_off137_eq k) (k2_off144_eq k) (k2_off137_inb k) (k2_off137_inb k) (k2_off144_inb k) x))
    hp

set_option maxHeartbeats 1000000 in
theorem region_t12 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t12_loop.trips) (acc : Unit), addInvA d L ga gb k.val acc ⊢ wp frame (wpE (defs₀ (F := F)) 𝒱₀ (thr d L) none) Set.univ
      (k2_t12_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t12_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off152 k) (k2_off153 k) (k2_off154 k) (k2_off155 k) (k2_off156 k) (k2_off157 k) (k2_off158 k)
    (k2_off152_eq k) (k2_off153_eq k) (k2_off154_eq k) (k2_off155_eq k) (k2_off156_eq k) (k2_off157_eq k) (k2_off158_eq k)
    (k2_off152_inb k) (k2_off153_inb k) (k2_off154_inb k) (k2_off155_inb k) (k2_off156_inb k) (k2_off157_inb k) (k2_off158_inb k)
    _ _ _ _ _ _ _
    (fun x => (congrFun (Cert.LibRowStores.cast_add_cast (View.readAt (Elt F) (Memref.whole cc2_scratch4).view (Rect.unit (s := S128x128) (k2_off145 k) S1x16.size (k2_off145_inb k)).toLoadRect ga) (View.readAt (Elt F) (Memref.whole cc2_scratch5).view (Rect.unit (s := S128x128) (k2_off145 k) S1x16.size (k2_off145_inb k)).toLoadRect gb) shapeCasts_S1x16_S16 shapeCasts_S16_S1x16) x).trans
        (Cert.LibRowStores.piece_sum ga gb k.val 0 (by omega) (k2_off145 k) (k2_off145 k) (k2_off152 k) (k2_off145_eq k) (k2_off145_eq k) (k2_off152_eq k) (k2_off145_inb k) (k2_off145_inb k) (k2_off152_inb k) x))
    (fun x => (congrFun (Cert.LibRowStores.cast_add_cast (View.readAt (Elt F) (Memref.whole cc2_scratch4).view (Rect.unit (s := S128x128) (k2_off146 k) S1x16.size (k2_off146_inb k)).toLoadRect ga) (View.readAt (Elt F) (Memref.whole cc2_scratch5).view (Rect.unit (s := S128x128) (k2_off146 k) S1x16.size (k2_off146_inb k)).toLoadRect gb) shapeCasts_S1x16_S16 shapeCasts_S16_S1x16) x).trans
        (Cert.LibRowStores.piece_sum ga gb k.val 16 (by omega) (k2_off146 k) (k2_off146 k) (k2_off153 k) (k2_off146_eq k) (k2_off146_eq k) (k2_off153_eq k) (k2_off146_inb k) (k2_off146_inb k) (k2_off153_inb k) x))
    (fun x => (congrFun (Cert.LibRowStores.cast_add_cast (View.readAt (Elt F) (Memref.whole cc2_scratch4).view (Rect.unit (s := S128x128) (k2_off147 k) S1x16.size (k2_off147_inb k)).toLoadRect ga) (View.readAt (Elt F) (Memref.whole cc2_scratch5).view (Rect.unit (s := S128x128) (k2_off147 k) S1x16.size (k2_off147_inb k)).toLoadRect gb) shapeCasts_S1x16_S16 shapeCasts_S16_S1x16) x).trans
        (Cert.LibRowStores.piece_sum ga gb k.val 32 (by omega) (k2_off147 k) (k2_off147 k) (k2_off154 k) (k2_off147_eq k) (k2_off147_eq k) (k2_off154_eq k) (k2_off147_inb k) (k2_off147_inb k) (k2_off154_inb k) x))
    (fun x => (congrFun (Cert.LibRowStores.cast_add_cast (View.readAt (Elt F) (Memref.whole cc2_scratch4).view (Rect.unit (s := S128x128) (k2_off148 k) S1x16.size (k2_off148_inb k)).toLoadRect ga) (View.readAt (Elt F) (Memref.whole cc2_scratch5).view (Rect.unit (s := S128x128) (k2_off148 k) S1x16.size (k2_off148_inb k)).toLoadRect gb) shapeCasts_S1x16_S16 shapeCasts_S16_S1x16) x).trans
        (Cert.LibRowStores.piece_sum ga gb k.val 48 (by omega) (k2_off148 k) (k2_off148 k) (k2_off155 k) (k2_off148_eq k) (k2_off148_eq k) (k2_off155_eq k) (k2_off148_inb k) (k2_off148_inb k) (k2_off155_inb k) x))
    (fun x => (congrFun (Cert.LibRowStores.cast_add_cast (View.readAt (Elt F) (Memref.whole cc2_scratch4).view (Rect.unit (s := S128x128) (k2_off149 k) S1x16.size (k2_off149_inb k)).toLoadRect ga) (View.readAt (Elt F) (Memref.whole cc2_scratch5).view (Rect.unit (s := S128x128) (k2_off149 k) S1x16.size (k2_off149_inb k)).toLoadRect gb) shapeCasts_S1x16_S16 shapeCasts_S16_S1x16) x).trans
        (Cert.LibRowStores.piece_sum ga gb k.val 64 (by omega) (k2_off149 k) (k2_off149 k) (k2_off156 k) (k2_off149_eq k) (k2_off149_eq k) (k2_off156_eq k) (k2_off149_inb k) (k2_off149_inb k) (k2_off156_inb k) x))
    (fun x => (congrFun (Cert.LibRowStores.cast_add_cast (View.readAt (Elt F) (Memref.whole cc2_scratch4).view (Rect.unit (s := S128x128) (k2_off150 k) S1x16.size (k2_off150_inb k)).toLoadRect ga) (View.readAt (Elt F) (Memref.whole cc2_scratch5).view (Rect.unit (s := S128x128) (k2_off150 k) S1x16.size (k2_off150_inb k)).toLoadRect gb) shapeCasts_S1x16_S16 shapeCasts_S16_S1x16) x).trans
        (Cert.LibRowStores.piece_sum ga gb k.val 80 (by omega) (k2_off150 k) (k2_off150 k) (k2_off157 k) (k2_off150_eq k) (k2_off150_eq k) (k2_off157_eq k) (k2_off150_inb k) (k2_off150_inb k) (k2_off157_inb k) x))
    (fun x => (congrFun (Cert.LibRowStores.cast_add_cast (View.readAt (Elt F) (Memref.whole cc2_scratch4).view (Rect.unit (s := S128x128) (k2_off151 k) S1x16.size (k2_off151_inb k)).toLoadRect ga) (View.readAt (Elt F) (Memref.whole cc2_scratch5).view (Rect.unit (s := S128x128) (k2_off151 k) S1x16.size (k2_off151_inb k)).toLoadRect gb) shapeCasts_S1x16_S16 shapeCasts_S16_S1x16) x).trans
        (Cert.LibRowStores.piece_sum ga gb k.val 84 (by omega) (k2_off151 k) (k2_off151 k) (k2_off158 k) (k2_off151_eq k) (k2_off151_eq k) (k2_off158_eq k) (k2_off151_inb k) (k2_off151_inb k) (k2_off158_inb k) x))
    hp

set_option maxHeartbeats 1000000 in
theorem region_t13 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v185 : BitVec 32) :
    ∀ (k : Fin k2_t13_loop.trips) (acc : Unit), addInvB d L ga gb k.val acc ⊢ wp frame (wpE (defs₀ (F := F)) 𝒱₀ (thr d L) none) Set.univ
      (k2_t13_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v185 k acc) (addInvB d L ga gb (k.val + 1)) := by
  intro k acc
  unfold addInvB k2_t13_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off166 k) (k2_off167 k) (k2_off168 k) (k2_off169 k) (k2_off170 k) (k2_off171 k) (k2_off172 k)
    (k2_off166_eq k) (k2_off167_eq k) (k2_off168_eq k) (k2_off169_eq k) (k2_off170_eq k) (k2_off171_eq k) (k2_off172_eq k)
    (k2_off166_inb k) (k2_off167_inb k) (k2_off168_inb k) (k2_off169_inb k) (k2_off170_inb k) (k2_off171_inb k) (k2_off172_inb k)
    _ _ _ _ _ _ _
    (fun x => (congrFun (Cert.LibRowStores.cast_add_cast (View.readAt (Elt F) (Memref.whole cc2_scratch6).view (Rect.unit (s := S72x128) (k2_off159 k) S1x16.size (k2_off159_inb k)).toLoadRect ga) (View.readAt (Elt F) (Memref.whole cc2_scratch7).view (Rect.unit (s := S72x128) (k2_off159 k) S1x16.size (k2_off159_inb k)).toLoadRect gb) shapeCasts_S1x16_S16 shapeCasts_S16_S1x16) x).trans
        (Cert.LibRowStores.piece_sum ga gb k.val 0 (by omega) (k2_off159 k) (k2_off159 k) (k2_off166 k) (k2_off159_eq k) (k2_off159_eq k) (k2_off166_eq k) (k2_off159_inb k) (k2_off159_inb k) (k2_off166_inb k) x))
    (fun x => (congrFun (Cert.LibRowStores.cast_add_cast (View.readAt (Elt F) (Memref.whole cc2_scratch6).view (Rect.unit (s := S72x128) (k2_off160 k) S1x16.size (k2_off160_inb k)).toLoadRect ga) (View.readAt (Elt F) (Memref.whole cc2_scratch7).view (Rect.unit (s := S72x128) (k2_off160 k) S1x16.size (k2_off160_inb k)).toLoadRect gb) shapeCasts_S1x16_S16 shapeCasts_S16_S1x16) x).trans
        (Cert.LibRowStores.piece_sum ga gb k.val 16 (by omega) (k2_off160 k) (k2_off160 k) (k2_off167 k) (k2_off160_eq k) (k2_off160_eq k) (k2_off167_eq k) (k2_off160_inb k) (k2_off160_inb k) (k2_off167_inb k) x))
    (fun x => (congrFun (Cert.LibRowStores.cast_add_cast (View.readAt (Elt F) (Memref.whole cc2_scratch6).view (Rect.unit (s := S72x128) (k2_off161 k) S1x16.size (k2_off161_inb k)).toLoadRect ga) (View.readAt (Elt F) (Memref.whole cc2_scratch7).view (Rect.unit (s := S72x128) (k2_off161 k) S1x16.size (k2_off161_inb k)).toLoadRect gb) shapeCasts_S1x16_S16 shapeCasts_S16_S1x16) x).trans
        (Cert.LibRowStores.piece_sum ga gb k.val 32 (by omega) (k2_off161 k) (k2_off161 k) (k2_off168 k) (k2_off161_eq k) (k2_off161_eq k) (k2_off168_eq k) (k2_off161_inb k) (k2_off161_inb k) (k2_off168_inb k) x))
    (fun x => (congrFun (Cert.LibRowStores.cast_add_cast (View.readAt (Elt F) (Memref.whole cc2_scratch6).view (Rect.unit (s := S72x128) (k2_off162 k) S1x16.size (k2_off162_inb k)).toLoadRect ga) (View.readAt (Elt F) (Memref.whole cc2_scratch7).view (Rect.unit (s := S72x128) (k2_off162 k) S1x16.size (k2_off162_inb k)).toLoadRect gb) shapeCasts_S1x16_S16 shapeCasts_S16_S1x16) x).trans
        (Cert.LibRowStores.piece_sum ga gb k.val 48 (by omega) (k2_off162 k) (k2_off162 k) (k2_off169 k) (k2_off162_eq k) (k2_off162_eq k) (k2_off169_eq k) (k2_off162_inb k) (k2_off162_inb k) (k2_off169_inb k) x))
    (fun x => (congrFun (Cert.LibRowStores.cast_add_cast (View.readAt (Elt F) (Memref.whole cc2_scratch6).view (Rect.unit (s := S72x128) (k2_off163 k) S1x16.size (k2_off163_inb k)).toLoadRect ga) (View.readAt (Elt F) (Memref.whole cc2_scratch7).view (Rect.unit (s := S72x128) (k2_off163 k) S1x16.size (k2_off163_inb k)).toLoadRect gb) shapeCasts_S1x16_S16 shapeCasts_S16_S1x16) x).trans
        (Cert.LibRowStores.piece_sum ga gb k.val 64 (by omega) (k2_off163 k) (k2_off163 k) (k2_off170 k) (k2_off163_eq k) (k2_off163_eq k) (k2_off170_eq k) (k2_off163_inb k) (k2_off163_inb k) (k2_off170_inb k) x))
    (fun x => (congrFun (Cert.LibRowStores.cast_add_cast (View.readAt (Elt F) (Memref.whole cc2_scratch6).view (Rect.unit (s := S72x128) (k2_off164 k) S1x16.size (k2_off164_inb k)).toLoadRect ga) (View.readAt (Elt F) (Memref.whole cc2_scratch7).view (Rect.unit (s := S72x128) (k2_off164 k) S1x16.size (k2_off164_inb k)).toLoadRect gb) shapeCasts_S1x16_S16 shapeCasts_S16_S1x16) x).trans
        (Cert.LibRowStores.piece_sum ga gb k.val 80 (by omega) (k2_off164 k) (k2_off164 k) (k2_off171 k) (k2_off164_eq k) (k2_off164_eq k) (k2_off171_eq k) (k2_off164_inb k) (k2_off164_inb k) (k2_off171_inb k) x))
    (fun x => (congrFun (Cert.LibRowStores.cast_add_cast (View.readAt (Elt F) (Memref.whole cc2_scratch6).view (Rect.unit (s := S72x128) (k2_off165 k) S1x16.size (k2_off165_inb k)).toLoadRect ga) (View.readAt (Elt F) (Memref.whole cc2_scratch7).view (Rect.unit (s := S72x128) (k2_off165 k) S1x16.size (k2_off165_inb k)).toLoadRect gb) shapeCasts_S1x16_S16 shapeCasts_S16_S1x16) x).trans
        (Cert.LibRowStores.piece_sum ga gb k.val 84 (by omega) (k2_off165 k) (k2_off165 k) (k2_off172 k) (k2_off165_eq k) (k2_off165_eq k) (k2_off172_eq k) (k2_off165_inb k) (k2_off165_inb k) (k2_off172_inb k) x))
    hp

end Cert.Proof.KI

end
-- ==== Proof.KI.AddLoops4.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 14 to 17 of the thirty-two.
-/
import proofs.«206319_g15771119910948_cont_week2b_672_19_alg».proof.Proof.KI.AddInv
import proofs.«206319_g15771119910948_cont_week2b_672_19_alg».proof.Proof.LibRowStores
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t14 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t14_loop.trips) (acc : Unit), addInvA d L ga gb k.val acc ⊢ wp frame (wpE (defs₀ (F := F)) 𝒱₀ (thr d L) none) Set.univ
      (k2_t14_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t14_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off180 k) (k2_off181 k) (k2_off182 k) (k2_off183 k) (k2_off184 k) (k2_off185 k) (k2_off186 k)
    (k2_off180_eq k) (k2_off181_eq k) (k2_off182_eq k) (k2_off183_eq k) (k2_off184_eq k) (k2_off185_eq k) (k2_off186_eq k)
    (k2_off180_inb k) (k2_off181_inb k) (k2_off182_inb k) (k2_off183_inb k) (k2_off184_inb k) (k2_off185_inb k) (k2_off186_inb k)
    _ _ _ _ _ _ _
    (fun x => (congrFun (Cert.LibRowStores.cast_add_cast (View.readAt (Elt F) (Memref.whole cc2_scratch4).view (Rect.unit (s := S128x128) (k2_off173 k) S1x16.size (k2_off173_inb k)).toLoadRect ga) (View.readAt (Elt F) (Memref.whole cc2_scratch5).view (Rect.unit (s := S128x128) (k2_off173 k) S1x16.size (k2_off173_inb k)).toLoadRect gb) shapeCasts_S1x16_S16 shapeCasts_S16_S1x16) x).trans
        (Cert.LibRowStores.piece_sum ga gb k.val 0 (by omega) (k2_off173 k) (k2_off173 k) (k2_off180 k) (k2_off173_eq k) (k2_off173_eq k) (k2_off180_eq k) (k2_off173_inb k) (k2_off173_inb k) (k2_off180_inb k) x))
    (fun x => (congrFun (Cert.LibRowStores.cast_add_cast (View.readAt (Elt F) (Memref.whole cc2_scratch4).view (Rect.unit (s := S128x128) (k2_off174 k) S1x16.size (k2_off174_inb k)).toLoadRect ga) (View.readAt (Elt F) (Memref.whole cc2_scratch5).view (Rect.unit (s := S128x128) (k2_off174 k) S1x16.size (k2_off174_inb k)).toLoadRect gb) shapeCasts_S1x16_S16 shapeCasts_S16_S1x16) x).trans
        (Cert.LibRowStores.piece_sum ga gb k.val 16 (by omega) (k2_off174 k) (k2_off174 k) (k2_off181 k) (k2_off174_eq k) (k2_off174_eq k) (k2_off181_eq k) (k2_off174_inb k) (k2_off174_inb k) (k2_off181_inb k) x))
    (fun x => (congrFun (Cert.LibRowStores.cast_add_cast (View.readAt (Elt F) (Memref.whole cc2_scratch4).view (Rect.unit (s := S128x128) (k2_off175 k) S1x16.size (k2_off175_inb k)).toLoadRect ga) (View.readAt (Elt F) (Memref.whole cc2_scratch5).view (Rect.unit (s := S128x128) (k2_off175 k) S1x16.size (k2_off175_inb k)).toLoadRect gb) shapeCasts_S1x16_S16 shapeCasts_S16_S1x16) x).trans
        (Cert.LibRowStores.piece_sum ga gb k.val 32 (by omega) (k2_off175 k) (k2_off175 k) (k2_off182 k) (k2_off175_eq k) (k2_off175_eq k) (k2_off182_eq k) (k2_off175_inb k) (k2_off175_inb k) (k2_off182_inb k) x))
    (fun x => (congrFun (Cert.LibRowStores.cast_add_cast (View.readAt (Elt F) (Memref.whole cc2_scratch4).view (Rect.unit (s := S128x128) (k2_off176 k) S1x16.size (k2_off176_inb k)).toLoadRect ga) (View.readAt (Elt F) (Memref.whole cc2_scratch5).view (Rect.unit (s := S128x128) (k2_off176 k) S1x16.size (k2_off176_inb k)).toLoadRect gb) shapeCasts_S1x16_S16 shapeCasts_S16_S1x16) x).trans
        (Cert.LibRowStores.piece_sum ga gb k.val 48 (by omega) (k2_off176 k) (k2_off176 k) (k2_off183 k) (k2_off176_eq k) (k2_off176_eq k) (k2_off183_eq k) (k2_off176_inb k) (k2_off176_inb k) (k2_off183_inb k) x))
    (fun x => (congrFun (Cert.LibRowStores.cast_add_cast (View.readAt (Elt F) (Memref.whole cc2_scratch4).view (Rect.unit (s := S128x128) (k2_off177 k) S1x16.size (k2_off177_inb k)).toLoadRect ga) (View.readAt (Elt F) (Memref.whole cc2_scratch5).view (Rect.unit (s := S128x128) (k2_off177 k) S1x16.size (k2_off177_inb k)).toLoadRect gb) shapeCasts_S1x16_S16 shapeCasts_S16_S1x16) x).trans
        (Cert.LibRowStores.piece_sum ga gb k.val 64 (by omega) (k2_off177 k) (k2_off177 k) (k2_off184 k) (k2_off177_eq k) (k2_off177_eq k) (k2_off184_eq k) (k2_off177_inb k) (k2_off177_inb k) (k2_off184_inb k) x))
    (fun x => (congrFun (Cert.LibRowStores.cast_add_cast (View.readAt (Elt F) (Memref.whole cc2_scratch4).view (Rect.unit (s := S128x128) (k2_off178 k) S1x16.size (k2_off178_inb k)).toLoadRect ga) (View.readAt (Elt F) (Memref.whole cc2_scratch5).view (Rect.unit (s := S128x128) (k2_off178 k) S1x16.size (k2_off178_inb k)).toLoadRect gb) shapeCasts_S1x16_S16 shapeCasts_S16_S1x16) x).trans
        (Cert.LibRowStores.piece_sum ga gb k.val 80 (by omega) (k2_off178 k) (k2_off178 k) (k2_off185 k) (k2_off178_eq k) (k2_off178_eq k) (k2_off185_eq k) (k2_off178_inb k) (k2_off178_inb k) (k2_off185_inb k) x))
    (fun x => (congrFun (Cert.LibRowStores.cast_add_cast (View.readAt (Elt F) (Memref.whole cc2_scratch4).view (Rect.unit (s := S128x128) (k2_off179 k) S1x16.size (k2_off179_inb k)).toLoadRect ga) (View.readAt (Elt F) (Memref.whole cc2_scratch5).view (Rect.unit (s := S128x128) (k2_off179 k) S1x16.size (k2_off179_inb k)).toLoadRect gb) shapeCasts_S1x16_S16 shapeCasts_S16_S1x16) x).trans
        (Cert.LibRowStores.piece_sum ga gb k.val 84 (by omega) (k2_off179 k) (k2_off179 k) (k2_off186 k) (k2_off179_eq k) (k2_off179_eq k) (k2_off186_eq k) (k2_off179_inb k) (k2_off179_inb k) (k2_off186_inb k) x))
    hp

set_option maxHeartbeats 1000000 in
theorem region_t15 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v216 : BitVec 32) (c0_i32_323 : BitVec 32) (c72_i32_324 : BitVec 32) :
    ∀ (k : Fin k2_t15_loop.trips) (acc : Unit), addInvB d L ga gb k.val acc ⊢ wp frame (wpE (defs₀ (F := F)) 𝒱₀ (thr d L) none) Set.univ
      (k2_t15_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v216 c0_i32_323 c72_i32_324 k acc) (addInvB d L ga gb (k.val + 1)) := by
  intro k acc
  unfold addInvB k2_t15_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off194 k) (k2_off195 k) (k2_off196 k) (k2_off197 k) (k2_off198 k) (k2_off199 k) (k2_off200 k)
    (k2_off194_eq k) (k2_off195_eq k) (k2_off196_eq k) (k2_off197_eq k) (k2_off198_eq k) (k2_off199_eq k) (k2_off200_eq k)
    (k2_off194_inb k) (k2_off195_inb k) (k2_off196_inb k) (k2_off197_inb k) (k2_off198_inb k) (k2_off199_inb k) (k2_off200_inb k)
    _ _ _ _ _ _ _
    (fun x => (congrFun (Cert.LibRowStores.cast_add_cast (View.readAt (Elt F) (Memref.whole cc2_scratch6).view (Rect.unit (s := S72x128) (k2_off187 k) S1x16.size (k2_off187_inb k)).toLoadRect ga) (View.readAt (Elt F) (Memref.whole cc2_scratch7).view (Rect.unit (s := S72x128) (k2_off187 k) S1x16.size (k2_off187_inb k)).toLoadRect gb) shapeCasts_S1x16_S16 shapeCasts_S16_S1x16) x).trans
        (Cert.LibRowStores.piece_sum ga gb k.val 0 (by omega) (k2_off187 k) (k2_off187 k) (k2_off194 k) (k2_off187_eq k) (k2_off187_eq k) (k2_off194_eq k) (k2_off187_inb k) (k2_off187_inb k) (k2_off194_inb k) x))
    (fun x => (congrFun (Cert.LibRowStores.cast_add_cast (View.readAt (Elt F) (Memref.whole cc2_scratch6).view (Rect.unit (s := S72x128) (k2_off188 k) S1x16.size (k2_off188_inb k)).toLoadRect ga) (View.readAt (Elt F) (Memref.whole cc2_scratch7).view (Rect.unit (s := S72x128) (k2_off188 k) S1x16.size (k2_off188_inb k)).toLoadRect gb) shapeCasts_S1x16_S16 shapeCasts_S16_S1x16) x).trans
        (Cert.LibRowStores.piece_sum ga gb k.val 16 (by omega) (k2_off188 k) (k2_off188 k) (k2_off195 k) (k2_off188_eq k) (k2_off188_eq k) (k2_off195_eq k) (k2_off188_inb k) (k2_off188_inb k) (k2_off195_inb k) x))
    (fun x => (congrFun (Cert.LibRowStores.cast_add_cast (View.readAt (Elt F) (Memref.whole cc2_scratch6).view (Rect.unit (s := S72x128) (k2_off189 k) S1x16.size (k2_off189_inb k)).toLoadRect ga) (View.readAt (Elt F) (Memref.whole cc2_scratch7).view (Rect.unit (s := S72x128) (k2_off189 k) S1x16.size (k2_off189_inb k)).toLoadRect gb) shapeCasts_S1x16_S16 shapeCasts_S16_S1x16) x).trans
        (Cert.LibRowStores.piece_sum ga gb k.val 32 (by omega) (k2_off189 k) (k2_off189 k) (k2_off196 k) (k2_off189_eq k) (k2_off189_eq k) (k2_off196_eq k) (k2_off189_inb k) (k2_off189_inb k) (k2_off196_inb k) x))
    (fun x => (congrFun (Cert.LibRowStores.cast_add_cast (View.readAt (Elt F) (Memref.whole cc2_scratch6).view (Rect.unit (s := S72x128) (k2_off190 k) S1x16.size (k2_off190_inb k)).toLoadRect ga) (View.readAt (Elt F) (Memref.whole cc2_scratch7).view (Rect.unit (s := S72x128) (k2_off190 k) S1x16.size (k2_off190_inb k)).toLoadRect gb) shapeCasts_S1x16_S16 shapeCasts_S16_S1x16) x).trans
        (Cert.LibRowStores.piece_sum ga gb k.val 48 (by omega) (k2_off190 k) (k2_off190 k) (k2_off197 k) (k2_off190_eq k) (k2_off190_eq k) (k2_off197_eq k) (k2_off190_inb k) (k2_off190_inb k) (k2_off197_inb k) x))
    (fun x => (congrFun (Cert.LibRowStores.cast_add_cast (View.readAt (Elt F) (Memref.whole cc2_scratch6).view (Rect.unit (s := S72x128) (k2_off191 k) S1x16.size (k2_off191_inb k)).toLoadRect ga) (View.readAt (Elt F) (Memref.whole cc2_scratch7).view (Rect.unit (s := S72x128) (k2_off191 k) S1x16.size (k2_off191_inb k)).toLoadRect gb) shapeCasts_S1x16_S16 shapeCasts_S16_S1x16) x).trans
        (Cert.LibRowStores.piece_sum ga gb k.val 64 (by omega) (k2_off191 k) (k2_off191 k) (k2_off198 k) (k2_off191_eq k) (k2_off191_eq k) (k2_off198_eq k) (k2_off191_inb k) (k2_off191_inb k) (k2_off198_inb k) x))
    (fun x => (congrFun (Cert.LibRowStores.cast_add_cast (View.readAt (Elt F) (Memref.whole cc2_scratch6).view (Rect.unit (s := S72x128) (k2_off192 k) S1x16.size (k2_off192_inb k)).toLoadRect ga) (View.readAt (Elt F) (Memref.whole cc2_scratch7).view (Rect.unit (s := S72x128) (k2_off192 k) S1x16.size (k2_off192_inb k)).toLoadRect gb) shapeCasts_S1x16_S16 shapeCasts_S16_S1x16) x).trans
        (Cert.LibRowStores.piece_sum ga gb k.val 80 (by omega) (k2_off192 k) (k2_off192 k) (k2_off199 k) (k2_off192_eq k) (k2_off192_eq k) (k2_off199_eq k) (k2_off192_inb k) (k2_off192_inb k) (k2_off199_inb k) x))
    (fun x => (congrFun (Cert.LibRowStores.cast_add_cast (View.readAt (Elt F) (Memref.whole cc2_scratch6).view (Rect.unit (s := S72x128) (k2_off193 k) S1x16.size (k2_off193_inb k)).toLoadRect ga) (View.readAt (Elt F) (Memref.whole cc2_scratch7).view (Rect.unit (s := S72x128) (k2_off193 k) S1x16.size (k2_off193_inb k)).toLoadRect gb) shapeCasts_S1x16_S16 shapeCasts_S16_S1x16) x).trans
        (Cert.LibRowStores.piece_sum ga gb k.val 84 (by omega) (k2_off193 k) (k2_off193 k) (k2_off200 k) (k2_off193_eq k) (k2_off193_eq k) (k2_off200_eq k) (k2_off193_inb k) (k2_off193_inb k) (k2_off200_inb k) x))
    hp

set_option maxHeartbeats 1000000 in
theorem region_t16 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) (v216 : BitVec 32) (c0_i32_323 : BitVec 32) (c72_i32_324 : BitVec 32) :
    ∀ (k : Fin k2_t16_loop.trips) (acc : Unit), addInvA d L ga gb k.val acc ⊢ wp frame (wpE (defs₀ (F := F)) 𝒱₀ (thr d L) none) Set.univ
      (k2_t16_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v216 c0_i32_323 c72_i32_324 k acc) (addInvA d L ga gb (k.val + 1)) := by
  intro k acc
  unfold addInvA k2_t16_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off208 k) (k2_off209 k) (k2_off210 k) (k2_off211 k) (k2_off212 k) (k2_off213 k) (k2_off214 k)
    (k2_off208_eq k) (k2_off209_eq k) (k2_off210_eq k) (k2_off211_eq k) (k2_off212_eq k) (k2_off213_eq k) (k2_off214_eq k)
    (k2_off208_inb k) (k2_off209_inb k) (k2_off210_inb k) (k2_off211_inb k) (k2_off212_inb k) (k2_off213_inb k) (k2_off214_inb k)
    _ _ _ _ _ _ _
    (fun x => (congrFun (Cert.LibRowStores.cast_add_cast (View.readAt (Elt F) (Memref.whole cc2_scratch4).view (Rect.unit (s := S128x128) (k2_off201 k) S1x16.size (k2_off201_inb k)).toLoadRect ga) (View.readAt (Elt F) (Memref.whole cc2_scratch5).view (Rect.unit (s := S128x128) (k2_off201 k) S1x16.size (k2_off201_inb k)).toLoadRect gb) shapeCasts_S1x16_S16 shapeCasts_S16_S1x16) x).trans
        (Cert.LibRowStores.piece_sum ga gb k.val 0 (by omega) (k2_off201 k) (k2_off201 k) (k2_off208 k) (k2_off201_eq k) (k2_off201_eq k) (k2_off208_eq k) (k2_off201_inb k) (k2_off201_inb k) (k2_off208_inb k) x))
    (fun x => (congrFun (Cert.LibRowStores.cast_add_cast (View.readAt (Elt F) (Memref.whole cc2_scratch4).view (Rect.unit (s := S128x128) (k2_off202 k) S1x16.size (k2_off202_inb k)).toLoadRect ga) (View.readAt (Elt F) (Memref.whole cc2_scratch5).view (Rect.unit (s := S128x128) (k2_off202 k) S1x16.size (k2_off202_inb k)).toLoadRect gb) shapeCasts_S1x16_S16 shapeCasts_S16_S1x16) x).trans
        (Cert.LibRowStores.piece_sum ga gb k.val 16 (by omega) (k2_off202 k) (k2_off202 k) (k2_off209 k) (k2_off202_eq k) (k2_off202_eq k) (k2_off209_eq k) (k2_off202_inb k) (k2_off202_inb k) (k2_off209_inb k) x))
    (fun x => (congrFun (Cert.LibRowStores.cast_add_cast (View.readAt (Elt F) (Memref.whole cc2_scratch4).view (Rect.unit (s := S128x128) (k2_off203 k) S1x16.size (k2_off203_inb k)).toLoadRect ga) (View.readAt (Elt F) (Memref.whole cc2_scratch5).view (Rect.unit (s := S128x128) (k2_off203 k) S1x16.size (k2_off203_inb k)).toLoadRect gb) shapeCasts_S1x16_S16 shapeCasts_S16_S1x16) x).trans
        (Cert.LibRowStores.piece_sum ga gb k.val 32 (by omega) (k2_off203 k) (k2_off203 k) (k2_off210 k) (k2_off203_eq k) (k2_off203_eq k) (k2_off210_eq k) (k2_off203_inb k) (k2_off203_inb k) (k2_off210_inb k) x))
    (fun x => (congrFun (Cert.LibRowStores.cast_add_cast (View.readAt (Elt F) (Memref.whole cc2_scratch4).view (Rect.unit (s := S128x128) (k2_off204 k) S1x16.size (k2_off204_inb k)).toLoadRect ga) (View.readAt (Elt F) (Memref.whole cc2_scratch5).view (Rect.unit (s := S128x128) (k2_off204 k) S1x16.size (k2_off204_inb k)).toLoadRect gb) shapeCasts_S1x16_S16 shapeCasts_S16_S1x16) x).trans
        (Cert.LibRowStores.piece_sum ga gb k.val 48 (by omega) (k2_off204 k) (k2_off204 k) (k2_off211 k) (k2_off204_eq k) (k2_off204_eq k) (k2_off211_eq k) (k2_off204_inb k) (k2_off204_inb k) (k2_off211_inb k) x))
    (fun x => (congrFun (Cert.LibRowStores.cast_add_cast (View.readAt (Elt F) (Memref.whole cc2_scratch4).view (Rect.unit (s := S128x128) (k2_off205 k) S1x16.size (k2_off205_inb k)).toLoadRect ga) (View.readAt (Elt F) (Memref.whole cc2_scratch5).view (Rect.unit (s := S128x128) (k2_off205 k) S1x16.size (k2_off205_inb k)).toLoadRect gb) shapeCasts_S1x16_S16 shapeCasts_S16_S1x16) x).trans
        (Cert.LibRowStores.piece_sum ga gb k.val 64 (by omega) (k2_off205 k) (k2_off205 k) (k2_off212 k) (k2_off205_eq k) (k2_off205_eq k) (k2_off212_eq k) (k2_off205_inb k) (k2_off205_inb k) (k2_off212_inb k) x))
    (fun x => (congrFun (Cert.LibRowStores.cast_add_cast (View.readAt (Elt F) (Memref.whole cc2_scratch4).view (Rect.unit (s := S128x128) (k2_off206 k) S1x16.size (k2_off206_inb k)).toLoadRect ga) (View.readAt (Elt F) (Memref.whole cc2_scratch5).view (Rect.unit (s := S128x128) (k2_off206 k) S1x16.size (k2_off206_inb k)).toLoadRect gb) shapeCasts_S1x16_S16 shapeCasts_S16_S1x16) x).trans
        (Cert.LibRowStores.piece_sum ga gb k.val 80 (by omega) (k2_off206 k) (k2_off206 k) (k2_off213 k) (k2_off206_eq k) (k2_off206_eq k) (k2_off213_eq k) (k2_off206_inb k) (k2_off206_inb k) (k2_off213_inb k) x))
    (fun x => (congrFun (Cert.LibRowStores.cast_add_cast (View.readAt (Elt F) (Memref.whole cc2_scratch4).view (Rect.unit (s := S128x128) (k2_off207 k) S1x16.size (k2_off207_inb k)).toLoadRect ga) (View.readAt (Elt F) (Memref.whole cc2_scratch5).view (Rect.unit (s := S128x128) (k2_off207 k) S1x16.size (k2_off207_inb k)).toLoadRect gb) shapeCasts_S1x16_S16 shapeCasts_S16_S1x16) x).trans
        (Cert.LibRowStores.piece_sum ga gb k.val 84 (by omega) (k2_off207 k) (k2_off207 k) (k2_off214 k) (k2_off207_eq k) (k2_off207_eq k) (k2_off214_eq k) (k2_off207_inb k) (k2_off207_inb k) (k2_off214_inb k) x))
    hp

set_option maxHeartbeats 1000000 in
theorem region_t17 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) :
    ∀ (k : Fin k2_t17_loop.trips) (acc : Unit), addInvB d L ga gb k.val acc ⊢ wp frame (wpE (defs₀ (F := F)) 𝒱₀ (thr d L) none) Set.univ
      (k2_t17_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvB d L ga gb (k.val + 1)) := by
  intro k acc
  unfold addInvB k2_t17_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off223 k) (k2_off224 k) (k2_off225 k) (k2_off226 k) (k2_off227 k) (k2_off228 k) (k2_off229 k)
    (k2_off223_eq k) (k2_off224_eq k) (k2_off225_eq k) (k2_off226_eq k) (k2_off227_eq k) (k2_off228_eq k) (k2_off229_eq k)
    (k2_off223_inb k) (k2_off224_inb k) (k2_off225_inb k) (k2_off226_inb k) (k2_off227_inb k) (k2_off228_inb k) (k2_off229_inb k)
    _ _ _ _ _ _ _
    (fun x => (congrFun (Cert.LibRowStores.cast_add_cast (View.readAt (Elt F) (Memref.whole cc2_scratch6).view (Rect.unit (s := S72x128) (k2_off216 k) S1x16.size (k2_off216_inb k)).toLoadRect ga) (View.readAt (Elt F) (Memref.whole cc2_scratch7).view (Rect.unit (s := S72x128) (k2_off216 k) S1x16.size (k2_off216_inb k)).toLoadRect gb) shapeCasts_S1x16_S16 shapeCasts_S16_S1x16) x).trans
        (Cert.LibRowStores.piece_sum ga gb k.val 0 (by omega) (k2_off216 k) (k2_off216 k) (k2_off223 k) (k2_off216_eq k) (k2_off216_eq k) (k2_off223_eq k) (k2_off216_inb k) (k2_off216_inb k) (k2_off223_inb k) x))
    (fun x => (congrFun (Cert.LibRowStores.cast_add_cast (View.readAt (Elt F) (Memref.whole cc2_scratch6).view (Rect.unit (s := S72x128) (k2_off217 k) S1x16.size (k2_off217_inb k)).toLoadRect ga) (View.readAt (Elt F) (Memref.whole cc2_scratch7).view (Rect.unit (s := S72x128) (k2_off217 k) S1x16.size (k2_off217_inb k)).toLoadRect gb) shapeCasts_S1x16_S16 shapeCasts_S16_S1x16) x).trans
        (Cert.LibRowStores.piece_sum ga gb k.val 16 (by omega) (k2_off217 k) (k2_off217 k) (k2_off224 k) (k2_off217_eq k) (k2_off217_eq k) (k2_off224_eq k) (k2_off217_inb k) (k2_off217_inb k) (k2_off224_inb k) x))
    (fun x => (congrFun (Cert.LibRowStores.cast_add_cast (View.readAt (Elt F) (Memref.whole cc2_scratch6).view (Rect.unit (s := S72x128) (k2_off218 k) S1x16.size (k2_off218_inb k)).toLoadRect ga) (View.readAt (Elt F) (Memref.whole cc2_scratch7).view (Rect.unit (s := S72x128) (k2_off218 k) S1x16.size (k2_off218_inb k)).toLoadRect gb) shapeCasts_S1x16_S16 shapeCasts_S16_S1x16) x).trans
        (Cert.LibRowStores.piece_sum ga gb k.val 32 (by omega) (k2_off218 k) (k2_off218 k) (k2_off225 k) (k2_off218_eq k) (k2_off218_eq k) (k2_off225_eq k) (k2_off218_inb k) (k2_off218_inb k) (k2_off225_inb k) x))
    (fun x => (congrFun (Cert.LibRowStores.cast_add_cast (View.readAt (Elt F) (Memref.whole cc2_scratch6).view (Rect.unit (s := S72x128) (k2_off219 k) S1x16.size (k2_off219_inb k)).toLoadRect ga) (View.readAt (Elt F) (Memref.whole cc2_scratch7).view (Rect.unit (s := S72x128) (k2_off219 k) S1x16.size (k2_off219_inb k)).toLoadRect gb) shapeCasts_S1x16_S16 shapeCasts_S16_S1x16) x).trans
        (Cert.LibRowStores.piece_sum ga gb k.val 48 (by omega) (k2_off219 k) (k2_off219 k) (k2_off226 k) (k2_off219_eq k) (k2_off219_eq k) (k2_off226_eq k) (k2_off219_inb k) (k2_off219_inb k) (k2_off226_inb k) x))
    (fun x => (congrFun (Cert.LibRowStores.cast_add_cast (View.readAt (Elt F) (Memref.whole cc2_scratch6).view (Rect.unit (s := S72x128) (k2_off220 k) S1x16.size (k2_off220_inb k)).toLoadRect ga) (View.readAt (Elt F) (Memref.whole cc2_scratch7).view (Rect.unit (s := S72x128) (k2_off220 k) S1x16.size (k2_off220_inb k)).toLoadRect gb) shapeCasts_S1x16_S16 shapeCasts_S16_S1x16) x).trans
        (Cert.LibRowStores.piece_sum ga gb k.val 64 (by omega) (k2_off220 k) (k2_off220 k) (k2_off227 k) (k2_off220_eq k) (k2_off220_eq k) (k2_off227_eq k) (k2_off220_inb k) (k2_off220_inb k) (k2_off227_inb k) x))
    (fun x => (congrFun (Cert.LibRowStores.cast_add_cast (View.readAt (Elt F) (Memref.whole cc2_scratch6).view (Rect.unit (s := S72x128) (k2_off221 k) S1x16.size (k2_off221_inb k)).toLoadRect ga) (View.readAt (Elt F) (Memref.whole cc2_scratch7).view (Rect.unit (s := S72x128) (k2_off221 k) S1x16.size (k2_off221_inb k)).toLoadRect gb) shapeCasts_S1x16_S16 shapeCasts_S16_S1x16) x).trans
        (Cert.LibRowStores.piece_sum ga gb k.val 80 (by omega) (k2_off221 k) (k2_off221 k) (k2_off228 k) (k2_off221_eq k) (k2_off221_eq k) (k2_off228_eq k) (k2_off221_inb k) (k2_off221_inb k) (k2_off228_inb k) x))
    (fun x => (congrFun (Cert.LibRowStores.cast_add_cast (View.readAt (Elt F) (Memref.whole cc2_scratch6).view (Rect.unit (s := S72x128) (k2_off222 k) S1x16.size (k2_off222_inb k)).toLoadRect ga) (View.readAt (Elt F) (Memref.whole cc2_scratch7).view (Rect.unit (s := S72x128) (k2_off222 k) S1x16.size (k2_off222_inb k)).toLoadRect gb) shapeCasts_S1x16_S16 shapeCasts_S16_S1x16) x).trans
        (Cert.LibRowStores.piece_sum ga gb k.val 84 (by omega) (k2_off222 k) (k2_off222 k) (k2_off229 k) (k2_off222_eq k) (k2_off222_eq k) (k2_off229_eq k) (k2_off222_inb k) (k2_off222_inb k) (k2_off229_inb k) x))
    hp

end Cert.Proof.KI

end
-- ==== Proof.KI.AddLoops5.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 18 to 21 of the thirty-two.
-/
import proofs.«206319_g15771119910948_cont_week2b_672_19_alg».proof.Proof.KI.AddInv
import proofs.«206319_g15771119910948_cont_week2b_672_19_alg».proof.Proof.LibRowStores
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t18 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t18_loop.trips) (acc : Unit), addInvA d L ga gb k.val acc ⊢ wp frame (wpE (defs₀ (F := F)) 𝒱₀ (thr d L) none) Set.univ
      (k2_t18_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t18_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off238 k) (k2_off239 k) (k2_off240 k) (k2_off241 k) (k2_off242 k) (k2_off243 k) (k2_off244 k)
    (k2_off238_eq k) (k2_off239_eq k) (k2_off240_eq k) (k2_off241_eq k) (k2_off242_eq k) (k2_off243_eq k) (k2_off244_eq k)
    (k2_off238_inb k) (k2_off239_inb k) (k2_off240_inb k) (k2_off241_inb k) (k2_off242_inb k) (k2_off243_inb k) (k2_off244_inb k)
    _ _ _ _ _ _ _
    (fun x => (congrFun (Cert.LibRowStores.cast_add_cast (View.readAt (Elt F) (Memref.whole cc2_scratch4).view (Rect.unit (s := S128x128) (k2_off231 k) S1x16.size (k2_off231_inb k)).toLoadRect ga) (View.readAt (Elt F) (Memref.whole cc2_scratch5).view (Rect.unit (s := S128x128) (k2_off231 k) S1x16.size (k2_off231_inb k)).toLoadRect gb) shapeCasts_S1x16_S16 shapeCasts_S16_S1x16) x).trans
        (Cert.LibRowStores.piece_sum ga gb k.val 0 (by omega) (k2_off231 k) (k2_off231 k) (k2_off238 k) (k2_off231_eq k) (k2_off231_eq k) (k2_off238_eq k) (k2_off231_inb k) (k2_off231_inb k) (k2_off238_inb k) x))
    (fun x => (congrFun (Cert.LibRowStores.cast_add_cast (View.readAt (Elt F) (Memref.whole cc2_scratch4).view (Rect.unit (s := S128x128) (k2_off232 k) S1x16.size (k2_off232_inb k)).toLoadRect ga) (View.readAt (Elt F) (Memref.whole cc2_scratch5).view (Rect.unit (s := S128x128) (k2_off232 k) S1x16.size (k2_off232_inb k)).toLoadRect gb) shapeCasts_S1x16_S16 shapeCasts_S16_S1x16) x).trans
        (Cert.LibRowStores.piece_sum ga gb k.val 16 (by omega) (k2_off232 k) (k2_off232 k) (k2_off239 k) (k2_off232_eq k) (k2_off232_eq k) (k2_off239_eq k) (k2_off232_inb k) (k2_off232_inb k) (k2_off239_inb k) x))
    (fun x => (congrFun (Cert.LibRowStores.cast_add_cast (View.readAt (Elt F) (Memref.whole cc2_scratch4).view (Rect.unit (s := S128x128) (k2_off233 k) S1x16.size (k2_off233_inb k)).toLoadRect ga) (View.readAt (Elt F) (Memref.whole cc2_scratch5).view (Rect.unit (s := S128x128) (k2_off233 k) S1x16.size (k2_off233_inb k)).toLoadRect gb) shapeCasts_S1x16_S16 shapeCasts_S16_S1x16) x).trans
        (Cert.LibRowStores.piece_sum ga gb k.val 32 (by omega) (k2_off233 k) (k2_off233 k) (k2_off240 k) (k2_off233_eq k) (k2_off233_eq k) (k2_off240_eq k) (k2_off233_inb k) (k2_off233_inb k) (k2_off240_inb k) x))
    (fun x => (congrFun (Cert.LibRowStores.cast_add_cast (View.readAt (Elt F) (Memref.whole cc2_scratch4).view (Rect.unit (s := S128x128) (k2_off234 k) S1x16.size (k2_off234_inb k)).toLoadRect ga) (View.readAt (Elt F) (Memref.whole cc2_scratch5).view (Rect.unit (s := S128x128) (k2_off234 k) S1x16.size (k2_off234_inb k)).toLoadRect gb) shapeCasts_S1x16_S16 shapeCasts_S16_S1x16) x).trans
        (Cert.LibRowStores.piece_sum ga gb k.val 48 (by omega) (k2_off234 k) (k2_off234 k) (k2_off241 k) (k2_off234_eq k) (k2_off234_eq k) (k2_off241_eq k) (k2_off234_inb k) (k2_off234_inb k) (k2_off241_inb k) x))
    (fun x => (congrFun (Cert.LibRowStores.cast_add_cast (View.readAt (Elt F) (Memref.whole cc2_scratch4).view (Rect.unit (s := S128x128) (k2_off235 k) S1x16.size (k2_off235_inb k)).toLoadRect ga) (View.readAt (Elt F) (Memref.whole cc2_scratch5).view (Rect.unit (s := S128x128) (k2_off235 k) S1x16.size (k2_off235_inb k)).toLoadRect gb) shapeCasts_S1x16_S16 shapeCasts_S16_S1x16) x).trans
        (Cert.LibRowStores.piece_sum ga gb k.val 64 (by omega) (k2_off235 k) (k2_off235 k) (k2_off242 k) (k2_off235_eq k) (k2_off235_eq k) (k2_off242_eq k) (k2_off235_inb k) (k2_off235_inb k) (k2_off242_inb k) x))
    (fun x => (congrFun (Cert.LibRowStores.cast_add_cast (View.readAt (Elt F) (Memref.whole cc2_scratch4).view (Rect.unit (s := S128x128) (k2_off236 k) S1x16.size (k2_off236_inb k)).toLoadRect ga) (View.readAt (Elt F) (Memref.whole cc2_scratch5).view (Rect.unit (s := S128x128) (k2_off236 k) S1x16.size (k2_off236_inb k)).toLoadRect gb) shapeCasts_S1x16_S16 shapeCasts_S16_S1x16) x).trans
        (Cert.LibRowStores.piece_sum ga gb k.val 80 (by omega) (k2_off236 k) (k2_off236 k) (k2_off243 k) (k2_off236_eq k) (k2_off236_eq k) (k2_off243_eq k) (k2_off236_inb k) (k2_off236_inb k) (k2_off243_inb k) x))
    (fun x => (congrFun (Cert.LibRowStores.cast_add_cast (View.readAt (Elt F) (Memref.whole cc2_scratch4).view (Rect.unit (s := S128x128) (k2_off237 k) S1x16.size (k2_off237_inb k)).toLoadRect ga) (View.readAt (Elt F) (Memref.whole cc2_scratch5).view (Rect.unit (s := S128x128) (k2_off237 k) S1x16.size (k2_off237_inb k)).toLoadRect gb) shapeCasts_S1x16_S16 shapeCasts_S16_S1x16) x).trans
        (Cert.LibRowStores.piece_sum ga gb k.val 84 (by omega) (k2_off237 k) (k2_off237 k) (k2_off244 k) (k2_off237_eq k) (k2_off237_eq k) (k2_off244_eq k) (k2_off237_inb k) (k2_off237_inb k) (k2_off244_inb k) x))
    hp

set_option maxHeartbeats 1000000 in
theorem region_t19 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) :
    ∀ (k : Fin k2_t19_loop.trips) (acc : Unit), addInvB d L ga gb k.val acc ⊢ wp frame (wpE (defs₀ (F := F)) 𝒱₀ (thr d L) none) Set.univ
      (k2_t19_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvB d L ga gb (k.val + 1)) := by
  intro k acc
  unfold addInvB k2_t19_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off252 k) (k2_off253 k) (k2_off254 k) (k2_off255 k) (k2_off256 k) (k2_off257 k) (k2_off258 k)
    (k2_off252_eq k) (k2_off253_eq k) (k2_off254_eq k) (k2_off255_eq k) (k2_off256_eq k) (k2_off257_eq k) (k2_off258_eq k)
    (k2_off252_inb k) (k2_off253_inb k) (k2_off254_inb k) (k2_off255_inb k) (k2_off256_inb k) (k2_off257_inb k) (k2_off258_inb k)
    _ _ _ _ _ _ _
    (fun x => (congrFun (Cert.LibRowStores.cast_add_cast (View.readAt (Elt F) (Memref.whole cc2_scratch6).view (Rect.unit (s := S72x128) (k2_off245 k) S1x16.size (k2_off245_inb k)).toLoadRect ga) (View.readAt (Elt F) (Memref.whole cc2_scratch7).view (Rect.unit (s := S72x128) (k2_off245 k) S1x16.size (k2_off245_inb k)).toLoadRect gb) shapeCasts_S1x16_S16 shapeCasts_S16_S1x16) x).trans
        (Cert.LibRowStores.piece_sum ga gb k.val 0 (by omega) (k2_off245 k) (k2_off245 k) (k2_off252 k) (k2_off245_eq k) (k2_off245_eq k) (k2_off252_eq k) (k2_off245_inb k) (k2_off245_inb k) (k2_off252_inb k) x))
    (fun x => (congrFun (Cert.LibRowStores.cast_add_cast (View.readAt (Elt F) (Memref.whole cc2_scratch6).view (Rect.unit (s := S72x128) (k2_off246 k) S1x16.size (k2_off246_inb k)).toLoadRect ga) (View.readAt (Elt F) (Memref.whole cc2_scratch7).view (Rect.unit (s := S72x128) (k2_off246 k) S1x16.size (k2_off246_inb k)).toLoadRect gb) shapeCasts_S1x16_S16 shapeCasts_S16_S1x16) x).trans
        (Cert.LibRowStores.piece_sum ga gb k.val 16 (by omega) (k2_off246 k) (k2_off246 k) (k2_off253 k) (k2_off246_eq k) (k2_off246_eq k) (k2_off253_eq k) (k2_off246_inb k) (k2_off246_inb k) (k2_off253_inb k) x))
    (fun x => (congrFun (Cert.LibRowStores.cast_add_cast (View.readAt (Elt F) (Memref.whole cc2_scratch6).view (Rect.unit (s := S72x128) (k2_off247 k) S1x16.size (k2_off247_inb k)).toLoadRect ga) (View.readAt (Elt F) (Memref.whole cc2_scratch7).view (Rect.unit (s := S72x128) (k2_off247 k) S1x16.size (k2_off247_inb k)).toLoadRect gb) shapeCasts_S1x16_S16 shapeCasts_S16_S1x16) x).trans
        (Cert.LibRowStores.piece_sum ga gb k.val 32 (by omega) (k2_off247 k) (k2_off247 k) (k2_off254 k) (k2_off247_eq k) (k2_off247_eq k) (k2_off254_eq k) (k2_off247_inb k) (k2_off247_inb k) (k2_off254_inb k) x))
    (fun x => (congrFun (Cert.LibRowStores.cast_add_cast (View.readAt (Elt F) (Memref.whole cc2_scratch6).view (Rect.unit (s := S72x128) (k2_off248 k) S1x16.size (k2_off248_inb k)).toLoadRect ga) (View.readAt (Elt F) (Memref.whole cc2_scratch7).view (Rect.unit (s := S72x128) (k2_off248 k) S1x16.size (k2_off248_inb k)).toLoadRect gb) shapeCasts_S1x16_S16 shapeCasts_S16_S1x16) x).trans
        (Cert.LibRowStores.piece_sum ga gb k.val 48 (by omega) (k2_off248 k) (k2_off248 k) (k2_off255 k) (k2_off248_eq k) (k2_off248_eq k) (k2_off255_eq k) (k2_off248_inb k) (k2_off248_inb k) (k2_off255_inb k) x))
    (fun x => (congrFun (Cert.LibRowStores.cast_add_cast (View.readAt (Elt F) (Memref.whole cc2_scratch6).view (Rect.unit (s := S72x128) (k2_off249 k) S1x16.size (k2_off249_inb k)).toLoadRect ga) (View.readAt (Elt F) (Memref.whole cc2_scratch7).view (Rect.unit (s := S72x128) (k2_off249 k) S1x16.size (k2_off249_inb k)).toLoadRect gb) shapeCasts_S1x16_S16 shapeCasts_S16_S1x16) x).trans
        (Cert.LibRowStores.piece_sum ga gb k.val 64 (by omega) (k2_off249 k) (k2_off249 k) (k2_off256 k) (k2_off249_eq k) (k2_off249_eq k) (k2_off256_eq k) (k2_off249_inb k) (k2_off249_inb k) (k2_off256_inb k) x))
    (fun x => (congrFun (Cert.LibRowStores.cast_add_cast (View.readAt (Elt F) (Memref.whole cc2_scratch6).view (Rect.unit (s := S72x128) (k2_off250 k) S1x16.size (k2_off250_inb k)).toLoadRect ga) (View.readAt (Elt F) (Memref.whole cc2_scratch7).view (Rect.unit (s := S72x128) (k2_off250 k) S1x16.size (k2_off250_inb k)).toLoadRect gb) shapeCasts_S1x16_S16 shapeCasts_S16_S1x16) x).trans
        (Cert.LibRowStores.piece_sum ga gb k.val 80 (by omega) (k2_off250 k) (k2_off250 k) (k2_off257 k) (k2_off250_eq k) (k2_off250_eq k) (k2_off257_eq k) (k2_off250_inb k) (k2_off250_inb k) (k2_off257_inb k) x))
    (fun x => (congrFun (Cert.LibRowStores.cast_add_cast (View.readAt (Elt F) (Memref.whole cc2_scratch6).view (Rect.unit (s := S72x128) (k2_off251 k) S1x16.size (k2_off251_inb k)).toLoadRect ga) (View.readAt (Elt F) (Memref.whole cc2_scratch7).view (Rect.unit (s := S72x128) (k2_off251 k) S1x16.size (k2_off251_inb k)).toLoadRect gb) shapeCasts_S1x16_S16 shapeCasts_S16_S1x16) x).trans
        (Cert.LibRowStores.piece_sum ga gb k.val 84 (by omega) (k2_off251 k) (k2_off251 k) (k2_off258 k) (k2_off251_eq k) (k2_off251_eq k) (k2_off258_eq k) (k2_off251_inb k) (k2_off251_inb k) (k2_off258_inb k) x))
    hp

set_option maxHeartbeats 1000000 in
theorem region_t20 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) (v290 : BitVec 32) :
    ∀ (k : Fin k2_t20_loop.trips) (acc : Unit), addInvA d L ga gb k.val acc ⊢ wp frame (wpE (defs₀ (F := F)) 𝒱₀ (thr d L) none) Set.univ
      (k2_t20_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v290 k acc) (addInvA d L ga gb (k.val + 1)) := by
  intro k acc
  unfold addInvA k2_t20_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off266 k) (k2_off267 k) (k2_off268 k) (k2_off269 k) (k2_off270 k) (k2_off271 k) (k2_off272 k)
    (k2_off266_eq k) (k2_off267_eq k) (k2_off268_eq k) (k2_off269_eq k) (k2_off270_eq k) (k2_off271_eq k) (k2_off272_eq k)
    (k2_off266_inb k) (k2_off267_inb k) (k2_off268_inb k) (k2_off269_inb k) (k2_off270_inb k) (k2_off271_inb k) (k2_off272_inb k)
    _ _ _ _ _ _ _
    (fun x => (congrFun (Cert.LibRowStores.cast_add_cast (View.readAt (Elt F) (Memref.whole cc2_scratch4).view (Rect.unit (s := S128x128) (k2_off259 k) S1x16.size (k2_off259_inb k)).toLoadRect ga) (View.readAt (Elt F) (Memref.whole cc2_scratch5).view (Rect.unit (s := S128x128) (k2_off259 k) S1x16.size (k2_off259_inb k)).toLoadRect gb) shapeCasts_S1x16_S16 shapeCasts_S16_S1x16) x).trans
        (Cert.LibRowStores.piece_sum ga gb k.val 0 (by omega) (k2_off259 k) (k2_off259 k) (k2_off266 k) (k2_off259_eq k) (k2_off259_eq k) (k2_off266_eq k) (k2_off259_inb k) (k2_off259_inb k) (k2_off266_inb k) x))
    (fun x => (congrFun (Cert.LibRowStores.cast_add_cast (View.readAt (Elt F) (Memref.whole cc2_scratch4).view (Rect.unit (s := S128x128) (k2_off260 k) S1x16.size (k2_off260_inb k)).toLoadRect ga) (View.readAt (Elt F) (Memref.whole cc2_scratch5).view (Rect.unit (s := S128x128) (k2_off260 k) S1x16.size (k2_off260_inb k)).toLoadRect gb) shapeCasts_S1x16_S16 shapeCasts_S16_S1x16) x).trans
        (Cert.LibRowStores.piece_sum ga gb k.val 16 (by omega) (k2_off260 k) (k2_off260 k) (k2_off267 k) (k2_off260_eq k) (k2_off260_eq k) (k2_off267_eq k) (k2_off260_inb k) (k2_off260_inb k) (k2_off267_inb k) x))
    (fun x => (congrFun (Cert.LibRowStores.cast_add_cast (View.readAt (Elt F) (Memref.whole cc2_scratch4).view (Rect.unit (s := S128x128) (k2_off261 k) S1x16.size (k2_off261_inb k)).toLoadRect ga) (View.readAt (Elt F) (Memref.whole cc2_scratch5).view (Rect.unit (s := S128x128) (k2_off261 k) S1x16.size (k2_off261_inb k)).toLoadRect gb) shapeCasts_S1x16_S16 shapeCasts_S16_S1x16) x).trans
        (Cert.LibRowStores.piece_sum ga gb k.val 32 (by omega) (k2_off261 k) (k2_off261 k) (k2_off268 k) (k2_off261_eq k) (k2_off261_eq k) (k2_off268_eq k) (k2_off261_inb k) (k2_off261_inb k) (k2_off268_inb k) x))
    (fun x => (congrFun (Cert.LibRowStores.cast_add_cast (View.readAt (Elt F) (Memref.whole cc2_scratch4).view (Rect.unit (s := S128x128) (k2_off262 k) S1x16.size (k2_off262_inb k)).toLoadRect ga) (View.readAt (Elt F) (Memref.whole cc2_scratch5).view (Rect.unit (s := S128x128) (k2_off262 k) S1x16.size (k2_off262_inb k)).toLoadRect gb) shapeCasts_S1x16_S16 shapeCasts_S16_S1x16) x).trans
        (Cert.LibRowStores.piece_sum ga gb k.val 48 (by omega) (k2_off262 k) (k2_off262 k) (k2_off269 k) (k2_off262_eq k) (k2_off262_eq k) (k2_off269_eq k) (k2_off262_inb k) (k2_off262_inb k) (k2_off269_inb k) x))
    (fun x => (congrFun (Cert.LibRowStores.cast_add_cast (View.readAt (Elt F) (Memref.whole cc2_scratch4).view (Rect.unit (s := S128x128) (k2_off263 k) S1x16.size (k2_off263_inb k)).toLoadRect ga) (View.readAt (Elt F) (Memref.whole cc2_scratch5).view (Rect.unit (s := S128x128) (k2_off263 k) S1x16.size (k2_off263_inb k)).toLoadRect gb) shapeCasts_S1x16_S16 shapeCasts_S16_S1x16) x).trans
        (Cert.LibRowStores.piece_sum ga gb k.val 64 (by omega) (k2_off263 k) (k2_off263 k) (k2_off270 k) (k2_off263_eq k) (k2_off263_eq k) (k2_off270_eq k) (k2_off263_inb k) (k2_off263_inb k) (k2_off270_inb k) x))
    (fun x => (congrFun (Cert.LibRowStores.cast_add_cast (View.readAt (Elt F) (Memref.whole cc2_scratch4).view (Rect.unit (s := S128x128) (k2_off264 k) S1x16.size (k2_off264_inb k)).toLoadRect ga) (View.readAt (Elt F) (Memref.whole cc2_scratch5).view (Rect.unit (s := S128x128) (k2_off264 k) S1x16.size (k2_off264_inb k)).toLoadRect gb) shapeCasts_S1x16_S16 shapeCasts_S16_S1x16) x).trans
        (Cert.LibRowStores.piece_sum ga gb k.val 80 (by omega) (k2_off264 k) (k2_off264 k) (k2_off271 k) (k2_off264_eq k) (k2_off264_eq k) (k2_off271_eq k) (k2_off264_inb k) (k2_off264_inb k) (k2_off271_inb k) x))
    (fun x => (congrFun (Cert.LibRowStores.cast_add_cast (View.readAt (Elt F) (Memref.whole cc2_scratch4).view (Rect.unit (s := S128x128) (k2_off265 k) S1x16.size (k2_off265_inb k)).toLoadRect ga) (View.readAt (Elt F) (Memref.whole cc2_scratch5).view (Rect.unit (s := S128x128) (k2_off265 k) S1x16.size (k2_off265_inb k)).toLoadRect gb) shapeCasts_S1x16_S16 shapeCasts_S16_S1x16) x).trans
        (Cert.LibRowStores.piece_sum ga gb k.val 84 (by omega) (k2_off265 k) (k2_off265 k) (k2_off272 k) (k2_off265_eq k) (k2_off265_eq k) (k2_off272_eq k) (k2_off265_inb k) (k2_off265_inb k) (k2_off272_inb k) x))
    hp

set_option maxHeartbeats 1000000 in
theorem region_t21 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) (arg23 : BitVec 32) (v321 : BitVec 32) :
    ∀ (k : Fin k2_t21_loop.trips) (acc : Unit), addInvB d L ga gb k.val acc ⊢ wp frame (wpE (defs₀ (F := F)) 𝒱₀ (thr d L) none) Set.univ
      (k2_t21_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 arg23 v321 k acc) (addInvB d L ga gb (k.val + 1)) := by
  intro k acc
  unfold addInvB k2_t21_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off280 k) (k2_off281 k) (k2_off282 k) (k2_off283 k) (k2_off284 k) (k2_off285 k) (k2_off286 k)
    (k2_off280_eq k) (k2_off281_eq k) (k2_off282_eq k) (k2_off283_eq k) (k2_off284_eq k) (k2_off285_eq k) (k2_off286_eq k)
    (k2_off280_inb k) (k2_off281_inb k) (k2_off282_inb k) (k2_off283_inb k) (k2_off284_inb k) (k2_off285_inb k) (k2_off286_inb k)
    _ _ _ _ _ _ _
    (fun x => (congrFun (Cert.LibRowStores.cast_add_cast (View.readAt (Elt F) (Memref.whole cc2_scratch6).view (Rect.unit (s := S72x128) (k2_off273 k) S1x16.size (k2_off273_inb k)).toLoadRect ga) (View.readAt (Elt F) (Memref.whole cc2_scratch7).view (Rect.unit (s := S72x128) (k2_off273 k) S1x16.size (k2_off273_inb k)).toLoadRect gb) shapeCasts_S1x16_S16 shapeCasts_S16_S1x16) x).trans
        (Cert.LibRowStores.piece_sum ga gb k.val 0 (by omega) (k2_off273 k) (k2_off273 k) (k2_off280 k) (k2_off273_eq k) (k2_off273_eq k) (k2_off280_eq k) (k2_off273_inb k) (k2_off273_inb k) (k2_off280_inb k) x))
    (fun x => (congrFun (Cert.LibRowStores.cast_add_cast (View.readAt (Elt F) (Memref.whole cc2_scratch6).view (Rect.unit (s := S72x128) (k2_off274 k) S1x16.size (k2_off274_inb k)).toLoadRect ga) (View.readAt (Elt F) (Memref.whole cc2_scratch7).view (Rect.unit (s := S72x128) (k2_off274 k) S1x16.size (k2_off274_inb k)).toLoadRect gb) shapeCasts_S1x16_S16 shapeCasts_S16_S1x16) x).trans
        (Cert.LibRowStores.piece_sum ga gb k.val 16 (by omega) (k2_off274 k) (k2_off274 k) (k2_off281 k) (k2_off274_eq k) (k2_off274_eq k) (k2_off281_eq k) (k2_off274_inb k) (k2_off274_inb k) (k2_off281_inb k) x))
    (fun x => (congrFun (Cert.LibRowStores.cast_add_cast (View.readAt (Elt F) (Memref.whole cc2_scratch6).view (Rect.unit (s := S72x128) (k2_off275 k) S1x16.size (k2_off275_inb k)).toLoadRect ga) (View.readAt (Elt F) (Memref.whole cc2_scratch7).view (Rect.unit (s := S72x128) (k2_off275 k) S1x16.size (k2_off275_inb k)).toLoadRect gb) shapeCasts_S1x16_S16 shapeCasts_S16_S1x16) x).trans
        (Cert.LibRowStores.piece_sum ga gb k.val 32 (by omega) (k2_off275 k) (k2_off275 k) (k2_off282 k) (k2_off275_eq k) (k2_off275_eq k) (k2_off282_eq k) (k2_off275_inb k) (k2_off275_inb k) (k2_off282_inb k) x))
    (fun x => (congrFun (Cert.LibRowStores.cast_add_cast (View.readAt (Elt F) (Memref.whole cc2_scratch6).view (Rect.unit (s := S72x128) (k2_off276 k) S1x16.size (k2_off276_inb k)).toLoadRect ga) (View.readAt (Elt F) (Memref.whole cc2_scratch7).view (Rect.unit (s := S72x128) (k2_off276 k) S1x16.size (k2_off276_inb k)).toLoadRect gb) shapeCasts_S1x16_S16 shapeCasts_S16_S1x16) x).trans
        (Cert.LibRowStores.piece_sum ga gb k.val 48 (by omega) (k2_off276 k) (k2_off276 k) (k2_off283 k) (k2_off276_eq k) (k2_off276_eq k) (k2_off283_eq k) (k2_off276_inb k) (k2_off276_inb k) (k2_off283_inb k) x))
    (fun x => (congrFun (Cert.LibRowStores.cast_add_cast (View.readAt (Elt F) (Memref.whole cc2_scratch6).view (Rect.unit (s := S72x128) (k2_off277 k) S1x16.size (k2_off277_inb k)).toLoadRect ga) (View.readAt (Elt F) (Memref.whole cc2_scratch7).view (Rect.unit (s := S72x128) (k2_off277 k) S1x16.size (k2_off277_inb k)).toLoadRect gb) shapeCasts_S1x16_S16 shapeCasts_S16_S1x16) x).trans
        (Cert.LibRowStores.piece_sum ga gb k.val 64 (by omega) (k2_off277 k) (k2_off277 k) (k2_off284 k) (k2_off277_eq k) (k2_off277_eq k) (k2_off284_eq k) (k2_off277_inb k) (k2_off277_inb k) (k2_off284_inb k) x))
    (fun x => (congrFun (Cert.LibRowStores.cast_add_cast (View.readAt (Elt F) (Memref.whole cc2_scratch6).view (Rect.unit (s := S72x128) (k2_off278 k) S1x16.size (k2_off278_inb k)).toLoadRect ga) (View.readAt (Elt F) (Memref.whole cc2_scratch7).view (Rect.unit (s := S72x128) (k2_off278 k) S1x16.size (k2_off278_inb k)).toLoadRect gb) shapeCasts_S1x16_S16 shapeCasts_S16_S1x16) x).trans
        (Cert.LibRowStores.piece_sum ga gb k.val 80 (by omega) (k2_off278 k) (k2_off278 k) (k2_off285 k) (k2_off278_eq k) (k2_off278_eq k) (k2_off285_eq k) (k2_off278_inb k) (k2_off278_inb k) (k2_off285_inb k) x))
    (fun x => (congrFun (Cert.LibRowStores.cast_add_cast (View.readAt (Elt F) (Memref.whole cc2_scratch6).view (Rect.unit (s := S72x128) (k2_off279 k) S1x16.size (k2_off279_inb k)).toLoadRect ga) (View.readAt (Elt F) (Memref.whole cc2_scratch7).view (Rect.unit (s := S72x128) (k2_off279 k) S1x16.size (k2_off279_inb k)).toLoadRect gb) shapeCasts_S1x16_S16 shapeCasts_S16_S1x16) x).trans
        (Cert.LibRowStores.piece_sum ga gb k.val 84 (by omega) (k2_off279 k) (k2_off279 k) (k2_off286 k) (k2_off279_eq k) (k2_off279_eq k) (k2_off286_eq k) (k2_off279_inb k) (k2_off279_inb k) (k2_off286_inb k) x))
    hp

end Cert.Proof.KI

end
-- ==== Proof.KI.AddLoops6.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 22 to 25 of the thirty-two.
-/
import proofs.«206319_g15771119910948_cont_week2b_672_19_alg».proof.Proof.KI.AddInv
import proofs.«206319_g15771119910948_cont_week2b_672_19_alg».proof.Proof.LibRowStores
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t22 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (v349 : BitVec 32) (c10_i32 : BitVec 32) :
    ∀ (k : Fin k2_t22_loop.trips) (acc : Unit), addInvA d L ga gb k.val acc ⊢ wp frame (wpE (defs₀ (F := F)) 𝒱₀ (thr d L) none) Set.univ
      (k2_t22_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 v349 c10_i32 k acc) (addInvA d L ga gb (k.val + 1)) := by
  intro k acc
  unfold addInvA k2_t22_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off294 k) (k2_off295 k) (k2_off296 k) (k2_off297 k) (k2_off298 k) (k2_off299 k) (k2_off300 k)
    (k2_off294_eq k) (k2_off295_eq k) (k2_off296_eq k) (k2_off297_eq k) (k2_off298_eq k) (k2_off299_eq k) (k2_off300_eq k)
    (k2_off294_inb k) (k2_off295_inb k) (k2_off296_inb k) (k2_off297_inb k) (k2_off298_inb k) (k2_off299_inb k) (k2_off300_inb k)
    _ _ _ _ _ _ _
    (fun x => (congrFun (Cert.LibRowStores.cast_add_cast (View.readAt (Elt F) (Memref.whole cc2_scratch4).view (Rect.unit (s := S128x128) (k2_off287 k) S1x16.size (k2_off287_inb k)).toLoadRect ga) (View.readAt (Elt F) (Memref.whole cc2_scratch5).view (Rect.unit (s := S128x128) (k2_off287 k) S1x16.size (k2_off287_inb k)).toLoadRect gb) shapeCasts_S1x16_S16 shapeCasts_S16_S1x16) x).trans
        (Cert.LibRowStores.piece_sum ga gb k.val 0 (by omega) (k2_off287 k) (k2_off287 k) (k2_off294 k) (k2_off287_eq k) (k2_off287_eq k) (k2_off294_eq k) (k2_off287_inb k) (k2_off287_inb k) (k2_off294_inb k) x))
    (fun x => (congrFun (Cert.LibRowStores.cast_add_cast (View.readAt (Elt F) (Memref.whole cc2_scratch4).view (Rect.unit (s := S128x128) (k2_off288 k) S1x16.size (k2_off288_inb k)).toLoadRect ga) (View.readAt (Elt F) (Memref.whole cc2_scratch5).view (Rect.unit (s := S128x128) (k2_off288 k) S1x16.size (k2_off288_inb k)).toLoadRect gb) shapeCasts_S1x16_S16 shapeCasts_S16_S1x16) x).trans
        (Cert.LibRowStores.piece_sum ga gb k.val 16 (by omega) (k2_off288 k) (k2_off288 k) (k2_off295 k) (k2_off288_eq k) (k2_off288_eq k) (k2_off295_eq k) (k2_off288_inb k) (k2_off288_inb k) (k2_off295_inb k) x))
    (fun x => (congrFun (Cert.LibRowStores.cast_add_cast (View.readAt (Elt F) (Memref.whole cc2_scratch4).view (Rect.unit (s := S128x128) (k2_off289 k) S1x16.size (k2_off289_inb k)).toLoadRect ga) (View.readAt (Elt F) (Memref.whole cc2_scratch5).view (Rect.unit (s := S128x128) (k2_off289 k) S1x16.size (k2_off289_inb k)).toLoadRect gb) shapeCasts_S1x16_S16 shapeCasts_S16_S1x16) x).trans
        (Cert.LibRowStores.piece_sum ga gb k.val 32 (by omega) (k2_off289 k) (k2_off289 k) (k2_off296 k) (k2_off289_eq k) (k2_off289_eq k) (k2_off296_eq k) (k2_off289_inb k) (k2_off289_inb k) (k2_off296_inb k) x))
    (fun x => (congrFun (Cert.LibRowStores.cast_add_cast (View.readAt (Elt F) (Memref.whole cc2_scratch4).view (Rect.unit (s := S128x128) (k2_off290 k) S1x16.size (k2_off290_inb k)).toLoadRect ga) (View.readAt (Elt F) (Memref.whole cc2_scratch5).view (Rect.unit (s := S128x128) (k2_off290 k) S1x16.size (k2_off290_inb k)).toLoadRect gb) shapeCasts_S1x16_S16 shapeCasts_S16_S1x16) x).trans
        (Cert.LibRowStores.piece_sum ga gb k.val 48 (by omega) (k2_off290 k) (k2_off290 k) (k2_off297 k) (k2_off290_eq k) (k2_off290_eq k) (k2_off297_eq k) (k2_off290_inb k) (k2_off290_inb k) (k2_off297_inb k) x))
    (fun x => (congrFun (Cert.LibRowStores.cast_add_cast (View.readAt (Elt F) (Memref.whole cc2_scratch4).view (Rect.unit (s := S128x128) (k2_off291 k) S1x16.size (k2_off291_inb k)).toLoadRect ga) (View.readAt (Elt F) (Memref.whole cc2_scratch5).view (Rect.unit (s := S128x128) (k2_off291 k) S1x16.size (k2_off291_inb k)).toLoadRect gb) shapeCasts_S1x16_S16 shapeCasts_S16_S1x16) x).trans
        (Cert.LibRowStores.piece_sum ga gb k.val 64 (by omega) (k2_off291 k) (k2_off291 k) (k2_off298 k) (k2_off291_eq k) (k2_off291_eq k) (k2_off298_eq k) (k2_off291_inb k) (k2_off291_inb k) (k2_off298_inb k) x))
    (fun x => (congrFun (Cert.LibRowStores.cast_add_cast (View.readAt (Elt F) (Memref.whole cc2_scratch4).view (Rect.unit (s := S128x128) (k2_off292 k) S1x16.size (k2_off292_inb k)).toLoadRect ga) (View.readAt (Elt F) (Memref.whole cc2_scratch5).view (Rect.unit (s := S128x128) (k2_off292 k) S1x16.size (k2_off292_inb k)).toLoadRect gb) shapeCasts_S1x16_S16 shapeCasts_S16_S1x16) x).trans
        (Cert.LibRowStores.piece_sum ga gb k.val 80 (by omega) (k2_off292 k) (k2_off292 k) (k2_off299 k) (k2_off292_eq k) (k2_off292_eq k) (k2_off299_eq k) (k2_off292_inb k) (k2_off292_inb k) (k2_off299_inb k) x))
    (fun x => (congrFun (Cert.LibRowStores.cast_add_cast (View.readAt (Elt F) (Memref.whole cc2_scratch4).view (Rect.unit (s := S128x128) (k2_off293 k) S1x16.size (k2_off293_inb k)).toLoadRect ga) (View.readAt (Elt F) (Memref.whole cc2_scratch5).view (Rect.unit (s := S128x128) (k2_off293 k) S1x16.size (k2_off293_inb k)).toLoadRect gb) shapeCasts_S1x16_S16 shapeCasts_S16_S1x16) x).trans
        (Cert.LibRowStores.piece_sum ga gb k.val 84 (by omega) (k2_off293 k) (k2_off293 k) (k2_off300 k) (k2_off293_eq k) (k2_off293_eq k) (k2_off300_eq k) (k2_off293_inb k) (k2_off293_inb k) (k2_off300_inb k) x))
    hp

set_option maxHeartbeats 1000000 in
theorem region_t23 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v352 : BitVec 32) :
    ∀ (k : Fin k2_t23_loop.trips) (acc : Unit), addInvB d L ga gb k.val acc ⊢ wp frame (wpE (defs₀ (F := F)) 𝒱₀ (thr d L) none) Set.univ
      (k2_t23_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v352 k acc) (addInvB d L ga gb (k.val + 1)) := by
  intro k acc
  unfold addInvB k2_t23_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off308 k) (k2_off309 k) (k2_off310 k) (k2_off311 k) (k2_off312 k) (k2_off313 k) (k2_off314 k)
    (k2_off308_eq k) (k2_off309_eq k) (k2_off310_eq k) (k2_off311_eq k) (k2_off312_eq k) (k2_off313_eq k) (k2_off314_eq k)
    (k2_off308_inb k) (k2_off309_inb k) (k2_off310_inb k) (k2_off311_inb k) (k2_off312_inb k) (k2_off313_inb k) (k2_off314_inb k)
    _ _ _ _ _ _ _
    (fun x => (congrFun (Cert.LibRowStores.cast_add_cast (View.readAt (Elt F) (Memref.whole cc2_scratch6).view (Rect.unit (s := S72x128) (k2_off301 k) S1x16.size (k2_off301_inb k)).toLoadRect ga) (View.readAt (Elt F) (Memref.whole cc2_scratch7).view (Rect.unit (s := S72x128) (k2_off301 k) S1x16.size (k2_off301_inb k)).toLoadRect gb) shapeCasts_S1x16_S16 shapeCasts_S16_S1x16) x).trans
        (Cert.LibRowStores.piece_sum ga gb k.val 0 (by omega) (k2_off301 k) (k2_off301 k) (k2_off308 k) (k2_off301_eq k) (k2_off301_eq k) (k2_off308_eq k) (k2_off301_inb k) (k2_off301_inb k) (k2_off308_inb k) x))
    (fun x => (congrFun (Cert.LibRowStores.cast_add_cast (View.readAt (Elt F) (Memref.whole cc2_scratch6).view (Rect.unit (s := S72x128) (k2_off302 k) S1x16.size (k2_off302_inb k)).toLoadRect ga) (View.readAt (Elt F) (Memref.whole cc2_scratch7).view (Rect.unit (s := S72x128) (k2_off302 k) S1x16.size (k2_off302_inb k)).toLoadRect gb) shapeCasts_S1x16_S16 shapeCasts_S16_S1x16) x).trans
        (Cert.LibRowStores.piece_sum ga gb k.val 16 (by omega) (k2_off302 k) (k2_off302 k) (k2_off309 k) (k2_off302_eq k) (k2_off302_eq k) (k2_off309_eq k) (k2_off302_inb k) (k2_off302_inb k) (k2_off309_inb k) x))
    (fun x => (congrFun (Cert.LibRowStores.cast_add_cast (View.readAt (Elt F) (Memref.whole cc2_scratch6).view (Rect.unit (s := S72x128) (k2_off303 k) S1x16.size (k2_off303_inb k)).toLoadRect ga) (View.readAt (Elt F) (Memref.whole cc2_scratch7).view (Rect.unit (s := S72x128) (k2_off303 k) S1x16.size (k2_off303_inb k)).toLoadRect gb) shapeCasts_S1x16_S16 shapeCasts_S16_S1x16) x).trans
        (Cert.LibRowStores.piece_sum ga gb k.val 32 (by omega) (k2_off303 k) (k2_off303 k) (k2_off310 k) (k2_off303_eq k) (k2_off303_eq k) (k2_off310_eq k) (k2_off303_inb k) (k2_off303_inb k) (k2_off310_inb k) x))
    (fun x => (congrFun (Cert.LibRowStores.cast_add_cast (View.readAt (Elt F) (Memref.whole cc2_scratch6).view (Rect.unit (s := S72x128) (k2_off304 k) S1x16.size (k2_off304_inb k)).toLoadRect ga) (View.readAt (Elt F) (Memref.whole cc2_scratch7).view (Rect.unit (s := S72x128) (k2_off304 k) S1x16.size (k2_off304_inb k)).toLoadRect gb) shapeCasts_S1x16_S16 shapeCasts_S16_S1x16) x).trans
        (Cert.LibRowStores.piece_sum ga gb k.val 48 (by omega) (k2_off304 k) (k2_off304 k) (k2_off311 k) (k2_off304_eq k) (k2_off304_eq k) (k2_off311_eq k) (k2_off304_inb k) (k2_off304_inb k) (k2_off311_inb k) x))
    (fun x => (congrFun (Cert.LibRowStores.cast_add_cast (View.readAt (Elt F) (Memref.whole cc2_scratch6).view (Rect.unit (s := S72x128) (k2_off305 k) S1x16.size (k2_off305_inb k)).toLoadRect ga) (View.readAt (Elt F) (Memref.whole cc2_scratch7).view (Rect.unit (s := S72x128) (k2_off305 k) S1x16.size (k2_off305_inb k)).toLoadRect gb) shapeCasts_S1x16_S16 shapeCasts_S16_S1x16) x).trans
        (Cert.LibRowStores.piece_sum ga gb k.val 64 (by omega) (k2_off305 k) (k2_off305 k) (k2_off312 k) (k2_off305_eq k) (k2_off305_eq k) (k2_off312_eq k) (k2_off305_inb k) (k2_off305_inb k) (k2_off312_inb k) x))
    (fun x => (congrFun (Cert.LibRowStores.cast_add_cast (View.readAt (Elt F) (Memref.whole cc2_scratch6).view (Rect.unit (s := S72x128) (k2_off306 k) S1x16.size (k2_off306_inb k)).toLoadRect ga) (View.readAt (Elt F) (Memref.whole cc2_scratch7).view (Rect.unit (s := S72x128) (k2_off306 k) S1x16.size (k2_off306_inb k)).toLoadRect gb) shapeCasts_S1x16_S16 shapeCasts_S16_S1x16) x).trans
        (Cert.LibRowStores.piece_sum ga gb k.val 80 (by omega) (k2_off306 k) (k2_off306 k) (k2_off313 k) (k2_off306_eq k) (k2_off306_eq k) (k2_off313_eq k) (k2_off306_inb k) (k2_off306_inb k) (k2_off313_inb k) x))
    (fun x => (congrFun (Cert.LibRowStores.cast_add_cast (View.readAt (Elt F) (Memref.whole cc2_scratch6).view (Rect.unit (s := S72x128) (k2_off307 k) S1x16.size (k2_off307_inb k)).toLoadRect ga) (View.readAt (Elt F) (Memref.whole cc2_scratch7).view (Rect.unit (s := S72x128) (k2_off307 k) S1x16.size (k2_off307_inb k)).toLoadRect gb) shapeCasts_S1x16_S16 shapeCasts_S16_S1x16) x).trans
        (Cert.LibRowStores.piece_sum ga gb k.val 84 (by omega) (k2_off307 k) (k2_off307 k) (k2_off314 k) (k2_off307_eq k) (k2_off307_eq k) (k2_off314_eq k) (k2_off307_inb k) (k2_off307_inb k) (k2_off314_inb k) x))
    hp

set_option maxHeartbeats 1000000 in
theorem region_t24 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t24_loop.trips) (acc : Unit), addInvA d L ga gb k.val acc ⊢ wp frame (wpE (defs₀ (F := F)) 𝒱₀ (thr d L) none) Set.univ
      (k2_t24_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t24_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off322 k) (k2_off323 k) (k2_off324 k) (k2_off325 k) (k2_off326 k) (k2_off327 k) (k2_off328 k)
    (k2_off322_eq k) (k2_off323_eq k) (k2_off324_eq k) (k2_off325_eq k) (k2_off326_eq k) (k2_off327_eq k) (k2_off328_eq k)
    (k2_off322_inb k) (k2_off323_inb k) (k2_off324_inb k) (k2_off325_inb k) (k2_off326_inb k) (k2_off327_inb k) (k2_off328_inb k)
    _ _ _ _ _ _ _
    (fun x => (congrFun (Cert.LibRowStores.cast_add_cast (View.readAt (Elt F) (Memref.whole cc2_scratch4).view (Rect.unit (s := S128x128) (k2_off315 k) S1x16.size (k2_off315_inb k)).toLoadRect ga) (View.readAt (Elt F) (Memref.whole cc2_scratch5).view (Rect.unit (s := S128x128) (k2_off315 k) S1x16.size (k2_off315_inb k)).toLoadRect gb) shapeCasts_S1x16_S16 shapeCasts_S16_S1x16) x).trans
        (Cert.LibRowStores.piece_sum ga gb k.val 0 (by omega) (k2_off315 k) (k2_off315 k) (k2_off322 k) (k2_off315_eq k) (k2_off315_eq k) (k2_off322_eq k) (k2_off315_inb k) (k2_off315_inb k) (k2_off322_inb k) x))
    (fun x => (congrFun (Cert.LibRowStores.cast_add_cast (View.readAt (Elt F) (Memref.whole cc2_scratch4).view (Rect.unit (s := S128x128) (k2_off316 k) S1x16.size (k2_off316_inb k)).toLoadRect ga) (View.readAt (Elt F) (Memref.whole cc2_scratch5).view (Rect.unit (s := S128x128) (k2_off316 k) S1x16.size (k2_off316_inb k)).toLoadRect gb) shapeCasts_S1x16_S16 shapeCasts_S16_S1x16) x).trans
        (Cert.LibRowStores.piece_sum ga gb k.val 16 (by omega) (k2_off316 k) (k2_off316 k) (k2_off323 k) (k2_off316_eq k) (k2_off316_eq k) (k2_off323_eq k) (k2_off316_inb k) (k2_off316_inb k) (k2_off323_inb k) x))
    (fun x => (congrFun (Cert.LibRowStores.cast_add_cast (View.readAt (Elt F) (Memref.whole cc2_scratch4).view (Rect.unit (s := S128x128) (k2_off317 k) S1x16.size (k2_off317_inb k)).toLoadRect ga) (View.readAt (Elt F) (Memref.whole cc2_scratch5).view (Rect.unit (s := S128x128) (k2_off317 k) S1x16.size (k2_off317_inb k)).toLoadRect gb) shapeCasts_S1x16_S16 shapeCasts_S16_S1x16) x).trans
        (Cert.LibRowStores.piece_sum ga gb k.val 32 (by omega) (k2_off317 k) (k2_off317 k) (k2_off324 k) (k2_off317_eq k) (k2_off317_eq k) (k2_off324_eq k) (k2_off317_inb k) (k2_off317_inb k) (k2_off324_inb k) x))
    (fun x => (congrFun (Cert.LibRowStores.cast_add_cast (View.readAt (Elt F) (Memref.whole cc2_scratch4).view (Rect.unit (s := S128x128) (k2_off318 k) S1x16.size (k2_off318_inb k)).toLoadRect ga) (View.readAt (Elt F) (Memref.whole cc2_scratch5).view (Rect.unit (s := S128x128) (k2_off318 k) S1x16.size (k2_off318_inb k)).toLoadRect gb) shapeCasts_S1x16_S16 shapeCasts_S16_S1x16) x).trans
        (Cert.LibRowStores.piece_sum ga gb k.val 48 (by omega) (k2_off318 k) (k2_off318 k) (k2_off325 k) (k2_off318_eq k) (k2_off318_eq k) (k2_off325_eq k) (k2_off318_inb k) (k2_off318_inb k) (k2_off325_inb k) x))
    (fun x => (congrFun (Cert.LibRowStores.cast_add_cast (View.readAt (Elt F) (Memref.whole cc2_scratch4).view (Rect.unit (s := S128x128) (k2_off319 k) S1x16.size (k2_off319_inb k)).toLoadRect ga) (View.readAt (Elt F) (Memref.whole cc2_scratch5).view (Rect.unit (s := S128x128) (k2_off319 k) S1x16.size (k2_off319_inb k)).toLoadRect gb) shapeCasts_S1x16_S16 shapeCasts_S16_S1x16) x).trans
        (Cert.LibRowStores.piece_sum ga gb k.val 64 (by omega) (k2_off319 k) (k2_off319 k) (k2_off326 k) (k2_off319_eq k) (k2_off319_eq k) (k2_off326_eq k) (k2_off319_inb k) (k2_off319_inb k) (k2_off326_inb k) x))
    (fun x => (congrFun (Cert.LibRowStores.cast_add_cast (View.readAt (Elt F) (Memref.whole cc2_scratch4).view (Rect.unit (s := S128x128) (k2_off320 k) S1x16.size (k2_off320_inb k)).toLoadRect ga) (View.readAt (Elt F) (Memref.whole cc2_scratch5).view (Rect.unit (s := S128x128) (k2_off320 k) S1x16.size (k2_off320_inb k)).toLoadRect gb) shapeCasts_S1x16_S16 shapeCasts_S16_S1x16) x).trans
        (Cert.LibRowStores.piece_sum ga gb k.val 80 (by omega) (k2_off320 k) (k2_off320 k) (k2_off327 k) (k2_off320_eq k) (k2_off320_eq k) (k2_off327_eq k) (k2_off320_inb k) (k2_off320_inb k) (k2_off327_inb k) x))
    (fun x => (congrFun (Cert.LibRowStores.cast_add_cast (View.readAt (Elt F) (Memref.whole cc2_scratch4).view (Rect.unit (s := S128x128) (k2_off321 k) S1x16.size (k2_off321_inb k)).toLoadRect ga) (View.readAt (Elt F) (Memref.whole cc2_scratch5).view (Rect.unit (s := S128x128) (k2_off321 k) S1x16.size (k2_off321_inb k)).toLoadRect gb) shapeCasts_S1x16_S16 shapeCasts_S16_S1x16) x).trans
        (Cert.LibRowStores.piece_sum ga gb k.val 84 (by omega) (k2_off321 k) (k2_off321 k) (k2_off328 k) (k2_off321_eq k) (k2_off321_eq k) (k2_off328_eq k) (k2_off321_inb k) (k2_off321_inb k) (k2_off328_inb k) x))
    hp

set_option maxHeartbeats 1000000 in
theorem region_t25 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v383 : BitVec 32) :
    ∀ (k : Fin k2_t25_loop.trips) (acc : Unit), addInvB d L ga gb k.val acc ⊢ wp frame (wpE (defs₀ (F := F)) 𝒱₀ (thr d L) none) Set.univ
      (k2_t25_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v383 k acc) (addInvB d L ga gb (k.val + 1)) := by
  intro k acc
  unfold addInvB k2_t25_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off336 k) (k2_off337 k) (k2_off338 k) (k2_off339 k) (k2_off340 k) (k2_off341 k) (k2_off342 k)
    (k2_off336_eq k) (k2_off337_eq k) (k2_off338_eq k) (k2_off339_eq k) (k2_off340_eq k) (k2_off341_eq k) (k2_off342_eq k)
    (k2_off336_inb k) (k2_off337_inb k) (k2_off338_inb k) (k2_off339_inb k) (k2_off340_inb k) (k2_off341_inb k) (k2_off342_inb k)
    _ _ _ _ _ _ _
    (fun x => (congrFun (Cert.LibRowStores.cast_add_cast (View.readAt (Elt F) (Memref.whole cc2_scratch6).view (Rect.unit (s := S72x128) (k2_off329 k) S1x16.size (k2_off329_inb k)).toLoadRect ga) (View.readAt (Elt F) (Memref.whole cc2_scratch7).view (Rect.unit (s := S72x128) (k2_off329 k) S1x16.size (k2_off329_inb k)).toLoadRect gb) shapeCasts_S1x16_S16 shapeCasts_S16_S1x16) x).trans
        (Cert.LibRowStores.piece_sum ga gb k.val 0 (by omega) (k2_off329 k) (k2_off329 k) (k2_off336 k) (k2_off329_eq k) (k2_off329_eq k) (k2_off336_eq k) (k2_off329_inb k) (k2_off329_inb k) (k2_off336_inb k) x))
    (fun x => (congrFun (Cert.LibRowStores.cast_add_cast (View.readAt (Elt F) (Memref.whole cc2_scratch6).view (Rect.unit (s := S72x128) (k2_off330 k) S1x16.size (k2_off330_inb k)).toLoadRect ga) (View.readAt (Elt F) (Memref.whole cc2_scratch7).view (Rect.unit (s := S72x128) (k2_off330 k) S1x16.size (k2_off330_inb k)).toLoadRect gb) shapeCasts_S1x16_S16 shapeCasts_S16_S1x16) x).trans
        (Cert.LibRowStores.piece_sum ga gb k.val 16 (by omega) (k2_off330 k) (k2_off330 k) (k2_off337 k) (k2_off330_eq k) (k2_off330_eq k) (k2_off337_eq k) (k2_off330_inb k) (k2_off330_inb k) (k2_off337_inb k) x))
    (fun x => (congrFun (Cert.LibRowStores.cast_add_cast (View.readAt (Elt F) (Memref.whole cc2_scratch6).view (Rect.unit (s := S72x128) (k2_off331 k) S1x16.size (k2_off331_inb k)).toLoadRect ga) (View.readAt (Elt F) (Memref.whole cc2_scratch7).view (Rect.unit (s := S72x128) (k2_off331 k) S1x16.size (k2_off331_inb k)).toLoadRect gb) shapeCasts_S1x16_S16 shapeCasts_S16_S1x16) x).trans
        (Cert.LibRowStores.piece_sum ga gb k.val 32 (by omega) (k2_off331 k) (k2_off331 k) (k2_off338 k) (k2_off331_eq k) (k2_off331_eq k) (k2_off338_eq k) (k2_off331_inb k) (k2_off331_inb k) (k2_off338_inb k) x))
    (fun x => (congrFun (Cert.LibRowStores.cast_add_cast (View.readAt (Elt F) (Memref.whole cc2_scratch6).view (Rect.unit (s := S72x128) (k2_off332 k) S1x16.size (k2_off332_inb k)).toLoadRect ga) (View.readAt (Elt F) (Memref.whole cc2_scratch7).view (Rect.unit (s := S72x128) (k2_off332 k) S1x16.size (k2_off332_inb k)).toLoadRect gb) shapeCasts_S1x16_S16 shapeCasts_S16_S1x16) x).trans
        (Cert.LibRowStores.piece_sum ga gb k.val 48 (by omega) (k2_off332 k) (k2_off332 k) (k2_off339 k) (k2_off332_eq k) (k2_off332_eq k) (k2_off339_eq k) (k2_off332_inb k) (k2_off332_inb k) (k2_off339_inb k) x))
    (fun x => (congrFun (Cert.LibRowStores.cast_add_cast (View.readAt (Elt F) (Memref.whole cc2_scratch6).view (Rect.unit (s := S72x128) (k2_off333 k) S1x16.size (k2_off333_inb k)).toLoadRect ga) (View.readAt (Elt F) (Memref.whole cc2_scratch7).view (Rect.unit (s := S72x128) (k2_off333 k) S1x16.size (k2_off333_inb k)).toLoadRect gb) shapeCasts_S1x16_S16 shapeCasts_S16_S1x16) x).trans
        (Cert.LibRowStores.piece_sum ga gb k.val 64 (by omega) (k2_off333 k) (k2_off333 k) (k2_off340 k) (k2_off333_eq k) (k2_off333_eq k) (k2_off340_eq k) (k2_off333_inb k) (k2_off333_inb k) (k2_off340_inb k) x))
    (fun x => (congrFun (Cert.LibRowStores.cast_add_cast (View.readAt (Elt F) (Memref.whole cc2_scratch6).view (Rect.unit (s := S72x128) (k2_off334 k) S1x16.size (k2_off334_inb k)).toLoadRect ga) (View.readAt (Elt F) (Memref.whole cc2_scratch7).view (Rect.unit (s := S72x128) (k2_off334 k) S1x16.size (k2_off334_inb k)).toLoadRect gb) shapeCasts_S1x16_S16 shapeCasts_S16_S1x16) x).trans
        (Cert.LibRowStores.piece_sum ga gb k.val 80 (by omega) (k2_off334 k) (k2_off334 k) (k2_off341 k) (k2_off334_eq k) (k2_off334_eq k) (k2_off341_eq k) (k2_off334_inb k) (k2_off334_inb k) (k2_off341_inb k) x))
    (fun x => (congrFun (Cert.LibRowStores.cast_add_cast (View.readAt (Elt F) (Memref.whole cc2_scratch6).view (Rect.unit (s := S72x128) (k2_off335 k) S1x16.size (k2_off335_inb k)).toLoadRect ga) (View.readAt (Elt F) (Memref.whole cc2_scratch7).view (Rect.unit (s := S72x128) (k2_off335 k) S1x16.size (k2_off335_inb k)).toLoadRect gb) shapeCasts_S1x16_S16 shapeCasts_S16_S1x16) x).trans
        (Cert.LibRowStores.piece_sum ga gb k.val 84 (by omega) (k2_off335 k) (k2_off335 k) (k2_off342 k) (k2_off335_eq k) (k2_off335_eq k) (k2_off342_eq k) (k2_off335_inb k) (k2_off335_inb k) (k2_off342_inb k) x))
    hp

end Cert.Proof.KI

end
-- ==== Proof.KI.AddLoops7.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 26 to 29 of the thirty-two.
-/
import proofs.«206319_g15771119910948_cont_week2b_672_19_alg».proof.Proof.KI.AddInv
import proofs.«206319_g15771119910948_cont_week2b_672_19_alg».proof.Proof.LibRowStores
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t26 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t26_loop.trips) (acc : Unit), addInvA d L ga gb k.val acc ⊢ wp frame (wpE (defs₀ (F := F)) 𝒱₀ (thr d L) none) Set.univ
      (k2_t26_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t26_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off350 k) (k2_off351 k) (k2_off352 k) (k2_off353 k) (k2_off354 k) (k2_off355 k) (k2_off356 k)
    (k2_off350_eq k) (k2_off351_eq k) (k2_off352_eq k) (k2_off353_eq k) (k2_off354_eq k) (k2_off355_eq k) (k2_off356_eq k)
    (k2_off350_inb k) (k2_off351_inb k) (k2_off352_inb k) (k2_off353_inb k) (k2_off354_inb k) (k2_off355_inb k) (k2_off356_inb k)
    _ _ _ _ _ _ _
    (fun x => (congrFun (Cert.LibRowStores.cast_add_cast (View.readAt (Elt F) (Memref.whole cc2_scratch4).view (Rect.unit (s := S128x128) (k2_off343 k) S1x16.size (k2_off343_inb k)).toLoadRect ga) (View.readAt (Elt F) (Memref.whole cc2_scratch5).view (Rect.unit (s := S128x128) (k2_off343 k) S1x16.size (k2_off343_inb k)).toLoadRect gb) shapeCasts_S1x16_S16 shapeCasts_S16_S1x16) x).trans
        (Cert.LibRowStores.piece_sum ga gb k.val 0 (by omega) (k2_off343 k) (k2_off343 k) (k2_off350 k) (k2_off343_eq k) (k2_off343_eq k) (k2_off350_eq k) (k2_off343_inb k) (k2_off343_inb k) (k2_off350_inb k) x))
    (fun x => (congrFun (Cert.LibRowStores.cast_add_cast (View.readAt (Elt F) (Memref.whole cc2_scratch4).view (Rect.unit (s := S128x128) (k2_off344 k) S1x16.size (k2_off344_inb k)).toLoadRect ga) (View.readAt (Elt F) (Memref.whole cc2_scratch5).view (Rect.unit (s := S128x128) (k2_off344 k) S1x16.size (k2_off344_inb k)).toLoadRect gb) shapeCasts_S1x16_S16 shapeCasts_S16_S1x16) x).trans
        (Cert.LibRowStores.piece_sum ga gb k.val 16 (by omega) (k2_off344 k) (k2_off344 k) (k2_off351 k) (k2_off344_eq k) (k2_off344_eq k) (k2_off351_eq k) (k2_off344_inb k) (k2_off344_inb k) (k2_off351_inb k) x))
    (fun x => (congrFun (Cert.LibRowStores.cast_add_cast (View.readAt (Elt F) (Memref.whole cc2_scratch4).view (Rect.unit (s := S128x128) (k2_off345 k) S1x16.size (k2_off345_inb k)).toLoadRect ga) (View.readAt (Elt F) (Memref.whole cc2_scratch5).view (Rect.unit (s := S128x128) (k2_off345 k) S1x16.size (k2_off345_inb k)).toLoadRect gb) shapeCasts_S1x16_S16 shapeCasts_S16_S1x16) x).trans
        (Cert.LibRowStores.piece_sum ga gb k.val 32 (by omega) (k2_off345 k) (k2_off345 k) (k2_off352 k) (k2_off345_eq k) (k2_off345_eq k) (k2_off352_eq k) (k2_off345_inb k) (k2_off345_inb k) (k2_off352_inb k) x))
    (fun x => (congrFun (Cert.LibRowStores.cast_add_cast (View.readAt (Elt F) (Memref.whole cc2_scratch4).view (Rect.unit (s := S128x128) (k2_off346 k) S1x16.size (k2_off346_inb k)).toLoadRect ga) (View.readAt (Elt F) (Memref.whole cc2_scratch5).view (Rect.unit (s := S128x128) (k2_off346 k) S1x16.size (k2_off346_inb k)).toLoadRect gb) shapeCasts_S1x16_S16 shapeCasts_S16_S1x16) x).trans
        (Cert.LibRowStores.piece_sum ga gb k.val 48 (by omega) (k2_off346 k) (k2_off346 k) (k2_off353 k) (k2_off346_eq k) (k2_off346_eq k) (k2_off353_eq k) (k2_off346_inb k) (k2_off346_inb k) (k2_off353_inb k) x))
    (fun x => (congrFun (Cert.LibRowStores.cast_add_cast (View.readAt (Elt F) (Memref.whole cc2_scratch4).view (Rect.unit (s := S128x128) (k2_off347 k) S1x16.size (k2_off347_inb k)).toLoadRect ga) (View.readAt (Elt F) (Memref.whole cc2_scratch5).view (Rect.unit (s := S128x128) (k2_off347 k) S1x16.size (k2_off347_inb k)).toLoadRect gb) shapeCasts_S1x16_S16 shapeCasts_S16_S1x16) x).trans
        (Cert.LibRowStores.piece_sum ga gb k.val 64 (by omega) (k2_off347 k) (k2_off347 k) (k2_off354 k) (k2_off347_eq k) (k2_off347_eq k) (k2_off354_eq k) (k2_off347_inb k) (k2_off347_inb k) (k2_off354_inb k) x))
    (fun x => (congrFun (Cert.LibRowStores.cast_add_cast (View.readAt (Elt F) (Memref.whole cc2_scratch4).view (Rect.unit (s := S128x128) (k2_off348 k) S1x16.size (k2_off348_inb k)).toLoadRect ga) (View.readAt (Elt F) (Memref.whole cc2_scratch5).view (Rect.unit (s := S128x128) (k2_off348 k) S1x16.size (k2_off348_inb k)).toLoadRect gb) shapeCasts_S1x16_S16 shapeCasts_S16_S1x16) x).trans
        (Cert.LibRowStores.piece_sum ga gb k.val 80 (by omega) (k2_off348 k) (k2_off348 k) (k2_off355 k) (k2_off348_eq k) (k2_off348_eq k) (k2_off355_eq k) (k2_off348_inb k) (k2_off348_inb k) (k2_off355_inb k) x))
    (fun x => (congrFun (Cert.LibRowStores.cast_add_cast (View.readAt (Elt F) (Memref.whole cc2_scratch4).view (Rect.unit (s := S128x128) (k2_off349 k) S1x16.size (k2_off349_inb k)).toLoadRect ga) (View.readAt (Elt F) (Memref.whole cc2_scratch5).view (Rect.unit (s := S128x128) (k2_off349 k) S1x16.size (k2_off349_inb k)).toLoadRect gb) shapeCasts_S1x16_S16 shapeCasts_S16_S1x16) x).trans
        (Cert.LibRowStores.piece_sum ga gb k.val 84 (by omega) (k2_off349 k) (k2_off349 k) (k2_off356 k) (k2_off349_eq k) (k2_off349_eq k) (k2_off356_eq k) (k2_off349_inb k) (k2_off349_inb k) (k2_off356_inb k) x))
    hp

set_option maxHeartbeats 1000000 in
theorem region_t27 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) :
    ∀ (k : Fin k2_t27_loop.trips) (acc : Unit), addInvB d L ga gb k.val acc ⊢ wp frame (wpE (defs₀ (F := F)) 𝒱₀ (thr d L) none) Set.univ
      (k2_t27_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvB d L ga gb (k.val + 1)) := by
  intro k acc
  unfold addInvB k2_t27_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off364 k) (k2_off365 k) (k2_off366 k) (k2_off367 k) (k2_off368 k) (k2_off369 k) (k2_off370 k)
    (k2_off364_eq k) (k2_off365_eq k) (k2_off366_eq k) (k2_off367_eq k) (k2_off368_eq k) (k2_off369_eq k) (k2_off370_eq k)
    (k2_off364_inb k) (k2_off365_inb k) (k2_off366_inb k) (k2_off367_inb k) (k2_off368_inb k) (k2_off369_inb k) (k2_off370_inb k)
    _ _ _ _ _ _ _
    (fun x => (congrFun (Cert.LibRowStores.cast_add_cast (View.readAt (Elt F) (Memref.whole cc2_scratch6).view (Rect.unit (s := S72x128) (k2_off357 k) S1x16.size (k2_off357_inb k)).toLoadRect ga) (View.readAt (Elt F) (Memref.whole cc2_scratch7).view (Rect.unit (s := S72x128) (k2_off357 k) S1x16.size (k2_off357_inb k)).toLoadRect gb) shapeCasts_S1x16_S16 shapeCasts_S16_S1x16) x).trans
        (Cert.LibRowStores.piece_sum ga gb k.val 0 (by omega) (k2_off357 k) (k2_off357 k) (k2_off364 k) (k2_off357_eq k) (k2_off357_eq k) (k2_off364_eq k) (k2_off357_inb k) (k2_off357_inb k) (k2_off364_inb k) x))
    (fun x => (congrFun (Cert.LibRowStores.cast_add_cast (View.readAt (Elt F) (Memref.whole cc2_scratch6).view (Rect.unit (s := S72x128) (k2_off358 k) S1x16.size (k2_off358_inb k)).toLoadRect ga) (View.readAt (Elt F) (Memref.whole cc2_scratch7).view (Rect.unit (s := S72x128) (k2_off358 k) S1x16.size (k2_off358_inb k)).toLoadRect gb) shapeCasts_S1x16_S16 shapeCasts_S16_S1x16) x).trans
        (Cert.LibRowStores.piece_sum ga gb k.val 16 (by omega) (k2_off358 k) (k2_off358 k) (k2_off365 k) (k2_off358_eq k) (k2_off358_eq k) (k2_off365_eq k) (k2_off358_inb k) (k2_off358_inb k) (k2_off365_inb k) x))
    (fun x => (congrFun (Cert.LibRowStores.cast_add_cast (View.readAt (Elt F) (Memref.whole cc2_scratch6).view (Rect.unit (s := S72x128) (k2_off359 k) S1x16.size (k2_off359_inb k)).toLoadRect ga) (View.readAt (Elt F) (Memref.whole cc2_scratch7).view (Rect.unit (s := S72x128) (k2_off359 k) S1x16.size (k2_off359_inb k)).toLoadRect gb) shapeCasts_S1x16_S16 shapeCasts_S16_S1x16) x).trans
        (Cert.LibRowStores.piece_sum ga gb k.val 32 (by omega) (k2_off359 k) (k2_off359 k) (k2_off366 k) (k2_off359_eq k) (k2_off359_eq k) (k2_off366_eq k) (k2_off359_inb k) (k2_off359_inb k) (k2_off366_inb k) x))
    (fun x => (congrFun (Cert.LibRowStores.cast_add_cast (View.readAt (Elt F) (Memref.whole cc2_scratch6).view (Rect.unit (s := S72x128) (k2_off360 k) S1x16.size (k2_off360_inb k)).toLoadRect ga) (View.readAt (Elt F) (Memref.whole cc2_scratch7).view (Rect.unit (s := S72x128) (k2_off360 k) S1x16.size (k2_off360_inb k)).toLoadRect gb) shapeCasts_S1x16_S16 shapeCasts_S16_S1x16) x).trans
        (Cert.LibRowStores.piece_sum ga gb k.val 48 (by omega) (k2_off360 k) (k2_off360 k) (k2_off367 k) (k2_off360_eq k) (k2_off360_eq k) (k2_off367_eq k) (k2_off360_inb k) (k2_off360_inb k) (k2_off367_inb k) x))
    (fun x => (congrFun (Cert.LibRowStores.cast_add_cast (View.readAt (Elt F) (Memref.whole cc2_scratch6).view (Rect.unit (s := S72x128) (k2_off361 k) S1x16.size (k2_off361_inb k)).toLoadRect ga) (View.readAt (Elt F) (Memref.whole cc2_scratch7).view (Rect.unit (s := S72x128) (k2_off361 k) S1x16.size (k2_off361_inb k)).toLoadRect gb) shapeCasts_S1x16_S16 shapeCasts_S16_S1x16) x).trans
        (Cert.LibRowStores.piece_sum ga gb k.val 64 (by omega) (k2_off361 k) (k2_off361 k) (k2_off368 k) (k2_off361_eq k) (k2_off361_eq k) (k2_off368_eq k) (k2_off361_inb k) (k2_off361_inb k) (k2_off368_inb k) x))
    (fun x => (congrFun (Cert.LibRowStores.cast_add_cast (View.readAt (Elt F) (Memref.whole cc2_scratch6).view (Rect.unit (s := S72x128) (k2_off362 k) S1x16.size (k2_off362_inb k)).toLoadRect ga) (View.readAt (Elt F) (Memref.whole cc2_scratch7).view (Rect.unit (s := S72x128) (k2_off362 k) S1x16.size (k2_off362_inb k)).toLoadRect gb) shapeCasts_S1x16_S16 shapeCasts_S16_S1x16) x).trans
        (Cert.LibRowStores.piece_sum ga gb k.val 80 (by omega) (k2_off362 k) (k2_off362 k) (k2_off369 k) (k2_off362_eq k) (k2_off362_eq k) (k2_off369_eq k) (k2_off362_inb k) (k2_off362_inb k) (k2_off369_inb k) x))
    (fun x => (congrFun (Cert.LibRowStores.cast_add_cast (View.readAt (Elt F) (Memref.whole cc2_scratch6).view (Rect.unit (s := S72x128) (k2_off363 k) S1x16.size (k2_off363_inb k)).toLoadRect ga) (View.readAt (Elt F) (Memref.whole cc2_scratch7).view (Rect.unit (s := S72x128) (k2_off363 k) S1x16.size (k2_off363_inb k)).toLoadRect gb) shapeCasts_S1x16_S16 shapeCasts_S16_S1x16) x).trans
        (Cert.LibRowStores.piece_sum ga gb k.val 84 (by omega) (k2_off363 k) (k2_off363 k) (k2_off370 k) (k2_off363_eq k) (k2_off363_eq k) (k2_off370_eq k) (k2_off363_inb k) (k2_off363_inb k) (k2_off370_inb k) x))
    hp

set_option maxHeartbeats 1000000 in
theorem region_t28 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) (v414 : BitVec 32) :
    ∀ (k : Fin k2_t28_loop.trips) (acc : Unit), addInvA d L ga gb k.val acc ⊢ wp frame (wpE (defs₀ (F := F)) 𝒱₀ (thr d L) none) Set.univ
      (k2_t28_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v414 k acc) (addInvA d L ga gb (k.val + 1)) := by
  intro k acc
  unfold addInvA k2_t28_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off378 k) (k2_off379 k) (k2_off380 k) (k2_off381 k) (k2_off382 k) (k2_off383 k) (k2_off384 k)
    (k2_off378_eq k) (k2_off379_eq k) (k2_off380_eq k) (k2_off381_eq k) (k2_off382_eq k) (k2_off383_eq k) (k2_off384_eq k)
    (k2_off378_inb k) (k2_off379_inb k) (k2_off380_inb k) (k2_off381_inb k) (k2_off382_inb k) (k2_off383_inb k) (k2_off384_inb k)
    _ _ _ _ _ _ _
    (fun x => (congrFun (Cert.LibRowStores.cast_add_cast (View.readAt (Elt F) (Memref.whole cc2_scratch4).view (Rect.unit (s := S128x128) (k2_off371 k) S1x16.size (k2_off371_inb k)).toLoadRect ga) (View.readAt (Elt F) (Memref.whole cc2_scratch5).view (Rect.unit (s := S128x128) (k2_off371 k) S1x16.size (k2_off371_inb k)).toLoadRect gb) shapeCasts_S1x16_S16 shapeCasts_S16_S1x16) x).trans
        (Cert.LibRowStores.piece_sum ga gb k.val 0 (by omega) (k2_off371 k) (k2_off371 k) (k2_off378 k) (k2_off371_eq k) (k2_off371_eq k) (k2_off378_eq k) (k2_off371_inb k) (k2_off371_inb k) (k2_off378_inb k) x))
    (fun x => (congrFun (Cert.LibRowStores.cast_add_cast (View.readAt (Elt F) (Memref.whole cc2_scratch4).view (Rect.unit (s := S128x128) (k2_off372 k) S1x16.size (k2_off372_inb k)).toLoadRect ga) (View.readAt (Elt F) (Memref.whole cc2_scratch5).view (Rect.unit (s := S128x128) (k2_off372 k) S1x16.size (k2_off372_inb k)).toLoadRect gb) shapeCasts_S1x16_S16 shapeCasts_S16_S1x16) x).trans
        (Cert.LibRowStores.piece_sum ga gb k.val 16 (by omega) (k2_off372 k) (k2_off372 k) (k2_off379 k) (k2_off372_eq k) (k2_off372_eq k) (k2_off379_eq k) (k2_off372_inb k) (k2_off372_inb k) (k2_off379_inb k) x))
    (fun x => (congrFun (Cert.LibRowStores.cast_add_cast (View.readAt (Elt F) (Memref.whole cc2_scratch4).view (Rect.unit (s := S128x128) (k2_off373 k) S1x16.size (k2_off373_inb k)).toLoadRect ga) (View.readAt (Elt F) (Memref.whole cc2_scratch5).view (Rect.unit (s := S128x128) (k2_off373 k) S1x16.size (k2_off373_inb k)).toLoadRect gb) shapeCasts_S1x16_S16 shapeCasts_S16_S1x16) x).trans
        (Cert.LibRowStores.piece_sum ga gb k.val 32 (by omega) (k2_off373 k) (k2_off373 k) (k2_off380 k) (k2_off373_eq k) (k2_off373_eq k) (k2_off380_eq k) (k2_off373_inb k) (k2_off373_inb k) (k2_off380_inb k) x))
    (fun x => (congrFun (Cert.LibRowStores.cast_add_cast (View.readAt (Elt F) (Memref.whole cc2_scratch4).view (Rect.unit (s := S128x128) (k2_off374 k) S1x16.size (k2_off374_inb k)).toLoadRect ga) (View.readAt (Elt F) (Memref.whole cc2_scratch5).view (Rect.unit (s := S128x128) (k2_off374 k) S1x16.size (k2_off374_inb k)).toLoadRect gb) shapeCasts_S1x16_S16 shapeCasts_S16_S1x16) x).trans
        (Cert.LibRowStores.piece_sum ga gb k.val 48 (by omega) (k2_off374 k) (k2_off374 k) (k2_off381 k) (k2_off374_eq k) (k2_off374_eq k) (k2_off381_eq k) (k2_off374_inb k) (k2_off374_inb k) (k2_off381_inb k) x))
    (fun x => (congrFun (Cert.LibRowStores.cast_add_cast (View.readAt (Elt F) (Memref.whole cc2_scratch4).view (Rect.unit (s := S128x128) (k2_off375 k) S1x16.size (k2_off375_inb k)).toLoadRect ga) (View.readAt (Elt F) (Memref.whole cc2_scratch5).view (Rect.unit (s := S128x128) (k2_off375 k) S1x16.size (k2_off375_inb k)).toLoadRect gb) shapeCasts_S1x16_S16 shapeCasts_S16_S1x16) x).trans
        (Cert.LibRowStores.piece_sum ga gb k.val 64 (by omega) (k2_off375 k) (k2_off375 k) (k2_off382 k) (k2_off375_eq k) (k2_off375_eq k) (k2_off382_eq k) (k2_off375_inb k) (k2_off375_inb k) (k2_off382_inb k) x))
    (fun x => (congrFun (Cert.LibRowStores.cast_add_cast (View.readAt (Elt F) (Memref.whole cc2_scratch4).view (Rect.unit (s := S128x128) (k2_off376 k) S1x16.size (k2_off376_inb k)).toLoadRect ga) (View.readAt (Elt F) (Memref.whole cc2_scratch5).view (Rect.unit (s := S128x128) (k2_off376 k) S1x16.size (k2_off376_inb k)).toLoadRect gb) shapeCasts_S1x16_S16 shapeCasts_S16_S1x16) x).trans
        (Cert.LibRowStores.piece_sum ga gb k.val 80 (by omega) (k2_off376 k) (k2_off376 k) (k2_off383 k) (k2_off376_eq k) (k2_off376_eq k) (k2_off383_eq k) (k2_off376_inb k) (k2_off376_inb k) (k2_off383_inb k) x))
    (fun x => (congrFun (Cert.LibRowStores.cast_add_cast (View.readAt (Elt F) (Memref.whole cc2_scratch4).view (Rect.unit (s := S128x128) (k2_off377 k) S1x16.size (k2_off377_inb k)).toLoadRect ga) (View.readAt (Elt F) (Memref.whole cc2_scratch5).view (Rect.unit (s := S128x128) (k2_off377 k) S1x16.size (k2_off377_inb k)).toLoadRect gb) shapeCasts_S1x16_S16 shapeCasts_S16_S1x16) x).trans
        (Cert.LibRowStores.piece_sum ga gb k.val 84 (by omega) (k2_off377 k) (k2_off377 k) (k2_off384 k) (k2_off377_eq k) (k2_off377_eq k) (k2_off384_eq k) (k2_off377_inb k) (k2_off377_inb k) (k2_off384_inb k) x))
    hp

set_option maxHeartbeats 1000000 in
theorem region_t29 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) (arg23 : BitVec 32) (v445 : BitVec 32) :
    ∀ (k : Fin k2_t29_loop.trips) (acc : Unit), addInvB d L ga gb k.val acc ⊢ wp frame (wpE (defs₀ (F := F)) 𝒱₀ (thr d L) none) Set.univ
      (k2_t29_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 arg23 v445 k acc) (addInvB d L ga gb (k.val + 1)) := by
  intro k acc
  unfold addInvB k2_t29_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off392 k) (k2_off393 k) (k2_off394 k) (k2_off395 k) (k2_off396 k) (k2_off397 k) (k2_off398 k)
    (k2_off392_eq k) (k2_off393_eq k) (k2_off394_eq k) (k2_off395_eq k) (k2_off396_eq k) (k2_off397_eq k) (k2_off398_eq k)
    (k2_off392_inb k) (k2_off393_inb k) (k2_off394_inb k) (k2_off395_inb k) (k2_off396_inb k) (k2_off397_inb k) (k2_off398_inb k)
    _ _ _ _ _ _ _
    (fun x => (congrFun (Cert.LibRowStores.cast_add_cast (View.readAt (Elt F) (Memref.whole cc2_scratch6).view (Rect.unit (s := S72x128) (k2_off385 k) S1x16.size (k2_off385_inb k)).toLoadRect ga) (View.readAt (Elt F) (Memref.whole cc2_scratch7).view (Rect.unit (s := S72x128) (k2_off385 k) S1x16.size (k2_off385_inb k)).toLoadRect gb) shapeCasts_S1x16_S16 shapeCasts_S16_S1x16) x).trans
        (Cert.LibRowStores.piece_sum ga gb k.val 0 (by omega) (k2_off385 k) (k2_off385 k) (k2_off392 k) (k2_off385_eq k) (k2_off385_eq k) (k2_off392_eq k) (k2_off385_inb k) (k2_off385_inb k) (k2_off392_inb k) x))
    (fun x => (congrFun (Cert.LibRowStores.cast_add_cast (View.readAt (Elt F) (Memref.whole cc2_scratch6).view (Rect.unit (s := S72x128) (k2_off386 k) S1x16.size (k2_off386_inb k)).toLoadRect ga) (View.readAt (Elt F) (Memref.whole cc2_scratch7).view (Rect.unit (s := S72x128) (k2_off386 k) S1x16.size (k2_off386_inb k)).toLoadRect gb) shapeCasts_S1x16_S16 shapeCasts_S16_S1x16) x).trans
        (Cert.LibRowStores.piece_sum ga gb k.val 16 (by omega) (k2_off386 k) (k2_off386 k) (k2_off393 k) (k2_off386_eq k) (k2_off386_eq k) (k2_off393_eq k) (k2_off386_inb k) (k2_off386_inb k) (k2_off393_inb k) x))
    (fun x => (congrFun (Cert.LibRowStores.cast_add_cast (View.readAt (Elt F) (Memref.whole cc2_scratch6).view (Rect.unit (s := S72x128) (k2_off387 k) S1x16.size (k2_off387_inb k)).toLoadRect ga) (View.readAt (Elt F) (Memref.whole cc2_scratch7).view (Rect.unit (s := S72x128) (k2_off387 k) S1x16.size (k2_off387_inb k)).toLoadRect gb) shapeCasts_S1x16_S16 shapeCasts_S16_S1x16) x).trans
        (Cert.LibRowStores.piece_sum ga gb k.val 32 (by omega) (k2_off387 k) (k2_off387 k) (k2_off394 k) (k2_off387_eq k) (k2_off387_eq k) (k2_off394_eq k) (k2_off387_inb k) (k2_off387_inb k) (k2_off394_inb k) x))
    (fun x => (congrFun (Cert.LibRowStores.cast_add_cast (View.readAt (Elt F) (Memref.whole cc2_scratch6).view (Rect.unit (s := S72x128) (k2_off388 k) S1x16.size (k2_off388_inb k)).toLoadRect ga) (View.readAt (Elt F) (Memref.whole cc2_scratch7).view (Rect.unit (s := S72x128) (k2_off388 k) S1x16.size (k2_off388_inb k)).toLoadRect gb) shapeCasts_S1x16_S16 shapeCasts_S16_S1x16) x).trans
        (Cert.LibRowStores.piece_sum ga gb k.val 48 (by omega) (k2_off388 k) (k2_off388 k) (k2_off395 k) (k2_off388_eq k) (k2_off388_eq k) (k2_off395_eq k) (k2_off388_inb k) (k2_off388_inb k) (k2_off395_inb k) x))
    (fun x => (congrFun (Cert.LibRowStores.cast_add_cast (View.readAt (Elt F) (Memref.whole cc2_scratch6).view (Rect.unit (s := S72x128) (k2_off389 k) S1x16.size (k2_off389_inb k)).toLoadRect ga) (View.readAt (Elt F) (Memref.whole cc2_scratch7).view (Rect.unit (s := S72x128) (k2_off389 k) S1x16.size (k2_off389_inb k)).toLoadRect gb) shapeCasts_S1x16_S16 shapeCasts_S16_S1x16) x).trans
        (Cert.LibRowStores.piece_sum ga gb k.val 64 (by omega) (k2_off389 k) (k2_off389 k) (k2_off396 k) (k2_off389_eq k) (k2_off389_eq k) (k2_off396_eq k) (k2_off389_inb k) (k2_off389_inb k) (k2_off396_inb k) x))
    (fun x => (congrFun (Cert.LibRowStores.cast_add_cast (View.readAt (Elt F) (Memref.whole cc2_scratch6).view (Rect.unit (s := S72x128) (k2_off390 k) S1x16.size (k2_off390_inb k)).toLoadRect ga) (View.readAt (Elt F) (Memref.whole cc2_scratch7).view (Rect.unit (s := S72x128) (k2_off390 k) S1x16.size (k2_off390_inb k)).toLoadRect gb) shapeCasts_S1x16_S16 shapeCasts_S16_S1x16) x).trans
        (Cert.LibRowStores.piece_sum ga gb k.val 80 (by omega) (k2_off390 k) (k2_off390 k) (k2_off397 k) (k2_off390_eq k) (k2_off390_eq k) (k2_off397_eq k) (k2_off390_inb k) (k2_off390_inb k) (k2_off397_inb k) x))
    (fun x => (congrFun (Cert.LibRowStores.cast_add_cast (View.readAt (Elt F) (Memref.whole cc2_scratch6).view (Rect.unit (s := S72x128) (k2_off391 k) S1x16.size (k2_off391_inb k)).toLoadRect ga) (View.readAt (Elt F) (Memref.whole cc2_scratch7).view (Rect.unit (s := S72x128) (k2_off391 k) S1x16.size (k2_off391_inb k)).toLoadRect gb) shapeCasts_S1x16_S16 shapeCasts_S16_S1x16) x).trans
        (Cert.LibRowStores.piece_sum ga gb k.val 84 (by omega) (k2_off391 k) (k2_off391 k) (k2_off398 k) (k2_off391_eq k) (k2_off391_eq k) (k2_off398_eq k) (k2_off391_inb k) (k2_off391_inb k) (k2_off398_inb k) x))
    hp

end Cert.Proof.KI

end
-- ==== Proof.KI.AddLoops8.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 30 to 33 of the thirty-two.
-/
import proofs.«206319_g15771119910948_cont_week2b_672_19_alg».proof.Proof.KI.AddInv
import proofs.«206319_g15771119910948_cont_week2b_672_19_alg».proof.Proof.LibRowStores
import Idealize.ShloMosaic.Lib.Tactic

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t30 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (v473 : BitVec 32) (c14_i32 : BitVec 32) :
    ∀ (k : Fin k2_t30_loop.trips) (acc : Unit), addInvA d L ga gb k.val acc ⊢ wp frame (wpE (defs₀ (F := F)) 𝒱₀ (thr d L) none) Set.univ
      (k2_t30_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 v473 c14_i32 k acc) (addInvA d L ga gb (k.val + 1)) := by
  intro k acc
  unfold addInvA k2_t30_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off406 k) (k2_off407 k) (k2_off408 k) (k2_off409 k) (k2_off410 k) (k2_off411 k) (k2_off412 k)
    (k2_off406_eq k) (k2_off407_eq k) (k2_off408_eq k) (k2_off409_eq k) (k2_off410_eq k) (k2_off411_eq k) (k2_off412_eq k)
    (k2_off406_inb k) (k2_off407_inb k) (k2_off408_inb k) (k2_off409_inb k) (k2_off410_inb k) (k2_off411_inb k) (k2_off412_inb k)
    _ _ _ _ _ _ _
    (fun x => (congrFun (Cert.LibRowStores.cast_add_cast (View.readAt (Elt F) (Memref.whole cc2_scratch4).view (Rect.unit (s := S128x128) (k2_off399 k) S1x16.size (k2_off399_inb k)).toLoadRect ga) (View.readAt (Elt F) (Memref.whole cc2_scratch5).view (Rect.unit (s := S128x128) (k2_off399 k) S1x16.size (k2_off399_inb k)).toLoadRect gb) shapeCasts_S1x16_S16 shapeCasts_S16_S1x16) x).trans
        (Cert.LibRowStores.piece_sum ga gb k.val 0 (by omega) (k2_off399 k) (k2_off399 k) (k2_off406 k) (k2_off399_eq k) (k2_off399_eq k) (k2_off406_eq k) (k2_off399_inb k) (k2_off399_inb k) (k2_off406_inb k) x))
    (fun x => (congrFun (Cert.LibRowStores.cast_add_cast (View.readAt (Elt F) (Memref.whole cc2_scratch4).view (Rect.unit (s := S128x128) (k2_off400 k) S1x16.size (k2_off400_inb k)).toLoadRect ga) (View.readAt (Elt F) (Memref.whole cc2_scratch5).view (Rect.unit (s := S128x128) (k2_off400 k) S1x16.size (k2_off400_inb k)).toLoadRect gb) shapeCasts_S1x16_S16 shapeCasts_S16_S1x16) x).trans
        (Cert.LibRowStores.piece_sum ga gb k.val 16 (by omega) (k2_off400 k) (k2_off400 k) (k2_off407 k) (k2_off400_eq k) (k2_off400_eq k) (k2_off407_eq k) (k2_off400_inb k) (k2_off400_inb k) (k2_off407_inb k) x))
    (fun x => (congrFun (Cert.LibRowStores.cast_add_cast (View.readAt (Elt F) (Memref.whole cc2_scratch4).view (Rect.unit (s := S128x128) (k2_off401 k) S1x16.size (k2_off401_inb k)).toLoadRect ga) (View.readAt (Elt F) (Memref.whole cc2_scratch5).view (Rect.unit (s := S128x128) (k2_off401 k) S1x16.size (k2_off401_inb k)).toLoadRect gb) shapeCasts_S1x16_S16 shapeCasts_S16_S1x16) x).trans
        (Cert.LibRowStores.piece_sum ga gb k.val 32 (by omega) (k2_off401 k) (k2_off401 k) (k2_off408 k) (k2_off401_eq k) (k2_off401_eq k) (k2_off408_eq k) (k2_off401_inb k) (k2_off401_inb k) (k2_off408_inb k) x))
    (fun x => (congrFun (Cert.LibRowStores.cast_add_cast (View.readAt (Elt F) (Memref.whole cc2_scratch4).view (Rect.unit (s := S128x128) (k2_off402 k) S1x16.size (k2_off402_inb k)).toLoadRect ga) (View.readAt (Elt F) (Memref.whole cc2_scratch5).view (Rect.unit (s := S128x128) (k2_off402 k) S1x16.size (k2_off402_inb k)).toLoadRect gb) shapeCasts_S1x16_S16 shapeCasts_S16_S1x16) x).trans
        (Cert.LibRowStores.piece_sum ga gb k.val 48 (by omega) (k2_off402 k) (k2_off402 k) (k2_off409 k) (k2_off402_eq k) (k2_off402_eq k) (k2_off409_eq k) (k2_off402_inb k) (k2_off402_inb k) (k2_off409_inb k) x))
    (fun x => (congrFun (Cert.LibRowStores.cast_add_cast (View.readAt (Elt F) (Memref.whole cc2_scratch4).view (Rect.unit (s := S128x128) (k2_off403 k) S1x16.size (k2_off403_inb k)).toLoadRect ga) (View.readAt (Elt F) (Memref.whole cc2_scratch5).view (Rect.unit (s := S128x128) (k2_off403 k) S1x16.size (k2_off403_inb k)).toLoadRect gb) shapeCasts_S1x16_S16 shapeCasts_S16_S1x16) x).trans
        (Cert.LibRowStores.piece_sum ga gb k.val 64 (by omega) (k2_off403 k) (k2_off403 k) (k2_off410 k) (k2_off403_eq k) (k2_off403_eq k) (k2_off410_eq k) (k2_off403_inb k) (k2_off403_inb k) (k2_off410_inb k) x))
    (fun x => (congrFun (Cert.LibRowStores.cast_add_cast (View.readAt (Elt F) (Memref.whole cc2_scratch4).view (Rect.unit (s := S128x128) (k2_off404 k) S1x16.size (k2_off404_inb k)).toLoadRect ga) (View.readAt (Elt F) (Memref.whole cc2_scratch5).view (Rect.unit (s := S128x128) (k2_off404 k) S1x16.size (k2_off404_inb k)).toLoadRect gb) shapeCasts_S1x16_S16 shapeCasts_S16_S1x16) x).trans
        (Cert.LibRowStores.piece_sum ga gb k.val 80 (by omega) (k2_off404 k) (k2_off404 k) (k2_off411 k) (k2_off404_eq k) (k2_off404_eq k) (k2_off411_eq k) (k2_off404_inb k) (k2_off404_inb k) (k2_off411_inb k) x))
    (fun x => (congrFun (Cert.LibRowStores.cast_add_cast (View.readAt (Elt F) (Memref.whole cc2_scratch4).view (Rect.unit (s := S128x128) (k2_off405 k) S1x16.size (k2_off405_inb k)).toLoadRect ga) (View.readAt (Elt F) (Memref.whole cc2_scratch5).view (Rect.unit (s := S128x128) (k2_off405 k) S1x16.size (k2_off405_inb k)).toLoadRect gb) shapeCasts_S1x16_S16 shapeCasts_S16_S1x16) x).trans
        (Cert.LibRowStores.piece_sum ga gb k.val 84 (by omega) (k2_off405 k) (k2_off405 k) (k2_off412 k) (k2_off405_eq k) (k2_off405_eq k) (k2_off412_eq k) (k2_off405_inb k) (k2_off405_inb k) (k2_off412_inb k) x))
    hp

set_option maxHeartbeats 1000000 in
theorem region_t31 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v476 : BitVec 32) :
    ∀ (k : Fin k2_t31_loop.trips) (acc : Unit), addInvB d L ga gb k.val acc ⊢ wp frame (wpE (defs₀ (F := F)) 𝒱₀ (thr d L) none) Set.univ
      (k2_t31_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v476 k acc) (addInvB d L ga gb (k.val + 1)) := by
  intro k acc
  unfold addInvB k2_t31_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off420 k) (k2_off421 k) (k2_off422 k) (k2_off423 k) (k2_off424 k) (k2_off425 k) (k2_off426 k)
    (k2_off420_eq k) (k2_off421_eq k) (k2_off422_eq k) (k2_off423_eq k) (k2_off424_eq k) (k2_off425_eq k) (k2_off426_eq k)
    (k2_off420_inb k) (k2_off421_inb k) (k2_off422_inb k) (k2_off423_inb k) (k2_off424_inb k) (k2_off425_inb k) (k2_off426_inb k)
    _ _ _ _ _ _ _
    (fun x => (congrFun (Cert.LibRowStores.cast_add_cast (View.readAt (Elt F) (Memref.whole cc2_scratch6).view (Rect.unit (s := S72x128) (k2_off413 k) S1x16.size (k2_off413_inb k)).toLoadRect ga) (View.readAt (Elt F) (Memref.whole cc2_scratch7).view (Rect.unit (s := S72x128) (k2_off413 k) S1x16.size (k2_off413_inb k)).toLoadRect gb) shapeCasts_S1x16_S16 shapeCasts_S16_S1x16) x).trans
        (Cert.LibRowStores.piece_sum ga gb k.val 0 (by omega) (k2_off413 k) (k2_off413 k) (k2_off420 k) (k2_off413_eq k) (k2_off413_eq k) (k2_off420_eq k) (k2_off413_inb k) (k2_off413_inb k) (k2_off420_inb k) x))
    (fun x => (congrFun (Cert.LibRowStores.cast_add_cast (View.readAt (Elt F) (Memref.whole cc2_scratch6).view (Rect.unit (s := S72x128) (k2_off414 k) S1x16.size (k2_off414_inb k)).toLoadRect ga) (View.readAt (Elt F) (Memref.whole cc2_scratch7).view (Rect.unit (s := S72x128) (k2_off414 k) S1x16.size (k2_off414_inb k)).toLoadRect gb) shapeCasts_S1x16_S16 shapeCasts_S16_S1x16) x).trans
        (Cert.LibRowStores.piece_sum ga gb k.val 16 (by omega) (k2_off414 k) (k2_off414 k) (k2_off421 k) (k2_off414_eq k) (k2_off414_eq k) (k2_off421_eq k) (k2_off414_inb k) (k2_off414_inb k) (k2_off421_inb k) x))
    (fun x => (congrFun (Cert.LibRowStores.cast_add_cast (View.readAt (Elt F) (Memref.whole cc2_scratch6).view (Rect.unit (s := S72x128) (k2_off415 k) S1x16.size (k2_off415_inb k)).toLoadRect ga) (View.readAt (Elt F) (Memref.whole cc2_scratch7).view (Rect.unit (s := S72x128) (k2_off415 k) S1x16.size (k2_off415_inb k)).toLoadRect gb) shapeCasts_S1x16_S16 shapeCasts_S16_S1x16) x).trans
        (Cert.LibRowStores.piece_sum ga gb k.val 32 (by omega) (k2_off415 k) (k2_off415 k) (k2_off422 k) (k2_off415_eq k) (k2_off415_eq k) (k2_off422_eq k) (k2_off415_inb k) (k2_off415_inb k) (k2_off422_inb k) x))
    (fun x => (congrFun (Cert.LibRowStores.cast_add_cast (View.readAt (Elt F) (Memref.whole cc2_scratch6).view (Rect.unit (s := S72x128) (k2_off416 k) S1x16.size (k2_off416_inb k)).toLoadRect ga) (View.readAt (Elt F) (Memref.whole cc2_scratch7).view (Rect.unit (s := S72x128) (k2_off416 k) S1x16.size (k2_off416_inb k)).toLoadRect gb) shapeCasts_S1x16_S16 shapeCasts_S16_S1x16) x).trans
        (Cert.LibRowStores.piece_sum ga gb k.val 48 (by omega) (k2_off416 k) (k2_off416 k) (k2_off423 k) (k2_off416_eq k) (k2_off416_eq k) (k2_off423_eq k) (k2_off416_inb k) (k2_off416_inb k) (k2_off423_inb k) x))
    (fun x => (congrFun (Cert.LibRowStores.cast_add_cast (View.readAt (Elt F) (Memref.whole cc2_scratch6).view (Rect.unit (s := S72x128) (k2_off417 k) S1x16.size (k2_off417_inb k)).toLoadRect ga) (View.readAt (Elt F) (Memref.whole cc2_scratch7).view (Rect.unit (s := S72x128) (k2_off417 k) S1x16.size (k2_off417_inb k)).toLoadRect gb) shapeCasts_S1x16_S16 shapeCasts_S16_S1x16) x).trans
        (Cert.LibRowStores.piece_sum ga gb k.val 64 (by omega) (k2_off417 k) (k2_off417 k) (k2_off424 k) (k2_off417_eq k) (k2_off417_eq k) (k2_off424_eq k) (k2_off417_inb k) (k2_off417_inb k) (k2_off424_inb k) x))
    (fun x => (congrFun (Cert.LibRowStores.cast_add_cast (View.readAt (Elt F) (Memref.whole cc2_scratch6).view (Rect.unit (s := S72x128) (k2_off418 k) S1x16.size (k2_off418_inb k)).toLoadRect ga) (View.readAt (Elt F) (Memref.whole cc2_scratch7).view (Rect.unit (s := S72x128) (k2_off418 k) S1x16.size (k2_off418_inb k)).toLoadRect gb) shapeCasts_S1x16_S16 shapeCasts_S16_S1x16) x).trans
        (Cert.LibRowStores.piece_sum ga gb k.val 80 (by omega) (k2_off418 k) (k2_off418 k) (k2_off425 k) (k2_off418_eq k) (k2_off418_eq k) (k2_off425_eq k) (k2_off418_inb k) (k2_off418_inb k) (k2_off425_inb k) x))
    (fun x => (congrFun (Cert.LibRowStores.cast_add_cast (View.readAt (Elt F) (Memref.whole cc2_scratch6).view (Rect.unit (s := S72x128) (k2_off419 k) S1x16.size (k2_off419_inb k)).toLoadRect ga) (View.readAt (Elt F) (Memref.whole cc2_scratch7).view (Rect.unit (s := S72x128) (k2_off419 k) S1x16.size (k2_off419_inb k)).toLoadRect gb) shapeCasts_S1x16_S16 shapeCasts_S16_S1x16) x).trans
        (Cert.LibRowStores.piece_sum ga gb k.val 84 (by omega) (k2_off419 k) (k2_off419 k) (k2_off426 k) (k2_off419_eq k) (k2_off419_eq k) (k2_off426_eq k) (k2_off419_inb k) (k2_off419_inb k) (k2_off426_inb k) x))
    hp

set_option maxHeartbeats 1000000 in
theorem region_t32 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t32_loop.trips) (acc : Unit), addInvA d L ga gb k.val acc ⊢ wp frame (wpE (defs₀ (F := F)) 𝒱₀ (thr d L) none) Set.univ
      (k2_t32_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t32_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off434 k) (k2_off435 k) (k2_off436 k) (k2_off437 k) (k2_off438 k) (k2_off439 k) (k2_off440 k)
    (k2_off434_eq k) (k2_off435_eq k) (k2_off436_eq k) (k2_off437_eq k) (k2_off438_eq k) (k2_off439_eq k) (k2_off440_eq k)
    (k2_off434_inb k) (k2_off435_inb k) (k2_off436_inb k) (k2_off437_inb k) (k2_off438_inb k) (k2_off439_inb k) (k2_off440_inb k)
    _ _ _ _ _ _ _
    (fun x => (congrFun (Cert.LibRowStores.cast_add_cast (View.readAt (Elt F) (Memref.whole cc2_scratch4).view (Rect.unit (s := S128x128) (k2_off427 k) S1x16.size (k2_off427_inb k)).toLoadRect ga) (View.readAt (Elt F) (Memref.whole cc2_scratch5).view (Rect.unit (s := S128x128) (k2_off427 k) S1x16.size (k2_off427_inb k)).toLoadRect gb) shapeCasts_S1x16_S16 shapeCasts_S16_S1x16) x).trans
        (Cert.LibRowStores.piece_sum ga gb k.val 0 (by omega) (k2_off427 k) (k2_off427 k) (k2_off434 k) (k2_off427_eq k) (k2_off427_eq k) (k2_off434_eq k) (k2_off427_inb k) (k2_off427_inb k) (k2_off434_inb k) x))
    (fun x => (congrFun (Cert.LibRowStores.cast_add_cast (View.readAt (Elt F) (Memref.whole cc2_scratch4).view (Rect.unit (s := S128x128) (k2_off428 k) S1x16.size (k2_off428_inb k)).toLoadRect ga) (View.readAt (Elt F) (Memref.whole cc2_scratch5).view (Rect.unit (s := S128x128) (k2_off428 k) S1x16.size (k2_off428_inb k)).toLoadRect gb) shapeCasts_S1x16_S16 shapeCasts_S16_S1x16) x).trans
        (Cert.LibRowStores.piece_sum ga gb k.val 16 (by omega) (k2_off428 k) (k2_off428 k) (k2_off435 k) (k2_off428_eq k) (k2_off428_eq k) (k2_off435_eq k) (k2_off428_inb k) (k2_off428_inb k) (k2_off435_inb k) x))
    (fun x => (congrFun (Cert.LibRowStores.cast_add_cast (View.readAt (Elt F) (Memref.whole cc2_scratch4).view (Rect.unit (s := S128x128) (k2_off429 k) S1x16.size (k2_off429_inb k)).toLoadRect ga) (View.readAt (Elt F) (Memref.whole cc2_scratch5).view (Rect.unit (s := S128x128) (k2_off429 k) S1x16.size (k2_off429_inb k)).toLoadRect gb) shapeCasts_S1x16_S16 shapeCasts_S16_S1x16) x).trans
        (Cert.LibRowStores.piece_sum ga gb k.val 32 (by omega) (k2_off429 k) (k2_off429 k) (k2_off436 k) (k2_off429_eq k) (k2_off429_eq k) (k2_off436_eq k) (k2_off429_inb k) (k2_off429_inb k) (k2_off436_inb k) x))
    (fun x => (congrFun (Cert.LibRowStores.cast_add_cast (View.readAt (Elt F) (Memref.whole cc2_scratch4).view (Rect.unit (s := S128x128) (k2_off430 k) S1x16.size (k2_off430_inb k)).toLoadRect ga) (View.readAt (Elt F) (Memref.whole cc2_scratch5).view (Rect.unit (s := S128x128) (k2_off430 k) S1x16.size (k2_off430_inb k)).toLoadRect gb) shapeCasts_S1x16_S16 shapeCasts_S16_S1x16) x).trans
        (Cert.LibRowStores.piece_sum ga gb k.val 48 (by omega) (k2_off430 k) (k2_off430 k) (k2_off437 k) (k2_off430_eq k) (k2_off430_eq k) (k2_off437_eq k) (k2_off430_inb k) (k2_off430_inb k) (k2_off437_inb k) x))
    (fun x => (congrFun (Cert.LibRowStores.cast_add_cast (View.readAt (Elt F) (Memref.whole cc2_scratch4).view (Rect.unit (s := S128x128) (k2_off431 k) S1x16.size (k2_off431_inb k)).toLoadRect ga) (View.readAt (Elt F) (Memref.whole cc2_scratch5).view (Rect.unit (s := S128x128) (k2_off431 k) S1x16.size (k2_off431_inb k)).toLoadRect gb) shapeCasts_S1x16_S16 shapeCasts_S16_S1x16) x).trans
        (Cert.LibRowStores.piece_sum ga gb k.val 64 (by omega) (k2_off431 k) (k2_off431 k) (k2_off438 k) (k2_off431_eq k) (k2_off431_eq k) (k2_off438_eq k) (k2_off431_inb k) (k2_off431_inb k) (k2_off438_inb k) x))
    (fun x => (congrFun (Cert.LibRowStores.cast_add_cast (View.readAt (Elt F) (Memref.whole cc2_scratch4).view (Rect.unit (s := S128x128) (k2_off432 k) S1x16.size (k2_off432_inb k)).toLoadRect ga) (View.readAt (Elt F) (Memref.whole cc2_scratch5).view (Rect.unit (s := S128x128) (k2_off432 k) S1x16.size (k2_off432_inb k)).toLoadRect gb) shapeCasts_S1x16_S16 shapeCasts_S16_S1x16) x).trans
        (Cert.LibRowStores.piece_sum ga gb k.val 80 (by omega) (k2_off432 k) (k2_off432 k) (k2_off439 k) (k2_off432_eq k) (k2_off432_eq k) (k2_off439_eq k) (k2_off432_inb k) (k2_off432_inb k) (k2_off439_inb k) x))
    (fun x => (congrFun (Cert.LibRowStores.cast_add_cast (View.readAt (Elt F) (Memref.whole cc2_scratch4).view (Rect.unit (s := S128x128) (k2_off433 k) S1x16.size (k2_off433_inb k)).toLoadRect ga) (View.readAt (Elt F) (Memref.whole cc2_scratch5).view (Rect.unit (s := S128x128) (k2_off433 k) S1x16.size (k2_off433_inb k)).toLoadRect gb) shapeCasts_S1x16_S16 shapeCasts_S16_S1x16) x).trans
        (Cert.LibRowStores.piece_sum ga gb k.val 84 (by omega) (k2_off433 k) (k2_off433 k) (k2_off440 k) (k2_off433_eq k) (k2_off433_eq k) (k2_off440_eq k) (k2_off433_inb k) (k2_off433_inb k) (k2_off440_inb k) x))
    hp

set_option maxHeartbeats 1000000 in
theorem region_t33 (d : Dev nD) (L : grid2.Coords) (ga : Buf (Elt F) ((Memref.whole cc2_scratch6).view.loc (thr d L))) (gb : Buf (Elt F) ((Memref.whole cc2_scratch7).view.loc (thr d L)))
    (v2 : BitVec 32) (v4 : BitVec 32) (c0_i32_13 : BitVec 32) (c1_i32 : BitVec 32) (k2_t1 : Fin k2_t1_loop.trips) :
    ∀ (k : Fin k2_t33_loop.trips) (acc : Unit), addInvB d L ga gb k.val acc ⊢ wp frame (wpE (defs₀ (F := F)) 𝒱₀ (thr d L) none) Set.univ
      (k2_t33_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 v4 c0_i32_13 c1_i32 k2_t1 k acc) (addInvB d L ga gb (k.val + 1)) := by
  intro k acc
  unfold addInvB k2_t33_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off448 k) (k2_off449 k) (k2_off450 k) (k2_off451 k) (k2_off452 k) (k2_off453 k) (k2_off454 k)
    (k2_off448_eq k) (k2_off449_eq k) (k2_off450_eq k) (k2_off451_eq k) (k2_off452_eq k) (k2_off453_eq k) (k2_off454_eq k)
    (k2_off448_inb k) (k2_off449_inb k) (k2_off450_inb k) (k2_off451_inb k) (k2_off452_inb k) (k2_off453_inb k) (k2_off454_inb k)
    _ _ _ _ _ _ _
    (fun x => (congrFun (Cert.LibRowStores.cast_add_cast (View.readAt (Elt F) (Memref.whole cc2_scratch6).view (Rect.unit (s := S72x128) (k2_off441 k) S1x16.size (k2_off441_inb k)).toLoadRect ga) (View.readAt (Elt F) (Memref.whole cc2_scratch7).view (Rect.unit (s := S72x128) (k2_off441 k) S1x16.size (k2_off441_inb k)).toLoadRect gb) shapeCasts_S1x16_S16 shapeCasts_S16_S1x16) x).trans
        (Cert.LibRowStores.piece_sum ga gb k.val 0 (by omega) (k2_off441 k) (k2_off441 k) (k2_off448 k) (k2_off441_eq k) (k2_off441_eq k) (k2_off448_eq k) (k2_off441_inb k) (k2_off441_inb k) (k2_off448_inb k) x))
    (fun x => (congrFun (Cert.LibRowStores.cast_add_cast (View.readAt (Elt F) (Memref.whole cc2_scratch6).view (Rect.unit (s := S72x128) (k2_off442 k) S1x16.size (k2_off442_inb k)).toLoadRect ga) (View.readAt (Elt F) (Memref.whole cc2_scratch7).view (Rect.unit (s := S72x128) (k2_off442 k) S1x16.size (k2_off442_inb k)).toLoadRect gb) shapeCasts_S1x16_S16 shapeCasts_S16_S1x16) x).trans
        (Cert.LibRowStores.piece_sum ga gb k.val 16 (by omega) (k2_off442 k) (k2_off442 k) (k2_off449 k) (k2_off442_eq k) (k2_off442_eq k) (k2_off449_eq k) (k2_off442_inb k) (k2_off442_inb k) (k2_off449_inb k) x))
    (fun x => (congrFun (Cert.LibRowStores.cast_add_cast (View.readAt (Elt F) (Memref.whole cc2_scratch6).view (Rect.unit (s := S72x128) (k2_off443 k) S1x16.size (k2_off443_inb k)).toLoadRect ga) (View.readAt (Elt F) (Memref.whole cc2_scratch7).view (Rect.unit (s := S72x128) (k2_off443 k) S1x16.size (k2_off443_inb k)).toLoadRect gb) shapeCasts_S1x16_S16 shapeCasts_S16_S1x16) x).trans
        (Cert.LibRowStores.piece_sum ga gb k.val 32 (by omega) (k2_off443 k) (k2_off443 k) (k2_off450 k) (k2_off443_eq k) (k2_off443_eq k) (k2_off450_eq k) (k2_off443_inb k) (k2_off443_inb k) (k2_off450_inb k) x))
    (fun x => (congrFun (Cert.LibRowStores.cast_add_cast (View.readAt (Elt F) (Memref.whole cc2_scratch6).view (Rect.unit (s := S72x128) (k2_off444 k) S1x16.size (k2_off444_inb k)).toLoadRect ga) (View.readAt (Elt F) (Memref.whole cc2_scratch7).view (Rect.unit (s := S72x128) (k2_off444 k) S1x16.size (k2_off444_inb k)).toLoadRect gb) shapeCasts_S1x16_S16 shapeCasts_S16_S1x16) x).trans
        (Cert.LibRowStores.piece_sum ga gb k.val 48 (by omega) (k2_off444 k) (k2_off444 k) (k2_off451 k) (k2_off444_eq k) (k2_off444_eq k) (k2_off451_eq k) (k2_off444_inb k) (k2_off444_inb k) (k2_off451_inb k) x))
    (fun x => (congrFun (Cert.LibRowStores.cast_add_cast (View.readAt (Elt F) (Memref.whole cc2_scratch6).view (Rect.unit (s := S72x128) (k2_off445 k) S1x16.size (k2_off445_inb k)).toLoadRect ga) (View.readAt (Elt F) (Memref.whole cc2_scratch7).view (Rect.unit (s := S72x128) (k2_off445 k) S1x16.size (k2_off445_inb k)).toLoadRect gb) shapeCasts_S1x16_S16 shapeCasts_S16_S1x16) x).trans
        (Cert.LibRowStores.piece_sum ga gb k.val 64 (by omega) (k2_off445 k) (k2_off445 k) (k2_off452 k) (k2_off445_eq k) (k2_off445_eq k) (k2_off452_eq k) (k2_off445_inb k) (k2_off445_inb k) (k2_off452_inb k) x))
    (fun x => (congrFun (Cert.LibRowStores.cast_add_cast (View.readAt (Elt F) (Memref.whole cc2_scratch6).view (Rect.unit (s := S72x128) (k2_off446 k) S1x16.size (k2_off446_inb k)).toLoadRect ga) (View.readAt (Elt F) (Memref.whole cc2_scratch7).view (Rect.unit (s := S72x128) (k2_off446 k) S1x16.size (k2_off446_inb k)).toLoadRect gb) shapeCasts_S1x16_S16 shapeCasts_S16_S1x16) x).trans
        (Cert.LibRowStores.piece_sum ga gb k.val 80 (by omega) (k2_off446 k) (k2_off446 k) (k2_off453 k) (k2_off446_eq k) (k2_off446_eq k) (k2_off453_eq k) (k2_off446_inb k) (k2_off446_inb k) (k2_off453_inb k) x))
    (fun x => (congrFun (Cert.LibRowStores.cast_add_cast (View.readAt (Elt F) (Memref.whole cc2_scratch6).view (Rect.unit (s := S72x128) (k2_off447 k) S1x16.size (k2_off447_inb k)).toLoadRect ga) (View.readAt (Elt F) (Memref.whole cc2_scratch7).view (Rect.unit (s := S72x128) (k2_off447 k) S1x16.size (k2_off447_inb k)).toLoadRect gb) shapeCasts_S1x16_S16 shapeCasts_S16_S1x16) x).trans
        (Cert.LibRowStores.piece_sum ga gb k.val 84 (by omega) (k2_off447 k) (k2_off447 k) (k2_off454 k) (k2_off447_eq k) (k2_off447_eq k) (k2_off454_eq k) (k2_off447_inb k) (k2_off447_inb k) (k2_off454_inb k) x))
    hp

end Cert.Proof.KI

end
-- ==== Proof.KI.BodyTrip.lean ====
/-
  One trip of the worker's outer loop keeps the loop's invariant. A trip handles sixteen sentences. The 200 positions
  of sentence k come as a chunk of 128 and a chunk of 72: the table rows that the chunk's window of the index list
  names are gathered from both tables (the next chunk's gathers are already under way on the other pair of buffers),
  added entry by entry on the first hundred columns, and the sums are copied to the chunk's rows of the flat result.
  Each chunk moves "the flat result is right on the first n rows of the worker's block" on by the chunk's rows: the
  list window holds the index matrices' entries for exactly those positions, and a gathered row is the table row its
  entry names. After the eighth sentence the second pair of index buffers has landed and the first pair is staged
  again, for the next trip; after the sixteenth the first pair has landed, its first gathers start, and the second
  pair is staged again — the invariant, one trip on. Every word staged is a word of an index matrix, so it names a row
  of its table and the gathers it feeds stay inside the tables.
-/
import proofs.«206319_g15771119910948_cont_week2b_672_19_alg».proof.Proof.KI.BodyTripSpec
import proofs.«206319_g15771119910948_cont_week2b_672_19_alg».proof.Proof.KI.BodyTripLemmas
import proofs.«206319_g15771119910948_cont_week2b_672_19_alg».proof.Proof.KI.BodyValue
import proofs.«206319_g15771119910948_cont_week2b_672_19_alg».proof.Proof.KI.AddLoops1
import proofs.«206319_g15771119910948_cont_week2b_672_19_alg».proof.Proof.KI.AddLoops2
import proofs.«206319_g15771119910948_cont_week2b_672_19_alg».proof.Proof.KI.AddLoops3
import proofs.«206319_g15771119910948_cont_week2b_672_19_alg».proof.Proof.KI.AddLoops4
import proofs.«206319_g15771119910948_cont_week2b_672_19_alg».proof.Proof.KI.AddLoops5
import proofs.«206319_g15771119910948_cont_week2b_672_19_alg».proof.Proof.KI.AddLoops6
import proofs.«206319_g15771119910948_cont_week2b_672_19_alg».proof.Proof.KI.AddLoops7
import proofs.«206319_g15771119910948_cont_week2b_672_19_alg».proof.Proof.KI.AddLoops8
import Idealize.ShloMosaic.Lib.Tactic
import Idealize.ShloMosaic.Lib.Batch

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- A wait recorded at the body's own index keeps "every recorded wait is the caller's or the body's own". -/
theorem waits_insert (W S : Waits sig (HIx 1)) (sm : SemLoc sig) (h : ∀ p ∈ S, p ∈ W ∨ p.2 = none) :
    ∀ p ∈ insert (sm, (default : HIx 1)) S, p ∈ W ∨ p.2 = none :=
  fun p hp => (Finset.mem_insert.mp hp).elim (fun e => Or.inr (e ▸ rfl)) (h p)

set_option maxHeartbeats 16000000 in
/-- One trip: from the invariant at trip w to the invariant at trip w + 1. -/
theorem trip_sound (d : Dev nD) (L : grid2.Coords) (q q' : PosShare TreeShare) (O : CellTallies nD τ sig (HIx 1)) (W : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L)))
    (hwi : ∀ j, (fwi j : BitVec 32).toNat < 100000) (hei : ∀ j, (fei j : BitVec 32).toNat < 1000000) :
    TripSpec d L q q' O W fwi fei fwt fet := by
  intro v2 v4 w acc
  unfold invOuter k2_t1_body
  iintro ⟨%fo, %gA, %gEA, %f2, %f3, %cA, %cB, %f6, %f7, %f8, %f9, %payB, %payEB, %ob, %W', Hmw, Ho, Hs6, Hs7, Hs8, Hs9, HO, Hwi, Hwi', HbatB, Hei, Hei', Hfl8, Hwt, Hwt', Hs4, Hs0, Hfl9, Het, Het', Hs5, Hs1, Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, %hok⟩
  obtain ⟨hgA, hgEA, hpayB, hpayEB, hW', hrA0, hrEA0, hrB0, hrEB0, hG0, hG1, hd_0⟩ := hok
  have hw8 : w.val < 8 := w.isLt
  have hL0 : (L 0).val < 2 := (L 0).isLt
  have hL1 : (L 1).val < 16 := (L 1).isLt
  have hrA : RowsAt gA fwi (R0 L + 16 * w.val) := (sA_lt L w.val hw8) ▸ hrA0
  have hrEA : RowsAt gEA fei (R0 L + 16 * w.val) := (sA_lt L w.val hw8) ▸ hrEA0
  have hrB : RowsAt payB fwi (R0 L + 16 * w.val + 8) := (sB_lt L w.val hw8) ▸ hrB0
  have hrEB : RowsAt payEB fei (R0 L + 16 * w.val + 8) := (sB_lt L w.val hw8) ▸ hrEB0
  have hinA := lt_win0 d L 100000 gA hgA
  have hinEA := lt_win1 d L 1000000 gEA hgEA
  have hinB := lt_winw2 d L 100000 f2 payB hpayB
  have hinEB := lt_winw3 d L 1000000 f3 payEB hpayEB
  have _planB : Transfers.BatchOf (thr d L) (SemLoc.dma (sig := sig) cc2_scratch15.sem) 2 := trivial
  have _planA : Transfers.BatchOf (thr d L) (SemLoc.dma (sig := sig) cc2_scratch14.sem) 2 := trivial
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t2 d L _ _ _ _ _ _
  iintro %_ HI
  unfold addInvA
  icases HI with ⟨Hs4, Hs5, %h8_2, Hs8, %hsum_2⟩
  have hd_1 := chunk_done128 d L fwi fei fwt fet (R0 L) _ _ hd_0 gA gEA (R0 L + 16 * w.val) hrA hrEA (0 : Fin 8) 0 (by decide) _ _ _ _
      hG0
      hG1
      (fun _ => rfl) (fun _ => rfl) h8_2 (fun t c => hsum_2 t c t.isLt)
      (by show _ = ((_ + 0) - _) * 200 + 0; omega) (by show R0 L ≤ _ + 0; omega) (by show _ + 0 < 4096; have := R0_lt L; omega)
      (k2_off17 L w 0#32) ((off17n L w 0 (by decide)).trans (congrArg (fun a => ![R0 L * 200 + a, 0]) (by omega)))
      (k2_off17_inb L w ⟨0, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t3 d L _ _ _ _ _ _
  iintro %_ HI
  unfold addInvB
  icases HI with ⟨Hs6, Hs7, %h9_3, Hs9, %hsum_3⟩
  have hd_2 := chunk_done72 d L fwi fei fwt fet (R0 L) _ _ hd_1 gA gEA (R0 L + 16 * w.val) hrA hrEA (0 : Fin 8) 128 (by decide) _ _ _ _
      (by exact gathered_payload_v0_0 d L fwt gA _ _ _ (0 : Fin 8) 128 (by decide) _ _ rfl rfl _ _ _ _ _)
      (by exact gathered_payload_v1_1 d L fet gEA _ _ _ (0 : Fin 8) 128 (by decide) _ _ rfl rfl _ _ _ _ _)
      (fun i => read_whole_piece6 d L _ _ _ i) (fun i => read_whole_piece7 d L _ _ _ i) h9_3 (fun t c => hsum_3 t c t.isLt)
      (by show _ = ((_ + 0) - _) * 200 + 128; omega) (by show R0 L ≤ _ + 0; omega) (by show _ + 0 < 4096; have := R0_lt L; omega)
      (k2_off32 L w 0#32) ((off32n L w 0 (by decide)).trans (congrArg (fun a => ![R0 L * 200 + a, 0]) (by omega)))
      (k2_off32_inb L w ⟨0, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t4 d L _ _ _
  iintro %_ HI
  unfold addInvA
  icases HI with ⟨Hs4, Hs5, %h8_4, Hs8, %hsum_4⟩
  have hd_3 := chunk_done128 d L fwi fei fwt fet (R0 L) _ _ hd_2 gA gEA (R0 L + 16 * w.val) hrA hrEA (1 : Fin 8) 0 (by decide) _ _ _ _
      (by exact gathered_payload_v0_0 d L fwt gA _ _ _ (1 : Fin 8) 0 (by decide) _ _ rfl rfl _ _ _ _ _)
      (by exact gathered_payload_v1_1 d L fet gEA _ _ _ (1 : Fin 8) 0 (by decide) _ _ rfl rfl _ _ _ _ _)
      (fun i => read_whole_piece4 d L _ _ _ i) (fun i => read_whole_piece5 d L _ _ _ i) h8_4 (fun t c => hsum_4 t c t.isLt)
      (by show _ = ((_ + 1) - _) * 200 + 0; omega) (by show R0 L ≤ _ + 1; omega) (by show _ + 1 < 4096; have := R0_lt L; omega)
      (k2_off17 L w 1#32) ((off17n L w 1 (by decide)).trans (congrArg (fun a => ![R0 L * 200 + a, 0]) (by omega)))
      (k2_off17_inb L w ⟨1, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t5 d L _ _ _ _ _ _
  iintro %_ HI
  unfold addInvB
  icases HI with ⟨Hs6, Hs7, %h9_5, Hs9, %hsum_5⟩
  have hd_4 := chunk_done72 d L fwi fei fwt fet (R0 L) _ _ hd_3 gA gEA (R0 L + 16 * w.val) hrA hrEA (1 : Fin 8) 128 (by decide) _ _ _ _
      (by exact gathered_payload_v0_0 d L fwt gA _ _ _ (1 : Fin 8) 128 (by decide) _ _ rfl rfl _ _ _ _ _)
      (by exact gathered_payload_v1_1 d L fet gEA _ _ _ (1 : Fin 8) 128 (by decide) _ _ rfl rfl _ _ _ _ _)
      (fun i => read_whole_piece6 d L _ _ _ i) (fun i => read_whole_piece7 d L _ _ _ i) h9_5 (fun t c => hsum_5 t c t.isLt)
      (by show _ = ((_ + 1) - _) * 200 + 128; omega) (by show R0 L ≤ _ + 1; omega) (by show _ + 1 < 4096; have := R0_lt L; omega)
      (k2_off32 L w 1#32) ((off32n L w 1 (by decide)).trans (congrArg (fun a => ![R0 L * 200 + a, 0]) (by omega)))
      (k2_off32_inb L w ⟨1, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t6 d L _ _ _
  iintro %_ HI
  unfold addInvA
  icases HI with ⟨Hs4, Hs5, %h8_6, Hs8, %hsum_6⟩
  have hd_5 := chunk_done128 d L fwi fei fwt fet (R0 L) _ _ hd_4 gA gEA (R0 L + 16 * w.val) hrA hrEA (2 : Fin 8) 0 (by decide) _ _ _ _
      (by exact gathered_payload_v0_0 d L fwt gA _ _ _ (2 : Fin 8) 0 (by decide) _ _ rfl rfl _ _ _ _ _)
      (by exact gathered_payload_v1_1 d L fet gEA _ _ _ (2 : Fin 8) 0 (by decide) _ _ rfl rfl _ _ _ _ _)
      (fun i => read_whole_piece4 d L _ _ _ i) (fun i => read_whole_piece5 d L _ _ _ i) h8_6 (fun t c => hsum_6 t c t.isLt)
      (by show _ = ((_ + 2) - _) * 200 + 0; omega) (by show R0 L ≤ _ + 2; omega) (by show _ + 2 < 4096; have := R0_lt L; omega)
      (k2_off17 L w 2#32) ((off17n L w 2 (by decide)).trans (congrArg (fun a => ![R0 L * 200 + a, 0]) (by omega)))
      (k2_off17_inb L w ⟨2, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t7 d L _ _ _ _ _ _ _ _
  iintro %_ HI
  unfold addInvB
  icases HI with ⟨Hs6, Hs7, %h9_7, Hs9, %hsum_7⟩
  have hd_6 := chunk_done72 d L fwi fei fwt fet (R0 L) _ _ hd_5 gA gEA (R0 L + 16 * w.val) hrA hrEA (2 : Fin 8) 128 (by decide) _ _ _ _
      (by exact gathered_payload_v0_0 d L fwt gA _ _ _ (2 : Fin 8) 128 (by decide) _ _ rfl rfl _ _ _ _ _)
      (by exact gathered_payload_v1_1 d L fet gEA _ _ _ (2 : Fin 8) 128 (by decide) _ _ rfl rfl _ _ _ _ _)
      (fun i => read_whole_piece6 d L _ _ _ i) (fun i => read_whole_piece7 d L _ _ _ i) h9_7 (fun t c => hsum_7 t c t.isLt)
      (by show _ = ((_ + 2) - _) * 200 + 128; omega) (by show R0 L ≤ _ + 2; omega) (by show _ + 2 < 4096; have := R0_lt L; omega)
      (k2_off32 L w 2#32) ((off32n L w 2 (by decide)).trans (congrArg (fun a => ![R0 L * 200 + a, 0]) (by omega)))
      (k2_off32_inb L w ⟨2, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t8 d L _ _ _ _ _ _ _ _
  iintro %_ HI
  unfold addInvA
  icases HI with ⟨Hs4, Hs5, %h8_8, Hs8, %hsum_8⟩
  have hd_7 := chunk_done128 d L fwi fei fwt fet (R0 L) _ _ hd_6 gA gEA (R0 L + 16 * w.val) hrA hrEA (3 : Fin 8) 0 (by decide) _ _ _ _
      (by exact gathered_payload_v0_0 d L fwt gA _ _ _ (3 : Fin 8) 0 (by decide) _ _ rfl rfl _ _ _ _ _)
      (by exact gathered_payload_v1_1 d L fet gEA _ _ _ (3 : Fin 8) 0 (by decide) _ _ rfl rfl _ _ _ _ _)
      (fun i => read_whole_piece4 d L _ _ _ i) (fun i => read_whole_piece5 d L _ _ _ i) h8_8 (fun t c => hsum_8 t c t.isLt)
      (by show _ = ((_ + 3) - _) * 200 + 0; omega) (by show R0 L ≤ _ + 3; omega) (by show _ + 3 < 4096; have := R0_lt L; omega)
      (k2_off17 L w 3#32) ((off17n L w 3 (by decide)).trans (congrArg (fun a => ![R0 L * 200 + a, 0]) (by omega)))
      (k2_off17_inb L w ⟨3, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t9 d L _ _ _ _
  iintro %_ HI
  unfold addInvB
  icases HI with ⟨Hs6, Hs7, %h9_9, Hs9, %hsum_9⟩
  have hd_8 := chunk_done72 d L fwi fei fwt fet (R0 L) _ _ hd_7 gA gEA (R0 L + 16 * w.val) hrA hrEA (3 : Fin 8) 128 (by decide) _ _ _ _
      (by exact gathered_payload_v0_0 d L fwt gA _ _ _ (3 : Fin 8) 128 (by decide) _ _ rfl rfl _ _ _ _ _)
      (by exact gathered_payload_v1_1 d L fet gEA _ _ _ (3 : Fin 8) 128 (by decide) _ _ rfl rfl _ _ _ _ _)
      (fun i => read_whole_piece6 d L _ _ _ i) (fun i => read_whole_piece7 d L _ _ _ i) h9_9 (fun t c => hsum_9 t c t.isLt)
      (by show _ = ((_ + 3) - _) * 200 + 128; omega) (by show R0 L ≤ _ + 3; omega) (by show _ + 3 < 4096; have := R0_lt L; omega)
      (k2_off32 L w 3#32) ((off32n L w 3 (by decide)).trans (congrArg (fun a => ![R0 L * 200 + a, 0]) (by omega)))
      (k2_off32_inb L w ⟨3, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t10 d L _ _ _ _ _
  iintro %_ HI
  unfold addInvA
  icases HI with ⟨Hs4, Hs5, %h8_10, Hs8, %hsum_10⟩
  have hd_9 := chunk_done128 d L fwi fei fwt fet (R0 L) _ _ hd_8 gA gEA (R0 L + 16 * w.val) hrA hrEA (4 : Fin 8) 0 (by decide) _ _ _ _
      (by exact gathered_payload_v0_0 d L fwt gA _ _ _ (4 : Fin 8) 0 (by decide) _ _ rfl rfl _ _ _ _ _)
      (by exact gathered_payload_v1_1 d L fet gEA _ _ _ (4 : Fin 8) 0 (by decide) _ _ rfl rfl _ _ _ _ _)
      (fun i => read_whole_piece4 d L _ _ _ i) (fun i => read_whole_piece5 d L _ _ _ i) h8_10 (fun t c => hsum_10 t c t.isLt)
      (by show _ = ((_ + 4) - _) * 200 + 0; omega) (by show R0 L ≤ _ + 4; omega) (by show _ + 4 < 4096; have := R0_lt L; omega)
      (k2_off17 L w 4#32) ((off17n L w 4 (by decide)).trans (congrArg (fun a => ![R0 L * 200 + a, 0]) (by omega)))
      (k2_off17_inb L w ⟨4, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t11 d L _ _ _ _ _ _
  iintro %_ HI
  unfold addInvB
  icases HI with ⟨Hs6, Hs7, %h9_11, Hs9, %hsum_11⟩
  have hd_10 := chunk_done72 d L fwi fei fwt fet (R0 L) _ _ hd_9 gA gEA (R0 L + 16 * w.val) hrA hrEA (4 : Fin 8) 128 (by decide) _ _ _ _
      (by exact gathered_payload_v0_0 d L fwt gA _ _ _ (4 : Fin 8) 128 (by decide) _ _ rfl rfl _ _ _ _ _)
      (by exact gathered_payload_v1_1 d L fet gEA _ _ _ (4 : Fin 8) 128 (by decide) _ _ rfl rfl _ _ _ _ _)
      (fun i => read_whole_piece6 d L _ _ _ i) (fun i => read_whole_piece7 d L _ _ _ i) h9_11 (fun t c => hsum_11 t c t.isLt)
      (by show _ = ((_ + 4) - _) * 200 + 128; omega) (by show R0 L ≤ _ + 4; omega) (by show _ + 4 < 4096; have := R0_lt L; omega)
      (k2_off32 L w 4#32) ((off32n L w 4 (by decide)).trans (congrArg (fun a => ![R0 L * 200 + a, 0]) (by omega)))
      (k2_off32_inb L w ⟨4, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t12 d L _ _ _
  iintro %_ HI
  unfold addInvA
  icases HI with ⟨Hs4, Hs5, %h8_12, Hs8, %hsum_12⟩
  have hd_11 := chunk_done128 d L fwi fei fwt fet (R0 L) _ _ hd_10 gA gEA (R0 L + 16 * w.val) hrA hrEA (5 : Fin 8) 0 (by decide) _ _ _ _
      (by exact gathered_payload_v0_0 d L fwt gA _ _ _ (5 : Fin 8) 0 (by decide) _ _ rfl rfl _ _ _ _ _)
      (by exact gathered_payload_v1_1 d L fet gEA _ _ _ (5 : Fin 8) 0 (by decide) _ _ rfl rfl _ _ _ _ _)
      (fun i => read_whole_piece4 d L _ _ _ i) (fun i => read_whole_piece5 d L _ _ _ i) h8_12 (fun t c => hsum_12 t c t.isLt)
      (by show _ = ((_ + 5) - _) * 200 + 0; omega) (by show R0 L ≤ _ + 5; omega) (by show _ + 5 < 4096; have := R0_lt L; omega)
      (k2_off17 L w 5#32) ((off17n L w 5 (by decide)).trans (congrArg (fun a => ![R0 L * 200 + a, 0]) (by omega)))
      (k2_off17_inb L w ⟨5, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t13 d L _ _ _ _ _ _
  iintro %_ HI
  unfold addInvB
  icases HI with ⟨Hs6, Hs7, %h9_13, Hs9, %hsum_13⟩
  have hd_12 := chunk_done72 d L fwi fei fwt fet (R0 L) _ _ hd_11 gA gEA (R0 L + 16 * w.val) hrA hrEA (5 : Fin 8) 128 (by decide) _ _ _ _
      (by exact gathered_payload_v0_0 d L fwt gA _ _ _ (5 : Fin 8) 128 (by decide) _ _ rfl rfl _ _ _ _ _)
      (by exact gathered_payload_v1_1 d L fet gEA _ _ _ (5 : Fin 8) 128 (by decide) _ _ rfl rfl _ _ _ _ _)
      (fun i => read_whole_piece6 d L _ _ _ i) (fun i => read_whole_piece7 d L _ _ _ i) h9_13 (fun t c => hsum_13 t c t.isLt)
      (by show _ = ((_ + 5) - _) * 200 + 128; omega) (by show R0 L ≤ _ + 5; omega) (by show _ + 5 < 4096; have := R0_lt L; omega)
      (k2_off32 L w 5#32) ((off32n L w 5 (by decide)).trans (congrArg (fun a => ![R0 L * 200 + a, 0]) (by omega)))
      (k2_off32_inb L w ⟨5, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t14 d L _ _ _
  iintro %_ HI
  unfold addInvA
  icases HI with ⟨Hs4, Hs5, %h8_14, Hs8, %hsum_14⟩
  have hd_13 := chunk_done128 d L fwi fei fwt fet (R0 L) _ _ hd_12 gA gEA (R0 L + 16 * w.val) hrA hrEA (6 : Fin 8) 0 (by decide) _ _ _ _
      (by exact gathered_payload_v0_0 d L fwt gA _ _ _ (6 : Fin 8) 0 (by decide) _ _ rfl rfl _ _ _ _ _)
      (by exact gathered_payload_v1_1 d L fet gEA _ _ _ (6 : Fin 8) 0 (by decide) _ _ rfl rfl _ _ _ _ _)
      (fun i => read_whole_piece4 d L _ _ _ i) (fun i => read_whole_piece5 d L _ _ _ i) h8_14 (fun t c => hsum_14 t c t.isLt)
      (by show _ = ((_ + 6) - _) * 200 + 0; omega) (by show R0 L ≤ _ + 6; omega) (by show _ + 6 < 4096; have := R0_lt L; omega)
      (k2_off17 L w 6#32) ((off17n L w 6 (by decide)).trans (congrArg (fun a => ![R0 L * 200 + a, 0]) (by omega)))
      (k2_off17_inb L w ⟨6, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t15 d L _ _ _ _ _ _ _ _
  iintro %_ HI
  unfold addInvB
  icases HI with ⟨Hs6, Hs7, %h9_15, Hs9, %hsum_15⟩
  have hd_14 := chunk_done72 d L fwi fei fwt fet (R0 L) _ _ hd_13 gA gEA (R0 L + 16 * w.val) hrA hrEA (6 : Fin 8) 128 (by decide) _ _ _ _
      (by exact gathered_payload_v0_0 d L fwt gA _ _ _ (6 : Fin 8) 128 (by decide) _ _ rfl rfl _ _ _ _ _)
      (by exact gathered_payload_v1_1 d L fet gEA _ _ _ (6 : Fin 8) 128 (by decide) _ _ rfl rfl _ _ _ _ _)
      (fun i => read_whole_piece6 d L _ _ _ i) (fun i => read_whole_piece7 d L _ _ _ i) h9_15 (fun t c => hsum_15 t c t.isLt)
      (by show _ = ((_ + 6) - _) * 200 + 128; omega) (by show R0 L ≤ _ + 6; omega) (by show _ + 6 < 4096; have := R0_lt L; omega)
      (k2_off32 L w 6#32) ((off32n L w 6 (by decide)).trans (congrArg (fun a => ![R0 L * 200 + a, 0]) (by omega)))
      (k2_off32_inb L w ⟨6, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t16 d L _ _ _ _ _ _ _ _
  iintro %_ HI
  unfold addInvA
  icases HI with ⟨Hs4, Hs5, %h8_16, Hs8, %hsum_16⟩
  have hd_15 := chunk_done128 d L fwi fei fwt fet (R0 L) _ _ hd_14 gA gEA (R0 L + 16 * w.val) hrA hrEA (7 : Fin 8) 0 (by decide) _ _ _ _
      (by exact gathered_payload_v0_0 d L fwt gA _ _ _ (7 : Fin 8) 0 (by decide) _ _ rfl rfl _ _ _ _ _)
      (by exact gathered_payload_v1_1 d L fet gEA _ _ _ (7 : Fin 8) 0 (by decide) _ _ rfl rfl _ _ _ _ _)
      (fun i => read_whole_piece4 d L _ _ _ i) (fun i => read_whole_piece5 d L _ _ _ i) h8_16 (fun t c => hsum_16 t c t.isLt)
      (by show _ = ((_ + 7) - _) * 200 + 0; omega) (by show R0 L ≤ _ + 7; omega) (by show _ + 7 < 4096; have := R0_lt L; omega)
      (k2_off17 L w 7#32) ((off17n L w 7 (by decide)).trans (congrArg (fun a => ![R0 L * 200 + a, 0]) (by omega)))
      (k2_off17_inb L w ⟨7, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t17 d L _ _ _
  iintro %_ HI
  unfold addInvB
  icases HI with ⟨Hs6, Hs7, %h9_17, Hs9, %hsum_17⟩
  have hd_16 := chunk_done72 d L fwi fei fwt fet (R0 L) _ _ hd_15 gA gEA (R0 L + 16 * w.val) hrA hrEA (7 : Fin 8) 128 (by decide) _ _ _ _
      (by exact gathered_payload_v0_0 d L fwt gA _ _ _ (7 : Fin 8) 128 (by decide) _ _ rfl rfl _ _ _ _ _)
      (by exact gathered_payload_v1_1 d L fet gEA _ _ _ (7 : Fin 8) 128 (by decide) _ _ rfl rfl _ _ _ _ _)
      (fun i => read_whole_piece6 d L _ _ _ i) (fun i => read_whole_piece7 d L _ _ _ i) h9_17 (fun t c => hsum_17 t c t.isLt)
      (by show _ = ((_ + 7) - _) * 200 + 128; omega) (by show R0 L ≤ _ + 7; omega) (by show _ + 7 < 4096; have := R0_lt L; omega)
      (k2_off32 L w 7#32) ((off32n L w 7 (by decide)).trans (congrArg (fun a => ![R0 L * 200 + a, 0]) (by omega)))
      (k2_off32_inb L w ⟨7, by decide⟩) (fun _ => rfl)
  sl_exec_parts
  have hpA : ∀ j, (trip_sound.sl.dma1 d L fwi w j : BitVec 32).toNat < 100000 := fun j => by unfold trip_sound.sl.dma1; exact hwi _
  have hinA' := lt_winw0 d L 100000 gA _ hpA
  have hpEA : ∀ j, (trip_sound.sl.dma2 d L fei w j : BitVec 32).toNat < 1000000 := fun j => by unfold trip_sound.sl.dma2; exact hei _
  have hinEA' := lt_winw1 d L 1000000 gEA _ hpEA
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t18 d L _ _ _
  iintro %_ HI
  unfold addInvA
  icases HI with ⟨Hs4, Hs5, %h8_18, Hs8, %hsum_18⟩
  have hd_17 := chunk_done128 d L fwi fei fwt fet (R0 L) _ _ hd_16 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (0 : Fin 8) 0 (by decide) _ _ _ _
      (by exact gathered_payload_v0_2 d L fwt (View.write (Elt F) (Memref.whole cc2_scratch2).view f2 payB Finset.univ) _ _ _ (0 : Fin 8) 0 (by decide) _ _ rfl rfl _ _ _ _ _)
      (by exact gathered_payload_v1_3 d L fet (View.write (Elt F) (Memref.whole cc2_scratch3).view f3 payEB Finset.univ) _ _ _ (0 : Fin 8) 0 (by decide) _ _ rfl rfl _ _ _ _ _)
      (fun i => read_whole_piece4 d L _ _ _ i) (fun i => read_whole_piece5 d L _ _ _ i) h8_18 (fun t c => hsum_18 t c t.isLt)
      (by show _ = ((_ + 0) - _) * 200 + 0; omega) (by show R0 L ≤ _ + 0; omega) (by show _ + 0 < 4096; have := R0_lt L; omega)
      (k2_off17 L w 8#32) ((off17n L w 8 (by decide)).trans (congrArg (fun a => ![R0 L * 200 + a, 0]) (by omega)))
      (k2_off17_inb L w ⟨8, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t19 d L _ _ _
  iintro %_ HI
  unfold addInvB
  icases HI with ⟨Hs6, Hs7, %h9_19, Hs9, %hsum_19⟩
  have hd_18 := chunk_done72 d L fwi fei fwt fet (R0 L) _ _ hd_17 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (0 : Fin 8) 128 (by decide) _ _ _ _
      (by exact gathered_payload_v0_2 d L fwt (View.write (Elt F) (Memref.whole cc2_scratch2).view f2 payB Finset.univ) _ _ _ (0 : Fin 8) 128 (by decide) _ _ rfl rfl _ _ _ _ _)
      (by exact gathered_payload_v1_3 d L fet (View.write (Elt F) (Memref.whole cc2_scratch3).view f3 payEB Finset.univ) _ _ _ (0 : Fin 8) 128 (by decide) _ _ rfl rfl _ _ _ _ _)
      (fun i => read_whole_piece6 d L _ _ _ i) (fun i => read_whole_piece7 d L _ _ _ i) h9_19 (fun t c => hsum_19 t c t.isLt)
      (by show _ = ((_ + 0) - _) * 200 + 128; omega) (by show R0 L ≤ _ + 0; omega) (by show _ + 0 < 4096; have := R0_lt L; omega)
      (k2_off32 L w 8#32) ((off32n L w 8 (by decide)).trans (congrArg (fun a => ![R0 L * 200 + a, 0]) (by omega)))
      (k2_off32_inb L w ⟨8, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t20 d L _ _ _ _ _ _
  iintro %_ HI
  unfold addInvA
  icases HI with ⟨Hs4, Hs5, %h8_20, Hs8, %hsum_20⟩
  have hd_19 := chunk_done128 d L fwi fei fwt fet (R0 L) _ _ hd_18 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (1 : Fin 8) 0 (by decide) _ _ _ _
      (by exact gathered_payload_v0_2 d L fwt (View.write (Elt F) (Memref.whole cc2_scratch2).view f2 payB Finset.univ) _ _ _ (1 : Fin 8) 0 (by decide) _ _ rfl rfl _ _ _ _ _)
      (by exact gathered_payload_v1_3 d L fet (View.write (Elt F) (Memref.whole cc2_scratch3).view f3 payEB Finset.univ) _ _ _ (1 : Fin 8) 0 (by decide) _ _ rfl rfl _ _ _ _ _)
      (fun i => read_whole_piece4 d L _ _ _ i) (fun i => read_whole_piece5 d L _ _ _ i) h8_20 (fun t c => hsum_20 t c t.isLt)
      (by show _ = ((_ + 1) - _) * 200 + 0; omega) (by show R0 L ≤ _ + 1; omega) (by show _ + 1 < 4096; have := R0_lt L; omega)
      (k2_off17 L w 9#32) ((off17n L w 9 (by decide)).trans (congrArg (fun a => ![R0 L * 200 + a, 0]) (by omega)))
      (k2_off17_inb L w ⟨9, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t21 d L _ _ _ _ _
  iintro %_ HI
  unfold addInvB
  icases HI with ⟨Hs6, Hs7, %h9_21, Hs9, %hsum_21⟩
  have hd_20 := chunk_done72 d L fwi fei fwt fet (R0 L) _ _ hd_19 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (1 : Fin 8) 128 (by decide) _ _ _ _
      (by exact gathered_payload_v0_2 d L fwt (View.write (Elt F) (Memref.whole cc2_scratch2).view f2 payB Finset.univ) _ _ _ (1 : Fin 8) 128 (by decide) _ _ rfl rfl _ _ _ _ _)
      (by exact gathered_payload_v1_3 d L fet (View.write (Elt F) (Memref.whole cc2_scratch3).view f3 payEB Finset.univ) _ _ _ (1 : Fin 8) 128 (by decide) _ _ rfl rfl _ _ _ _ _)
      (fun i => read_whole_piece6 d L _ _ _ i) (fun i => read_whole_piece7 d L _ _ _ i) h9_21 (fun t c => hsum_21 t c t.isLt)
      (by show _ = ((_ + 1) - _) * 200 + 128; omega) (by show R0 L ≤ _ + 1; omega) (by show _ + 1 < 4096; have := R0_lt L; omega)
      (k2_off32 L w 9#32) ((off32n L w 9 (by decide)).trans (congrArg (fun a => ![R0 L * 200 + a, 0]) (by omega)))
      (k2_off32_inb L w ⟨9, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t22 d L _ _ _ _ _ _
  iintro %_ HI
  unfold addInvA
  icases HI with ⟨Hs4, Hs5, %h8_22, Hs8, %hsum_22⟩
  have hd_21 := chunk_done128 d L fwi fei fwt fet (R0 L) _ _ hd_20 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (2 : Fin 8) 0 (by decide) _ _ _ _
      (by exact gathered_payload_v0_2 d L fwt (View.write (Elt F) (Memref.whole cc2_scratch2).view f2 payB Finset.univ) _ _ _ (2 : Fin 8) 0 (by decide) _ _ rfl rfl _ _ _ _ _)
      (by exact gathered_payload_v1_3 d L fet (View.write (Elt F) (Memref.whole cc2_scratch3).view f3 payEB Finset.univ) _ _ _ (2 : Fin 8) 0 (by decide) _ _ rfl rfl _ _ _ _ _)
      (fun i => read_whole_piece4 d L _ _ _ i) (fun i => read_whole_piece5 d L _ _ _ i) h8_22 (fun t c => hsum_22 t c t.isLt)
      (by show _ = ((_ + 2) - _) * 200 + 0; omega) (by show R0 L ≤ _ + 2; omega) (by show _ + 2 < 4096; have := R0_lt L; omega)
      (k2_off17 L w 10#32) ((off17n L w 10 (by decide)).trans (congrArg (fun a => ![R0 L * 200 + a, 0]) (by omega)))
      (k2_off17_inb L w ⟨10, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t23 d L _ _ _ _ _ _
  iintro %_ HI
  unfold addInvB
  icases HI with ⟨Hs6, Hs7, %h9_23, Hs9, %hsum_23⟩
  have hd_22 := chunk_done72 d L fwi fei fwt fet (R0 L) _ _ hd_21 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (2 : Fin 8) 128 (by decide) _ _ _ _
      (by exact gathered_payload_v0_2 d L fwt (View.write (Elt F) (Memref.whole cc2_scratch2).view f2 payB Finset.univ) _ _ _ (2 : Fin 8) 128 (by decide) _ _ rfl rfl _ _ _ _ _)
      (by exact gathered_payload_v1_3 d L fet (View.write (Elt F) (Memref.whole cc2_scratch3).view f3 payEB Finset.univ) _ _ _ (2 : Fin 8) 128 (by decide) _ _ rfl rfl _ _ _ _ _)
      (fun i => read_whole_piece6 d L _ _ _ i) (fun i => read_whole_piece7 d L _ _ _ i) h9_23 (fun t c => hsum_23 t c t.isLt)
      (by show _ = ((_ + 2) - _) * 200 + 128; omega) (by show R0 L ≤ _ + 2; omega) (by show _ + 2 < 4096; have := R0_lt L; omega)
      (k2_off32 L w 10#32) ((off32n L w 10 (by decide)).trans (congrArg (fun a => ![R0 L * 200 + a, 0]) (by omega)))
      (k2_off32_inb L w ⟨10, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t24 d L _ _ _
  iintro %_ HI
  unfold addInvA
  icases HI with ⟨Hs4, Hs5, %h8_24, Hs8, %hsum_24⟩
  have hd_23 := chunk_done128 d L fwi fei fwt fet (R0 L) _ _ hd_22 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (3 : Fin 8) 0 (by decide) _ _ _ _
      (by exact gathered_payload_v0_2 d L fwt (View.write (Elt F) (Memref.whole cc2_scratch2).view f2 payB Finset.univ) _ _ _ (3 : Fin 8) 0 (by decide) _ _ rfl rfl _ _ _ _ _)
      (by exact gathered_payload_v1_3 d L fet (View.write (Elt F) (Memref.whole cc2_scratch3).view f3 payEB Finset.univ) _ _ _ (3 : Fin 8) 0 (by decide) _ _ rfl rfl _ _ _ _ _)
      (fun i => read_whole_piece4 d L _ _ _ i) (fun i => read_whole_piece5 d L _ _ _ i) h8_24 (fun t c => hsum_24 t c t.isLt)
      (by show _ = ((_ + 3) - _) * 200 + 0; omega) (by show R0 L ≤ _ + 3; omega) (by show _ + 3 < 4096; have := R0_lt L; omega)
      (k2_off17 L w 11#32) ((off17n L w 11 (by decide)).trans (congrArg (fun a => ![R0 L * 200 + a, 0]) (by omega)))
      (k2_off17_inb L w ⟨11, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t25 d L _ _ _ _ _ _
  iintro %_ HI
  unfold addInvB
  icases HI with ⟨Hs6, Hs7, %h9_25, Hs9, %hsum_25⟩
  have hd_24 := chunk_done72 d L fwi fei fwt fet (R0 L) _ _ hd_23 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (3 : Fin 8) 128 (by decide) _ _ _ _
      (by exact gathered_payload_v0_2 d L fwt (View.write (Elt F) (Memref.whole cc2_scratch2).view f2 payB Finset.univ) _ _ _ (3 : Fin 8) 128 (by decide) _ _ rfl rfl _ _ _ _ _)
      (by exact gathered_payload_v1_3 d L fet (View.write (Elt F) (Memref.whole cc2_scratch3).view f3 payEB Finset.univ) _ _ _ (3 : Fin 8) 128 (by decide) _ _ rfl rfl _ _ _ _ _)
      (fun i => read_whole_piece6 d L _ _ _ i) (fun i => read_whole_piece7 d L _ _ _ i) h9_25 (fun t c => hsum_25 t c t.isLt)
      (by show _ = ((_ + 3) - _) * 200 + 128; omega) (by show R0 L ≤ _ + 3; omega) (by show _ + 3 < 4096; have := R0_lt L; omega)
      (k2_off32 L w 11#32) ((off32n L w 11 (by decide)).trans (congrArg (fun a => ![R0 L * 200 + a, 0]) (by omega)))
      (k2_off32_inb L w ⟨11, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t26 d L _ _ _
  iintro %_ HI
  unfold addInvA
  icases HI with ⟨Hs4, Hs5, %h8_26, Hs8, %hsum_26⟩
  have hd_25 := chunk_done128 d L fwi fei fwt fet (R0 L) _ _ hd_24 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (4 : Fin 8) 0 (by decide) _ _ _ _
      (by exact gathered_payload_v0_2 d L fwt (View.write (Elt F) (Memref.whole cc2_scratch2).view f2 payB Finset.univ) _ _ _ (4 : Fin 8) 0 (by decide) _ _ rfl rfl _ _ _ _ _)
      (by exact gathered_payload_v1_3 d L fet (View.write (Elt F) (Memref.whole cc2_scratch3).view f3 payEB Finset.univ) _ _ _ (4 : Fin 8) 0 (by decide) _ _ rfl rfl _ _ _ _ _)
      (fun i => read_whole_piece4 d L _ _ _ i) (fun i => read_whole_piece5 d L _ _ _ i) h8_26 (fun t c => hsum_26 t c t.isLt)
      (by show _ = ((_ + 4) - _) * 200 + 0; omega) (by show R0 L ≤ _ + 4; omega) (by show _ + 4 < 4096; have := R0_lt L; omega)
      (k2_off17 L w 12#32) ((off17n L w 12 (by decide)).trans (congrArg (fun a => ![R0 L * 200 + a, 0]) (by omega)))
      (k2_off17_inb L w ⟨12, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t27 d L _ _ _
  iintro %_ HI
  unfold addInvB
  icases HI with ⟨Hs6, Hs7, %h9_27, Hs9, %hsum_27⟩
  have hd_26 := chunk_done72 d L fwi fei fwt fet (R0 L) _ _ hd_25 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (4 : Fin 8) 128 (by decide) _ _ _ _
      (by exact gathered_payload_v0_2 d L fwt (View.write (Elt F) (Memref.whole cc2_scratch2).view f2 payB Finset.univ) _ _ _ (4 : Fin 8) 128 (by decide) _ _ rfl rfl _ _ _ _ _)
      (by exact gathered_payload_v1_3 d L fet (View.write (Elt F) (Memref.whole cc2_scratch3).view f3 payEB Finset.univ) _ _ _ (4 : Fin 8) 128 (by decide) _ _ rfl rfl _ _ _ _ _)
      (fun i => read_whole_piece6 d L _ _ _ i) (fun i => read_whole_piece7 d L _ _ _ i) h9_27 (fun t c => hsum_27 t c t.isLt)
      (by show _ = ((_ + 4) - _) * 200 + 128; omega) (by show R0 L ≤ _ + 4; omega) (by show _ + 4 < 4096; have := R0_lt L; omega)
      (k2_off32 L w 12#32) ((off32n L w 12 (by decide)).trans (congrArg (fun a => ![R0 L * 200 + a, 0]) (by omega)))
      (k2_off32_inb L w ⟨12, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t28 d L _ _ _ _ _ _
  iintro %_ HI
  unfold addInvA
  icases HI with ⟨Hs4, Hs5, %h8_28, Hs8, %hsum_28⟩
  have hd_27 := chunk_done128 d L fwi fei fwt fet (R0 L) _ _ hd_26 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (5 : Fin 8) 0 (by decide) _ _ _ _
      (by exact gathered_payload_v0_2 d L fwt (View.write (Elt F) (Memref.whole cc2_scratch2).view f2 payB Finset.univ) _ _ _ (5 : Fin 8) 0 (by decide) _ _ rfl rfl _ _ _ _ _)
      (by exact gathered_payload_v1_3 d L fet (View.write (Elt F) (Memref.whole cc2_scratch3).view f3 payEB Finset.univ) _ _ _ (5 : Fin 8) 0 (by decide) _ _ rfl rfl _ _ _ _ _)
      (fun i => read_whole_piece4 d L _ _ _ i) (fun i => read_whole_piece5 d L _ _ _ i) h8_28 (fun t c => hsum_28 t c t.isLt)
      (by show _ = ((_ + 5) - _) * 200 + 0; omega) (by show R0 L ≤ _ + 5; omega) (by show _ + 5 < 4096; have := R0_lt L; omega)
      (k2_off17 L w 13#32) ((off17n L w 13 (by decide)).trans (congrArg (fun a => ![R0 L * 200 + a, 0]) (by omega)))
      (k2_off17_inb L w ⟨13, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t29 d L _ _ _ _ _
  iintro %_ HI
  unfold addInvB
  icases HI with ⟨Hs6, Hs7, %h9_29, Hs9, %hsum_29⟩
  have hd_28 := chunk_done72 d L fwi fei fwt fet (R0 L) _ _ hd_27 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (5 : Fin 8) 128 (by decide) _ _ _ _
      (by exact gathered_payload_v0_2 d L fwt (View.write (Elt F) (Memref.whole cc2_scratch2).view f2 payB Finset.univ) _ _ _ (5 : Fin 8) 128 (by decide) _ _ rfl rfl _ _ _ _ _)
      (by exact gathered_payload_v1_3 d L fet (View.write (Elt F) (Memref.whole cc2_scratch3).view f3 payEB Finset.univ) _ _ _ (5 : Fin 8) 128 (by decide) _ _ rfl rfl _ _ _ _ _)
      (fun i => read_whole_piece6 d L _ _ _ i) (fun i => read_whole_piece7 d L _ _ _ i) h9_29 (fun t c => hsum_29 t c t.isLt)
      (by show _ = ((_ + 5) - _) * 200 + 128; omega) (by show R0 L ≤ _ + 5; omega) (by show _ + 5 < 4096; have := R0_lt L; omega)
      (k2_off32 L w 13#32) ((off32n L w 13 (by decide)).trans (congrArg (fun a => ![R0 L * 200 + a, 0]) (by omega)))
      (k2_off32_inb L w ⟨13, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t30 d L _ _ _ _ _ _
  iintro %_ HI
  unfold addInvA
  icases HI with ⟨Hs4, Hs5, %h8_30, Hs8, %hsum_30⟩
  have hd_29 := chunk_done128 d L fwi fei fwt fet (R0 L) _ _ hd_28 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (6 : Fin 8) 0 (by decide) _ _ _ _
      (by exact gathered_payload_v0_2 d L fwt (View.write (Elt F) (Memref.whole cc2_scratch2).view f2 payB Finset.univ) _ _ _ (6 : Fin 8) 0 (by decide) _ _ rfl rfl _ _ _ _ _)
      (by exact gathered_payload_v1_3 d L fet (View.write (Elt F) (Memref.whole cc2_scratch3).view f3 payEB Finset.univ) _ _ _ (6 : Fin 8) 0 (by decide) _ _ rfl rfl _ _ _ _ _)
      (fun i => read_whole_piece4 d L _ _ _ i) (fun i => read_whole_piece5 d L _ _ _ i) h8_30 (fun t c => hsum_30 t c t.isLt)
      (by show _ = ((_ + 6) - _) * 200 + 0; omega) (by show R0 L ≤ _ + 6; omega) (by show _ + 6 < 4096; have := R0_lt L; omega)
      (k2_off17 L w 14#32) ((off17n L w 14 (by decide)).trans (congrArg (fun a => ![R0 L * 200 + a, 0]) (by omega)))
      (k2_off17_inb L w ⟨14, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t31 d L _ _ _ _ _ _
  iintro %_ HI
  unfold addInvB
  icases HI with ⟨Hs6, Hs7, %h9_31, Hs9, %hsum_31⟩
  have hd_30 := chunk_done72 d L fwi fei fwt fet (R0 L) _ _ hd_29 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (6 : Fin 8) 128 (by decide) _ _ _ _
      (by exact gathered_payload_v0_2 d L fwt (View.write (Elt F) (Memref.whole cc2_scratch2).view f2 payB Finset.univ) _ _ _ (6 : Fin 8) 128 (by decide) _ _ rfl rfl _ _ _ _ _)
      (by exact gathered_payload_v1_3 d L fet (View.write (Elt F) (Memref.whole cc2_scratch3).view f3 payEB Finset.univ) _ _ _ (6 : Fin 8) 128 (by decide) _ _ rfl rfl _ _ _ _ _)
      (fun i => read_whole_piece6 d L _ _ _ i) (fun i => read_whole_piece7 d L _ _ _ i) h9_31 (fun t c => hsum_31 t c t.isLt)
      (by show _ = ((_ + 6) - _) * 200 + 128; omega) (by show R0 L ≤ _ + 6; omega) (by show _ + 6 < 4096; have := R0_lt L; omega)
      (k2_off32 L w 14#32) ((off32n L w 14 (by decide)).trans (congrArg (fun a => ![R0 L * 200 + a, 0]) (by omega)))
      (k2_off32_inb L w ⟨14, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t32 d L _ _ _
  iintro %_ HI
  unfold addInvA
  icases HI with ⟨Hs4, Hs5, %h8_32, Hs8, %hsum_32⟩
  have hd_31 := chunk_done128 d L fwi fei fwt fet (R0 L) _ _ hd_30 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (7 : Fin 8) 0 (by decide) _ _ _ _
      (by exact gathered_payload_v0_2 d L fwt (View.write (Elt F) (Memref.whole cc2_scratch2).view f2 payB Finset.univ) _ _ _ (7 : Fin 8) 0 (by decide) _ _ rfl rfl _ _ _ _ _)
      (by exact gathered_payload_v1_3 d L fet (View.write (Elt F) (Memref.whole cc2_scratch3).view f3 payEB Finset.univ) _ _ _ (7 : Fin 8) 0 (by decide) _ _ rfl rfl _ _ _ _ _)
      (fun i => read_whole_piece4 d L _ _ _ i) (fun i => read_whole_piece5 d L _ _ _ i) h8_32 (fun t c => hsum_32 t c t.isLt)
      (by show _ = ((_ + 7) - _) * 200 + 0; omega) (by show R0 L ≤ _ + 7; omega) (by show _ + 7 < 4096; have := R0_lt L; omega)
      (k2_off17 L w 15#32) ((off17n L w 15 (by decide)).trans (congrArg (fun a => ![R0 L * 200 + a, 0]) (by omega)))
      (k2_off17_inb L w ⟨15, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t33 d L _ _ _ _ _ _ _
  iintro %_ HI
  unfold addInvB
  icases HI with ⟨Hs6, Hs7, %h9_33, Hs9, %hsum_33⟩
  have hd_32 := chunk_done72 d L fwi fei fwt fet (R0 L) _ _ hd_31 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (7 : Fin 8) 128 (by decide) _ _ _ _
      (by exact gathered_payload_v0_2 d L fwt (View.write (Elt F) (Memref.whole cc2_scratch2).view f2 payB Finset.univ) _ _ _ (7 : Fin 8) 128 (by decide) _ _ rfl rfl _ _ _ _ _)
      (by exact gathered_payload_v1_3 d L fet (View.write (Elt F) (Memref.whole cc2_scratch3).view f3 payEB Finset.univ) _ _ _ (7 : Fin 8) 128 (by decide) _ _ rfl rfl _ _ _ _ _)
      (fun i => read_whole_piece6 d L _ _ _ i) (fun i => read_whole_piece7 d L _ _ _ i) h9_33 (fun t c => hsum_33 t c t.isLt)
      (by show _ = ((_ + 7) - _) * 200 + 128; omega) (by show R0 L ≤ _ + 7; omega) (by show _ + 7 < 4096; have := R0_lt L; omega)
      (k2_off32 L w 15#32) ((off32n L w 15 (by decide)).trans (congrArg (fun a => ![R0 L * 200 + a, 0]) (by omega)))
      (k2_off32_inb L w ⟨15, by decide⟩) (fun _ => rfl)
  sl_exec_parts
  sl_step
  iexists _
  iexists (View.write (Elt F) (Memref.whole cc2_scratch0).view gA (trip_sound.sl.dma1 d L fwi w) Finset.univ)
  iexists (View.write (Elt F) (Memref.whole cc2_scratch1).view gEA (trip_sound.sl.dma2 d L fei w) Finset.univ)
  iexists _
  iexists _
  iexists _
  iexists _
  iexists _
  iexists _
  iexists _
  iexists _
  iexists (trip_sound.sl.dma1_1 d L fwi w)
  iexists (trip_sound.sl.dma2_1 d L fei w)
  iexists (⟨k2_off455 L w, k2_off455_inb L w⟩ : {off : Fin 2 → Nat // ∀ a, off a + S8x200.size a ≤ S4096x200.size a})
  iexists _
  isplitl [Hmw]; · iexact Hmw
  isplitl [Ho]; · iexact Ho
  isplitl [Hs6]; · iexact Hs6
  isplitl [Hs7]; · iexact Hs7
  isplitl [Hs8]; · iexact Hs8
  isplitl [Hs9]; · iexact Hs9
  isplitl [HO]; · iexact HO
  isplitl [Hwi]; · iexact Hwi
  isplitl [Hwi']; · iexact Hwi'
  isplitl [HbatB]; · iexact HbatB
  isplitl [Hei]; · iexact Hei
  isplitl [Hei']; · iexact Hei'
  isplitl [Hfl8]; · iexact Hfl8
  isplitl [Hwt]; · iexact Hwt
  isplitl [Hwt']; · iexact Hwt'
  isplitl [Hs4]; · iexact Hs4
  isplitl [Hs0]; · iexact Hs0
  isplitl [Hfl9]; · iexact Hfl9
  isplitl [Het]; · iexact Het
  isplitl [Het']; · iexact Het'
  isplitl [Hs5]; · iexact Hs5
  isplitl [Hs1]; · iexact Hs1
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  isplitl [Hm19]; · iexact Hm19
  isplitl [Hm20]; · iexact Hm20
  isplitl [Hm21]; · iexact Hm21
  isplitl [Hm22]; · iexact Hm22
  isplitl [Hm23]; · iexact Hm23
  isplitl [Hm24]; · iexact Hm24
  isplitl [Hm25]; · iexact Hm25
  isplitl [Hm26]; · iexact Hm26
  isplitl [Hm27]; · iexact Hm27
  isplitl [Hm28]; · iexact Hm28
  isplitl [Hm29]; · iexact Hm29
  isplitl [Hm30]; · iexact Hm30
  isplitl [Hm31]; · iexact Hm31
  isplitl [Hm32]; · iexact Hm32
  isplitl [Hm33]; · iexact Hm33
  isplitl [Hm34]; · iexact Hm34
  isplitl [Hm35]; · iexact Hm35
  isplitl [Hm36]; · iexact Hm36
  ipureintro
  have hpB' : ∀ j, (trip_sound.sl.dma1_1 d L fwi w j : BitVec 32).toNat < 100000 := fun j => by unfold trip_sound.sl.dma1_1; exact hwi _
  have hpEB' : ∀ j, (trip_sound.sl.dma2_1 d L fei w j : BitVec 32).toNat < 1000000 := fun j => by unfold trip_sound.sl.dma2_1; exact hei _
  refine ⟨?_, ?_, hpB', hpEB', ?_, ?_, ?_, ?_, ?_, ?_, ?_, ?_⟩
  · intro j; rw [write_univ0 d L gA _ j]; exact hpA j
  · intro j; rw [write_univ1 d L gEA _ j]; exact hpEA j
  · repeat (first | exact hW' | apply waits_insert)
  · exact rowsAt_write0 d L gA _ fwi _ (rows_of_stage0 d L fwi _ (sA_le L _) _ (off230' L w) _ _)
  · exact rowsAt_write1 d L gEA _ fei _ (rows_of_stage1 d L fei _ (sA_le L _) _ (off230' L w) _ _)
  · exact rows_of_stage0 d L fwi _ (sB_le L _) _ (off455' L w) _ _
  · exact rows_of_stage1 d L fei _ (sB_le L _) _ (off455' L w) _ _
  · exact fun t c => (read_whole_piece4 d L _ _ _ _).trans ((gathered_payload_v0_0 d L fwt (View.write (Elt F) (Memref.whole cc2_scratch0).view gA (trip_sound.sl.dma1 d L fwi w) Finset.univ) _ _ _ (0 : Fin 8) 0 (by decide) _ _ rfl rfl _ _ _ _ _) t c)
  · exact fun t c => (read_whole_piece5 d L _ _ _ _).trans ((gathered_payload_v1_1 d L fet (View.write (Elt F) (Memref.whole cc2_scratch1).view gEA (trip_sound.sl.dma2 d L fei w) Finset.univ) _ _ _ (0 : Fin 8) 0 (by decide) _ _ rfl rfl _ _ _ _ _) t c)
  · exact hd_32.cast (by omega)

end Cert.Proof.KI

end
-- ==== Proof.KI.BodyMain.lean ====
/-
  The worker's task meets its specification: the body around its outer loop, with the trip's own theorem supplied. Under
  in-range row numbers a worker turns its read shares of the four inputs and its block of the flat result into the same
  shares and the block at the flat sum of the two look-ups.
-/
import proofs.«206319_g15771119910948_cont_week2b_672_19_alg».proof.Proof.KI.Body
import proofs.«206319_g15771119910948_cont_week2b_672_19_alg».proof.Proof.KI.BodyTrip

noncomputable section

namespace Cert.Proof.KI

open Cert.KernelIdeal Cert.KernelIdeal.Gen
open Idealize.ShloMosaic

variable {F : FTy → Type} [FloatOps F]

theorem tile_body (X : Arrays F) (hr : InRange X) : TileBodySpec X :=
  tile_body_of_trip X hr (fun d L O W _ => trip_sound d L _ _ O W _ _ _ _ (hr d).1 (hr d).2)

end Cert.Proof.KI

end
-- ==== Proof.KK.BodyFacts.lean ====
/-
  The pure statements the worker's loop carries about the contents it moves. An index buffer of eight rows holds
  eight consecutive rows of an index matrix (`RowsAt`); a gathered buffer holds, row t, the table row named by entry
  t of a window of a list (`Gathered`); the add loop leaves the entrywise sum of two gathered buffers on the first
  hundred columns (`Summed`); and the flat result is right on the first n rows of the worker's block (`DoneUpTo`).
-/
import proofs.«206319_g15771119910948_cont_week2b_672_19_alg».proof.Proof.KK.TileDefs
import proofs.«206319_g15771119910948_cont_week2b_672_19_alg».proof.Proof.EmbFlat

noncomputable section

namespace Cert.Proof.KK

open Cert.Kernel Cert.Kernel.Gen
open Idealize.ShloMosaic Idealize.ShloMosaic.ValueIdx

variable {F : FTy → Type} [FloatOps F]

/-- The worker's first sentence. -/
def R0 (L : grid2.Coords) : ℕ := 256 * (L 1).val + 128 * (L 0).val

/-- A sentence number as a row of an index matrix. -/
def rowIx (k : ℕ) : Fin 4096 := ⟨k % 4096, Nat.mod_lt _ (by decide)⟩

/-- The eight rows of `g` are rows n … n+7 of `fw`. -/
def RowsAt (g : S8x200.Idx → BitVec 32) (fw : S4096x200.Idx → BitVec 32) (n : ℕ) : Prop :=
  ∀ (r : Fin 8) (c : Fin 200), g (ix2 r c) = fw (ix2 (rowIx (n + r.val)) c)

/-- Row t of `pay` is the row of `tab` that entry (k8, c0 + t) of the list `g` names. -/
def Gathered (N T : ℕ) (hN : 0 < N) (pay : (⟨2, ![T, 128]⟩ : Shape).Idx → F .f32) (tab : (⟨2, ![N, 128]⟩ : Shape).Idx → F .f32)
    (g : S8x200.Idx → BitVec 32) (k8 : Fin 8) (c0 : ℕ) (hc : c0 + T ≤ 200) : Prop :=
  ∀ (t : Fin T) (c : Fin 128), pay (ix2 t c) = tab (ix2 (Cert.EmbSpec.rowOf N hN (g (ix2 k8 ⟨c0 + t.val, by have := t.isLt; omega⟩))) c)

/-- `h` is the entrywise sum of `ga` and `gb` on the first hundred columns. -/
def Summed (T : ℕ) (h : (⟨2, ![T, 100]⟩ : Shape).Idx → F .f32) (ga gb : (⟨2, ![T, 128]⟩ : Shape).Idx → F .f32) : Prop :=
  ∀ (t : Fin T) (c : Fin 100), h (ix2 t c) = FloatOps.addf (ga (ix2 t (Cert.EmbSpec.col128 c))) (gb (ix2 t (Cert.EmbSpec.col128 c)))

/-- The flat result `fo` is the flat sum of the two look-ups on rows [200·R, 200·R + n). -/
def DoneUpTo (fwi fei : S4096x200.Idx → BitVec 32) (fwt : S100000x128.Idx → F .f32) (fet : S1000000x128.Idx → F .f32)
    (R : ℕ) (fo : S819200x100.Idx → F .f32) (n : ℕ) : Prop :=
  ∀ j : S819200x100.Idx, R * 200 ≤ (j 0).val → (j 0).val < R * 200 + n → fo j = Cert.EmbSpec.flatSum fwi fei fwt fet j

/-- The first sentence of the eight the first index buffers hold at trip w, and of the eight the second hold. -/
def sA (L : grid2.Coords) (w : ℕ) : ℕ := min (R0 L + 16 * w) (R0 L + 120)
def sB (L : grid2.Coords) (w : ℕ) : ℕ := min (R0 L + 16 * w + 8) (R0 L + 120)

end Cert.Proof.KK

end
-- ==== Proof.KK.BodyLemmas.lean ====
/-
  Small facts about the worker's four index buffers: a word read through any row window of a buffer is one of the
  buffer's words, and a buffer overwritten whole by a copy holds the copy. They make "every index names a row of its
  table" travel from the index matrices to the lists the gathers read.
-/
import proofs.«206319_g15771119910948_cont_week2b_672_19_alg».proof.Proof.KK.TileDefs

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (d : Dev nD) (L : grid2.Coords)

omit [FloatOps F] in
/-- Every word read through a row window of index buffer 0 is a word of the buffer. -/
theorem lt_win0 (N : ℕ) (g : Buf (Elt F) ((Memref.whole cc2_scratch0).view.loc (thr d L))) (hg : ∀ j, (g j : BitVec 32).toNat < N)
    (r : Rect S8x200) (hs : ∀ a, r.stride a = 1) (s' : Shape) (hq : r.shape.Squeezes s') :
    ∀ x, (View.read (Elt F) (((Memref.whole cc2_scratch0).slice r hs).squeeze s' hq).view g x : BitVec 32).toNat < N := by
  intro x; rw [View.read_apply]; exact hg _

omit [FloatOps F] in
/-- The same after the buffer was overwritten whole by a copy whose words are all in range. -/
theorem lt_winw0 (N : ℕ) (g0 : Buf (Elt F) ((Memref.whole cc2_scratch0).view.loc (thr d L))) (pay : S8x200.Idx → Elt F .i32) (hpay : ∀ j, (pay j : BitVec 32).toNat < N)
    (r : Rect S8x200) (hs : ∀ a, r.stride a = 1) (s' : Shape) (hq : r.shape.Squeezes s') :
    ∀ x, (View.read (Elt F) (((Memref.whole cc2_scratch0).slice r hs).squeeze s' hq).view
        (View.write (Elt F) (Memref.whole cc2_scratch0).view g0 pay Finset.univ) x : BitVec 32).toNat < N := by
  intro x
  have e : View.read (Elt F) (((Memref.whole cc2_scratch0).slice r hs).squeeze s' hq).view (View.write (Elt F) (Memref.whole cc2_scratch0).view g0 pay Finset.univ) x
      = View.read (Elt F) (Memref.whole cc2_scratch0).view (View.write (Elt F) (Memref.whole cc2_scratch0).view g0 pay Finset.univ)
          (r.emb ((Shape.reshapeEquiv hq.numel_eq) x)) := by
    rw [View.read_apply, View.read_apply]; rfl
  rw [e, View.read_write_univ]; exact hpay _

omit [FloatOps F] in
/-- A buffer overwritten whole holds what was written. -/
theorem write_univ0 (g0 : Buf (Elt F) ((Memref.whole cc2_scratch0).view.loc (thr d L))) (pay : S8x200.Idx → Elt F .i32) (j : S8x200.Idx) :
    (View.write (Elt F) (Memref.whole cc2_scratch0).view g0 pay Finset.univ : S8x200.Idx → Elt F .i32) j = pay j := by
  have e := congrFun (View.read_write_univ (v := (Memref.whole cc2_scratch0).view) g0 pay) j
  rw [View.read_apply] at e; exact e

omit [FloatOps F] in
/-- Every word read through a row window of index buffer 1 is a word of the buffer. -/
theorem lt_win1 (N : ℕ) (g : Buf (Elt F) ((Memref.whole cc2_scratch1).view.loc (thr d L))) (hg : ∀ j, (g j : BitVec 32).toNat < N)
    (r : Rect S8x200) (hs : ∀ a, r.stride a = 1) (s' : Shape) (hq : r.shape.Squeezes s') :
    ∀ x, (View.read (Elt F) (((Memref.whole cc2_scratch1).slice r hs).squeeze s' hq).view g x : BitVec 32).toNat < N := by
  intro x; rw [View.read_apply]; exact hg _

omit [FloatOps F] in
/-- The same after the buffer was overwritten whole by a copy whose words are all in range. -/
theorem lt_winw1 (N : ℕ) (g0 : Buf (Elt F) ((Memref.whole cc2_scratch1).view.loc (thr d L))) (pay : S8x200.Idx → Elt F .i32) (hpay : ∀ j, (pay j : BitVec 32).toNat < N)
    (r : Rect S8x200) (hs : ∀ a, r.stride a = 1) (s' : Shape) (hq : r.shape.Squeezes s') :
    ∀ x, (View.read (Elt F) (((Memref.whole cc2_scratch1).slice r hs).squeeze s' hq).view
        (View.write (Elt F) (Memref.whole cc2_scratch1).view g0 pay Finset.univ) x : BitVec 32).toNat < N := by
  intro x
  have e : View.read (Elt F) (((Memref.whole cc2_scratch1).slice r hs).squeeze s' hq).view (View.write (Elt F) (Memref.whole cc2_scratch1).view g0 pay Finset.univ) x
      = View.read (Elt F) (Memref.whole cc2_scratch1).view (View.write (Elt F) (Memref.whole cc2_scratch1).view g0 pay Finset.univ)
          (r.emb ((Shape.reshapeEquiv hq.numel_eq) x)) := by
    rw [View.read_apply, View.read_apply]; rfl
  rw [e, View.read_write_univ]; exact hpay _

omit [FloatOps F] in
/-- A buffer overwritten whole holds what was written. -/
theorem write_univ1 (g0 : Buf (Elt F) ((Memref.whole cc2_scratch1).view.loc (thr d L))) (pay : S8x200.Idx → Elt F .i32) (j : S8x200.Idx) :
    (View.write (Elt F) (Memref.whole cc2_scratch1).view g0 pay Finset.univ : S8x200.Idx → Elt F .i32) j = pay j := by
  have e := congrFun (View.read_write_univ (v := (Memref.whole cc2_scratch1).view) g0 pay) j
  rw [View.read_apply] at e; exact e

omit [FloatOps F] in
/-- Every word read through a row window of index buffer 2 is a word of the buffer. -/
theorem lt_win2 (N : ℕ) (g : Buf (Elt F) ((Memref.whole cc2_scratch2).view.loc (thr d L))) (hg : ∀ j, (g j : BitVec 32).toNat < N)
    (r : Rect S8x200) (hs : ∀ a, r.stride a = 1) (s' : Shape) (hq : r.shape.Squeezes s') :
    ∀ x, (View.read (Elt F) (((Memref.whole cc2_scratch2).slice r hs).squeeze s' hq).view g x : BitVec 32).toNat < N := by
  intro x; rw [View.read_apply]; exact hg _

omit [FloatOps F] in
/-- The same after the buffer was overwritten whole by a copy whose words are all in range. -/
theorem lt_winw2 (N : ℕ) (g0 : Buf (Elt F) ((Memref.whole cc2_scratch2).view.loc (thr d L))) (pay : S8x200.Idx → Elt F .i32) (hpay : ∀ j, (pay j : BitVec 32).toNat < N)
    (r : Rect S8x200) (hs : ∀ a, r.stride a = 1) (s' : Shape) (hq : r.shape.Squeezes s') :
    ∀ x, (View.read (Elt F) (((Memref.whole cc2_scratch2).slice r hs).squeeze s' hq).view
        (View.write (Elt F) (Memref.whole cc2_scratch2).view g0 pay Finset.univ) x : BitVec 32).toNat < N := by
  intro x
  have e : View.read (Elt F) (((Memref.whole cc2_scratch2).slice r hs).squeeze s' hq).view (View.write (Elt F) (Memref.whole cc2_scratch2).view g0 pay Finset.univ) x
      = View.read (Elt F) (Memref.whole cc2_scratch2).view (View.write (Elt F) (Memref.whole cc2_scratch2).view g0 pay Finset.univ)
          (r.emb ((Shape.reshapeEquiv hq.numel_eq) x)) := by
    rw [View.read_apply, View.read_apply]; rfl
  rw [e, View.read_write_univ]; exact hpay _

omit [FloatOps F] in
/-- A buffer overwritten whole holds what was written. -/
theorem write_univ2 (g0 : Buf (Elt F) ((Memref.whole cc2_scratch2).view.loc (thr d L))) (pay : S8x200.Idx → Elt F .i32) (j : S8x200.Idx) :
    (View.write (Elt F) (Memref.whole cc2_scratch2).view g0 pay Finset.univ : S8x200.Idx → Elt F .i32) j = pay j := by
  have e := congrFun (View.read_write_univ (v := (Memref.whole cc2_scratch2).view) g0 pay) j
  rw [View.read_apply] at e; exact e

omit [FloatOps F] in
/-- Every word read through a row window of index buffer 3 is a word of the buffer. -/
theorem lt_win3 (N : ℕ) (g : Buf (Elt F) ((Memref.whole cc2_scratch3).view.loc (thr d L))) (hg : ∀ j, (g j : BitVec 32).toNat < N)
    (r : Rect S8x200) (hs : ∀ a, r.stride a = 1) (s' : Shape) (hq : r.shape.Squeezes s') :
    ∀ x, (View.read (Elt F) (((Memref.whole cc2_scratch3).slice r hs).squeeze s' hq).view g x : BitVec 32).toNat < N := by
  intro x; rw [View.read_apply]; exact hg _

omit [FloatOps F] in
/-- The same after the buffer was overwritten whole by a copy whose words are all in range. -/
theorem lt_winw3 (N : ℕ) (g0 : Buf (Elt F) ((Memref.whole cc2_scratch3).view.loc (thr d L))) (pay : S8x200.Idx → Elt F .i32) (hpay : ∀ j, (pay j : BitVec 32).toNat < N)
    (r : Rect S8x200) (hs : ∀ a, r.stride a = 1) (s' : Shape) (hq : r.shape.Squeezes s') :
    ∀ x, (View.read (Elt F) (((Memref.whole cc2_scratch3).slice r hs).squeeze s' hq).view
        (View.write (Elt F) (Memref.whole cc2_scratch3).view g0 pay Finset.univ) x : BitVec 32).toNat < N := by
  intro x
  have e : View.read (Elt F) (((Memref.whole cc2_scratch3).slice r hs).squeeze s' hq).view (View.write (Elt F) (Memref.whole cc2_scratch3).view g0 pay Finset.univ) x
      = View.read (Elt F) (Memref.whole cc2_scratch3).view (View.write (Elt F) (Memref.whole cc2_scratch3).view g0 pay Finset.univ)
          (r.emb ((Shape.reshapeEquiv hq.numel_eq) x)) := by
    rw [View.read_apply, View.read_apply]; rfl
  rw [e, View.read_write_univ]; exact hpay _

omit [FloatOps F] in
/-- A buffer overwritten whole holds what was written. -/
theorem write_univ3 (g0 : Buf (Elt F) ((Memref.whole cc2_scratch3).view.loc (thr d L))) (pay : S8x200.Idx → Elt F .i32) (j : S8x200.Idx) :
    (View.write (Elt F) (Memref.whole cc2_scratch3).view g0 pay Finset.univ : S8x200.Idx → Elt F .i32) j = pay j := by
  have e := congrFun (View.read_write_univ (v := (Memref.whole cc2_scratch3).view) g0 pay) j
  rw [View.read_apply] at e; exact e

end Cert.Proof.KK

end
-- ==== Proof.KK.BodyInv.lean ====
/-
  What the worker holds each time its outer loop comes round (trip w of eight, sixteen sentences a trip). The first
  index buffers hold the eight rows of sentences starting at `sA L w`; the second are on their way, a batch of two
  copies on one semaphore, from the rows starting at `sB L w`; the first chunk of the trip's first sentence is being
  gathered from both tables (the two gathered buffers' contents are whatever the gathers deliver: row t the table row
  that entry t of the list's first row names); the other scratch holds anything; and the flat result is right on the 3200·w rows the
  earlier trips wrote. Each input is held as two read shares, one of which may have lent a window.
-/
import proofs.«206319_g15771119910948_cont_week2b_672_19_alg».proof.Proof.KK.BodyFacts
import proofs.«206319_g15771119910948_cont_week2b_672_19_alg».proof.Proof.KK.BodyLemmas
import Idealize.ShloMosaic.Lib.Batch

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid2.Coords)

/-- The pure half: the lists' words name rows, the lists are the rows they should be, the gathers in flight carry the
    rows their lists name, the result so far is right, and the waits recorded so far are the body's own. -/
def TripOK (W W' : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L)))
    (w : ℕ) (fo : Buf (Elt F) ((Memref.whole main_v2_scv).view.loc (thr d L))) (gA : Buf (Elt F) ((Memref.whole cc2_scratch0).view.loc (thr d L))) (gEA : Buf (Elt F) ((Memref.whole cc2_scratch1).view.loc (thr d L)))
    (payB payEB : S8x200.Idx → Elt F .i32)
    (cA : Buf (Elt F) ((Memref.whole cc2_scratch4).view.loc (thr d L))) (cB : Buf (Elt F) ((Memref.whole cc2_scratch5).view.loc (thr d L))) : Prop :=
  (∀ j, (gA j : BitVec 32).toNat < 100000) ∧ (∀ j, (gEA j : BitVec 32).toNat < 1000000)
  ∧ (∀ j, (payB j : BitVec 32).toNat < 100000) ∧ (∀ j, (payEB j : BitVec 32).toNat < 1000000)
  ∧ (∀ p ∈ W', p ∈ W ∨ p.2 = none)
  ∧ RowsAt gA fwi (sA L w) ∧ RowsAt gEA fei (sA L w) ∧ RowsAt payB fwi (sB L w) ∧ RowsAt payEB fei (sB L w)
  ∧ Gathered 100000 128 (by decide) cA fwt gA 0 0 (by decide) ∧ Gathered 1000000 128 (by decide) cB fet gEA 0 0 (by decide)
  ∧ DoneUpTo fwi fei fwt fet (R0 L) fo (3200 * w)

/-- The loop's invariant. -/
def invOuter (q q' : PosShare TreeShare) (O : CellTallies nD τ sig (HIx 1)) (W : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L)))
    (w : ℕ) (_ : Unit) : sProp 𝕄 :=
  iprop(∃ (fo : Buf (Elt F) ((Memref.whole main_v2_scv).view.loc (thr d L))) (gA : Buf (Elt F) ((Memref.whole cc2_scratch0).view.loc (thr d L))) (gEA : Buf (Elt F) ((Memref.whole cc2_scratch1).view.loc (thr d L)))
      (f2 : Buf (Elt F) ((Memref.whole cc2_scratch2).view.loc (thr d L))) (f3 : Buf (Elt F) ((Memref.whole cc2_scratch3).view.loc (thr d L))) (cA : Buf (Elt F) ((Memref.whole cc2_scratch4).view.loc (thr d L))) (cB : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L)))
      (payB payEB : S8x200.Idx → Elt F .i32)
      (ob : {off : Fin 2 → Nat // ∀ a, off a + S8x200.size a ≤ S4096x200.size a}) (W' : Waits sig (HIx 1)),
    Transfers.MayWaits (thr d L) (none : HIx 1) O
      ∗ ((Memref.whole main_v2_scv).view.loc (thr d L) ↦[(Memref.whole main_v2_scv).view.setOn (blkR L).set]{fullShare} fo)
      ∗ ((Memref.whole cc2_scratch6).view.loc (thr d L) ↦{fullShare} f6) ∗ ((Memref.whole cc2_scratch7).view.loc (thr d L) ↦{fullShare} f7) ∗ ((Memref.whole cc2_scratch8).view.loc (thr d L) ↦{fullShare} f8) ∗ ((Memref.whole cc2_scratch9).view.loc (thr d L) ↦{fullShare} f9)
      ∗ owes (thr d L) O W'
      ∗ ((Memref.whole main_arg0_scv).view.loc (thr d L) ↦{q} fwi) ∗ ((Memref.whole main_arg0_scv).view.loc (thr d L) ↦[Finset.univ \ ((Memref.whole main_arg0_scv).slice (Rect.unit (s := S4096x200) ob.1 S8x200.size ob.2) (fun _ => rfl)).view.set]{q'} fwi)
      ∗ Transfers.Batched countersEmb (thr d L) (SemLoc.dma cc2_scratch15.sem) (default : HIx 1) 51200 2
          [iprop(((Memref.whole cc2_scratch2).view.loc (thr d L) ↦{fullShare} View.write (Elt F) (Memref.whole cc2_scratch2).view f2 payB Finset.univ) ∗ ((Memref.whole main_arg0_scv).view.loc (thr d L) ↦[((Memref.whole main_arg0_scv).slice (Rect.unit (s := S4096x200) ob.1 S8x200.size ob.2) (fun _ => rfl)).view.set]{q'} fwi)),
           iprop(((Memref.whole cc2_scratch3).view.loc (thr d L) ↦{fullShare} View.write (Elt F) (Memref.whole cc2_scratch3).view f3 payEB Finset.univ) ∗ ((Memref.whole main_arg1_scv).view.loc (thr d L) ↦[((Memref.whole main_arg1_scv).slice (Rect.unit (s := S4096x200) ob.1 S8x200.size ob.2) (fun _ => rfl)).view.set]{q'} fei))] 0
      ∗ ((Memref.whole main_arg1_scv).view.loc (thr d L) ↦{q} fei) ∗ ((Memref.whole main_arg1_scv).view.loc (thr d L) ↦[Finset.univ \ ((Memref.whole main_arg1_scv).slice (Rect.unit (s := S4096x200) ob.1 S8x200.size ob.2) (fun _ => rfl)).view.set]{q'} fei)
      ∗ Transfers.Flight countersEmb (thr d L) (SemLoc.dma cc2_scratch10.sem) (default : HIx 1) 524288
          iprop((((Memref.whole cc2_scratch4).view.loc (thr d L) ↦[(Memref.whole cc2_scratch4).view.set]{fullShare} cA)
              ∗ ((Memref.whole cc2_scratch0).view.loc (thr d L) ↦[(((Memref.whole cc2_scratch0).slice (Rect.unit (s := S8x200) ![0, 0] S1x128.size inb_S8x200_S1x128_0_0) (fun _ => rfl)).squeeze S128 squeezes_S1x128_S128).view.set]{fullShare} gA))
            ∗ ((Memref.whole main_v0_scv).view.loc (thr d L) ↦[((Memref.whole main_v0_scv).slice (Rect.unit (s := S100000x128) ![0, 0] S100000x128.size inb_S100000x128_S100000x128_0_0) (fun _ => rfl)).view.set]{q} fwt))
      ∗ ((Memref.whole main_v0_scv).view.loc (thr d L) ↦[Finset.univ \ ((Memref.whole main_v0_scv).slice (Rect.unit (s := S100000x128) ![0, 0] S100000x128.size inb_S100000x128_S100000x128_0_0) (fun _ => rfl)).view.set]{q} fwt) ∗ ((Memref.whole main_v0_scv).view.loc (thr d L) ↦{q'} fwt)
      ∗ ((Memref.whole cc2_scratch4).view.loc (thr d L) ↦[Finset.univ \ (Memref.whole cc2_scratch4).view.set]{fullShare} cA)
      ∗ ((Memref.whole cc2_scratch0).view.loc (thr d L) ↦[Finset.univ \ (((Memref.whole cc2_scratch0).slice (Rect.unit (s := S8x200) ![0, 0] S1x128.size inb_S8x200_S1x128_0_0) (fun _ => rfl)).squeeze S128 squeezes_S1x128_S128).view.set]{fullShare} gA)
      ∗ Transfers.Flight countersEmb (thr d L) (SemLoc.dma cc2_scratch11.sem) (default : HIx 1) 524288
          iprop((((Memref.whole cc2_scratch5).view.loc (thr d L) ↦[(Memref.whole cc2_scratch5).view.set]{fullShare} cB)
              ∗ ((Memref.whole cc2_scratch1).view.loc (thr d L) ↦[(((Memref.whole cc2_scratch1).slice (Rect.unit (s := S8x200) ![0, 0] S1x128.size inb_S8x200_S1x128_0_0) (fun _ => rfl)).squeeze S128 squeezes_S1x128_S128).view.set]{fullShare} gEA))
            ∗ ((Memref.whole main_v1_scv).view.loc (thr d L) ↦[((Memref.whole main_v1_scv).slice (Rect.unit (s := S1000000x128) ![0, 0] S1000000x128.size inb_S1000000x128_S1000000x128_0_0) (fun _ => rfl)).view.set]{q} fet))
      ∗ ((Memref.whole main_v1_scv).view.loc (thr d L) ↦[Finset.univ \ ((Memref.whole main_v1_scv).slice (Rect.unit (s := S1000000x128) ![0, 0] S1000000x128.size inb_S1000000x128_S1000000x128_0_0) (fun _ => rfl)).view.set]{q} fet) ∗ ((Memref.whole main_v1_scv).view.loc (thr d L) ↦{q'} fet)
      ∗ ((Memref.whole cc2_scratch5).view.loc (thr d L) ↦[Finset.univ \ (Memref.whole cc2_scratch5).view.set]{fullShare} cB)
      ∗ ((Memref.whole cc2_scratch1).view.loc (thr d L) ↦[Finset.univ \ (((Memref.whole cc2_scratch1).slice (Rect.unit (s := S8x200) ![0, 0] S1x128.size inb_S8x200_S1x128_0_0) (fun _ => rfl)).squeeze S128 squeezes_S1x128_S128).view.set]{fullShare} gEA)
      ∗ semVal (thr d L, SemLoc.dma cc2_scratch12.sem) 0 ∗ semVal (thr d L, SemLoc.dma cc2_scratch13.sem) 0 ∗ semVal (thr d L, SemLoc.dma cc2_scratch14.sem) 0 ∗ semVal (thr d L, SemLoc.dma cc2_scoped0.sem) 0 ∗ semVal (thr d L, SemLoc.dma cc2_scoped1.sem) 0 ∗ semVal (thr d L, SemLoc.dma cc2_scoped2.sem) 0 ∗ semVal (thr d L, SemLoc.dma cc2_scoped3.sem) 0 ∗ semVal (thr d L, SemLoc.dma cc2_scoped4.sem) 0 ∗ semVal (thr d L, SemLoc.dma cc2_scoped5.sem) 0 ∗ semVal (thr d L, SemLoc.dma cc2_scoped6.sem) 0 ∗ semVal (thr d L, SemLoc.dma cc2_scoped7.sem) 0 ∗ semVal (thr d L, SemLoc.dma cc2_scoped8.sem) 0 ∗ semVal (thr d L, SemLoc.dma cc2_scoped9.sem) 0 ∗ semVal (thr d L, SemLoc.dma cc2_scoped10.sem) 0 ∗ semVal (thr d L, SemLoc.dma cc2_scoped11.sem) 0 ∗ semVal (thr d L, SemLoc.dma cc2_scoped12.sem) 0 ∗ semVal (thr d L, SemLoc.dma cc2_scoped13.sem) 0 ∗ semVal (thr d L, SemLoc.dma cc2_scoped14.sem) 0 ∗ semVal (thr d L, SemLoc.dma cc2_scoped15.sem) 0 ∗ semVal (thr d L, SemLoc.dma cc2_scoped16.sem) 0 ∗ semVal (thr d L, SemLoc.dma cc2_scoped17.sem) 0 ∗ semVal (thr d L, SemLoc.dma cc2_scoped18.sem) 0 ∗ semVal (thr d L, SemLoc.dma cc2_scoped19.sem) 0 ∗ semVal (thr d L, SemLoc.dma cc2_scoped20.sem) 0 ∗ semVal (thr d L, SemLoc.dma cc2_scoped21.sem) 0 ∗ semVal (thr d L, SemLoc.dma cc2_scoped22.sem) 0 ∗ semVal (thr d L, SemLoc.dma cc2_scoped23.sem) 0 ∗ semVal (thr d L, SemLoc.dma cc2_scoped24.sem) 0 ∗ semVal (thr d L, SemLoc.dma cc2_scoped25.sem) 0 ∗ semVal (thr d L, SemLoc.dma cc2_scoped26.sem) 0 ∗ semVal (thr d L, SemLoc.dma cc2_scoped27.sem) 0 ∗ semVal (thr d L, SemLoc.dma cc2_scoped28.sem) 0 ∗ semVal (thr d L, SemLoc.dma cc2_scoped29.sem) 0 ∗ semVal (thr d L, SemLoc.dma cc2_scoped30.sem) 0 ∗ semVal (thr d L, SemLoc.dma cc2_scoped31.sem) 0 ∗ semVal (thr d L, SemLoc.dma cc2_scoped32.sem) 0 ∗ semVal (thr d L, SemLoc.dma cc2_scoped33.sem) 0
      ∗ ⌜TripOK d L W W' fwi fei fwt fet w fo gA gEA payB payEB cA cB⌝)

end Cert.Proof.KK

end
-- ==== Proof.KK.BodyTripSpec.lean ====
/-
  What one trip of the worker's outer loop must do, as a statement about the loop's region: from the loop's invariant before
  trip w to the invariant before trip w + 1, whatever the two sentence bounds computed before the loop are.
-/
import proofs.«206319_g15771119910948_cont_week2b_672_19_alg».proof.Proof.KK.BodyInv

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One trip keeps the invariant. -/
def TripSpec (d : Dev nD) (L : grid2.Coords) (q q' : PosShare TreeShare) (O : CellTallies nD τ sig (HIx 1)) (W : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L))) : Prop :=
  ∀ (v2 v4 : BitVec 32) (w : Fin k2_t1_loop.trips) (acc : Unit),
    invOuter d L q q' O W fwi fei fwt fet w.val acc
      ⊢ wp frame (wpE (defs₀ (F := F)) 𝒱₀ (thr d L) none) Set.univ
          (k2_t1_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 v4 0#32 w acc)
          (invOuter d L q q' O W fwi fei fwt fet (w.val + 1))

end Cert.Proof.KK

end
-- ==== Proof.KK.BodyValue.lean ====
/-
  The worker's body, as equations between contents. Nothing here runs a program: these are the facts about the values
  the body moves. A gather from a widened table through a one-row window of an index buffer delivers, row t, the
  table row the window's entry t names (`gathered_payload_…`, from `gathered_of_reads`); a buffer written whole reads
  what was written (`read_whole_piece…`, `rowsAt_write…`); eight rows of an index matrix staged from row n are rows
  n … n+7 (`rows_of_stage…`); and a chunk of T summed entries copied over rows [200·R0 + n, +T) of the flat result
  extends "right on the first n rows of the block" to n + T (`chunk_done…`), because row 200·(Rs + k8) + c0 + t of
  the flat result stands for position (Rs + k8, c0 + t).
-/
import proofs.«206319_g15771119910948_cont_week2b_672_19_alg».proof.Proof.KK.TileDefs
import proofs.«206319_g15771119910948_cont_week2b_672_19_alg».proof.Proof.KK.BodyFacts
import proofs.«206319_g15771119910948_cont_week2b_672_19_alg».proof.Proof.KK.BodyLemmas
import proofs.«206319_g15771119910948_cont_week2b_672_19_alg».proof.Proof.EmbFlat
import proofs.«206319_g15771119910948_cont_week2b_672_19_alg».proof.Proof.EmbGlue
import Idealize.ShloMosaic.Lib.SparseCore.Stream
import Idealize.ShloMosaic.Lib.Writes

noncomputable section

namespace Cert.Proof.KK

open Cert.Kernel Cert.Kernel.Gen
open Idealize.ShloMosaic Idealize.ShloMosaic.ValueIdx

variable {F : FTy → Type} [FloatOps F]
variable (d : Dev nD) (L : grid2.Coords)

/-! ## A gather's payload, read at an index -/

omit [FloatOps F] in
/-- The payload of a row gather from a matrix of 128 columns, at row t and column c: the table at the row the list
    names for t, same column. -/
theorem gatherPayload_ix2 {N T : ℕ} (hg : (⟨2, ![N, 128]⟩ : Shape).Gathers 0 ⟨2, ![T, 128]⟩)
    (tab : (⟨2, ![N, 128]⟩ : Shape).Idx → Elt F .f32) (r : Fin T → Fin N) (t : Fin T) (c : Fin 128) :
    SparseCore.gatherPayload (F := F) hg tab r (ix2 t c) = tab (ix2 (r t) c) := by
  unfold SparseCore.gatherPayload
  refine congrArg tab (funext fun b => ?_)
  match b with
  | ⟨0, _⟩ => exact Shape.Gathers.idx_axis hg r (ix2 t c)
  | ⟨1, h1⟩ => exact Fin.ext (Shape.Gathers.idx_of_ne hg r (ix2 t c) ⟨1, h1⟩ Nat.one_ne_zero)

omit [FloatOps F] in
/-- Entry t of a one-row window of an eight-row list, the window made a vector: the list's entry (k8, c0 + t). -/
theorem window_emb {T : ℕ} (k8 : Fin 8) (c0 : ℕ) (hc : c0 + T ≤ 200)
    (hinb : ∀ a, (![k8.val, c0] : Fin 2 → ℕ) a + (![1, T] : Fin 2 → ℕ) a ≤ S8x200.size a)
    (hq : (⟨1, ![T]⟩ : Shape).numel = (Rect.unit (s := S8x200) ![k8.val, c0] ![1, T] hinb).shape.numel) (t : Fin T)
    (hn : (⟨1, ![T]⟩ : Shape).numel = T) :
    (Rect.unit (s := S8x200) ![k8.val, c0] ![1, T] hinb).emb
        (Shape.reshapeEquiv hq ((⟨1, ![T]⟩ : Shape).rowMajor.symm (t.cast hn.symm)))
      = ix2 (n0 := 8) (n1 := 200) k8 ⟨c0 + t.val, by have := t.isLt; omega⟩ := by
  have e : Shape.reshapeEquiv hq ((⟨1, ![T]⟩ : Shape).rowMajor.symm (t.cast hn.symm))
      = (ix2 (n0 := 1) (n1 := T) ⟨0, Nat.one_pos⟩ t : (⟨2, ![1, T]⟩ : Shape).Idx) :=
    Shape.reshapeEquiv_eq_of_rowMajor hq (by
      rw [Shape.rowMajor_val_two, Equiv.apply_symm_apply]
      show 0 * T + t.val = t.val
      omega)
  rw [e]
  funext a
  refine Fin.ext ?_
  match a with
  | ⟨0, _⟩ => show k8.val + 1 * 0 = k8.val; omega
  | ⟨1, _⟩ => show c0 + 1 * t.val = c0 + t.val; omega

/-- THE GATHER'S PAYLOAD, from what its two operands read: a table function that is the table, and a list function
    whose entry t is the list's entry (k8, c0 + t) — row t of the payload is the table row that entry names. -/
theorem gathered_of_reads {N T : ℕ} (hN : 0 < N) (hg : (⟨2, ![N, 128]⟩ : Shape).Gathers 0 ⟨2, ![T, 128]⟩)
    (tabf tab : (⟨2, ![N, 128]⟩ : Shape).Idx → F .f32) (htab : ∀ i, tabf i = tab i)
    (g : S8x200.Idx → BitVec 32) (k8 : Fin 8) (c0 : ℕ) (hc : c0 + T ≤ 200)
    (idxf : (⟨1, ![T]⟩ : Shape).Idx → Elt F .i32) (hn : (⟨1, ![T]⟩ : Shape).numel = T) (hin : ∀ x, (idxf x : BitVec 32).toNat < N)
    (hidx : ∀ t : Fin T, idxf ((⟨1, ![T]⟩ : Shape).rowMajor.symm (t.cast hn.symm)) = g (ix2 k8 ⟨c0 + t.val, by have := t.isLt; omega⟩)) :
    Gathered N T hN (SparseCore.gatherPayload (F := F) (e := .f32) hg tabf (SparseCore.rows (F := F) idxf hn hin)) tab g k8 c0 hc := by
  intro t c
  refine (gatherPayload_ix2 hg tabf (SparseCore.rows (F := F) idxf hn hin) t c).trans ?_
  rw [htab]
  refine congrArg tab (congrArg (fun r => ix2 r c) (Fin.ext ?_))
  have hlt : (g (ix2 k8 ⟨c0 + t.val, by have := t.isLt; omega⟩)).toNat < N := by rw [← hidx t]; exact hin _
  rw [Cert.EmbSpec.rowOf_val_of_lt hN hlt]
  show (idxf _ : BitVec 32).toNat = _
  rw [hidx t]

omit [FloatOps F] in
/-- What a one-row window of index buffer 0, made a vector, reads at entry t: the buffer's entry (k8, c0 + t). -/
theorem window_read0 {T : ℕ} (g : Buf (Elt F) ((Memref.whole cc2_scratch0).view.loc (thr d L))) (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T) (t : Fin T) :
    View.read (Elt F) (((Memref.whole cc2_scratch0).slice (Rect.unit (s := S8x200) row sz hinb) hs).squeeze ⟨1, ![T]⟩ hq).view g ((⟨1, ![T]⟩ : Shape).rowMajor.symm (t.cast hn.symm))
      = (g (ix2 k8 ⟨c0 + t.val, by have := t.isLt; omega⟩) : BitVec 32) := by
  subst hrow hsz
  rw [View.read_apply]
  show g _ = g _
  exact congrArg g (window_emb k8 c0 hc hinb hq.numel_eq t hn)

omit [FloatOps F] in
/-- What a one-row window of index buffer 1, made a vector, reads at entry t: the buffer's entry (k8, c0 + t). -/
theorem window_read1 {T : ℕ} (g : Buf (Elt F) ((Memref.whole cc2_scratch1).view.loc (thr d L))) (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T) (t : Fin T) :
    View.read (Elt F) (((Memref.whole cc2_scratch1).slice (Rect.unit (s := S8x200) row sz hinb) hs).squeeze ⟨1, ![T]⟩ hq).view g ((⟨1, ![T]⟩ : Shape).rowMajor.symm (t.cast hn.symm))
      = (g (ix2 k8 ⟨c0 + t.val, by have := t.isLt; omega⟩) : BitVec 32) := by
  subst hrow hsz
  rw [View.read_apply]
  show g _ = g _
  exact congrArg g (window_emb k8 c0 hc hinb hq.numel_eq t hn)

omit [FloatOps F] in
/-- What a one-row window of index buffer 2, made a vector, reads at entry t: the buffer's entry (k8, c0 + t). -/
theorem window_read2 {T : ℕ} (g : Buf (Elt F) ((Memref.whole cc2_scratch2).view.loc (thr d L))) (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T) (t : Fin T) :
    View.read (Elt F) (((Memref.whole cc2_scratch2).slice (Rect.unit (s := S8x200) row sz hinb) hs).squeeze ⟨1, ![T]⟩ hq).view g ((⟨1, ![T]⟩ : Shape).rowMajor.symm (t.cast hn.symm))
      = (g (ix2 k8 ⟨c0 + t.val, by have := t.isLt; omega⟩) : BitVec 32) := by
  subst hrow hsz
  rw [View.read_apply]
  show g _ = g _
  exact congrArg g (window_emb k8 c0 hc hinb hq.numel_eq t hn)

omit [FloatOps F] in
/-- What a one-row window of index buffer 3, made a vector, reads at entry t: the buffer's entry (k8, c0 + t). -/
theorem window_read3 {T : ℕ} (g : Buf (Elt F) ((Memref.whole cc2_scratch3).view.loc (thr d L))) (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T) (t : Fin T) :
    View.read (Elt F) (((Memref.whole cc2_scratch3).slice (Rect.unit (s := S8x200) row sz hinb) hs).squeeze ⟨1, ![T]⟩ hq).view g ((⟨1, ![T]⟩ : Shape).rowMajor.symm (t.cast hn.symm))
      = (g (ix2 k8 ⟨c0 + t.val, by have := t.isLt; omega⟩) : BitVec 32) := by
  subst hrow hsz
  rw [View.read_apply]
  show g _ = g _
  exact congrArg g (window_emb k8 c0 hc hinb hq.numel_eq t hn)

omit [FloatOps F] in
/-- The whole of the 100000-row table read through its full-size window at the origin is the table. -/
theorem table_read_v0 (tab : Buf (Elt F) ((Memref.whole main_v0_scv).view.loc (thr d L)))
    (inbT : ∀ a, (![0, 0] : Fin 2 → ℕ) a + S100000x128.size a ≤ S100000x128.size a)
    (hsT : ∀ a, (Rect.unit (s := S100000x128) ![0, 0] S100000x128.size inbT).stride a = 1) (i : S100000x128.Idx) :
    View.read (Elt F) ((Memref.whole main_v0_scv).slice (Rect.unit (s := S100000x128) ![0, 0] S100000x128.size inbT) hsT).view tab i = tab i := by
  rw [View.read_apply]
  show tab _ = tab _
  refine congrArg tab (funext fun a => Fin.ext ?_)
  match a with
  | ⟨0, _⟩ => show 0 + 1 * (i 0).val = (i 0).val; omega
  | ⟨1, _⟩ => show 0 + 1 * (i 1).val = (i 1).val; omega

/-- (G) the payload of a gather from the 100000-row table by a one-row window of index buffer 0. -/
theorem gathered_payload_v0_0 {T : ℕ} (tab : Buf (Elt F) ((Memref.whole main_v0_scv).view.loc (thr d L)))
    (g : Buf (Elt F) ((Memref.whole cc2_scratch0).view.loc (thr d L)))
    (hg : S100000x128.Gathers 0 ⟨2, ![T, 128]⟩)
    (inbT : ∀ a, (![0, 0] : Fin 2 → ℕ) a + S100000x128.size a ≤ S100000x128.size a)
    (hsT : ∀ a, (Rect.unit (s := S100000x128) ![0, 0] S100000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch0).slice (Rect.unit (s := S8x200) row sz hinb) hs).squeeze ⟨1, ![T]⟩ hq).view g x : BitVec 32).toNat < 100000) :
    Gathered 100000 T (by decide)
      (SparseCore.gatherPayload (F := F) hg
        (View.read (Elt F) ((Memref.whole main_v0_scv).slice (Rect.unit (s := S100000x128) ![0, 0] S100000x128.size inbT) hsT).view tab)
        (SparseCore.rows (F := F) (View.read (Elt F) (((Memref.whole cc2_scratch0).slice (Rect.unit (s := S8x200) row sz hinb) hs).squeeze ⟨1, ![T]⟩ hq).view g) hn hin))
      tab g k8 c0 hc :=
  gathered_of_reads (by decide) hg _ tab (table_read_v0 d L tab inbT hsT) g k8 c0 hc _ hn hin
    (fun t => window_read0 d L g k8 c0 hc row sz hrow hsz hinb hs hq hn t)

/-- (G) the payload of a gather from the 100000-row table by a one-row window of index buffer 1. -/
theorem gathered_payload_v0_1 {T : ℕ} (tab : Buf (Elt F) ((Memref.whole main_v0_scv).view.loc (thr d L)))
    (g : Buf (Elt F) ((Memref.whole cc2_scratch1).view.loc (thr d L)))
    (hg : S100000x128.Gathers 0 ⟨2, ![T, 128]⟩)
    (inbT : ∀ a, (![0, 0] : Fin 2 → ℕ) a + S100000x128.size a ≤ S100000x128.size a)
    (hsT : ∀ a, (Rect.unit (s := S100000x128) ![0, 0] S100000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch1).slice (Rect.unit (s := S8x200) row sz hinb) hs).squeeze ⟨1, ![T]⟩ hq).view g x : BitVec 32).toNat < 100000) :
    Gathered 100000 T (by decide)
      (SparseCore.gatherPayload (F := F) hg
        (View.read (Elt F) ((Memref.whole main_v0_scv).slice (Rect.unit (s := S100000x128) ![0, 0] S100000x128.size inbT) hsT).view tab)
        (SparseCore.rows (F := F) (View.read (Elt F) (((Memref.whole cc2_scratch1).slice (Rect.unit (s := S8x200) row sz hinb) hs).squeeze ⟨1, ![T]⟩ hq).view g) hn hin))
      tab g k8 c0 hc :=
  gathered_of_reads (by decide) hg _ tab (table_read_v0 d L tab inbT hsT) g k8 c0 hc _ hn hin
    (fun t => window_read1 d L g k8 c0 hc row sz hrow hsz hinb hs hq hn t)

/-- (G) the payload of a gather from the 100000-row table by a one-row window of index buffer 2. -/
theorem gathered_payload_v0_2 {T : ℕ} (tab : Buf (Elt F) ((Memref.whole main_v0_scv).view.loc (thr d L)))
    (g : Buf (Elt F) ((Memref.whole cc2_scratch2).view.loc (thr d L)))
    (hg : S100000x128.Gathers 0 ⟨2, ![T, 128]⟩)
    (inbT : ∀ a, (![0, 0] : Fin 2 → ℕ) a + S100000x128.size a ≤ S100000x128.size a)
    (hsT : ∀ a, (Rect.unit (s := S100000x128) ![0, 0] S100000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch2).slice (Rect.unit (s := S8x200) row sz hinb) hs).squeeze ⟨1, ![T]⟩ hq).view g x : BitVec 32).toNat < 100000) :
    Gathered 100000 T (by decide)
      (SparseCore.gatherPayload (F := F) hg
        (View.read (Elt F) ((Memref.whole main_v0_scv).slice (Rect.unit (s := S100000x128) ![0, 0] S100000x128.size inbT) hsT).view tab)
        (SparseCore.rows (F := F) (View.read (Elt F) (((Memref.whole cc2_scratch2).slice (Rect.unit (s := S8x200) row sz hinb) hs).squeeze ⟨1, ![T]⟩ hq).view g) hn hin))
      tab g k8 c0 hc :=
  gathered_of_reads (by decide) hg _ tab (table_read_v0 d L tab inbT hsT) g k8 c0 hc _ hn hin
    (fun t => window_read2 d L g k8 c0 hc row sz hrow hsz hinb hs hq hn t)

/-- (G) the payload of a gather from the 100000-row table by a one-row window of index buffer 3. -/
theorem gathered_payload_v0_3 {T : ℕ} (tab : Buf (Elt F) ((Memref.whole main_v0_scv).view.loc (thr d L)))
    (g : Buf (Elt F) ((Memref.whole cc2_scratch3).view.loc (thr d L)))
    (hg : S100000x128.Gathers 0 ⟨2, ![T, 128]⟩)
    (inbT : ∀ a, (![0, 0] : Fin 2 → ℕ) a + S100000x128.size a ≤ S100000x128.size a)
    (hsT : ∀ a, (Rect.unit (s := S100000x128) ![0, 0] S100000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch3).slice (Rect.unit (s := S8x200) row sz hinb) hs).squeeze ⟨1, ![T]⟩ hq).view g x : BitVec 32).toNat < 100000) :
    Gathered 100000 T (by decide)
      (SparseCore.gatherPayload (F := F) hg
        (View.read (Elt F) ((Memref.whole main_v0_scv).slice (Rect.unit (s := S100000x128) ![0, 0] S100000x128.size inbT) hsT).view tab)
        (SparseCore.rows (F := F) (View.read (Elt F) (((Memref.whole cc2_scratch3).slice (Rect.unit (s := S8x200) row sz hinb) hs).squeeze ⟨1, ![T]⟩ hq).view g) hn hin))
      tab g k8 c0 hc :=
  gathered_of_reads (by decide) hg _ tab (table_read_v0 d L tab inbT hsT) g k8 c0 hc _ hn hin
    (fun t => window_read3 d L g k8 c0 hc row sz hrow hsz hinb hs hq hn t)

omit [FloatOps F] in
/-- The whole of the 1000000-row table read through its full-size window at the origin is the table. -/
theorem table_read_v1 (tab : Buf (Elt F) ((Memref.whole main_v1_scv).view.loc (thr d L)))
    (inbT : ∀ a, (![0, 0] : Fin 2 → ℕ) a + S1000000x128.size a ≤ S1000000x128.size a)
    (hsT : ∀ a, (Rect.unit (s := S1000000x128) ![0, 0] S1000000x128.size inbT).stride a = 1) (i : S1000000x128.Idx) :
    View.read (Elt F) ((Memref.whole main_v1_scv).slice (Rect.unit (s := S1000000x128) ![0, 0] S1000000x128.size inbT) hsT).view tab i = tab i := by
  rw [View.read_apply]
  show tab _ = tab _
  refine congrArg tab (funext fun a => Fin.ext ?_)
  match a with
  | ⟨0, _⟩ => show 0 + 1 * (i 0).val = (i 0).val; omega
  | ⟨1, _⟩ => show 0 + 1 * (i 1).val = (i 1).val; omega

/-- (G) the payload of a gather from the 1000000-row table by a one-row window of index buffer 0. -/
theorem gathered_payload_v1_0 {T : ℕ} (tab : Buf (Elt F) ((Memref.whole main_v1_scv).view.loc (thr d L)))
    (g : Buf (Elt F) ((Memref.whole cc2_scratch0).view.loc (thr d L)))
    (hg : S1000000x128.Gathers 0 ⟨2, ![T, 128]⟩)
    (inbT : ∀ a, (![0, 0] : Fin 2 → ℕ) a + S1000000x128.size a ≤ S1000000x128.size a)
    (hsT : ∀ a, (Rect.unit (s := S1000000x128) ![0, 0] S1000000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch0).slice (Rect.unit (s := S8x200) row sz hinb) hs).squeeze ⟨1, ![T]⟩ hq).view g x : BitVec 32).toNat < 1000000) :
    Gathered 1000000 T (by decide)
      (SparseCore.gatherPayload (F := F) hg
        (View.read (Elt F) ((Memref.whole main_v1_scv).slice (Rect.unit (s := S1000000x128) ![0, 0] S1000000x128.size inbT) hsT).view tab)
        (SparseCore.rows (F := F) (View.read (Elt F) (((Memref.whole cc2_scratch0).slice (Rect.unit (s := S8x200) row sz hinb) hs).squeeze ⟨1, ![T]⟩ hq).view g) hn hin))
      tab g k8 c0 hc :=
  gathered_of_reads (by decide) hg _ tab (table_read_v1 d L tab inbT hsT) g k8 c0 hc _ hn hin
    (fun t => window_read0 d L g k8 c0 hc row sz hrow hsz hinb hs hq hn t)

/-- (G) the payload of a gather from the 1000000-row table by a one-row window of index buffer 1. -/
theorem gathered_payload_v1_1 {T : ℕ} (tab : Buf (Elt F) ((Memref.whole main_v1_scv).view.loc (thr d L)))
    (g : Buf (Elt F) ((Memref.whole cc2_scratch1).view.loc (thr d L)))
    (hg : S1000000x128.Gathers 0 ⟨2, ![T, 128]⟩)
    (inbT : ∀ a, (![0, 0] : Fin 2 → ℕ) a + S1000000x128.size a ≤ S1000000x128.size a)
    (hsT : ∀ a, (Rect.unit (s := S1000000x128) ![0, 0] S1000000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch1).slice (Rect.unit (s := S8x200) row sz hinb) hs).squeeze ⟨1, ![T]⟩ hq).view g x : BitVec 32).toNat < 1000000) :
    Gathered 1000000 T (by decide)
      (SparseCore.gatherPayload (F := F) hg
        (View.read (Elt F) ((Memref.whole main_v1_scv).slice (Rect.unit (s := S1000000x128) ![0, 0] S1000000x128.size inbT) hsT).view tab)
        (SparseCore.rows (F := F) (View.read (Elt F) (((Memref.whole cc2_scratch1).slice (Rect.unit (s := S8x200) row sz hinb) hs).squeeze ⟨1, ![T]⟩ hq).view g) hn hin))
      tab g k8 c0 hc :=
  gathered_of_reads (by decide) hg _ tab (table_read_v1 d L tab inbT hsT) g k8 c0 hc _ hn hin
    (fun t => window_read1 d L g k8 c0 hc row sz hrow hsz hinb hs hq hn t)

/-- (G) the payload of a gather from the 1000000-row table by a one-row window of index buffer 2. -/
theorem gathered_payload_v1_2 {T : ℕ} (tab : Buf (Elt F) ((Memref.whole main_v1_scv).view.loc (thr d L)))
    (g : Buf (Elt F) ((Memref.whole cc2_scratch2).view.loc (thr d L)))
    (hg : S1000000x128.Gathers 0 ⟨2, ![T, 128]⟩)
    (inbT : ∀ a, (![0, 0] : Fin 2 → ℕ) a + S1000000x128.size a ≤ S1000000x128.size a)
    (hsT : ∀ a, (Rect.unit (s := S1000000x128) ![0, 0] S1000000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch2).slice (Rect.unit (s := S8x200) row sz hinb) hs).squeeze ⟨1, ![T]⟩ hq).view g x : BitVec 32).toNat < 1000000) :
    Gathered 1000000 T (by decide)
      (SparseCore.gatherPayload (F := F) hg
        (View.read (Elt F) ((Memref.whole main_v1_scv).slice (Rect.unit (s := S1000000x128) ![0, 0] S1000000x128.size inbT) hsT).view tab)
        (SparseCore.rows (F := F) (View.read (Elt F) (((Memref.whole cc2_scratch2).slice (Rect.unit (s := S8x200) row sz hinb) hs).squeeze ⟨1, ![T]⟩ hq).view g) hn hin))
      tab g k8 c0 hc :=
  gathered_of_reads (by decide) hg _ tab (table_read_v1 d L tab inbT hsT) g k8 c0 hc _ hn hin
    (fun t => window_read2 d L g k8 c0 hc row sz hrow hsz hinb hs hq hn t)

/-- (G) the payload of a gather from the 1000000-row table by a one-row window of index buffer 3. -/
theorem gathered_payload_v1_3 {T : ℕ} (tab : Buf (Elt F) ((Memref.whole main_v1_scv).view.loc (thr d L)))
    (g : Buf (Elt F) ((Memref.whole cc2_scratch3).view.loc (thr d L)))
    (hg : S1000000x128.Gathers 0 ⟨2, ![T, 128]⟩)
    (inbT : ∀ a, (![0, 0] : Fin 2 → ℕ) a + S1000000x128.size a ≤ S1000000x128.size a)
    (hsT : ∀ a, (Rect.unit (s := S1000000x128) ![0, 0] S1000000x128.size inbT).stride a = 1)
    (k8 : Fin 8) (c0 : ℕ) (hc : c0 + T ≤ 200)
    (row sz : Fin 2 → ℕ) (hrow : row = ![k8.val, c0]) (hsz : sz = ![1, T]) (hinb : ∀ a, row a + sz a ≤ S8x200.size a)
    (hs : ∀ a, (Rect.unit (s := S8x200) row sz hinb).stride a = 1)
    (hq : (Rect.unit (s := S8x200) row sz hinb).shape.Squeezes ⟨1, ![T]⟩) (hn : (⟨1, ![T]⟩ : Shape).numel = T)
    (hin : ∀ x, (View.read (Elt F) (((Memref.whole cc2_scratch3).slice (Rect.unit (s := S8x200) row sz hinb) hs).squeeze ⟨1, ![T]⟩ hq).view g x : BitVec 32).toNat < 1000000) :
    Gathered 1000000 T (by decide)
      (SparseCore.gatherPayload (F := F) hg
        (View.read (Elt F) ((Memref.whole main_v1_scv).slice (Rect.unit (s := S1000000x128) ![0, 0] S1000000x128.size inbT) hsT).view tab)
        (SparseCore.rows (F := F) (View.read (Elt F) (((Memref.whole cc2_scratch3).slice (Rect.unit (s := S8x200) row sz hinb) hs).squeeze ⟨1, ![T]⟩ hq).view g) hn hin))
      tab g k8 c0 hc :=
  gathered_of_reads (by decide) hg _ tab (table_read_v1 d L tab inbT hsT) g k8 c0 hc _ hn hin
    (fun t => window_read3 d L g k8 c0 hc row sz hrow hsz hinb hs hq hn t)

/-! ## Buffers written whole, and the staged index rows -/

omit [FloatOps F] in
/-- (S) gathered buffer 4 after its newest whole piece reads that piece. -/
theorem read_whole_piece4 (base : Buf (Elt F) ((Memref.whole cc2_scratch4).view.loc (thr d L)))
    (p : S128x128.Idx → Elt F .f32) (Ls : List (View.Piece (Elt F) S128x128 .f32)) (i : S128x128.Idx) :
    ((Memref.whole cc2_scratch4).view.writes (Elt F) base (⟨Rect.whole S128x128, p⟩ :: Ls) : S128x128.Idx → Elt F .f32) i = p i := by
  have hx : (Rect.whole S128x128).emb i = i := by
    funext a; refine Fin.ext ?_
    show 0 + 1 * (i a).val = (i a).val
    omega
  have e := View.read_writes_cons_emb (v := (Memref.whole cc2_scratch4).view) (f := base) (Rect.whole S128x128) p Ls i
  rw [hx, View.read_apply] at e
  exact e

omit [FloatOps F] in
/-- (S) gathered buffer 5 after its newest whole piece reads that piece. -/
theorem read_whole_piece5 (base : Buf (Elt F) ((Memref.whole cc2_scratch5).view.loc (thr d L)))
    (p : S128x128.Idx → Elt F .f32) (Ls : List (View.Piece (Elt F) S128x128 .f32)) (i : S128x128.Idx) :
    ((Memref.whole cc2_scratch5).view.writes (Elt F) base (⟨Rect.whole S128x128, p⟩ :: Ls) : S128x128.Idx → Elt F .f32) i = p i := by
  have hx : (Rect.whole S128x128).emb i = i := by
    funext a; refine Fin.ext ?_
    show 0 + 1 * (i a).val = (i a).val
    omega
  have e := View.read_writes_cons_emb (v := (Memref.whole cc2_scratch5).view) (f := base) (Rect.whole S128x128) p Ls i
  rw [hx, View.read_apply] at e
  exact e

omit [FloatOps F] in
/-- (S) gathered buffer 6 after its newest whole piece reads that piece. -/
theorem read_whole_piece6 (base : Buf (Elt F) ((Memref.whole cc2_scratch6).view.loc (thr d L)))
    (p : S72x128.Idx → Elt F .f32) (Ls : List (View.Piece (Elt F) S72x128 .f32)) (i : S72x128.Idx) :
    ((Memref.whole cc2_scratch6).view.writes (Elt F) base (⟨Rect.whole S72x128, p⟩ :: Ls) : S72x128.Idx → Elt F .f32) i = p i := by
  have hx : (Rect.whole S72x128).emb i = i := by
    funext a; refine Fin.ext ?_
    show 0 + 1 * (i a).val = (i a).val
    omega
  have e := View.read_writes_cons_emb (v := (Memref.whole cc2_scratch6).view) (f := base) (Rect.whole S72x128) p Ls i
  rw [hx, View.read_apply] at e
  exact e

omit [FloatOps F] in
/-- (S) gathered buffer 7 after its newest whole piece reads that piece. -/
theorem read_whole_piece7 (base : Buf (Elt F) ((Memref.whole cc2_scratch7).view.loc (thr d L)))
    (p : S72x128.Idx → Elt F .f32) (Ls : List (View.Piece (Elt F) S72x128 .f32)) (i : S72x128.Idx) :
    ((Memref.whole cc2_scratch7).view.writes (Elt F) base (⟨Rect.whole S72x128, p⟩ :: Ls) : S72x128.Idx → Elt F .f32) i = p i := by
  have hx : (Rect.whole S72x128).emb i = i := by
    funext a; refine Fin.ext ?_
    show 0 + 1 * (i a).val = (i a).val
    omega
  have e := View.read_writes_cons_emb (v := (Memref.whole cc2_scratch7).view) (f := base) (Rect.whole S72x128) p Ls i
  rw [hx, View.read_apply] at e
  exact e

omit [FloatOps F] in
/-- (R) eight rows of index matrix 0 staged from row n are rows n … n+7 of the matrix. -/
theorem rows_of_stage0 (fwi : Buf (Elt F) ((Memref.whole main_arg0_scv).view.loc (thr d L))) (n : ℕ) (hn : n + 8 ≤ 4096)
    (off : Fin 2 → ℕ) (hoff : off = ![n, 0]) (hb : ∀ a, off a + S8x200.size a ≤ S4096x200.size a)
    (hs : ∀ a, (Rect.unit (s := S4096x200) off S8x200.size hb).stride a = 1) :
    RowsAt (ReadAs.same.apply (View.read (Elt F) ((Memref.whole main_arg0_scv).slice (Rect.unit (s := S4096x200) off S8x200.size hb) hs).view fwi)) fwi n := by
  subst hoff
  intro r c
  have hr := r.isLt
  show fwi _ = fwi _
  refine congrArg fwi (funext fun a => Fin.ext ?_)
  match a with
  | ⟨0, _⟩ =>
    show n + 1 * r.val = (n + r.val) % 4096
    rw [Nat.mod_eq_of_lt (by omega)]; omega
  | ⟨1, _⟩ =>
    show 0 + 1 * c.val = c.val
    omega

omit [FloatOps F] in
/-- (R) eight rows of index matrix 1 staged from row n are rows n … n+7 of the matrix. -/
theorem rows_of_stage1 (fwi : Buf (Elt F) ((Memref.whole main_arg1_scv).view.loc (thr d L))) (n : ℕ) (hn : n + 8 ≤ 4096)
    (off : Fin 2 → ℕ) (hoff : off = ![n, 0]) (hb : ∀ a, off a + S8x200.size a ≤ S4096x200.size a)
    (hs : ∀ a, (Rect.unit (s := S4096x200) off S8x200.size hb).stride a = 1) :
    RowsAt (ReadAs.same.apply (View.read (Elt F) ((Memref.whole main_arg1_scv).slice (Rect.unit (s := S4096x200) off S8x200.size hb) hs).view fwi)) fwi n := by
  subst hoff
  intro r c
  have hr := r.isLt
  show fwi _ = fwi _
  refine congrArg fwi (funext fun a => Fin.ext ?_)
  match a with
  | ⟨0, _⟩ =>
    show n + 1 * r.val = (n + r.val) % 4096
    rw [Nat.mod_eq_of_lt (by omega)]; omega
  | ⟨1, _⟩ =>
    show 0 + 1 * c.val = c.val
    omega

omit [FloatOps F] in
/-- (S') index buffer 0 overwritten whole by rows n … n+7 of an index matrix holds those rows. -/
theorem rowsAt_write0 (g0 : Buf (Elt F) ((Memref.whole cc2_scratch0).view.loc (thr d L))) (pay : S8x200.Idx → Elt F .i32)
    (fw : S4096x200.Idx → BitVec 32) (n : ℕ) (h : RowsAt pay fw n) :
    RowsAt (View.write (Elt F) (Memref.whole cc2_scratch0).view g0 pay Finset.univ) fw n := by
  intro r c
  rw [write_univ0]; exact h r c

omit [FloatOps F] in
/-- (S') index buffer 1 overwritten whole by rows n … n+7 of an index matrix holds those rows. -/
theorem rowsAt_write1 (g0 : Buf (Elt F) ((Memref.whole cc2_scratch1).view.loc (thr d L))) (pay : S8x200.Idx → Elt F .i32)
    (fw : S4096x200.Idx → BitVec 32) (n : ℕ) (h : RowsAt pay fw n) :
    RowsAt (View.write (Elt F) (Memref.whole cc2_scratch1).view g0 pay Finset.univ) fw n := by
  intro r c
  rw [write_univ1]; exact h r c

omit [FloatOps F] in
/-- (S') index buffer 2 overwritten whole by rows n … n+7 of an index matrix holds those rows. -/
theorem rowsAt_write2 (g0 : Buf (Elt F) ((Memref.whole cc2_scratch2).view.loc (thr d L))) (pay : S8x200.Idx → Elt F .i32)
    (fw : S4096x200.Idx → BitVec 32) (n : ℕ) (h : RowsAt pay fw n) :
    RowsAt (View.write (Elt F) (Memref.whole cc2_scratch2).view g0 pay Finset.univ) fw n := by
  intro r c
  rw [write_univ2]; exact h r c

omit [FloatOps F] in
/-- (S') index buffer 3 overwritten whole by rows n … n+7 of an index matrix holds those rows. -/
theorem rowsAt_write3 (g0 : Buf (Elt F) ((Memref.whole cc2_scratch3).view.loc (thr d L))) (pay : S8x200.Idx → Elt F .i32)
    (fw : S4096x200.Idx → BitVec 32) (n : ℕ) (h : RowsAt pay fw n) :
    RowsAt (View.write (Elt F) (Memref.whole cc2_scratch3).view g0 pay Finset.univ) fw n := by
  intro r c
  rw [write_univ3]; exact h r c

/-! ## A chunk copied out -/

/-- THE STEP OF THE INVARIANT. The flat result is right on the first n rows of the worker's block, n the rows before
    entry (Rs + k8, c0) of the block; T entries from there are gathered from both tables through lists holding rows
    Rs … Rs+7 of the index matrices, summed on the first hundred columns into `w`, and `w` is written over rows
    [200·R0 + n, +T) of the result: then it is right on the first n + T rows. Row 200·(Rs + k8) + c0 + t of the flat
    result stands for position (Rs + k8, c0 + t). -/
theorem chunk_done_core {T : ℕ} (fwi fei : S4096x200.Idx → BitVec 32) (fwt : S100000x128.Idx → F .f32) (fet : S1000000x128.Idx → F .f32)
    (R0 : ℕ) (fo : Buf (Elt F) ((Memref.whole main_v2_scv).view.loc (thr d L))) (n : ℕ)
    (hdone : DoneUpTo fwi fei fwt fet R0 fo n)
    (gW gE : S8x200.Idx → BitVec 32) (Rs : ℕ) (hW : RowsAt gW fwi Rs) (hE : RowsAt gE fei Rs)
    (k8 : Fin 8) (c0 : ℕ) (hc : c0 + T ≤ 200)
    (pa pb : (⟨2, ![T, 128]⟩ : Shape).Idx → F .f32)
    (hpa : Gathered 100000 T (by decide) pa fwt gW k8 c0 hc) (hpb : Gathered 1000000 T (by decide) pb fet gE k8 c0 hc)
    (w : (⟨2, ![T, 100]⟩ : Shape).Idx → F .f32) (hsum : Summed T w pa pb)
    (hn : n = ((Rs + k8.val) - R0) * 200 + c0) (hR : R0 ≤ Rs + k8.val) (hlt : Rs + k8.val < 4096)
    (off : Fin 2 → ℕ) (hoff : off = ![R0 * 200 + n, 0])
    (hinb : ∀ a, off a + (![T, 100] : Fin 2 → ℕ) a ≤ S819200x100.size a)
    (hs : ∀ a, (Rect.unit (s := S819200x100) off ![T, 100] hinb).stride a = 1) :
    DoneUpTo fwi fei fwt fet R0
      (View.write (Elt F) ((Memref.whole main_v2_scv).slice (Rect.unit (s := S819200x100) off ![T, 100] hinb) hs).view fo w Finset.univ) (n + T) := by
  subst hoff
  intro j hlo hhi
  by_cases hj : (j 0).val < R0 * 200 + n
  · -- a row before the chunk: not written
    have hnot : j ∉ ((Memref.whole main_v2_scv).slice (Rect.unit (s := S819200x100) ![R0 * 200 + n, 0] ![T, 100] hinb) hs).view.setOn Finset.univ := by
      intro hmem
      rw [View.setOn_univ] at hmem
      have hmem' : j ∈ (Rect.unit (s := S819200x100) ![R0 * 200 + n, 0] ![T, 100] hinb).set := by
        rw [← View.set_slice_whole main_v2_scv]; exact hmem
      have h0 := (Rect.mem_set_unit.mp hmem') 0
      have : (![R0 * 200 + n, 0] : Fin 2 → ℕ) 0 = R0 * 200 + n := rfl
      omega
    rw [View.write_of_not_mem _ _ _ hnot]
    exact hdone j hlo hj
  · -- a row of the chunk: entry t = row − first row, column j 1
    have ht : (j 0).val - (R0 * 200 + n) < T := by omega
    have hjx : ((Memref.whole main_v2_scv).slice (Rect.unit (s := S819200x100) ![R0 * 200 + n, 0] ![T, 100] hinb) hs).view.emb
        (ix2 (n0 := T) (n1 := 100) ⟨(j 0).val - (R0 * 200 + n), ht⟩ (j 1)) = j := by
      funext a
      refine Fin.ext ?_
      match a with
      | ⟨0, _⟩ => show R0 * 200 + n + 1 * ((j 0).val - (R0 * 200 + n)) = (j 0).val; omega
      | ⟨1, _⟩ => show 0 + 1 * (j 1).val = (j 1).val; omega
    have key : View.write (Elt F) ((Memref.whole main_v2_scv).slice (Rect.unit (s := S819200x100) ![R0 * 200 + n, 0] ![T, 100] hinb) hs).view fo w Finset.univ j
        = w (ix2 (n0 := T) (n1 := 100) ⟨(j 0).val - (R0 * 200 + n), ht⟩ (j 1)) := by
      have e := View.write_emb_of_mem (v := ((Memref.whole main_v2_scv).slice (Rect.unit (s := S819200x100) ![R0 * 200 + n, 0] ![T, 100] hinb) hs).view)
        fo w (Finset.mem_univ (ix2 (n0 := T) (n1 := 100) ⟨(j 0).val - (R0 * 200 + n), ht⟩ (j 1)))
      rw [hjx] at e
      exact e
    have hpos : Cert.EmbSpec.posOf (j 0)
        = ix2 (n0 := 4096) (n1 := 200) (rowIx (Rs + k8.val)) ⟨c0 + ((j 0).val - (R0 * 200 + n)), by omega⟩ := by
      funext a
      refine Fin.ext ?_
      match a with
      | ⟨0, _⟩ => show (j 0).val / 200 = (Rs + k8.val) % 4096; omega
      | ⟨1, _⟩ => show (j 0).val % 200 = c0 + ((j 0).val - (R0 * 200 + n)); omega
    rw [key, hsum ⟨(j 0).val - (R0 * 200 + n), ht⟩ (j 1), hpa ⟨(j 0).val - (R0 * 200 + n), ht⟩ (Cert.EmbSpec.col128 (j 1)),
      hpb ⟨(j 0).val - (R0 * 200 + n), ht⟩ (Cert.EmbSpec.col128 (j 1)), hW k8 _, hE k8 _]
    show _ = FloatOps.addf
      (fwt (ix2 (n0 := 100000) (n1 := 128) (Cert.EmbSpec.rowOf 100000 (by decide) (fwi (Cert.EmbSpec.posOf (j 0)))) (Cert.EmbSpec.col128 (j 1))))
      (fet (ix2 (n0 := 1000000) (n1 := 128) (Cert.EmbSpec.rowOf 1000000 (by decide) (fei (Cert.EmbSpec.posOf (j 0)))) (Cert.EmbSpec.col128 (j 1))))
    rw [hpos]

/-- (W) the chunk of 128 entries copied out of sum buffer 8. -/
theorem chunk_done128 (fwi fei : S4096x200.Idx → BitVec 32) (fwt : S100000x128.Idx → F .f32) (fet : S1000000x128.Idx → F .f32)
    (R0 : ℕ) (fo : Buf (Elt F) ((Memref.whole main_v2_scv).view.loc (thr d L))) (n : ℕ)
    (hdone : DoneUpTo fwi fei fwt fet R0 fo n)
    (gW gE : S8x200.Idx → BitVec 32) (Rs : ℕ) (hW : RowsAt gW fwi Rs) (hE : RowsAt gE fei Rs)
    (k8 : Fin 8) (c0 : ℕ) (hc : c0 + 128 ≤ 200)
    (pa pb ga gb : (⟨2, ![128, 128]⟩ : Shape).Idx → F .f32)
    (hpa : Gathered 100000 128 (by decide) pa fwt gW k8 c0 hc) (hpb : Gathered 1000000 128 (by decide) pb fet gE k8 c0 hc)
    (hga : ∀ i, ga i = pa i) (hgb : ∀ i, gb i = pb i)
    (h : Buf (Elt F) ((Memref.whole cc2_scratch8).view.loc (thr d L))) (hsum : Summed 128 h ga gb)
    (hn : n = ((Rs + k8.val) - R0) * 200 + c0) (hR : R0 ≤ Rs + k8.val) (hlt : Rs + k8.val < 4096)
    (off : Fin 2 → ℕ) (hoff : off = ![R0 * 200 + n, 0])
    (hinb : ∀ a, off a + S128x100.size a ≤ S819200x100.size a)
    (hs : ∀ a, (Rect.unit (s := S819200x100) off S128x100.size hinb).stride a = 1) :
    DoneUpTo fwi fei fwt fet R0
      (View.write (Elt F) ((Memref.whole main_v2_scv).slice (Rect.unit (s := S819200x100) off S128x100.size hinb) hs).view fo
        (ReadAs.same.apply (View.read (Elt F) (Memref.whole cc2_scratch8).view h)) Finset.univ) (n + 128) :=
  chunk_done_core d L fwi fei fwt fet R0 fo n hdone gW gE Rs hW hE k8 c0 hc pa pb hpa hpb
    (ReadAs.same.apply (View.read (Elt F) (Memref.whole cc2_scratch8).view h))
    (fun t c => by rw [← hga, ← hgb]; exact hsum t c) hn hR hlt off hoff hinb hs

/-- (W) the chunk of 72 entries copied out of sum buffer 9. -/
theorem chunk_done72 (fwi fei : S4096x200.Idx → BitVec 32) (fwt : S100000x128.Idx → F .f32) (fet : S1000000x128.Idx → F .f32)
    (R0 : ℕ) (fo : Buf (Elt F) ((Memref.whole main_v2_scv).view.loc (thr d L))) (n : ℕ)
    (hdone : DoneUpTo fwi fei fwt fet R0 fo n)
    (gW gE : S8x200.Idx → BitVec 32) (Rs : ℕ) (hW : RowsAt gW fwi Rs) (hE : RowsAt gE fei Rs)
    (k8 : Fin 8) (c0 : ℕ) (hc : c0 + 72 ≤ 200)
    (pa pb ga gb : (⟨2, ![72, 128]⟩ : Shape).Idx → F .f32)
    (hpa : Gathered 100000 72 (by decide) pa fwt gW k8 c0 hc) (hpb : Gathered 1000000 72 (by decide) pb fet gE k8 c0 hc)
    (hga : ∀ i, ga i = pa i) (hgb : ∀ i, gb i = pb i)
    (h : Buf (Elt F) ((Memref.whole cc2_scratch9).view.loc (thr d L))) (hsum : Summed 72 h ga gb)
    (hn : n = ((Rs + k8.val) - R0) * 200 + c0) (hR : R0 ≤ Rs + k8.val) (hlt : Rs + k8.val < 4096)
    (off : Fin 2 → ℕ) (hoff : off = ![R0 * 200 + n, 0])
    (hinb : ∀ a, off a + S72x100.size a ≤ S819200x100.size a)
    (hs : ∀ a, (Rect.unit (s := S819200x100) off S72x100.size hinb).stride a = 1) :
    DoneUpTo fwi fei fwt fet R0
      (View.write (Elt F) ((Memref.whole main_v2_scv).slice (Rect.unit (s := S819200x100) off S72x100.size hinb) hs).view fo
        (ReadAs.same.apply (View.read (Elt F) (Memref.whole cc2_scratch9).view h)) Finset.univ) (n + 72) :=
  chunk_done_core d L fwi fei fwt fet R0 fo n hdone gW gE Rs hW hE k8 c0 hc pa pb hpa hpb
    (ReadAs.same.apply (View.read (Elt F) (Memref.whole cc2_scratch9).view h))
    (fun t c => by rw [← hga, ← hgb]; exact hsum t c) hn hR hlt off hoff hinb hs

end Cert.Proof.KK

end
-- ==== Proof.KK.Body.lean ====
/-
  The worker's task around its outer loop. Before the loop the worker copies the first sixteen sentences' row numbers
  in — eight rows into the first pair of index buffers, waited for at once; eight into the second pair, left in flight
  as a batch of two copies on one semaphore — and starts gathering the first chunk of its first sentence from both
  widened tables. That is the loop's invariant at trip 0. Each of the eight trips keeps the invariant (the trip's own
  theorem). After the last trip the two gathers and the batch still in flight are waited for; everything lent comes
  back, every semaphore is at zero again, and the flat result is right on all 25600 rows of the worker's block, so the
  block holds the flat sum of the two look-ups.
-/
import proofs.«206319_g15771119910948_cont_week2b_672_19_alg».proof.Proof.KK.BodyTripSpec
import proofs.«206319_g15771119910948_cont_week2b_672_19_alg».proof.Proof.KK.BodyValue
import proofs.«206319_g15771119910948_cont_week2b_672_19_alg».proof.Proof.Gen.Kernel.Skeleton
import Idealize.ShloMosaic.Lib.Tactic
import Idealize.ShloMosaic.Lib.Batch

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

omit [FloatOps F] in
/-- Under the whole flat result's view a set of indices is itself. -/
theorem setOn_flat (M : Finset S819200x100.Idx) : (Memref.whole main_v2_scv).view.setOn M = M := by
  show M.map _ = M
  exact Finset.map_refl

omit [FloatOps F] in
/-- The loop has eight trips. -/
theorem trips_outer : Scf.trips k2_t1_loop.lb k2_t1_loop.ub k2_t1_loop.st = 8 := by decide

/-- A block that is right on all its 25600 rows holds the flat sum. -/
theorem block_done (fwi : Buf (Elt F) ((Memref.whole main_arg0_scv).view.loc (thr d L))) (fei : Buf (Elt F) ((Memref.whole main_arg1_scv).view.loc (thr d L))) (fwt : Buf (Elt F) ((Memref.whole main_v0_scv).view.loc (thr d L))) (fet : Buf (Elt F) ((Memref.whole main_v1_scv).view.loc (thr d L)))
    (fo : Buf (Elt F) ((Memref.whole main_v2_scv).view.loc (thr d L))) (h : DoneUpTo fwi fei fwt fet (R0 L) fo 25600) :
    ((Memref.whole main_v2_scv).view.loc (thr d L) ↦[(Memref.whole main_v2_scv).view.setOn (blkR L).set]{fullShare} fo : sProp 𝕄)
      = ((Memref.whole main_v2_scv).view.loc (thr d L) ↦[(Memref.whole main_v2_scv).view.setOn (blkR L).set]{fullShare} Cert.EmbSpec.flatSum (F := F) fwi fei fwt fet) := by
  rw [setOn_flat]
  refine pointsTo_congr fun i hi => ?_
  rw [Rect.mem_set_unit] at hi
  have h0 : 51200 * (L 1).val + 25600 * (L 0).val ≤ (i 0).val ∧ (i 0).val < 51200 * (L 1).val + 25600 * (L 0).val + 25600 := hi 0
  exact h i (by show (256 * (L 1).val + 128 * (L 0).val) * 200 ≤ (i 0).val; omega) (by show (i 0).val < (256 * (L 1).val + 128 * (L 0).val) * 200 + 25600; omega)

set_option maxHeartbeats 4000000 in
/-- The body, from what the worker is handed to what it hands back, given that a trip keeps the invariant. -/
theorem tile_run (q q' : PosShare TreeShare) (O : CellTallies nD τ sig (HIx 1)) (W : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L)))
    (fo : Buf (Elt F) ((Memref.whole main_v2_scv).view.loc (thr d L)))
    (f0 : Buf (Elt F) ((Memref.whole cc2_scratch0).view.loc (thr d L))) (f1 : Buf (Elt F) ((Memref.whole cc2_scratch1).view.loc (thr d L))) (f2 : Buf (Elt F) ((Memref.whole cc2_scratch2).view.loc (thr d L))) (f3 : Buf (Elt F) ((Memref.whole cc2_scratch3).view.loc (thr d L))) (f4 : Buf (Elt F) ((Memref.whole cc2_scratch4).view.loc (thr d L))) (f5 : Buf (Elt F) ((Memref.whole cc2_scratch5).view.loc (thr d L))) (f6 : Buf (Elt F) ((Memref.whole cc2_scratch6).view.loc (thr d L))) (f7 : Buf (Elt F) ((Memref.whole cc2_scratch7).view.loc (thr d L))) (f8 : Buf (Elt F) ((Memref.whole cc2_scratch8).view.loc (thr d L))) (f9 : Buf (Elt F) ((Memref.whole cc2_scratch9).view.loc (thr d L)))
    (hwi : ∀ j, (fwi j : BitVec 32).toNat < 100000) (hei : ∀ j, (fei j : BitVec 32).toNat < 1000000)
    (htrip : TripSpec d L q q' O W fwi fei fwt fet)
    (_planB : Transfers.BatchOf (thr d L) (SemLoc.dma (sig := sig) cc2_scratch15.sem) 2)
    (_planA : Transfers.BatchOf (thr d L) (SemLoc.dma (sig := sig) cc2_scratch14.sem) 2) :
    iprop(Transfers.MayWaits (thr d L) (none : HIx 1) O
        ∗ (((Memref.whole main_arg0_scv).view.loc (thr d L) ↦{q} fwi) ∗ ((Memref.whole main_arg0_scv).view.loc (thr d L) ↦{q'} fwi)
          ∗ ((Memref.whole main_arg1_scv).view.loc (thr d L) ↦{q} fei) ∗ ((Memref.whole main_arg1_scv).view.loc (thr d L) ↦{q'} fei)
          ∗ ((Memref.whole main_v0_scv).view.loc (thr d L) ↦{q} fwt) ∗ ((Memref.whole main_v0_scv).view.loc (thr d L) ↦{q'} fwt)
          ∗ ((Memref.whole main_v1_scv).view.loc (thr d L) ↦{q} fet) ∗ ((Memref.whole main_v1_scv).view.loc (thr d L) ↦{q'} fet))
        ∗ ((Memref.whole main_v2_scv).view.loc (thr d L) ↦[(Memref.whole main_v2_scv).view.setOn (blkR L).set]{fullShare} fo)
        ∗ scr d L f0 f1 f2 f3 f4 f5 f6 f7 f8 f9
        ∗ sems0 d L ∗ owes (thr d L) O W)
      ⊢ wp frame (wpE (defs₀ (F := F)) 𝒱₀ (thr d L) none) Set.univ
          (cc2__emb_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33)
          fun _ => iprop((((Memref.whole main_arg0_scv).view.loc (thr d L) ↦{q} fwi) ∗ ((Memref.whole main_arg0_scv).view.loc (thr d L) ↦{q'} fwi)
              ∗ ((Memref.whole main_arg1_scv).view.loc (thr d L) ↦{q} fei) ∗ ((Memref.whole main_arg1_scv).view.loc (thr d L) ↦{q'} fei)
              ∗ ((Memref.whole main_v0_scv).view.loc (thr d L) ↦{q} fwt) ∗ ((Memref.whole main_v0_scv).view.loc (thr d L) ↦{q'} fwt)
              ∗ ((Memref.whole main_v1_scv).view.loc (thr d L) ↦{q} fet) ∗ ((Memref.whole main_v1_scv).view.loc (thr d L) ↦{q'} fet))
            ∗ ((Memref.whole main_v2_scv).view.loc (thr d L) ↦[(Memref.whole main_v2_scv).view.setOn (blkR L).set]{fullShare} Cert.EmbSpec.flatSum (F := F) fwi fei fwt fet)
            ∗ (∃ f0 f1 f2 f3 f4 f5 f6 f7 f8 f9, scr d L f0 f1 f2 f3 f4 f5 f6 f7 f8 f9) ∗ sems0 d L
            ∗ ∃ W', ⌜∀ p ∈ W', p ∈ W ∨ p.2 = none⌝ ∗ owes (thr d L) O W') := by
  rw [cc2__emb_body_eq_skeleton]; unfold cc2__emb_body_skel
  unfold sems0 scr
  iintro ⟨Hmw, ⟨Hwi, Hwi', Hei, Hei', Hwt, Hwt', Het, Het'⟩, Ho, ⟨Hs0, Hs1, Hs2, Hs3, Hs4, Hs5, Hs6, Hs7, Hs8, Hs9⟩, ⟨Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39⟩, HO⟩
  -- the first sixteen sentences' row numbers in, the first two gathers started
  sl_exec_parts
  have hp0 : ∀ j, (tile_run.sl.dma0 d L fwi j : BitVec 32).toNat < 100000 := fun j => by
    unfold tile_run.sl.dma0; exact hwi _
  have hp1 : ∀ j, (tile_run.sl.dma0_1 d L fei j : BitVec 32).toNat < 1000000 := fun j => by
    unfold tile_run.sl.dma0_1; exact hei _
  have hin0 := lt_winw0 d L 100000 f0 _ hp0
  have hin1 := lt_winw1 d L 1000000 f1 _ hp1
  sl_exec_parts
  -- what the invariant says of the contents at trip 0
  have hL0 : (L 0).val < 2 := (L 0).isLt
  have hL1 : (L 1).val < 16 := (L 1).isLt
  have hR : R0 L + 16 ≤ 4096 := by unfold R0; omega
  have hsA : sA L 0 = R0 L := by unfold sA; omega
  have hsB : sB L 0 = R0 L + 8 := by unfold sB; omega
  have hp2 : ∀ j, (tile_run.sl.dma2 d L fwi j : BitVec 32).toNat < 100000 := fun j => by
    unfold tile_run.sl.dma2; exact hwi _
  have hp3 : ∀ j, (tile_run.sl.dma3 d L fei j : BitVec 32).toNat < 1000000 := fun j => by
    unfold tile_run.sl.dma3; exact hei _
  have hrA : RowsAt (tile_run.sl.dma0 d L fwi) fwi (R0 L) := by
    unfold tile_run.sl.dma0; exact rows_of_stage0 d L fwi (R0 L) (by omega) (k2_off1 L) (k2_off1_eq L) _ _
  have hrEA : RowsAt (tile_run.sl.dma0_1 d L fei) fei (R0 L) := by
    unfold tile_run.sl.dma0_1; exact rows_of_stage1 d L fei (R0 L) (by omega) (k2_off1 L) (k2_off1_eq L) _ _
  have hrB : RowsAt (tile_run.sl.dma2 d L fwi) fwi (R0 L + 8) := by
    unfold tile_run.sl.dma2; exact rows_of_stage0 d L fwi (R0 L + 8) (by omega) (k2_off2 L) (k2_off2_eq L) _ _
  have hrEB : RowsAt (tile_run.sl.dma3 d L fei) fei (R0 L + 8) := by
    unfold tile_run.sl.dma3; exact rows_of_stage1 d L fei (R0 L + 8) (by omega) (k2_off2 L) (k2_off2_eq L) _ _
  have hG0 : Gathered 100000 128 (by decide) (tile_run.sl.gather0 d L fwi fwt f0 hin0) fwt
      (View.write (Elt F) (Memref.whole cc2_scratch0).view f0 (tile_run.sl.dma0 d L fwi) Finset.univ) 0 0 (by decide) := by
    unfold tile_run.sl.gather0
    exact gathered_payload_v0_0 (T := 128) d L fwt _ _ _ _ 0 0 (by decide) _ _ rfl rfl _ _ _ _ _
  have hG1 : Gathered 1000000 128 (by decide) (tile_run.sl.gather1 d L fei fet f1 hin1) fet
      (View.write (Elt F) (Memref.whole cc2_scratch1).view f1 (tile_run.sl.dma0_1 d L fei) Finset.univ) 0 0 (by decide) := by
    unfold tile_run.sl.gather1
    exact gathered_payload_v1_1 (T := 128) d L fet _ _ _ _ 0 0 (by decide) _ _ rfl rfl _ _ _ _ _
  -- the eight trips
  sl_for (invOuter d L q q' O W fwi fei fwt fet) $$ [Hmw Ho Hs6 Hs7 Hs8 Hs9 HO Hwi Hwi' Hm5 Hei Hei' Hm0 Hwt Hwt' Hs4 Hs0 Hm1 Het Het' Hs5 Hs1 Hm2 Hm3 Hm4 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39]
  case region => intro w acc; exact htrip _ _ w acc
  · unfold invOuter
    iexists fo
    iexists (View.write (Elt F) (Memref.whole cc2_scratch0).view f0 (tile_run.sl.dma0 d L fwi) Finset.univ)
    iexists (View.write (Elt F) (Memref.whole cc2_scratch1).view f1 (tile_run.sl.dma0_1 d L fei) Finset.univ)
    iexists f2; iexists f3
    iexists ((Memref.whole cc2_scratch4).view.writes (Elt F) f4 [⟨Rect.whole cc2_scratch4.ty.shape, tile_run.sl.gather0 d L fwi fwt f0 hin0⟩])
    iexists ((Memref.whole cc2_scratch5).view.writes (Elt F) f5 [⟨Rect.whole cc2_scratch5.ty.shape, tile_run.sl.gather1 d L fei fet f1 hin1⟩])
    iexists f6; iexists f7; iexists f8; iexists f9
    iexists (tile_run.sl.dma2 d L fwi)
    iexists (tile_run.sl.dma3 d L fei)
    iexists (⟨k2_off2 L, Cert.Kernel.Gen.k2_off2_inb L⟩ : {off : Fin 2 → Nat // ∀ a, off a + S8x200.size a ≤ S4096x200.size a})
    iexists (insert (SemLoc.dma cc2_scoped1.sem, (default : HIx 1)) (insert (SemLoc.dma cc2_scoped0.sem, (default : HIx 1)) W))
    isplitl [Hmw]; · iexact Hmw
    isplitl [Ho]; · iexact Ho
    isplitl [Hs6]; · iexact Hs6
    isplitl [Hs7]; · iexact Hs7
    isplitl [Hs8]; · iexact Hs8
    isplitl [Hs9]; · iexact Hs9
    isplitl [HO]; · iexact HO
    isplitl [Hwi]; · iexact Hwi
    isplitl [Hwi']; · iexact Hwi'
    isplitl [Hm5]; · iexact Hm5
    isplitl [Hei]; · iexact Hei
    isplitl [Hei']; · iexact Hei'
    isplitl [Hm0]; · iexact Hm0
    isplitl [Hwt]; · iexact Hwt
    isplitl [Hwt']; · iexact Hwt'
    isplitl [Hs4]; · iexact Hs4
    isplitl [Hs0]; · iexact Hs0
    isplitl [Hm1]; · iexact Hm1
    isplitl [Het]; · iexact Het
    isplitl [Het']; · iexact Het'
    isplitl [Hs5]; · iexact Hs5
    isplitl [Hs1]; · iexact Hs1
    isplitl [Hm2]; · iexact Hm2
    isplitl [Hm3]; · iexact Hm3
    isplitl [Hm4]; · iexact Hm4
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    isplitl [Hm21]; · iexact Hm21
    isplitl [Hm22]; · iexact Hm22
    isplitl [Hm23]; · iexact Hm23
    isplitl [Hm24]; · iexact Hm24
    isplitl [Hm25]; · iexact Hm25
    isplitl [Hm26]; · iexact Hm26
    isplitl [Hm27]; · iexact Hm27
    isplitl [Hm28]; · iexact Hm28
    isplitl [Hm29]; · iexact Hm29
    isplitl [Hm30]; · iexact Hm30
    isplitl [Hm31]; · iexact Hm31
    isplitl [Hm32]; · iexact Hm32
    isplitl [Hm33]; · iexact Hm33
    isplitl [Hm34]; · iexact Hm34
    isplitl [Hm35]; · iexact Hm35
    isplitl [Hm36]; · iexact Hm36
    isplitl [Hm37]; · iexact Hm37
    isplitl [Hm38]; · iexact Hm38
    isplitl [Hm39]; · iexact Hm39
    ipureintro
    refine ⟨fun j => by rw [write_univ0]; exact hp0 j, fun j => by rw [write_univ1]; exact hp1 j, hp2, hp3, ?_, ?_, ?_, ?_, ?_,
      fun t c => (read_whole_piece4 d L _ _ _ _).trans (hG0 t c), fun t c => (read_whole_piece5 d L _ _ _ _).trans (hG1 t c), ?_⟩
    · intro p hp
      rcases Finset.mem_insert.mp hp with rfl | hp
      · exact .inr rfl
      rcases Finset.mem_insert.mp hp with rfl | hp
      · exact .inr rfl
      exact .inl hp
    · rw [hsA]; exact rowsAt_write0 d L f0 _ fwi _ hrA
    · rw [hsA]; exact rowsAt_write1 d L f1 _ fei _ hrEA
    · rw [hsB]; exact hrB
    · rw [hsB]; exact hrEB
    · intro j h1 h2; omega
  -- after the last trip: the gathers and the batch in flight waited for
  iintro %_ HI
  unfold invOuter
  icases HI with ⟨%fo', %gA, %gEA, %g2, %g3, %cA, %cB, %g6, %g7, %g8, %g9, %payB, %payEB, %ob, %W', Hmw, Ho, Hs6, Hs7, Hs8, Hs9, HO, Hwi, Hwi', Hm5, Hei, Hei', Hm0, Hwt, Hwt', Hs4, Hs0, Hm1, Het, Het', Hs5, Hs1, Hm2, Hm3, Hm4, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, Hm37, Hm38, Hm39, %hok⟩
  sl_exec_parts
  sl_step
  obtain ⟨-, -, -, -, hW', -, -, -, -, -, -, hdone⟩ := hok
  rw [trips_outer] at hdone
  isplitl [Hwi Hwi' Hei Hei' Hwt Hwt' Het Het']
  · isplitl [Hwi]; · iexact Hwi
    isplitl [Hwi']; · iexact Hwi'
    isplitl [Hei]; · iexact Hei
    isplitl [Hei']; · iexact Hei'
    isplitl [Hwt]; · iexact Hwt
    isplitl [Hwt']; · iexact Hwt'
    isplitl [Het]; · iexact Het
    iexact Het'
  isplitl [Ho]
  · ihave Ho' := (Entails.of_eq (block_done d L fwi fei fwt fet fo' hdone)) $$ Ho
    iexact Ho'
  isplitl [Hs0 Hs1 Hm5_dst0 Hm5_dst1 Hs4 Hs5 Hs6 Hs7 Hs8 Hs9]
  · iexists _; iexists _; iexists _; iexists _; iexists _; iexists _; iexists _; iexists _; iexists _; iexists _
    isplitl [Hs0]; · iexact Hs0
    isplitl [Hs1]; · iexact Hs1
    isplitl [Hm5_dst0]; · iexact Hm5_dst0
    isplitl [Hm5_dst1]; · iexact Hm5_dst1
    isplitl [Hs4]; · iexact Hs4
    isplitl [Hs5]; · iexact Hs5
    isplitl [Hs6]; · iexact Hs6
    isplitl [Hs7]; · iexact Hs7
    isplitl [Hs8]; · iexact Hs8
    iexact Hs9
  isplitl [Hm0 Hm1 Hm2 Hm3 Hm4 Hm5 Hm6 Hm7 Hm8 Hm9 Hm10 Hm11 Hm12 Hm13 Hm14 Hm15 Hm16 Hm17 Hm18 Hm19 Hm20 Hm21 Hm22 Hm23 Hm24 Hm25 Hm26 Hm27 Hm28 Hm29 Hm30 Hm31 Hm32 Hm33 Hm34 Hm35 Hm36 Hm37 Hm38 Hm39]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    isplitl [Hm19]; · iexact Hm19
    isplitl [Hm20]; · iexact Hm20
    isplitl [Hm21]; · iexact Hm21
    isplitl [Hm22]; · iexact Hm22
    isplitl [Hm23]; · iexact Hm23
    isplitl [Hm24]; · iexact Hm24
    isplitl [Hm25]; · iexact Hm25
    isplitl [Hm26]; · iexact Hm26
    isplitl [Hm27]; · iexact Hm27
    isplitl [Hm28]; · iexact Hm28
    isplitl [Hm29]; · iexact Hm29
    isplitl [Hm30]; · iexact Hm30
    isplitl [Hm31]; · iexact Hm31
    isplitl [Hm32]; · iexact Hm32
    isplitl [Hm33]; · iexact Hm33
    isplitl [Hm34]; · iexact Hm34
    isplitl [Hm35]; · iexact Hm35
    isplitl [Hm36]; · iexact Hm36
    isplitl [Hm37]; · iexact Hm37
    isplitl [Hm38]; · iexact Hm38
    iexact Hm39
  iexists _; isplitr
  swap; · iexact HO
  ipureintro
  intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact hW' p hp

/-- The worker's task meets its specification once a trip keeps the invariant. -/
theorem tile_body_of_trip (X : Arrays F) (hr : InRange X)
    (htrip : ∀ d L O W, (∀ g, O g none = 0) → TripSpec d L (qW L).left (qW L).right O W (X.wi d) (X.ei d) (X.wt d) (X.et d)) :
    TileBodySpec X := by
  intro d L O W hO f0 f1 f2 f3 f4 f5 f6 f7 f8 f9
  unfold tilePre tilePost inHalves outBlk
  exact tile_run d L (qW L).left (qW L).right O W (X.wi d) (X.ei d) (X.wt d) (X.et d) (X.o0 d) f0 f1 f2 f3 f4 f5 f6 f7 f8 f9
    (hr d).1 (hr d).2 (htrip d L O W hO) trivial trivial

end Cert.Proof.KK

end
-- ==== Proof.KK.BodyTripLemmas.lean ====
/-
  Arithmetic of one trip of the worker's loop: where the rows written for sentence k of trip w sit in the flat result,
  and which sentences the index buffers hold.
-/
import proofs.«206319_g15771119910948_cont_week2b_672_19_alg».proof.Proof.KK.BodyFacts

noncomputable section

namespace Cert.Proof.KK

open Cert.Kernel Cert.Kernel.Gen
open Idealize.ShloMosaic

variable {F : FTy → Type} [FloatOps F]

/-- The first chunk of sentence k of trip w starts at row 200·R0 + 3200·w + 200·k of the flat result; -/
theorem off17' (L : grid2.Coords) (w : Fin k2_t1_loop.trips) (k : Fin 16) :
    k2_off17 L w (BitVec.ofNat 32 k.val) = ![R0 L * 200 + (3200 * w.val + 200 * k.val), 0] :=
  (k2_off17_eq L w k).trans (by unfold R0; exact congrArg (fun a => ![a, 0]) (by omega))

/-- the second 128 rows further. -/
theorem off32' (L : grid2.Coords) (w : Fin k2_t1_loop.trips) (k : Fin 16) :
    k2_off32 L w (BitVec.ofNat 32 k.val) = ![R0 L * 200 + (3200 * w.val + 200 * k.val + 128), 0] :=
  (k2_off32_eq L w k).trans (by unfold R0; exact congrArg (fun a => ![a, 0]) (by omega))

/-- The same two with the sentence number a plain number below sixteen. -/
theorem off17n (L : grid2.Coords) (w : Fin k2_t1_loop.trips) (k : ℕ) (hk : k < 16) :
    k2_off17 L w (BitVec.ofNat 32 k) = ![R0 L * 200 + (3200 * w.val + 200 * k), 0] := off17' L w ⟨k, hk⟩
theorem off32n (L : grid2.Coords) (w : Fin k2_t1_loop.trips) (k : ℕ) (hk : k < 16) :
    k2_off32 L w (BitVec.ofNat 32 k) = ![R0 L * 200 + (3200 * w.val + 200 * k + 128), 0] := off32' L w ⟨k, hk⟩

/-- The rows staged into the first index buffers during trip w are those of the next trip's first sentences; -/
theorem off230' (L : grid2.Coords) (w : Fin k2_t1_loop.trips) : k2_off230 L w = ![sA L (w.val + 1), 0] :=
  (k2_off230_eq L w).trans (by unfold sA R0; exact congrArg (fun a => ![a, 0]) (by omega))

/-- into the second, of its later sentences. -/
theorem off455' (L : grid2.Coords) (w : Fin k2_t1_loop.trips) : k2_off455 L w = ![sB L (w.val + 1), 0] :=
  (k2_off455_eq L w).trans (by unfold sB R0; exact congrArg (fun a => ![a, 0]) (by omega))

theorem sA_lt (L : grid2.Coords) (w : ℕ) (hw : w < 8) : sA L w = R0 L + 16 * w := by unfold sA; omega
theorem sB_lt (L : grid2.Coords) (w : ℕ) (hw : w < 8) : sB L w = R0 L + 16 * w + 8 := by unfold sB; omega
theorem sA_le (L : grid2.Coords) (w : ℕ) : sA L w + 8 ≤ 4096 := by
  have h0 : (L 0).val < 2 := (L 0).isLt
  have h1 : (L 1).val < 16 := (L 1).isLt
  unfold sA R0; omega
theorem sB_le (L : grid2.Coords) (w : ℕ) : sB L w + 8 ≤ 4096 := by
  have h0 : (L 0).val < 2 := (L 0).isLt
  have h1 : (L 1).val < 16 := (L 1).isLt
  unfold sB R0; omega
theorem R0_lt (L : grid2.Coords) : R0 L + 128 ≤ 4096 := by
  have h0 : (L 0).val < 2 := (L 0).isLt
  have h1 : (L 1).val < 16 := (L 1).isLt
  unfold R0; omega

theorem DoneUpTo.cast {fwi fei : S4096x200.Idx → BitVec 32} {fwt : S100000x128.Idx → F .f32} {fet : S1000000x128.Idx → F .f32}
    {R : ℕ} {fo : S819200x100.Idx → F .f32} {n m : ℕ} (h : DoneUpTo fwi fei fwt fet R fo n) (e : n = m) : DoneUpTo fwi fei fwt fet R fo m := e ▸ h

end Cert.Proof.KK

end
-- ==== Proof.KK.AddInv.lean ====
/-
  What the row-by-row addition loops keep. Such a loop adds two gathered blocks of rows — rows of the widened word
  table and of the widened extended-word table — into a block of 100-column rows: trip t reads row t of each source
  and writes row t of the sum. Before trip t the two sources are as the loop found them and the first t rows of the
  destination hold, in every column below 100, the sum of the sources' entries in that row and column. The block
  is 128 rows for the first chunk of a sentence and 72 for the second.
-/
import proofs.«206319_g15771119910948_cont_week2b_672_19_alg».proof.Proof.KK.TileDefs

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The 128-row loops' invariant. -/
def addInvA (d : Dev nD) (L : grid2.Coords) (ga : Buf (Elt F) ((Memref.whole cc2_scratch4).view.loc (thr d L))) (gb : Buf (Elt F) ((Memref.whole cc2_scratch5).view.loc (thr d L))) (t : ℕ) (_ : Unit) : sProp 𝕄 :=
  iprop(((Memref.whole cc2_scratch4).view.loc (thr d L) ↦{fullShare} ga) ∗ ((Memref.whole cc2_scratch5).view.loc (thr d L) ↦{fullShare} gb)
    ∗ ∃ h, ((Memref.whole cc2_scratch8).view.loc (thr d L) ↦{fullShare} h) ∗ ⌜∀ (r : Fin 128) (c : Fin 100), r.val < t → h (ValueIdx.ix2 r c) = FloatOps.addf (ga (ValueIdx.ix2 r (Cert.EmbSpec.col128 c))) (gb (ValueIdx.ix2 r (Cert.EmbSpec.col128 c)))⌝)

/-- The 72-row loops' invariant. -/
def addInvB (d : Dev nD) (L : grid2.Coords) (ga : Buf (Elt F) ((Memref.whole cc2_scratch6).view.loc (thr d L))) (gb : Buf (Elt F) ((Memref.whole cc2_scratch7).view.loc (thr d L))) (t : ℕ) (_ : Unit) : sProp 𝕄 :=
  iprop(((Memref.whole cc2_scratch6).view.loc (thr d L) ↦{fullShare} ga) ∗ ((Memref.whole cc2_scratch7).view.loc (thr d L) ↦{fullShare} gb)
    ∗ ∃ h, ((Memref.whole cc2_scratch9).view.loc (thr d L) ↦{fullShare} h) ∗ ⌜∀ (r : Fin 72) (c : Fin 100), r.val < t → h (ValueIdx.ix2 r c) = FloatOps.addf (ga (ValueIdx.ix2 r (Cert.EmbSpec.col128 c))) (gb (ValueIdx.ix2 r (Cert.EmbSpec.col128 c)))⌝)

/-- The same without the values: the three buffers held, the destination at some contents. -/
def addInvA0 (d : Dev nD) (L : grid2.Coords) (ga : Buf (Elt F) ((Memref.whole cc2_scratch4).view.loc (thr d L))) (gb : Buf (Elt F) ((Memref.whole cc2_scratch5).view.loc (thr d L))) (t : ℕ) (_ : Unit) : sProp 𝕄 :=
  iprop(((Memref.whole cc2_scratch4).view.loc (thr d L) ↦{fullShare} ga) ∗ ((Memref.whole cc2_scratch5).view.loc (thr d L) ↦{fullShare} gb)
    ∗ ∃ h, ((Memref.whole cc2_scratch8).view.loc (thr d L) ↦{fullShare} h) ∗ ⌜True⌝)

def addInvB0 (d : Dev nD) (L : grid2.Coords) (ga : Buf (Elt F) ((Memref.whole cc2_scratch6).view.loc (thr d L))) (gb : Buf (Elt F) ((Memref.whole cc2_scratch7).view.loc (thr d L))) (t : ℕ) (_ : Unit) : sProp 𝕄 :=
  iprop(((Memref.whole cc2_scratch6).view.loc (thr d L) ↦{fullShare} ga) ∗ ((Memref.whole cc2_scratch7).view.loc (thr d L) ↦{fullShare} gb)
    ∗ ∃ h, ((Memref.whole cc2_scratch9).view.loc (thr d L) ↦{fullShare} h) ∗ ⌜True⌝)

end Cert.Proof.KK

end
-- ==== Proof.KK.AddLoops1.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 2 to 5 of the thirty-two.
-/
import proofs.«206319_g15771119910948_cont_week2b_672_19_alg».proof.Proof.KK.AddInv
import proofs.«206319_g15771119910948_cont_week2b_672_19_alg».proof.Proof.LibRowStores
import Idealize.ShloMosaic.Lib.Tactic

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t2 (d : Dev nD) (L : grid2.Coords) (ga : Buf (Elt F) ((Memref.whole cc2_scratch4).view.loc (thr d L))) (gb : Buf (Elt F) ((Memref.whole cc2_scratch5).view.loc (thr d L)))
    (v2 : BitVec 32) (c0_i32_13 : BitVec 32) (c1_i32 : BitVec 32) (k2_t1 : Fin k2_t1_loop.trips) :
    ∀ (k : Fin k2_t2_loop.trips) (acc : Unit), addInvA d L ga gb k.val acc ⊢ wp frame (wpE (defs₀ (F := F)) 𝒱₀ (thr d L) none) Set.univ
      (k2_t2_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 c0_i32_13 c1_i32 k2_t1 k acc) (addInvA d L ga gb (k.val + 1)) := by
  intro k acc
  unfold addInvA k2_t2_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off10 k) (k2_off11 k) (k2_off12 k) (k2_off13 k) (k2_off14 k) (k2_off15 k) (k2_off16 k)
    (k2_off10_eq k) (k2_off11_eq k) (k2_off12_eq k) (k2_off13_eq k) (k2_off14_eq k) (k2_off15_eq k) (k2_off16_eq k)
    (k2_off10_inb k) (k2_off11_inb k) (k2_off12_inb k) (k2_off13_inb k) (k2_off14_inb k) (k2_off15_inb k) (k2_off16_inb k)
    _ _ _ _ _ _ _
    (fun x => (congrFun (Cert.LibRowStores.cast_add_cast (View.readAt (Elt F) (Memref.whole cc2_scratch4).view (Rect.unit (s := S128x128) (k2_off3 k) S1x16.size (k2_off3_inb k)).toLoadRect ga) (View.readAt (Elt F) (Memref.whole cc2_scratch5).view (Rect.unit (s := S128x128) (k2_off3 k) S1x16.size (k2_off3_inb k)).toLoadRect gb) shapeCasts_S1x16_S16 shapeCasts_S16_S1x16) x).trans
        (Cert.LibRowStores.piece_sum ga gb k.val 0 (by omega) (k2_off3 k) (k2_off3 k) (k2_off10 k) (k2_off3_eq k) (k2_off3_eq k) (k2_off10_eq k) (k2_off3_inb k) (k2_off3_inb k) (k2_off10_inb k) x))
    (fun x => (congrFun (Cert.LibRowStores.cast_add_cast (View.readAt (Elt F) (Memref.whole cc2_scratch4).view (Rect.unit (s := S128x128) (k2_off4 k) S1x16.size (k2_off4_inb k)).toLoadRect ga) (View.readAt (Elt F) (Memref.whole cc2_scratch5).view (Rect.unit (s := S128x128) (k2_off4 k) S1x16.size (k2_off4_inb k)).toLoadRect gb) shapeCasts_S1x16_S16 shapeCasts_S16_S1x16) x).trans
        (Cert.LibRowStores.piece_sum ga gb k.val 16 (by omega) (k2_off4 k) (k2_off4 k) (k2_off11 k) (k2_off4_eq k) (k2_off4_eq k) (k2_off11_eq k) (k2_off4_inb k) (k2_off4_inb k) (k2_off11_inb k) x))
    (fun x => (congrFun (Cert.LibRowStores.cast_add_cast (View.readAt (Elt F) (Memref.whole cc2_scratch4).view (Rect.unit (s := S128x128) (k2_off5 k) S1x16.size (k2_off5_inb k)).toLoadRect ga) (View.readAt (Elt F) (Memref.whole cc2_scratch5).view (Rect.unit (s := S128x128) (k2_off5 k) S1x16.size (k2_off5_inb k)).toLoadRect gb) shapeCasts_S1x16_S16 shapeCasts_S16_S1x16) x).trans
        (Cert.LibRowStores.piece_sum ga gb k.val 32 (by omega) (k2_off5 k) (k2_off5 k) (k2_off12 k) (k2_off5_eq k) (k2_off5_eq k) (k2_off12_eq k) (k2_off5_inb k) (k2_off5_inb k) (k2_off12_inb k) x))
    (fun x => (congrFun (Cert.LibRowStores.cast_add_cast (View.readAt (Elt F) (Memref.whole cc2_scratch4).view (Rect.unit (s := S128x128) (k2_off6 k) S1x16.size (k2_off6_inb k)).toLoadRect ga) (View.readAt (Elt F) (Memref.whole cc2_scratch5).view (Rect.unit (s := S128x128) (k2_off6 k) S1x16.size (k2_off6_inb k)).toLoadRect gb) shapeCasts_S1x16_S16 shapeCasts_S16_S1x16) x).trans
        (Cert.LibRowStores.piece_sum ga gb k.val 48 (by omega) (k2_off6 k) (k2_off6 k) (k2_off13 k) (k2_off6_eq k) (k2_off6_eq k) (k2_off13_eq k) (k2_off6_inb k) (k2_off6_inb k) (k2_off13_inb k) x))
    (fun x => (congrFun (Cert.LibRowStores.cast_add_cast (View.readAt (Elt F) (Memref.whole cc2_scratch4).view (Rect.unit (s := S128x128) (k2_off7 k) S1x16.size (k2_off7_inb k)).toLoadRect ga) (View.readAt (Elt F) (Memref.whole cc2_scratch5).view (Rect.unit (s := S128x128) (k2_off7 k) S1x16.size (k2_off7_inb k)).toLoadRect gb) shapeCasts_S1x16_S16 shapeCasts_S16_S1x16) x).trans
        (Cert.LibRowStores.piece_sum ga gb k.val 64 (by omega) (k2_off7 k) (k2_off7 k) (k2_off14 k) (k2_off7_eq k) (k2_off7_eq k) (k2_off14_eq k) (k2_off7_inb k) (k2_off7_inb k) (k2_off14_inb k) x))
    (fun x => (congrFun (Cert.LibRowStores.cast_add_cast (View.readAt (Elt F) (Memref.whole cc2_scratch4).view (Rect.unit (s := S128x128) (k2_off8 k) S1x16.size (k2_off8_inb k)).toLoadRect ga) (View.readAt (Elt F) (Memref.whole cc2_scratch5).view (Rect.unit (s := S128x128) (k2_off8 k) S1x16.size (k2_off8_inb k)).toLoadRect gb) shapeCasts_S1x16_S16 shapeCasts_S16_S1x16) x).trans
        (Cert.LibRowStores.piece_sum ga gb k.val 80 (by omega) (k2_off8 k) (k2_off8 k) (k2_off15 k) (k2_off8_eq k) (k2_off8_eq k) (k2_off15_eq k) (k2_off8_inb k) (k2_off8_inb k) (k2_off15_inb k) x))
    (fun x => (congrFun (Cert.LibRowStores.cast_add_cast (View.readAt (Elt F) (Memref.whole cc2_scratch4).view (Rect.unit (s := S128x128) (k2_off9 k) S1x16.size (k2_off9_inb k)).toLoadRect ga) (View.readAt (Elt F) (Memref.whole cc2_scratch5).view (Rect.unit (s := S128x128) (k2_off9 k) S1x16.size (k2_off9_inb k)).toLoadRect gb) shapeCasts_S1x16_S16 shapeCasts_S16_S1x16) x).trans
        (Cert.LibRowStores.piece_sum ga gb k.val 84 (by omega) (k2_off9 k) (k2_off9 k) (k2_off16 k) (k2_off9_eq k) (k2_off9_eq k) (k2_off16_eq k) (k2_off9_inb k) (k2_off9_inb k) (k2_off16_inb k) x))
    hp

set_option maxHeartbeats 1000000 in
theorem region_t3 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v30 : BitVec 32) :
    ∀ (k : Fin k2_t3_loop.trips) (acc : Unit), addInvB d L ga gb k.val acc ⊢ wp frame (wpE (defs₀ (F := F)) 𝒱₀ (thr d L) none) Set.univ
      (k2_t3_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v30 k acc) (addInvB d L ga gb (k.val + 1)) := by
  intro k acc
  unfold addInvB k2_t3_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off25 k) (k2_off26 k) (k2_off27 k) (k2_off28 k) (k2_off29 k) (k2_off30 k) (k2_off31 k)
    (k2_off25_eq k) (k2_off26_eq k) (k2_off27_eq k) (k2_off28_eq k) (k2_off29_eq k) (k2_off30_eq k) (k2_off31_eq k)
    (k2_off25_inb k) (k2_off26_inb k) (k2_off27_inb k) (k2_off28_inb k) (k2_off29_inb k) (k2_off30_inb k) (k2_off31_inb k)
    _ _ _ _ _ _ _
    (fun x => (congrFun (Cert.LibRowStores.cast_add_cast (View.readAt (Elt F) (Memref.whole cc2_scratch6).view (Rect.unit (s := S72x128) (k2_off18 k) S1x16.size (k2_off18_inb k)).toLoadRect ga) (View.readAt (Elt F) (Memref.whole cc2_scratch7).view (Rect.unit (s := S72x128) (k2_off18 k) S1x16.size (k2_off18_inb k)).toLoadRect gb) shapeCasts_S1x16_S16 shapeCasts_S16_S1x16) x).trans
        (Cert.LibRowStores.piece_sum ga gb k.val 0 (by omega) (k2_off18 k) (k2_off18 k) (k2_off25 k) (k2_off18_eq k) (k2_off18_eq k) (k2_off25_eq k) (k2_off18_inb k) (k2_off18_inb k) (k2_off25_inb k) x))
    (fun x => (congrFun (Cert.LibRowStores.cast_add_cast (View.readAt (Elt F) (Memref.whole cc2_scratch6).view (Rect.unit (s := S72x128) (k2_off19 k) S1x16.size (k2_off19_inb k)).toLoadRect ga) (View.readAt (Elt F) (Memref.whole cc2_scratch7).view (Rect.unit (s := S72x128) (k2_off19 k) S1x16.size (k2_off19_inb k)).toLoadRect gb) shapeCasts_S1x16_S16 shapeCasts_S16_S1x16) x).trans
        (Cert.LibRowStores.piece_sum ga gb k.val 16 (by omega) (k2_off19 k) (k2_off19 k) (k2_off26 k) (k2_off19_eq k) (k2_off19_eq k) (k2_off26_eq k) (k2_off19_inb k) (k2_off19_inb k) (k2_off26_inb k) x))
    (fun x => (congrFun (Cert.LibRowStores.cast_add_cast (View.readAt (Elt F) (Memref.whole cc2_scratch6).view (Rect.unit (s := S72x128) (k2_off20 k) S1x16.size (k2_off20_inb k)).toLoadRect ga) (View.readAt (Elt F) (Memref.whole cc2_scratch7).view (Rect.unit (s := S72x128) (k2_off20 k) S1x16.size (k2_off20_inb k)).toLoadRect gb) shapeCasts_S1x16_S16 shapeCasts_S16_S1x16) x).trans
        (Cert.LibRowStores.piece_sum ga gb k.val 32 (by omega) (k2_off20 k) (k2_off20 k) (k2_off27 k) (k2_off20_eq k) (k2_off20_eq k) (k2_off27_eq k) (k2_off20_inb k) (k2_off20_inb k) (k2_off27_inb k) x))
    (fun x => (congrFun (Cert.LibRowStores.cast_add_cast (View.readAt (Elt F) (Memref.whole cc2_scratch6).view (Rect.unit (s := S72x128) (k2_off21 k) S1x16.size (k2_off21_inb k)).toLoadRect ga) (View.readAt (Elt F) (Memref.whole cc2_scratch7).view (Rect.unit (s := S72x128) (k2_off21 k) S1x16.size (k2_off21_inb k)).toLoadRect gb) shapeCasts_S1x16_S16 shapeCasts_S16_S1x16) x).trans
        (Cert.LibRowStores.piece_sum ga gb k.val 48 (by omega) (k2_off21 k) (k2_off21 k) (k2_off28 k) (k2_off21_eq k) (k2_off21_eq k) (k2_off28_eq k) (k2_off21_inb k) (k2_off21_inb k) (k2_off28_inb k) x))
    (fun x => (congrFun (Cert.LibRowStores.cast_add_cast (View.readAt (Elt F) (Memref.whole cc2_scratch6).view (Rect.unit (s := S72x128) (k2_off22 k) S1x16.size (k2_off22_inb k)).toLoadRect ga) (View.readAt (Elt F) (Memref.whole cc2_scratch7).view (Rect.unit (s := S72x128) (k2_off22 k) S1x16.size (k2_off22_inb k)).toLoadRect gb) shapeCasts_S1x16_S16 shapeCasts_S16_S1x16) x).trans
        (Cert.LibRowStores.piece_sum ga gb k.val 64 (by omega) (k2_off22 k) (k2_off22 k) (k2_off29 k) (k2_off22_eq k) (k2_off22_eq k) (k2_off29_eq k) (k2_off22_inb k) (k2_off22_inb k) (k2_off29_inb k) x))
    (fun x => (congrFun (Cert.LibRowStores.cast_add_cast (View.readAt (Elt F) (Memref.whole cc2_scratch6).view (Rect.unit (s := S72x128) (k2_off23 k) S1x16.size (k2_off23_inb k)).toLoadRect ga) (View.readAt (Elt F) (Memref.whole cc2_scratch7).view (Rect.unit (s := S72x128) (k2_off23 k) S1x16.size (k2_off23_inb k)).toLoadRect gb) shapeCasts_S1x16_S16 shapeCasts_S16_S1x16) x).trans
        (Cert.LibRowStores.piece_sum ga gb k.val 80 (by omega) (k2_off23 k) (k2_off23 k) (k2_off30 k) (k2_off23_eq k) (k2_off23_eq k) (k2_off30_eq k) (k2_off23_inb k) (k2_off23_inb k) (k2_off30_inb k) x))
    (fun x => (congrFun (Cert.LibRowStores.cast_add_cast (View.readAt (Elt F) (Memref.whole cc2_scratch6).view (Rect.unit (s := S72x128) (k2_off24 k) S1x16.size (k2_off24_inb k)).toLoadRect ga) (View.readAt (Elt F) (Memref.whole cc2_scratch7).view (Rect.unit (s := S72x128) (k2_off24 k) S1x16.size (k2_off24_inb k)).toLoadRect gb) shapeCasts_S1x16_S16 shapeCasts_S16_S1x16) x).trans
        (Cert.LibRowStores.piece_sum ga gb k.val 84 (by omega) (k2_off24 k) (k2_off24 k) (k2_off31 k) (k2_off24_eq k) (k2_off24_eq k) (k2_off31_eq k) (k2_off24_inb k) (k2_off24_inb k) (k2_off31_inb k) x))
    hp

set_option maxHeartbeats 1000000 in
theorem region_t4 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t4_loop.trips) (acc : Unit), addInvA d L ga gb k.val acc ⊢ wp frame (wpE (defs₀ (F := F)) 𝒱₀ (thr d L) none) Set.univ
      (k2_t4_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t4_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off40 k) (k2_off41 k) (k2_off42 k) (k2_off43 k) (k2_off44 k) (k2_off45 k) (k2_off46 k)
    (k2_off40_eq k) (k2_off41_eq k) (k2_off42_eq k) (k2_off43_eq k) (k2_off44_eq k) (k2_off45_eq k) (k2_off46_eq k)
    (k2_off40_inb k) (k2_off41_inb k) (k2_off42_inb k) (k2_off43_inb k) (k2_off44_inb k) (k2_off45_inb k) (k2_off46_inb k)
    _ _ _ _ _ _ _
    (fun x => (congrFun (Cert.LibRowStores.cast_add_cast (View.readAt (Elt F) (Memref.whole cc2_scratch4).view (Rect.unit (s := S128x128) (k2_off33 k) S1x16.size (k2_off33_inb k)).toLoadRect ga) (View.readAt (Elt F) (Memref.whole cc2_scratch5).view (Rect.unit (s := S128x128) (k2_off33 k) S1x16.size (k2_off33_inb k)).toLoadRect gb) shapeCasts_S1x16_S16 shapeCasts_S16_S1x16) x).trans
        (Cert.LibRowStores.piece_sum ga gb k.val 0 (by omega) (k2_off33 k) (k2_off33 k) (k2_off40 k) (k2_off33_eq k) (k2_off33_eq k) (k2_off40_eq k) (k2_off33_inb k) (k2_off33_inb k) (k2_off40_inb k) x))
    (fun x => (congrFun (Cert.LibRowStores.cast_add_cast (View.readAt (Elt F) (Memref.whole cc2_scratch4).view (Rect.unit (s := S128x128) (k2_off34 k) S1x16.size (k2_off34_inb k)).toLoadRect ga) (View.readAt (Elt F) (Memref.whole cc2_scratch5).view (Rect.unit (s := S128x128) (k2_off34 k) S1x16.size (k2_off34_inb k)).toLoadRect gb) shapeCasts_S1x16_S16 shapeCasts_S16_S1x16) x).trans
        (Cert.LibRowStores.piece_sum ga gb k.val 16 (by omega) (k2_off34 k) (k2_off34 k) (k2_off41 k) (k2_off34_eq k) (k2_off34_eq k) (k2_off41_eq k) (k2_off34_inb k) (k2_off34_inb k) (k2_off41_inb k) x))
    (fun x => (congrFun (Cert.LibRowStores.cast_add_cast (View.readAt (Elt F) (Memref.whole cc2_scratch4).view (Rect.unit (s := S128x128) (k2_off35 k) S1x16.size (k2_off35_inb k)).toLoadRect ga) (View.readAt (Elt F) (Memref.whole cc2_scratch5).view (Rect.unit (s := S128x128) (k2_off35 k) S1x16.size (k2_off35_inb k)).toLoadRect gb) shapeCasts_S1x16_S16 shapeCasts_S16_S1x16) x).trans
        (Cert.LibRowStores.piece_sum ga gb k.val 32 (by omega) (k2_off35 k) (k2_off35 k) (k2_off42 k) (k2_off35_eq k) (k2_off35_eq k) (k2_off42_eq k) (k2_off35_inb k) (k2_off35_inb k) (k2_off42_inb k) x))
    (fun x => (congrFun (Cert.LibRowStores.cast_add_cast (View.readAt (Elt F) (Memref.whole cc2_scratch4).view (Rect.unit (s := S128x128) (k2_off36 k) S1x16.size (k2_off36_inb k)).toLoadRect ga) (View.readAt (Elt F) (Memref.whole cc2_scratch5).view (Rect.unit (s := S128x128) (k2_off36 k) S1x16.size (k2_off36_inb k)).toLoadRect gb) shapeCasts_S1x16_S16 shapeCasts_S16_S1x16) x).trans
        (Cert.LibRowStores.piece_sum ga gb k.val 48 (by omega) (k2_off36 k) (k2_off36 k) (k2_off43 k) (k2_off36_eq k) (k2_off36_eq k) (k2_off43_eq k) (k2_off36_inb k) (k2_off36_inb k) (k2_off43_inb k) x))
    (fun x => (congrFun (Cert.LibRowStores.cast_add_cast (View.readAt (Elt F) (Memref.whole cc2_scratch4).view (Rect.unit (s := S128x128) (k2_off37 k) S1x16.size (k2_off37_inb k)).toLoadRect ga) (View.readAt (Elt F) (Memref.whole cc2_scratch5).view (Rect.unit (s := S128x128) (k2_off37 k) S1x16.size (k2_off37_inb k)).toLoadRect gb) shapeCasts_S1x16_S16 shapeCasts_S16_S1x16) x).trans
        (Cert.LibRowStores.piece_sum ga gb k.val 64 (by omega) (k2_off37 k) (k2_off37 k) (k2_off44 k) (k2_off37_eq k) (k2_off37_eq k) (k2_off44_eq k) (k2_off37_inb k) (k2_off37_inb k) (k2_off44_inb k) x))
    (fun x => (congrFun (Cert.LibRowStores.cast_add_cast (View.readAt (Elt F) (Memref.whole cc2_scratch4).view (Rect.unit (s := S128x128) (k2_off38 k) S1x16.size (k2_off38_inb k)).toLoadRect ga) (View.readAt (Elt F) (Memref.whole cc2_scratch5).view (Rect.unit (s := S128x128) (k2_off38 k) S1x16.size (k2_off38_inb k)).toLoadRect gb) shapeCasts_S1x16_S16 shapeCasts_S16_S1x16) x).trans
        (Cert.LibRowStores.piece_sum ga gb k.val 80 (by omega) (k2_off38 k) (k2_off38 k) (k2_off45 k) (k2_off38_eq k) (k2_off38_eq k) (k2_off45_eq k) (k2_off38_inb k) (k2_off38_inb k) (k2_off45_inb k) x))
    (fun x => (congrFun (Cert.LibRowStores.cast_add_cast (View.readAt (Elt F) (Memref.whole cc2_scratch4).view (Rect.unit (s := S128x128) (k2_off39 k) S1x16.size (k2_off39_inb k)).toLoadRect ga) (View.readAt (Elt F) (Memref.whole cc2_scratch5).view (Rect.unit (s := S128x128) (k2_off39 k) S1x16.size (k2_off39_inb k)).toLoadRect gb) shapeCasts_S1x16_S16 shapeCasts_S16_S1x16) x).trans
        (Cert.LibRowStores.piece_sum ga gb k.val 84 (by omega) (k2_off39 k) (k2_off39 k) (k2_off46 k) (k2_off39_eq k) (k2_off39_eq k) (k2_off46_eq k) (k2_off39_inb k) (k2_off39_inb k) (k2_off46_inb k) x))
    hp

set_option maxHeartbeats 1000000 in
theorem region_t5 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v61 : BitVec 32) :
    ∀ (k : Fin k2_t5_loop.trips) (acc : Unit), addInvB d L ga gb k.val acc ⊢ wp frame (wpE (defs₀ (F := F)) 𝒱₀ (thr d L) none) Set.univ
      (k2_t5_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v61 k acc) (addInvB d L ga gb (k.val + 1)) := by
  intro k acc
  unfold addInvB k2_t5_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off54 k) (k2_off55 k) (k2_off56 k) (k2_off57 k) (k2_off58 k) (k2_off59 k) (k2_off60 k)
    (k2_off54_eq k) (k2_off55_eq k) (k2_off56_eq k) (k2_off57_eq k) (k2_off58_eq k) (k2_off59_eq k) (k2_off60_eq k)
    (k2_off54_inb k) (k2_off55_inb k) (k2_off56_inb k) (k2_off57_inb k) (k2_off58_inb k) (k2_off59_inb k) (k2_off60_inb k)
    _ _ _ _ _ _ _
    (fun x => (congrFun (Cert.LibRowStores.cast_add_cast (View.readAt (Elt F) (Memref.whole cc2_scratch6).view (Rect.unit (s := S72x128) (k2_off47 k) S1x16.size (k2_off47_inb k)).toLoadRect ga) (View.readAt (Elt F) (Memref.whole cc2_scratch7).view (Rect.unit (s := S72x128) (k2_off47 k) S1x16.size (k2_off47_inb k)).toLoadRect gb) shapeCasts_S1x16_S16 shapeCasts_S16_S1x16) x).trans
        (Cert.LibRowStores.piece_sum ga gb k.val 0 (by omega) (k2_off47 k) (k2_off47 k) (k2_off54 k) (k2_off47_eq k) (k2_off47_eq k) (k2_off54_eq k) (k2_off47_inb k) (k2_off47_inb k) (k2_off54_inb k) x))
    (fun x => (congrFun (Cert.LibRowStores.cast_add_cast (View.readAt (Elt F) (Memref.whole cc2_scratch6).view (Rect.unit (s := S72x128) (k2_off48 k) S1x16.size (k2_off48_inb k)).toLoadRect ga) (View.readAt (Elt F) (Memref.whole cc2_scratch7).view (Rect.unit (s := S72x128) (k2_off48 k) S1x16.size (k2_off48_inb k)).toLoadRect gb) shapeCasts_S1x16_S16 shapeCasts_S16_S1x16) x).trans
        (Cert.LibRowStores.piece_sum ga gb k.val 16 (by omega) (k2_off48 k) (k2_off48 k) (k2_off55 k) (k2_off48_eq k) (k2_off48_eq k) (k2_off55_eq k) (k2_off48_inb k) (k2_off48_inb k) (k2_off55_inb k) x))
    (fun x => (congrFun (Cert.LibRowStores.cast_add_cast (View.readAt (Elt F) (Memref.whole cc2_scratch6).view (Rect.unit (s := S72x128) (k2_off49 k) S1x16.size (k2_off49_inb k)).toLoadRect ga) (View.readAt (Elt F) (Memref.whole cc2_scratch7).view (Rect.unit (s := S72x128) (k2_off49 k) S1x16.size (k2_off49_inb k)).toLoadRect gb) shapeCasts_S1x16_S16 shapeCasts_S16_S1x16) x).trans
        (Cert.LibRowStores.piece_sum ga gb k.val 32 (by omega) (k2_off49 k) (k2_off49 k) (k2_off56 k) (k2_off49_eq k) (k2_off49_eq k) (k2_off56_eq k) (k2_off49_inb k) (k2_off49_inb k) (k2_off56_inb k) x))
    (fun x => (congrFun (Cert.LibRowStores.cast_add_cast (View.readAt (Elt F) (Memref.whole cc2_scratch6).view (Rect.unit (s := S72x128) (k2_off50 k) S1x16.size (k2_off50_inb k)).toLoadRect ga) (View.readAt (Elt F) (Memref.whole cc2_scratch7).view (Rect.unit (s := S72x128) (k2_off50 k) S1x16.size (k2_off50_inb k)).toLoadRect gb) shapeCasts_S1x16_S16 shapeCasts_S16_S1x16) x).trans
        (Cert.LibRowStores.piece_sum ga gb k.val 48 (by omega) (k2_off50 k) (k2_off50 k) (k2_off57 k) (k2_off50_eq k) (k2_off50_eq k) (k2_off57_eq k) (k2_off50_inb k) (k2_off50_inb k) (k2_off57_inb k) x))
    (fun x => (congrFun (Cert.LibRowStores.cast_add_cast (View.readAt (Elt F) (Memref.whole cc2_scratch6).view (Rect.unit (s := S72x128) (k2_off51 k) S1x16.size (k2_off51_inb k)).toLoadRect ga) (View.readAt (Elt F) (Memref.whole cc2_scratch7).view (Rect.unit (s := S72x128) (k2_off51 k) S1x16.size (k2_off51_inb k)).toLoadRect gb) shapeCasts_S1x16_S16 shapeCasts_S16_S1x16) x).trans
        (Cert.LibRowStores.piece_sum ga gb k.val 64 (by omega) (k2_off51 k) (k2_off51 k) (k2_off58 k) (k2_off51_eq k) (k2_off51_eq k) (k2_off58_eq k) (k2_off51_inb k) (k2_off51_inb k) (k2_off58_inb k) x))
    (fun x => (congrFun (Cert.LibRowStores.cast_add_cast (View.readAt (Elt F) (Memref.whole cc2_scratch6).view (Rect.unit (s := S72x128) (k2_off52 k) S1x16.size (k2_off52_inb k)).toLoadRect ga) (View.readAt (Elt F) (Memref.whole cc2_scratch7).view (Rect.unit (s := S72x128) (k2_off52 k) S1x16.size (k2_off52_inb k)).toLoadRect gb) shapeCasts_S1x16_S16 shapeCasts_S16_S1x16) x).trans
        (Cert.LibRowStores.piece_sum ga gb k.val 80 (by omega) (k2_off52 k) (k2_off52 k) (k2_off59 k) (k2_off52_eq k) (k2_off52_eq k) (k2_off59_eq k) (k2_off52_inb k) (k2_off52_inb k) (k2_off59_inb k) x))
    (fun x => (congrFun (Cert.LibRowStores.cast_add_cast (View.readAt (Elt F) (Memref.whole cc2_scratch6).view (Rect.unit (s := S72x128) (k2_off53 k) S1x16.size (k2_off53_inb k)).toLoadRect ga) (View.readAt (Elt F) (Memref.whole cc2_scratch7).view (Rect.unit (s := S72x128) (k2_off53 k) S1x16.size (k2_off53_inb k)).toLoadRect gb) shapeCasts_S1x16_S16 shapeCasts_S16_S1x16) x).trans
        (Cert.LibRowStores.piece_sum ga gb k.val 84 (by omega) (k2_off53 k) (k2_off53 k) (k2_off60 k) (k2_off53_eq k) (k2_off53_eq k) (k2_off60_eq k) (k2_off53_inb k) (k2_off53_inb k) (k2_off60_inb k) x))
    hp

end Cert.Proof.KK

end
-- ==== Proof.KK.AddLoops2.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 6 to 9 of the thirty-two.
-/
import proofs.«206319_g15771119910948_cont_week2b_672_19_alg».proof.Proof.KK.AddInv
import proofs.«206319_g15771119910948_cont_week2b_672_19_alg».proof.Proof.LibRowStores
import Idealize.ShloMosaic.Lib.Tactic

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t6 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t6_loop.trips) (acc : Unit), addInvA d L ga gb k.val acc ⊢ wp frame (wpE (defs₀ (F := F)) 𝒱₀ (thr d L) none) Set.univ
      (k2_t6_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t6_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off68 k) (k2_off69 k) (k2_off70 k) (k2_off71 k) (k2_off72 k) (k2_off73 k) (k2_off74 k)
    (k2_off68_eq k) (k2_off69_eq k) (k2_off70_eq k) (k2_off71_eq k) (k2_off72_eq k) (k2_off73_eq k) (k2_off74_eq k)
    (k2_off68_inb k) (k2_off69_inb k) (k2_off70_inb k) (k2_off71_inb k) (k2_off72_inb k) (k2_off73_inb k) (k2_off74_inb k)
    _ _ _ _ _ _ _
    (fun x => (congrFun (Cert.LibRowStores.cast_add_cast (View.readAt (Elt F) (Memref.whole cc2_scratch4).view (Rect.unit (s := S128x128) (k2_off61 k) S1x16.size (k2_off61_inb k)).toLoadRect ga) (View.readAt (Elt F) (Memref.whole cc2_scratch5).view (Rect.unit (s := S128x128) (k2_off61 k) S1x16.size (k2_off61_inb k)).toLoadRect gb) shapeCasts_S1x16_S16 shapeCasts_S16_S1x16) x).trans
        (Cert.LibRowStores.piece_sum ga gb k.val 0 (by omega) (k2_off61 k) (k2_off61 k) (k2_off68 k) (k2_off61_eq k) (k2_off61_eq k) (k2_off68_eq k) (k2_off61_inb k) (k2_off61_inb k) (k2_off68_inb k) x))
    (fun x => (congrFun (Cert.LibRowStores.cast_add_cast (View.readAt (Elt F) (Memref.whole cc2_scratch4).view (Rect.unit (s := S128x128) (k2_off62 k) S1x16.size (k2_off62_inb k)).toLoadRect ga) (View.readAt (Elt F) (Memref.whole cc2_scratch5).view (Rect.unit (s := S128x128) (k2_off62 k) S1x16.size (k2_off62_inb k)).toLoadRect gb) shapeCasts_S1x16_S16 shapeCasts_S16_S1x16) x).trans
        (Cert.LibRowStores.piece_sum ga gb k.val 16 (by omega) (k2_off62 k) (k2_off62 k) (k2_off69 k) (k2_off62_eq k) (k2_off62_eq k) (k2_off69_eq k) (k2_off62_inb k) (k2_off62_inb k) (k2_off69_inb k) x))
    (fun x => (congrFun (Cert.LibRowStores.cast_add_cast (View.readAt (Elt F) (Memref.whole cc2_scratch4).view (Rect.unit (s := S128x128) (k2_off63 k) S1x16.size (k2_off63_inb k)).toLoadRect ga) (View.readAt (Elt F) (Memref.whole cc2_scratch5).view (Rect.unit (s := S128x128) (k2_off63 k) S1x16.size (k2_off63_inb k)).toLoadRect gb) shapeCasts_S1x16_S16 shapeCasts_S16_S1x16) x).trans
        (Cert.LibRowStores.piece_sum ga gb k.val 32 (by omega) (k2_off63 k) (k2_off63 k) (k2_off70 k) (k2_off63_eq k) (k2_off63_eq k) (k2_off70_eq k) (k2_off63_inb k) (k2_off63_inb k) (k2_off70_inb k) x))
    (fun x => (congrFun (Cert.LibRowStores.cast_add_cast (View.readAt (Elt F) (Memref.whole cc2_scratch4).view (Rect.unit (s := S128x128) (k2_off64 k) S1x16.size (k2_off64_inb k)).toLoadRect ga) (View.readAt (Elt F) (Memref.whole cc2_scratch5).view (Rect.unit (s := S128x128) (k2_off64 k) S1x16.size (k2_off64_inb k)).toLoadRect gb) shapeCasts_S1x16_S16 shapeCasts_S16_S1x16) x).trans
        (Cert.LibRowStores.piece_sum ga gb k.val 48 (by omega) (k2_off64 k) (k2_off64 k) (k2_off71 k) (k2_off64_eq k) (k2_off64_eq k) (k2_off71_eq k) (k2_off64_inb k) (k2_off64_inb k) (k2_off71_inb k) x))
    (fun x => (congrFun (Cert.LibRowStores.cast_add_cast (View.readAt (Elt F) (Memref.whole cc2_scratch4).view (Rect.unit (s := S128x128) (k2_off65 k) S1x16.size (k2_off65_inb k)).toLoadRect ga) (View.readAt (Elt F) (Memref.whole cc2_scratch5).view (Rect.unit (s := S128x128) (k2_off65 k) S1x16.size (k2_off65_inb k)).toLoadRect gb) shapeCasts_S1x16_S16 shapeCasts_S16_S1x16) x).trans
        (Cert.LibRowStores.piece_sum ga gb k.val 64 (by omega) (k2_off65 k) (k2_off65 k) (k2_off72 k) (k2_off65_eq k) (k2_off65_eq k) (k2_off72_eq k) (k2_off65_inb k) (k2_off65_inb k) (k2_off72_inb k) x))
    (fun x => (congrFun (Cert.LibRowStores.cast_add_cast (View.readAt (Elt F) (Memref.whole cc2_scratch4).view (Rect.unit (s := S128x128) (k2_off66 k) S1x16.size (k2_off66_inb k)).toLoadRect ga) (View.readAt (Elt F) (Memref.whole cc2_scratch5).view (Rect.unit (s := S128x128) (k2_off66 k) S1x16.size (k2_off66_inb k)).toLoadRect gb) shapeCasts_S1x16_S16 shapeCasts_S16_S1x16) x).trans
        (Cert.LibRowStores.piece_sum ga gb k.val 80 (by omega) (k2_off66 k) (k2_off66 k) (k2_off73 k) (k2_off66_eq k) (k2_off66_eq k) (k2_off73_eq k) (k2_off66_inb k) (k2_off66_inb k) (k2_off73_inb k) x))
    (fun x => (congrFun (Cert.LibRowStores.cast_add_cast (View.readAt (Elt F) (Memref.whole cc2_scratch4).view (Rect.unit (s := S128x128) (k2_off67 k) S1x16.size (k2_off67_inb k)).toLoadRect ga) (View.readAt (Elt F) (Memref.whole cc2_scratch5).view (Rect.unit (s := S128x128) (k2_off67 k) S1x16.size (k2_off67_inb k)).toLoadRect gb) shapeCasts_S1x16_S16 shapeCasts_S16_S1x16) x).trans
        (Cert.LibRowStores.piece_sum ga gb k.val 84 (by omega) (k2_off67 k) (k2_off67 k) (k2_off74 k) (k2_off67_eq k) (k2_off67_eq k) (k2_off74_eq k) (k2_off67_inb k) (k2_off67_inb k) (k2_off74_inb k) x))
    hp

set_option maxHeartbeats 1000000 in
theorem region_t7 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v92 : BitVec 32) (c0_i32_151 : BitVec 32) (c72_i32_152 : BitVec 32) :
    ∀ (k : Fin k2_t7_loop.trips) (acc : Unit), addInvB d L ga gb k.val acc ⊢ wp frame (wpE (defs₀ (F := F)) 𝒱₀ (thr d L) none) Set.univ
      (k2_t7_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v92 c0_i32_151 c72_i32_152 k acc) (addInvB d L ga gb (k.val + 1)) := by
  intro k acc
  unfold addInvB k2_t7_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off82 k) (k2_off83 k) (k2_off84 k) (k2_off85 k) (k2_off86 k) (k2_off87 k) (k2_off88 k)
    (k2_off82_eq k) (k2_off83_eq k) (k2_off84_eq k) (k2_off85_eq k) (k2_off86_eq k) (k2_off87_eq k) (k2_off88_eq k)
    (k2_off82_inb k) (k2_off83_inb k) (k2_off84_inb k) (k2_off85_inb k) (k2_off86_inb k) (k2_off87_inb k) (k2_off88_inb k)
    _ _ _ _ _ _ _
    (fun x => (congrFun (Cert.LibRowStores.cast_add_cast (View.readAt (Elt F) (Memref.whole cc2_scratch6).view (Rect.unit (s := S72x128) (k2_off75 k) S1x16.size (k2_off75_inb k)).toLoadRect ga) (View.readAt (Elt F) (Memref.whole cc2_scratch7).view (Rect.unit (s := S72x128) (k2_off75 k) S1x16.size (k2_off75_inb k)).toLoadRect gb) shapeCasts_S1x16_S16 shapeCasts_S16_S1x16) x).trans
        (Cert.LibRowStores.piece_sum ga gb k.val 0 (by omega) (k2_off75 k) (k2_off75 k) (k2_off82 k) (k2_off75_eq k) (k2_off75_eq k) (k2_off82_eq k) (k2_off75_inb k) (k2_off75_inb k) (k2_off82_inb k) x))
    (fun x => (congrFun (Cert.LibRowStores.cast_add_cast (View.readAt (Elt F) (Memref.whole cc2_scratch6).view (Rect.unit (s := S72x128) (k2_off76 k) S1x16.size (k2_off76_inb k)).toLoadRect ga) (View.readAt (Elt F) (Memref.whole cc2_scratch7).view (Rect.unit (s := S72x128) (k2_off76 k) S1x16.size (k2_off76_inb k)).toLoadRect gb) shapeCasts_S1x16_S16 shapeCasts_S16_S1x16) x).trans
        (Cert.LibRowStores.piece_sum ga gb k.val 16 (by omega) (k2_off76 k) (k2_off76 k) (k2_off83 k) (k2_off76_eq k) (k2_off76_eq k) (k2_off83_eq k) (k2_off76_inb k) (k2_off76_inb k) (k2_off83_inb k) x))
    (fun x => (congrFun (Cert.LibRowStores.cast_add_cast (View.readAt (Elt F) (Memref.whole cc2_scratch6).view (Rect.unit (s := S72x128) (k2_off77 k) S1x16.size (k2_off77_inb k)).toLoadRect ga) (View.readAt (Elt F) (Memref.whole cc2_scratch7).view (Rect.unit (s := S72x128) (k2_off77 k) S1x16.size (k2_off77_inb k)).toLoadRect gb) shapeCasts_S1x16_S16 shapeCasts_S16_S1x16) x).trans
        (Cert.LibRowStores.piece_sum ga gb k.val 32 (by omega) (k2_off77 k) (k2_off77 k) (k2_off84 k) (k2_off77_eq k) (k2_off77_eq k) (k2_off84_eq k) (k2_off77_inb k) (k2_off77_inb k) (k2_off84_inb k) x))
    (fun x => (congrFun (Cert.LibRowStores.cast_add_cast (View.readAt (Elt F) (Memref.whole cc2_scratch6).view (Rect.unit (s := S72x128) (k2_off78 k) S1x16.size (k2_off78_inb k)).toLoadRect ga) (View.readAt (Elt F) (Memref.whole cc2_scratch7).view (Rect.unit (s := S72x128) (k2_off78 k) S1x16.size (k2_off78_inb k)).toLoadRect gb) shapeCasts_S1x16_S16 shapeCasts_S16_S1x16) x).trans
        (Cert.LibRowStores.piece_sum ga gb k.val 48 (by omega) (k2_off78 k) (k2_off78 k) (k2_off85 k) (k2_off78_eq k) (k2_off78_eq k) (k2_off85_eq k) (k2_off78_inb k) (k2_off78_inb k) (k2_off85_inb k) x))
    (fun x => (congrFun (Cert.LibRowStores.cast_add_cast (View.readAt (Elt F) (Memref.whole cc2_scratch6).view (Rect.unit (s := S72x128) (k2_off79 k) S1x16.size (k2_off79_inb k)).toLoadRect ga) (View.readAt (Elt F) (Memref.whole cc2_scratch7).view (Rect.unit (s := S72x128) (k2_off79 k) S1x16.size (k2_off79_inb k)).toLoadRect gb) shapeCasts_S1x16_S16 shapeCasts_S16_S1x16) x).trans
        (Cert.LibRowStores.piece_sum ga gb k.val 64 (by omega) (k2_off79 k) (k2_off79 k) (k2_off86 k) (k2_off79_eq k) (k2_off79_eq k) (k2_off86_eq k) (k2_off79_inb k) (k2_off79_inb k) (k2_off86_inb k) x))
    (fun x => (congrFun (Cert.LibRowStores.cast_add_cast (View.readAt (Elt F) (Memref.whole cc2_scratch6).view (Rect.unit (s := S72x128) (k2_off80 k) S1x16.size (k2_off80_inb k)).toLoadRect ga) (View.readAt (Elt F) (Memref.whole cc2_scratch7).view (Rect.unit (s := S72x128) (k2_off80 k) S1x16.size (k2_off80_inb k)).toLoadRect gb) shapeCasts_S1x16_S16 shapeCasts_S16_S1x16) x).trans
        (Cert.LibRowStores.piece_sum ga gb k.val 80 (by omega) (k2_off80 k) (k2_off80 k) (k2_off87 k) (k2_off80_eq k) (k2_off80_eq k) (k2_off87_eq k) (k2_off80_inb k) (k2_off80_inb k) (k2_off87_inb k) x))
    (fun x => (congrFun (Cert.LibRowStores.cast_add_cast (View.readAt (Elt F) (Memref.whole cc2_scratch6).view (Rect.unit (s := S72x128) (k2_off81 k) S1x16.size (k2_off81_inb k)).toLoadRect ga) (View.readAt (Elt F) (Memref.whole cc2_scratch7).view (Rect.unit (s := S72x128) (k2_off81 k) S1x16.size (k2_off81_inb k)).toLoadRect gb) shapeCasts_S1x16_S16 shapeCasts_S16_S1x16) x).trans
        (Cert.LibRowStores.piece_sum ga gb k.val 84 (by omega) (k2_off81 k) (k2_off81 k) (k2_off88 k) (k2_off81_eq k) (k2_off81_eq k) (k2_off88_eq k) (k2_off81_inb k) (k2_off81_inb k) (k2_off88_inb k) x))
    hp

set_option maxHeartbeats 1000000 in
theorem region_t8 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) (v92 : BitVec 32) (c0_i32_151 : BitVec 32) (c72_i32_152 : BitVec 32) :
    ∀ (k : Fin k2_t8_loop.trips) (acc : Unit), addInvA d L ga gb k.val acc ⊢ wp frame (wpE (defs₀ (F := F)) 𝒱₀ (thr d L) none) Set.univ
      (k2_t8_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v92 c0_i32_151 c72_i32_152 k acc) (addInvA d L ga gb (k.val + 1)) := by
  intro k acc
  unfold addInvA k2_t8_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off96 k) (k2_off97 k) (k2_off98 k) (k2_off99 k) (k2_off100 k) (k2_off101 k) (k2_off102 k)
    (k2_off96_eq k) (k2_off97_eq k) (k2_off98_eq k) (k2_off99_eq k) (k2_off100_eq k) (k2_off101_eq k) (k2_off102_eq k)
    (k2_off96_inb k) (k2_off97_inb k) (k2_off98_inb k) (k2_off99_inb k) (k2_off100_inb k) (k2_off101_inb k) (k2_off102_inb k)
    _ _ _ _ _ _ _
    (fun x => (congrFun (Cert.LibRowStores.cast_add_cast (View.readAt (Elt F) (Memref.whole cc2_scratch4).view (Rect.unit (s := S128x128) (k2_off89 k) S1x16.size (k2_off89_inb k)).toLoadRect ga) (View.readAt (Elt F) (Memref.whole cc2_scratch5).view (Rect.unit (s := S128x128) (k2_off89 k) S1x16.size (k2_off89_inb k)).toLoadRect gb) shapeCasts_S1x16_S16 shapeCasts_S16_S1x16) x).trans
        (Cert.LibRowStores.piece_sum ga gb k.val 0 (by omega) (k2_off89 k) (k2_off89 k) (k2_off96 k) (k2_off89_eq k) (k2_off89_eq k) (k2_off96_eq k) (k2_off89_inb k) (k2_off89_inb k) (k2_off96_inb k) x))
    (fun x => (congrFun (Cert.LibRowStores.cast_add_cast (View.readAt (Elt F) (Memref.whole cc2_scratch4).view (Rect.unit (s := S128x128) (k2_off90 k) S1x16.size (k2_off90_inb k)).toLoadRect ga) (View.readAt (Elt F) (Memref.whole cc2_scratch5).view (Rect.unit (s := S128x128) (k2_off90 k) S1x16.size (k2_off90_inb k)).toLoadRect gb) shapeCasts_S1x16_S16 shapeCasts_S16_S1x16) x).trans
        (Cert.LibRowStores.piece_sum ga gb k.val 16 (by omega) (k2_off90 k) (k2_off90 k) (k2_off97 k) (k2_off90_eq k) (k2_off90_eq k) (k2_off97_eq k) (k2_off90_inb k) (k2_off90_inb k) (k2_off97_inb k) x))
    (fun x => (congrFun (Cert.LibRowStores.cast_add_cast (View.readAt (Elt F) (Memref.whole cc2_scratch4).view (Rect.unit (s := S128x128) (k2_off91 k) S1x16.size (k2_off91_inb k)).toLoadRect ga) (View.readAt (Elt F) (Memref.whole cc2_scratch5).view (Rect.unit (s := S128x128) (k2_off91 k) S1x16.size (k2_off91_inb k)).toLoadRect gb) shapeCasts_S1x16_S16 shapeCasts_S16_S1x16) x).trans
        (Cert.LibRowStores.piece_sum ga gb k.val 32 (by omega) (k2_off91 k) (k2_off91 k) (k2_off98 k) (k2_off91_eq k) (k2_off91_eq k) (k2_off98_eq k) (k2_off91_inb k) (k2_off91_inb k) (k2_off98_inb k) x))
    (fun x => (congrFun (Cert.LibRowStores.cast_add_cast (View.readAt (Elt F) (Memref.whole cc2_scratch4).view (Rect.unit (s := S128x128) (k2_off92 k) S1x16.size (k2_off92_inb k)).toLoadRect ga) (View.readAt (Elt F) (Memref.whole cc2_scratch5).view (Rect.unit (s := S128x128) (k2_off92 k) S1x16.size (k2_off92_inb k)).toLoadRect gb) shapeCasts_S1x16_S16 shapeCasts_S16_S1x16) x).trans
        (Cert.LibRowStores.piece_sum ga gb k.val 48 (by omega) (k2_off92 k) (k2_off92 k) (k2_off99 k) (k2_off92_eq k) (k2_off92_eq k) (k2_off99_eq k) (k2_off92_inb k) (k2_off92_inb k) (k2_off99_inb k) x))
    (fun x => (congrFun (Cert.LibRowStores.cast_add_cast (View.readAt (Elt F) (Memref.whole cc2_scratch4).view (Rect.unit (s := S128x128) (k2_off93 k) S1x16.size (k2_off93_inb k)).toLoadRect ga) (View.readAt (Elt F) (Memref.whole cc2_scratch5).view (Rect.unit (s := S128x128) (k2_off93 k) S1x16.size (k2_off93_inb k)).toLoadRect gb) shapeCasts_S1x16_S16 shapeCasts_S16_S1x16) x).trans
        (Cert.LibRowStores.piece_sum ga gb k.val 64 (by omega) (k2_off93 k) (k2_off93 k) (k2_off100 k) (k2_off93_eq k) (k2_off93_eq k) (k2_off100_eq k) (k2_off93_inb k) (k2_off93_inb k) (k2_off100_inb k) x))
    (fun x => (congrFun (Cert.LibRowStores.cast_add_cast (View.readAt (Elt F) (Memref.whole cc2_scratch4).view (Rect.unit (s := S128x128) (k2_off94 k) S1x16.size (k2_off94_inb k)).toLoadRect ga) (View.readAt (Elt F) (Memref.whole cc2_scratch5).view (Rect.unit (s := S128x128) (k2_off94 k) S1x16.size (k2_off94_inb k)).toLoadRect gb) shapeCasts_S1x16_S16 shapeCasts_S16_S1x16) x).trans
        (Cert.LibRowStores.piece_sum ga gb k.val 80 (by omega) (k2_off94 k) (k2_off94 k) (k2_off101 k) (k2_off94_eq k) (k2_off94_eq k) (k2_off101_eq k) (k2_off94_inb k) (k2_off94_inb k) (k2_off101_inb k) x))
    (fun x => (congrFun (Cert.LibRowStores.cast_add_cast (View.readAt (Elt F) (Memref.whole cc2_scratch4).view (Rect.unit (s := S128x128) (k2_off95 k) S1x16.size (k2_off95_inb k)).toLoadRect ga) (View.readAt (Elt F) (Memref.whole cc2_scratch5).view (Rect.unit (s := S128x128) (k2_off95 k) S1x16.size (k2_off95_inb k)).toLoadRect gb) shapeCasts_S1x16_S16 shapeCasts_S16_S1x16) x).trans
        (Cert.LibRowStores.piece_sum ga gb k.val 84 (by omega) (k2_off95 k) (k2_off95 k) (k2_off102 k) (k2_off95_eq k) (k2_off95_eq k) (k2_off102_eq k) (k2_off95_inb k) (k2_off95_inb k) (k2_off102_inb k) x))
    hp

set_option maxHeartbeats 1000000 in
theorem region_t9 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) (v123 : BitVec 32) :
    ∀ (k : Fin k2_t9_loop.trips) (acc : Unit), addInvB d L ga gb k.val acc ⊢ wp frame (wpE (defs₀ (F := F)) 𝒱₀ (thr d L) none) Set.univ
      (k2_t9_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 v123 k acc) (addInvB d L ga gb (k.val + 1)) := by
  intro k acc
  unfold addInvB k2_t9_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off110 k) (k2_off111 k) (k2_off112 k) (k2_off113 k) (k2_off114 k) (k2_off115 k) (k2_off116 k)
    (k2_off110_eq k) (k2_off111_eq k) (k2_off112_eq k) (k2_off113_eq k) (k2_off114_eq k) (k2_off115_eq k) (k2_off116_eq k)
    (k2_off110_inb k) (k2_off111_inb k) (k2_off112_inb k) (k2_off113_inb k) (k2_off114_inb k) (k2_off115_inb k) (k2_off116_inb k)
    _ _ _ _ _ _ _
    (fun x => (congrFun (Cert.LibRowStores.cast_add_cast (View.readAt (Elt F) (Memref.whole cc2_scratch6).view (Rect.unit (s := S72x128) (k2_off103 k) S1x16.size (k2_off103_inb k)).toLoadRect ga) (View.readAt (Elt F) (Memref.whole cc2_scratch7).view (Rect.unit (s := S72x128) (k2_off103 k) S1x16.size (k2_off103_inb k)).toLoadRect gb) shapeCasts_S1x16_S16 shapeCasts_S16_S1x16) x).trans
        (Cert.LibRowStores.piece_sum ga gb k.val 0 (by omega) (k2_off103 k) (k2_off103 k) (k2_off110 k) (k2_off103_eq k) (k2_off103_eq k) (k2_off110_eq k) (k2_off103_inb k) (k2_off103_inb k) (k2_off110_inb k) x))
    (fun x => (congrFun (Cert.LibRowStores.cast_add_cast (View.readAt (Elt F) (Memref.whole cc2_scratch6).view (Rect.unit (s := S72x128) (k2_off104 k) S1x16.size (k2_off104_inb k)).toLoadRect ga) (View.readAt (Elt F) (Memref.whole cc2_scratch7).view (Rect.unit (s := S72x128) (k2_off104 k) S1x16.size (k2_off104_inb k)).toLoadRect gb) shapeCasts_S1x16_S16 shapeCasts_S16_S1x16) x).trans
        (Cert.LibRowStores.piece_sum ga gb k.val 16 (by omega) (k2_off104 k) (k2_off104 k) (k2_off111 k) (k2_off104_eq k) (k2_off104_eq k) (k2_off111_eq k) (k2_off104_inb k) (k2_off104_inb k) (k2_off111_inb k) x))
    (fun x => (congrFun (Cert.LibRowStores.cast_add_cast (View.readAt (Elt F) (Memref.whole cc2_scratch6).view (Rect.unit (s := S72x128) (k2_off105 k) S1x16.size (k2_off105_inb k)).toLoadRect ga) (View.readAt (Elt F) (Memref.whole cc2_scratch7).view (Rect.unit (s := S72x128) (k2_off105 k) S1x16.size (k2_off105_inb k)).toLoadRect gb) shapeCasts_S1x16_S16 shapeCasts_S16_S1x16) x).trans
        (Cert.LibRowStores.piece_sum ga gb k.val 32 (by omega) (k2_off105 k) (k2_off105 k) (k2_off112 k) (k2_off105_eq k) (k2_off105_eq k) (k2_off112_eq k) (k2_off105_inb k) (k2_off105_inb k) (k2_off112_inb k) x))
    (fun x => (congrFun (Cert.LibRowStores.cast_add_cast (View.readAt (Elt F) (Memref.whole cc2_scratch6).view (Rect.unit (s := S72x128) (k2_off106 k) S1x16.size (k2_off106_inb k)).toLoadRect ga) (View.readAt (Elt F) (Memref.whole cc2_scratch7).view (Rect.unit (s := S72x128) (k2_off106 k) S1x16.size (k2_off106_inb k)).toLoadRect gb) shapeCasts_S1x16_S16 shapeCasts_S16_S1x16) x).trans
        (Cert.LibRowStores.piece_sum ga gb k.val 48 (by omega) (k2_off106 k) (k2_off106 k) (k2_off113 k) (k2_off106_eq k) (k2_off106_eq k) (k2_off113_eq k) (k2_off106_inb k) (k2_off106_inb k) (k2_off113_inb k) x))
    (fun x => (congrFun (Cert.LibRowStores.cast_add_cast (View.readAt (Elt F) (Memref.whole cc2_scratch6).view (Rect.unit (s := S72x128) (k2_off107 k) S1x16.size (k2_off107_inb k)).toLoadRect ga) (View.readAt (Elt F) (Memref.whole cc2_scratch7).view (Rect.unit (s := S72x128) (k2_off107 k) S1x16.size (k2_off107_inb k)).toLoadRect gb) shapeCasts_S1x16_S16 shapeCasts_S16_S1x16) x).trans
        (Cert.LibRowStores.piece_sum ga gb k.val 64 (by omega) (k2_off107 k) (k2_off107 k) (k2_off114 k) (k2_off107_eq k) (k2_off107_eq k) (k2_off114_eq k) (k2_off107_inb k) (k2_off107_inb k) (k2_off114_inb k) x))
    (fun x => (congrFun (Cert.LibRowStores.cast_add_cast (View.readAt (Elt F) (Memref.whole cc2_scratch6).view (Rect.unit (s := S72x128) (k2_off108 k) S1x16.size (k2_off108_inb k)).toLoadRect ga) (View.readAt (Elt F) (Memref.whole cc2_scratch7).view (Rect.unit (s := S72x128) (k2_off108 k) S1x16.size (k2_off108_inb k)).toLoadRect gb) shapeCasts_S1x16_S16 shapeCasts_S16_S1x16) x).trans
        (Cert.LibRowStores.piece_sum ga gb k.val 80 (by omega) (k2_off108 k) (k2_off108 k) (k2_off115 k) (k2_off108_eq k) (k2_off108_eq k) (k2_off115_eq k) (k2_off108_inb k) (k2_off108_inb k) (k2_off115_inb k) x))
    (fun x => (congrFun (Cert.LibRowStores.cast_add_cast (View.readAt (Elt F) (Memref.whole cc2_scratch6).view (Rect.unit (s := S72x128) (k2_off109 k) S1x16.size (k2_off109_inb k)).toLoadRect ga) (View.readAt (Elt F) (Memref.whole cc2_scratch7).view (Rect.unit (s := S72x128) (k2_off109 k) S1x16.size (k2_off109_inb k)).toLoadRect gb) shapeCasts_S1x16_S16 shapeCasts_S16_S1x16) x).trans
        (Cert.LibRowStores.piece_sum ga gb k.val 84 (by omega) (k2_off109 k) (k2_off109 k) (k2_off116 k) (k2_off109_eq k) (k2_off109_eq k) (k2_off116_eq k) (k2_off109_inb k) (k2_off109_inb k) (k2_off116_inb k) x))
    hp

end Cert.Proof.KK

end
-- ==== Proof.KK.AddLoops3.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 10 to 13 of the thirty-two.
-/
import proofs.«206319_g15771119910948_cont_week2b_672_19_alg».proof.Proof.KK.AddInv
import proofs.«206319_g15771119910948_cont_week2b_672_19_alg».proof.Proof.LibRowStores
import Idealize.ShloMosaic.Lib.Tactic

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t10 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) :
    ∀ (k : Fin k2_t10_loop.trips) (acc : Unit), addInvA d L ga gb k.val acc ⊢ wp frame (wpE (defs₀ (F := F)) 𝒱₀ (thr d L) none) Set.univ
      (k2_t10_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 k acc) (addInvA d L ga gb (k.val + 1)) := by
  intro k acc
  unfold addInvA k2_t10_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off124 k) (k2_off125 k) (k2_off126 k) (k2_off127 k) (k2_off128 k) (k2_off129 k) (k2_off130 k)
    (k2_off124_eq k) (k2_off125_eq k) (k2_off126_eq k) (k2_off127_eq k) (k2_off128_eq k) (k2_off129_eq k) (k2_off130_eq k)
    (k2_off124_inb k) (k2_off125_inb k) (k2_off126_inb k) (k2_off127_inb k) (k2_off128_inb k) (k2_off129_inb k) (k2_off130_inb k)
    _ _ _ _ _ _ _
    (fun x => (congrFun (Cert.LibRowStores.cast_add_cast (View.readAt (Elt F) (Memref.whole cc2_scratch4).view (Rect.unit (s := S128x128) (k2_off117 k) S1x16.size (k2_off117_inb k)).toLoadRect ga) (View.readAt (Elt F) (Memref.whole cc2_scratch5).view (Rect.unit (s := S128x128) (k2_off117 k) S1x16.size (k2_off117_inb k)).toLoadRect gb) shapeCasts_S1x16_S16 shapeCasts_S16_S1x16) x).trans
        (Cert.LibRowStores.piece_sum ga gb k.val 0 (by omega) (k2_off117 k) (k2_off117 k) (k2_off124 k) (k2_off117_eq k) (k2_off117_eq k) (k2_off124_eq k) (k2_off117_inb k) (k2_off117_inb k) (k2_off124_inb k) x))
    (fun x => (congrFun (Cert.LibRowStores.cast_add_cast (View.readAt (Elt F) (Memref.whole cc2_scratch4).view (Rect.unit (s := S128x128) (k2_off118 k) S1x16.size (k2_off118_inb k)).toLoadRect ga) (View.readAt (Elt F) (Memref.whole cc2_scratch5).view (Rect.unit (s := S128x128) (k2_off118 k) S1x16.size (k2_off118_inb k)).toLoadRect gb) shapeCasts_S1x16_S16 shapeCasts_S16_S1x16) x).trans
        (Cert.LibRowStores.piece_sum ga gb k.val 16 (by omega) (k2_off118 k) (k2_off118 k) (k2_off125 k) (k2_off118_eq k) (k2_off118_eq k) (k2_off125_eq k) (k2_off118_inb k) (k2_off118_inb k) (k2_off125_inb k) x))
    (fun x => (congrFun (Cert.LibRowStores.cast_add_cast (View.readAt (Elt F) (Memref.whole cc2_scratch4).view (Rect.unit (s := S128x128) (k2_off119 k) S1x16.size (k2_off119_inb k)).toLoadRect ga) (View.readAt (Elt F) (Memref.whole cc2_scratch5).view (Rect.unit (s := S128x128) (k2_off119 k) S1x16.size (k2_off119_inb k)).toLoadRect gb) shapeCasts_S1x16_S16 shapeCasts_S16_S1x16) x).trans
        (Cert.LibRowStores.piece_sum ga gb k.val 32 (by omega) (k2_off119 k) (k2_off119 k) (k2_off126 k) (k2_off119_eq k) (k2_off119_eq k) (k2_off126_eq k) (k2_off119_inb k) (k2_off119_inb k) (k2_off126_inb k) x))
    (fun x => (congrFun (Cert.LibRowStores.cast_add_cast (View.readAt (Elt F) (Memref.whole cc2_scratch4).view (Rect.unit (s := S128x128) (k2_off120 k) S1x16.size (k2_off120_inb k)).toLoadRect ga) (View.readAt (Elt F) (Memref.whole cc2_scratch5).view (Rect.unit (s := S128x128) (k2_off120 k) S1x16.size (k2_off120_inb k)).toLoadRect gb) shapeCasts_S1x16_S16 shapeCasts_S16_S1x16) x).trans
        (Cert.LibRowStores.piece_sum ga gb k.val 48 (by omega) (k2_off120 k) (k2_off120 k) (k2_off127 k) (k2_off120_eq k) (k2_off120_eq k) (k2_off127_eq k) (k2_off120_inb k) (k2_off120_inb k) (k2_off127_inb k) x))
    (fun x => (congrFun (Cert.LibRowStores.cast_add_cast (View.readAt (Elt F) (Memref.whole cc2_scratch4).view (Rect.unit (s := S128x128) (k2_off121 k) S1x16.size (k2_off121_inb k)).toLoadRect ga) (View.readAt (Elt F) (Memref.whole cc2_scratch5).view (Rect.unit (s := S128x128) (k2_off121 k) S1x16.size (k2_off121_inb k)).toLoadRect gb) shapeCasts_S1x16_S16 shapeCasts_S16_S1x16) x).trans
        (Cert.LibRowStores.piece_sum ga gb k.val 64 (by omega) (k2_off121 k) (k2_off121 k) (k2_off128 k) (k2_off121_eq k) (k2_off121_eq k) (k2_off128_eq k) (k2_off121_inb k) (k2_off121_inb k) (k2_off128_inb k) x))
    (fun x => (congrFun (Cert.LibRowStores.cast_add_cast (View.readAt (Elt F) (Memref.whole cc2_scratch4).view (Rect.unit (s := S128x128) (k2_off122 k) S1x16.size (k2_off122_inb k)).toLoadRect ga) (View.readAt (Elt F) (Memref.whole cc2_scratch5).view (Rect.unit (s := S128x128) (k2_off122 k) S1x16.size (k2_off122_inb k)).toLoadRect gb) shapeCasts_S1x16_S16 shapeCasts_S16_S1x16) x).trans
        (Cert.LibRowStores.piece_sum ga gb k.val 80 (by omega) (k2_off122 k) (k2_off122 k) (k2_off129 k) (k2_off122_eq k) (k2_off122_eq k) (k2_off129_eq k) (k2_off122_inb k) (k2_off122_inb k) (k2_off129_inb k) x))
    (fun x => (congrFun (Cert.LibRowStores.cast_add_cast (View.readAt (Elt F) (Memref.whole cc2_scratch4).view (Rect.unit (s := S128x128) (k2_off123 k) S1x16.size (k2_off123_inb k)).toLoadRect ga) (View.readAt (Elt F) (Memref.whole cc2_scratch5).view (Rect.unit (s := S128x128) (k2_off123 k) S1x16.size (k2_off123_inb k)).toLoadRect gb) shapeCasts_S1x16_S16 shapeCasts_S16_S1x16) x).trans
        (Cert.LibRowStores.piece_sum ga gb k.val 84 (by omega) (k2_off123 k) (k2_off123 k) (k2_off130 k) (k2_off123_eq k) (k2_off123_eq k) (k2_off130_eq k) (k2_off123_inb k) (k2_off123_inb k) (k2_off130_inb k) x))
    hp

set_option maxHeartbeats 1000000 in
theorem region_t11 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v154 : BitVec 32) :
    ∀ (k : Fin k2_t11_loop.trips) (acc : Unit), addInvB d L ga gb k.val acc ⊢ wp frame (wpE (defs₀ (F := F)) 𝒱₀ (thr d L) none) Set.univ
      (k2_t11_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v154 k acc) (addInvB d L ga gb (k.val + 1)) := by
  intro k acc
  unfold addInvB k2_t11_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off138 k) (k2_off139 k) (k2_off140 k) (k2_off141 k) (k2_off142 k) (k2_off143 k) (k2_off144 k)
    (k2_off138_eq k) (k2_off139_eq k) (k2_off140_eq k) (k2_off141_eq k) (k2_off142_eq k) (k2_off143_eq k) (k2_off144_eq k)
    (k2_off138_inb k) (k2_off139_inb k) (k2_off140_inb k) (k2_off141_inb k) (k2_off142_inb k) (k2_off143_inb k) (k2_off144_inb k)
    _ _ _ _ _ _ _
    (fun x => (congrFun (Cert.LibRowStores.cast_add_cast (View.readAt (Elt F) (Memref.whole cc2_scratch6).view (Rect.unit (s := S72x128) (k2_off131 k) S1x16.size (k2_off131_inb k)).toLoadRect ga) (View.readAt (Elt F) (Memref.whole cc2_scratch7).view (Rect.unit (s := S72x128) (k2_off131 k) S1x16.size (k2_off131_inb k)).toLoadRect gb) shapeCasts_S1x16_S16 shapeCasts_S16_S1x16) x).trans
        (Cert.LibRowStores.piece_sum ga gb k.val 0 (by omega) (k2_off131 k) (k2_off131 k) (k2_off138 k) (k2_off131_eq k) (k2_off131_eq k) (k2_off138_eq k) (k2_off131_inb k) (k2_off131_inb k) (k2_off138_inb k) x))
    (fun x => (congrFun (Cert.LibRowStores.cast_add_cast (View.readAt (Elt F) (Memref.whole cc2_scratch6).view (Rect.unit (s := S72x128) (k2_off132 k) S1x16.size (k2_off132_inb k)).toLoadRect ga) (View.readAt (Elt F) (Memref.whole cc2_scratch7).view (Rect.unit (s := S72x128) (k2_off132 k) S1x16.size (k2_off132_inb k)).toLoadRect gb) shapeCasts_S1x16_S16 shapeCasts_S16_S1x16) x).trans
        (Cert.LibRowStores.piece_sum ga gb k.val 16 (by omega) (k2_off132 k) (k2_off132 k) (k2_off139 k) (k2_off132_eq k) (k2_off132_eq k) (k2_off139_eq k) (k2_off132_inb k) (k2_off132_inb k) (k2_off139_inb k) x))
    (fun x => (congrFun (Cert.LibRowStores.cast_add_cast (View.readAt (Elt F) (Memref.whole cc2_scratch6).view (Rect.unit (s := S72x128) (k2_off133 k) S1x16.size (k2_off133_inb k)).toLoadRect ga) (View.readAt (Elt F) (Memref.whole cc2_scratch7).view (Rect.unit (s := S72x128) (k2_off133 k) S1x16.size (k2_off133_inb k)).toLoadRect gb) shapeCasts_S1x16_S16 shapeCasts_S16_S1x16) x).trans
        (Cert.LibRowStores.piece_sum ga gb k.val 32 (by omega) (k2_off133 k) (k2_off133 k) (k2_off140 k) (k2_off133_eq k) (k2_off133_eq k) (k2_off140_eq k) (k2_off133_inb k) (k2_off133_inb k) (k2_off140_inb k) x))
    (fun x => (congrFun (Cert.LibRowStores.cast_add_cast (View.readAt (Elt F) (Memref.whole cc2_scratch6).view (Rect.unit (s := S72x128) (k2_off134 k) S1x16.size (k2_off134_inb k)).toLoadRect ga) (View.readAt (Elt F) (Memref.whole cc2_scratch7).view (Rect.unit (s := S72x128) (k2_off134 k) S1x16.size (k2_off134_inb k)).toLoadRect gb) shapeCasts_S1x16_S16 shapeCasts_S16_S1x16) x).trans
        (Cert.LibRowStores.piece_sum ga gb k.val 48 (by omega) (k2_off134 k) (k2_off134 k) (k2_off141 k) (k2_off134_eq k) (k2_off134_eq k) (k2_off141_eq k) (k2_off134_inb k) (k2_off134_inb k) (k2_off141_inb k) x))
    (fun x => (congrFun (Cert.LibRowStores.cast_add_cast (View.readAt (Elt F) (Memref.whole cc2_scratch6).view (Rect.unit (s := S72x128) (k2_off135 k) S1x16.size (k2_off135_inb k)).toLoadRect ga) (View.readAt (Elt F) (Memref.whole cc2_scratch7).view (Rect.unit (s := S72x128) (k2_off135 k) S1x16.size (k2_off135_inb k)).toLoadRect gb) shapeCasts_S1x16_S16 shapeCasts_S16_S1x16) x).trans
        (Cert.LibRowStores.piece_sum ga gb k.val 64 (by omega) (k2_off135 k) (k2_off135 k) (k2_off142 k) (k2_off135_eq k) (k2_off135_eq k) (k2_off142_eq k) (k2_off135_inb k) (k2_off135_inb k) (k2_off142_inb k) x))
    (fun x => (congrFun (Cert.LibRowStores.cast_add_cast (View.readAt (Elt F) (Memref.whole cc2_scratch6).view (Rect.unit (s := S72x128) (k2_off136 k) S1x16.size (k2_off136_inb k)).toLoadRect ga) (View.readAt (Elt F) (Memref.whole cc2_scratch7).view (Rect.unit (s := S72x128) (k2_off136 k) S1x16.size (k2_off136_inb k)).toLoadRect gb) shapeCasts_S1x16_S16 shapeCasts_S16_S1x16) x).trans
        (Cert.LibRowStores.piece_sum ga gb k.val 80 (by omega) (k2_off136 k) (k2_off136 k) (k2_off143 k) (k2_off136_eq k) (k2_off136_eq k) (k2_off143_eq k) (k2_off136_inb k) (k2_off136_inb k) (k2_off143_inb k) x))
    (fun x => (congrFun (Cert.LibRowStores.cast_add_cast (View.readAt (Elt F) (Memref.whole cc2_scratch6).view (Rect.unit (s := S72x128) (k2_off137 k) S1x16.size (k2_off137_inb k)).toLoadRect ga) (View.readAt (Elt F) (Memref.whole cc2_scratch7).view (Rect.unit (s := S72x128) (k2_off137 k) S1x16.size (k2_off137_inb k)).toLoadRect gb) shapeCasts_S1x16_S16 shapeCasts_S16_S1x16) x).trans
        (Cert.LibRowStores.piece_sum ga gb k.val 84 (by omega) (k2_off137 k) (k2_off137 k) (k2_off144 k) (k2_off137_eq k) (k2_off137_eq k) (k2_off144_eq k) (k2_off137_inb k) (k2_off137_inb k) (k2_off144_inb k) x))
    hp

set_option maxHeartbeats 1000000 in
theorem region_t12 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t12_loop.trips) (acc : Unit), addInvA d L ga gb k.val acc ⊢ wp frame (wpE (defs₀ (F := F)) 𝒱₀ (thr d L) none) Set.univ
      (k2_t12_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t12_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off152 k) (k2_off153 k) (k2_off154 k) (k2_off155 k) (k2_off156 k) (k2_off157 k) (k2_off158 k)
    (k2_off152_eq k) (k2_off153_eq k) (k2_off154_eq k) (k2_off155_eq k) (k2_off156_eq k) (k2_off157_eq k) (k2_off158_eq k)
    (k2_off152_inb k) (k2_off153_inb k) (k2_off154_inb k) (k2_off155_inb k) (k2_off156_inb k) (k2_off157_inb k) (k2_off158_inb k)
    _ _ _ _ _ _ _
    (fun x => (congrFun (Cert.LibRowStores.cast_add_cast (View.readAt (Elt F) (Memref.whole cc2_scratch4).view (Rect.unit (s := S128x128) (k2_off145 k) S1x16.size (k2_off145_inb k)).toLoadRect ga) (View.readAt (Elt F) (Memref.whole cc2_scratch5).view (Rect.unit (s := S128x128) (k2_off145 k) S1x16.size (k2_off145_inb k)).toLoadRect gb) shapeCasts_S1x16_S16 shapeCasts_S16_S1x16) x).trans
        (Cert.LibRowStores.piece_sum ga gb k.val 0 (by omega) (k2_off145 k) (k2_off145 k) (k2_off152 k) (k2_off145_eq k) (k2_off145_eq k) (k2_off152_eq k) (k2_off145_inb k) (k2_off145_inb k) (k2_off152_inb k) x))
    (fun x => (congrFun (Cert.LibRowStores.cast_add_cast (View.readAt (Elt F) (Memref.whole cc2_scratch4).view (Rect.unit (s := S128x128) (k2_off146 k) S1x16.size (k2_off146_inb k)).toLoadRect ga) (View.readAt (Elt F) (Memref.whole cc2_scratch5).view (Rect.unit (s := S128x128) (k2_off146 k) S1x16.size (k2_off146_inb k)).toLoadRect gb) shapeCasts_S1x16_S16 shapeCasts_S16_S1x16) x).trans
        (Cert.LibRowStores.piece_sum ga gb k.val 16 (by omega) (k2_off146 k) (k2_off146 k) (k2_off153 k) (k2_off146_eq k) (k2_off146_eq k) (k2_off153_eq k) (k2_off146_inb k) (k2_off146_inb k) (k2_off153_inb k) x))
    (fun x => (congrFun (Cert.LibRowStores.cast_add_cast (View.readAt (Elt F) (Memref.whole cc2_scratch4).view (Rect.unit (s := S128x128) (k2_off147 k) S1x16.size (k2_off147_inb k)).toLoadRect ga) (View.readAt (Elt F) (Memref.whole cc2_scratch5).view (Rect.unit (s := S128x128) (k2_off147 k) S1x16.size (k2_off147_inb k)).toLoadRect gb) shapeCasts_S1x16_S16 shapeCasts_S16_S1x16) x).trans
        (Cert.LibRowStores.piece_sum ga gb k.val 32 (by omega) (k2_off147 k) (k2_off147 k) (k2_off154 k) (k2_off147_eq k) (k2_off147_eq k) (k2_off154_eq k) (k2_off147_inb k) (k2_off147_inb k) (k2_off154_inb k) x))
    (fun x => (congrFun (Cert.LibRowStores.cast_add_cast (View.readAt (Elt F) (Memref.whole cc2_scratch4).view (Rect.unit (s := S128x128) (k2_off148 k) S1x16.size (k2_off148_inb k)).toLoadRect ga) (View.readAt (Elt F) (Memref.whole cc2_scratch5).view (Rect.unit (s := S128x128) (k2_off148 k) S1x16.size (k2_off148_inb k)).toLoadRect gb) shapeCasts_S1x16_S16 shapeCasts_S16_S1x16) x).trans
        (Cert.LibRowStores.piece_sum ga gb k.val 48 (by omega) (k2_off148 k) (k2_off148 k) (k2_off155 k) (k2_off148_eq k) (k2_off148_eq k) (k2_off155_eq k) (k2_off148_inb k) (k2_off148_inb k) (k2_off155_inb k) x))
    (fun x => (congrFun (Cert.LibRowStores.cast_add_cast (View.readAt (Elt F) (Memref.whole cc2_scratch4).view (Rect.unit (s := S128x128) (k2_off149 k) S1x16.size (k2_off149_inb k)).toLoadRect ga) (View.readAt (Elt F) (Memref.whole cc2_scratch5).view (Rect.unit (s := S128x128) (k2_off149 k) S1x16.size (k2_off149_inb k)).toLoadRect gb) shapeCasts_S1x16_S16 shapeCasts_S16_S1x16) x).trans
        (Cert.LibRowStores.piece_sum ga gb k.val 64 (by omega) (k2_off149 k) (k2_off149 k) (k2_off156 k) (k2_off149_eq k) (k2_off149_eq k) (k2_off156_eq k) (k2_off149_inb k) (k2_off149_inb k) (k2_off156_inb k) x))
    (fun x => (congrFun (Cert.LibRowStores.cast_add_cast (View.readAt (Elt F) (Memref.whole cc2_scratch4).view (Rect.unit (s := S128x128) (k2_off150 k) S1x16.size (k2_off150_inb k)).toLoadRect ga) (View.readAt (Elt F) (Memref.whole cc2_scratch5).view (Rect.unit (s := S128x128) (k2_off150 k) S1x16.size (k2_off150_inb k)).toLoadRect gb) shapeCasts_S1x16_S16 shapeCasts_S16_S1x16) x).trans
        (Cert.LibRowStores.piece_sum ga gb k.val 80 (by omega) (k2_off150 k) (k2_off150 k) (k2_off157 k) (k2_off150_eq k) (k2_off150_eq k) (k2_off157_eq k) (k2_off150_inb k) (k2_off150_inb k) (k2_off157_inb k) x))
    (fun x => (congrFun (Cert.LibRowStores.cast_add_cast (View.readAt (Elt F) (Memref.whole cc2_scratch4).view (Rect.unit (s := S128x128) (k2_off151 k) S1x16.size (k2_off151_inb k)).toLoadRect ga) (View.readAt (Elt F) (Memref.whole cc2_scratch5).view (Rect.unit (s := S128x128) (k2_off151 k) S1x16.size (k2_off151_inb k)).toLoadRect gb) shapeCasts_S1x16_S16 shapeCasts_S16_S1x16) x).trans
        (Cert.LibRowStores.piece_sum ga gb k.val 84 (by omega) (k2_off151 k) (k2_off151 k) (k2_off158 k) (k2_off151_eq k) (k2_off151_eq k) (k2_off158_eq k) (k2_off151_inb k) (k2_off151_inb k) (k2_off158_inb k) x))
    hp

set_option maxHeartbeats 1000000 in
theorem region_t13 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v185 : BitVec 32) :
    ∀ (k : Fin k2_t13_loop.trips) (acc : Unit), addInvB d L ga gb k.val acc ⊢ wp frame (wpE (defs₀ (F := F)) 𝒱₀ (thr d L) none) Set.univ
      (k2_t13_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v185 k acc) (addInvB d L ga gb (k.val + 1)) := by
  intro k acc
  unfold addInvB k2_t13_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off166 k) (k2_off167 k) (k2_off168 k) (k2_off169 k) (k2_off170 k) (k2_off171 k) (k2_off172 k)
    (k2_off166_eq k) (k2_off167_eq k) (k2_off168_eq k) (k2_off169_eq k) (k2_off170_eq k) (k2_off171_eq k) (k2_off172_eq k)
    (k2_off166_inb k) (k2_off167_inb k) (k2_off168_inb k) (k2_off169_inb k) (k2_off170_inb k) (k2_off171_inb k) (k2_off172_inb k)
    _ _ _ _ _ _ _
    (fun x => (congrFun (Cert.LibRowStores.cast_add_cast (View.readAt (Elt F) (Memref.whole cc2_scratch6).view (Rect.unit (s := S72x128) (k2_off159 k) S1x16.size (k2_off159_inb k)).toLoadRect ga) (View.readAt (Elt F) (Memref.whole cc2_scratch7).view (Rect.unit (s := S72x128) (k2_off159 k) S1x16.size (k2_off159_inb k)).toLoadRect gb) shapeCasts_S1x16_S16 shapeCasts_S16_S1x16) x).trans
        (Cert.LibRowStores.piece_sum ga gb k.val 0 (by omega) (k2_off159 k) (k2_off159 k) (k2_off166 k) (k2_off159_eq k) (k2_off159_eq k) (k2_off166_eq k) (k2_off159_inb k) (k2_off159_inb k) (k2_off166_inb k) x))
    (fun x => (congrFun (Cert.LibRowStores.cast_add_cast (View.readAt (Elt F) (Memref.whole cc2_scratch6).view (Rect.unit (s := S72x128) (k2_off160 k) S1x16.size (k2_off160_inb k)).toLoadRect ga) (View.readAt (Elt F) (Memref.whole cc2_scratch7).view (Rect.unit (s := S72x128) (k2_off160 k) S1x16.size (k2_off160_inb k)).toLoadRect gb) shapeCasts_S1x16_S16 shapeCasts_S16_S1x16) x).trans
        (Cert.LibRowStores.piece_sum ga gb k.val 16 (by omega) (k2_off160 k) (k2_off160 k) (k2_off167 k) (k2_off160_eq k) (k2_off160_eq k) (k2_off167_eq k) (k2_off160_inb k) (k2_off160_inb k) (k2_off167_inb k) x))
    (fun x => (congrFun (Cert.LibRowStores.cast_add_cast (View.readAt (Elt F) (Memref.whole cc2_scratch6).view (Rect.unit (s := S72x128) (k2_off161 k) S1x16.size (k2_off161_inb k)).toLoadRect ga) (View.readAt (Elt F) (Memref.whole cc2_scratch7).view (Rect.unit (s := S72x128) (k2_off161 k) S1x16.size (k2_off161_inb k)).toLoadRect gb) shapeCasts_S1x16_S16 shapeCasts_S16_S1x16) x).trans
        (Cert.LibRowStores.piece_sum ga gb k.val 32 (by omega) (k2_off161 k) (k2_off161 k) (k2_off168 k) (k2_off161_eq k) (k2_off161_eq k) (k2_off168_eq k) (k2_off161_inb k) (k2_off161_inb k) (k2_off168_inb k) x))
    (fun x => (congrFun (Cert.LibRowStores.cast_add_cast (View.readAt (Elt F) (Memref.whole cc2_scratch6).view (Rect.unit (s := S72x128) (k2_off162 k) S1x16.size (k2_off162_inb k)).toLoadRect ga) (View.readAt (Elt F) (Memref.whole cc2_scratch7).view (Rect.unit (s := S72x128) (k2_off162 k) S1x16.size (k2_off162_inb k)).toLoadRect gb) shapeCasts_S1x16_S16 shapeCasts_S16_S1x16) x).trans
        (Cert.LibRowStores.piece_sum ga gb k.val 48 (by omega) (k2_off162 k) (k2_off162 k) (k2_off169 k) (k2_off162_eq k) (k2_off162_eq k) (k2_off169_eq k) (k2_off162_inb k) (k2_off162_inb k) (k2_off169_inb k) x))
    (fun x => (congrFun (Cert.LibRowStores.cast_add_cast (View.readAt (Elt F) (Memref.whole cc2_scratch6).view (Rect.unit (s := S72x128) (k2_off163 k) S1x16.size (k2_off163_inb k)).toLoadRect ga) (View.readAt (Elt F) (Memref.whole cc2_scratch7).view (Rect.unit (s := S72x128) (k2_off163 k) S1x16.size (k2_off163_inb k)).toLoadRect gb) shapeCasts_S1x16_S16 shapeCasts_S16_S1x16) x).trans
        (Cert.LibRowStores.piece_sum ga gb k.val 64 (by omega) (k2_off163 k) (k2_off163 k) (k2_off170 k) (k2_off163_eq k) (k2_off163_eq k) (k2_off170_eq k) (k2_off163_inb k) (k2_off163_inb k) (k2_off170_inb k) x))
    (fun x => (congrFun (Cert.LibRowStores.cast_add_cast (View.readAt (Elt F) (Memref.whole cc2_scratch6).view (Rect.unit (s := S72x128) (k2_off164 k) S1x16.size (k2_off164_inb k)).toLoadRect ga) (View.readAt (Elt F) (Memref.whole cc2_scratch7).view (Rect.unit (s := S72x128) (k2_off164 k) S1x16.size (k2_off164_inb k)).toLoadRect gb) shapeCasts_S1x16_S16 shapeCasts_S16_S1x16) x).trans
        (Cert.LibRowStores.piece_sum ga gb k.val 80 (by omega) (k2_off164 k) (k2_off164 k) (k2_off171 k) (k2_off164_eq k) (k2_off164_eq k) (k2_off171_eq k) (k2_off164_inb k) (k2_off164_inb k) (k2_off171_inb k) x))
    (fun x => (congrFun (Cert.LibRowStores.cast_add_cast (View.readAt (Elt F) (Memref.whole cc2_scratch6).view (Rect.unit (s := S72x128) (k2_off165 k) S1x16.size (k2_off165_inb k)).toLoadRect ga) (View.readAt (Elt F) (Memref.whole cc2_scratch7).view (Rect.unit (s := S72x128) (k2_off165 k) S1x16.size (k2_off165_inb k)).toLoadRect gb) shapeCasts_S1x16_S16 shapeCasts_S16_S1x16) x).trans
        (Cert.LibRowStores.piece_sum ga gb k.val 84 (by omega) (k2_off165 k) (k2_off165 k) (k2_off172 k) (k2_off165_eq k) (k2_off165_eq k) (k2_off172_eq k) (k2_off165_inb k) (k2_off165_inb k) (k2_off172_inb k) x))
    hp

end Cert.Proof.KK

end
-- ==== Proof.KK.AddLoops4.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 14 to 17 of the thirty-two.
-/
import proofs.«206319_g15771119910948_cont_week2b_672_19_alg».proof.Proof.KK.AddInv
import proofs.«206319_g15771119910948_cont_week2b_672_19_alg».proof.Proof.LibRowStores
import Idealize.ShloMosaic.Lib.Tactic

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t14 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t14_loop.trips) (acc : Unit), addInvA d L ga gb k.val acc ⊢ wp frame (wpE (defs₀ (F := F)) 𝒱₀ (thr d L) none) Set.univ
      (k2_t14_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t14_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off180 k) (k2_off181 k) (k2_off182 k) (k2_off183 k) (k2_off184 k) (k2_off185 k) (k2_off186 k)
    (k2_off180_eq k) (k2_off181_eq k) (k2_off182_eq k) (k2_off183_eq k) (k2_off184_eq k) (k2_off185_eq k) (k2_off186_eq k)
    (k2_off180_inb k) (k2_off181_inb k) (k2_off182_inb k) (k2_off183_inb k) (k2_off184_inb k) (k2_off185_inb k) (k2_off186_inb k)
    _ _ _ _ _ _ _
    (fun x => (congrFun (Cert.LibRowStores.cast_add_cast (View.readAt (Elt F) (Memref.whole cc2_scratch4).view (Rect.unit (s := S128x128) (k2_off173 k) S1x16.size (k2_off173_inb k)).toLoadRect ga) (View.readAt (Elt F) (Memref.whole cc2_scratch5).view (Rect.unit (s := S128x128) (k2_off173 k) S1x16.size (k2_off173_inb k)).toLoadRect gb) shapeCasts_S1x16_S16 shapeCasts_S16_S1x16) x).trans
        (Cert.LibRowStores.piece_sum ga gb k.val 0 (by omega) (k2_off173 k) (k2_off173 k) (k2_off180 k) (k2_off173_eq k) (k2_off173_eq k) (k2_off180_eq k) (k2_off173_inb k) (k2_off173_inb k) (k2_off180_inb k) x))
    (fun x => (congrFun (Cert.LibRowStores.cast_add_cast (View.readAt (Elt F) (Memref.whole cc2_scratch4).view (Rect.unit (s := S128x128) (k2_off174 k) S1x16.size (k2_off174_inb k)).toLoadRect ga) (View.readAt (Elt F) (Memref.whole cc2_scratch5).view (Rect.unit (s := S128x128) (k2_off174 k) S1x16.size (k2_off174_inb k)).toLoadRect gb) shapeCasts_S1x16_S16 shapeCasts_S16_S1x16) x).trans
        (Cert.LibRowStores.piece_sum ga gb k.val 16 (by omega) (k2_off174 k) (k2_off174 k) (k2_off181 k) (k2_off174_eq k) (k2_off174_eq k) (k2_off181_eq k) (k2_off174_inb k) (k2_off174_inb k) (k2_off181_inb k) x))
    (fun x => (congrFun (Cert.LibRowStores.cast_add_cast (View.readAt (Elt F) (Memref.whole cc2_scratch4).view (Rect.unit (s := S128x128) (k2_off175 k) S1x16.size (k2_off175_inb k)).toLoadRect ga) (View.readAt (Elt F) (Memref.whole cc2_scratch5).view (Rect.unit (s := S128x128) (k2_off175 k) S1x16.size (k2_off175_inb k)).toLoadRect gb) shapeCasts_S1x16_S16 shapeCasts_S16_S1x16) x).trans
        (Cert.LibRowStores.piece_sum ga gb k.val 32 (by omega) (k2_off175 k) (k2_off175 k) (k2_off182 k) (k2_off175_eq k) (k2_off175_eq k) (k2_off182_eq k) (k2_off175_inb k) (k2_off175_inb k) (k2_off182_inb k) x))
    (fun x => (congrFun (Cert.LibRowStores.cast_add_cast (View.readAt (Elt F) (Memref.whole cc2_scratch4).view (Rect.unit (s := S128x128) (k2_off176 k) S1x16.size (k2_off176_inb k)).toLoadRect ga) (View.readAt (Elt F) (Memref.whole cc2_scratch5).view (Rect.unit (s := S128x128) (k2_off176 k) S1x16.size (k2_off176_inb k)).toLoadRect gb) shapeCasts_S1x16_S16 shapeCasts_S16_S1x16) x).trans
        (Cert.LibRowStores.piece_sum ga gb k.val 48 (by omega) (k2_off176 k) (k2_off176 k) (k2_off183 k) (k2_off176_eq k) (k2_off176_eq k) (k2_off183_eq k) (k2_off176_inb k) (k2_off176_inb k) (k2_off183_inb k) x))
    (fun x => (congrFun (Cert.LibRowStores.cast_add_cast (View.readAt (Elt F) (Memref.whole cc2_scratch4).view (Rect.unit (s := S128x128) (k2_off177 k) S1x16.size (k2_off177_inb k)).toLoadRect ga) (View.readAt (Elt F) (Memref.whole cc2_scratch5).view (Rect.unit (s := S128x128) (k2_off177 k) S1x16.size (k2_off177_inb k)).toLoadRect gb) shapeCasts_S1x16_S16 shapeCasts_S16_S1x16) x).trans
        (Cert.LibRowStores.piece_sum ga gb k.val 64 (by omega) (k2_off177 k) (k2_off177 k) (k2_off184 k) (k2_off177_eq k) (k2_off177_eq k) (k2_off184_eq k) (k2_off177_inb k) (k2_off177_inb k) (k2_off184_inb k) x))
    (fun x => (congrFun (Cert.LibRowStores.cast_add_cast (View.readAt (Elt F) (Memref.whole cc2_scratch4).view (Rect.unit (s := S128x128) (k2_off178 k) S1x16.size (k2_off178_inb k)).toLoadRect ga) (View.readAt (Elt F) (Memref.whole cc2_scratch5).view (Rect.unit (s := S128x128) (k2_off178 k) S1x16.size (k2_off178_inb k)).toLoadRect gb) shapeCasts_S1x16_S16 shapeCasts_S16_S1x16) x).trans
        (Cert.LibRowStores.piece_sum ga gb k.val 80 (by omega) (k2_off178 k) (k2_off178 k) (k2_off185 k) (k2_off178_eq k) (k2_off178_eq k) (k2_off185_eq k) (k2_off178_inb k) (k2_off178_inb k) (k2_off185_inb k) x))
    (fun x => (congrFun (Cert.LibRowStores.cast_add_cast (View.readAt (Elt F) (Memref.whole cc2_scratch4).view (Rect.unit (s := S128x128) (k2_off179 k) S1x16.size (k2_off179_inb k)).toLoadRect ga) (View.readAt (Elt F) (Memref.whole cc2_scratch5).view (Rect.unit (s := S128x128) (k2_off179 k) S1x16.size (k2_off179_inb k)).toLoadRect gb) shapeCasts_S1x16_S16 shapeCasts_S16_S1x16) x).trans
        (Cert.LibRowStores.piece_sum ga gb k.val 84 (by omega) (k2_off179 k) (k2_off179 k) (k2_off186 k) (k2_off179_eq k) (k2_off179_eq k) (k2_off186_eq k) (k2_off179_inb k) (k2_off179_inb k) (k2_off186_inb k) x))
    hp

set_option maxHeartbeats 1000000 in
theorem region_t15 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v216 : BitVec 32) (c0_i32_323 : BitVec 32) (c72_i32_324 : BitVec 32) :
    ∀ (k : Fin k2_t15_loop.trips) (acc : Unit), addInvB d L ga gb k.val acc ⊢ wp frame (wpE (defs₀ (F := F)) 𝒱₀ (thr d L) none) Set.univ
      (k2_t15_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v216 c0_i32_323 c72_i32_324 k acc) (addInvB d L ga gb (k.val + 1)) := by
  intro k acc
  unfold addInvB k2_t15_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off194 k) (k2_off195 k) (k2_off196 k) (k2_off197 k) (k2_off198 k) (k2_off199 k) (k2_off200 k)
    (k2_off194_eq k) (k2_off195_eq k) (k2_off196_eq k) (k2_off197_eq k) (k2_off198_eq k) (k2_off199_eq k) (k2_off200_eq k)
    (k2_off194_inb k) (k2_off195_inb k) (k2_off196_inb k) (k2_off197_inb k) (k2_off198_inb k) (k2_off199_inb k) (k2_off200_inb k)
    _ _ _ _ _ _ _
    (fun x => (congrFun (Cert.LibRowStores.cast_add_cast (View.readAt (Elt F) (Memref.whole cc2_scratch6).view (Rect.unit (s := S72x128) (k2_off187 k) S1x16.size (k2_off187_inb k)).toLoadRect ga) (View.readAt (Elt F) (Memref.whole cc2_scratch7).view (Rect.unit (s := S72x128) (k2_off187 k) S1x16.size (k2_off187_inb k)).toLoadRect gb) shapeCasts_S1x16_S16 shapeCasts_S16_S1x16) x).trans
        (Cert.LibRowStores.piece_sum ga gb k.val 0 (by omega) (k2_off187 k) (k2_off187 k) (k2_off194 k) (k2_off187_eq k) (k2_off187_eq k) (k2_off194_eq k) (k2_off187_inb k) (k2_off187_inb k) (k2_off194_inb k) x))
    (fun x => (congrFun (Cert.LibRowStores.cast_add_cast (View.readAt (Elt F) (Memref.whole cc2_scratch6).view (Rect.unit (s := S72x128) (k2_off188 k) S1x16.size (k2_off188_inb k)).toLoadRect ga) (View.readAt (Elt F) (Memref.whole cc2_scratch7).view (Rect.unit (s := S72x128) (k2_off188 k) S1x16.size (k2_off188_inb k)).toLoadRect gb) shapeCasts_S1x16_S16 shapeCasts_S16_S1x16) x).trans
        (Cert.LibRowStores.piece_sum ga gb k.val 16 (by omega) (k2_off188 k) (k2_off188 k) (k2_off195 k) (k2_off188_eq k) (k2_off188_eq k) (k2_off195_eq k) (k2_off188_inb k) (k2_off188_inb k) (k2_off195_inb k) x))
    (fun x => (congrFun (Cert.LibRowStores.cast_add_cast (View.readAt (Elt F) (Memref.whole cc2_scratch6).view (Rect.unit (s := S72x128) (k2_off189 k) S1x16.size (k2_off189_inb k)).toLoadRect ga) (View.readAt (Elt F) (Memref.whole cc2_scratch7).view (Rect.unit (s := S72x128) (k2_off189 k) S1x16.size (k2_off189_inb k)).toLoadRect gb) shapeCasts_S1x16_S16 shapeCasts_S16_S1x16) x).trans
        (Cert.LibRowStores.piece_sum ga gb k.val 32 (by omega) (k2_off189 k) (k2_off189 k) (k2_off196 k) (k2_off189_eq k) (k2_off189_eq k) (k2_off196_eq k) (k2_off189_inb k) (k2_off189_inb k) (k2_off196_inb k) x))
    (fun x => (congrFun (Cert.LibRowStores.cast_add_cast (View.readAt (Elt F) (Memref.whole cc2_scratch6).view (Rect.unit (s := S72x128) (k2_off190 k) S1x16.size (k2_off190_inb k)).toLoadRect ga) (View.readAt (Elt F) (Memref.whole cc2_scratch7).view (Rect.unit (s := S72x128) (k2_off190 k) S1x16.size (k2_off190_inb k)).toLoadRect gb) shapeCasts_S1x16_S16 shapeCasts_S16_S1x16) x).trans
        (Cert.LibRowStores.piece_sum ga gb k.val 48 (by omega) (k2_off190 k) (k2_off190 k) (k2_off197 k) (k2_off190_eq k) (k2_off190_eq k) (k2_off197_eq k) (k2_off190_inb k) (k2_off190_inb k) (k2_off197_inb k) x))
    (fun x => (congrFun (Cert.LibRowStores.cast_add_cast (View.readAt (Elt F) (Memref.whole cc2_scratch6).view (Rect.unit (s := S72x128) (k2_off191 k) S1x16.size (k2_off191_inb k)).toLoadRect ga) (View.readAt (Elt F) (Memref.whole cc2_scratch7).view (Rect.unit (s := S72x128) (k2_off191 k) S1x16.size (k2_off191_inb k)).toLoadRect gb) shapeCasts_S1x16_S16 shapeCasts_S16_S1x16) x).trans
        (Cert.LibRowStores.piece_sum ga gb k.val 64 (by omega) (k2_off191 k) (k2_off191 k) (k2_off198 k) (k2_off191_eq k) (k2_off191_eq k) (k2_off198_eq k) (k2_off191_inb k) (k2_off191_inb k) (k2_off198_inb k) x))
    (fun x => (congrFun (Cert.LibRowStores.cast_add_cast (View.readAt (Elt F) (Memref.whole cc2_scratch6).view (Rect.unit (s := S72x128) (k2_off192 k) S1x16.size (k2_off192_inb k)).toLoadRect ga) (View.readAt (Elt F) (Memref.whole cc2_scratch7).view (Rect.unit (s := S72x128) (k2_off192 k) S1x16.size (k2_off192_inb k)).toLoadRect gb) shapeCasts_S1x16_S16 shapeCasts_S16_S1x16) x).trans
        (Cert.LibRowStores.piece_sum ga gb k.val 80 (by omega) (k2_off192 k) (k2_off192 k) (k2_off199 k) (k2_off192_eq k) (k2_off192_eq k) (k2_off199_eq k) (k2_off192_inb k) (k2_off192_inb k) (k2_off199_inb k) x))
    (fun x => (congrFun (Cert.LibRowStores.cast_add_cast (View.readAt (Elt F) (Memref.whole cc2_scratch6).view (Rect.unit (s := S72x128) (k2_off193 k) S1x16.size (k2_off193_inb k)).toLoadRect ga) (View.readAt (Elt F) (Memref.whole cc2_scratch7).view (Rect.unit (s := S72x128) (k2_off193 k) S1x16.size (k2_off193_inb k)).toLoadRect gb) shapeCasts_S1x16_S16 shapeCasts_S16_S1x16) x).trans
        (Cert.LibRowStores.piece_sum ga gb k.val 84 (by omega) (k2_off193 k) (k2_off193 k) (k2_off200 k) (k2_off193_eq k) (k2_off193_eq k) (k2_off200_eq k) (k2_off193_inb k) (k2_off193_inb k) (k2_off200_inb k) x))
    hp

set_option maxHeartbeats 1000000 in
theorem region_t16 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) (v216 : BitVec 32) (c0_i32_323 : BitVec 32) (c72_i32_324 : BitVec 32) :
    ∀ (k : Fin k2_t16_loop.trips) (acc : Unit), addInvA d L ga gb k.val acc ⊢ wp frame (wpE (defs₀ (F := F)) 𝒱₀ (thr d L) none) Set.univ
      (k2_t16_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v216 c0_i32_323 c72_i32_324 k acc) (addInvA d L ga gb (k.val + 1)) := by
  intro k acc
  unfold addInvA k2_t16_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off208 k) (k2_off209 k) (k2_off210 k) (k2_off211 k) (k2_off212 k) (k2_off213 k) (k2_off214 k)
    (k2_off208_eq k) (k2_off209_eq k) (k2_off210_eq k) (k2_off211_eq k) (k2_off212_eq k) (k2_off213_eq k) (k2_off214_eq k)
    (k2_off208_inb k) (k2_off209_inb k) (k2_off210_inb k) (k2_off211_inb k) (k2_off212_inb k) (k2_off213_inb k) (k2_off214_inb k)
    _ _ _ _ _ _ _
    (fun x => (congrFun (Cert.LibRowStores.cast_add_cast (View.readAt (Elt F) (Memref.whole cc2_scratch4).view (Rect.unit (s := S128x128) (k2_off201 k) S1x16.size (k2_off201_inb k)).toLoadRect ga) (View.readAt (Elt F) (Memref.whole cc2_scratch5).view (Rect.unit (s := S128x128) (k2_off201 k) S1x16.size (k2_off201_inb k)).toLoadRect gb) shapeCasts_S1x16_S16 shapeCasts_S16_S1x16) x).trans
        (Cert.LibRowStores.piece_sum ga gb k.val 0 (by omega) (k2_off201 k) (k2_off201 k) (k2_off208 k) (k2_off201_eq k) (k2_off201_eq k) (k2_off208_eq k) (k2_off201_inb k) (k2_off201_inb k) (k2_off208_inb k) x))
    (fun x => (congrFun (Cert.LibRowStores.cast_add_cast (View.readAt (Elt F) (Memref.whole cc2_scratch4).view (Rect.unit (s := S128x128) (k2_off202 k) S1x16.size (k2_off202_inb k)).toLoadRect ga) (View.readAt (Elt F) (Memref.whole cc2_scratch5).view (Rect.unit (s := S128x128) (k2_off202 k) S1x16.size (k2_off202_inb k)).toLoadRect gb) shapeCasts_S1x16_S16 shapeCasts_S16_S1x16) x).trans
        (Cert.LibRowStores.piece_sum ga gb k.val 16 (by omega) (k2_off202 k) (k2_off202 k) (k2_off209 k) (k2_off202_eq k) (k2_off202_eq k) (k2_off209_eq k) (k2_off202_inb k) (k2_off202_inb k) (k2_off209_inb k) x))
    (fun x => (congrFun (Cert.LibRowStores.cast_add_cast (View.readAt (Elt F) (Memref.whole cc2_scratch4).view (Rect.unit (s := S128x128) (k2_off203 k) S1x16.size (k2_off203_inb k)).toLoadRect ga) (View.readAt (Elt F) (Memref.whole cc2_scratch5).view (Rect.unit (s := S128x128) (k2_off203 k) S1x16.size (k2_off203_inb k)).toLoadRect gb) shapeCasts_S1x16_S16 shapeCasts_S16_S1x16) x).trans
        (Cert.LibRowStores.piece_sum ga gb k.val 32 (by omega) (k2_off203 k) (k2_off203 k) (k2_off210 k) (k2_off203_eq k) (k2_off203_eq k) (k2_off210_eq k) (k2_off203_inb k) (k2_off203_inb k) (k2_off210_inb k) x))
    (fun x => (congrFun (Cert.LibRowStores.cast_add_cast (View.readAt (Elt F) (Memref.whole cc2_scratch4).view (Rect.unit (s := S128x128) (k2_off204 k) S1x16.size (k2_off204_inb k)).toLoadRect ga) (View.readAt (Elt F) (Memref.whole cc2_scratch5).view (Rect.unit (s := S128x128) (k2_off204 k) S1x16.size (k2_off204_inb k)).toLoadRect gb) shapeCasts_S1x16_S16 shapeCasts_S16_S1x16) x).trans
        (Cert.LibRowStores.piece_sum ga gb k.val 48 (by omega) (k2_off204 k) (k2_off204 k) (k2_off211 k) (k2_off204_eq k) (k2_off204_eq k) (k2_off211_eq k) (k2_off204_inb k) (k2_off204_inb k) (k2_off211_inb k) x))
    (fun x => (congrFun (Cert.LibRowStores.cast_add_cast (View.readAt (Elt F) (Memref.whole cc2_scratch4).view (Rect.unit (s := S128x128) (k2_off205 k) S1x16.size (k2_off205_inb k)).toLoadRect ga) (View.readAt (Elt F) (Memref.whole cc2_scratch5).view (Rect.unit (s := S128x128) (k2_off205 k) S1x16.size (k2_off205_inb k)).toLoadRect gb) shapeCasts_S1x16_S16 shapeCasts_S16_S1x16) x).trans
        (Cert.LibRowStores.piece_sum ga gb k.val 64 (by omega) (k2_off205 k) (k2_off205 k) (k2_off212 k) (k2_off205_eq k) (k2_off205_eq k) (k2_off212_eq k) (k2_off205_inb k) (k2_off205_inb k) (k2_off212_inb k) x))
    (fun x => (congrFun (Cert.LibRowStores.cast_add_cast (View.readAt (Elt F) (Memref.whole cc2_scratch4).view (Rect.unit (s := S128x128) (k2_off206 k) S1x16.size (k2_off206_inb k)).toLoadRect ga) (View.readAt (Elt F) (Memref.whole cc2_scratch5).view (Rect.unit (s := S128x128) (k2_off206 k) S1x16.size (k2_off206_inb k)).toLoadRect gb) shapeCasts_S1x16_S16 shapeCasts_S16_S1x16) x).trans
        (Cert.LibRowStores.piece_sum ga gb k.val 80 (by omega) (k2_off206 k) (k2_off206 k) (k2_off213 k) (k2_off206_eq k) (k2_off206_eq k) (k2_off213_eq k) (k2_off206_inb k) (k2_off206_inb k) (k2_off213_inb k) x))
    (fun x => (congrFun (Cert.LibRowStores.cast_add_cast (View.readAt (Elt F) (Memref.whole cc2_scratch4).view (Rect.unit (s := S128x128) (k2_off207 k) S1x16.size (k2_off207_inb k)).toLoadRect ga) (View.readAt (Elt F) (Memref.whole cc2_scratch5).view (Rect.unit (s := S128x128) (k2_off207 k) S1x16.size (k2_off207_inb k)).toLoadRect gb) shapeCasts_S1x16_S16 shapeCasts_S16_S1x16) x).trans
        (Cert.LibRowStores.piece_sum ga gb k.val 84 (by omega) (k2_off207 k) (k2_off207 k) (k2_off214 k) (k2_off207_eq k) (k2_off207_eq k) (k2_off214_eq k) (k2_off207_inb k) (k2_off207_inb k) (k2_off214_inb k) x))
    hp

set_option maxHeartbeats 1000000 in
theorem region_t17 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) :
    ∀ (k : Fin k2_t17_loop.trips) (acc : Unit), addInvB d L ga gb k.val acc ⊢ wp frame (wpE (defs₀ (F := F)) 𝒱₀ (thr d L) none) Set.univ
      (k2_t17_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvB d L ga gb (k.val + 1)) := by
  intro k acc
  unfold addInvB k2_t17_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off223 k) (k2_off224 k) (k2_off225 k) (k2_off226 k) (k2_off227 k) (k2_off228 k) (k2_off229 k)
    (k2_off223_eq k) (k2_off224_eq k) (k2_off225_eq k) (k2_off226_eq k) (k2_off227_eq k) (k2_off228_eq k) (k2_off229_eq k)
    (k2_off223_inb k) (k2_off224_inb k) (k2_off225_inb k) (k2_off226_inb k) (k2_off227_inb k) (k2_off228_inb k) (k2_off229_inb k)
    _ _ _ _ _ _ _
    (fun x => (congrFun (Cert.LibRowStores.cast_add_cast (View.readAt (Elt F) (Memref.whole cc2_scratch6).view (Rect.unit (s := S72x128) (k2_off216 k) S1x16.size (k2_off216_inb k)).toLoadRect ga) (View.readAt (Elt F) (Memref.whole cc2_scratch7).view (Rect.unit (s := S72x128) (k2_off216 k) S1x16.size (k2_off216_inb k)).toLoadRect gb) shapeCasts_S1x16_S16 shapeCasts_S16_S1x16) x).trans
        (Cert.LibRowStores.piece_sum ga gb k.val 0 (by omega) (k2_off216 k) (k2_off216 k) (k2_off223 k) (k2_off216_eq k) (k2_off216_eq k) (k2_off223_eq k) (k2_off216_inb k) (k2_off216_inb k) (k2_off223_inb k) x))
    (fun x => (congrFun (Cert.LibRowStores.cast_add_cast (View.readAt (Elt F) (Memref.whole cc2_scratch6).view (Rect.unit (s := S72x128) (k2_off217 k) S1x16.size (k2_off217_inb k)).toLoadRect ga) (View.readAt (Elt F) (Memref.whole cc2_scratch7).view (Rect.unit (s := S72x128) (k2_off217 k) S1x16.size (k2_off217_inb k)).toLoadRect gb) shapeCasts_S1x16_S16 shapeCasts_S16_S1x16) x).trans
        (Cert.LibRowStores.piece_sum ga gb k.val 16 (by omega) (k2_off217 k) (k2_off217 k) (k2_off224 k) (k2_off217_eq k) (k2_off217_eq k) (k2_off224_eq k) (k2_off217_inb k) (k2_off217_inb k) (k2_off224_inb k) x))
    (fun x => (congrFun (Cert.LibRowStores.cast_add_cast (View.readAt (Elt F) (Memref.whole cc2_scratch6).view (Rect.unit (s := S72x128) (k2_off218 k) S1x16.size (k2_off218_inb k)).toLoadRect ga) (View.readAt (Elt F) (Memref.whole cc2_scratch7).view (Rect.unit (s := S72x128) (k2_off218 k) S1x16.size (k2_off218_inb k)).toLoadRect gb) shapeCasts_S1x16_S16 shapeCasts_S16_S1x16) x).trans
        (Cert.LibRowStores.piece_sum ga gb k.val 32 (by omega) (k2_off218 k) (k2_off218 k) (k2_off225 k) (k2_off218_eq k) (k2_off218_eq k) (k2_off225_eq k) (k2_off218_inb k) (k2_off218_inb k) (k2_off225_inb k) x))
    (fun x => (congrFun (Cert.LibRowStores.cast_add_cast (View.readAt (Elt F) (Memref.whole cc2_scratch6).view (Rect.unit (s := S72x128) (k2_off219 k) S1x16.size (k2_off219_inb k)).toLoadRect ga) (View.readAt (Elt F) (Memref.whole cc2_scratch7).view (Rect.unit (s := S72x128) (k2_off219 k) S1x16.size (k2_off219_inb k)).toLoadRect gb) shapeCasts_S1x16_S16 shapeCasts_S16_S1x16) x).trans
        (Cert.LibRowStores.piece_sum ga gb k.val 48 (by omega) (k2_off219 k) (k2_off219 k) (k2_off226 k) (k2_off219_eq k) (k2_off219_eq k) (k2_off226_eq k) (k2_off219_inb k) (k2_off219_inb k) (k2_off226_inb k) x))
    (fun x => (congrFun (Cert.LibRowStores.cast_add_cast (View.readAt (Elt F) (Memref.whole cc2_scratch6).view (Rect.unit (s := S72x128) (k2_off220 k) S1x16.size (k2_off220_inb k)).toLoadRect ga) (View.readAt (Elt F) (Memref.whole cc2_scratch7).view (Rect.unit (s := S72x128) (k2_off220 k) S1x16.size (k2_off220_inb k)).toLoadRect gb) shapeCasts_S1x16_S16 shapeCasts_S16_S1x16) x).trans
        (Cert.LibRowStores.piece_sum ga gb k.val 64 (by omega) (k2_off220 k) (k2_off220 k) (k2_off227 k) (k2_off220_eq k) (k2_off220_eq k) (k2_off227_eq k) (k2_off220_inb k) (k2_off220_inb k) (k2_off227_inb k) x))
    (fun x => (congrFun (Cert.LibRowStores.cast_add_cast (View.readAt (Elt F) (Memref.whole cc2_scratch6).view (Rect.unit (s := S72x128) (k2_off221 k) S1x16.size (k2_off221_inb k)).toLoadRect ga) (View.readAt (Elt F) (Memref.whole cc2_scratch7).view (Rect.unit (s := S72x128) (k2_off221 k) S1x16.size (k2_off221_inb k)).toLoadRect gb) shapeCasts_S1x16_S16 shapeCasts_S16_S1x16) x).trans
        (Cert.LibRowStores.piece_sum ga gb k.val 80 (by omega) (k2_off221 k) (k2_off221 k) (k2_off228 k) (k2_off221_eq k) (k2_off221_eq k) (k2_off228_eq k) (k2_off221_inb k) (k2_off221_inb k) (k2_off228_inb k) x))
    (fun x => (congrFun (Cert.LibRowStores.cast_add_cast (View.readAt (Elt F) (Memref.whole cc2_scratch6).view (Rect.unit (s := S72x128) (k2_off222 k) S1x16.size (k2_off222_inb k)).toLoadRect ga) (View.readAt (Elt F) (Memref.whole cc2_scratch7).view (Rect.unit (s := S72x128) (k2_off222 k) S1x16.size (k2_off222_inb k)).toLoadRect gb) shapeCasts_S1x16_S16 shapeCasts_S16_S1x16) x).trans
        (Cert.LibRowStores.piece_sum ga gb k.val 84 (by omega) (k2_off222 k) (k2_off222 k) (k2_off229 k) (k2_off222_eq k) (k2_off222_eq k) (k2_off229_eq k) (k2_off222_inb k) (k2_off222_inb k) (k2_off229_inb k) x))
    hp

end Cert.Proof.KK

end
-- ==== Proof.KK.AddLoops5.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 18 to 21 of the thirty-two.
-/
import proofs.«206319_g15771119910948_cont_week2b_672_19_alg».proof.Proof.KK.AddInv
import proofs.«206319_g15771119910948_cont_week2b_672_19_alg».proof.Proof.LibRowStores
import Idealize.ShloMosaic.Lib.Tactic

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t18 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t18_loop.trips) (acc : Unit), addInvA d L ga gb k.val acc ⊢ wp frame (wpE (defs₀ (F := F)) 𝒱₀ (thr d L) none) Set.univ
      (k2_t18_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t18_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off238 k) (k2_off239 k) (k2_off240 k) (k2_off241 k) (k2_off242 k) (k2_off243 k) (k2_off244 k)
    (k2_off238_eq k) (k2_off239_eq k) (k2_off240_eq k) (k2_off241_eq k) (k2_off242_eq k) (k2_off243_eq k) (k2_off244_eq k)
    (k2_off238_inb k) (k2_off239_inb k) (k2_off240_inb k) (k2_off241_inb k) (k2_off242_inb k) (k2_off243_inb k) (k2_off244_inb k)
    _ _ _ _ _ _ _
    (fun x => (congrFun (Cert.LibRowStores.cast_add_cast (View.readAt (Elt F) (Memref.whole cc2_scratch4).view (Rect.unit (s := S128x128) (k2_off231 k) S1x16.size (k2_off231_inb k)).toLoadRect ga) (View.readAt (Elt F) (Memref.whole cc2_scratch5).view (Rect.unit (s := S128x128) (k2_off231 k) S1x16.size (k2_off231_inb k)).toLoadRect gb) shapeCasts_S1x16_S16 shapeCasts_S16_S1x16) x).trans
        (Cert.LibRowStores.piece_sum ga gb k.val 0 (by omega) (k2_off231 k) (k2_off231 k) (k2_off238 k) (k2_off231_eq k) (k2_off231_eq k) (k2_off238_eq k) (k2_off231_inb k) (k2_off231_inb k) (k2_off238_inb k) x))
    (fun x => (congrFun (Cert.LibRowStores.cast_add_cast (View.readAt (Elt F) (Memref.whole cc2_scratch4).view (Rect.unit (s := S128x128) (k2_off232 k) S1x16.size (k2_off232_inb k)).toLoadRect ga) (View.readAt (Elt F) (Memref.whole cc2_scratch5).view (Rect.unit (s := S128x128) (k2_off232 k) S1x16.size (k2_off232_inb k)).toLoadRect gb) shapeCasts_S1x16_S16 shapeCasts_S16_S1x16) x).trans
        (Cert.LibRowStores.piece_sum ga gb k.val 16 (by omega) (k2_off232 k) (k2_off232 k) (k2_off239 k) (k2_off232_eq k) (k2_off232_eq k) (k2_off239_eq k) (k2_off232_inb k) (k2_off232_inb k) (k2_off239_inb k) x))
    (fun x => (congrFun (Cert.LibRowStores.cast_add_cast (View.readAt (Elt F) (Memref.whole cc2_scratch4).view (Rect.unit (s := S128x128) (k2_off233 k) S1x16.size (k2_off233_inb k)).toLoadRect ga) (View.readAt (Elt F) (Memref.whole cc2_scratch5).view (Rect.unit (s := S128x128) (k2_off233 k) S1x16.size (k2_off233_inb k)).toLoadRect gb) shapeCasts_S1x16_S16 shapeCasts_S16_S1x16) x).trans
        (Cert.LibRowStores.piece_sum ga gb k.val 32 (by omega) (k2_off233 k) (k2_off233 k) (k2_off240 k) (k2_off233_eq k) (k2_off233_eq k) (k2_off240_eq k) (k2_off233_inb k) (k2_off233_inb k) (k2_off240_inb k) x))
    (fun x => (congrFun (Cert.LibRowStores.cast_add_cast (View.readAt (Elt F) (Memref.whole cc2_scratch4).view (Rect.unit (s := S128x128) (k2_off234 k) S1x16.size (k2_off234_inb k)).toLoadRect ga) (View.readAt (Elt F) (Memref.whole cc2_scratch5).view (Rect.unit (s := S128x128) (k2_off234 k) S1x16.size (k2_off234_inb k)).toLoadRect gb) shapeCasts_S1x16_S16 shapeCasts_S16_S1x16) x).trans
        (Cert.LibRowStores.piece_sum ga gb k.val 48 (by omega) (k2_off234 k) (k2_off234 k) (k2_off241 k) (k2_off234_eq k) (k2_off234_eq k) (k2_off241_eq k) (k2_off234_inb k) (k2_off234_inb k) (k2_off241_inb k) x))
    (fun x => (congrFun (Cert.LibRowStores.cast_add_cast (View.readAt (Elt F) (Memref.whole cc2_scratch4).view (Rect.unit (s := S128x128) (k2_off235 k) S1x16.size (k2_off235_inb k)).toLoadRect ga) (View.readAt (Elt F) (Memref.whole cc2_scratch5).view (Rect.unit (s := S128x128) (k2_off235 k) S1x16.size (k2_off235_inb k)).toLoadRect gb) shapeCasts_S1x16_S16 shapeCasts_S16_S1x16) x).trans
        (Cert.LibRowStores.piece_sum ga gb k.val 64 (by omega) (k2_off235 k) (k2_off235 k) (k2_off242 k) (k2_off235_eq k) (k2_off235_eq k) (k2_off242_eq k) (k2_off235_inb k) (k2_off235_inb k) (k2_off242_inb k) x))
    (fun x => (congrFun (Cert.LibRowStores.cast_add_cast (View.readAt (Elt F) (Memref.whole cc2_scratch4).view (Rect.unit (s := S128x128) (k2_off236 k) S1x16.size (k2_off236_inb k)).toLoadRect ga) (View.readAt (Elt F) (Memref.whole cc2_scratch5).view (Rect.unit (s := S128x128) (k2_off236 k) S1x16.size (k2_off236_inb k)).toLoadRect gb) shapeCasts_S1x16_S16 shapeCasts_S16_S1x16) x).trans
        (Cert.LibRowStores.piece_sum ga gb k.val 80 (by omega) (k2_off236 k) (k2_off236 k) (k2_off243 k) (k2_off236_eq k) (k2_off236_eq k) (k2_off243_eq k) (k2_off236_inb k) (k2_off236_inb k) (k2_off243_inb k) x))
    (fun x => (congrFun (Cert.LibRowStores.cast_add_cast (View.readAt (Elt F) (Memref.whole cc2_scratch4).view (Rect.unit (s := S128x128) (k2_off237 k) S1x16.size (k2_off237_inb k)).toLoadRect ga) (View.readAt (Elt F) (Memref.whole cc2_scratch5).view (Rect.unit (s := S128x128) (k2_off237 k) S1x16.size (k2_off237_inb k)).toLoadRect gb) shapeCasts_S1x16_S16 shapeCasts_S16_S1x16) x).trans
        (Cert.LibRowStores.piece_sum ga gb k.val 84 (by omega) (k2_off237 k) (k2_off237 k) (k2_off244 k) (k2_off237_eq k) (k2_off237_eq k) (k2_off244_eq k) (k2_off237_inb k) (k2_off237_inb k) (k2_off244_inb k) x))
    hp

set_option maxHeartbeats 1000000 in
theorem region_t19 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) :
    ∀ (k : Fin k2_t19_loop.trips) (acc : Unit), addInvB d L ga gb k.val acc ⊢ wp frame (wpE (defs₀ (F := F)) 𝒱₀ (thr d L) none) Set.univ
      (k2_t19_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvB d L ga gb (k.val + 1)) := by
  intro k acc
  unfold addInvB k2_t19_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off252 k) (k2_off253 k) (k2_off254 k) (k2_off255 k) (k2_off256 k) (k2_off257 k) (k2_off258 k)
    (k2_off252_eq k) (k2_off253_eq k) (k2_off254_eq k) (k2_off255_eq k) (k2_off256_eq k) (k2_off257_eq k) (k2_off258_eq k)
    (k2_off252_inb k) (k2_off253_inb k) (k2_off254_inb k) (k2_off255_inb k) (k2_off256_inb k) (k2_off257_inb k) (k2_off258_inb k)
    _ _ _ _ _ _ _
    (fun x => (congrFun (Cert.LibRowStores.cast_add_cast (View.readAt (Elt F) (Memref.whole cc2_scratch6).view (Rect.unit (s := S72x128) (k2_off245 k) S1x16.size (k2_off245_inb k)).toLoadRect ga) (View.readAt (Elt F) (Memref.whole cc2_scratch7).view (Rect.unit (s := S72x128) (k2_off245 k) S1x16.size (k2_off245_inb k)).toLoadRect gb) shapeCasts_S1x16_S16 shapeCasts_S16_S1x16) x).trans
        (Cert.LibRowStores.piece_sum ga gb k.val 0 (by omega) (k2_off245 k) (k2_off245 k) (k2_off252 k) (k2_off245_eq k) (k2_off245_eq k) (k2_off252_eq k) (k2_off245_inb k) (k2_off245_inb k) (k2_off252_inb k) x))
    (fun x => (congrFun (Cert.LibRowStores.cast_add_cast (View.readAt (Elt F) (Memref.whole cc2_scratch6).view (Rect.unit (s := S72x128) (k2_off246 k) S1x16.size (k2_off246_inb k)).toLoadRect ga) (View.readAt (Elt F) (Memref.whole cc2_scratch7).view (Rect.unit (s := S72x128) (k2_off246 k) S1x16.size (k2_off246_inb k)).toLoadRect gb) shapeCasts_S1x16_S16 shapeCasts_S16_S1x16) x).trans
        (Cert.LibRowStores.piece_sum ga gb k.val 16 (by omega) (k2_off246 k) (k2_off246 k) (k2_off253 k) (k2_off246_eq k) (k2_off246_eq k) (k2_off253_eq k) (k2_off246_inb k) (k2_off246_inb k) (k2_off253_inb k) x))
    (fun x => (congrFun (Cert.LibRowStores.cast_add_cast (View.readAt (Elt F) (Memref.whole cc2_scratch6).view (Rect.unit (s := S72x128) (k2_off247 k) S1x16.size (k2_off247_inb k)).toLoadRect ga) (View.readAt (Elt F) (Memref.whole cc2_scratch7).view (Rect.unit (s := S72x128) (k2_off247 k) S1x16.size (k2_off247_inb k)).toLoadRect gb) shapeCasts_S1x16_S16 shapeCasts_S16_S1x16) x).trans
        (Cert.LibRowStores.piece_sum ga gb k.val 32 (by omega) (k2_off247 k) (k2_off247 k) (k2_off254 k) (k2_off247_eq k) (k2_off247_eq k) (k2_off254_eq k) (k2_off247_inb k) (k2_off247_inb k) (k2_off254_inb k) x))
    (fun x => (congrFun (Cert.LibRowStores.cast_add_cast (View.readAt (Elt F) (Memref.whole cc2_scratch6).view (Rect.unit (s := S72x128) (k2_off248 k) S1x16.size (k2_off248_inb k)).toLoadRect ga) (View.readAt (Elt F) (Memref.whole cc2_scratch7).view (Rect.unit (s := S72x128) (k2_off248 k) S1x16.size (k2_off248_inb k)).toLoadRect gb) shapeCasts_S1x16_S16 shapeCasts_S16_S1x16) x).trans
        (Cert.LibRowStores.piece_sum ga gb k.val 48 (by omega) (k2_off248 k) (k2_off248 k) (k2_off255 k) (k2_off248_eq k) (k2_off248_eq k) (k2_off255_eq k) (k2_off248_inb k) (k2_off248_inb k) (k2_off255_inb k) x))
    (fun x => (congrFun (Cert.LibRowStores.cast_add_cast (View.readAt (Elt F) (Memref.whole cc2_scratch6).view (Rect.unit (s := S72x128) (k2_off249 k) S1x16.size (k2_off249_inb k)).toLoadRect ga) (View.readAt (Elt F) (Memref.whole cc2_scratch7).view (Rect.unit (s := S72x128) (k2_off249 k) S1x16.size (k2_off249_inb k)).toLoadRect gb) shapeCasts_S1x16_S16 shapeCasts_S16_S1x16) x).trans
        (Cert.LibRowStores.piece_sum ga gb k.val 64 (by omega) (k2_off249 k) (k2_off249 k) (k2_off256 k) (k2_off249_eq k) (k2_off249_eq k) (k2_off256_eq k) (k2_off249_inb k) (k2_off249_inb k) (k2_off256_inb k) x))
    (fun x => (congrFun (Cert.LibRowStores.cast_add_cast (View.readAt (Elt F) (Memref.whole cc2_scratch6).view (Rect.unit (s := S72x128) (k2_off250 k) S1x16.size (k2_off250_inb k)).toLoadRect ga) (View.readAt (Elt F) (Memref.whole cc2_scratch7).view (Rect.unit (s := S72x128) (k2_off250 k) S1x16.size (k2_off250_inb k)).toLoadRect gb) shapeCasts_S1x16_S16 shapeCasts_S16_S1x16) x).trans
        (Cert.LibRowStores.piece_sum ga gb k.val 80 (by omega) (k2_off250 k) (k2_off250 k) (k2_off257 k) (k2_off250_eq k) (k2_off250_eq k) (k2_off257_eq k) (k2_off250_inb k) (k2_off250_inb k) (k2_off257_inb k) x))
    (fun x => (congrFun (Cert.LibRowStores.cast_add_cast (View.readAt (Elt F) (Memref.whole cc2_scratch6).view (Rect.unit (s := S72x128) (k2_off251 k) S1x16.size (k2_off251_inb k)).toLoadRect ga) (View.readAt (Elt F) (Memref.whole cc2_scratch7).view (Rect.unit (s := S72x128) (k2_off251 k) S1x16.size (k2_off251_inb k)).toLoadRect gb) shapeCasts_S1x16_S16 shapeCasts_S16_S1x16) x).trans
        (Cert.LibRowStores.piece_sum ga gb k.val 84 (by omega) (k2_off251 k) (k2_off251 k) (k2_off258 k) (k2_off251_eq k) (k2_off251_eq k) (k2_off258_eq k) (k2_off251_inb k) (k2_off251_inb k) (k2_off258_inb k) x))
    hp

set_option maxHeartbeats 1000000 in
theorem region_t20 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) (v290 : BitVec 32) :
    ∀ (k : Fin k2_t20_loop.trips) (acc : Unit), addInvA d L ga gb k.val acc ⊢ wp frame (wpE (defs₀ (F := F)) 𝒱₀ (thr d L) none) Set.univ
      (k2_t20_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v290 k acc) (addInvA d L ga gb (k.val + 1)) := by
  intro k acc
  unfold addInvA k2_t20_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off266 k) (k2_off267 k) (k2_off268 k) (k2_off269 k) (k2_off270 k) (k2_off271 k) (k2_off272 k)
    (k2_off266_eq k) (k2_off267_eq k) (k2_off268_eq k) (k2_off269_eq k) (k2_off270_eq k) (k2_off271_eq k) (k2_off272_eq k)
    (k2_off266_inb k) (k2_off267_inb k) (k2_off268_inb k) (k2_off269_inb k) (k2_off270_inb k) (k2_off271_inb k) (k2_off272_inb k)
    _ _ _ _ _ _ _
    (fun x => (congrFun (Cert.LibRowStores.cast_add_cast (View.readAt (Elt F) (Memref.whole cc2_scratch4).view (Rect.unit (s := S128x128) (k2_off259 k) S1x16.size (k2_off259_inb k)).toLoadRect ga) (View.readAt (Elt F) (Memref.whole cc2_scratch5).view (Rect.unit (s := S128x128) (k2_off259 k) S1x16.size (k2_off259_inb k)).toLoadRect gb) shapeCasts_S1x16_S16 shapeCasts_S16_S1x16) x).trans
        (Cert.LibRowStores.piece_sum ga gb k.val 0 (by omega) (k2_off259 k) (k2_off259 k) (k2_off266 k) (k2_off259_eq k) (k2_off259_eq k) (k2_off266_eq k) (k2_off259_inb k) (k2_off259_inb k) (k2_off266_inb k) x))
    (fun x => (congrFun (Cert.LibRowStores.cast_add_cast (View.readAt (Elt F) (Memref.whole cc2_scratch4).view (Rect.unit (s := S128x128) (k2_off260 k) S1x16.size (k2_off260_inb k)).toLoadRect ga) (View.readAt (Elt F) (Memref.whole cc2_scratch5).view (Rect.unit (s := S128x128) (k2_off260 k) S1x16.size (k2_off260_inb k)).toLoadRect gb) shapeCasts_S1x16_S16 shapeCasts_S16_S1x16) x).trans
        (Cert.LibRowStores.piece_sum ga gb k.val 16 (by omega) (k2_off260 k) (k2_off260 k) (k2_off267 k) (k2_off260_eq k) (k2_off260_eq k) (k2_off267_eq k) (k2_off260_inb k) (k2_off260_inb k) (k2_off267_inb k) x))
    (fun x => (congrFun (Cert.LibRowStores.cast_add_cast (View.readAt (Elt F) (Memref.whole cc2_scratch4).view (Rect.unit (s := S128x128) (k2_off261 k) S1x16.size (k2_off261_inb k)).toLoadRect ga) (View.readAt (Elt F) (Memref.whole cc2_scratch5).view (Rect.unit (s := S128x128) (k2_off261 k) S1x16.size (k2_off261_inb k)).toLoadRect gb) shapeCasts_S1x16_S16 shapeCasts_S16_S1x16) x).trans
        (Cert.LibRowStores.piece_sum ga gb k.val 32 (by omega) (k2_off261 k) (k2_off261 k) (k2_off268 k) (k2_off261_eq k) (k2_off261_eq k) (k2_off268_eq k) (k2_off261_inb k) (k2_off261_inb k) (k2_off268_inb k) x))
    (fun x => (congrFun (Cert.LibRowStores.cast_add_cast (View.readAt (Elt F) (Memref.whole cc2_scratch4).view (Rect.unit (s := S128x128) (k2_off262 k) S1x16.size (k2_off262_inb k)).toLoadRect ga) (View.readAt (Elt F) (Memref.whole cc2_scratch5).view (Rect.unit (s := S128x128) (k2_off262 k) S1x16.size (k2_off262_inb k)).toLoadRect gb) shapeCasts_S1x16_S16 shapeCasts_S16_S1x16) x).trans
        (Cert.LibRowStores.piece_sum ga gb k.val 48 (by omega) (k2_off262 k) (k2_off262 k) (k2_off269 k) (k2_off262_eq k) (k2_off262_eq k) (k2_off269_eq k) (k2_off262_inb k) (k2_off262_inb k) (k2_off269_inb k) x))
    (fun x => (congrFun (Cert.LibRowStores.cast_add_cast (View.readAt (Elt F) (Memref.whole cc2_scratch4).view (Rect.unit (s := S128x128) (k2_off263 k) S1x16.size (k2_off263_inb k)).toLoadRect ga) (View.readAt (Elt F) (Memref.whole cc2_scratch5).view (Rect.unit (s := S128x128) (k2_off263 k) S1x16.size (k2_off263_inb k)).toLoadRect gb) shapeCasts_S1x16_S16 shapeCasts_S16_S1x16) x).trans
        (Cert.LibRowStores.piece_sum ga gb k.val 64 (by omega) (k2_off263 k) (k2_off263 k) (k2_off270 k) (k2_off263_eq k) (k2_off263_eq k) (k2_off270_eq k) (k2_off263_inb k) (k2_off263_inb k) (k2_off270_inb k) x))
    (fun x => (congrFun (Cert.LibRowStores.cast_add_cast (View.readAt (Elt F) (Memref.whole cc2_scratch4).view (Rect.unit (s := S128x128) (k2_off264 k) S1x16.size (k2_off264_inb k)).toLoadRect ga) (View.readAt (Elt F) (Memref.whole cc2_scratch5).view (Rect.unit (s := S128x128) (k2_off264 k) S1x16.size (k2_off264_inb k)).toLoadRect gb) shapeCasts_S1x16_S16 shapeCasts_S16_S1x16) x).trans
        (Cert.LibRowStores.piece_sum ga gb k.val 80 (by omega) (k2_off264 k) (k2_off264 k) (k2_off271 k) (k2_off264_eq k) (k2_off264_eq k) (k2_off271_eq k) (k2_off264_inb k) (k2_off264_inb k) (k2_off271_inb k) x))
    (fun x => (congrFun (Cert.LibRowStores.cast_add_cast (View.readAt (Elt F) (Memref.whole cc2_scratch4).view (Rect.unit (s := S128x128) (k2_off265 k) S1x16.size (k2_off265_inb k)).toLoadRect ga) (View.readAt (Elt F) (Memref.whole cc2_scratch5).view (Rect.unit (s := S128x128) (k2_off265 k) S1x16.size (k2_off265_inb k)).toLoadRect gb) shapeCasts_S1x16_S16 shapeCasts_S16_S1x16) x).trans
        (Cert.LibRowStores.piece_sum ga gb k.val 84 (by omega) (k2_off265 k) (k2_off265 k) (k2_off272 k) (k2_off265_eq k) (k2_off265_eq k) (k2_off272_eq k) (k2_off265_inb k) (k2_off265_inb k) (k2_off272_inb k) x))
    hp

set_option maxHeartbeats 1000000 in
theorem region_t21 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) (arg23 : BitVec 32) (v321 : BitVec 32) :
    ∀ (k : Fin k2_t21_loop.trips) (acc : Unit), addInvB d L ga gb k.val acc ⊢ wp frame (wpE (defs₀ (F := F)) 𝒱₀ (thr d L) none) Set.univ
      (k2_t21_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 arg23 v321 k acc) (addInvB d L ga gb (k.val + 1)) := by
  intro k acc
  unfold addInvB k2_t21_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off280 k) (k2_off281 k) (k2_off282 k) (k2_off283 k) (k2_off284 k) (k2_off285 k) (k2_off286 k)
    (k2_off280_eq k) (k2_off281_eq k) (k2_off282_eq k) (k2_off283_eq k) (k2_off284_eq k) (k2_off285_eq k) (k2_off286_eq k)
    (k2_off280_inb k) (k2_off281_inb k) (k2_off282_inb k) (k2_off283_inb k) (k2_off284_inb k) (k2_off285_inb k) (k2_off286_inb k)
    _ _ _ _ _ _ _
    (fun x => (congrFun (Cert.LibRowStores.cast_add_cast (View.readAt (Elt F) (Memref.whole cc2_scratch6).view (Rect.unit (s := S72x128) (k2_off273 k) S1x16.size (k2_off273_inb k)).toLoadRect ga) (View.readAt (Elt F) (Memref.whole cc2_scratch7).view (Rect.unit (s := S72x128) (k2_off273 k) S1x16.size (k2_off273_inb k)).toLoadRect gb) shapeCasts_S1x16_S16 shapeCasts_S16_S1x16) x).trans
        (Cert.LibRowStores.piece_sum ga gb k.val 0 (by omega) (k2_off273 k) (k2_off273 k) (k2_off280 k) (k2_off273_eq k) (k2_off273_eq k) (k2_off280_eq k) (k2_off273_inb k) (k2_off273_inb k) (k2_off280_inb k) x))
    (fun x => (congrFun (Cert.LibRowStores.cast_add_cast (View.readAt (Elt F) (Memref.whole cc2_scratch6).view (Rect.unit (s := S72x128) (k2_off274 k) S1x16.size (k2_off274_inb k)).toLoadRect ga) (View.readAt (Elt F) (Memref.whole cc2_scratch7).view (Rect.unit (s := S72x128) (k2_off274 k) S1x16.size (k2_off274_inb k)).toLoadRect gb) shapeCasts_S1x16_S16 shapeCasts_S16_S1x16) x).trans
        (Cert.LibRowStores.piece_sum ga gb k.val 16 (by omega) (k2_off274 k) (k2_off274 k) (k2_off281 k) (k2_off274_eq k) (k2_off274_eq k) (k2_off281_eq k) (k2_off274_inb k) (k2_off274_inb k) (k2_off281_inb k) x))
    (fun x => (congrFun (Cert.LibRowStores.cast_add_cast (View.readAt (Elt F) (Memref.whole cc2_scratch6).view (Rect.unit (s := S72x128) (k2_off275 k) S1x16.size (k2_off275_inb k)).toLoadRect ga) (View.readAt (Elt F) (Memref.whole cc2_scratch7).view (Rect.unit (s := S72x128) (k2_off275 k) S1x16.size (k2_off275_inb k)).toLoadRect gb) shapeCasts_S1x16_S16 shapeCasts_S16_S1x16) x).trans
        (Cert.LibRowStores.piece_sum ga gb k.val 32 (by omega) (k2_off275 k) (k2_off275 k) (k2_off282 k) (k2_off275_eq k) (k2_off275_eq k) (k2_off282_eq k) (k2_off275_inb k) (k2_off275_inb k) (k2_off282_inb k) x))
    (fun x => (congrFun (Cert.LibRowStores.cast_add_cast (View.readAt (Elt F) (Memref.whole cc2_scratch6).view (Rect.unit (s := S72x128) (k2_off276 k) S1x16.size (k2_off276_inb k)).toLoadRect ga) (View.readAt (Elt F) (Memref.whole cc2_scratch7).view (Rect.unit (s := S72x128) (k2_off276 k) S1x16.size (k2_off276_inb k)).toLoadRect gb) shapeCasts_S1x16_S16 shapeCasts_S16_S1x16) x).trans
        (Cert.LibRowStores.piece_sum ga gb k.val 48 (by omega) (k2_off276 k) (k2_off276 k) (k2_off283 k) (k2_off276_eq k) (k2_off276_eq k) (k2_off283_eq k) (k2_off276_inb k) (k2_off276_inb k) (k2_off283_inb k) x))
    (fun x => (congrFun (Cert.LibRowStores.cast_add_cast (View.readAt (Elt F) (Memref.whole cc2_scratch6).view (Rect.unit (s := S72x128) (k2_off277 k) S1x16.size (k2_off277_inb k)).toLoadRect ga) (View.readAt (Elt F) (Memref.whole cc2_scratch7).view (Rect.unit (s := S72x128) (k2_off277 k) S1x16.size (k2_off277_inb k)).toLoadRect gb) shapeCasts_S1x16_S16 shapeCasts_S16_S1x16) x).trans
        (Cert.LibRowStores.piece_sum ga gb k.val 64 (by omega) (k2_off277 k) (k2_off277 k) (k2_off284 k) (k2_off277_eq k) (k2_off277_eq k) (k2_off284_eq k) (k2_off277_inb k) (k2_off277_inb k) (k2_off284_inb k) x))
    (fun x => (congrFun (Cert.LibRowStores.cast_add_cast (View.readAt (Elt F) (Memref.whole cc2_scratch6).view (Rect.unit (s := S72x128) (k2_off278 k) S1x16.size (k2_off278_inb k)).toLoadRect ga) (View.readAt (Elt F) (Memref.whole cc2_scratch7).view (Rect.unit (s := S72x128) (k2_off278 k) S1x16.size (k2_off278_inb k)).toLoadRect gb) shapeCasts_S1x16_S16 shapeCasts_S16_S1x16) x).trans
        (Cert.LibRowStores.piece_sum ga gb k.val 80 (by omega) (k2_off278 k) (k2_off278 k) (k2_off285 k) (k2_off278_eq k) (k2_off278_eq k) (k2_off285_eq k) (k2_off278_inb k) (k2_off278_inb k) (k2_off285_inb k) x))
    (fun x => (congrFun (Cert.LibRowStores.cast_add_cast (View.readAt (Elt F) (Memref.whole cc2_scratch6).view (Rect.unit (s := S72x128) (k2_off279 k) S1x16.size (k2_off279_inb k)).toLoadRect ga) (View.readAt (Elt F) (Memref.whole cc2_scratch7).view (Rect.unit (s := S72x128) (k2_off279 k) S1x16.size (k2_off279_inb k)).toLoadRect gb) shapeCasts_S1x16_S16 shapeCasts_S16_S1x16) x).trans
        (Cert.LibRowStores.piece_sum ga gb k.val 84 (by omega) (k2_off279 k) (k2_off279 k) (k2_off286 k) (k2_off279_eq k) (k2_off279_eq k) (k2_off286_eq k) (k2_off279_inb k) (k2_off279_inb k) (k2_off286_inb k) x))
    hp

end Cert.Proof.KK

end
-- ==== Proof.KK.AddLoops6.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 22 to 25 of the thirty-two.
-/
import proofs.«206319_g15771119910948_cont_week2b_672_19_alg».proof.Proof.KK.AddInv
import proofs.«206319_g15771119910948_cont_week2b_672_19_alg».proof.Proof.LibRowStores
import Idealize.ShloMosaic.Lib.Tactic

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t22 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (v349 : BitVec 32) (c10_i32 : BitVec 32) :
    ∀ (k : Fin k2_t22_loop.trips) (acc : Unit), addInvA d L ga gb k.val acc ⊢ wp frame (wpE (defs₀ (F := F)) 𝒱₀ (thr d L) none) Set.univ
      (k2_t22_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 v349 c10_i32 k acc) (addInvA d L ga gb (k.val + 1)) := by
  intro k acc
  unfold addInvA k2_t22_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off294 k) (k2_off295 k) (k2_off296 k) (k2_off297 k) (k2_off298 k) (k2_off299 k) (k2_off300 k)
    (k2_off294_eq k) (k2_off295_eq k) (k2_off296_eq k) (k2_off297_eq k) (k2_off298_eq k) (k2_off299_eq k) (k2_off300_eq k)
    (k2_off294_inb k) (k2_off295_inb k) (k2_off296_inb k) (k2_off297_inb k) (k2_off298_inb k) (k2_off299_inb k) (k2_off300_inb k)
    _ _ _ _ _ _ _
    (fun x => (congrFun (Cert.LibRowStores.cast_add_cast (View.readAt (Elt F) (Memref.whole cc2_scratch4).view (Rect.unit (s := S128x128) (k2_off287 k) S1x16.size (k2_off287_inb k)).toLoadRect ga) (View.readAt (Elt F) (Memref.whole cc2_scratch5).view (Rect.unit (s := S128x128) (k2_off287 k) S1x16.size (k2_off287_inb k)).toLoadRect gb) shapeCasts_S1x16_S16 shapeCasts_S16_S1x16) x).trans
        (Cert.LibRowStores.piece_sum ga gb k.val 0 (by omega) (k2_off287 k) (k2_off287 k) (k2_off294 k) (k2_off287_eq k) (k2_off287_eq k) (k2_off294_eq k) (k2_off287_inb k) (k2_off287_inb k) (k2_off294_inb k) x))
    (fun x => (congrFun (Cert.LibRowStores.cast_add_cast (View.readAt (Elt F) (Memref.whole cc2_scratch4).view (Rect.unit (s := S128x128) (k2_off288 k) S1x16.size (k2_off288_inb k)).toLoadRect ga) (View.readAt (Elt F) (Memref.whole cc2_scratch5).view (Rect.unit (s := S128x128) (k2_off288 k) S1x16.size (k2_off288_inb k)).toLoadRect gb) shapeCasts_S1x16_S16 shapeCasts_S16_S1x16) x).trans
        (Cert.LibRowStores.piece_sum ga gb k.val 16 (by omega) (k2_off288 k) (k2_off288 k) (k2_off295 k) (k2_off288_eq k) (k2_off288_eq k) (k2_off295_eq k) (k2_off288_inb k) (k2_off288_inb k) (k2_off295_inb k) x))
    (fun x => (congrFun (Cert.LibRowStores.cast_add_cast (View.readAt (Elt F) (Memref.whole cc2_scratch4).view (Rect.unit (s := S128x128) (k2_off289 k) S1x16.size (k2_off289_inb k)).toLoadRect ga) (View.readAt (Elt F) (Memref.whole cc2_scratch5).view (Rect.unit (s := S128x128) (k2_off289 k) S1x16.size (k2_off289_inb k)).toLoadRect gb) shapeCasts_S1x16_S16 shapeCasts_S16_S1x16) x).trans
        (Cert.LibRowStores.piece_sum ga gb k.val 32 (by omega) (k2_off289 k) (k2_off289 k) (k2_off296 k) (k2_off289_eq k) (k2_off289_eq k) (k2_off296_eq k) (k2_off289_inb k) (k2_off289_inb k) (k2_off296_inb k) x))
    (fun x => (congrFun (Cert.LibRowStores.cast_add_cast (View.readAt (Elt F) (Memref.whole cc2_scratch4).view (Rect.unit (s := S128x128) (k2_off290 k) S1x16.size (k2_off290_inb k)).toLoadRect ga) (View.readAt (Elt F) (Memref.whole cc2_scratch5).view (Rect.unit (s := S128x128) (k2_off290 k) S1x16.size (k2_off290_inb k)).toLoadRect gb) shapeCasts_S1x16_S16 shapeCasts_S16_S1x16) x).trans
        (Cert.LibRowStores.piece_sum ga gb k.val 48 (by omega) (k2_off290 k) (k2_off290 k) (k2_off297 k) (k2_off290_eq k) (k2_off290_eq k) (k2_off297_eq k) (k2_off290_inb k) (k2_off290_inb k) (k2_off297_inb k) x))
    (fun x => (congrFun (Cert.LibRowStores.cast_add_cast (View.readAt (Elt F) (Memref.whole cc2_scratch4).view (Rect.unit (s := S128x128) (k2_off291 k) S1x16.size (k2_off291_inb k)).toLoadRect ga) (View.readAt (Elt F) (Memref.whole cc2_scratch5).view (Rect.unit (s := S128x128) (k2_off291 k) S1x16.size (k2_off291_inb k)).toLoadRect gb) shapeCasts_S1x16_S16 shapeCasts_S16_S1x16) x).trans
        (Cert.LibRowStores.piece_sum ga gb k.val 64 (by omega) (k2_off291 k) (k2_off291 k) (k2_off298 k) (k2_off291_eq k) (k2_off291_eq k) (k2_off298_eq k) (k2_off291_inb k) (k2_off291_inb k) (k2_off298_inb k) x))
    (fun x => (congrFun (Cert.LibRowStores.cast_add_cast (View.readAt (Elt F) (Memref.whole cc2_scratch4).view (Rect.unit (s := S128x128) (k2_off292 k) S1x16.size (k2_off292_inb k)).toLoadRect ga) (View.readAt (Elt F) (Memref.whole cc2_scratch5).view (Rect.unit (s := S128x128) (k2_off292 k) S1x16.size (k2_off292_inb k)).toLoadRect gb) shapeCasts_S1x16_S16 shapeCasts_S16_S1x16) x).trans
        (Cert.LibRowStores.piece_sum ga gb k.val 80 (by omega) (k2_off292 k) (k2_off292 k) (k2_off299 k) (k2_off292_eq k) (k2_off292_eq k) (k2_off299_eq k) (k2_off292_inb k) (k2_off292_inb k) (k2_off299_inb k) x))
    (fun x => (congrFun (Cert.LibRowStores.cast_add_cast (View.readAt (Elt F) (Memref.whole cc2_scratch4).view (Rect.unit (s := S128x128) (k2_off293 k) S1x16.size (k2_off293_inb k)).toLoadRect ga) (View.readAt (Elt F) (Memref.whole cc2_scratch5).view (Rect.unit (s := S128x128) (k2_off293 k) S1x16.size (k2_off293_inb k)).toLoadRect gb) shapeCasts_S1x16_S16 shapeCasts_S16_S1x16) x).trans
        (Cert.LibRowStores.piece_sum ga gb k.val 84 (by omega) (k2_off293 k) (k2_off293 k) (k2_off300 k) (k2_off293_eq k) (k2_off293_eq k) (k2_off300_eq k) (k2_off293_inb k) (k2_off293_inb k) (k2_off300_inb k) x))
    hp

set_option maxHeartbeats 1000000 in
theorem region_t23 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v352 : BitVec 32) :
    ∀ (k : Fin k2_t23_loop.trips) (acc : Unit), addInvB d L ga gb k.val acc ⊢ wp frame (wpE (defs₀ (F := F)) 𝒱₀ (thr d L) none) Set.univ
      (k2_t23_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v352 k acc) (addInvB d L ga gb (k.val + 1)) := by
  intro k acc
  unfold addInvB k2_t23_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off308 k) (k2_off309 k) (k2_off310 k) (k2_off311 k) (k2_off312 k) (k2_off313 k) (k2_off314 k)
    (k2_off308_eq k) (k2_off309_eq k) (k2_off310_eq k) (k2_off311_eq k) (k2_off312_eq k) (k2_off313_eq k) (k2_off314_eq k)
    (k2_off308_inb k) (k2_off309_inb k) (k2_off310_inb k) (k2_off311_inb k) (k2_off312_inb k) (k2_off313_inb k) (k2_off314_inb k)
    _ _ _ _ _ _ _
    (fun x => (congrFun (Cert.LibRowStores.cast_add_cast (View.readAt (Elt F) (Memref.whole cc2_scratch6).view (Rect.unit (s := S72x128) (k2_off301 k) S1x16.size (k2_off301_inb k)).toLoadRect ga) (View.readAt (Elt F) (Memref.whole cc2_scratch7).view (Rect.unit (s := S72x128) (k2_off301 k) S1x16.size (k2_off301_inb k)).toLoadRect gb) shapeCasts_S1x16_S16 shapeCasts_S16_S1x16) x).trans
        (Cert.LibRowStores.piece_sum ga gb k.val 0 (by omega) (k2_off301 k) (k2_off301 k) (k2_off308 k) (k2_off301_eq k) (k2_off301_eq k) (k2_off308_eq k) (k2_off301_inb k) (k2_off301_inb k) (k2_off308_inb k) x))
    (fun x => (congrFun (Cert.LibRowStores.cast_add_cast (View.readAt (Elt F) (Memref.whole cc2_scratch6).view (Rect.unit (s := S72x128) (k2_off302 k) S1x16.size (k2_off302_inb k)).toLoadRect ga) (View.readAt (Elt F) (Memref.whole cc2_scratch7).view (Rect.unit (s := S72x128) (k2_off302 k) S1x16.size (k2_off302_inb k)).toLoadRect gb) shapeCasts_S1x16_S16 shapeCasts_S16_S1x16) x).trans
        (Cert.LibRowStores.piece_sum ga gb k.val 16 (by omega) (k2_off302 k) (k2_off302 k) (k2_off309 k) (k2_off302_eq k) (k2_off302_eq k) (k2_off309_eq k) (k2_off302_inb k) (k2_off302_inb k) (k2_off309_inb k) x))
    (fun x => (congrFun (Cert.LibRowStores.cast_add_cast (View.readAt (Elt F) (Memref.whole cc2_scratch6).view (Rect.unit (s := S72x128) (k2_off303 k) S1x16.size (k2_off303_inb k)).toLoadRect ga) (View.readAt (Elt F) (Memref.whole cc2_scratch7).view (Rect.unit (s := S72x128) (k2_off303 k) S1x16.size (k2_off303_inb k)).toLoadRect gb) shapeCasts_S1x16_S16 shapeCasts_S16_S1x16) x).trans
        (Cert.LibRowStores.piece_sum ga gb k.val 32 (by omega) (k2_off303 k) (k2_off303 k) (k2_off310 k) (k2_off303_eq k) (k2_off303_eq k) (k2_off310_eq k) (k2_off303_inb k) (k2_off303_inb k) (k2_off310_inb k) x))
    (fun x => (congrFun (Cert.LibRowStores.cast_add_cast (View.readAt (Elt F) (Memref.whole cc2_scratch6).view (Rect.unit (s := S72x128) (k2_off304 k) S1x16.size (k2_off304_inb k)).toLoadRect ga) (View.readAt (Elt F) (Memref.whole cc2_scratch7).view (Rect.unit (s := S72x128) (k2_off304 k) S1x16.size (k2_off304_inb k)).toLoadRect gb) shapeCasts_S1x16_S16 shapeCasts_S16_S1x16) x).trans
        (Cert.LibRowStores.piece_sum ga gb k.val 48 (by omega) (k2_off304 k) (k2_off304 k) (k2_off311 k) (k2_off304_eq k) (k2_off304_eq k) (k2_off311_eq k) (k2_off304_inb k) (k2_off304_inb k) (k2_off311_inb k) x))
    (fun x => (congrFun (Cert.LibRowStores.cast_add_cast (View.readAt (Elt F) (Memref.whole cc2_scratch6).view (Rect.unit (s := S72x128) (k2_off305 k) S1x16.size (k2_off305_inb k)).toLoadRect ga) (View.readAt (Elt F) (Memref.whole cc2_scratch7).view (Rect.unit (s := S72x128) (k2_off305 k) S1x16.size (k2_off305_inb k)).toLoadRect gb) shapeCasts_S1x16_S16 shapeCasts_S16_S1x16) x).trans
        (Cert.LibRowStores.piece_sum ga gb k.val 64 (by omega) (k2_off305 k) (k2_off305 k) (k2_off312 k) (k2_off305_eq k) (k2_off305_eq k) (k2_off312_eq k) (k2_off305_inb k) (k2_off305_inb k) (k2_off312_inb k) x))
    (fun x => (congrFun (Cert.LibRowStores.cast_add_cast (View.readAt (Elt F) (Memref.whole cc2_scratch6).view (Rect.unit (s := S72x128) (k2_off306 k) S1x16.size (k2_off306_inb k)).toLoadRect ga) (View.readAt (Elt F) (Memref.whole cc2_scratch7).view (Rect.unit (s := S72x128) (k2_off306 k) S1x16.size (k2_off306_inb k)).toLoadRect gb) shapeCasts_S1x16_S16 shapeCasts_S16_S1x16) x).trans
        (Cert.LibRowStores.piece_sum ga gb k.val 80 (by omega) (k2_off306 k) (k2_off306 k) (k2_off313 k) (k2_off306_eq k) (k2_off306_eq k) (k2_off313_eq k) (k2_off306_inb k) (k2_off306_inb k) (k2_off313_inb k) x))
    (fun x => (congrFun (Cert.LibRowStores.cast_add_cast (View.readAt (Elt F) (Memref.whole cc2_scratch6).view (Rect.unit (s := S72x128) (k2_off307 k) S1x16.size (k2_off307_inb k)).toLoadRect ga) (View.readAt (Elt F) (Memref.whole cc2_scratch7).view (Rect.unit (s := S72x128) (k2_off307 k) S1x16.size (k2_off307_inb k)).toLoadRect gb) shapeCasts_S1x16_S16 shapeCasts_S16_S1x16) x).trans
        (Cert.LibRowStores.piece_sum ga gb k.val 84 (by omega) (k2_off307 k) (k2_off307 k) (k2_off314 k) (k2_off307_eq k) (k2_off307_eq k) (k2_off314_eq k) (k2_off307_inb k) (k2_off307_inb k) (k2_off314_inb k) x))
    hp

set_option maxHeartbeats 1000000 in
theorem region_t24 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t24_loop.trips) (acc : Unit), addInvA d L ga gb k.val acc ⊢ wp frame (wpE (defs₀ (F := F)) 𝒱₀ (thr d L) none) Set.univ
      (k2_t24_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t24_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off322 k) (k2_off323 k) (k2_off324 k) (k2_off325 k) (k2_off326 k) (k2_off327 k) (k2_off328 k)
    (k2_off322_eq k) (k2_off323_eq k) (k2_off324_eq k) (k2_off325_eq k) (k2_off326_eq k) (k2_off327_eq k) (k2_off328_eq k)
    (k2_off322_inb k) (k2_off323_inb k) (k2_off324_inb k) (k2_off325_inb k) (k2_off326_inb k) (k2_off327_inb k) (k2_off328_inb k)
    _ _ _ _ _ _ _
    (fun x => (congrFun (Cert.LibRowStores.cast_add_cast (View.readAt (Elt F) (Memref.whole cc2_scratch4).view (Rect.unit (s := S128x128) (k2_off315 k) S1x16.size (k2_off315_inb k)).toLoadRect ga) (View.readAt (Elt F) (Memref.whole cc2_scratch5).view (Rect.unit (s := S128x128) (k2_off315 k) S1x16.size (k2_off315_inb k)).toLoadRect gb) shapeCasts_S1x16_S16 shapeCasts_S16_S1x16) x).trans
        (Cert.LibRowStores.piece_sum ga gb k.val 0 (by omega) (k2_off315 k) (k2_off315 k) (k2_off322 k) (k2_off315_eq k) (k2_off315_eq k) (k2_off322_eq k) (k2_off315_inb k) (k2_off315_inb k) (k2_off322_inb k) x))
    (fun x => (congrFun (Cert.LibRowStores.cast_add_cast (View.readAt (Elt F) (Memref.whole cc2_scratch4).view (Rect.unit (s := S128x128) (k2_off316 k) S1x16.size (k2_off316_inb k)).toLoadRect ga) (View.readAt (Elt F) (Memref.whole cc2_scratch5).view (Rect.unit (s := S128x128) (k2_off316 k) S1x16.size (k2_off316_inb k)).toLoadRect gb) shapeCasts_S1x16_S16 shapeCasts_S16_S1x16) x).trans
        (Cert.LibRowStores.piece_sum ga gb k.val 16 (by omega) (k2_off316 k) (k2_off316 k) (k2_off323 k) (k2_off316_eq k) (k2_off316_eq k) (k2_off323_eq k) (k2_off316_inb k) (k2_off316_inb k) (k2_off323_inb k) x))
    (fun x => (congrFun (Cert.LibRowStores.cast_add_cast (View.readAt (Elt F) (Memref.whole cc2_scratch4).view (Rect.unit (s := S128x128) (k2_off317 k) S1x16.size (k2_off317_inb k)).toLoadRect ga) (View.readAt (Elt F) (Memref.whole cc2_scratch5).view (Rect.unit (s := S128x128) (k2_off317 k) S1x16.size (k2_off317_inb k)).toLoadRect gb) shapeCasts_S1x16_S16 shapeCasts_S16_S1x16) x).trans
        (Cert.LibRowStores.piece_sum ga gb k.val 32 (by omega) (k2_off317 k) (k2_off317 k) (k2_off324 k) (k2_off317_eq k) (k2_off317_eq k) (k2_off324_eq k) (k2_off317_inb k) (k2_off317_inb k) (k2_off324_inb k) x))
    (fun x => (congrFun (Cert.LibRowStores.cast_add_cast (View.readAt (Elt F) (Memref.whole cc2_scratch4).view (Rect.unit (s := S128x128) (k2_off318 k) S1x16.size (k2_off318_inb k)).toLoadRect ga) (View.readAt (Elt F) (Memref.whole cc2_scratch5).view (Rect.unit (s := S128x128) (k2_off318 k) S1x16.size (k2_off318_inb k)).toLoadRect gb) shapeCasts_S1x16_S16 shapeCasts_S16_S1x16) x).trans
        (Cert.LibRowStores.piece_sum ga gb k.val 48 (by omega) (k2_off318 k) (k2_off318 k) (k2_off325 k) (k2_off318_eq k) (k2_off318_eq k) (k2_off325_eq k) (k2_off318_inb k) (k2_off318_inb k) (k2_off325_inb k) x))
    (fun x => (congrFun (Cert.LibRowStores.cast_add_cast (View.readAt (Elt F) (Memref.whole cc2_scratch4).view (Rect.unit (s := S128x128) (k2_off319 k) S1x16.size (k2_off319_inb k)).toLoadRect ga) (View.readAt (Elt F) (Memref.whole cc2_scratch5).view (Rect.unit (s := S128x128) (k2_off319 k) S1x16.size (k2_off319_inb k)).toLoadRect gb) shapeCasts_S1x16_S16 shapeCasts_S16_S1x16) x).trans
        (Cert.LibRowStores.piece_sum ga gb k.val 64 (by omega) (k2_off319 k) (k2_off319 k) (k2_off326 k) (k2_off319_eq k) (k2_off319_eq k) (k2_off326_eq k) (k2_off319_inb k) (k2_off319_inb k) (k2_off326_inb k) x))
    (fun x => (congrFun (Cert.LibRowStores.cast_add_cast (View.readAt (Elt F) (Memref.whole cc2_scratch4).view (Rect.unit (s := S128x128) (k2_off320 k) S1x16.size (k2_off320_inb k)).toLoadRect ga) (View.readAt (Elt F) (Memref.whole cc2_scratch5).view (Rect.unit (s := S128x128) (k2_off320 k) S1x16.size (k2_off320_inb k)).toLoadRect gb) shapeCasts_S1x16_S16 shapeCasts_S16_S1x16) x).trans
        (Cert.LibRowStores.piece_sum ga gb k.val 80 (by omega) (k2_off320 k) (k2_off320 k) (k2_off327 k) (k2_off320_eq k) (k2_off320_eq k) (k2_off327_eq k) (k2_off320_inb k) (k2_off320_inb k) (k2_off327_inb k) x))
    (fun x => (congrFun (Cert.LibRowStores.cast_add_cast (View.readAt (Elt F) (Memref.whole cc2_scratch4).view (Rect.unit (s := S128x128) (k2_off321 k) S1x16.size (k2_off321_inb k)).toLoadRect ga) (View.readAt (Elt F) (Memref.whole cc2_scratch5).view (Rect.unit (s := S128x128) (k2_off321 k) S1x16.size (k2_off321_inb k)).toLoadRect gb) shapeCasts_S1x16_S16 shapeCasts_S16_S1x16) x).trans
        (Cert.LibRowStores.piece_sum ga gb k.val 84 (by omega) (k2_off321 k) (k2_off321 k) (k2_off328 k) (k2_off321_eq k) (k2_off321_eq k) (k2_off328_eq k) (k2_off321_inb k) (k2_off321_inb k) (k2_off328_inb k) x))
    hp

set_option maxHeartbeats 1000000 in
theorem region_t25 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v383 : BitVec 32) :
    ∀ (k : Fin k2_t25_loop.trips) (acc : Unit), addInvB d L ga gb k.val acc ⊢ wp frame (wpE (defs₀ (F := F)) 𝒱₀ (thr d L) none) Set.univ
      (k2_t25_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v383 k acc) (addInvB d L ga gb (k.val + 1)) := by
  intro k acc
  unfold addInvB k2_t25_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off336 k) (k2_off337 k) (k2_off338 k) (k2_off339 k) (k2_off340 k) (k2_off341 k) (k2_off342 k)
    (k2_off336_eq k) (k2_off337_eq k) (k2_off338_eq k) (k2_off339_eq k) (k2_off340_eq k) (k2_off341_eq k) (k2_off342_eq k)
    (k2_off336_inb k) (k2_off337_inb k) (k2_off338_inb k) (k2_off339_inb k) (k2_off340_inb k) (k2_off341_inb k) (k2_off342_inb k)
    _ _ _ _ _ _ _
    (fun x => (congrFun (Cert.LibRowStores.cast_add_cast (View.readAt (Elt F) (Memref.whole cc2_scratch6).view (Rect.unit (s := S72x128) (k2_off329 k) S1x16.size (k2_off329_inb k)).toLoadRect ga) (View.readAt (Elt F) (Memref.whole cc2_scratch7).view (Rect.unit (s := S72x128) (k2_off329 k) S1x16.size (k2_off329_inb k)).toLoadRect gb) shapeCasts_S1x16_S16 shapeCasts_S16_S1x16) x).trans
        (Cert.LibRowStores.piece_sum ga gb k.val 0 (by omega) (k2_off329 k) (k2_off329 k) (k2_off336 k) (k2_off329_eq k) (k2_off329_eq k) (k2_off336_eq k) (k2_off329_inb k) (k2_off329_inb k) (k2_off336_inb k) x))
    (fun x => (congrFun (Cert.LibRowStores.cast_add_cast (View.readAt (Elt F) (Memref.whole cc2_scratch6).view (Rect.unit (s := S72x128) (k2_off330 k) S1x16.size (k2_off330_inb k)).toLoadRect ga) (View.readAt (Elt F) (Memref.whole cc2_scratch7).view (Rect.unit (s := S72x128) (k2_off330 k) S1x16.size (k2_off330_inb k)).toLoadRect gb) shapeCasts_S1x16_S16 shapeCasts_S16_S1x16) x).trans
        (Cert.LibRowStores.piece_sum ga gb k.val 16 (by omega) (k2_off330 k) (k2_off330 k) (k2_off337 k) (k2_off330_eq k) (k2_off330_eq k) (k2_off337_eq k) (k2_off330_inb k) (k2_off330_inb k) (k2_off337_inb k) x))
    (fun x => (congrFun (Cert.LibRowStores.cast_add_cast (View.readAt (Elt F) (Memref.whole cc2_scratch6).view (Rect.unit (s := S72x128) (k2_off331 k) S1x16.size (k2_off331_inb k)).toLoadRect ga) (View.readAt (Elt F) (Memref.whole cc2_scratch7).view (Rect.unit (s := S72x128) (k2_off331 k) S1x16.size (k2_off331_inb k)).toLoadRect gb) shapeCasts_S1x16_S16 shapeCasts_S16_S1x16) x).trans
        (Cert.LibRowStores.piece_sum ga gb k.val 32 (by omega) (k2_off331 k) (k2_off331 k) (k2_off338 k) (k2_off331_eq k) (k2_off331_eq k) (k2_off338_eq k) (k2_off331_inb k) (k2_off331_inb k) (k2_off338_inb k) x))
    (fun x => (congrFun (Cert.LibRowStores.cast_add_cast (View.readAt (Elt F) (Memref.whole cc2_scratch6).view (Rect.unit (s := S72x128) (k2_off332 k) S1x16.size (k2_off332_inb k)).toLoadRect ga) (View.readAt (Elt F) (Memref.whole cc2_scratch7).view (Rect.unit (s := S72x128) (k2_off332 k) S1x16.size (k2_off332_inb k)).toLoadRect gb) shapeCasts_S1x16_S16 shapeCasts_S16_S1x16) x).trans
        (Cert.LibRowStores.piece_sum ga gb k.val 48 (by omega) (k2_off332 k) (k2_off332 k) (k2_off339 k) (k2_off332_eq k) (k2_off332_eq k) (k2_off339_eq k) (k2_off332_inb k) (k2_off332_inb k) (k2_off339_inb k) x))
    (fun x => (congrFun (Cert.LibRowStores.cast_add_cast (View.readAt (Elt F) (Memref.whole cc2_scratch6).view (Rect.unit (s := S72x128) (k2_off333 k) S1x16.size (k2_off333_inb k)).toLoadRect ga) (View.readAt (Elt F) (Memref.whole cc2_scratch7).view (Rect.unit (s := S72x128) (k2_off333 k) S1x16.size (k2_off333_inb k)).toLoadRect gb) shapeCasts_S1x16_S16 shapeCasts_S16_S1x16) x).trans
        (Cert.LibRowStores.piece_sum ga gb k.val 64 (by omega) (k2_off333 k) (k2_off333 k) (k2_off340 k) (k2_off333_eq k) (k2_off333_eq k) (k2_off340_eq k) (k2_off333_inb k) (k2_off333_inb k) (k2_off340_inb k) x))
    (fun x => (congrFun (Cert.LibRowStores.cast_add_cast (View.readAt (Elt F) (Memref.whole cc2_scratch6).view (Rect.unit (s := S72x128) (k2_off334 k) S1x16.size (k2_off334_inb k)).toLoadRect ga) (View.readAt (Elt F) (Memref.whole cc2_scratch7).view (Rect.unit (s := S72x128) (k2_off334 k) S1x16.size (k2_off334_inb k)).toLoadRect gb) shapeCasts_S1x16_S16 shapeCasts_S16_S1x16) x).trans
        (Cert.LibRowStores.piece_sum ga gb k.val 80 (by omega) (k2_off334 k) (k2_off334 k) (k2_off341 k) (k2_off334_eq k) (k2_off334_eq k) (k2_off341_eq k) (k2_off334_inb k) (k2_off334_inb k) (k2_off341_inb k) x))
    (fun x => (congrFun (Cert.LibRowStores.cast_add_cast (View.readAt (Elt F) (Memref.whole cc2_scratch6).view (Rect.unit (s := S72x128) (k2_off335 k) S1x16.size (k2_off335_inb k)).toLoadRect ga) (View.readAt (Elt F) (Memref.whole cc2_scratch7).view (Rect.unit (s := S72x128) (k2_off335 k) S1x16.size (k2_off335_inb k)).toLoadRect gb) shapeCasts_S1x16_S16 shapeCasts_S16_S1x16) x).trans
        (Cert.LibRowStores.piece_sum ga gb k.val 84 (by omega) (k2_off335 k) (k2_off335 k) (k2_off342 k) (k2_off335_eq k) (k2_off335_eq k) (k2_off342_eq k) (k2_off335_inb k) (k2_off335_inb k) (k2_off342_inb k) x))
    hp

end Cert.Proof.KK

end
-- ==== Proof.KK.AddLoops7.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 26 to 29 of the thirty-two.
-/
import proofs.«206319_g15771119910948_cont_week2b_672_19_alg».proof.Proof.KK.AddInv
import proofs.«206319_g15771119910948_cont_week2b_672_19_alg».proof.Proof.LibRowStores
import Idealize.ShloMosaic.Lib.Tactic

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t26 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t26_loop.trips) (acc : Unit), addInvA d L ga gb k.val acc ⊢ wp frame (wpE (defs₀ (F := F)) 𝒱₀ (thr d L) none) Set.univ
      (k2_t26_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t26_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off350 k) (k2_off351 k) (k2_off352 k) (k2_off353 k) (k2_off354 k) (k2_off355 k) (k2_off356 k)
    (k2_off350_eq k) (k2_off351_eq k) (k2_off352_eq k) (k2_off353_eq k) (k2_off354_eq k) (k2_off355_eq k) (k2_off356_eq k)
    (k2_off350_inb k) (k2_off351_inb k) (k2_off352_inb k) (k2_off353_inb k) (k2_off354_inb k) (k2_off355_inb k) (k2_off356_inb k)
    _ _ _ _ _ _ _
    (fun x => (congrFun (Cert.LibRowStores.cast_add_cast (View.readAt (Elt F) (Memref.whole cc2_scratch4).view (Rect.unit (s := S128x128) (k2_off343 k) S1x16.size (k2_off343_inb k)).toLoadRect ga) (View.readAt (Elt F) (Memref.whole cc2_scratch5).view (Rect.unit (s := S128x128) (k2_off343 k) S1x16.size (k2_off343_inb k)).toLoadRect gb) shapeCasts_S1x16_S16 shapeCasts_S16_S1x16) x).trans
        (Cert.LibRowStores.piece_sum ga gb k.val 0 (by omega) (k2_off343 k) (k2_off343 k) (k2_off350 k) (k2_off343_eq k) (k2_off343_eq k) (k2_off350_eq k) (k2_off343_inb k) (k2_off343_inb k) (k2_off350_inb k) x))
    (fun x => (congrFun (Cert.LibRowStores.cast_add_cast (View.readAt (Elt F) (Memref.whole cc2_scratch4).view (Rect.unit (s := S128x128) (k2_off344 k) S1x16.size (k2_off344_inb k)).toLoadRect ga) (View.readAt (Elt F) (Memref.whole cc2_scratch5).view (Rect.unit (s := S128x128) (k2_off344 k) S1x16.size (k2_off344_inb k)).toLoadRect gb) shapeCasts_S1x16_S16 shapeCasts_S16_S1x16) x).trans
        (Cert.LibRowStores.piece_sum ga gb k.val 16 (by omega) (k2_off344 k) (k2_off344 k) (k2_off351 k) (k2_off344_eq k) (k2_off344_eq k) (k2_off351_eq k) (k2_off344_inb k) (k2_off344_inb k) (k2_off351_inb k) x))
    (fun x => (congrFun (Cert.LibRowStores.cast_add_cast (View.readAt (Elt F) (Memref.whole cc2_scratch4).view (Rect.unit (s := S128x128) (k2_off345 k) S1x16.size (k2_off345_inb k)).toLoadRect ga) (View.readAt (Elt F) (Memref.whole cc2_scratch5).view (Rect.unit (s := S128x128) (k2_off345 k) S1x16.size (k2_off345_inb k)).toLoadRect gb) shapeCasts_S1x16_S16 shapeCasts_S16_S1x16) x).trans
        (Cert.LibRowStores.piece_sum ga gb k.val 32 (by omega) (k2_off345 k) (k2_off345 k) (k2_off352 k) (k2_off345_eq k) (k2_off345_eq k) (k2_off352_eq k) (k2_off345_inb k) (k2_off345_inb k) (k2_off352_inb k) x))
    (fun x => (congrFun (Cert.LibRowStores.cast_add_cast (View.readAt (Elt F) (Memref.whole cc2_scratch4).view (Rect.unit (s := S128x128) (k2_off346 k) S1x16.size (k2_off346_inb k)).toLoadRect ga) (View.readAt (Elt F) (Memref.whole cc2_scratch5).view (Rect.unit (s := S128x128) (k2_off346 k) S1x16.size (k2_off346_inb k)).toLoadRect gb) shapeCasts_S1x16_S16 shapeCasts_S16_S1x16) x).trans
        (Cert.LibRowStores.piece_sum ga gb k.val 48 (by omega) (k2_off346 k) (k2_off346 k) (k2_off353 k) (k2_off346_eq k) (k2_off346_eq k) (k2_off353_eq k) (k2_off346_inb k) (k2_off346_inb k) (k2_off353_inb k) x))
    (fun x => (congrFun (Cert.LibRowStores.cast_add_cast (View.readAt (Elt F) (Memref.whole cc2_scratch4).view (Rect.unit (s := S128x128) (k2_off347 k) S1x16.size (k2_off347_inb k)).toLoadRect ga) (View.readAt (Elt F) (Memref.whole cc2_scratch5).view (Rect.unit (s := S128x128) (k2_off347 k) S1x16.size (k2_off347_inb k)).toLoadRect gb) shapeCasts_S1x16_S16 shapeCasts_S16_S1x16) x).trans
        (Cert.LibRowStores.piece_sum ga gb k.val 64 (by omega) (k2_off347 k) (k2_off347 k) (k2_off354 k) (k2_off347_eq k) (k2_off347_eq k) (k2_off354_eq k) (k2_off347_inb k) (k2_off347_inb k) (k2_off354_inb k) x))
    (fun x => (congrFun (Cert.LibRowStores.cast_add_cast (View.readAt (Elt F) (Memref.whole cc2_scratch4).view (Rect.unit (s := S128x128) (k2_off348 k) S1x16.size (k2_off348_inb k)).toLoadRect ga) (View.readAt (Elt F) (Memref.whole cc2_scratch5).view (Rect.unit (s := S128x128) (k2_off348 k) S1x16.size (k2_off348_inb k)).toLoadRect gb) shapeCasts_S1x16_S16 shapeCasts_S16_S1x16) x).trans
        (Cert.LibRowStores.piece_sum ga gb k.val 80 (by omega) (k2_off348 k) (k2_off348 k) (k2_off355 k) (k2_off348_eq k) (k2_off348_eq k) (k2_off355_eq k) (k2_off348_inb k) (k2_off348_inb k) (k2_off355_inb k) x))
    (fun x => (congrFun (Cert.LibRowStores.cast_add_cast (View.readAt (Elt F) (Memref.whole cc2_scratch4).view (Rect.unit (s := S128x128) (k2_off349 k) S1x16.size (k2_off349_inb k)).toLoadRect ga) (View.readAt (Elt F) (Memref.whole cc2_scratch5).view (Rect.unit (s := S128x128) (k2_off349 k) S1x16.size (k2_off349_inb k)).toLoadRect gb) shapeCasts_S1x16_S16 shapeCasts_S16_S1x16) x).trans
        (Cert.LibRowStores.piece_sum ga gb k.val 84 (by omega) (k2_off349 k) (k2_off349 k) (k2_off356 k) (k2_off349_eq k) (k2_off349_eq k) (k2_off356_eq k) (k2_off349_inb k) (k2_off349_inb k) (k2_off356_inb k) x))
    hp

set_option maxHeartbeats 1000000 in
theorem region_t27 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) :
    ∀ (k : Fin k2_t27_loop.trips) (acc : Unit), addInvB d L ga gb k.val acc ⊢ wp frame (wpE (defs₀ (F := F)) 𝒱₀ (thr d L) none) Set.univ
      (k2_t27_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvB d L ga gb (k.val + 1)) := by
  intro k acc
  unfold addInvB k2_t27_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off364 k) (k2_off365 k) (k2_off366 k) (k2_off367 k) (k2_off368 k) (k2_off369 k) (k2_off370 k)
    (k2_off364_eq k) (k2_off365_eq k) (k2_off366_eq k) (k2_off367_eq k) (k2_off368_eq k) (k2_off369_eq k) (k2_off370_eq k)
    (k2_off364_inb k) (k2_off365_inb k) (k2_off366_inb k) (k2_off367_inb k) (k2_off368_inb k) (k2_off369_inb k) (k2_off370_inb k)
    _ _ _ _ _ _ _
    (fun x => (congrFun (Cert.LibRowStores.cast_add_cast (View.readAt (Elt F) (Memref.whole cc2_scratch6).view (Rect.unit (s := S72x128) (k2_off357 k) S1x16.size (k2_off357_inb k)).toLoadRect ga) (View.readAt (Elt F) (Memref.whole cc2_scratch7).view (Rect.unit (s := S72x128) (k2_off357 k) S1x16.size (k2_off357_inb k)).toLoadRect gb) shapeCasts_S1x16_S16 shapeCasts_S16_S1x16) x).trans
        (Cert.LibRowStores.piece_sum ga gb k.val 0 (by omega) (k2_off357 k) (k2_off357 k) (k2_off364 k) (k2_off357_eq k) (k2_off357_eq k) (k2_off364_eq k) (k2_off357_inb k) (k2_off357_inb k) (k2_off364_inb k) x))
    (fun x => (congrFun (Cert.LibRowStores.cast_add_cast (View.readAt (Elt F) (Memref.whole cc2_scratch6).view (Rect.unit (s := S72x128) (k2_off358 k) S1x16.size (k2_off358_inb k)).toLoadRect ga) (View.readAt (Elt F) (Memref.whole cc2_scratch7).view (Rect.unit (s := S72x128) (k2_off358 k) S1x16.size (k2_off358_inb k)).toLoadRect gb) shapeCasts_S1x16_S16 shapeCasts_S16_S1x16) x).trans
        (Cert.LibRowStores.piece_sum ga gb k.val 16 (by omega) (k2_off358 k) (k2_off358 k) (k2_off365 k) (k2_off358_eq k) (k2_off358_eq k) (k2_off365_eq k) (k2_off358_inb k) (k2_off358_inb k) (k2_off365_inb k) x))
    (fun x => (congrFun (Cert.LibRowStores.cast_add_cast (View.readAt (Elt F) (Memref.whole cc2_scratch6).view (Rect.unit (s := S72x128) (k2_off359 k) S1x16.size (k2_off359_inb k)).toLoadRect ga) (View.readAt (Elt F) (Memref.whole cc2_scratch7).view (Rect.unit (s := S72x128) (k2_off359 k) S1x16.size (k2_off359_inb k)).toLoadRect gb) shapeCasts_S1x16_S16 shapeCasts_S16_S1x16) x).trans
        (Cert.LibRowStores.piece_sum ga gb k.val 32 (by omega) (k2_off359 k) (k2_off359 k) (k2_off366 k) (k2_off359_eq k) (k2_off359_eq k) (k2_off366_eq k) (k2_off359_inb k) (k2_off359_inb k) (k2_off366_inb k) x))
    (fun x => (congrFun (Cert.LibRowStores.cast_add_cast (View.readAt (Elt F) (Memref.whole cc2_scratch6).view (Rect.unit (s := S72x128) (k2_off360 k) S1x16.size (k2_off360_inb k)).toLoadRect ga) (View.readAt (Elt F) (Memref.whole cc2_scratch7).view (Rect.unit (s := S72x128) (k2_off360 k) S1x16.size (k2_off360_inb k)).toLoadRect gb) shapeCasts_S1x16_S16 shapeCasts_S16_S1x16) x).trans
        (Cert.LibRowStores.piece_sum ga gb k.val 48 (by omega) (k2_off360 k) (k2_off360 k) (k2_off367 k) (k2_off360_eq k) (k2_off360_eq k) (k2_off367_eq k) (k2_off360_inb k) (k2_off360_inb k) (k2_off367_inb k) x))
    (fun x => (congrFun (Cert.LibRowStores.cast_add_cast (View.readAt (Elt F) (Memref.whole cc2_scratch6).view (Rect.unit (s := S72x128) (k2_off361 k) S1x16.size (k2_off361_inb k)).toLoadRect ga) (View.readAt (Elt F) (Memref.whole cc2_scratch7).view (Rect.unit (s := S72x128) (k2_off361 k) S1x16.size (k2_off361_inb k)).toLoadRect gb) shapeCasts_S1x16_S16 shapeCasts_S16_S1x16) x).trans
        (Cert.LibRowStores.piece_sum ga gb k.val 64 (by omega) (k2_off361 k) (k2_off361 k) (k2_off368 k) (k2_off361_eq k) (k2_off361_eq k) (k2_off368_eq k) (k2_off361_inb k) (k2_off361_inb k) (k2_off368_inb k) x))
    (fun x => (congrFun (Cert.LibRowStores.cast_add_cast (View.readAt (Elt F) (Memref.whole cc2_scratch6).view (Rect.unit (s := S72x128) (k2_off362 k) S1x16.size (k2_off362_inb k)).toLoadRect ga) (View.readAt (Elt F) (Memref.whole cc2_scratch7).view (Rect.unit (s := S72x128) (k2_off362 k) S1x16.size (k2_off362_inb k)).toLoadRect gb) shapeCasts_S1x16_S16 shapeCasts_S16_S1x16) x).trans
        (Cert.LibRowStores.piece_sum ga gb k.val 80 (by omega) (k2_off362 k) (k2_off362 k) (k2_off369 k) (k2_off362_eq k) (k2_off362_eq k) (k2_off369_eq k) (k2_off362_inb k) (k2_off362_inb k) (k2_off369_inb k) x))
    (fun x => (congrFun (Cert.LibRowStores.cast_add_cast (View.readAt (Elt F) (Memref.whole cc2_scratch6).view (Rect.unit (s := S72x128) (k2_off363 k) S1x16.size (k2_off363_inb k)).toLoadRect ga) (View.readAt (Elt F) (Memref.whole cc2_scratch7).view (Rect.unit (s := S72x128) (k2_off363 k) S1x16.size (k2_off363_inb k)).toLoadRect gb) shapeCasts_S1x16_S16 shapeCasts_S16_S1x16) x).trans
        (Cert.LibRowStores.piece_sum ga gb k.val 84 (by omega) (k2_off363 k) (k2_off363 k) (k2_off370 k) (k2_off363_eq k) (k2_off363_eq k) (k2_off370_eq k) (k2_off363_inb k) (k2_off363_inb k) (k2_off370_inb k) x))
    hp

set_option maxHeartbeats 1000000 in
theorem region_t28 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (arg23 : BitVec 32) (v414 : BitVec 32) :
    ∀ (k : Fin k2_t28_loop.trips) (acc : Unit), addInvA d L ga gb k.val acc ⊢ wp frame (wpE (defs₀ (F := F)) 𝒱₀ (thr d L) none) Set.univ
      (k2_t28_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v414 k acc) (addInvA d L ga gb (k.val + 1)) := by
  intro k acc
  unfold addInvA k2_t28_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off378 k) (k2_off379 k) (k2_off380 k) (k2_off381 k) (k2_off382 k) (k2_off383 k) (k2_off384 k)
    (k2_off378_eq k) (k2_off379_eq k) (k2_off380_eq k) (k2_off381_eq k) (k2_off382_eq k) (k2_off383_eq k) (k2_off384_eq k)
    (k2_off378_inb k) (k2_off379_inb k) (k2_off380_inb k) (k2_off381_inb k) (k2_off382_inb k) (k2_off383_inb k) (k2_off384_inb k)
    _ _ _ _ _ _ _
    (fun x => (congrFun (Cert.LibRowStores.cast_add_cast (View.readAt (Elt F) (Memref.whole cc2_scratch4).view (Rect.unit (s := S128x128) (k2_off371 k) S1x16.size (k2_off371_inb k)).toLoadRect ga) (View.readAt (Elt F) (Memref.whole cc2_scratch5).view (Rect.unit (s := S128x128) (k2_off371 k) S1x16.size (k2_off371_inb k)).toLoadRect gb) shapeCasts_S1x16_S16 shapeCasts_S16_S1x16) x).trans
        (Cert.LibRowStores.piece_sum ga gb k.val 0 (by omega) (k2_off371 k) (k2_off371 k) (k2_off378 k) (k2_off371_eq k) (k2_off371_eq k) (k2_off378_eq k) (k2_off371_inb k) (k2_off371_inb k) (k2_off378_inb k) x))
    (fun x => (congrFun (Cert.LibRowStores.cast_add_cast (View.readAt (Elt F) (Memref.whole cc2_scratch4).view (Rect.unit (s := S128x128) (k2_off372 k) S1x16.size (k2_off372_inb k)).toLoadRect ga) (View.readAt (Elt F) (Memref.whole cc2_scratch5).view (Rect.unit (s := S128x128) (k2_off372 k) S1x16.size (k2_off372_inb k)).toLoadRect gb) shapeCasts_S1x16_S16 shapeCasts_S16_S1x16) x).trans
        (Cert.LibRowStores.piece_sum ga gb k.val 16 (by omega) (k2_off372 k) (k2_off372 k) (k2_off379 k) (k2_off372_eq k) (k2_off372_eq k) (k2_off379_eq k) (k2_off372_inb k) (k2_off372_inb k) (k2_off379_inb k) x))
    (fun x => (congrFun (Cert.LibRowStores.cast_add_cast (View.readAt (Elt F) (Memref.whole cc2_scratch4).view (Rect.unit (s := S128x128) (k2_off373 k) S1x16.size (k2_off373_inb k)).toLoadRect ga) (View.readAt (Elt F) (Memref.whole cc2_scratch5).view (Rect.unit (s := S128x128) (k2_off373 k) S1x16.size (k2_off373_inb k)).toLoadRect gb) shapeCasts_S1x16_S16 shapeCasts_S16_S1x16) x).trans
        (Cert.LibRowStores.piece_sum ga gb k.val 32 (by omega) (k2_off373 k) (k2_off373 k) (k2_off380 k) (k2_off373_eq k) (k2_off373_eq k) (k2_off380_eq k) (k2_off373_inb k) (k2_off373_inb k) (k2_off380_inb k) x))
    (fun x => (congrFun (Cert.LibRowStores.cast_add_cast (View.readAt (Elt F) (Memref.whole cc2_scratch4).view (Rect.unit (s := S128x128) (k2_off374 k) S1x16.size (k2_off374_inb k)).toLoadRect ga) (View.readAt (Elt F) (Memref.whole cc2_scratch5).view (Rect.unit (s := S128x128) (k2_off374 k) S1x16.size (k2_off374_inb k)).toLoadRect gb) shapeCasts_S1x16_S16 shapeCasts_S16_S1x16) x).trans
        (Cert.LibRowStores.piece_sum ga gb k.val 48 (by omega) (k2_off374 k) (k2_off374 k) (k2_off381 k) (k2_off374_eq k) (k2_off374_eq k) (k2_off381_eq k) (k2_off374_inb k) (k2_off374_inb k) (k2_off381_inb k) x))
    (fun x => (congrFun (Cert.LibRowStores.cast_add_cast (View.readAt (Elt F) (Memref.whole cc2_scratch4).view (Rect.unit (s := S128x128) (k2_off375 k) S1x16.size (k2_off375_inb k)).toLoadRect ga) (View.readAt (Elt F) (Memref.whole cc2_scratch5).view (Rect.unit (s := S128x128) (k2_off375 k) S1x16.size (k2_off375_inb k)).toLoadRect gb) shapeCasts_S1x16_S16 shapeCasts_S16_S1x16) x).trans
        (Cert.LibRowStores.piece_sum ga gb k.val 64 (by omega) (k2_off375 k) (k2_off375 k) (k2_off382 k) (k2_off375_eq k) (k2_off375_eq k) (k2_off382_eq k) (k2_off375_inb k) (k2_off375_inb k) (k2_off382_inb k) x))
    (fun x => (congrFun (Cert.LibRowStores.cast_add_cast (View.readAt (Elt F) (Memref.whole cc2_scratch4).view (Rect.unit (s := S128x128) (k2_off376 k) S1x16.size (k2_off376_inb k)).toLoadRect ga) (View.readAt (Elt F) (Memref.whole cc2_scratch5).view (Rect.unit (s := S128x128) (k2_off376 k) S1x16.size (k2_off376_inb k)).toLoadRect gb) shapeCasts_S1x16_S16 shapeCasts_S16_S1x16) x).trans
        (Cert.LibRowStores.piece_sum ga gb k.val 80 (by omega) (k2_off376 k) (k2_off376 k) (k2_off383 k) (k2_off376_eq k) (k2_off376_eq k) (k2_off383_eq k) (k2_off376_inb k) (k2_off376_inb k) (k2_off383_inb k) x))
    (fun x => (congrFun (Cert.LibRowStores.cast_add_cast (View.readAt (Elt F) (Memref.whole cc2_scratch4).view (Rect.unit (s := S128x128) (k2_off377 k) S1x16.size (k2_off377_inb k)).toLoadRect ga) (View.readAt (Elt F) (Memref.whole cc2_scratch5).view (Rect.unit (s := S128x128) (k2_off377 k) S1x16.size (k2_off377_inb k)).toLoadRect gb) shapeCasts_S1x16_S16 shapeCasts_S16_S1x16) x).trans
        (Cert.LibRowStores.piece_sum ga gb k.val 84 (by omega) (k2_off377 k) (k2_off377 k) (k2_off384 k) (k2_off377_eq k) (k2_off377_eq k) (k2_off384_eq k) (k2_off377_inb k) (k2_off377_inb k) (k2_off384_inb k) x))
    hp

set_option maxHeartbeats 1000000 in
theorem region_t29 (d : Dev nD) (L : grid2.Coords) (ga : Buf (Elt F) ((Memref.whole cc2_scratch6).view.loc (thr d L))) (gb : Buf (Elt F) ((Memref.whole cc2_scratch7).view.loc (thr d L)))
    (k2_t1 : Fin k2_t1_loop.trips) (arg23 : BitVec 32) (v445 : BitVec 32) :
    ∀ (k : Fin k2_t29_loop.trips) (acc : Unit), addInvB d L ga gb k.val acc ⊢ wp frame (wpE (defs₀ (F := F)) 𝒱₀ (thr d L) none) Set.univ
      (k2_t29_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 arg23 v445 k acc) (addInvB d L ga gb (k.val + 1)) := by
  intro k acc
  unfold addInvB k2_t29_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off392 k) (k2_off393 k) (k2_off394 k) (k2_off395 k) (k2_off396 k) (k2_off397 k) (k2_off398 k)
    (k2_off392_eq k) (k2_off393_eq k) (k2_off394_eq k) (k2_off395_eq k) (k2_off396_eq k) (k2_off397_eq k) (k2_off398_eq k)
    (k2_off392_inb k) (k2_off393_inb k) (k2_off394_inb k) (k2_off395_inb k) (k2_off396_inb k) (k2_off397_inb k) (k2_off398_inb k)
    _ _ _ _ _ _ _
    (fun x => (congrFun (Cert.LibRowStores.cast_add_cast (View.readAt (Elt F) (Memref.whole cc2_scratch6).view (Rect.unit (s := S72x128) (k2_off385 k) S1x16.size (k2_off385_inb k)).toLoadRect ga) (View.readAt (Elt F) (Memref.whole cc2_scratch7).view (Rect.unit (s := S72x128) (k2_off385 k) S1x16.size (k2_off385_inb k)).toLoadRect gb) shapeCasts_S1x16_S16 shapeCasts_S16_S1x16) x).trans
        (Cert.LibRowStores.piece_sum ga gb k.val 0 (by omega) (k2_off385 k) (k2_off385 k) (k2_off392 k) (k2_off385_eq k) (k2_off385_eq k) (k2_off392_eq k) (k2_off385_inb k) (k2_off385_inb k) (k2_off392_inb k) x))
    (fun x => (congrFun (Cert.LibRowStores.cast_add_cast (View.readAt (Elt F) (Memref.whole cc2_scratch6).view (Rect.unit (s := S72x128) (k2_off386 k) S1x16.size (k2_off386_inb k)).toLoadRect ga) (View.readAt (Elt F) (Memref.whole cc2_scratch7).view (Rect.unit (s := S72x128) (k2_off386 k) S1x16.size (k2_off386_inb k)).toLoadRect gb) shapeCasts_S1x16_S16 shapeCasts_S16_S1x16) x).trans
        (Cert.LibRowStores.piece_sum ga gb k.val 16 (by omega) (k2_off386 k) (k2_off386 k) (k2_off393 k) (k2_off386_eq k) (k2_off386_eq k) (k2_off393_eq k) (k2_off386_inb k) (k2_off386_inb k) (k2_off393_inb k) x))
    (fun x => (congrFun (Cert.LibRowStores.cast_add_cast (View.readAt (Elt F) (Memref.whole cc2_scratch6).view (Rect.unit (s := S72x128) (k2_off387 k) S1x16.size (k2_off387_inb k)).toLoadRect ga) (View.readAt (Elt F) (Memref.whole cc2_scratch7).view (Rect.unit (s := S72x128) (k2_off387 k) S1x16.size (k2_off387_inb k)).toLoadRect gb) shapeCasts_S1x16_S16 shapeCasts_S16_S1x16) x).trans
        (Cert.LibRowStores.piece_sum ga gb k.val 32 (by omega) (k2_off387 k) (k2_off387 k) (k2_off394 k) (k2_off387_eq k) (k2_off387_eq k) (k2_off394_eq k) (k2_off387_inb k) (k2_off387_inb k) (k2_off394_inb k) x))
    (fun x => (congrFun (Cert.LibRowStores.cast_add_cast (View.readAt (Elt F) (Memref.whole cc2_scratch6).view (Rect.unit (s := S72x128) (k2_off388 k) S1x16.size (k2_off388_inb k)).toLoadRect ga) (View.readAt (Elt F) (Memref.whole cc2_scratch7).view (Rect.unit (s := S72x128) (k2_off388 k) S1x16.size (k2_off388_inb k)).toLoadRect gb) shapeCasts_S1x16_S16 shapeCasts_S16_S1x16) x).trans
        (Cert.LibRowStores.piece_sum ga gb k.val 48 (by omega) (k2_off388 k) (k2_off388 k) (k2_off395 k) (k2_off388_eq k) (k2_off388_eq k) (k2_off395_eq k) (k2_off388_inb k) (k2_off388_inb k) (k2_off395_inb k) x))
    (fun x => (congrFun (Cert.LibRowStores.cast_add_cast (View.readAt (Elt F) (Memref.whole cc2_scratch6).view (Rect.unit (s := S72x128) (k2_off389 k) S1x16.size (k2_off389_inb k)).toLoadRect ga) (View.readAt (Elt F) (Memref.whole cc2_scratch7).view (Rect.unit (s := S72x128) (k2_off389 k) S1x16.size (k2_off389_inb k)).toLoadRect gb) shapeCasts_S1x16_S16 shapeCasts_S16_S1x16) x).trans
        (Cert.LibRowStores.piece_sum ga gb k.val 64 (by omega) (k2_off389 k) (k2_off389 k) (k2_off396 k) (k2_off389_eq k) (k2_off389_eq k) (k2_off396_eq k) (k2_off389_inb k) (k2_off389_inb k) (k2_off396_inb k) x))
    (fun x => (congrFun (Cert.LibRowStores.cast_add_cast (View.readAt (Elt F) (Memref.whole cc2_scratch6).view (Rect.unit (s := S72x128) (k2_off390 k) S1x16.size (k2_off390_inb k)).toLoadRect ga) (View.readAt (Elt F) (Memref.whole cc2_scratch7).view (Rect.unit (s := S72x128) (k2_off390 k) S1x16.size (k2_off390_inb k)).toLoadRect gb) shapeCasts_S1x16_S16 shapeCasts_S16_S1x16) x).trans
        (Cert.LibRowStores.piece_sum ga gb k.val 80 (by omega) (k2_off390 k) (k2_off390 k) (k2_off397 k) (k2_off390_eq k) (k2_off390_eq k) (k2_off397_eq k) (k2_off390_inb k) (k2_off390_inb k) (k2_off397_inb k) x))
    (fun x => (congrFun (Cert.LibRowStores.cast_add_cast (View.readAt (Elt F) (Memref.whole cc2_scratch6).view (Rect.unit (s := S72x128) (k2_off391 k) S1x16.size (k2_off391_inb k)).toLoadRect ga) (View.readAt (Elt F) (Memref.whole cc2_scratch7).view (Rect.unit (s := S72x128) (k2_off391 k) S1x16.size (k2_off391_inb k)).toLoadRect gb) shapeCasts_S1x16_S16 shapeCasts_S16_S1x16) x).trans
        (Cert.LibRowStores.piece_sum ga gb k.val 84 (by omega) (k2_off391 k) (k2_off391 k) (k2_off398 k) (k2_off391_eq k) (k2_off391_eq k) (k2_off398_eq k) (k2_off391_inb k) (k2_off391_inb k) (k2_off398_inb k) x))
    hp

end Cert.Proof.KK

end
-- ==== Proof.KK.AddLoops8.lean ====
/-
  The row-by-row addition loops, one trip each. Trip k of such a loop reads row k of the two sources in seven
  pieces of sixteen columns, adds them piece by piece and stores the seven sums into row k of the destination; the
  pieces lie in row k and cover its hundred columns. So if the first k rows of the destination held the sums of
  the sources' rows before the trip, the first k + 1 rows hold them after it, and the sources are unchanged.
  Loops 30 to 33 of the thirty-two.
-/
import proofs.«206319_g15771119910948_cont_week2b_672_19_alg».proof.Proof.KK.AddInv
import proofs.«206319_g15771119910948_cont_week2b_672_19_alg».proof.Proof.LibRowStores
import Idealize.ShloMosaic.Lib.Tactic

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 1000000 in
theorem region_t30 (d : Dev nD) (L : grid2.Coords) (ga : Buf (Elt F) ((Memref.whole cc2_scratch4).view.loc (thr d L))) (gb : Buf (Elt F) ((Memref.whole cc2_scratch5).view.loc (thr d L)))
    (v2 : BitVec 32) (k2_t1 : Fin k2_t1_loop.trips) (v473 : BitVec 32) (c14_i32 : BitVec 32) :
    ∀ (k : Fin k2_t30_loop.trips) (acc : Unit), addInvA d L ga gb k.val acc ⊢ wp frame (wpE (defs₀ (F := F)) 𝒱₀ (thr d L) none) Set.univ
      (k2_t30_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 v473 c14_i32 k acc) (addInvA d L ga gb (k.val + 1)) := by
  intro k acc
  unfold addInvA k2_t30_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off406 k) (k2_off407 k) (k2_off408 k) (k2_off409 k) (k2_off410 k) (k2_off411 k) (k2_off412 k)
    (k2_off406_eq k) (k2_off407_eq k) (k2_off408_eq k) (k2_off409_eq k) (k2_off410_eq k) (k2_off411_eq k) (k2_off412_eq k)
    (k2_off406_inb k) (k2_off407_inb k) (k2_off408_inb k) (k2_off409_inb k) (k2_off410_inb k) (k2_off411_inb k) (k2_off412_inb k)
    _ _ _ _ _ _ _
    (fun x => (congrFun (Cert.LibRowStores.cast_add_cast (View.readAt (Elt F) (Memref.whole cc2_scratch4).view (Rect.unit (s := S128x128) (k2_off399 k) S1x16.size (k2_off399_inb k)).toLoadRect ga) (View.readAt (Elt F) (Memref.whole cc2_scratch5).view (Rect.unit (s := S128x128) (k2_off399 k) S1x16.size (k2_off399_inb k)).toLoadRect gb) shapeCasts_S1x16_S16 shapeCasts_S16_S1x16) x).trans
        (Cert.LibRowStores.piece_sum ga gb k.val 0 (by omega) (k2_off399 k) (k2_off399 k) (k2_off406 k) (k2_off399_eq k) (k2_off399_eq k) (k2_off406_eq k) (k2_off399_inb k) (k2_off399_inb k) (k2_off406_inb k) x))
    (fun x => (congrFun (Cert.LibRowStores.cast_add_cast (View.readAt (Elt F) (Memref.whole cc2_scratch4).view (Rect.unit (s := S128x128) (k2_off400 k) S1x16.size (k2_off400_inb k)).toLoadRect ga) (View.readAt (Elt F) (Memref.whole cc2_scratch5).view (Rect.unit (s := S128x128) (k2_off400 k) S1x16.size (k2_off400_inb k)).toLoadRect gb) shapeCasts_S1x16_S16 shapeCasts_S16_S1x16) x).trans
        (Cert.LibRowStores.piece_sum ga gb k.val 16 (by omega) (k2_off400 k) (k2_off400 k) (k2_off407 k) (k2_off400_eq k) (k2_off400_eq k) (k2_off407_eq k) (k2_off400_inb k) (k2_off400_inb k) (k2_off407_inb k) x))
    (fun x => (congrFun (Cert.LibRowStores.cast_add_cast (View.readAt (Elt F) (Memref.whole cc2_scratch4).view (Rect.unit (s := S128x128) (k2_off401 k) S1x16.size (k2_off401_inb k)).toLoadRect ga) (View.readAt (Elt F) (Memref.whole cc2_scratch5).view (Rect.unit (s := S128x128) (k2_off401 k) S1x16.size (k2_off401_inb k)).toLoadRect gb) shapeCasts_S1x16_S16 shapeCasts_S16_S1x16) x).trans
        (Cert.LibRowStores.piece_sum ga gb k.val 32 (by omega) (k2_off401 k) (k2_off401 k) (k2_off408 k) (k2_off401_eq k) (k2_off401_eq k) (k2_off408_eq k) (k2_off401_inb k) (k2_off401_inb k) (k2_off408_inb k) x))
    (fun x => (congrFun (Cert.LibRowStores.cast_add_cast (View.readAt (Elt F) (Memref.whole cc2_scratch4).view (Rect.unit (s := S128x128) (k2_off402 k) S1x16.size (k2_off402_inb k)).toLoadRect ga) (View.readAt (Elt F) (Memref.whole cc2_scratch5).view (Rect.unit (s := S128x128) (k2_off402 k) S1x16.size (k2_off402_inb k)).toLoadRect gb) shapeCasts_S1x16_S16 shapeCasts_S16_S1x16) x).trans
        (Cert.LibRowStores.piece_sum ga gb k.val 48 (by omega) (k2_off402 k) (k2_off402 k) (k2_off409 k) (k2_off402_eq k) (k2_off402_eq k) (k2_off409_eq k) (k2_off402_inb k) (k2_off402_inb k) (k2_off409_inb k) x))
    (fun x => (congrFun (Cert.LibRowStores.cast_add_cast (View.readAt (Elt F) (Memref.whole cc2_scratch4).view (Rect.unit (s := S128x128) (k2_off403 k) S1x16.size (k2_off403_inb k)).toLoadRect ga) (View.readAt (Elt F) (Memref.whole cc2_scratch5).view (Rect.unit (s := S128x128) (k2_off403 k) S1x16.size (k2_off403_inb k)).toLoadRect gb) shapeCasts_S1x16_S16 shapeCasts_S16_S1x16) x).trans
        (Cert.LibRowStores.piece_sum ga gb k.val 64 (by omega) (k2_off403 k) (k2_off403 k) (k2_off410 k) (k2_off403_eq k) (k2_off403_eq k) (k2_off410_eq k) (k2_off403_inb k) (k2_off403_inb k) (k2_off410_inb k) x))
    (fun x => (congrFun (Cert.LibRowStores.cast_add_cast (View.readAt (Elt F) (Memref.whole cc2_scratch4).view (Rect.unit (s := S128x128) (k2_off404 k) S1x16.size (k2_off404_inb k)).toLoadRect ga) (View.readAt (Elt F) (Memref.whole cc2_scratch5).view (Rect.unit (s := S128x128) (k2_off404 k) S1x16.size (k2_off404_inb k)).toLoadRect gb) shapeCasts_S1x16_S16 shapeCasts_S16_S1x16) x).trans
        (Cert.LibRowStores.piece_sum ga gb k.val 80 (by omega) (k2_off404 k) (k2_off404 k) (k2_off411 k) (k2_off404_eq k) (k2_off404_eq k) (k2_off411_eq k) (k2_off404_inb k) (k2_off404_inb k) (k2_off411_inb k) x))
    (fun x => (congrFun (Cert.LibRowStores.cast_add_cast (View.readAt (Elt F) (Memref.whole cc2_scratch4).view (Rect.unit (s := S128x128) (k2_off405 k) S1x16.size (k2_off405_inb k)).toLoadRect ga) (View.readAt (Elt F) (Memref.whole cc2_scratch5).view (Rect.unit (s := S128x128) (k2_off405 k) S1x16.size (k2_off405_inb k)).toLoadRect gb) shapeCasts_S1x16_S16 shapeCasts_S16_S1x16) x).trans
        (Cert.LibRowStores.piece_sum ga gb k.val 84 (by omega) (k2_off405 k) (k2_off405 k) (k2_off412 k) (k2_off405_eq k) (k2_off405_eq k) (k2_off412_eq k) (k2_off405_inb k) (k2_off405_inb k) (k2_off412_inb k) x))
    hp

set_option maxHeartbeats 1000000 in
theorem region_t31 (d : Dev nD) (L : grid2.Coords) (ga : Buf (Elt F) ((Memref.whole cc2_scratch6).view.loc (thr d L))) (gb : Buf (Elt F) ((Memref.whole cc2_scratch7).view.loc (thr d L)))
    (v2 : BitVec 32) (k2_t1 : Fin k2_t1_loop.trips) (arg23 : BitVec 32) (v476 : BitVec 32) :
    ∀ (k : Fin k2_t31_loop.trips) (acc : Unit), addInvB d L ga gb k.val acc ⊢ wp frame (wpE (defs₀ (F := F)) 𝒱₀ (thr d L) none) Set.univ
      (k2_t31_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 k2_t1 arg23 v476 k acc) (addInvB d L ga gb (k.val + 1)) := by
  intro k acc
  unfold addInvB k2_t31_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off420 k) (k2_off421 k) (k2_off422 k) (k2_off423 k) (k2_off424 k) (k2_off425 k) (k2_off426 k)
    (k2_off420_eq k) (k2_off421_eq k) (k2_off422_eq k) (k2_off423_eq k) (k2_off424_eq k) (k2_off425_eq k) (k2_off426_eq k)
    (k2_off420_inb k) (k2_off421_inb k) (k2_off422_inb k) (k2_off423_inb k) (k2_off424_inb k) (k2_off425_inb k) (k2_off426_inb k)
    _ _ _ _ _ _ _
    (fun x => (congrFun (Cert.LibRowStores.cast_add_cast (View.readAt (Elt F) (Memref.whole cc2_scratch6).view (Rect.unit (s := S72x128) (k2_off413 k) S1x16.size (k2_off413_inb k)).toLoadRect ga) (View.readAt (Elt F) (Memref.whole cc2_scratch7).view (Rect.unit (s := S72x128) (k2_off413 k) S1x16.size (k2_off413_inb k)).toLoadRect gb) shapeCasts_S1x16_S16 shapeCasts_S16_S1x16) x).trans
        (Cert.LibRowStores.piece_sum ga gb k.val 0 (by omega) (k2_off413 k) (k2_off413 k) (k2_off420 k) (k2_off413_eq k) (k2_off413_eq k) (k2_off420_eq k) (k2_off413_inb k) (k2_off413_inb k) (k2_off420_inb k) x))
    (fun x => (congrFun (Cert.LibRowStores.cast_add_cast (View.readAt (Elt F) (Memref.whole cc2_scratch6).view (Rect.unit (s := S72x128) (k2_off414 k) S1x16.size (k2_off414_inb k)).toLoadRect ga) (View.readAt (Elt F) (Memref.whole cc2_scratch7).view (Rect.unit (s := S72x128) (k2_off414 k) S1x16.size (k2_off414_inb k)).toLoadRect gb) shapeCasts_S1x16_S16 shapeCasts_S16_S1x16) x).trans
        (Cert.LibRowStores.piece_sum ga gb k.val 16 (by omega) (k2_off414 k) (k2_off414 k) (k2_off421 k) (k2_off414_eq k) (k2_off414_eq k) (k2_off421_eq k) (k2_off414_inb k) (k2_off414_inb k) (k2_off421_inb k) x))
    (fun x => (congrFun (Cert.LibRowStores.cast_add_cast (View.readAt (Elt F) (Memref.whole cc2_scratch6).view (Rect.unit (s := S72x128) (k2_off415 k) S1x16.size (k2_off415_inb k)).toLoadRect ga) (View.readAt (Elt F) (Memref.whole cc2_scratch7).view (Rect.unit (s := S72x128) (k2_off415 k) S1x16.size (k2_off415_inb k)).toLoadRect gb) shapeCasts_S1x16_S16 shapeCasts_S16_S1x16) x).trans
        (Cert.LibRowStores.piece_sum ga gb k.val 32 (by omega) (k2_off415 k) (k2_off415 k) (k2_off422 k) (k2_off415_eq k) (k2_off415_eq k) (k2_off422_eq k) (k2_off415_inb k) (k2_off415_inb k) (k2_off422_inb k) x))
    (fun x => (congrFun (Cert.LibRowStores.cast_add_cast (View.readAt (Elt F) (Memref.whole cc2_scratch6).view (Rect.unit (s := S72x128) (k2_off416 k) S1x16.size (k2_off416_inb k)).toLoadRect ga) (View.readAt (Elt F) (Memref.whole cc2_scratch7).view (Rect.unit (s := S72x128) (k2_off416 k) S1x16.size (k2_off416_inb k)).toLoadRect gb) shapeCasts_S1x16_S16 shapeCasts_S16_S1x16) x).trans
        (Cert.LibRowStores.piece_sum ga gb k.val 48 (by omega) (k2_off416 k) (k2_off416 k) (k2_off423 k) (k2_off416_eq k) (k2_off416_eq k) (k2_off423_eq k) (k2_off416_inb k) (k2_off416_inb k) (k2_off423_inb k) x))
    (fun x => (congrFun (Cert.LibRowStores.cast_add_cast (View.readAt (Elt F) (Memref.whole cc2_scratch6).view (Rect.unit (s := S72x128) (k2_off417 k) S1x16.size (k2_off417_inb k)).toLoadRect ga) (View.readAt (Elt F) (Memref.whole cc2_scratch7).view (Rect.unit (s := S72x128) (k2_off417 k) S1x16.size (k2_off417_inb k)).toLoadRect gb) shapeCasts_S1x16_S16 shapeCasts_S16_S1x16) x).trans
        (Cert.LibRowStores.piece_sum ga gb k.val 64 (by omega) (k2_off417 k) (k2_off417 k) (k2_off424 k) (k2_off417_eq k) (k2_off417_eq k) (k2_off424_eq k) (k2_off417_inb k) (k2_off417_inb k) (k2_off424_inb k) x))
    (fun x => (congrFun (Cert.LibRowStores.cast_add_cast (View.readAt (Elt F) (Memref.whole cc2_scratch6).view (Rect.unit (s := S72x128) (k2_off418 k) S1x16.size (k2_off418_inb k)).toLoadRect ga) (View.readAt (Elt F) (Memref.whole cc2_scratch7).view (Rect.unit (s := S72x128) (k2_off418 k) S1x16.size (k2_off418_inb k)).toLoadRect gb) shapeCasts_S1x16_S16 shapeCasts_S16_S1x16) x).trans
        (Cert.LibRowStores.piece_sum ga gb k.val 80 (by omega) (k2_off418 k) (k2_off418 k) (k2_off425 k) (k2_off418_eq k) (k2_off418_eq k) (k2_off425_eq k) (k2_off418_inb k) (k2_off418_inb k) (k2_off425_inb k) x))
    (fun x => (congrFun (Cert.LibRowStores.cast_add_cast (View.readAt (Elt F) (Memref.whole cc2_scratch6).view (Rect.unit (s := S72x128) (k2_off419 k) S1x16.size (k2_off419_inb k)).toLoadRect ga) (View.readAt (Elt F) (Memref.whole cc2_scratch7).view (Rect.unit (s := S72x128) (k2_off419 k) S1x16.size (k2_off419_inb k)).toLoadRect gb) shapeCasts_S1x16_S16 shapeCasts_S16_S1x16) x).trans
        (Cert.LibRowStores.piece_sum ga gb k.val 84 (by omega) (k2_off419 k) (k2_off419 k) (k2_off426 k) (k2_off419_eq k) (k2_off419_eq k) (k2_off426_eq k) (k2_off419_inb k) (k2_off419_inb k) (k2_off426_inb k) x))
    hp

set_option maxHeartbeats 1000000 in
theorem region_t32 (d : Dev nD) (L : grid2.Coords) (ga : Buf (Elt F) ((Memref.whole cc2_scratch4).view.loc (thr d L))) (gb : Buf (Elt F) ((Memref.whole cc2_scratch5).view.loc (thr d L)))
    (k2_t1 : Fin k2_t1_loop.trips) :
    ∀ (k : Fin k2_t32_loop.trips) (acc : Unit), addInvA d L ga gb k.val acc ⊢ wp frame (wpE (defs₀ (F := F)) 𝒱₀ (thr d L) none) Set.univ
      (k2_t32_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 k2_t1 k acc) (addInvA d L ga gb (k.val + 1)) := by
  intro k acc
  unfold addInvA k2_t32_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch8).view h ga gb k.val
    (k2_off434 k) (k2_off435 k) (k2_off436 k) (k2_off437 k) (k2_off438 k) (k2_off439 k) (k2_off440 k)
    (k2_off434_eq k) (k2_off435_eq k) (k2_off436_eq k) (k2_off437_eq k) (k2_off438_eq k) (k2_off439_eq k) (k2_off440_eq k)
    (k2_off434_inb k) (k2_off435_inb k) (k2_off436_inb k) (k2_off437_inb k) (k2_off438_inb k) (k2_off439_inb k) (k2_off440_inb k)
    _ _ _ _ _ _ _
    (fun x => (congrFun (Cert.LibRowStores.cast_add_cast (View.readAt (Elt F) (Memref.whole cc2_scratch4).view (Rect.unit (s := S128x128) (k2_off427 k) S1x16.size (k2_off427_inb k)).toLoadRect ga) (View.readAt (Elt F) (Memref.whole cc2_scratch5).view (Rect.unit (s := S128x128) (k2_off427 k) S1x16.size (k2_off427_inb k)).toLoadRect gb) shapeCasts_S1x16_S16 shapeCasts_S16_S1x16) x).trans
        (Cert.LibRowStores.piece_sum ga gb k.val 0 (by omega) (k2_off427 k) (k2_off427 k) (k2_off434 k) (k2_off427_eq k) (k2_off427_eq k) (k2_off434_eq k) (k2_off427_inb k) (k2_off427_inb k) (k2_off434_inb k) x))
    (fun x => (congrFun (Cert.LibRowStores.cast_add_cast (View.readAt (Elt F) (Memref.whole cc2_scratch4).view (Rect.unit (s := S128x128) (k2_off428 k) S1x16.size (k2_off428_inb k)).toLoadRect ga) (View.readAt (Elt F) (Memref.whole cc2_scratch5).view (Rect.unit (s := S128x128) (k2_off428 k) S1x16.size (k2_off428_inb k)).toLoadRect gb) shapeCasts_S1x16_S16 shapeCasts_S16_S1x16) x).trans
        (Cert.LibRowStores.piece_sum ga gb k.val 16 (by omega) (k2_off428 k) (k2_off428 k) (k2_off435 k) (k2_off428_eq k) (k2_off428_eq k) (k2_off435_eq k) (k2_off428_inb k) (k2_off428_inb k) (k2_off435_inb k) x))
    (fun x => (congrFun (Cert.LibRowStores.cast_add_cast (View.readAt (Elt F) (Memref.whole cc2_scratch4).view (Rect.unit (s := S128x128) (k2_off429 k) S1x16.size (k2_off429_inb k)).toLoadRect ga) (View.readAt (Elt F) (Memref.whole cc2_scratch5).view (Rect.unit (s := S128x128) (k2_off429 k) S1x16.size (k2_off429_inb k)).toLoadRect gb) shapeCasts_S1x16_S16 shapeCasts_S16_S1x16) x).trans
        (Cert.LibRowStores.piece_sum ga gb k.val 32 (by omega) (k2_off429 k) (k2_off429 k) (k2_off436 k) (k2_off429_eq k) (k2_off429_eq k) (k2_off436_eq k) (k2_off429_inb k) (k2_off429_inb k) (k2_off436_inb k) x))
    (fun x => (congrFun (Cert.LibRowStores.cast_add_cast (View.readAt (Elt F) (Memref.whole cc2_scratch4).view (Rect.unit (s := S128x128) (k2_off430 k) S1x16.size (k2_off430_inb k)).toLoadRect ga) (View.readAt (Elt F) (Memref.whole cc2_scratch5).view (Rect.unit (s := S128x128) (k2_off430 k) S1x16.size (k2_off430_inb k)).toLoadRect gb) shapeCasts_S1x16_S16 shapeCasts_S16_S1x16) x).trans
        (Cert.LibRowStores.piece_sum ga gb k.val 48 (by omega) (k2_off430 k) (k2_off430 k) (k2_off437 k) (k2_off430_eq k) (k2_off430_eq k) (k2_off437_eq k) (k2_off430_inb k) (k2_off430_inb k) (k2_off437_inb k) x))
    (fun x => (congrFun (Cert.LibRowStores.cast_add_cast (View.readAt (Elt F) (Memref.whole cc2_scratch4).view (Rect.unit (s := S128x128) (k2_off431 k) S1x16.size (k2_off431_inb k)).toLoadRect ga) (View.readAt (Elt F) (Memref.whole cc2_scratch5).view (Rect.unit (s := S128x128) (k2_off431 k) S1x16.size (k2_off431_inb k)).toLoadRect gb) shapeCasts_S1x16_S16 shapeCasts_S16_S1x16) x).trans
        (Cert.LibRowStores.piece_sum ga gb k.val 64 (by omega) (k2_off431 k) (k2_off431 k) (k2_off438 k) (k2_off431_eq k) (k2_off431_eq k) (k2_off438_eq k) (k2_off431_inb k) (k2_off431_inb k) (k2_off438_inb k) x))
    (fun x => (congrFun (Cert.LibRowStores.cast_add_cast (View.readAt (Elt F) (Memref.whole cc2_scratch4).view (Rect.unit (s := S128x128) (k2_off432 k) S1x16.size (k2_off432_inb k)).toLoadRect ga) (View.readAt (Elt F) (Memref.whole cc2_scratch5).view (Rect.unit (s := S128x128) (k2_off432 k) S1x16.size (k2_off432_inb k)).toLoadRect gb) shapeCasts_S1x16_S16 shapeCasts_S16_S1x16) x).trans
        (Cert.LibRowStores.piece_sum ga gb k.val 80 (by omega) (k2_off432 k) (k2_off432 k) (k2_off439 k) (k2_off432_eq k) (k2_off432_eq k) (k2_off439_eq k) (k2_off432_inb k) (k2_off432_inb k) (k2_off439_inb k) x))
    (fun x => (congrFun (Cert.LibRowStores.cast_add_cast (View.readAt (Elt F) (Memref.whole cc2_scratch4).view (Rect.unit (s := S128x128) (k2_off433 k) S1x16.size (k2_off433_inb k)).toLoadRect ga) (View.readAt (Elt F) (Memref.whole cc2_scratch5).view (Rect.unit (s := S128x128) (k2_off433 k) S1x16.size (k2_off433_inb k)).toLoadRect gb) shapeCasts_S1x16_S16 shapeCasts_S16_S1x16) x).trans
        (Cert.LibRowStores.piece_sum ga gb k.val 84 (by omega) (k2_off433 k) (k2_off433 k) (k2_off440 k) (k2_off433_eq k) (k2_off433_eq k) (k2_off440_eq k) (k2_off433_inb k) (k2_off433_inb k) (k2_off440_inb k) x))
    hp

set_option maxHeartbeats 1000000 in
theorem region_t33 (d : Dev nD) (L : grid2.Coords) (ga : Buf (Elt F) ((Memref.whole cc2_scratch6).view.loc (thr d L))) (gb : Buf (Elt F) ((Memref.whole cc2_scratch7).view.loc (thr d L)))
    (v2 : BitVec 32) (v4 : BitVec 32) (c0_i32_13 : BitVec 32) (c1_i32 : BitVec 32) (k2_t1 : Fin k2_t1_loop.trips) :
    ∀ (k : Fin k2_t33_loop.trips) (acc : Unit), addInvB d L ga gb k.val acc ⊢ wp frame (wpE (defs₀ (F := F)) 𝒱₀ (thr d L) none) Set.univ
      (k2_t33_body L (Memref.whole main_arg0_scv) (Memref.isWhole_whole _) (Memref.whole main_arg1_scv) (Memref.isWhole_whole _) (Memref.whole main_v0_scv) (Memref.isWhole_whole _) (Memref.whole main_v1_scv) (Memref.isWhole_whole _) (Memref.whole main_v2_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) cc2_scratch10 cc2_scratch11 cc2_scratch12 cc2_scratch13 cc2_scratch14 cc2_scratch15 cc2_scoped0 cc2_scoped1 cc2_scoped2 cc2_scoped3 cc2_scoped4 cc2_scoped5 cc2_scoped6 cc2_scoped7 cc2_scoped8 cc2_scoped9 cc2_scoped10 cc2_scoped11 cc2_scoped12 cc2_scoped13 cc2_scoped14 cc2_scoped15 cc2_scoped16 cc2_scoped17 cc2_scoped18 cc2_scoped19 cc2_scoped20 cc2_scoped21 cc2_scoped22 cc2_scoped23 cc2_scoped24 cc2_scoped25 cc2_scoped26 cc2_scoped27 cc2_scoped28 cc2_scoped29 cc2_scoped30 cc2_scoped31 cc2_scoped32 cc2_scoped33 v2 v4 c0_i32_13 c1_i32 k2_t1 k acc) (addInvB d L ga gb (k.val + 1)) := by
  intro k acc
  unfold addInvB k2_t33_body
  iintro ⟨Ha, Hb, %h, Hh, %hp⟩
  sl_exec
  sl_step
  isplitl [Ha]; · iexact Ha
  isplitl [Hb]; · iexact Hb
  iexists _
  isplitl [Hh]; · iexact Hh
  ipureintro
  exact Cert.LibRowStores.addRow_step (F := F) (Memref.whole cc2_scratch9).view h ga gb k.val
    (k2_off448 k) (k2_off449 k) (k2_off450 k) (k2_off451 k) (k2_off452 k) (k2_off453 k) (k2_off454 k)
    (k2_off448_eq k) (k2_off449_eq k) (k2_off450_eq k) (k2_off451_eq k) (k2_off452_eq k) (k2_off453_eq k) (k2_off454_eq k)
    (k2_off448_inb k) (k2_off449_inb k) (k2_off450_inb k) (k2_off451_inb k) (k2_off452_inb k) (k2_off453_inb k) (k2_off454_inb k)
    _ _ _ _ _ _ _
    (fun x => (congrFun (Cert.LibRowStores.cast_add_cast (View.readAt (Elt F) (Memref.whole cc2_scratch6).view (Rect.unit (s := S72x128) (k2_off441 k) S1x16.size (k2_off441_inb k)).toLoadRect ga) (View.readAt (Elt F) (Memref.whole cc2_scratch7).view (Rect.unit (s := S72x128) (k2_off441 k) S1x16.size (k2_off441_inb k)).toLoadRect gb) shapeCasts_S1x16_S16 shapeCasts_S16_S1x16) x).trans
        (Cert.LibRowStores.piece_sum ga gb k.val 0 (by omega) (k2_off441 k) (k2_off441 k) (k2_off448 k) (k2_off441_eq k) (k2_off441_eq k) (k2_off448_eq k) (k2_off441_inb k) (k2_off441_inb k) (k2_off448_inb k) x))
    (fun x => (congrFun (Cert.LibRowStores.cast_add_cast (View.readAt (Elt F) (Memref.whole cc2_scratch6).view (Rect.unit (s := S72x128) (k2_off442 k) S1x16.size (k2_off442_inb k)).toLoadRect ga) (View.readAt (Elt F) (Memref.whole cc2_scratch7).view (Rect.unit (s := S72x128) (k2_off442 k) S1x16.size (k2_off442_inb k)).toLoadRect gb) shapeCasts_S1x16_S16 shapeCasts_S16_S1x16) x).trans
        (Cert.LibRowStores.piece_sum ga gb k.val 16 (by omega) (k2_off442 k) (k2_off442 k) (k2_off449 k) (k2_off442_eq k) (k2_off442_eq k) (k2_off449_eq k) (k2_off442_inb k) (k2_off442_inb k) (k2_off449_inb k) x))
    (fun x => (congrFun (Cert.LibRowStores.cast_add_cast (View.readAt (Elt F) (Memref.whole cc2_scratch6).view (Rect.unit (s := S72x128) (k2_off443 k) S1x16.size (k2_off443_inb k)).toLoadRect ga) (View.readAt (Elt F) (Memref.whole cc2_scratch7).view (Rect.unit (s := S72x128) (k2_off443 k) S1x16.size (k2_off443_inb k)).toLoadRect gb) shapeCasts_S1x16_S16 shapeCasts_S16_S1x16) x).trans
        (Cert.LibRowStores.piece_sum ga gb k.val 32 (by omega) (k2_off443 k) (k2_off443 k) (k2_off450 k) (k2_off443_eq k) (k2_off443_eq k) (k2_off450_eq k) (k2_off443_inb k) (k2_off443_inb k) (k2_off450_inb k) x))
    (fun x => (congrFun (Cert.LibRowStores.cast_add_cast (View.readAt (Elt F) (Memref.whole cc2_scratch6).view (Rect.unit (s := S72x128) (k2_off444 k) S1x16.size (k2_off444_inb k)).toLoadRect ga) (View.readAt (Elt F) (Memref.whole cc2_scratch7).view (Rect.unit (s := S72x128) (k2_off444 k) S1x16.size (k2_off444_inb k)).toLoadRect gb) shapeCasts_S1x16_S16 shapeCasts_S16_S1x16) x).trans
        (Cert.LibRowStores.piece_sum ga gb k.val 48 (by omega) (k2_off444 k) (k2_off444 k) (k2_off451 k) (k2_off444_eq k) (k2_off444_eq k) (k2_off451_eq k) (k2_off444_inb k) (k2_off444_inb k) (k2_off451_inb k) x))
    (fun x => (congrFun (Cert.LibRowStores.cast_add_cast (View.readAt (Elt F) (Memref.whole cc2_scratch6).view (Rect.unit (s := S72x128) (k2_off445 k) S1x16.size (k2_off445_inb k)).toLoadRect ga) (View.readAt (Elt F) (Memref.whole cc2_scratch7).view (Rect.unit (s := S72x128) (k2_off445 k) S1x16.size (k2_off445_inb k)).toLoadRect gb) shapeCasts_S1x16_S16 shapeCasts_S16_S1x16) x).trans
        (Cert.LibRowStores.piece_sum ga gb k.val 64 (by omega) (k2_off445 k) (k2_off445 k) (k2_off452 k) (k2_off445_eq k) (k2_off445_eq k) (k2_off452_eq k) (k2_off445_inb k) (k2_off445_inb k) (k2_off452_inb k) x))
    (fun x => (congrFun (Cert.LibRowStores.cast_add_cast (View.readAt (Elt F) (Memref.whole cc2_scratch6).view (Rect.unit (s := S72x128) (k2_off446 k) S1x16.size (k2_off446_inb k)).toLoadRect ga) (View.readAt (Elt F) (Memref.whole cc2_scratch7).view (Rect.unit (s := S72x128) (k2_off446 k) S1x16.size (k2_off446_inb k)).toLoadRect gb) shapeCasts_S1x16_S16 shapeCasts_S16_S1x16) x).trans
        (Cert.LibRowStores.piece_sum ga gb k.val 80 (by omega) (k2_off446 k) (k2_off446 k) (k2_off453 k) (k2_off446_eq k) (k2_off446_eq k) (k2_off453_eq k) (k2_off446_inb k) (k2_off446_inb k) (k2_off453_inb k) x))
    (fun x => (congrFun (Cert.LibRowStores.cast_add_cast (View.readAt (Elt F) (Memref.whole cc2_scratch6).view (Rect.unit (s := S72x128) (k2_off447 k) S1x16.size (k2_off447_inb k)).toLoadRect ga) (View.readAt (Elt F) (Memref.whole cc2_scratch7).view (Rect.unit (s := S72x128) (k2_off447 k) S1x16.size (k2_off447_inb k)).toLoadRect gb) shapeCasts_S1x16_S16 shapeCasts_S16_S1x16) x).trans
        (Cert.LibRowStores.piece_sum ga gb k.val 84 (by omega) (k2_off447 k) (k2_off447 k) (k2_off454 k) (k2_off447_eq k) (k2_off447_eq k) (k2_off454_eq k) (k2_off447_inb k) (k2_off447_inb k) (k2_off454_inb k) x))
    hp

end Cert.Proof.KK

end
-- ==== Proof.KK.BodyTrip.lean ====
/-
  One trip of the worker's outer loop keeps the loop's invariant. A trip handles sixteen sentences. The 200 positions
  of sentence k come as a chunk of 128 and a chunk of 72: the table rows that the chunk's window of the index list
  names are gathered from both tables (the next chunk's gathers are already under way on the other pair of buffers),
  added entry by entry on the first hundred columns, and the sums are copied to the chunk's rows of the flat result.
  Each chunk moves "the flat result is right on the first n rows of the worker's block" on by the chunk's rows: the
  list window holds the index matrices' entries for exactly those positions, and a gathered row is the table row its
  entry names. After the eighth sentence the second pair of index buffers has landed and the first pair is staged
  again, for the next trip; after the sixteenth the first pair has landed, its first gathers start, and the second
  pair is staged again — the invariant, one trip on. Every word staged is a word of an index matrix, so it names a row
  of its table and the gathers it feeds stay inside the tables.
-/
import proofs.«206319_g15771119910948_cont_week2b_672_19_alg».proof.Proof.KK.BodyTripSpec
import proofs.«206319_g15771119910948_cont_week2b_672_19_alg».proof.Proof.KK.BodyTripLemmas
import proofs.«206319_g15771119910948_cont_week2b_672_19_alg».proof.Proof.KK.BodyValue
import proofs.«206319_g15771119910948_cont_week2b_672_19_alg».proof.Proof.KK.AddLoops1
import proofs.«206319_g15771119910948_cont_week2b_672_19_alg».proof.Proof.KK.AddLoops2
import proofs.«206319_g15771119910948_cont_week2b_672_19_alg».proof.Proof.KK.AddLoops3
import proofs.«206319_g15771119910948_cont_week2b_672_19_alg».proof.Proof.KK.AddLoops4
import proofs.«206319_g15771119910948_cont_week2b_672_19_alg».proof.Proof.KK.AddLoops5
import proofs.«206319_g15771119910948_cont_week2b_672_19_alg».proof.Proof.KK.AddLoops6
import proofs.«206319_g15771119910948_cont_week2b_672_19_alg».proof.Proof.KK.AddLoops7
import proofs.«206319_g15771119910948_cont_week2b_672_19_alg».proof.Proof.KK.AddLoops8
import Idealize.ShloMosaic.Lib.Tactic
import Idealize.ShloMosaic.Lib.Batch

noncomputable section

namespace Cert.Proof.KK

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
/-- A wait recorded at the body's own index keeps "every recorded wait is the caller's or the body's own". -/
theorem waits_insert (W S : Waits sig (HIx 1)) (sm : SemLoc sig) (h : ∀ p ∈ S, p ∈ W ∨ p.2 = none) :
    ∀ p ∈ insert (sm, (default : HIx 1)) S, p ∈ W ∨ p.2 = none :=
  fun p hp => (Finset.mem_insert.mp hp).elim (fun e => Or.inr (e ▸ rfl)) (h p)

set_option maxHeartbeats 16000000 in
/-- One trip: from the invariant at trip w to the invariant at trip w + 1. -/
theorem trip_sound (d : Dev nD) (L : grid2.Coords) (q q' : PosShare TreeShare) (O : CellTallies nD τ sig (HIx 1)) (W : Waits sig (HIx 1))
    (fwi : Buf (Elt F) ((Memref.whole main_arg0_scv).view.loc (thr d L))) (fei : Buf (Elt F) ((Memref.whole main_arg1_scv).view.loc (thr d L)))
    (fwt : Buf (Elt F) ((Memref.whole main_v0_scv).view.loc (thr d L))) (fet : Buf (Elt F) ((Memref.whole main_v1_scv).view.loc (thr d L)))
    (hwi : ∀ j, (fwi j : BitVec 32).toNat < 100000) (hei : ∀ j, (fei j : BitVec 32).toNat < 1000000) :
    TripSpec d L q q' O W fwi fei fwt fet := by
  intro v2 v4 w acc
  unfold invOuter k2_t1_body
  iintro ⟨%fo, %gA, %gEA, %f2, %f3, %cA, %cB, %f6, %f7, %f8, %f9, %payB, %payEB, %ob, %W', Hmw, Ho, Hs6, Hs7, Hs8, Hs9, HO, Hwi, Hwi', HbatB, Hei, Hei', Hfl8, Hwt, Hwt', Hs4, Hs0, Hfl9, Het, Het', Hs5, Hs1, Hm0, Hm1, Hm2, Hm3, Hm4, Hm5, Hm6, Hm7, Hm8, Hm9, Hm10, Hm11, Hm12, Hm13, Hm14, Hm15, Hm16, Hm17, Hm18, Hm19, Hm20, Hm21, Hm22, Hm23, Hm24, Hm25, Hm26, Hm27, Hm28, Hm29, Hm30, Hm31, Hm32, Hm33, Hm34, Hm35, Hm36, %hok⟩
  obtain ⟨hgA, hgEA, hpayB, hpayEB, hW', hrA0, hrEA0, hrB0, hrEB0, hG0, hG1, hd_0⟩ := hok
  have hw8 : w.val < 8 := w.isLt
  have hL0 : (L 0).val < 2 := (L 0).isLt
  have hL1 : (L 1).val < 16 := (L 1).isLt
  have hrA : RowsAt gA fwi (R0 L + 16 * w.val) := (sA_lt L w.val hw8) ▸ hrA0
  have hrEA : RowsAt gEA fei (R0 L + 16 * w.val) := (sA_lt L w.val hw8) ▸ hrEA0
  have hrB : RowsAt payB fwi (R0 L + 16 * w.val + 8) := (sB_lt L w.val hw8) ▸ hrB0
  have hrEB : RowsAt payEB fei (R0 L + 16 * w.val + 8) := (sB_lt L w.val hw8) ▸ hrEB0
  have hinA := lt_win0 d L 100000 gA hgA
  have hinEA := lt_win1 d L 1000000 gEA hgEA
  have hinB := lt_winw2 d L 100000 f2 payB hpayB
  have hinEB := lt_winw3 d L 1000000 f3 payEB hpayEB
  have _planB : Transfers.BatchOf (thr d L) (SemLoc.dma (sig := sig) cc2_scratch15.sem) 2 := trivial
  have _planA : Transfers.BatchOf (thr d L) (SemLoc.dma (sig := sig) cc2_scratch14.sem) 2 := trivial
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t2 d L _ _ _ _ _ _
  iintro %_ HI
  unfold addInvA
  icases HI with ⟨Hs4, Hs5, %h8_2, Hs8, %hsum_2⟩
  have hd_1 := chunk_done128 d L fwi fei fwt fet (R0 L) _ _ hd_0 gA gEA (R0 L + 16 * w.val) hrA hrEA (0 : Fin 8) 0 (by decide) _ _ _ _
      hG0
      hG1
      (fun _ => rfl) (fun _ => rfl) h8_2 (fun t c => hsum_2 t c t.isLt)
      (by show _ = ((_ + 0) - _) * 200 + 0; omega) (by show R0 L ≤ _ + 0; omega) (by show _ + 0 < 4096; have := R0_lt L; omega)
      (k2_off17 L w 0#32) ((off17n L w 0 (by decide)).trans (congrArg (fun a => ![R0 L * 200 + a, 0]) (by omega)))
      (k2_off17_inb L w ⟨0, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t3 d L _ _ _ _ _ _
  iintro %_ HI
  unfold addInvB
  icases HI with ⟨Hs6, Hs7, %h9_3, Hs9, %hsum_3⟩
  have hd_2 := chunk_done72 d L fwi fei fwt fet (R0 L) _ _ hd_1 gA gEA (R0 L + 16 * w.val) hrA hrEA (0 : Fin 8) 128 (by decide) _ _ _ _
      (by exact gathered_payload_v0_0 d L fwt gA _ _ _ (0 : Fin 8) 128 (by decide) _ _ rfl rfl _ _ _ _ _)
      (by exact gathered_payload_v1_1 d L fet gEA _ _ _ (0 : Fin 8) 128 (by decide) _ _ rfl rfl _ _ _ _ _)
      (fun i => read_whole_piece6 d L _ _ _ i) (fun i => read_whole_piece7 d L _ _ _ i) h9_3 (fun t c => hsum_3 t c t.isLt)
      (by show _ = ((_ + 0) - _) * 200 + 128; omega) (by show R0 L ≤ _ + 0; omega) (by show _ + 0 < 4096; have := R0_lt L; omega)
      (k2_off32 L w 0#32) ((off32n L w 0 (by decide)).trans (congrArg (fun a => ![R0 L * 200 + a, 0]) (by omega)))
      (k2_off32_inb L w ⟨0, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t4 d L _ _ _
  iintro %_ HI
  unfold addInvA
  icases HI with ⟨Hs4, Hs5, %h8_4, Hs8, %hsum_4⟩
  have hd_3 := chunk_done128 d L fwi fei fwt fet (R0 L) _ _ hd_2 gA gEA (R0 L + 16 * w.val) hrA hrEA (1 : Fin 8) 0 (by decide) _ _ _ _
      (by exact gathered_payload_v0_0 d L fwt gA _ _ _ (1 : Fin 8) 0 (by decide) _ _ rfl rfl _ _ _ _ _)
      (by exact gathered_payload_v1_1 d L fet gEA _ _ _ (1 : Fin 8) 0 (by decide) _ _ rfl rfl _ _ _ _ _)
      (fun i => read_whole_piece4 d L _ _ _ i) (fun i => read_whole_piece5 d L _ _ _ i) h8_4 (fun t c => hsum_4 t c t.isLt)
      (by show _ = ((_ + 1) - _) * 200 + 0; omega) (by show R0 L ≤ _ + 1; omega) (by show _ + 1 < 4096; have := R0_lt L; omega)
      (k2_off17 L w 1#32) ((off17n L w 1 (by decide)).trans (congrArg (fun a => ![R0 L * 200 + a, 0]) (by omega)))
      (k2_off17_inb L w ⟨1, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t5 d L _ _ _ _ _ _
  iintro %_ HI
  unfold addInvB
  icases HI with ⟨Hs6, Hs7, %h9_5, Hs9, %hsum_5⟩
  have hd_4 := chunk_done72 d L fwi fei fwt fet (R0 L) _ _ hd_3 gA gEA (R0 L + 16 * w.val) hrA hrEA (1 : Fin 8) 128 (by decide) _ _ _ _
      (by exact gathered_payload_v0_0 d L fwt gA _ _ _ (1 : Fin 8) 128 (by decide) _ _ rfl rfl _ _ _ _ _)
      (by exact gathered_payload_v1_1 d L fet gEA _ _ _ (1 : Fin 8) 128 (by decide) _ _ rfl rfl _ _ _ _ _)
      (fun i => read_whole_piece6 d L _ _ _ i) (fun i => read_whole_piece7 d L _ _ _ i) h9_5 (fun t c => hsum_5 t c t.isLt)
      (by show _ = ((_ + 1) - _) * 200 + 128; omega) (by show R0 L ≤ _ + 1; omega) (by show _ + 1 < 4096; have := R0_lt L; omega)
      (k2_off32 L w 1#32) ((off32n L w 1 (by decide)).trans (congrArg (fun a => ![R0 L * 200 + a, 0]) (by omega)))
      (k2_off32_inb L w ⟨1, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t6 d L _ _ _
  iintro %_ HI
  unfold addInvA
  icases HI with ⟨Hs4, Hs5, %h8_6, Hs8, %hsum_6⟩
  have hd_5 := chunk_done128 d L fwi fei fwt fet (R0 L) _ _ hd_4 gA gEA (R0 L + 16 * w.val) hrA hrEA (2 : Fin 8) 0 (by decide) _ _ _ _
      (by exact gathered_payload_v0_0 d L fwt gA _ _ _ (2 : Fin 8) 0 (by decide) _ _ rfl rfl _ _ _ _ _)
      (by exact gathered_payload_v1_1 d L fet gEA _ _ _ (2 : Fin 8) 0 (by decide) _ _ rfl rfl _ _ _ _ _)
      (fun i => read_whole_piece4 d L _ _ _ i) (fun i => read_whole_piece5 d L _ _ _ i) h8_6 (fun t c => hsum_6 t c t.isLt)
      (by show _ = ((_ + 2) - _) * 200 + 0; omega) (by show R0 L ≤ _ + 2; omega) (by show _ + 2 < 4096; have := R0_lt L; omega)
      (k2_off17 L w 2#32) ((off17n L w 2 (by decide)).trans (congrArg (fun a => ![R0 L * 200 + a, 0]) (by omega)))
      (k2_off17_inb L w ⟨2, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t7 d L _ _ _ _ _ _ _ _
  iintro %_ HI
  unfold addInvB
  icases HI with ⟨Hs6, Hs7, %h9_7, Hs9, %hsum_7⟩
  have hd_6 := chunk_done72 d L fwi fei fwt fet (R0 L) _ _ hd_5 gA gEA (R0 L + 16 * w.val) hrA hrEA (2 : Fin 8) 128 (by decide) _ _ _ _
      (by exact gathered_payload_v0_0 d L fwt gA _ _ _ (2 : Fin 8) 128 (by decide) _ _ rfl rfl _ _ _ _ _)
      (by exact gathered_payload_v1_1 d L fet gEA _ _ _ (2 : Fin 8) 128 (by decide) _ _ rfl rfl _ _ _ _ _)
      (fun i => read_whole_piece6 d L _ _ _ i) (fun i => read_whole_piece7 d L _ _ _ i) h9_7 (fun t c => hsum_7 t c t.isLt)
      (by show _ = ((_ + 2) - _) * 200 + 128; omega) (by show R0 L ≤ _ + 2; omega) (by show _ + 2 < 4096; have := R0_lt L; omega)
      (k2_off32 L w 2#32) ((off32n L w 2 (by decide)).trans (congrArg (fun a => ![R0 L * 200 + a, 0]) (by omega)))
      (k2_off32_inb L w ⟨2, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t8 d L _ _ _ _ _ _ _ _
  iintro %_ HI
  unfold addInvA
  icases HI with ⟨Hs4, Hs5, %h8_8, Hs8, %hsum_8⟩
  have hd_7 := chunk_done128 d L fwi fei fwt fet (R0 L) _ _ hd_6 gA gEA (R0 L + 16 * w.val) hrA hrEA (3 : Fin 8) 0 (by decide) _ _ _ _
      (by exact gathered_payload_v0_0 d L fwt gA _ _ _ (3 : Fin 8) 0 (by decide) _ _ rfl rfl _ _ _ _ _)
      (by exact gathered_payload_v1_1 d L fet gEA _ _ _ (3 : Fin 8) 0 (by decide) _ _ rfl rfl _ _ _ _ _)
      (fun i => read_whole_piece4 d L _ _ _ i) (fun i => read_whole_piece5 d L _ _ _ i) h8_8 (fun t c => hsum_8 t c t.isLt)
      (by show _ = ((_ + 3) - _) * 200 + 0; omega) (by show R0 L ≤ _ + 3; omega) (by show _ + 3 < 4096; have := R0_lt L; omega)
      (k2_off17 L w 3#32) ((off17n L w 3 (by decide)).trans (congrArg (fun a => ![R0 L * 200 + a, 0]) (by omega)))
      (k2_off17_inb L w ⟨3, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t9 d L _ _ _ _
  iintro %_ HI
  unfold addInvB
  icases HI with ⟨Hs6, Hs7, %h9_9, Hs9, %hsum_9⟩
  have hd_8 := chunk_done72 d L fwi fei fwt fet (R0 L) _ _ hd_7 gA gEA (R0 L + 16 * w.val) hrA hrEA (3 : Fin 8) 128 (by decide) _ _ _ _
      (by exact gathered_payload_v0_0 d L fwt gA _ _ _ (3 : Fin 8) 128 (by decide) _ _ rfl rfl _ _ _ _ _)
      (by exact gathered_payload_v1_1 d L fet gEA _ _ _ (3 : Fin 8) 128 (by decide) _ _ rfl rfl _ _ _ _ _)
      (fun i => read_whole_piece6 d L _ _ _ i) (fun i => read_whole_piece7 d L _ _ _ i) h9_9 (fun t c => hsum_9 t c t.isLt)
      (by show _ = ((_ + 3) - _) * 200 + 128; omega) (by show R0 L ≤ _ + 3; omega) (by show _ + 3 < 4096; have := R0_lt L; omega)
      (k2_off32 L w 3#32) ((off32n L w 3 (by decide)).trans (congrArg (fun a => ![R0 L * 200 + a, 0]) (by omega)))
      (k2_off32_inb L w ⟨3, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t10 d L _ _ _ _ _
  iintro %_ HI
  unfold addInvA
  icases HI with ⟨Hs4, Hs5, %h8_10, Hs8, %hsum_10⟩
  have hd_9 := chunk_done128 d L fwi fei fwt fet (R0 L) _ _ hd_8 gA gEA (R0 L + 16 * w.val) hrA hrEA (4 : Fin 8) 0 (by decide) _ _ _ _
      (by exact gathered_payload_v0_0 d L fwt gA _ _ _ (4 : Fin 8) 0 (by decide) _ _ rfl rfl _ _ _ _ _)
      (by exact gathered_payload_v1_1 d L fet gEA _ _ _ (4 : Fin 8) 0 (by decide) _ _ rfl rfl _ _ _ _ _)
      (fun i => read_whole_piece4 d L _ _ _ i) (fun i => read_whole_piece5 d L _ _ _ i) h8_10 (fun t c => hsum_10 t c t.isLt)
      (by show _ = ((_ + 4) - _) * 200 + 0; omega) (by show R0 L ≤ _ + 4; omega) (by show _ + 4 < 4096; have := R0_lt L; omega)
      (k2_off17 L w 4#32) ((off17n L w 4 (by decide)).trans (congrArg (fun a => ![R0 L * 200 + a, 0]) (by omega)))
      (k2_off17_inb L w ⟨4, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t11 d L _ _ _ _ _ _
  iintro %_ HI
  unfold addInvB
  icases HI with ⟨Hs6, Hs7, %h9_11, Hs9, %hsum_11⟩
  have hd_10 := chunk_done72 d L fwi fei fwt fet (R0 L) _ _ hd_9 gA gEA (R0 L + 16 * w.val) hrA hrEA (4 : Fin 8) 128 (by decide) _ _ _ _
      (by exact gathered_payload_v0_0 d L fwt gA _ _ _ (4 : Fin 8) 128 (by decide) _ _ rfl rfl _ _ _ _ _)
      (by exact gathered_payload_v1_1 d L fet gEA _ _ _ (4 : Fin 8) 128 (by decide) _ _ rfl rfl _ _ _ _ _)
      (fun i => read_whole_piece6 d L _ _ _ i) (fun i => read_whole_piece7 d L _ _ _ i) h9_11 (fun t c => hsum_11 t c t.isLt)
      (by show _ = ((_ + 4) - _) * 200 + 128; omega) (by show R0 L ≤ _ + 4; omega) (by show _ + 4 < 4096; have := R0_lt L; omega)
      (k2_off32 L w 4#32) ((off32n L w 4 (by decide)).trans (congrArg (fun a => ![R0 L * 200 + a, 0]) (by omega)))
      (k2_off32_inb L w ⟨4, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t12 d L _ _ _
  iintro %_ HI
  unfold addInvA
  icases HI with ⟨Hs4, Hs5, %h8_12, Hs8, %hsum_12⟩
  have hd_11 := chunk_done128 d L fwi fei fwt fet (R0 L) _ _ hd_10 gA gEA (R0 L + 16 * w.val) hrA hrEA (5 : Fin 8) 0 (by decide) _ _ _ _
      (by exact gathered_payload_v0_0 d L fwt gA _ _ _ (5 : Fin 8) 0 (by decide) _ _ rfl rfl _ _ _ _ _)
      (by exact gathered_payload_v1_1 d L fet gEA _ _ _ (5 : Fin 8) 0 (by decide) _ _ rfl rfl _ _ _ _ _)
      (fun i => read_whole_piece4 d L _ _ _ i) (fun i => read_whole_piece5 d L _ _ _ i) h8_12 (fun t c => hsum_12 t c t.isLt)
      (by show _ = ((_ + 5) - _) * 200 + 0; omega) (by show R0 L ≤ _ + 5; omega) (by show _ + 5 < 4096; have := R0_lt L; omega)
      (k2_off17 L w 5#32) ((off17n L w 5 (by decide)).trans (congrArg (fun a => ![R0 L * 200 + a, 0]) (by omega)))
      (k2_off17_inb L w ⟨5, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t13 d L _ _ _ _ _ _
  iintro %_ HI
  unfold addInvB
  icases HI with ⟨Hs6, Hs7, %h9_13, Hs9, %hsum_13⟩
  have hd_12 := chunk_done72 d L fwi fei fwt fet (R0 L) _ _ hd_11 gA gEA (R0 L + 16 * w.val) hrA hrEA (5 : Fin 8) 128 (by decide) _ _ _ _
      (by exact gathered_payload_v0_0 d L fwt gA _ _ _ (5 : Fin 8) 128 (by decide) _ _ rfl rfl _ _ _ _ _)
      (by exact gathered_payload_v1_1 d L fet gEA _ _ _ (5 : Fin 8) 128 (by decide) _ _ rfl rfl _ _ _ _ _)
      (fun i => read_whole_piece6 d L _ _ _ i) (fun i => read_whole_piece7 d L _ _ _ i) h9_13 (fun t c => hsum_13 t c t.isLt)
      (by show _ = ((_ + 5) - _) * 200 + 128; omega) (by show R0 L ≤ _ + 5; omega) (by show _ + 5 < 4096; have := R0_lt L; omega)
      (k2_off32 L w 5#32) ((off32n L w 5 (by decide)).trans (congrArg (fun a => ![R0 L * 200 + a, 0]) (by omega)))
      (k2_off32_inb L w ⟨5, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t14 d L _ _ _
  iintro %_ HI
  unfold addInvA
  icases HI with ⟨Hs4, Hs5, %h8_14, Hs8, %hsum_14⟩
  have hd_13 := chunk_done128 d L fwi fei fwt fet (R0 L) _ _ hd_12 gA gEA (R0 L + 16 * w.val) hrA hrEA (6 : Fin 8) 0 (by decide) _ _ _ _
      (by exact gathered_payload_v0_0 d L fwt gA _ _ _ (6 : Fin 8) 0 (by decide) _ _ rfl rfl _ _ _ _ _)
      (by exact gathered_payload_v1_1 d L fet gEA _ _ _ (6 : Fin 8) 0 (by decide) _ _ rfl rfl _ _ _ _ _)
      (fun i => read_whole_piece4 d L _ _ _ i) (fun i => read_whole_piece5 d L _ _ _ i) h8_14 (fun t c => hsum_14 t c t.isLt)
      (by show _ = ((_ + 6) - _) * 200 + 0; omega) (by show R0 L ≤ _ + 6; omega) (by show _ + 6 < 4096; have := R0_lt L; omega)
      (k2_off17 L w 6#32) ((off17n L w 6 (by decide)).trans (congrArg (fun a => ![R0 L * 200 + a, 0]) (by omega)))
      (k2_off17_inb L w ⟨6, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t15 d L _ _ _ _ _ _ _ _
  iintro %_ HI
  unfold addInvB
  icases HI with ⟨Hs6, Hs7, %h9_15, Hs9, %hsum_15⟩
  have hd_14 := chunk_done72 d L fwi fei fwt fet (R0 L) _ _ hd_13 gA gEA (R0 L + 16 * w.val) hrA hrEA (6 : Fin 8) 128 (by decide) _ _ _ _
      (by exact gathered_payload_v0_0 d L fwt gA _ _ _ (6 : Fin 8) 128 (by decide) _ _ rfl rfl _ _ _ _ _)
      (by exact gathered_payload_v1_1 d L fet gEA _ _ _ (6 : Fin 8) 128 (by decide) _ _ rfl rfl _ _ _ _ _)
      (fun i => read_whole_piece6 d L _ _ _ i) (fun i => read_whole_piece7 d L _ _ _ i) h9_15 (fun t c => hsum_15 t c t.isLt)
      (by show _ = ((_ + 6) - _) * 200 + 128; omega) (by show R0 L ≤ _ + 6; omega) (by show _ + 6 < 4096; have := R0_lt L; omega)
      (k2_off32 L w 6#32) ((off32n L w 6 (by decide)).trans (congrArg (fun a => ![R0 L * 200 + a, 0]) (by omega)))
      (k2_off32_inb L w ⟨6, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t16 d L _ _ _ _ _ _ _ _
  iintro %_ HI
  unfold addInvA
  icases HI with ⟨Hs4, Hs5, %h8_16, Hs8, %hsum_16⟩
  have hd_15 := chunk_done128 d L fwi fei fwt fet (R0 L) _ _ hd_14 gA gEA (R0 L + 16 * w.val) hrA hrEA (7 : Fin 8) 0 (by decide) _ _ _ _
      (by exact gathered_payload_v0_0 d L fwt gA _ _ _ (7 : Fin 8) 0 (by decide) _ _ rfl rfl _ _ _ _ _)
      (by exact gathered_payload_v1_1 d L fet gEA _ _ _ (7 : Fin 8) 0 (by decide) _ _ rfl rfl _ _ _ _ _)
      (fun i => read_whole_piece4 d L _ _ _ i) (fun i => read_whole_piece5 d L _ _ _ i) h8_16 (fun t c => hsum_16 t c t.isLt)
      (by show _ = ((_ + 7) - _) * 200 + 0; omega) (by show R0 L ≤ _ + 7; omega) (by show _ + 7 < 4096; have := R0_lt L; omega)
      (k2_off17 L w 7#32) ((off17n L w 7 (by decide)).trans (congrArg (fun a => ![R0 L * 200 + a, 0]) (by omega)))
      (k2_off17_inb L w ⟨7, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t17 d L _ _ _
  iintro %_ HI
  unfold addInvB
  icases HI with ⟨Hs6, Hs7, %h9_17, Hs9, %hsum_17⟩
  have hd_16 := chunk_done72 d L fwi fei fwt fet (R0 L) _ _ hd_15 gA gEA (R0 L + 16 * w.val) hrA hrEA (7 : Fin 8) 128 (by decide) _ _ _ _
      (by exact gathered_payload_v0_0 d L fwt gA _ _ _ (7 : Fin 8) 128 (by decide) _ _ rfl rfl _ _ _ _ _)
      (by exact gathered_payload_v1_1 d L fet gEA _ _ _ (7 : Fin 8) 128 (by decide) _ _ rfl rfl _ _ _ _ _)
      (fun i => read_whole_piece6 d L _ _ _ i) (fun i => read_whole_piece7 d L _ _ _ i) h9_17 (fun t c => hsum_17 t c t.isLt)
      (by show _ = ((_ + 7) - _) * 200 + 128; omega) (by show R0 L ≤ _ + 7; omega) (by show _ + 7 < 4096; have := R0_lt L; omega)
      (k2_off32 L w 7#32) ((off32n L w 7 (by decide)).trans (congrArg (fun a => ![R0 L * 200 + a, 0]) (by omega)))
      (k2_off32_inb L w ⟨7, by decide⟩) (fun _ => rfl)
  sl_exec_parts
  have hpA : ∀ j, (trip_sound.sl.dma1 d L fwi w j : BitVec 32).toNat < 100000 := fun j => by unfold trip_sound.sl.dma1; exact hwi _
  have hinA' := lt_winw0 d L 100000 gA _ hpA
  have hpEA : ∀ j, (trip_sound.sl.dma2 d L fei w j : BitVec 32).toNat < 1000000 := fun j => by unfold trip_sound.sl.dma2; exact hei _
  have hinEA' := lt_winw1 d L 1000000 gEA _ hpEA
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t18 d L _ _ _
  iintro %_ HI
  unfold addInvA
  icases HI with ⟨Hs4, Hs5, %h8_18, Hs8, %hsum_18⟩
  have hd_17 := chunk_done128 d L fwi fei fwt fet (R0 L) _ _ hd_16 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (0 : Fin 8) 0 (by decide) _ _ _ _
      (by exact gathered_payload_v0_2 d L fwt (View.write (Elt F) (Memref.whole cc2_scratch2).view f2 payB Finset.univ) _ _ _ (0 : Fin 8) 0 (by decide) _ _ rfl rfl _ _ _ _ _)
      (by exact gathered_payload_v1_3 d L fet (View.write (Elt F) (Memref.whole cc2_scratch3).view f3 payEB Finset.univ) _ _ _ (0 : Fin 8) 0 (by decide) _ _ rfl rfl _ _ _ _ _)
      (fun i => read_whole_piece4 d L _ _ _ i) (fun i => read_whole_piece5 d L _ _ _ i) h8_18 (fun t c => hsum_18 t c t.isLt)
      (by show _ = ((_ + 0) - _) * 200 + 0; omega) (by show R0 L ≤ _ + 0; omega) (by show _ + 0 < 4096; have := R0_lt L; omega)
      (k2_off17 L w 8#32) ((off17n L w 8 (by decide)).trans (congrArg (fun a => ![R0 L * 200 + a, 0]) (by omega)))
      (k2_off17_inb L w ⟨8, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t19 d L _ _ _
  iintro %_ HI
  unfold addInvB
  icases HI with ⟨Hs6, Hs7, %h9_19, Hs9, %hsum_19⟩
  have hd_18 := chunk_done72 d L fwi fei fwt fet (R0 L) _ _ hd_17 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (0 : Fin 8) 128 (by decide) _ _ _ _
      (by exact gathered_payload_v0_2 d L fwt (View.write (Elt F) (Memref.whole cc2_scratch2).view f2 payB Finset.univ) _ _ _ (0 : Fin 8) 128 (by decide) _ _ rfl rfl _ _ _ _ _)
      (by exact gathered_payload_v1_3 d L fet (View.write (Elt F) (Memref.whole cc2_scratch3).view f3 payEB Finset.univ) _ _ _ (0 : Fin 8) 128 (by decide) _ _ rfl rfl _ _ _ _ _)
      (fun i => read_whole_piece6 d L _ _ _ i) (fun i => read_whole_piece7 d L _ _ _ i) h9_19 (fun t c => hsum_19 t c t.isLt)
      (by show _ = ((_ + 0) - _) * 200 + 128; omega) (by show R0 L ≤ _ + 0; omega) (by show _ + 0 < 4096; have := R0_lt L; omega)
      (k2_off32 L w 8#32) ((off32n L w 8 (by decide)).trans (congrArg (fun a => ![R0 L * 200 + a, 0]) (by omega)))
      (k2_off32_inb L w ⟨8, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t20 d L _ _ _ _ _ _
  iintro %_ HI
  unfold addInvA
  icases HI with ⟨Hs4, Hs5, %h8_20, Hs8, %hsum_20⟩
  have hd_19 := chunk_done128 d L fwi fei fwt fet (R0 L) _ _ hd_18 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (1 : Fin 8) 0 (by decide) _ _ _ _
      (by exact gathered_payload_v0_2 d L fwt (View.write (Elt F) (Memref.whole cc2_scratch2).view f2 payB Finset.univ) _ _ _ (1 : Fin 8) 0 (by decide) _ _ rfl rfl _ _ _ _ _)
      (by exact gathered_payload_v1_3 d L fet (View.write (Elt F) (Memref.whole cc2_scratch3).view f3 payEB Finset.univ) _ _ _ (1 : Fin 8) 0 (by decide) _ _ rfl rfl _ _ _ _ _)
      (fun i => read_whole_piece4 d L _ _ _ i) (fun i => read_whole_piece5 d L _ _ _ i) h8_20 (fun t c => hsum_20 t c t.isLt)
      (by show _ = ((_ + 1) - _) * 200 + 0; omega) (by show R0 L ≤ _ + 1; omega) (by show _ + 1 < 4096; have := R0_lt L; omega)
      (k2_off17 L w 9#32) ((off17n L w 9 (by decide)).trans (congrArg (fun a => ![R0 L * 200 + a, 0]) (by omega)))
      (k2_off17_inb L w ⟨9, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t21 d L _ _ _ _ _
  iintro %_ HI
  unfold addInvB
  icases HI with ⟨Hs6, Hs7, %h9_21, Hs9, %hsum_21⟩
  have hd_20 := chunk_done72 d L fwi fei fwt fet (R0 L) _ _ hd_19 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (1 : Fin 8) 128 (by decide) _ _ _ _
      (by exact gathered_payload_v0_2 d L fwt (View.write (Elt F) (Memref.whole cc2_scratch2).view f2 payB Finset.univ) _ _ _ (1 : Fin 8) 128 (by decide) _ _ rfl rfl _ _ _ _ _)
      (by exact gathered_payload_v1_3 d L fet (View.write (Elt F) (Memref.whole cc2_scratch3).view f3 payEB Finset.univ) _ _ _ (1 : Fin 8) 128 (by decide) _ _ rfl rfl _ _ _ _ _)
      (fun i => read_whole_piece6 d L _ _ _ i) (fun i => read_whole_piece7 d L _ _ _ i) h9_21 (fun t c => hsum_21 t c t.isLt)
      (by show _ = ((_ + 1) - _) * 200 + 128; omega) (by show R0 L ≤ _ + 1; omega) (by show _ + 1 < 4096; have := R0_lt L; omega)
      (k2_off32 L w 9#32) ((off32n L w 9 (by decide)).trans (congrArg (fun a => ![R0 L * 200 + a, 0]) (by omega)))
      (k2_off32_inb L w ⟨9, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t22 d L _ _ _ _ _ _
  iintro %_ HI
  unfold addInvA
  icases HI with ⟨Hs4, Hs5, %h8_22, Hs8, %hsum_22⟩
  have hd_21 := chunk_done128 d L fwi fei fwt fet (R0 L) _ _ hd_20 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (2 : Fin 8) 0 (by decide) _ _ _ _
      (by exact gathered_payload_v0_2 d L fwt (View.write (Elt F) (Memref.whole cc2_scratch2).view f2 payB Finset.univ) _ _ _ (2 : Fin 8) 0 (by decide) _ _ rfl rfl _ _ _ _ _)
      (by exact gathered_payload_v1_3 d L fet (View.write (Elt F) (Memref.whole cc2_scratch3).view f3 payEB Finset.univ) _ _ _ (2 : Fin 8) 0 (by decide) _ _ rfl rfl _ _ _ _ _)
      (fun i => read_whole_piece4 d L _ _ _ i) (fun i => read_whole_piece5 d L _ _ _ i) h8_22 (fun t c => hsum_22 t c t.isLt)
      (by show _ = ((_ + 2) - _) * 200 + 0; omega) (by show R0 L ≤ _ + 2; omega) (by show _ + 2 < 4096; have := R0_lt L; omega)
      (k2_off17 L w 10#32) ((off17n L w 10 (by decide)).trans (congrArg (fun a => ![R0 L * 200 + a, 0]) (by omega)))
      (k2_off17_inb L w ⟨10, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t23 d L _ _ _ _ _ _
  iintro %_ HI
  unfold addInvB
  icases HI with ⟨Hs6, Hs7, %h9_23, Hs9, %hsum_23⟩
  have hd_22 := chunk_done72 d L fwi fei fwt fet (R0 L) _ _ hd_21 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (2 : Fin 8) 128 (by decide) _ _ _ _
      (by exact gathered_payload_v0_2 d L fwt (View.write (Elt F) (Memref.whole cc2_scratch2).view f2 payB Finset.univ) _ _ _ (2 : Fin 8) 128 (by decide) _ _ rfl rfl _ _ _ _ _)
      (by exact gathered_payload_v1_3 d L fet (View.write (Elt F) (Memref.whole cc2_scratch3).view f3 payEB Finset.univ) _ _ _ (2 : Fin 8) 128 (by decide) _ _ rfl rfl _ _ _ _ _)
      (fun i => read_whole_piece6 d L _ _ _ i) (fun i => read_whole_piece7 d L _ _ _ i) h9_23 (fun t c => hsum_23 t c t.isLt)
      (by show _ = ((_ + 2) - _) * 200 + 128; omega) (by show R0 L ≤ _ + 2; omega) (by show _ + 2 < 4096; have := R0_lt L; omega)
      (k2_off32 L w 10#32) ((off32n L w 10 (by decide)).trans (congrArg (fun a => ![R0 L * 200 + a, 0]) (by omega)))
      (k2_off32_inb L w ⟨10, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t24 d L _ _ _
  iintro %_ HI
  unfold addInvA
  icases HI with ⟨Hs4, Hs5, %h8_24, Hs8, %hsum_24⟩
  have hd_23 := chunk_done128 d L fwi fei fwt fet (R0 L) _ _ hd_22 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (3 : Fin 8) 0 (by decide) _ _ _ _
      (by exact gathered_payload_v0_2 d L fwt (View.write (Elt F) (Memref.whole cc2_scratch2).view f2 payB Finset.univ) _ _ _ (3 : Fin 8) 0 (by decide) _ _ rfl rfl _ _ _ _ _)
      (by exact gathered_payload_v1_3 d L fet (View.write (Elt F) (Memref.whole cc2_scratch3).view f3 payEB Finset.univ) _ _ _ (3 : Fin 8) 0 (by decide) _ _ rfl rfl _ _ _ _ _)
      (fun i => read_whole_piece4 d L _ _ _ i) (fun i => read_whole_piece5 d L _ _ _ i) h8_24 (fun t c => hsum_24 t c t.isLt)
      (by show _ = ((_ + 3) - _) * 200 + 0; omega) (by show R0 L ≤ _ + 3; omega) (by show _ + 3 < 4096; have := R0_lt L; omega)
      (k2_off17 L w 11#32) ((off17n L w 11 (by decide)).trans (congrArg (fun a => ![R0 L * 200 + a, 0]) (by omega)))
      (k2_off17_inb L w ⟨11, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t25 d L _ _ _ _ _ _
  iintro %_ HI
  unfold addInvB
  icases HI with ⟨Hs6, Hs7, %h9_25, Hs9, %hsum_25⟩
  have hd_24 := chunk_done72 d L fwi fei fwt fet (R0 L) _ _ hd_23 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (3 : Fin 8) 128 (by decide) _ _ _ _
      (by exact gathered_payload_v0_2 d L fwt (View.write (Elt F) (Memref.whole cc2_scratch2).view f2 payB Finset.univ) _ _ _ (3 : Fin 8) 128 (by decide) _ _ rfl rfl _ _ _ _ _)
      (by exact gathered_payload_v1_3 d L fet (View.write (Elt F) (Memref.whole cc2_scratch3).view f3 payEB Finset.univ) _ _ _ (3 : Fin 8) 128 (by decide) _ _ rfl rfl _ _ _ _ _)
      (fun i => read_whole_piece6 d L _ _ _ i) (fun i => read_whole_piece7 d L _ _ _ i) h9_25 (fun t c => hsum_25 t c t.isLt)
      (by show _ = ((_ + 3) - _) * 200 + 128; omega) (by show R0 L ≤ _ + 3; omega) (by show _ + 3 < 4096; have := R0_lt L; omega)
      (k2_off32 L w 11#32) ((off32n L w 11 (by decide)).trans (congrArg (fun a => ![R0 L * 200 + a, 0]) (by omega)))
      (k2_off32_inb L w ⟨11, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t26 d L _ _ _
  iintro %_ HI
  unfold addInvA
  icases HI with ⟨Hs4, Hs5, %h8_26, Hs8, %hsum_26⟩
  have hd_25 := chunk_done128 d L fwi fei fwt fet (R0 L) _ _ hd_24 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (4 : Fin 8) 0 (by decide) _ _ _ _
      (by exact gathered_payload_v0_2 d L fwt (View.write (Elt F) (Memref.whole cc2_scratch2).view f2 payB Finset.univ) _ _ _ (4 : Fin 8) 0 (by decide) _ _ rfl rfl _ _ _ _ _)
      (by exact gathered_payload_v1_3 d L fet (View.write (Elt F) (Memref.whole cc2_scratch3).view f3 payEB Finset.univ) _ _ _ (4 : Fin 8) 0 (by decide) _ _ rfl rfl _ _ _ _ _)
      (fun i => read_whole_piece4 d L _ _ _ i) (fun i => read_whole_piece5 d L _ _ _ i) h8_26 (fun t c => hsum_26 t c t.isLt)
      (by show _ = ((_ + 4) - _) * 200 + 0; omega) (by show R0 L ≤ _ + 4; omega) (by show _ + 4 < 4096; have := R0_lt L; omega)
      (k2_off17 L w 12#32) ((off17n L w 12 (by decide)).trans (congrArg (fun a => ![R0 L * 200 + a, 0]) (by omega)))
      (k2_off17_inb L w ⟨12, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t27 d L _ _ _
  iintro %_ HI
  unfold addInvB
  icases HI with ⟨Hs6, Hs7, %h9_27, Hs9, %hsum_27⟩
  have hd_26 := chunk_done72 d L fwi fei fwt fet (R0 L) _ _ hd_25 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (4 : Fin 8) 128 (by decide) _ _ _ _
      (by exact gathered_payload_v0_2 d L fwt (View.write (Elt F) (Memref.whole cc2_scratch2).view f2 payB Finset.univ) _ _ _ (4 : Fin 8) 128 (by decide) _ _ rfl rfl _ _ _ _ _)
      (by exact gathered_payload_v1_3 d L fet (View.write (Elt F) (Memref.whole cc2_scratch3).view f3 payEB Finset.univ) _ _ _ (4 : Fin 8) 128 (by decide) _ _ rfl rfl _ _ _ _ _)
      (fun i => read_whole_piece6 d L _ _ _ i) (fun i => read_whole_piece7 d L _ _ _ i) h9_27 (fun t c => hsum_27 t c t.isLt)
      (by show _ = ((_ + 4) - _) * 200 + 128; omega) (by show R0 L ≤ _ + 4; omega) (by show _ + 4 < 4096; have := R0_lt L; omega)
      (k2_off32 L w 12#32) ((off32n L w 12 (by decide)).trans (congrArg (fun a => ![R0 L * 200 + a, 0]) (by omega)))
      (k2_off32_inb L w ⟨12, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t28 d L _ _ _ _ _ _
  iintro %_ HI
  unfold addInvA
  icases HI with ⟨Hs4, Hs5, %h8_28, Hs8, %hsum_28⟩
  have hd_27 := chunk_done128 d L fwi fei fwt fet (R0 L) _ _ hd_26 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (5 : Fin 8) 0 (by decide) _ _ _ _
      (by exact gathered_payload_v0_2 d L fwt (View.write (Elt F) (Memref.whole cc2_scratch2).view f2 payB Finset.univ) _ _ _ (5 : Fin 8) 0 (by decide) _ _ rfl rfl _ _ _ _ _)
      (by exact gathered_payload_v1_3 d L fet (View.write (Elt F) (Memref.whole cc2_scratch3).view f3 payEB Finset.univ) _ _ _ (5 : Fin 8) 0 (by decide) _ _ rfl rfl _ _ _ _ _)
      (fun i => read_whole_piece4 d L _ _ _ i) (fun i => read_whole_piece5 d L _ _ _ i) h8_28 (fun t c => hsum_28 t c t.isLt)
      (by show _ = ((_ + 5) - _) * 200 + 0; omega) (by show R0 L ≤ _ + 5; omega) (by show _ + 5 < 4096; have := R0_lt L; omega)
      (k2_off17 L w 13#32) ((off17n L w 13 (by decide)).trans (congrArg (fun a => ![R0 L * 200 + a, 0]) (by omega)))
      (k2_off17_inb L w ⟨13, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t29 d L _ _ _ _ _
  iintro %_ HI
  unfold addInvB
  icases HI with ⟨Hs6, Hs7, %h9_29, Hs9, %hsum_29⟩
  have hd_28 := chunk_done72 d L fwi fei fwt fet (R0 L) _ _ hd_27 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (5 : Fin 8) 128 (by decide) _ _ _ _
      (by exact gathered_payload_v0_2 d L fwt (View.write (Elt F) (Memref.whole cc2_scratch2).view f2 payB Finset.univ) _ _ _ (5 : Fin 8) 128 (by decide) _ _ rfl rfl _ _ _ _ _)
      (by exact gathered_payload_v1_3 d L fet (View.write (Elt F) (Memref.whole cc2_scratch3).view f3 payEB Finset.univ) _ _ _ (5 : Fin 8) 128 (by decide) _ _ rfl rfl _ _ _ _ _)
      (fun i => read_whole_piece6 d L _ _ _ i) (fun i => read_whole_piece7 d L _ _ _ i) h9_29 (fun t c => hsum_29 t c t.isLt)
      (by show _ = ((_ + 5) - _) * 200 + 128; omega) (by show R0 L ≤ _ + 5; omega) (by show _ + 5 < 4096; have := R0_lt L; omega)
      (k2_off32 L w 13#32) ((off32n L w 13 (by decide)).trans (congrArg (fun a => ![R0 L * 200 + a, 0]) (by omega)))
      (k2_off32_inb L w ⟨13, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t30 d L _ _ _ _ _ _
  iintro %_ HI
  unfold addInvA
  icases HI with ⟨Hs4, Hs5, %h8_30, Hs8, %hsum_30⟩
  have hd_29 := chunk_done128 d L fwi fei fwt fet (R0 L) _ _ hd_28 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (6 : Fin 8) 0 (by decide) _ _ _ _
      (by exact gathered_payload_v0_2 d L fwt (View.write (Elt F) (Memref.whole cc2_scratch2).view f2 payB Finset.univ) _ _ _ (6 : Fin 8) 0 (by decide) _ _ rfl rfl _ _ _ _ _)
      (by exact gathered_payload_v1_3 d L fet (View.write (Elt F) (Memref.whole cc2_scratch3).view f3 payEB Finset.univ) _ _ _ (6 : Fin 8) 0 (by decide) _ _ rfl rfl _ _ _ _ _)
      (fun i => read_whole_piece4 d L _ _ _ i) (fun i => read_whole_piece5 d L _ _ _ i) h8_30 (fun t c => hsum_30 t c t.isLt)
      (by show _ = ((_ + 6) - _) * 200 + 0; omega) (by show R0 L ≤ _ + 6; omega) (by show _ + 6 < 4096; have := R0_lt L; omega)
      (k2_off17 L w 14#32) ((off17n L w 14 (by decide)).trans (congrArg (fun a => ![R0 L * 200 + a, 0]) (by omega)))
      (k2_off17_inb L w ⟨14, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t31 d L _ _ _ _ _ _
  iintro %_ HI
  unfold addInvB
  icases HI with ⟨Hs6, Hs7, %h9_31, Hs9, %hsum_31⟩
  have hd_30 := chunk_done72 d L fwi fei fwt fet (R0 L) _ _ hd_29 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (6 : Fin 8) 128 (by decide) _ _ _ _
      (by exact gathered_payload_v0_2 d L fwt (View.write (Elt F) (Memref.whole cc2_scratch2).view f2 payB Finset.univ) _ _ _ (6 : Fin 8) 128 (by decide) _ _ rfl rfl _ _ _ _ _)
      (by exact gathered_payload_v1_3 d L fet (View.write (Elt F) (Memref.whole cc2_scratch3).view f3 payEB Finset.univ) _ _ _ (6 : Fin 8) 128 (by decide) _ _ rfl rfl _ _ _ _ _)
      (fun i => read_whole_piece6 d L _ _ _ i) (fun i => read_whole_piece7 d L _ _ _ i) h9_31 (fun t c => hsum_31 t c t.isLt)
      (by show _ = ((_ + 6) - _) * 200 + 128; omega) (by show R0 L ≤ _ + 6; omega) (by show _ + 6 < 4096; have := R0_lt L; omega)
      (k2_off32 L w 14#32) ((off32n L w 14 (by decide)).trans (congrArg (fun a => ![R0 L * 200 + a, 0]) (by omega)))
      (k2_off32_inb L w ⟨14, by decide⟩) (fun _ => rfl)
  sl_exec_parts
  sl_for (addInvA d L _ _) $$ [Hs4 Hs5 Hs8]
  pick_goal 2
  · unfold addInvA
    isplitl [Hs4]; · iexact Hs4
    isplitl [Hs5]; · iexact Hs5
    iexists _; isplitl [Hs8]; · iexact Hs8
    ipureintro; intro r c hr; exact absurd hr (Nat.not_lt_zero _)
  case region => exact region_t32 d L _ _ _
  iintro %_ HI
  unfold addInvA
  icases HI with ⟨Hs4, Hs5, %h8_32, Hs8, %hsum_32⟩
  have hd_31 := chunk_done128 d L fwi fei fwt fet (R0 L) _ _ hd_30 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (7 : Fin 8) 0 (by decide) _ _ _ _
      (by exact gathered_payload_v0_2 d L fwt (View.write (Elt F) (Memref.whole cc2_scratch2).view f2 payB Finset.univ) _ _ _ (7 : Fin 8) 0 (by decide) _ _ rfl rfl _ _ _ _ _)
      (by exact gathered_payload_v1_3 d L fet (View.write (Elt F) (Memref.whole cc2_scratch3).view f3 payEB Finset.univ) _ _ _ (7 : Fin 8) 0 (by decide) _ _ rfl rfl _ _ _ _ _)
      (fun i => read_whole_piece4 d L _ _ _ i) (fun i => read_whole_piece5 d L _ _ _ i) h8_32 (fun t c => hsum_32 t c t.isLt)
      (by show _ = ((_ + 7) - _) * 200 + 0; omega) (by show R0 L ≤ _ + 7; omega) (by show _ + 7 < 4096; have := R0_lt L; omega)
      (k2_off17 L w 15#32) ((off17n L w 15 (by decide)).trans (congrArg (fun a => ![R0 L * 200 + a, 0]) (by omega)))
      (k2_off17_inb L w ⟨15, by decide⟩) (fun _ => rfl)
  sl_exec_parts
  sl_for (addInvB d L _ _) $$ [Hs6 Hs7 Hs9]
  pick_goal 2
  · unfold addInvB
    isplitl [Hs6]; · iexact Hs6
    isplitl [Hs7]; · iexact Hs7
    iexists _; isplitl [Hs9]; · iexact Hs9
    ipureintro; intro r c hr; exact absurd hr (Nat.not_lt_zero _)
  case region => exact region_t33 d L _ _ _ _ _ _ _
  iintro %_ HI
  unfold addInvB
  icases HI with ⟨Hs6, Hs7, %h9_33, Hs9, %hsum_33⟩
  have hd_32 := chunk_done72 d L fwi fei fwt fet (R0 L) _ _ hd_31 (View.write (Elt F) (Memref.whole cc2_scratch2).view f2 payB Finset.univ) (View.write (Elt F) (Memref.whole cc2_scratch3).view f3 payEB Finset.univ) (R0 L + 16 * w.val + 8) (rowsAt_write2 d L f2 payB _ _ hrB) (rowsAt_write3 d L f3 payEB _ _ hrEB) (7 : Fin 8) 128 (by decide) _ _ _ _
      (by exact gathered_payload_v0_2 d L fwt (View.write (Elt F) (Memref.whole cc2_scratch2).view f2 payB Finset.univ) _ _ _ (7 : Fin 8) 128 (by decide) _ _ rfl rfl _ _ _ _ _)
      (by exact gathered_payload_v1_3 d L fet (View.write (Elt F) (Memref.whole cc2_scratch3).view f3 payEB Finset.univ) _ _ _ (7 : Fin 8) 128 (by decide) _ _ rfl rfl _ _ _ _ _)
      (fun i => read_whole_piece6 d L _ _ _ i) (fun i => read_whole_piece7 d L _ _ _ i) h9_33 (fun t c => hsum_33 t c t.isLt)
      (by show _ = ((_ + 7) - _) * 200 + 128; omega) (by show R0 L ≤ _ + 7; omega) (by show _ + 7 < 4096; have := R0_lt L; omega)
      (k2_off32 L w 15#32) ((off32n L w 15 (by decide)).trans (congrArg (fun a => ![R0 L * 200 + a, 0]) (by omega)))
      (k2_off32_inb L w ⟨15, by decide⟩) (fun _ => rfl)
  sl_exec_parts
  sl_step
  iexists _
  iexists (View.write (Elt F) (Memref.whole cc2_scratch0).view gA (trip_sound.sl.dma1 d L fwi w) Finset.univ)
  iexists (View.write (Elt F) (Memref.whole cc2_scratch1).view gEA (trip_sound.sl.dma2 d L fei w) Finset.univ)
  iexists _
  iexists _
  iexists _
  iexists _
  iexists _
  iexists _
  iexists _
  iexists _
  iexists (trip_sound.sl.dma1_1 d L fwi w)
  iexists (trip_sound.sl.dma2_1 d L fei w)
  iexists (⟨k2_off455 L w, k2_off455_inb L w⟩ : {off : Fin 2 → Nat // ∀ a, off a + S8x200.size a ≤ S4096x200.size a})
  iexists _
  isplitl [Hmw]; · iexact Hmw
  isplitl [Ho]; · iexact Ho
  isplitl [Hs6]; · iexact Hs6
  isplitl [Hs7]; · iexact Hs7
  isplitl [Hs8]; · iexact Hs8
  isplitl [Hs9]; · iexact Hs9
  isplitl [HO]; · iexact HO
  isplitl [Hwi]; · iexact Hwi
  isplitl [Hwi']; · iexact Hwi'
  isplitl [HbatB]; · iexact HbatB
  isplitl [Hei]; · iexact Hei
  isplitl [Hei']; · iexact Hei'
  isplitl [Hfl8]; · iexact Hfl8
  isplitl [Hwt]; · iexact Hwt
  isplitl [Hwt']; · iexact Hwt'
  isplitl [Hs4]; · iexact Hs4
  isplitl [Hs0]; · iexact Hs0
  isplitl [Hfl9]; · iexact Hfl9
  isplitl [Het]; · iexact Het
  isplitl [Het']; · iexact Het'
  isplitl [Hs5]; · iexact Hs5
  isplitl [Hs1]; · iexact Hs1
  isplitl [Hm0]; · iexact Hm0
  isplitl [Hm1]; · iexact Hm1
  isplitl [Hm2]; · iexact Hm2
  isplitl [Hm3]; · iexact Hm3
  isplitl [Hm4]; · iexact Hm4
  isplitl [Hm5]; · iexact Hm5
  isplitl [Hm6]; · iexact Hm6
  isplitl [Hm7]; · iexact Hm7
  isplitl [Hm8]; · iexact Hm8
  isplitl [Hm9]; · iexact Hm9
  isplitl [Hm10]; · iexact Hm10
  isplitl [Hm11]; · iexact Hm11
  isplitl [Hm12]; · iexact Hm12
  isplitl [Hm13]; · iexact Hm13
  isplitl [Hm14]; · iexact Hm14
  isplitl [Hm15]; · iexact Hm15
  isplitl [Hm16]; · iexact Hm16
  isplitl [Hm17]; · iexact Hm17
  isplitl [Hm18]; · iexact Hm18
  isplitl [Hm19]; · iexact Hm19
  isplitl [Hm20]; · iexact Hm20
  isplitl [Hm21]; · iexact Hm21
  isplitl [Hm22]; · iexact Hm22
  isplitl [Hm23]; · iexact Hm23
  isplitl [Hm24]; · iexact Hm24
  isplitl [Hm25]; · iexact Hm25
  isplitl [Hm26]; · iexact Hm26
  isplitl [Hm27]; · iexact Hm27
  isplitl [Hm28]; · iexact Hm28
  isplitl [Hm29]; · iexact Hm29
  isplitl [Hm30]; · iexact Hm30
  isplitl [Hm31]; · iexact Hm31
  isplitl [Hm32]; · iexact Hm32
  isplitl [Hm33]; · iexact Hm33
  isplitl [Hm34]; · iexact Hm34
  isplitl [Hm35]; · iexact Hm35
  isplitl [Hm36]; · iexact Hm36
  ipureintro
  have hpB' : ∀ j, (trip_sound.sl.dma1_1 d L fwi w j : BitVec 32).toNat < 100000 := fun j => by unfold trip_sound.sl.dma1_1; exact hwi _
  have hpEB' : ∀ j, (trip_sound.sl.dma2_1 d L fei w j : BitVec 32).toNat < 1000000 := fun j => by unfold trip_sound.sl.dma2_1; exact hei _
  refine ⟨?_, ?_, hpB', hpEB', ?_, ?_, ?_, ?_, ?_, ?_, ?_, ?_⟩
  · intro j; rw [write_univ0 d L gA _ j]; exact hpA j
  · intro j; rw [write_univ1 d L gEA _ j]; exact hpEA j
  · repeat (first | exact hW' | apply waits_insert)
  · exact rowsAt_write0 d L gA _ fwi _ (rows_of_stage0 d L fwi _ (sA_le L _) _ (off230' L w) _ _)
  · exact rowsAt_write1 d L gEA _ fei _ (rows_of_stage1 d L fei _ (sA_le L _) _ (off230' L w) _ _)
  · exact rows_of_stage0 d L fwi _ (sB_le L _) _ (off455' L w) _ _
  · exact rows_of_stage1 d L fei _ (sB_le L _) _ (off455' L w) _ _
  · exact fun t c => (read_whole_piece4 d L _ _ _ _).trans ((gathered_payload_v0_0 d L fwt (View.write (Elt F) (Memref.whole cc2_scratch0).view gA (trip_sound.sl.dma1 d L fwi w) Finset.univ) _ _ _ (0 : Fin 8) 0 (by decide) _ _ rfl rfl _ _ _ _ _) t c)
  · exact fun t c => (read_whole_piece5 d L _ _ _ _).trans ((gathered_payload_v1_1 d L fet (View.write (Elt F) (Memref.whole cc2_scratch1).view gEA (trip_sound.sl.dma2 d L fei w) Finset.univ) _ _ _ (0 : Fin 8) 0 (by decide) _ _ rfl rfl _ _ _ _ _) t c)
  · exact hd_32.cast (by omega)

end Cert.Proof.KK

end
-- ==== Proof.KK.BodyMain.lean ====
/-
  The worker's task meets its specification: the body around its outer loop, with the trip's own theorem supplied. Under
  in-range row numbers a worker turns its read shares of the four inputs and its block of the flat result into the same
  shares and the block at the flat sum of the two look-ups.
-/
import proofs.«206319_g15771119910948_cont_week2b_672_19_alg».proof.Proof.KK.Body
import proofs.«206319_g15771119910948_cont_week2b_672_19_alg».proof.Proof.KK.BodyTrip

noncomputable section

namespace Cert.Proof.KK

open Cert.Kernel Cert.Kernel.Gen
open Idealize.ShloMosaic

variable {F : FTy → Type} [FloatOps F]

theorem tile_body (X : Arrays F) (hr : InRange X) : TileBodySpec X :=
  tile_body_of_trip X hr (fun d L O W _ => trip_sound d L _ _ O W _ _ _ _ (hr d).1 (hr d).2)

end Cert.Proof.KK

end
-- ==== Proof.lean ====
/-
  The certificate of an embedding look-up. For 4096 sentences of 200 positions, position (b, s) names a row of a table
  of 100000 word vectors and a row of a table of 1000000 extended-word vectors, each 100 numbers wide; the result at
  (b, s, d) is entry d of the one row plus entry d of the other. The reference computes exactly that with two gathers and
  an addition. The kernel first widens each table to 128 columns by zeros on the right, block of 20000 rows by block, on
  the TensorCore; then thirty-two vector subcores, sixteen on each of two SparseCores, each take 128 sentences: a subcore
  copies its sentences' row numbers in, gathers the named rows of both widened tables by indexed copies, adds the first
  100 columns of the two gathered rows, and copies the sums out to its 25600 rows of a flat result of 819200 rows; the
  flat result is finally read as sentences of positions. Under the precondition every row number names a row, so every
  indexed copy lands and every thread ends; the widened tables are read only below column 100, where they are the
  tables themselves, and row 200·b + s of the flat result is position (b, s), so the kernel's result is the sum of the
  two look-ups — the reference's result. The arguments are only read. Both printed programs, at the word level and
  idealized, get this run; the idealization rewrote nothing.
-/
import proofs.«206319_g15771119910948_cont_week2b_672_19_alg».proof.Defs
import proofs.«206319_g15771119910948_cont_week2b_672_19_alg».proof.Proof.Assemble
import proofs.«206319_g15771119910948_cont_week2b_672_19_alg».proof.Proof.KI.BodyMain
import proofs.«206319_g15771119910948_cont_week2b_672_19_alg».proof.Proof.KK.BodyMain

noncomputable section

namespace Cert.Proof

theorem claim : Cert.Claim :=
  Cert.Proof.Assemble.claim_of_bodies (fun X h => Cert.Proof.KI.tile_body X h) (fun X h => Cert.Proof.KK.tile_body X h)

end Cert.Proof

end
